-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v176)) (v1 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_v177) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S1600000 : Shape := ⟨1, ![1600000]⟩
abbrev S2x3x128x128 : Shape := ⟨4, ![2, 3, 128, 128]⟩
abbrev S2x128x128 : Shape := ⟨3, ![2, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part2 {F : FTy → Type} [FloatOps F] (main_arg7 : FVec F S2x128x128 .f32) (main_arg8 : FVec F S2x128x128 .f32) (main_v33 : IVec S_ 1) : IVec S_ 1 :=
  let main_v34 : FVec F S2x128x128 .f32 := Host.absf main_arg7
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  main_v43

def fn_part1 {F : FTy → Type} [FloatOps F] (main_arg4 : FVec F S1600000 .f32) (main_arg5 : FVec F S2x3x128x128 .f32) (main_arg6 : FVec F S2x3x128x128 .f32) (main_arg7 : FVec F S2x128x128 .f32) (main_arg8 : FVec F S2x128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S2x3x128x128 .f32 := Host.absf main_arg5
  let main_cst_8 : FVec F S_ .f32 := constant S_ .f32 0x7F800000#32
  let main_v25 : FVec F S2x3x128x128 .f32 := broadcastInDim S2x3x128x128 ![] bcast_S_S2x3x128x128 main_cst_8
  let main_v26 : IVec S2x3x128x128 1 := cmpf .olt main_v24 main_v25
  let main_c_9 : IVec S_ 1 := constantI S_ 1 1#1
  let main_v27 : IVec S_ 1 := (fun x v => Host.reduce IntOp.andi x v reducesTo_S2x3x128x128_S_d0_1_2_3 h_S_) main_v26 main_c_9
  let main_v28 : IVec S_ 1 := andi main_v23 main_v27
  let main_v29 : FVec F S2x3x128x128 .f32 := Host.absf main_arg6
  let main_cst_10 : FVec F S_ .f32 := constant S_ .f32 0x7F800000#32
  let main_v30 : FVec F S2x3x128x128 .f32 := broadcastInDim S2x3x128x128 ![] bcast_S_S2x3x128x128 main_cst_10
  let main_v31 : IVec S2x3x128x128 1 := cmpf .olt main_v29 main_v30
  let main_c_11 : IVec S_ 1 := constantI S_ 1 1#1
  let main_v32 : IVec S_ 1 := (fun x v => Host.reduce IntOp.andi x v reducesTo_S2x3x128x128_S_d0_1_2_3 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S50000x128 .f32) (main_arg2 : FVec F S128x128 .f32) (main_arg3 : FVec F S128x128 .f32) (main_arg4 : FVec F S1600000 .f32) (main_arg5 : FVec F S2x3x128x128 .f32) (main_arg6 : FVec F S2x3x128x128 .f32) (main_arg7 : FVec F S2x128x128 .f32) (main_arg8 : FVec F S2x128x128 .f32) (main_arg9 : IVec S1600000 32) (main_arg10 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S1600000 : Shape := ⟨1, ![1600000]⟩
abbrev S2x3x128x128 : Shape := ⟨4, ![2, 3, 128, 128]⟩
abbrev S2x128x128 : Shape := ⟨3, ![2, 128, 128]⟩
abbrev S5000x128 : Shape := ⟨2, ![5000, 128]⟩
abbrev S1x3x128x128 : Shape := ⟨4, ![1, 3, 128, 128]⟩
abbrev S3x128x128 : Shape := ⟨3, ![3, 128, 128]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 225
  | .vmem => 74
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S1600000, .f32⟩
  | 5 => ⟨S2x3x128x128, .f32⟩
  | 6 => ⟨S2x3x128x128, .f32⟩
  | 7 => ⟨S2x128x128, .f32⟩
  | 8 => ⟨S2x128x128, .f32⟩
  | 9 => ⟨S1600000, .i32⟩
  | 10 => ⟨S1600000, .i32⟩
  | 11 => ⟨S100000x128, .f32⟩
  | 12 => ⟨S50000x128, .f32⟩
  | 13 => ⟨S1x3x128x128, .f32⟩
  | 14 => ⟨S3x128x128, .f32⟩
  | 15 => ⟨S128x128, .f32⟩
  | 16 => ⟨S1x128x128, .f32⟩
  | 17 => ⟨S128x128, .f32⟩
  | 18 => ⟨S1x128x128, .f32⟩
  | 19 => ⟨S128x128, .f32⟩
  | 20 => ⟨S1x128x128, .f32⟩
  | 21 => ⟨S128x128, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S128x128, .f32⟩
  | 28 => ⟨S128x128, .f32⟩
  | 29 => ⟨S128x128, .f32⟩
  | 30 => ⟨S128x128, .f32⟩
  | 31 => ⟨S_, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S128x128, .f32⟩
  | 42 => ⟨S128x128, .f32⟩
  | 43 => ⟨S100000x128, .f32⟩
  | 44 => ⟨S1x3x128x128, .f32⟩
  | 45 => ⟨S3x128x128, .f32⟩
  | 46 => ⟨S128x128, .f32⟩
  | 47 => ⟨S1x128x128, .f32⟩
  | 48 => ⟨S128x128, .f32⟩
  | 49 => ⟨S1x128x128, .f32⟩
  | 50 => ⟨S128x128, .f32⟩
  | 51 => ⟨S1x128x128, .f32⟩
  | 52 => ⟨S128x128, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S128x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .f32⟩
  | 65 => ⟨S128x128, .f32⟩
  | 66 => ⟨S128x128, .f32⟩
  | 67 => ⟨S128x128, .f32⟩
  | 68 => ⟨S128x128, .f32⟩
  | 69 => ⟨S_, .f32⟩
  | 70 => ⟨S128x128, .f32⟩
  | 71 => ⟨S128x128, .f32⟩
  | 72 => ⟨S128x128, .f32⟩
  | 73 => ⟨S128x128, .f32⟩
  | 74 => ⟨S50000x128, .f32⟩
  | 75 => ⟨S1600000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x128, .f32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1x128x128, .f32⟩
  | 92 => ⟨S128x128, .f32⟩
  | 93 => ⟨S100000x128, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S1600000x128, .f32⟩
  | 105 => ⟨S1600000x128, .f32⟩
  | 106 => ⟨S_, .f32⟩
  | 107 => ⟨S50000x128, .f32⟩
  | 108 => ⟨S1600000x1, .i32⟩
  | 109 => ⟨S50000x128, .f32⟩
  | 110 => ⟨S1x128x128, .f32⟩
  | 111 => ⟨S128x128, .f32⟩
  | 112 => ⟨S50000x128, .f32⟩
  | 113 => ⟨S100000x128, .f32⟩
  | 114 => ⟨S100000x128, .f32⟩
  | 115 => ⟨S50000x128, .f32⟩
  | 116 => ⟨S50000x128, .f32⟩
  | 117 => ⟨S100000x128, .f32⟩
  | 118 => ⟨S50000x128, .f32⟩
  | 119 => ⟨S1x3x128x128, .f32⟩
  | 120 => ⟨S3x128x128, .f32⟩
  | 121 => ⟨S128x128, .f32⟩
  | 122 => ⟨S1x128x128, .f32⟩
  | 123 => ⟨S128x128, .f32⟩
  | 124 => ⟨S1x128x128, .f32⟩
  | 125 => ⟨S128x128, .f32⟩
  | 126 => ⟨S1x128x128, .f32⟩
  | 127 => ⟨S128x128, .f32⟩
  | _ => ⟨S100000x128, .f32⟩

abbrev hbmTy0_1 (i : Nat) : BufTy := match i % 128 with
  | 0 => ⟨S128x128, .f32⟩
  | 1 => ⟨S128x128, .f32⟩
  | 2 => ⟨S_, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S_, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .f32⟩
  | 19 => ⟨S128x128, .f32⟩
  | 20 => ⟨S128x128, .f32⟩
  | 21 => ⟨S100000x128, .f32⟩
  | 22 => ⟨S1x3x128x128, .f32⟩
  | 23 => ⟨S3x128x128, .f32⟩
  | 24 => ⟨S128x128, .f32⟩
  | 25 => ⟨S1x128x128, .f32⟩
  | 26 => ⟨S128x128, .f32⟩
  | 27 => ⟨S1x128x128, .f32⟩
  | 28 => ⟨S128x128, .f32⟩
  | 29 => ⟨S1x128x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S_, .f32⟩
  | 41 => ⟨S128x128, .f32⟩
  | 42 => ⟨S128x128, .f32⟩
  | 43 => ⟨S128x128, .f32⟩
  | 44 => ⟨S128x128, .f32⟩
  | 45 => ⟨S128x128, .f32⟩
  | 46 => ⟨S128x128, .f32⟩
  | 47 => ⟨S_, .f32⟩
  | 48 => ⟨S128x128, .f32⟩
  | 49 => ⟨S128x128, .f32⟩
  | 50 => ⟨S128x128, .f32⟩
  | 51 => ⟨S128x128, .f32⟩
  | 52 => ⟨S50000x128, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1x128x128, .f32⟩
  | 70 => ⟨S128x128, .f32⟩
  | 71 => ⟨S100000x128, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x128, .f32⟩
  | 83 => ⟨S1600000x128, .f32⟩
  | 84 => ⟨S_, .f32⟩
  | 85 => ⟨S50000x128, .f32⟩
  | 86 => ⟨S1600000x1, .i32⟩
  | 87 => ⟨S50000x128, .f32⟩
  | 88 => ⟨S1x128x128, .f32⟩
  | 89 => ⟨S128x128, .f32⟩
  | 90 => ⟨S50000x128, .f32⟩
  | 91 => ⟨S100000x128, .f32⟩
  | 92 => ⟨S100000x128, .f32⟩
  | 93 => ⟨S50000x128, .f32⟩
  | 94 => ⟨S50000x128, .f32⟩
  | 95 => ⟨S100000x128, .f32⟩
  | 96 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S128x128, .f32⟩
  | .local _ .vmem, ⟨58, _⟩ => ⟨S128x128, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x128, .f32⟩
  | .local _ .vmem, ⟨72, _⟩ => ⟨S5000x128, .f32⟩
  | .local _ .vmem, ⟨73, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_cst : Ref sig .tc := ⟨.hbm, 38, rfl⟩
abbrev main_call2_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call3_cst : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call4_cst : Ref sig .tc := ⟨.hbm, 62, rfl⟩
abbrev main_call4_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call5_cst : Ref sig .tc := ⟨.hbm, 69, rfl⟩
abbrev main_call5_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c : Ref sig .tc := ⟨.hbm, 76, rfl⟩
abbrev main_v53 : Ref sig .tc := ⟨.hbm, 77, rfl⟩
abbrev main_v54 : Ref sig .tc := ⟨.hbm, 78, rfl⟩
abbrev main_c_0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_1 : Ref sig .tc := ⟨.hbm, 95, rfl⟩
abbrev main_v69 : Ref sig .tc := ⟨.hbm, 96, rfl⟩
abbrev main_v70 : Ref sig .tc := ⟨.hbm, 97, rfl⟩
abbrev main_c_2 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_3 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call6_cst : Ref sig .tc := ⟨.hbm, 130, rfl⟩
abbrev main_call6_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_call7_cst : Ref sig .tc := ⟨.hbm, 137, rfl⟩
abbrev main_call7_v0 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_call8_cst : Ref sig .tc := ⟨.hbm, 144, rfl⟩
abbrev main_call8_v0 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_call9_cst : Ref sig .tc := ⟨.hbm, 161, rfl⟩
abbrev main_call9_v0 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_call10_cst : Ref sig .tc := ⟨.hbm, 168, rfl⟩
abbrev main_call10_v0 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_call11_cst : Ref sig .tc := ⟨.hbm, 175, rfl⟩
abbrev main_call11_v0 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_4 : Ref sig .tc := ⟨.hbm, 182, rfl⟩
abbrev main_v141 : Ref sig .tc := ⟨.hbm, 183, rfl⟩
abbrev main_v142 : Ref sig .tc := ⟨.hbm, 184, rfl⟩
abbrev main_c_5 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_6 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_7 : Ref sig .tc := ⟨.hbm, 201, rfl⟩
abbrev main_v157 : Ref sig .tc := ⟨.hbm, 202, rfl⟩
abbrev main_v158 : Ref sig .tc := ⟨.hbm, 203, rfl⟩
abbrev main_c_8 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_9 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_scratch0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg1_1 : Ref sig .tc := ⟨.vmem, 45, rfl⟩
abbrev cc8_stg2_0 : Ref sig .tc := ⟨.vmem, 46, rfl⟩
abbrev cc8_scratch0 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg1_1 : Ref sig .tc := ⟨.vmem, 56, rfl⟩
abbrev cc10_stg2_0 : Ref sig .tc := ⟨.vmem, 57, rfl⟩
abbrev cc10_scratch0 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg0_1 : Ref sig .tc := ⟨.vmem, 65, rfl⟩
abbrev cc12_stg1_0 : Ref sig .tc := ⟨.vmem, 66, rfl⟩
abbrev cc12_stg2_0 : Ref sig .tc := ⟨.vmem, 67, rfl⟩
abbrev cc12_stg2_1 : Ref sig .tc := ⟨.vmem, 68, rfl⟩
abbrev cc13_stg0_0 : Ref sig .tc := ⟨.vmem, 69, rfl⟩
abbrev cc13_stg0_1 : Ref sig .tc := ⟨.vmem, 70, rfl⟩
abbrev cc13_stg1_0 : Ref sig .tc := ⟨.vmem, 71, rfl⟩
abbrev cc13_stg2_0 : Ref sig .tc := ⟨.vmem, 72, rfl⟩
abbrev cc13_stg2_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem1_1 : DmaSem sig := 53
abbrev cc10_sem2_0 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem2_0 : DmaSem sig := 68
abbrev cc13_sem2_1 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def k8_cond2 (i : grid8.Coords) : BitVec 1 :=
  let arg0 : BitVec 32 := BitVec.ofNat 32 (i 0).val
  let c19_i32 : BitVec 32 := 19#32
  let v15 : BitVec 1 := Scalar.cmpi .eq arg0 c19_i32
  let v16 : BitVec 32 := Scalar.extui v15
  let c0_i32_8 : BitVec 32 := 0#32
  let v17 : BitVec 1 := Scalar.cmpi .ne v16 c0_i32_8
  v17

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x3x128x128_S1x3x128x128_0_0_0_0 : S2x3x128x128.Slices ![0, 0, 0, 0] S1x3x128x128
  shapeCasts_S1x3x128x128_S3x128x128 : S1x3x128x128.ShapeCasts S3x128x128
  shapeCasts_S128x128_S128x128 : S128x128.ShapeCasts S128x128
  shapeCasts_S5000x128_S5000x128 : S5000x128.ShapeCasts S5000x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  transposes_S128x128_S128x128_1_0 : S128x128.Transposes [1, 0] S128x128
  bcast_S_S128x128 : S_.BroadcastsInDim S128x128 (![] : Fin 0 → Fin S128x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128x128_S1x128x128_0_0_0 : S2x128x128.Slices ![0, 0, 0] S1x128x128
  bcast_S_S50000x128 : S_.BroadcastsInDim S50000x128 (![] : Fin 0 → Fin S50000x128.rank)
  slices_S2x3x128x128_S1x3x128x128_1_0_0_0 : S2x3x128x128.Slices ![1, 0, 0, 0] S1x3x128x128
  slices_S2x128x128_S1x128x128_1_0_0 : S2x128x128.Slices ![1, 0, 0] S1x128x128
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x128.size a ≤ S100000x128.size a
  hwx12_2 : ∀ i : grid12.Coords, EltTy.bits .f32 = 32 ∨ (Rect.block (s := S100000x128) S5000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S50000x128.size a
  hwx13_2 : ∀ i : grid13.Coords, EltTy.bits .f32 = 32 ∨ (Rect.block (s := S50000x128) S5000x128.size (cc13_transform_2 i) (hinb13_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v1) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v51) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v64) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v80) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v82) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v85) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v92) S128x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v113) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v1) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v87) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v117) S128x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v1) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v138) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v139) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v152) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v154) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v155) S5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v168) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v170) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v171) S5000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S1600000 : Shape := ⟨1, ![1600000]⟩
abbrev S2x3x128x128 : Shape := ⟨4, ![2, 3, 128, 128]⟩
abbrev S2x128x128 : Shape := ⟨3, ![2, 128, 128]⟩
abbrev S1x3x128x128 : Shape := ⟨4, ![1, 3, 128, 128]⟩
abbrev S3x128x128 : Shape := ⟨3, ![3, 128, 128]⟩
abbrev S128x100000 : Shape := ⟨2, ![128, 100000]⟩
abbrev S_ : Shape := ⟨0, ![]⟩
abbrev S1x128x128 : Shape := ⟨3, ![1, 128, 128]⟩
abbrev S128x50000 : Shape := ⟨2, ![128, 50000]⟩
abbrev S1600000x1 : Shape := ⟨2, ![1600000, 1]⟩
abbrev S1600000x128 : Shape := ⟨2, ![1600000, 128]⟩

abbrev nBuf : Space → Nat
  | .hbm => 337
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128x128, .f32⟩
  | 4 => ⟨S1600000, .f32⟩
  | 5 => ⟨S2x3x128x128, .f32⟩
  | 6 => ⟨S2x3x128x128, .f32⟩
  | 7 => ⟨S2x128x128, .f32⟩
  | 8 => ⟨S2x128x128, .f32⟩
  | 9 => ⟨S1600000, .i32⟩
  | 10 => ⟨S1600000, .i32⟩
  | 11 => ⟨S100000x128, .f32⟩
  | 12 => ⟨S50000x128, .f32⟩
  | 13 => ⟨S1x3x128x128, .f32⟩
  | 14 => ⟨S3x128x128, .f32⟩
  | 15 => ⟨S128x100000, .f32⟩
  | 16 => ⟨S128x128, .f32⟩
  | 17 => ⟨S_, .f32⟩
  | 18 => ⟨S_, .f32⟩
  | 19 => ⟨S128x128, .f32⟩
  | 20 => ⟨S128x128, .i1⟩
  | 21 => ⟨S_, .f32⟩
  | 22 => ⟨S128x128, .f32⟩
  | 23 => ⟨S128x128, .f32⟩
  | 24 => ⟨S128x128, .f32⟩
  | 25 => ⟨S1x128x128, .f32⟩
  | 26 => ⟨S128x128, .f32⟩
  | 27 => ⟨S1x128x128, .f32⟩
  | 28 => ⟨S128x128, .f32⟩
  | 29 => ⟨S1x128x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S_, .f32⟩
  | 41 => ⟨S128x128, .f32⟩
  | 42 => ⟨S128x128, .f32⟩
  | 43 => ⟨S128x128, .f32⟩
  | 44 => ⟨S128x128, .f32⟩
  | 45 => ⟨S128x128, .f32⟩
  | 46 => ⟨S128x128, .f32⟩
  | 47 => ⟨S_, .f32⟩
  | 48 => ⟨S128x128, .f32⟩
  | 49 => ⟨S128x128, .f32⟩
  | 50 => ⟨S128x128, .f32⟩
  | 51 => ⟨S128x128, .f32⟩
  | 52 => ⟨S100000x128, .f32⟩
  | 53 => ⟨S_, .f32⟩
  | 54 => ⟨S_, .f32⟩
  | 55 => ⟨S100000x128, .f32⟩
  | 56 => ⟨S100000x128, .i1⟩
  | 57 => ⟨S_, .f32⟩
  | 58 => ⟨S100000x128, .f32⟩
  | 59 => ⟨S100000x128, .f32⟩
  | 60 => ⟨S100000x128, .f32⟩
  | 61 => ⟨S1x3x128x128, .f32⟩
  | 62 => ⟨S3x128x128, .f32⟩
  | 63 => ⟨S128x50000, .f32⟩
  | 64 => ⟨S128x128, .f32⟩
  | 65 => ⟨S_, .f32⟩
  | 66 => ⟨S_, .f32⟩
  | 67 => ⟨S128x128, .f32⟩
  | 68 => ⟨S128x128, .i1⟩
  | 69 => ⟨S_, .f32⟩
  | 70 => ⟨S128x128, .f32⟩
  | 71 => ⟨S128x128, .f32⟩
  | 72 => ⟨S128x128, .f32⟩
  | 73 => ⟨S1x128x128, .f32⟩
  | 74 => ⟨S128x128, .f32⟩
  | 75 => ⟨S1x128x128, .f32⟩
  | 76 => ⟨S128x128, .f32⟩
  | 77 => ⟨S1x128x128, .f32⟩
  | 78 => ⟨S128x128, .f32⟩
  | 79 => ⟨S128x128, .f32⟩
  | 80 => ⟨S128x128, .f32⟩
  | 81 => ⟨S_, .f32⟩
  | 82 => ⟨S128x128, .f32⟩
  | 83 => ⟨S128x128, .f32⟩
  | 84 => ⟨S128x128, .f32⟩
  | 85 => ⟨S128x128, .f32⟩
  | 86 => ⟨S128x128, .f32⟩
  | 87 => ⟨S128x128, .f32⟩
  | 88 => ⟨S_, .f32⟩
  | 89 => ⟨S128x128, .f32⟩
  | 90 => ⟨S128x128, .f32⟩
  | 91 => ⟨S128x128, .f32⟩
  | 92 => ⟨S128x128, .f32⟩
  | 93 => ⟨S128x128, .f32⟩
  | 94 => ⟨S128x128, .f32⟩
  | 95 => ⟨S_, .f32⟩
  | 96 => ⟨S128x128, .f32⟩
  | 97 => ⟨S128x128, .f32⟩
  | 98 => ⟨S128x128, .f32⟩
  | 99 => ⟨S128x128, .f32⟩
  | 100 => ⟨S50000x128, .f32⟩
  | 101 => ⟨S_, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .f32⟩
  | 108 => ⟨S50000x128, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S1x128x128, .f32⟩
  | 126 => ⟨S128x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S_, .f32⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x128, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S50000x128, .f32⟩
  | 25 => ⟨S1600000x1, .i32⟩
  | 26 => ⟨S50000x128, .f32⟩
  | 27 => ⟨S1x128x128, .f32⟩
  | 28 => ⟨S128x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S_, .f32⟩
  | 35 => ⟨S50000x128, .f32⟩
  | 36 => ⟨S50000x128, .i1⟩
  | 37 => ⟨S_, .f32⟩
  | 38 => ⟨S50000x128, .f32⟩
  | 39 => ⟨S50000x128, .f32⟩
  | 40 => ⟨S50000x128, .f32⟩
  | 41 => ⟨S100000x128, .f32⟩
  | 42 => ⟨S100000x128, .f32⟩
  | 43 => ⟨S50000x128, .f32⟩
  | 44 => ⟨S50000x128, .f32⟩
  | 45 => ⟨S100000x128, .f32⟩
  | 46 => ⟨S50000x128, .f32⟩
  | 47 => ⟨S1x3x128x128, .f32⟩
  | 48 => ⟨S3x128x128, .f32⟩
  | 49 => ⟨S128x100000, .f32⟩
  | 50 => ⟨S128x128, .f32⟩
  | 51 => ⟨S_, .f32⟩
  | 52 => ⟨S_, .f32⟩
  | 53 => ⟨S128x128, .f32⟩
  | 54 => ⟨S128x128, .i1⟩
  | 55 => ⟨S_, .f32⟩
  | 56 => ⟨S128x128, .f32⟩
  | 57 => ⟨S128x128, .f32⟩
  | 58 => ⟨S128x128, .f32⟩
  | 59 => ⟨S1x128x128, .f32⟩
  | 60 => ⟨S128x128, .f32⟩
  | 61 => ⟨S1x128x128, .f32⟩
  | 62 => ⟨S128x128, .f32⟩
  | 63 => ⟨S1x128x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S_, .f32⟩
  | 82 => ⟨S128x128, .f32⟩
  | 83 => ⟨S128x128, .f32⟩
  | 84 => ⟨S128x128, .f32⟩
  | 85 => ⟨S128x128, .f32⟩
  | 86 => ⟨S100000x128, .f32⟩
  | 87 => ⟨S_, .f32⟩
  | 88 => ⟨S_, .f32⟩
  | 89 => ⟨S100000x128, .f32⟩
  | 90 => ⟨S100000x128, .i1⟩
  | 91 => ⟨S_, .f32⟩
  | 92 => ⟨S100000x128, .f32⟩
  | 93 => ⟨S100000x128, .f32⟩
  | 94 => ⟨S100000x128, .f32⟩
  | 95 => ⟨S1x3x128x128, .f32⟩
  | 96 => ⟨S3x128x128, .f32⟩
  | 97 => ⟨S128x50000, .f32⟩
  | 98 => ⟨S128x128, .f32⟩
  | 99 => ⟨S_, .f32⟩
  | 100 => ⟨S_, .f32⟩
  | 101 => ⟨S128x128, .f32⟩
  | 102 => ⟨S128x128, .i1⟩
  | 103 => ⟨S_, .f32⟩
  | 104 => ⟨S128x128, .f32⟩
  | 105 => ⟨S128x128, .f32⟩
  | 106 => ⟨S128x128, .f32⟩
  | 107 => ⟨S1x128x128, .f32⟩
  | 108 => ⟨S128x128, .f32⟩
  | 109 => ⟨S1x128x128, .f32⟩
  | 110 => ⟨S128x128, .f32⟩
  | 111 => ⟨S1x128x128, .f32⟩
  | 112 => ⟨S128x128, .f32⟩
  | 113 => ⟨S128x128, .f32⟩
  | 114 => ⟨S128x128, .f32⟩
  | 115 => ⟨S_, .f32⟩
  | 116 => ⟨S128x128, .f32⟩
  | 117 => ⟨S128x128, .f32⟩
  | 118 => ⟨S128x128, .f32⟩
  | 119 => ⟨S128x128, .f32⟩
  | 120 => ⟨S128x128, .f32⟩
  | 121 => ⟨S128x128, .f32⟩
  | 122 => ⟨S_, .f32⟩
  | 123 => ⟨S128x128, .f32⟩
  | 124 => ⟨S128x128, .f32⟩
  | 125 => ⟨S128x128, .f32⟩
  | 126 => ⟨S128x128, .f32⟩
  | 127 => ⟨S128x128, .f32⟩
  | _ => ⟨S100000x128, .f32⟩

abbrev hbmTy0_2 (i : Nat) : BufTy := match i % 128 with
  | 0 => ⟨S128x128, .f32⟩
  | 1 => ⟨S_, .f32⟩
  | 2 => ⟨S128x128, .f32⟩
  | 3 => ⟨S128x128, .f32⟩
  | 4 => ⟨S128x128, .f32⟩
  | 5 => ⟨S128x128, .f32⟩
  | 6 => ⟨S50000x128, .f32⟩
  | 7 => ⟨S_, .f32⟩
  | 8 => ⟨S_, .f32⟩
  | 9 => ⟨S50000x128, .f32⟩
  | 10 => ⟨S50000x128, .i1⟩
  | 11 => ⟨S_, .f32⟩
  | 12 => ⟨S50000x128, .f32⟩
  | 13 => ⟨S50000x128, .f32⟩
  | 14 => ⟨S50000x128, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1x128x128, .f32⟩
  | 32 => ⟨S128x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S_, .f32⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S100000x128, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S50000x128, .f32⟩
  | 59 => ⟨S1600000x1, .i32⟩
  | 60 => ⟨S50000x128, .f32⟩
  | 61 => ⟨S1x128x128, .f32⟩
  | 62 => ⟨S128x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S_, .f32⟩
  | 69 => ⟨S50000x128, .f32⟩
  | 70 => ⟨S50000x128, .i1⟩
  | 71 => ⟨S_, .f32⟩
  | 72 => ⟨S50000x128, .f32⟩
  | 73 => ⟨S50000x128, .f32⟩
  | 74 => ⟨S50000x128, .f32⟩
  | 75 => ⟨S100000x128, .f32⟩
  | 76 => ⟨S100000x128, .f32⟩
  | 77 => ⟨S50000x128, .f32⟩
  | 78 => ⟨S50000x128, .f32⟩
  | 79 => ⟨S100000x128, .f32⟩
  | 80 => ⟨S50000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_cst : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call3_cst : Ref sig .tc := ⟨.hbm, 47, rfl⟩
abbrev main_call3_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_call4_cst : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_1 : Ref sig .tc := ⟨.hbm, 65, rfl⟩
abbrev main_call5_cst : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call6_cst : Ref sig .tc := ⟨.hbm, 81, rfl⟩
abbrev main_call6_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call7_cst : Ref sig .tc := ⟨.hbm, 88, rfl⟩
abbrev main_call7_v0 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call8_cst : Ref sig .tc := ⟨.hbm, 95, rfl⟩
abbrev main_call8_v0 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_2 : Ref sig .tc := ⟨.hbm, 101, rfl⟩
abbrev main_call9_cst : Ref sig .tc := ⟨.hbm, 102, rfl⟩
abbrev main_call9_v0 : Ref sig .tc := ⟨.hbm, 103, rfl⟩
abbrev main_call9_v1 : Ref sig .tc := ⟨.hbm, 104, rfl⟩
abbrev main_call9_v2 : Ref sig .tc := ⟨.hbm, 105, rfl⟩
abbrev main_call9_v3 : Ref sig .tc := ⟨.hbm, 106, rfl⟩
abbrev main_call9_v4 : Ref sig .tc := ⟨.hbm, 107, rfl⟩
abbrev main_v57 : Ref sig .tc := ⟨.hbm, 108, rfl⟩
abbrev main_v58 : Ref sig .tc := ⟨.hbm, 109, rfl⟩
abbrev main_c : Ref sig .tc := ⟨.hbm, 110, rfl⟩
abbrev main_v59 : Ref sig .tc := ⟨.hbm, 111, rfl⟩
abbrev main_v60 : Ref sig .tc := ⟨.hbm, 112, rfl⟩
abbrev main_c_3 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_4 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call10_cst : Ref sig .tc := ⟨.hbm, 128, rfl⟩
abbrev main_call10_v0 : Ref sig .tc := ⟨.hbm, 129, rfl⟩
abbrev main_v74 : Ref sig .tc := ⟨.hbm, 130, rfl⟩
abbrev main_cst_5 : Ref sig .tc := ⟨.hbm, 131, rfl⟩
abbrev main_call11_cst : Ref sig .tc := ⟨.hbm, 132, rfl⟩
abbrev main_call11_v0 : Ref sig .tc := ⟨.hbm, 133, rfl⟩
abbrev main_call11_v1 : Ref sig .tc := ⟨.hbm, 134, rfl⟩
abbrev main_call11_v2 : Ref sig .tc := ⟨.hbm, 135, rfl⟩
abbrev main_call11_v3 : Ref sig .tc := ⟨.hbm, 136, rfl⟩
abbrev main_call11_v4 : Ref sig .tc := ⟨.hbm, 137, rfl⟩
abbrev main_v75 : Ref sig .tc := ⟨.hbm, 138, rfl⟩
abbrev main_v76 : Ref sig .tc := ⟨.hbm, 139, rfl⟩
abbrev main_c_6 : Ref sig .tc := ⟨.hbm, 140, rfl⟩
abbrev main_v77 : Ref sig .tc := ⟨.hbm, 141, rfl⟩
abbrev main_v78 : Ref sig .tc := ⟨.hbm, 142, rfl⟩
abbrev main_c_7 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_8 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_call12_cst : Ref sig .tc := ⟨.hbm, 158, rfl⟩
abbrev main_call12_v0 : Ref sig .tc := ⟨.hbm, 159, rfl⟩
abbrev main_v92 : Ref sig .tc := ⟨.hbm, 160, rfl⟩
abbrev main_cst_9 : Ref sig .tc := ⟨.hbm, 161, rfl⟩
abbrev main_call13_cst : Ref sig .tc := ⟨.hbm, 162, rfl⟩
abbrev main_call13_v0 : Ref sig .tc := ⟨.hbm, 163, rfl⟩
abbrev main_call13_v1 : Ref sig .tc := ⟨.hbm, 164, rfl⟩
abbrev main_call13_v2 : Ref sig .tc := ⟨.hbm, 165, rfl⟩
abbrev main_call13_v3 : Ref sig .tc := ⟨.hbm, 166, rfl⟩
abbrev main_call13_v4 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_10 : Ref sig .tc := ⟨.hbm, 179, rfl⟩
abbrev main_call14_cst : Ref sig .tc := ⟨.hbm, 180, rfl⟩
abbrev main_call14_v0 : Ref sig .tc := ⟨.hbm, 181, rfl⟩
abbrev main_call14_v1 : Ref sig .tc := ⟨.hbm, 182, rfl⟩
abbrev main_call14_v2 : Ref sig .tc := ⟨.hbm, 183, rfl⟩
abbrev main_call14_v3 : Ref sig .tc := ⟨.hbm, 184, rfl⟩
abbrev main_call14_v4 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_call15_cst : Ref sig .tc := ⟨.hbm, 195, rfl⟩
abbrev main_call15_v0 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_call16_cst : Ref sig .tc := ⟨.hbm, 202, rfl⟩
abbrev main_call16_v0 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_call17_cst : Ref sig .tc := ⟨.hbm, 209, rfl⟩
abbrev main_call17_v0 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_cst_11 : Ref sig .tc := ⟨.hbm, 215, rfl⟩
abbrev main_call18_cst : Ref sig .tc := ⟨.hbm, 216, rfl⟩
abbrev main_call18_v0 : Ref sig .tc := ⟨.hbm, 217, rfl⟩
abbrev main_call18_v1 : Ref sig .tc := ⟨.hbm, 218, rfl⟩
abbrev main_call18_v2 : Ref sig .tc := ⟨.hbm, 219, rfl⟩
abbrev main_call18_v3 : Ref sig .tc := ⟨.hbm, 220, rfl⟩
abbrev main_call18_v4 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_cst_12 : Ref sig .tc := ⟨.hbm, 227, rfl⟩
abbrev main_call19_cst : Ref sig .tc := ⟨.hbm, 228, rfl⟩
abbrev main_call19_v0 : Ref sig .tc := ⟨.hbm, 229, rfl⟩
abbrev main_call19_v1 : Ref sig .tc := ⟨.hbm, 230, rfl⟩
abbrev main_call19_v2 : Ref sig .tc := ⟨.hbm, 231, rfl⟩
abbrev main_call19_v3 : Ref sig .tc := ⟨.hbm, 232, rfl⟩
abbrev main_call19_v4 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_call20_cst : Ref sig .tc := ⟨.hbm, 243, rfl⟩
abbrev main_call20_v0 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_call21_cst : Ref sig .tc := ⟨.hbm, 250, rfl⟩
abbrev main_call21_v0 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_call22_cst : Ref sig .tc := ⟨.hbm, 257, rfl⟩
abbrev main_call22_v0 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_cst_13 : Ref sig .tc := ⟨.hbm, 263, rfl⟩
abbrev main_call23_cst : Ref sig .tc := ⟨.hbm, 264, rfl⟩
abbrev main_call23_v0 : Ref sig .tc := ⟨.hbm, 265, rfl⟩
abbrev main_call23_v1 : Ref sig .tc := ⟨.hbm, 266, rfl⟩
abbrev main_call23_v2 : Ref sig .tc := ⟨.hbm, 267, rfl⟩
abbrev main_call23_v3 : Ref sig .tc := ⟨.hbm, 268, rfl⟩
abbrev main_call23_v4 : Ref sig .tc := ⟨.hbm, 269, rfl⟩
abbrev main_v155 : Ref sig .tc := ⟨.hbm, 270, rfl⟩
abbrev main_v156 : Ref sig .tc := ⟨.hbm, 271, rfl⟩
abbrev main_c_14 : Ref sig .tc := ⟨.hbm, 272, rfl⟩
abbrev main_v157 : Ref sig .tc := ⟨.hbm, 273, rfl⟩
abbrev main_v158 : Ref sig .tc := ⟨.hbm, 274, rfl⟩
abbrev main_c_15 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_cst_16 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_call24_cst : Ref sig .tc := ⟨.hbm, 290, rfl⟩
abbrev main_call24_v0 : Ref sig .tc := ⟨.hbm, 291, rfl⟩
abbrev main_v172 : Ref sig .tc := ⟨.hbm, 292, rfl⟩
abbrev main_cst_17 : Ref sig .tc := ⟨.hbm, 293, rfl⟩
abbrev main_call25_cst : Ref sig .tc := ⟨.hbm, 294, rfl⟩
abbrev main_call25_v0 : Ref sig .tc := ⟨.hbm, 295, rfl⟩
abbrev main_call25_v1 : Ref sig .tc := ⟨.hbm, 296, rfl⟩
abbrev main_call25_v2 : Ref sig .tc := ⟨.hbm, 297, rfl⟩
abbrev main_call25_v3 : Ref sig .tc := ⟨.hbm, 298, rfl⟩
abbrev main_call25_v4 : Ref sig .tc := ⟨.hbm, 299, rfl⟩
abbrev main_v173 : Ref sig .tc := ⟨.hbm, 300, rfl⟩
abbrev main_v174 : Ref sig .tc := ⟨.hbm, 301, rfl⟩
abbrev main_c_18 : Ref sig .tc := ⟨.hbm, 302, rfl⟩
abbrev main_v175 : Ref sig .tc := ⟨.hbm, 303, rfl⟩
abbrev main_v176 : Ref sig .tc := ⟨.hbm, 304, rfl⟩
abbrev main_c_19 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_cst_20 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_call26_cst : Ref sig .tc := ⟨.hbm, 320, rfl⟩
abbrev main_call26_v0 : Ref sig .tc := ⟨.hbm, 321, rfl⟩
abbrev main_v190 : Ref sig .tc := ⟨.hbm, 322, rfl⟩
abbrev main_cst_21 : Ref sig .tc := ⟨.hbm, 323, rfl⟩
abbrev main_call27_cst : Ref sig .tc := ⟨.hbm, 324, rfl⟩
abbrev main_call27_v0 : Ref sig .tc := ⟨.hbm, 325, rfl⟩
abbrev main_call27_v1 : Ref sig .tc := ⟨.hbm, 326, rfl⟩
abbrev main_call27_v2 : Ref sig .tc := ⟨.hbm, 327, rfl⟩
abbrev main_call27_v3 : Ref sig .tc := ⟨.hbm, 328, rfl⟩
abbrev main_call27_v4 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩

abbrev nD : Nat := 1
abbrev τ : Topo := Topo.v7x

variable {F : FTy → Type} [FloatOps F]

class Facts₀ : Prop where
  slices_S2x3x128x128_S1x3x128x128_0_0_0_0 : S2x3x128x128.Slices ![0, 0, 0, 0] S1x3x128x128
  shapeCasts_S1x3x128x128_S3x128x128 : S1x3x128x128.ShapeCasts S3x128x128
  transposes_S100000x128_S128x100000_1_0 : S100000x128.Transposes [1, 0] S128x100000
  bcast_S_S128x128 : S_.BroadcastsInDim S128x128 (![] : Fin 0 → Fin S128x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  transposes_S128x128_S128x128_1_0 : S128x128.Transposes [1, 0] S128x128
  bcast_S_S100000x128 : S_.BroadcastsInDim S100000x128 (![] : Fin 0 → Fin S100000x128.rank)
  transposes_S50000x128_S128x50000_1_0 : S50000x128.Transposes [1, 0] S128x50000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x128x128_S1x128x128_0_0_0 : S2x128x128.Slices ![0, 0, 0] S1x128x128
  slices_S2x3x128x128_S1x3x128x128_1_0_0_0 : S2x3x128x128.Slices ![1, 0, 0, 0] S1x3x128x128
  slices_S2x128x128_S1x128x128_1_0_0 : S2x128x128.Slices ![1, 0, 0] S1x128x128
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  dot_S128x100000_S100000x128_S128x128_1_0_0_1_n_n_wf : DotDims.WF S128x100000 S100000x128 S128x128 [1] [0] [0] [1] [] []
  dot_S128x128_S128x128_S128x128_1_0_0_1_n_n_wf : DotDims.WF S128x128 S128x128 S128x128 [1] [0] [0] [1] [] []
  dot_S128x50000_S50000x128_S128x128_1_0_0_1_n_n_wf : DotDims.WF S128x50000 S50000x128 S128x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S128x100000_S100000x128_S128x128_1_0_0_1_n_n : DotDims S128x100000 S100000x128 S128x128 where
  lhsContracting := [1]
  rhsContracting := [0]
  lhsNonContracting := [0]
  rhsNonContracting := [1]
  lhsBatch := []
  rhsBatch := []
  wf := dot_S128x100000_S100000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x50000_S50000x128_S128x128_1_0_0_1_n_n : DotDims S128x50000 S50000x128 S128x128 where
  lhsContracting := [1]
  rhsContracting := [0]
  lhsNonContracting := [0]
  rhsNonContracting := [1]
  lhsBatch := []
  rhsBatch := []
  wf := dot_S128x50000_S50000x128_S128x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.DenseBody0.lean ====
/-
  Region 0 of @main (a dense layer x · w over row blocks of 5000): the body's half of its frame, at a
  parameter `V` for the TensorCore's buffer contents when the region is entered.
  The body loads the block of x (window 0) and the whole of w (window 1), loads and discards what the output's
  buffer held (window 2), and stores the payload `k0_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not
    fetched its block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of x (and of the output), and the whole of w, as the body's rectangles. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output's buffer after the body: its one store, of the payload of the two loads, over the whole block. -/
def out0_2 (x0 : Vec F S5000x128 .f32) (x1 : Vec F S128x128 .f32) : Vec F S5000x128 .f32 :=
  View.canon [⟨rX0, k0_pay1 (View.ld x0 rX0) (View.ld x1 rW0)⟩]

/-- That store covers the block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

set_option maxHeartbeats 1000000 in
/-- The body on whole memrefs, the inputs' at contents `x0`, `x1` and the output's at anything, runs to the
    continuation with the inputs' as they were and the output's at `out0_2 x0 x1`. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_fwd_kernel i arg1 harg1 arg2 harg2 arg3 harg3) K := by
  simp only [cc0__dense_fwd_kernel_eq_skeleton]; unfold cc0__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t`
    each input's buffer at its block and the output's at the payload of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.DenseBody1.lean ====
/-
  Region 1 of @main (a dense layer x · w over row blocks of 5000): the body's half of its frame, at a
  parameter `V` for the TensorCore's buffer contents when the region is entered.
  The body loads the block of x (window 0) and the whole of w (window 1), loads and discards what the output's
  buffer held (window 2), and stores the payload `k1_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (when it is not
    fetched its block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of x (and of the output), and the whole of w, as the body's rectangles. -/
abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

/-- The output's buffer after the body: its one store, of the payload of the two loads, over the whole block. -/
def out1_2 (x0 : Vec F S5000x128 .f32) (x1 : Vec F S128x128 .f32) : Vec F S5000x128 .f32 :=
  View.canon [⟨rX1, k1_pay1 (View.ld x0 rX1) (View.ld x1 rW1)⟩]

/-- That store covers the block. -/
theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 1000000 in
/-- The body on whole memrefs, the inputs' at contents `x0`, `x1` and the output's at anything, runs to the
    continuation with the inputs' as they were and the output's at `out1_2 x0 x1`. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_fwd_kernel i arg1 harg1 arg2 harg2 arg3 harg3) K := by
  simp only [cc1__dense_fwd_kernel_eq_skeleton]; unfold cc1__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: the arrays as the region finds them; after the body at point `t`
    each input's buffer at its block and the output's at the payload of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.DenseBody3.lean ====
/-
  Region 3 of @main (a dense layer x · w over row blocks of 5000): the body's half of its frame, at a
  parameter `V` for the TensorCore's buffer contents when the region is entered.
  The body loads the block of x (window 0) and the whole of w (window 1), loads and discards what the output's
  buffer held (window 2), and stores the payload `k3_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (when it is not
    fetched its block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of x (and of the output), and the whole of w, as the body's rectangles. -/
abbrev rX3 : Rect S5000x128 := Rect.unit (s := S5000x128) ![0, 0] S5000x128.size inb_S5000x128_S5000x128_0_0
abbrev rW3 : Rect S128x128 := Rect.unit (s := S128x128) ![0, 0] S128x128.size inb_S128x128_S128x128_0_0

/-- The output's buffer after the body: its one store, of the payload of the two loads, over the whole block. -/
def out3_2 (x0 : Vec F S5000x128 .f32) (x1 : Vec F S128x128 .f32) : Vec F S5000x128 .f32 :=
  View.canon [⟨rX3, k3_pay1 (View.ld x0 rX3) (View.ld x1 rW3)⟩]

/-- That store covers the block. -/
theorem cover3_2 (p0 : Vec F S5000x128 .f32) (y : S5000x128.Idx) :
    ∃ pc ∈ ([⟨rX3, p0⟩] : List (View.Piece (Elt F) S5000x128 .f32)), y ∈ pc.1.set :=
  View.cover_of_tiled [⟨rX3, p0⟩] S5000x128.size (by rfl) y

set_option maxHeartbeats 1000000 in
/-- The body on whole memrefs, the inputs' at contents `x0`, `x1` and the output's at anything, runs to the
    continuation with the inputs' as they were and the output's at `out3_2 x0 x1`. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__dense_fwd_kernel i arg1 harg1 arg2 harg2 arg3 harg3) K := by
  simp only [cc3__dense_fwd_kernel_eq_skeleton]; unfold cc3__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t`
    each input's buffer at its block and the output's at the payload of the two input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.DenseBody5.lean ====
/-
  Region 5 of @main (a dense layer x · w over row blocks of 5000): the body's half of its frame, at a
  parameter `V` for the TensorCore's buffer contents when the region is entered.
  The body loads the block of x (window 0) and the whole of w (window 1), loads and discards what the output's
  buffer held (window 2), and stores the payload `k5_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (when it is not
    fetched its block index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole block of x (and of the output), and the whole of w, as the body's rectangles. -/
abbrev rX5 : Rect S5000x128 := Rect.unit (s := S5000x128) ![0, 0] S5000x128.size inb_S5000x128_S5000x128_0_0
abbrev rW5 : Rect S128x128 := Rect.unit (s := S128x128) ![0, 0] S128x128.size inb_S128x128_S128x128_0_0

/-- The output's buffer after the body: its one store, of the payload of the two loads, over the whole block. -/
def out5_2 (x0 : Vec F S5000x128 .f32) (x1 : Vec F S128x128 .f32) : Vec F S5000x128 .f32 :=
  View.canon [⟨rX5, k5_pay1 (View.ld x0 rX5) (View.ld x1 rW5)⟩]

/-- That store covers the block. -/
theorem cover5_2 (p0 : Vec F S5000x128 .f32) (y : S5000x128.Idx) :
    ∃ pc ∈ ([⟨rX5, p0⟩] : List (View.Piece (Elt F) S5000x128 .f32)), y ∈ pc.1.set :=
  View.cover_of_tiled [⟨rX5, p0⟩] S5000x128.size (by rfl) y

set_option maxHeartbeats 1000000 in
/-- The body on whole memrefs, the inputs' at contents `x0`, `x1` and the output's at anything, runs to the
    continuation with the inputs' as they were and the output's at `out5_2 x0 x1`. -/
theorem sound_kernel5 (c : Dev nD) (E : Set ℕ) (i : grid5.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__dense_fwd_kernel i arg1 harg1 arg2 harg2 arg3 harg3) K := by
  simp only [cc5__dense_fwd_kernel_eq_skeleton]; unfold cc5__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of this pipeline on core `c`: the arrays as the region finds them; after the body at point `t`
    each input's buffer at its block and the output's at the payload of the two input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.DenseBody6.lean ====
/-
  Region 6 of @main (a dense layer x · w over row blocks of 5000): the body's half of its frame, at a
  parameter `V` for the TensorCore's buffer contents when the region is entered.
  The body loads the block of x (window 0) and the whole of w (window 1), loads and discards what the output's
  buffer held (window 2), and stores the payload `k6_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (when it is not
    fetched its block index has not moved), for any proof data over `V`'s arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole block of x (and of the output), and the whole of w, as the body's rectangles. -/
abbrev rX6 : Rect S5000x128 := Rect.unit (s := S5000x128) ![0, 0] S5000x128.size inb_S5000x128_S5000x128_0_0
abbrev rW6 : Rect S128x128 := Rect.unit (s := S128x128) ![0, 0] S128x128.size inb_S128x128_S128x128_0_0

/-- The output's buffer after the body: its one store, of the payload of the two loads, over the whole block. -/
def out6_2 (x0 : Vec F S5000x128 .f32) (x1 : Vec F S128x128 .f32) : Vec F S5000x128 .f32 :=
  View.canon [⟨rX6, k6_pay1 (View.ld x0 rX6) (View.ld x1 rW6)⟩]

/-- That store covers the block. -/
theorem cover6_2 (p0 : Vec F S5000x128 .f32) (y : S5000x128.Idx) :
    ∃ pc ∈ ([⟨rX6, p0⟩] : List (View.Piece (Elt F) S5000x128 .f32)), y ∈ pc.1.set :=
  View.cover_of_tiled [⟨rX6, p0⟩] S5000x128.size (by rfl) y

set_option maxHeartbeats 1000000 in
/-- The body on whole memrefs, the inputs' at contents `x0`, `x1` and the output's at anything, runs to the
    continuation with the inputs' as they were and the output's at `out6_2 x0 x1`. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_fwd_kernel i arg1 harg1 arg2 harg2 arg3 harg3) K := by
  simp only [cc6__dense_fwd_kernel_eq_skeleton]; unfold cc6__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of this pipeline on core `c`: the arrays as the region finds them; after the body at point `t`
    each input's buffer at its block and the output's at the payload of the two input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.DenseBody7.lean ====
/-
  Region 7 of @main (a dense layer x · w over row blocks of 5000): the body's half of its frame, at a
  parameter `V` for the TensorCore's buffer contents when the region is entered.
  The body loads the block of x (window 0) and the whole of w (window 1), loads and discards what the output's
  buffer held (window 2), and stores the payload `k7_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its block at every point, fetched there or not (when it is not
    fetched its block index has not moved), for any proof data over `V`'s arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole block of x (and of the output), and the whole of w, as the body's rectangles. -/
abbrev rX7 : Rect S5000x128 := Rect.unit (s := S5000x128) ![0, 0] S5000x128.size inb_S5000x128_S5000x128_0_0
abbrev rW7 : Rect S128x128 := Rect.unit (s := S128x128) ![0, 0] S128x128.size inb_S128x128_S128x128_0_0

/-- The output's buffer after the body: its one store, of the payload of the two loads, over the whole block. -/
def out7_2 (x0 : Vec F S5000x128 .f32) (x1 : Vec F S128x128 .f32) : Vec F S5000x128 .f32 :=
  View.canon [⟨rX7, k7_pay1 (View.ld x0 rX7) (View.ld x1 rW7)⟩]

/-- That store covers the block. -/
theorem cover7_2 (p0 : Vec F S5000x128 .f32) (y : S5000x128.Idx) :
    ∃ pc ∈ ([⟨rX7, p0⟩] : List (View.Piece (Elt F) S5000x128 .f32)), y ∈ pc.1.set :=
  View.cover_of_tiled [⟨rX7, p0⟩] S5000x128.size (by rfl) y

set_option maxHeartbeats 1000000 in
/-- The body on whole memrefs, the inputs' at contents `x0`, `x1` and the output's at anything, runs to the
    continuation with the inputs' as they were and the output's at `out7_2 x0 x1`. -/
theorem sound_kernel7 (c : Dev nD) (E : Set ℕ) (i : grid7.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__dense_fwd_kernel i arg1 harg1 arg2 harg2 arg3 harg3) K := by
  simp only [cc7__dense_fwd_kernel_eq_skeleton]; unfold cc7__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of this pipeline on core `c`: the arrays as the region finds them; after the body at point `t`
    each input's buffer at its block and the output's at the payload of the two input blocks; the invariant the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and
    the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.DenseBody9.lean ====
/-
  Region 9 of @main (a dense layer x · w over row blocks of 5000): the body's half of its frame, at a
  parameter `V` for the TensorCore's buffer contents when the region is entered.
  The body loads the block of x (window 0) and the whole of w (window 1), loads and discards what the output's
  buffer held (window 2), and stores the payload `k9_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current buffer holds its block at every point, fetched there or not (when it is not
    fetched its block index has not moved), for any proof data over `V`'s arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole block of x (and of the output), and the whole of w, as the body's rectangles. -/
abbrev rX9 : Rect S5000x128 := Rect.unit (s := S5000x128) ![0, 0] S5000x128.size inb_S5000x128_S5000x128_0_0
abbrev rW9 : Rect S128x128 := Rect.unit (s := S128x128) ![0, 0] S128x128.size inb_S128x128_S128x128_0_0

/-- The output's buffer after the body: its one store, of the payload of the two loads, over the whole block. -/
def out9_2 (x0 : Vec F S5000x128 .f32) (x1 : Vec F S128x128 .f32) : Vec F S5000x128 .f32 :=
  View.canon [⟨rX9, k9_pay1 (View.ld x0 rX9) (View.ld x1 rW9)⟩]

/-- That store covers the block. -/
theorem cover9_2 (p0 : Vec F S5000x128 .f32) (y : S5000x128.Idx) :
    ∃ pc ∈ ([⟨rX9, p0⟩] : List (View.Piece (Elt F) S5000x128 .f32)), y ∈ pc.1.set :=
  View.cover_of_tiled [⟨rX9, p0⟩] S5000x128.size (by rfl) y

set_option maxHeartbeats 1000000 in
/-- The body on whole memrefs, the inputs' at contents `x0`, `x1` and the output's at anything, runs to the
    continuation with the inputs' as they were and the output's at `out9_2 x0 x1`. -/
theorem sound_kernel9 (c : Dev nD) (E : Set ℕ) (i : grid9.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__dense_fwd_kernel i arg1 harg1 arg2 harg2 arg3 harg3) K := by
  simp only [cc9__dense_fwd_kernel_eq_skeleton]; unfold cc9__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of this pipeline on core `c`: the arrays as the region finds them; after the body at point `t`
    each input's buffer at its block and the output's at the payload of the two input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.DenseBody11.lean ====
/-
  Region 11 of @main (a dense layer x · w over row blocks of 5000): the body's half of its frame, at a
  parameter `V` for the TensorCore's buffer contents when the region is entered.
  The body loads the block of x (window 0) and the whole of w (window 1), loads and discards what the output's
  buffer held (window 2), and stores the payload `k11_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current buffer holds its block at every point, fetched there or not (when it is not
    fetched its block index has not moved), for any proof data over `V`'s arrays whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The whole block of x (and of the output), and the whole of w, as the body's rectangles. -/
abbrev rX11 : Rect S5000x128 := Rect.unit (s := S5000x128) ![0, 0] S5000x128.size inb_S5000x128_S5000x128_0_0
abbrev rW11 : Rect S128x128 := Rect.unit (s := S128x128) ![0, 0] S128x128.size inb_S128x128_S128x128_0_0

/-- The output's buffer after the body: its one store, of the payload of the two loads, over the whole block. -/
def out11_2 (x0 : Vec F S5000x128 .f32) (x1 : Vec F S128x128 .f32) : Vec F S5000x128 .f32 :=
  View.canon [⟨rX11, k11_pay1 (View.ld x0 rX11) (View.ld x1 rW11)⟩]

/-- That store covers the block. -/
theorem cover11_2 (p0 : Vec F S5000x128 .f32) (y : S5000x128.Idx) :
    ∃ pc ∈ ([⟨rX11, p0⟩] : List (View.Piece (Elt F) S5000x128 .f32)), y ∈ pc.1.set :=
  View.cover_of_tiled [⟨rX11, p0⟩] S5000x128.size (by rfl) y

set_option maxHeartbeats 1000000 in
/-- The body on whole memrefs, the inputs' at contents `x0`, `x1` and the output's at anything, runs to the
    continuation with the inputs' as they were and the output's at `out11_2 x0 x1`. -/
theorem sound_kernel11 (c : Dev nD) (E : Set ℕ) (i : grid11.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__dense_fwd_kernel i arg1 harg1 arg2 harg2 arg3 harg3) K := by
  simp only [cc11__dense_fwd_kernel_eq_skeleton]; unfold cc11__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The proof data of this pipeline on core `c`: the arrays as the region finds them; after the body at point `t`
    each input's buffer at its block and the output's at the payload of the two input blocks; the invariant the
    scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and
    the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.DenseBody12.lean ====
/-
  Region 12 of @main (a dense layer x · w over row blocks of 5000): the body's half of its frame, at a
  parameter `V` for the TensorCore's buffer contents when the region is entered.
  The body loads the block of x (window 0) and the whole of w (window 1), loads and discards what the output's
  buffer held (window 2), and stores the payload `k12_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current buffer holds its block at every point, fetched there or not (when it is not
    fetched its block index has not moved), for any proof data over `V`'s arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole block of x (and of the output), and the whole of w, as the body's rectangles. -/
abbrev rX12 : Rect S5000x128 := Rect.unit (s := S5000x128) ![0, 0] S5000x128.size inb_S5000x128_S5000x128_0_0
abbrev rW12 : Rect S128x128 := Rect.unit (s := S128x128) ![0, 0] S128x128.size inb_S128x128_S128x128_0_0

/-- The output's buffer after the body: its one store, of the payload of the two loads, over the whole block. -/
def out12_2 (x0 : Vec F S5000x128 .f32) (x1 : Vec F S128x128 .f32) : Vec F S5000x128 .f32 :=
  View.canon [⟨rX12, k12_pay1 (View.ld x0 rX12) (View.ld x1 rW12)⟩]

/-- That store covers the block. -/
theorem cover12_2 (p0 : Vec F S5000x128 .f32) (y : S5000x128.Idx) :
    ∃ pc ∈ ([⟨rX12, p0⟩] : List (View.Piece (Elt F) S5000x128 .f32)), y ∈ pc.1.set :=
  View.cover_of_tiled [⟨rX12, p0⟩] S5000x128.size (by rfl) y

set_option maxHeartbeats 1000000 in
/-- The body on whole memrefs, the inputs' at contents `x0`, `x1` and the output's at anything, runs to the
    continuation with the inputs' as they were and the output's at `out12_2 x0 x1`. -/
theorem sound_kernel12 (c : Dev nD) (E : Set ℕ) (i : grid12.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dense_fwd_kernel i arg1 harg1 arg2 harg2 arg3 harg3) K := by
  simp only [cc12__dense_fwd_kernel_eq_skeleton]; unfold cc12__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of this pipeline on core `c`: the arrays as the region finds them; after the body at point `t`
    each input's buffer at its block and the output's at the payload of the two input blocks; the invariant the
    scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the body's triple applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.DenseBody13.lean ====
/-
  Region 13 of @main (a dense layer x · w over row blocks of 5000): the body's half of its frame, at a
  parameter `V` for the TensorCore's buffer contents when the region is entered.
  The body loads the block of x (window 0) and the whole of w (window 1), loads and discards what the output's
  buffer held (window 2), and stores the payload `k13_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current buffer holds its block at every point, fetched there or not (when it is not
    fetched its block index has not moved), for any proof data over `V`'s arrays whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The whole block of x (and of the output), and the whole of w, as the body's rectangles. -/
abbrev rX13 : Rect S5000x128 := Rect.unit (s := S5000x128) ![0, 0] S5000x128.size inb_S5000x128_S5000x128_0_0
abbrev rW13 : Rect S128x128 := Rect.unit (s := S128x128) ![0, 0] S128x128.size inb_S128x128_S128x128_0_0

/-- The output's buffer after the body: its one store, of the payload of the two loads, over the whole block. -/
def out13_2 (x0 : Vec F S5000x128 .f32) (x1 : Vec F S128x128 .f32) : Vec F S5000x128 .f32 :=
  View.canon [⟨rX13, k13_pay1 (View.ld x0 rX13) (View.ld x1 rW13)⟩]

/-- That store covers the block. -/
theorem cover13_2 (p0 : Vec F S5000x128 .f32) (y : S5000x128.Idx) :
    ∃ pc ∈ ([⟨rX13, p0⟩] : List (View.Piece (Elt F) S5000x128 .f32)), y ∈ pc.1.set :=
  View.cover_of_tiled [⟨rX13, p0⟩] S5000x128.size (by rfl) y

set_option maxHeartbeats 1000000 in
/-- The body on whole memrefs, the inputs' at contents `x0`, `x1` and the output's at anything, runs to the
    continuation with the inputs' as they were and the output's at `out13_2 x0 x1`. -/
theorem sound_kernel13 (c : Dev nD) (E : Set ℕ) (i : grid13.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__dense_fwd_kernel i arg1 harg1 arg2 harg2 arg3 harg3) K := by
  simp only [cc13__dense_fwd_kernel_eq_skeleton]; unfold cc13__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The proof data of this pipeline on core `c`: the arrays as the region finds them; after the body at point `t`
    each input's buffer at its block and the output's at the payload of the two input blocks; the invariant the
    scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant and
    the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.RedBody2.lean ====
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond2_0 (i : grid2.Coords) : Prop := (Scalar.cmpi .ne (Scalar.extui (Scalar.cmpi .eq (BitVec.ofNat 32 (i 0).val) 0#32)) 0#32) = 1#1
/-- The second conditional holds: the point is the last (the output is produced). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

/-- The offsets of the body's rectangles are zero on both axes. -/
theorem off00_2 : (![0, 0] : Fin 2 → Nat) = fun _ => 0 := by funext a; fin_cases a <;> rfl

/-- A load through the whole-block rectangle reads the buffer's contents. -/
theorem readAt_big2 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_2 _ _
theorem readAt_sq2 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_2 _ _

/-- What a list of stores whose last is of the whole block leaves: that store's payload. -/
theorem read_writes_whole2 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_2 inb_S128x128_S128x128_0_0 y⟩),
    View.canon_cons_unit_zero off00_2]

set_option maxHeartbeats 1000000 in
/-- The body at the first point: the accumulator, at anything, is reset to zero and then receives the first block product;
    the inputs and the output's buffer are handed back as they were. -/
theorem run2_A (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond2_0 i) (hc1 : ¬cond2_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 (k2_pay1 (F := F)))) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole2, readAt_big2, readAt_big2, View.readCov_unit_zero _ off00_2]

set_option maxHeartbeats 1000000 in
/-- The body at a point that is neither first nor last: the accumulator, at what the point before left, receives the
    block product; the inputs and the output's buffer are handed back as they were. -/
theorem run2_B (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond2_0 i) (hc1 : ¬cond2_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 xs)) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole2, readAt_big2, readAt_big2, readAt_sq2]

set_option maxHeartbeats 1000000 in
/-- The body at the last point: the accumulator receives the last block product, and the output's buffer, at anything,
    receives the activation of the accumulator; the inputs are handed back as they were. -/
theorem run2_C (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond2_0 i) (hc1 : cond2_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay3 (k2_pay2 x0 x1 xs))
            ∗ owns (c : Thread nD τ) arg4 fullShare (k2_pay2 x0 x1 xs)) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole2, View.readCov_unit_zero _ off00_2, readAt_big2, readAt_big2, readAt_sq2]
  iexists _; isplitr
  swap; · iexact HS0
  ipureintro
  sl_unfold_run_names
  rw [read_writes_whole2, readAt_big2, readAt_big2, readAt_sq2]

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point (it is fetched at every point), for any proof data
    over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
/-- Off the last point the output window is idle (the body stores nothing into it) and is not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- at the last point it is live. -/
theorem liveAt2_2 : ∀ t : Fin cfg2.N, cond2_1 (grid2.coords t) → cfg2.idle 2 (grid2.coords t) = false := by decide +kernel

/-! ## The accumulator -/

/-- The scratch accumulator the body carries between points, as a memref. -/
abbrev scM2 : Memref sig .tc .vmem S128x128 .f32 := Memref.whole cc2_scratch0

/-- The region's invariant before the first point, with the accumulator split off the other scoped buffers. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The two input blocks at point `n` (past the grid, where nothing consults them, the first point's). -/
def inA2 (c : Dev nD) (n : ℕ) : Vec F S5000x128 .f32 :=
  if h : n < cfg2.N then iblk2 V c 0 ⟨n, h⟩ else iblk2 V c 0 ⟨0, by decide⟩
def inB2 (c : Dev nD) (n : ℕ) : Vec F S5000x128 .f32 :=
  if h : n < cfg2.N then iblk2 V c 1 ⟨n, h⟩ else iblk2 V c 1 ⟨0, by decide⟩

theorem inA2_eq (c : Dev nD) (t : Fin cfg2.N) : inA2 V c t.val = iblk2 V c 0 t := by unfold inA2; rw [dif_pos t.isLt]
theorem inB2_eq (c : Dev nD) (t : Fin cfg2.N) : inB2 V c t.val = iblk2 V c 1 t := by unfold inB2; rw [dif_pos t.isLt]

/-- THE ACCUMULATION: what the accumulator holds after the body at point `n` — zero plus the first block product at the
    first point, then what the point before left plus the point's block product. -/
def acc2 (c : Dev nD) : ℕ → Vec F S128x128 .f32
  | 0 => k2_pay2 (inA2 V c 0) (inB2 V c 0) (k2_pay1 (F := F))
  | n + 1 => k2_pay2 (inA2 V c (n + 1)) (inB2 V c (n + 1)) (acc2 c n)

theorem acc2_zero (c : Dev nD) : acc2 V c 0 = k2_pay2 (inA2 V c 0) (inB2 V c 0) (k2_pay1 (F := F)) := rfl
theorem acc2_succ (c : Dev nD) (n : ℕ) : acc2 V c (n + 1) = k2_pay2 (inA2 V c (n + 1)) (inB2 V c (n + 1)) (acc2 V c n) := rfl

theorem acc2_first (c : Dev nD) (t : Fin cfg2.N) (h : t.val = 0) :
    acc2 V c t.val = k2_pay2 (iblk2 V c 0 t) (iblk2 V c 1 t) (k2_pay1 (F := F)) := by
  rw [← inA2_eq V c t, ← inB2_eq V c t, h]; rfl

theorem acc2_later (c : Dev nD) (t : Fin cfg2.N) (h : t.val ≠ 0) :
    acc2 V c t.val = k2_pay2 (iblk2 V c 0 t) (iblk2 V c 1 t) (acc2 V c (t.val - 1)) := by
  rw [← inA2_eq V c t, ← inB2_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS2 (c : Dev nD) : ℕ → sProp 𝕄
  | 0 => Pipeline.ΦA spec2 c
  | n + 1 => iprop(iprop(owns (c : Thread nD τ) scM2 fullShare (acc2 V c n)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (hz : n = 0) : PhiS2 V c n = Pipeline.ΦA spec2 c := by subst hz; rfl
theorem PhiS2_succ (c : Dev nD) (n : ℕ) :
    PhiS2 V c (n + 1) = iprop(iprop(owns (c : Thread nD τ) scM2 fullShare (acc2 V c n)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (hz : n ≠ 0) :
    PhiS2 V c n = iprop(iprop(owns (c : Thread nD τ) scM2 fullShare (acc2 V c (n - 1))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) from rfl, PhiS2_succ]
  rw [show (dat2 V c).Φ t.castSucc = PhiS2 V c t.val from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 20 := lt_of_lt_of_eq t.isLt (show cfg2.N = 20 from N_2)
  by_cases h0 : t.val = 0
  · have h1 : ¬t.val = 19 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [PhiS2_zero V c _ h0, PhiA2_eq, acc2_first V c t h0]
    iintro ⟨⟨⟨HS, Hrest⟩, Hg⟩, Ho, ⟨%d0, H0⟩, ⟨%d1, H1⟩, ⟨%d2, H2⟩⟩
    iapply (run2_A c Set.univ (grid2.coords t) _ _ _ _ _ _ _ _ hc0 hc1 (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val = 19
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [PhiS2_pos V c _ h0, acc2_later V c t h0]
      iintro ⟨⟨⟨HS, Hrest⟩, Hg⟩, Ho, ⟨%d0, H0⟩, ⟨%d1, H1⟩, ⟨%d2, H2⟩⟩
      iapply (run2_C c Set.univ (grid2.coords t) _ _ _ _ _ _ _ _ hc0 hc1 (iblk2 V c 0 t) (iblk2 V c 1 t) (acc2 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      rw [PhiS2_pos V c _ h0, acc2_later V c t h0]
      iintro ⟨⟨⟨HS, Hrest⟩, Hg⟩, Ho, ⟨%d0, H0⟩, ⟨%d1, H1⟩, ⟨%d2, H2⟩⟩
      iapply (run2_B c Set.univ (grid2.coords t) _ _ _ _ _ _ _ _ hc0 hc1 (iblk2 V c 0 t) (iblk2 V c 1 t) _ (acc2 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the region -/

/-- What the region is entered with is the invariant before the first point. -/
theorem hin2 (c : Dev nD) : (iprop((∃ r, prngReg c r) ∗ Pipeline.prefHeld (pcfgs (F := F) 2).pre c (fun _ => fullShare) ((cfgs 2).toPCfg_adm).1 ∗ Pipeline.scopedRest spec2 c) : sProp 𝕄) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After any point the invariant gives the scoped buffers back at anything: the accumulator's contents are forgotten. -/
theorem Phi_out2 (c : Dev nD) (n : ℕ) (hn : n ≠ 0) : PhiS2 V c n ⊢ Pipeline.ΦA spec2 c := by
  rw [PhiS2_pos V c _ hn, PhiA2_eq]
  iintro ⟨⟨HS, Hrest⟩, Hg⟩
  isplitl [HS Hrest]
  · isplitl [HS]; · iexists _; iexact HS
    iexact Hrest
  iexact Hg

/-- So after the last point. -/
theorem hout2 (c : Dev nD) : (dat2 V c).Φ (Fin.last cfg2.N) ⊢ (iprop((∃ r, prngReg c r) ∗ Pipeline.ownSems0 (fun k : PEmpty => k.elim) c ∗ Pipeline.scopedRest spec2 c) : sProp 𝕄) := by
  rw [Pipeline.ownSems0_none]
  refine (Phi_out2 V c (Fin.last cfg2.N).val (by rw [Fin.val_last]; have : cfg2.N = 20 := N_2; omega)).trans ?_
  unfold Pipeline.ΦA
  iintro ⟨Hr, Hp⟩
  isplitl [Hp]; · iexact Hp
  isplitr; · iempintro
  iexact Hr

/-- The inputs' arrays are never written. -/
theorem arrAt_in2 (c : Dev nD) (w : Fin cfg2.W) (hw : w = 0 ∨ w = 1) : (dat2 V c).arrAt w cfg2.N = V c (Pipeline.arrRef spec2 w) := by
  rcases hw with rfl | rfl
  · exact ((dat2 V c).arrAt_in 0 rfl _).trans (A_eq2 V c 0)
  · exact ((dat2 V c).arrAt_in 1 rfl _).trans (A_eq2 V c 1)

/-! ## The output array after the region -/

/-- The last grid point, the one that writes the output's block back. -/
def tLast2 : Fin cfg2.N := ⟨19, by decide⟩

/-- What that point writes back: the activation of the whole accumulation (the block is not cut). -/
theorem flushed_last2 (c : Dev nD) : (dat2 V c).flushed 2 tLast2 = k2_pay3 (acc2 V c 19) :=
  (show (dat2 V c).flushed 2 tLast2 = (dat2 V c).after 2 tLast2 from rfl).trans (after2_2 V c tLast2)

/-- The output's one block is its whole array: read through the block, the array's contents are themselves. -/
theorem read_blk_last2 (c : Dev nD) (G : Buf (Elt F) ((cfg2.win 2).arr.view.loc (c.tc : Thread nD τ))) :
    View.read (Elt F) ((cfg2.win 2).blk tLast2).view G = G :=
  View.ld_unit_zero (S := S128x128) (off := fun a => (cfg2.win 2).index tLast2 a * (cfg2.win 2).size a) (by funext a; fin_cases a <;> rfl) _ G

/-- THE OUTPUT ARRAY after the region: its one write-back, at the last point, of the whole block. -/
theorem arrAt_out2 (c : Dev nD) : (dat2 V c).arrAt 2 cfg2.N = k2_pay3 (acc2 V c 19) := by
  have hf : (cfg2.win 2).flush tLast2 = true := (flush2_2 tLast2).mpr rfl
  have h := (dat2 V c).read_blk_arrAt_eq_flushed 2 (fun t t' ht ht' hne => absurd (Fin.ext (by
      have h1 := (flush2_2 t).mp ht; have h2 := (flush2_2 t').mp ht'
      have := t.isLt; have := t'.isLt; have hN : cfg2.N = 20 := N_2; omega)) hne) cfg2.N tLast2 tLast2.isLt hf
  exact (read_blk_last2 c _).symm.trans (h.trans (flushed_last2 V c))

end Cert.KernelIdeal.Hand

end
-- ==== Proof.RedBody4.lean ====
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond4_0 (i : grid4.Coords) : Prop := (Scalar.cmpi .ne (Scalar.extui (Scalar.cmpi .eq (BitVec.ofNat 32 (i 0).val) 0#32)) 0#32) = 1#1
/-- The second conditional holds: the point is the last (the output is produced). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

/-- The offsets of the body's rectangles are zero on both axes. -/
theorem off00_4 : (![0, 0] : Fin 2 → Nat) = fun _ => 0 := by funext a; fin_cases a <;> rfl

/-- A load through the whole-block rectangle reads the buffer's contents. -/
theorem readAt_big4 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_4 _ _
theorem readAt_sq4 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_4 _ _

/-- What a list of stores whose last is of the whole block leaves: that store's payload. -/
theorem read_writes_whole4 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_4 inb_S128x128_S128x128_0_0 y⟩),
    View.canon_cons_unit_zero off00_4]

set_option maxHeartbeats 1000000 in
/-- The body at the first point: the accumulator, at anything, is reset to zero and then receives the first block product;
    the inputs and the output's buffer are handed back as they were. -/
theorem run4_A (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond4_0 i) (hc1 : ¬cond4_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k4_pay2 x0 x1 (k4_pay1 (F := F)))) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole4, readAt_big4, readAt_big4, View.readCov_unit_zero _ off00_4]

set_option maxHeartbeats 1000000 in
/-- The body at a point that is neither first nor last: the accumulator, at what the point before left, receives the
    block product; the inputs and the output's buffer are handed back as they were. -/
theorem run4_B (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond4_0 i) (hc1 : ¬cond4_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k4_pay2 x0 x1 xs)) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole4, readAt_big4, readAt_big4, readAt_sq4]

set_option maxHeartbeats 1000000 in
/-- The body at the last point: the accumulator receives the last block product, and the output's buffer, at anything,
    receives the activation of the accumulator; the inputs are handed back as they were. -/
theorem run4_C (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond4_0 i) (hc1 : cond4_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k4_pay3 (k4_pay2 x0 x1 xs))
            ∗ owns (c : Thread nD τ) arg4 fullShare (k4_pay2 x0 x1 xs)) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole4, View.readCov_unit_zero _ off00_4, readAt_big4, readAt_big4, readAt_sq4]
  iexists _; isplitr
  swap; · iexact HS0
  ipureintro
  sl_unfold_run_names
  rw [read_writes_whole4, readAt_big4, readAt_big4, readAt_sq4]

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point (it is fetched at every point), for any proof data
    over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Off the last point the output window is idle (the body stores nothing into it) and is not written back; -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- at the last point it is live. -/
theorem liveAt4_2 : ∀ t : Fin cfg4.N, cond4_1 (grid4.coords t) → cfg4.idle 2 (grid4.coords t) = false := by decide +kernel

/-! ## The accumulator -/

/-- The scratch accumulator the body carries between points, as a memref. -/
abbrev scM4 : Memref sig .tc .vmem S128x128 .f32 := Memref.whole cc4_scratch0

/-- The region's invariant before the first point, with the accumulator split off the other scoped buffers. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The two input blocks at point `n` (past the grid, where nothing consults them, the first point's). -/
def inA4 (c : Dev nD) (n : ℕ) : Vec F S5000x128 .f32 :=
  if h : n < cfg4.N then iblk4 V c 0 ⟨n, h⟩ else iblk4 V c 0 ⟨0, by decide⟩
def inB4 (c : Dev nD) (n : ℕ) : Vec F S5000x128 .f32 :=
  if h : n < cfg4.N then iblk4 V c 1 ⟨n, h⟩ else iblk4 V c 1 ⟨0, by decide⟩

theorem inA4_eq (c : Dev nD) (t : Fin cfg4.N) : inA4 V c t.val = iblk4 V c 0 t := by unfold inA4; rw [dif_pos t.isLt]
theorem inB4_eq (c : Dev nD) (t : Fin cfg4.N) : inB4 V c t.val = iblk4 V c 1 t := by unfold inB4; rw [dif_pos t.isLt]

/-- THE ACCUMULATION: what the accumulator holds after the body at point `n` — zero plus the first block product at the
    first point, then what the point before left plus the point's block product. -/
def acc4 (c : Dev nD) : ℕ → Vec F S128x128 .f32
  | 0 => k4_pay2 (inA4 V c 0) (inB4 V c 0) (k4_pay1 (F := F))
  | n + 1 => k4_pay2 (inA4 V c (n + 1)) (inB4 V c (n + 1)) (acc4 c n)

theorem acc4_zero (c : Dev nD) : acc4 V c 0 = k4_pay2 (inA4 V c 0) (inB4 V c 0) (k4_pay1 (F := F)) := rfl
theorem acc4_succ (c : Dev nD) (n : ℕ) : acc4 V c (n + 1) = k4_pay2 (inA4 V c (n + 1)) (inB4 V c (n + 1)) (acc4 V c n) := rfl

theorem acc4_first (c : Dev nD) (t : Fin cfg4.N) (h : t.val = 0) :
    acc4 V c t.val = k4_pay2 (iblk4 V c 0 t) (iblk4 V c 1 t) (k4_pay1 (F := F)) := by
  rw [← inA4_eq V c t, ← inB4_eq V c t, h]; rfl

theorem acc4_later (c : Dev nD) (t : Fin cfg4.N) (h : t.val ≠ 0) :
    acc4 V c t.val = k4_pay2 (iblk4 V c 0 t) (iblk4 V c 1 t) (acc4 V c (t.val - 1)) := by
  rw [← inA4_eq V c t, ← inB4_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS4 (c : Dev nD) : ℕ → sProp 𝕄
  | 0 => Pipeline.ΦA spec4 c
  | n + 1 => iprop(iprop(owns (c : Thread nD τ) scM4 fullShare (acc4 V c n)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (hz : n = 0) : PhiS4 V c n = Pipeline.ΦA spec4 c := by subst hz; rfl
theorem PhiS4_succ (c : Dev nD) (n : ℕ) :
    PhiS4 V c (n + 1) = iprop(iprop(owns (c : Thread nD τ) scM4 fullShare (acc4 V c n)
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (hz : n ≠ 0) :
    PhiS4 V c n = iprop(iprop(owns (c : Thread nD τ) scM4 fullShare (acc4 V c (n - 1))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val)
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) from rfl, PhiS4_succ]
  rw [show (dat4 V c).Φ t.castSucc = PhiS4 V c t.val from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have h1 : ¬t.val = 9 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [PhiS4_zero V c _ h0, PhiA4_eq, acc4_first V c t h0]
    iintro ⟨⟨⟨HS, Hrest⟩, Hg⟩, Ho, ⟨%d0, H0⟩, ⟨%d1, H1⟩, ⟨%d2, H2⟩⟩
    iapply (run4_A c Set.univ (grid4.coords t) _ _ _ _ _ _ _ _ hc0 hc1 (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond4_0 (grid4.coords t) := fun h => h0 ((hcond4_0 t).mp h)
    by_cases h1 : t.val = 9
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      rw [PhiS4_pos V c _ h0, acc4_later V c t h0]
      iintro ⟨⟨⟨HS, Hrest⟩, Hg⟩, Ho, ⟨%d0, H0⟩, ⟨%d1, H1⟩, ⟨%d2, H2⟩⟩
      iapply (run4_C c Set.univ (grid4.coords t) _ _ _ _ _ _ _ _ hc0 hc1 (iblk4 V c 0 t) (iblk4 V c 1 t) (acc4 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [PhiS4_pos V c _ h0, acc4_later V c t h0]
      iintro ⟨⟨⟨HS, Hrest⟩, Hg⟩, Ho, ⟨%d0, H0⟩, ⟨%d1, H1⟩, ⟨%d2, H2⟩⟩
      iapply (run4_B c Set.univ (grid4.coords t) _ _ _ _ _ _ _ _ hc0 hc1 (iblk4 V c 0 t) (iblk4 V c 1 t) _ (acc4 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the region -/

/-- What the region is entered with is the invariant before the first point. -/
theorem hin4 (c : Dev nD) : (iprop((∃ r, prngReg c r) ∗ Pipeline.prefHeld (pcfgs (F := F) 4).pre c (fun _ => fullShare) ((cfgs 4).toPCfg_adm).1 ∗ Pipeline.scopedRest spec4 c) : sProp 𝕄) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After any point the invariant gives the scoped buffers back at anything: the accumulator's contents are forgotten. -/
theorem Phi_out4 (c : Dev nD) (n : ℕ) (hn : n ≠ 0) : PhiS4 V c n ⊢ Pipeline.ΦA spec4 c := by
  rw [PhiS4_pos V c _ hn, PhiA4_eq]
  iintro ⟨⟨HS, Hrest⟩, Hg⟩
  isplitl [HS Hrest]
  · isplitl [HS]; · iexists _; iexact HS
    iexact Hrest
  iexact Hg

/-- So after the last point. -/
theorem hout4 (c : Dev nD) : (dat4 V c).Φ (Fin.last cfg4.N) ⊢ (iprop((∃ r, prngReg c r) ∗ Pipeline.ownSems0 (fun k : PEmpty => k.elim) c ∗ Pipeline.scopedRest spec4 c) : sProp 𝕄) := by
  rw [Pipeline.ownSems0_none]
  refine (Phi_out4 V c (Fin.last cfg4.N).val (by rw [Fin.val_last]; have : cfg4.N = 10 := N_4; omega)).trans ?_
  unfold Pipeline.ΦA
  iintro ⟨Hr, Hp⟩
  isplitl [Hp]; · iexact Hp
  isplitr; · iempintro
  iexact Hr

/-- The inputs' arrays are never written. -/
theorem arrAt_in4 (c : Dev nD) (w : Fin cfg4.W) (hw : w = 0 ∨ w = 1) : (dat4 V c).arrAt w cfg4.N = V c (Pipeline.arrRef spec4 w) := by
  rcases hw with rfl | rfl
  · exact ((dat4 V c).arrAt_in 0 rfl _).trans (A_eq4 V c 0)
  · exact ((dat4 V c).arrAt_in 1 rfl _).trans (A_eq4 V c 1)

/-! ## The output array after the region -/

/-- The last grid point, the one that writes the output's block back. -/
def tLast4 : Fin cfg4.N := ⟨9, by decide⟩

/-- What that point writes back: the activation of the whole accumulation (the block is not cut). -/
theorem flushed_last4 (c : Dev nD) : (dat4 V c).flushed 2 tLast4 = k4_pay3 (acc4 V c 9) :=
  (show (dat4 V c).flushed 2 tLast4 = (dat4 V c).after 2 tLast4 from rfl).trans (after4_2 V c tLast4)

/-- The output's one block is its whole array: read through the block, the array's contents are themselves. -/
theorem read_blk_last4 (c : Dev nD) (G : Buf (Elt F) ((cfg4.win 2).arr.view.loc (c.tc : Thread nD τ))) :
    View.read (Elt F) ((cfg4.win 2).blk tLast4).view G = G :=
  View.ld_unit_zero (S := S128x128) (off := fun a => (cfg4.win 2).index tLast4 a * (cfg4.win 2).size a) (by funext a; fin_cases a <;> rfl) _ G

/-- THE OUTPUT ARRAY after the region: its one write-back, at the last point, of the whole block. -/
theorem arrAt_out4 (c : Dev nD) : (dat4 V c).arrAt 2 cfg4.N = k4_pay3 (acc4 V c 9) := by
  have hf : (cfg4.win 2).flush tLast4 = true := (flush4_2 tLast4).mpr rfl
  have h := (dat4 V c).read_blk_arrAt_eq_flushed 2 (fun t t' ht ht' hne => absurd (Fin.ext (by
      have h1 := (flush4_2 t).mp ht; have h2 := (flush4_2 t').mp ht'
      have := t.isLt; have := t'.isLt; have hN : cfg4.N = 10 := N_4; omega)) hne) cfg4.N tLast4 tLast4.isLt hf
  exact (read_blk_last4 c _).symm.trans (h.trans (flushed_last4 V c))

end Cert.KernelIdeal.Hand

end
-- ==== Proof.RedBody8.lean ====
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond8_0 (i : grid8.Coords) : Prop := (Scalar.cmpi .ne (Scalar.extui (Scalar.cmpi .eq (BitVec.ofNat 32 (i 0).val) 0#32)) 0#32) = 1#1
/-- The second conditional holds: the point is the last (the output is produced). -/
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 19 :=
  (by decide +kernel : ∀ t : Fin grid8.N, cond8_1 (grid8.coords t) ↔ t.val = 19)

/-- The offsets of the body's rectangles are zero on both axes. -/
theorem off00_8 : (![0, 0] : Fin 2 → Nat) = fun _ => 0 := by funext a; fin_cases a <;> rfl

/-- A load through the whole-block rectangle reads the buffer's contents. -/
theorem readAt_big8 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_8 _ _
theorem readAt_sq8 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_8 _ _

/-- What a list of stores whose last is of the whole block leaves: that store's payload. -/
theorem read_writes_whole8 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_8 inb_S128x128_S128x128_0_0 y⟩),
    View.canon_cons_unit_zero off00_8]

set_option maxHeartbeats 1000000 in
/-- The body at the first point: the accumulator, at anything, is reset to zero and then receives the first block product;
    the inputs and the output's buffer are handed back as they were. -/
theorem run8_A (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond8_0 i) (hc1 : ¬cond8_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 (k8_pay1 (F := F)))) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole8, readAt_big8, readAt_big8, View.readCov_unit_zero _ off00_8]

set_option maxHeartbeats 1000000 in
/-- The body at a point that is neither first nor last: the accumulator, at what the point before left, receives the
    block product; the inputs and the output's buffer are handed back as they were. -/
theorem run8_B (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : ¬cond8_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 xs)) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole8, readAt_big8, readAt_big8, readAt_sq8]

set_option maxHeartbeats 1000000 in
/-- The body at the last point: the accumulator receives the last block product, and the output's buffer, at anything,
    receives the activation of the accumulator; the inputs are handed back as they were. -/
theorem run8_C (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : cond8_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay3 (k8_pay2 x0 x1 xs))
            ∗ owns (c : Thread nD τ) arg4 fullShare (k8_pay2 x0 x1 xs)) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole8, View.readCov_unit_zero _ off00_8, readAt_big8, readAt_big8, readAt_sq8]
  iexists _; isplitr
  swap; · iexact HS0
  ipureintro
  sl_unfold_run_names
  rw [read_writes_whole8, readAt_big8, readAt_big8, readAt_sq8]

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current buffer holds its block at every point (it is fetched at every point), for any proof data
    over `V`'s arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## Where the windows are idle -/

theorem liveAt8_0 : ∀ t : Fin cfg8.N, cfg8.idle 0 (grid8.coords t) = false := fun _ => rfl
theorem liveAt8_1 : ∀ t : Fin cfg8.N, cfg8.idle 1 (grid8.coords t) = false := fun _ => rfl
/-- Off the last point the output window is idle (the body stores nothing into it) and is not written back; -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
/-- at the last point it is live. -/
theorem liveAt8_2 : ∀ t : Fin cfg8.N, cond8_1 (grid8.coords t) → cfg8.idle 2 (grid8.coords t) = false := by decide +kernel

/-! ## The accumulator -/

/-- The scratch accumulator the body carries between points, as a memref. -/
abbrev scM8 : Memref sig .tc .vmem S128x128 .f32 := Memref.whole cc8_scratch0

/-- The region's invariant before the first point, with the accumulator split off the other scoped buffers. -/
theorem PhiA8_eq (c : Dev nD) :
    (Pipeline.ΦA spec8 c : sProp 𝕄)
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The two input blocks at point `n` (past the grid, where nothing consults them, the first point's). -/
def inA8 (c : Dev nD) (n : ℕ) : Vec F S5000x128 .f32 :=
  if h : n < cfg8.N then iblk8 V c 0 ⟨n, h⟩ else iblk8 V c 0 ⟨0, by decide⟩
def inB8 (c : Dev nD) (n : ℕ) : Vec F S5000x128 .f32 :=
  if h : n < cfg8.N then iblk8 V c 1 ⟨n, h⟩ else iblk8 V c 1 ⟨0, by decide⟩

theorem inA8_eq (c : Dev nD) (t : Fin cfg8.N) : inA8 V c t.val = iblk8 V c 0 t := by unfold inA8; rw [dif_pos t.isLt]
theorem inB8_eq (c : Dev nD) (t : Fin cfg8.N) : inB8 V c t.val = iblk8 V c 1 t := by unfold inB8; rw [dif_pos t.isLt]

/-- THE ACCUMULATION: what the accumulator holds after the body at point `n` — zero plus the first block product at the
    first point, then what the point before left plus the point's block product. -/
def acc8 (c : Dev nD) : ℕ → Vec F S128x128 .f32
  | 0 => k8_pay2 (inA8 V c 0) (inB8 V c 0) (k8_pay1 (F := F))
  | n + 1 => k8_pay2 (inA8 V c (n + 1)) (inB8 V c (n + 1)) (acc8 c n)

theorem acc8_zero (c : Dev nD) : acc8 V c 0 = k8_pay2 (inA8 V c 0) (inB8 V c 0) (k8_pay1 (F := F)) := rfl
theorem acc8_succ (c : Dev nD) (n : ℕ) : acc8 V c (n + 1) = k8_pay2 (inA8 V c (n + 1)) (inB8 V c (n + 1)) (acc8 V c n) := rfl

theorem acc8_first (c : Dev nD) (t : Fin cfg8.N) (h : t.val = 0) :
    acc8 V c t.val = k8_pay2 (iblk8 V c 0 t) (iblk8 V c 1 t) (k8_pay1 (F := F)) := by
  rw [← inA8_eq V c t, ← inB8_eq V c t, h]; rfl

theorem acc8_later (c : Dev nD) (t : Fin cfg8.N) (h : t.val ≠ 0) :
    acc8 V c t.val = k8_pay2 (iblk8 V c 0 t) (iblk8 V c 1 t) (acc8 V c (t.val - 1)) := by
  rw [← inA8_eq V c t, ← inB8_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS8 (c : Dev nD) : ℕ → sProp 𝕄
  | 0 => Pipeline.ΦA spec8 c
  | n + 1 => iprop(iprop(owns (c : Thread nD τ) scM8 fullShare (acc8 V c n)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (hz : n = 0) : PhiS8 V c n = Pipeline.ΦA spec8 c := by subst hz; rfl
theorem PhiS8_succ (c : Dev nD) (n : ℕ) :
    PhiS8 V c (n + 1) = iprop(iprop(owns (c : Thread nD τ) scM8 fullShare (acc8 V c n)
      ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (hz : n ≠ 0) :
    PhiS8 V c n = iprop(iprop(owns (c : Thread nD τ) scM8 fullShare (acc8 V c (n - 1))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (acc8 V c t.val)
  Φ t := PhiS8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (acc8 V c t.val) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) from rfl, PhiS8_succ]
  rw [show (dat8 V c).Φ t.castSucc = PhiS8 V c t.val from rfl]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  have hN : t.val < 20 := lt_of_lt_of_eq t.isLt (show cfg8.N = 20 from N_8)
  by_cases h0 : t.val = 0
  · have h1 : ¬t.val = 19 := by omega
    have hc0 : cond8_0 (grid8.coords t) := (hcond8_0 t).mpr h0
    have hc1 : ¬cond8_1 (grid8.coords t) := fun h => h1 ((hcond8_1 t).mp h)
    rw [Dat.leavesExact_idle (dat8 V c) 2 t (idleAt8_2 t hc1) (noFlush8_2 t hc1)]
    rw [PhiS8_zero V c _ h0, PhiA8_eq, acc8_first V c t h0]
    iintro ⟨⟨⟨HS, Hrest⟩, Hg⟩, Ho, ⟨%d0, H0⟩, ⟨%d1, H1⟩, ⟨%d2, H2⟩⟩
    iapply (run8_A c Set.univ (grid8.coords t) _ _ _ _ _ _ _ _ hc0 hc1 (iblk8 V c 0 t) (iblk8 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond8_0 (grid8.coords t) := fun h => h0 ((hcond8_0 t).mp h)
    by_cases h1 : t.val = 19
    · have hc1 : cond8_1 (grid8.coords t) := (hcond8_1 t).mpr h1
      rw [show (dat8 V c).leavesExact 2 t = owns (c : Thread nD τ) (st8_2 t) fullShare ((dat8 V c).after 2 t) from by
        unfold Dat.leavesExact; rw [liveAt8_2 t hc1], after8_2]
      rw [PhiS8_pos V c _ h0, acc8_later V c t h0]
      iintro ⟨⟨⟨HS, Hrest⟩, Hg⟩, Ho, ⟨%d0, H0⟩, ⟨%d1, H1⟩, ⟨%d2, H2⟩⟩
      iapply (run8_C c Set.univ (grid8.coords t) _ _ _ _ _ _ _ _ hc0 hc1 (iblk8 V c 0 t) (iblk8 V c 1 t) (acc8 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond8_1 (grid8.coords t) := fun h => h1 ((hcond8_1 t).mp h)
      rw [Dat.leavesExact_idle (dat8 V c) 2 t (idleAt8_2 t hc1) (noFlush8_2 t hc1)]
      rw [PhiS8_pos V c _ h0, acc8_later V c t h0]
      iintro ⟨⟨⟨HS, Hrest⟩, Hg⟩, Ho, ⟨%d0, H0⟩, ⟨%d1, H1⟩, ⟨%d2, H2⟩⟩
      iapply (run8_B c Set.univ (grid8.coords t) _ _ _ _ _ _ _ _ hc0 hc1 (iblk8 V c 0 t) (iblk8 V c 1 t) _ (acc8 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into and out of the region -/

/-- What the region is entered with is the invariant before the first point. -/
theorem hin8 (c : Dev nD) : (iprop((∃ r, prngReg c r) ∗ Pipeline.prefHeld (pcfgs (F := F) 8).pre c (fun _ => fullShare) ((cfgs 8).toPCfg_adm).1 ∗ Pipeline.scopedRest spec8 c) : sProp 𝕄) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

/-- After any point the invariant gives the scoped buffers back at anything: the accumulator's contents are forgotten. -/
theorem Phi_out8 (c : Dev nD) (n : ℕ) (hn : n ≠ 0) : PhiS8 V c n ⊢ Pipeline.ΦA spec8 c := by
  rw [PhiS8_pos V c _ hn, PhiA8_eq]
  iintro ⟨⟨HS, Hrest⟩, Hg⟩
  isplitl [HS Hrest]
  · isplitl [HS]; · iexists _; iexact HS
    iexact Hrest
  iexact Hg

/-- So after the last point. -/
theorem hout8 (c : Dev nD) : (dat8 V c).Φ (Fin.last cfg8.N) ⊢ (iprop((∃ r, prngReg c r) ∗ Pipeline.ownSems0 (fun k : PEmpty => k.elim) c ∗ Pipeline.scopedRest spec8 c) : sProp 𝕄) := by
  rw [Pipeline.ownSems0_none]
  refine (Phi_out8 V c (Fin.last cfg8.N).val (by rw [Fin.val_last]; have : cfg8.N = 20 := N_8; omega)).trans ?_
  unfold Pipeline.ΦA
  iintro ⟨Hr, Hp⟩
  isplitl [Hp]; · iexact Hp
  isplitr; · iempintro
  iexact Hr

/-- The inputs' arrays are never written. -/
theorem arrAt_in8 (c : Dev nD) (w : Fin cfg8.W) (hw : w = 0 ∨ w = 1) : (dat8 V c).arrAt w cfg8.N = V c (Pipeline.arrRef spec8 w) := by
  rcases hw with rfl | rfl
  · exact ((dat8 V c).arrAt_in 0 rfl _).trans (A_eq8 V c 0)
  · exact ((dat8 V c).arrAt_in 1 rfl _).trans (A_eq8 V c 1)

/-! ## The output array after the region -/

/-- The last grid point, the one that writes the output's block back. -/
def tLast8 : Fin cfg8.N := ⟨19, by decide⟩

/-- What that point writes back: the activation of the whole accumulation (the block is not cut). -/
theorem flushed_last8 (c : Dev nD) : (dat8 V c).flushed 2 tLast8 = k8_pay3 (acc8 V c 19) :=
  (show (dat8 V c).flushed 2 tLast8 = (dat8 V c).after 2 tLast8 from rfl).trans (after8_2 V c tLast8)

/-- The output's one block is its whole array: read through the block, the array's contents are themselves. -/
theorem read_blk_last8 (c : Dev nD) (G : Buf (Elt F) ((cfg8.win 2).arr.view.loc (c.tc : Thread nD τ))) :
    View.read (Elt F) ((cfg8.win 2).blk tLast8).view G = G :=
  View.ld_unit_zero (S := S128x128) (off := fun a => (cfg8.win 2).index tLast8 a * (cfg8.win 2).size a) (by funext a; fin_cases a <;> rfl) _ G

/-- THE OUTPUT ARRAY after the region: its one write-back, at the last point, of the whole block. -/
theorem arrAt_out8 (c : Dev nD) : (dat8 V c).arrAt 2 cfg8.N = k8_pay3 (acc8 V c 19) := by
  have hf : (cfg8.win 2).flush tLast8 = true := (flush8_2 tLast8).mpr rfl
  have h := (dat8 V c).read_blk_arrAt_eq_flushed 2 (fun t t' ht ht' hne => absurd (Fin.ext (by
      have h1 := (flush8_2 t).mp ht; have h2 := (flush8_2 t').mp ht'
      have := t.isLt; have := t'.isLt; have hN : cfg8.N = 20 := N_8; omega)) hne) cfg8.N tLast8 tLast8.isLt hf
  exact (read_blk_last8 c _).symm.trans (h.trans (flushed_last8 V c))

end Cert.KernelIdeal.Hand

end
-- ==== Proof.RedBody10.lean ====
import proofs.«140582_j49512382988743_1_alg».proof.Proof.Gen.KernelIdeal.Launch
import proofs.«140582_j49512382988743_1_alg».proof.Proof.Gen.KernelIdeal.Skeleton
import proofs.«140582_j49512382988743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond10_0 (i : grid10.Coords) : Prop := (Scalar.cmpi .ne (Scalar.extui (Scalar.cmpi .eq (BitVec.ofNat 32 (i 0).val) 0#32)) 0#32) = 1#1
/-- The second conditional holds: the point is the last (the output is produced). -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

/-- The offsets of the body's rectangles are zero on both axes. -/
theorem off00_10 : (![0, 0] : Fin 2 → Nat) = fun _ => 0 := by funext a; fin_cases a <;> rfl

/-- A load through the whole-block rectangle reads the buffer's contents. -/
theorem readAt_big10 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_10 _ _
theorem readAt_sq10 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_10 _ _

/-- What a list of stores whose last is of the whole block leaves: that store's payload. -/
theorem read_writes_whole10 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_10 inb_S128x128_S128x128_0_0 y⟩),
    View.canon_cons_unit_zero off00_10]

set_option maxHeartbeats 1000000 in
/-- The body at the first point: the accumulator, at anything, is reset to zero and then receives the first block product;
    the inputs and the output's buffer are handed back as they were. -/
theorem run10_A (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond10_0 i) (hc1 : ¬cond10_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k10_pay2 x0 x1 (k10_pay1 (F := F)))) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole10, readAt_big10, readAt_big10, View.readCov_unit_zero _ off00_10]

set_option maxHeartbeats 1000000 in
/-- The body at a point that is neither first nor last: the accumulator, at what the point before left, receives the
    block product; the inputs and the output's buffer are handed back as they were. -/
theorem run10_B (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond10_0 i) (hc1 : ¬cond10_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k10_pay2 x0 x1 xs)) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole10, readAt_big10, readAt_big10, readAt_sq10]

set_option maxHeartbeats 1000000 in
/-- The body at the last point: the accumulator receives the last block product, and the output's buffer, at anything,
    receives the activation of the accumulator; the inputs are handed back as they were. -/
theorem run10_C (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond10_0 i) (hc1 : cond10_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k10_pay3 (k10_pay2 x0 x1 xs))
            ∗ owns (c : Thread nD τ) arg4 fullShare (k10_pay2 x0 x1 xs)) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole10, View.readCov_unit_zero _ off00_10, readAt_big10, readAt_big10, readAt_sq10]
  iexists _; isplitr
  swap; · iexact HS0
  ipureintro
  sl_unfold_run_names
  rw [read_writes_whole10, readAt_big10, readAt_big10, readAt_sq10]

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current buffer holds its block at every point (it is fetched at every point), for any proof data
    over `V`'s arrays whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## Where the windows are idle -/

theorem liveAt10_0 : ∀ t : Fin cfg10.N, cfg10.idle 0 (grid10.coords t) = false := fun _ => rfl
theorem liveAt10_1 : ∀ t : Fin cfg10.N, cfg10.idle 1 (grid10.coords t) = false := fun _ => rfl
/-- Off the last point the output window is idle (the body stores nothing into it) and is not written back; -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- at the last point it is live. -/
theorem liveAt10_2 : ∀ t : Fin cfg10.N, cond10_1 (grid10.coords t) → cfg10.idle 2 (grid10.coords t) = false := by decide +kernel

/-! ## The accumulator -/

/-- The scratch accumulator the body carries between points, as a memref. -/
abbrev scM10 : Memref sig .tc .vmem S128x128 .f32 := Memref.whole cc10_scratch0

/-- The region's invariant before the first point, with the accumulator split off the other scoped buffers. -/
theorem PhiA10_eq (c : Dev nD) :
    (Pipeline.ΦA spec10 c : sProp 𝕄)
      = iprop(iprop((∃ d, owns (c : Thread nD τ) scM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- The two input blocks at point `n` (past the grid, where nothing consults them, the first point's). -/
def inA10 (c : Dev nD) (n : ℕ) : Vec F S5000x128 .f32 :=
  if h : n < cfg10.N then iblk10 V c 0 ⟨n, h⟩ else iblk10 V c 0 ⟨0, by decide⟩
def inB10 (c : Dev nD) (n : ℕ) : Vec F S5000x128 .f32 :=
  if h : n < cfg10.N then iblk10 V c 1 ⟨n, h⟩ else iblk10 V c 1 ⟨0, by decide⟩

theorem inA10_eq (c : Dev nD) (t : Fin cfg10.N) : inA10 V c t.val = iblk10 V c 0 t := by unfold inA10; rw [dif_pos t.isLt]
theorem inB10_eq (c : Dev nD) (t : Fin cfg10.N) : inB10 V c t.val = iblk10 V c 1 t := by unfold inB10; rw [dif_pos t.isLt]

/-- THE ACCUMULATION: what the accumulator holds after the body at point `n` — zero plus the first block product at the
    first point, then what the point before left plus the point's block product. -/
def acc10 (c : Dev nD) : ℕ → Vec F S128x128 .f32
  | 0 => k10_pay2 (inA10 V c 0) (inB10 V c 0) (k10_pay1 (F := F))
  | n + 1 => k10_pay2 (inA10 V c (n + 1)) (inB10 V c (n + 1)) (acc10 c n)

theorem acc10_zero (c : Dev nD) : acc10 V c 0 = k10_pay2 (inA10 V c 0) (inB10 V c 0) (k10_pay1 (F := F)) := rfl
theorem acc10_succ (c : Dev nD) (n : ℕ) : acc10 V c (n + 1) = k10_pay2 (inA10 V c (n + 1)) (inB10 V c (n + 1)) (acc10 V c n) := rfl

theorem acc10_first (c : Dev nD) (t : Fin cfg10.N) (h : t.val = 0) :
    acc10 V c t.val = k10_pay2 (iblk10 V c 0 t) (iblk10 V c 1 t) (k10_pay1 (F := F)) := by
  rw [← inA10_eq V c t, ← inB10_eq V c t, h]; rfl

theorem acc10_later (c : Dev nD) (t : Fin cfg10.N) (h : t.val ≠ 0) :
    acc10 V c t.val = k10_pay2 (iblk10 V c 0 t) (iblk10 V c 1 t) (acc10 V c (t.val - 1)) := by
  rw [← inA10_eq V c t, ← inB10_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS10 (c : Dev nD) : ℕ → sProp 𝕄
  | 0 => Pipeline.ΦA spec10 c
  | n + 1 => iprop(iprop(owns (c : Thread nD τ) scM10 fullShare (acc10 V c n)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (hz : n = 0) : PhiS10 V c n = Pipeline.ΦA spec10 c := by subst hz; rfl
theorem PhiS10_succ (c : Dev nD) (n : ℕ) :
    PhiS10 V c (n + 1) = iprop(iprop(owns (c : Thread nD τ) scM10 fullShare (acc10 V c n)
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (hz : n ≠ 0) :
    PhiS10 V c n = iprop(iprop(owns (c : Thread nD τ) scM10 fullShare (acc10 V c (n - 1))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (acc10 V c t.val)
  Φ t := PhiS10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (acc10 V c t.val) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) from rfl, PhiS10_succ]
  rw [show (dat10 V c).Φ t.castSucc = PhiS10 V c t.val from rfl]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 10 := lt_of_lt_of_eq t.isLt (show cfg10.N = 10 from N_10)
  by_cases h0 : t.val = 0
  · have h1 : ¬t.val = 9 := by omega
    have hc0 : cond10_0 (grid10.coords t) := (hcond10_0 t).mpr h0
    have hc1 : ¬cond10_1 (grid10.coords t) := fun h => h1 ((hcond10_1 t).mp h)
    rw [Dat.leavesExact_idle (dat10 V c) 2 t (idleAt10_2 t hc1) (noFlush10_2 t hc1)]
    rw [PhiS10_zero V c _ h0, PhiA10_eq, acc10_first V c t h0]
    iintro ⟨⟨⟨HS, Hrest⟩, Hg⟩, Ho, ⟨%d0, H0⟩, ⟨%d1, H1⟩, ⟨%d2, H2⟩⟩
    iapply (run10_A c Set.univ (grid10.coords t) _ _ _ _ _ _ _ _ hc0 hc1 (iblk10 V c 0 t) (iblk10 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond10_0 (grid10.coords t) := fun h => h0 ((hcond10_0 t).mp h)
    by_cases h1 : t.val = 9
    · have hc1 : cond10_1 (grid10.coords t) := (hcond10_1 t).mpr h1
      rw [show (dat10 V c).leavesExact 2 t = owns (c : Thread nD τ) (st10_2 t) fullShare ((dat10 V c).after 2 t) from by
        unfold Dat.leavesExact; rw [liveAt10_2 t hc1], after10_2]
      rw [PhiS10_pos V c _ h0, acc10_later V c t h0]
      iintro ⟨⟨⟨HS, Hrest⟩, Hg⟩, Ho, ⟨%d0, H0⟩, ⟨%d1, H1⟩, ⟨%d2, H2⟩⟩
      iapply (run10_C c Set.univ (grid10.coords t) _ _ _ _ _ _ _ _ hc0 hc1 (iblk10 V c 0 t) (iblk10 V c 1 t) (acc10 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond10_1 (grid10.coords t) := fun h => h1 ((hcond10_1 t).mp h)
      rw [Dat.leavesExact_idle (dat10 V c) 2 t (idleAt10_2 t hc1) (noFlush10_2 t hc1)]
      rw [PhiS10_pos V c _ h0, acc10_later V c t h0]
      iintro ⟨⟨⟨HS, Hrest⟩, Hg⟩, Ho, ⟨%d0, H0⟩, ⟨%d1, H1⟩, ⟨%d2, H2⟩⟩
      iapply (run10_B c Set.univ (grid10.coords t) _ _ _ _ _ _ _ _ hc0 hc1 (iblk10 V c 0 t) (iblk10 V c 1 t) _ (acc10 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into and out of the region -/

/-- What the region is entered with is the invariant before the first point. -/
theorem hin10 (c : Dev nD) : (iprop((∃ r, prngReg c r) ∗ Pipeline.prefHeld (pcfgs (F := F) 10).pre c (fun _ => fullShare) ((cfgs 10).toPCfg_adm).1 ∗ Pipeline.scopedRest spec10 c) : sProp 𝕄) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After any point the invariant gives the scoped buffers back at anything: the accumulator's contents are forgotten. -/
theorem Phi_out10 (c : Dev nD) (n : ℕ) (hn : n ≠ 0) : PhiS10 V c n ⊢ Pipeline.ΦA spec10 c := by
  rw [PhiS10_pos V c _ hn, PhiA10_eq]
  iintro ⟨⟨HS, Hrest⟩, Hg⟩
  isplitl [HS Hrest]
  · isplitl [HS]; · iexists _; iexact HS
    iexact Hrest
  iexact Hg

/-- So after the last point. -/
theorem hout10 (c : Dev nD) : (dat10 V c).Φ (Fin.last cfg10.N) ⊢ (iprop((∃ r, prngReg c r) ∗ Pipeline.ownSems0 (fun k : PEmpty => k.elim) c ∗ Pipeline.scopedRest spec10 c) : sProp 𝕄) := by
  rw [Pipeline.ownSems0_none]
  refine (Phi_out10 V c (Fin.last cfg10.N).val (by rw [Fin.val_last]; have : cfg10.N = 10 := N_10; omega)).trans ?_
  unfold Pipeline.ΦA
  iintro ⟨Hr, Hp⟩
  isplitl [Hp]; · iexact Hp
  isplitr; · iempintro
  iexact Hr

/-- The inputs' arrays are never written. -/
theorem arrAt_in10 (c : Dev nD) (w : Fin cfg10.W) (hw : w = 0 ∨ w = 1) : (dat10 V c).arrAt w cfg10.N = V c (Pipeline.arrRef spec10 w) := by
  rcases hw with rfl | rfl
  · exact ((dat10 V c).arrAt_in 0 rfl _).trans (A_eq10 V c 0)
  · exact ((dat10 V c).arrAt_in 1 rfl _).trans (A_eq10 V c 1)

/-! ## The output array after the region -/

/-- The last grid point, the one that writes the output's block back. -/
def tLast10 : Fin cfg10.N := ⟨9, by decide⟩

/-- What that point writes back: the activation of the whole accumulation (the block is not cut). -/
theorem flushed_last10 (c : Dev nD) : (dat10 V c).flushed 2 tLast10 = k10_pay3 (acc10 V c 9) :=
  (show (dat10 V c).flushed 2 tLast10 = (dat10 V c).after 2 tLast10 from rfl).trans (after10_2 V c tLast10)

/-- The output's one block is its whole array: read through the block, the array's contents are themselves. -/
theorem read_blk_last10 (c : Dev nD) (G : Buf (Elt F) ((cfg10.win 2).arr.view.loc (c.tc : Thread nD τ))) :
    View.read (Elt F) ((cfg10.win 2).blk tLast10).view G = G :=
  View.ld_unit_zero (S := S128x128) (off := fun a => (cfg10.win 2).index tLast10 a * (cfg10.win 2).size a) (by funext a; fin_cases a <;> rfl) _ G

/-- THE OUTPUT ARRAY after the region: its one write-back, at the last point, of the whole block. -/
theorem arrAt_out10 (c : Dev nD) : (dat10 V c).arrAt 2 cfg10.N = k10_pay3 (acc10 V c 9) := by
  have hf : (cfg10.win 2).flush tLast10 = true := (flush10_2 tLast10).mpr rfl
  have h := (dat10 V c).read_blk_arrAt_eq_flushed 2 (fun t t' ht ht' hne => absurd (Fin.ext (by
      have h1 := (flush10_2 t).mp ht; have h2 := (flush10_2 t').mp ht'
      have := t.isLt; have := t'.isLt; have hN : cfg10.N = 10 := N_10; omega)) hne) cfg10.N tLast10 tLast10.isLt hf
  exact (read_blk_last10 c _).symm.trans (h.trans (flushed_last10 V c))

end Cert.KernelIdeal.Hand

end
-- ==== Proof.Chain.lean ====
/-
  The buffer contents of @main at every boundary between two of its items (a kernel region, or a stretch of host
  operations), as a chain of explicit valuations from the launch memory: a host stretch applies its operations; a
  region replaces its output array by what its write-backs leave and changes nothing else. From the chain: the
  contents each region leaves (`outs`), every pipeline's proof data at its region's entry contents (`pdats`), and
  that the boundary contents stated over `outs` are this chain.
-/
import proofs.«140582_j49512382988743_1_alg».proof.Proof.RegionsKI
import proofs.«140582_j49512382988743_1_alg».proof.Proof.DenseBody0
import proofs.«140582_j49512382988743_1_alg».proof.Proof.DenseBody1
import proofs.«140582_j49512382988743_1_alg».proof.Proof.DenseBody3
import proofs.«140582_j49512382988743_1_alg».proof.Proof.DenseBody5
import proofs.«140582_j49512382988743_1_alg».proof.Proof.DenseBody6
import proofs.«140582_j49512382988743_1_alg».proof.Proof.DenseBody7
import proofs.«140582_j49512382988743_1_alg».proof.Proof.DenseBody9
import proofs.«140582_j49512382988743_1_alg».proof.Proof.DenseBody11
import proofs.«140582_j49512382988743_1_alg».proof.Proof.DenseBody12
import proofs.«140582_j49512382988743_1_alg».proof.Proof.DenseBody13
import proofs.«140582_j49512382988743_1_alg».proof.Proof.RedBody2
import proofs.«140582_j49512382988743_1_alg».proof.Proof.RedBody4
import proofs.«140582_j49512382988743_1_alg».proof.Proof.RedBody8
import proofs.«140582_j49512382988743_1_alg».proof.Proof.RedBody10

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- A valuation read at the TensorCore's references: what a region's proof data take as the entry contents. -/
abbrev atTc (W : Dev nD → Valuation τ sig (Elt F)) : (c : Dev nD) → (b : Ref sig .tc) → Buf (Elt F) ((c : Thread nD τ).loc b) :=
  fun c b => W c b

/-- Core `c`'s unscoped buffers at launch. -/
def X0 (c : Dev nD) : Valuation τ sig (Elt F) := fun b => m (c, b)
/-- After item 0, region 0: `main_v0` at what the region's write-backs leave, every other buffer as before. -/
def X1 (c : Dev nD) : Valuation τ sig (Elt F) :=
  Function.update (X0 m c) main_v0 ((dat0 (atTc (X0 m)) c).arrAt 2 cfg0.N)
/-- After item 1, region 1: `main_v1` at what the region's write-backs leave, every other buffer as before. -/
def X2 (c : Dev nD) : Valuation τ sig (Elt F) :=
  Function.update (X1 m c) main_v1 ((dat1 (atTc (X1 m)) c).arrAt 2 cfg1.N)
/-- After item 2, the host stretch `hostOps2`. -/
def X3 (c : Dev nD) : Valuation τ sig (Elt F) := StableHlo.after hostOps2 (X2 m c)
/-- After item 3, region 2: `main_v4` at what the region's write-backs leave, every other buffer as before. -/
def X4 (c : Dev nD) : Valuation τ sig (Elt F) :=
  Function.update (X3 m c) main_v4 ((dat2 (atTc (X3 m)) c).arrAt 2 cfg2.N)
/-- After item 4, the host stretch `hostOps3`. -/
def X5 (c : Dev nD) : Valuation τ sig (Elt F) := StableHlo.after hostOps3 (X4 m c)
/-- After item 5, the host stretch `hostOps3_1`. -/
def X6 (c : Dev nD) : Valuation τ sig (Elt F) := StableHlo.after hostOps3_1 (X5 m c)
/-- After item 6, the host stretch `hostOps3_2`. -/
def X7 (c : Dev nD) : Valuation τ sig (Elt F) := StableHlo.after hostOps3_2 (X6 m c)
/-- After item 7, the host stretch `hostOps3_3`. -/
def X8 (c : Dev nD) : Valuation τ sig (Elt F) := StableHlo.after hostOps3_3 (X7 m c)
/-- After item 8, the host stretch `hostOps3_4`. -/
def X9 (c : Dev nD) : Valuation τ sig (Elt F) := StableHlo.after hostOps3_4 (X8 m c)
/-- After item 9, the host stretch `hostOps3_5`. -/
def X10 (c : Dev nD) : Valuation τ sig (Elt F) := StableHlo.after hostOps3_5 (X9 m c)
/-- After item 10, the host stretch `hostOps3_6`. -/
def X11 (c : Dev nD) : Valuation τ sig (Elt F) := StableHlo.after hostOps3_6 (X10 m c)
/-- After item 11, region 3: `main_v26` at what the region's write-backs leave, every other buffer as before. -/
def X12 (c : Dev nD) : Valuation τ sig (Elt F) :=
  Function.update (X11 m c) main_v26 ((dat3 (atTc (X11 m)) c).arrAt 2 cfg3.N)
/-- After item 12, the host stretch `hostOps4`. -/
def X13 (c : Dev nD) : Valuation τ sig (Elt F) := StableHlo.after hostOps4 (X12 m c)
/-- After item 13, region 4: `main_v29` at what the region's write-backs leave, every other buffer as before. -/
def X14 (c : Dev nD) : Valuation τ sig (Elt F) :=
  Function.update (X13 m c) main_v29 ((dat4 (atTc (X13 m)) c).arrAt 2 cfg4.N)
/-- After item 14, the host stretch `hostOps5`. -/
def X15 (c : Dev nD) : Valuation τ sig (Elt F) := StableHlo.after hostOps5 (X14 m c)
/-- After item 15, the host stretch `hostOps5_1`. -/
def X16 (c : Dev nD) : Valuation τ sig (Elt F) := StableHlo.after hostOps5_1 (X15 m c)
/-- After item 16, the host stretch `hostOps5_2`. -/
def X17 (c : Dev nD) : Valuation τ sig (Elt F) := StableHlo.after hostOps5_2 (X16 m c)
/-- After item 17, the host stretch `hostOps5_3`. -/
def X18 (c : Dev nD) : Valuation τ sig (Elt F) := StableHlo.after hostOps5_3 (X17 m c)
/-- After item 18, the host stretch `hostOps5_4`. -/
def X19 (c : Dev nD) : Valuation τ sig (Elt F) := StableHlo.after hostOps5_4 (X18 m c)
/-- After item 19, the host stretch `hostOps5_5`. -/
def X20 (c : Dev nD) : Valuation τ sig (Elt F) := StableHlo.after hostOps5_5 (X19 m c)
/-- After item 20, the host stretch `hostOps5_6`. -/
def X21 (c : Dev nD) : Valuation τ sig (Elt F) := StableHlo.after hostOps5_6 (X20 m c)
/-- After item 21, region 5: `main_v51` at what the region's write-backs leave, every other buffer as before. -/
def X22 (c : Dev nD) : Valuation τ sig (Elt F) :=
  Function.update (X21 m c) main_v51 ((dat5 (atTc (X21 m)) c).arrAt 2 cfg5.N)
/-- After item 22, the host stretch `hostOps6`. -/
def X23 (c : Dev nD) : Valuation τ sig (Elt F) := StableHlo.after hostOps6 (X22 m c)
/-- After item 23, region 6: `main_v67` at what the region's write-backs leave, every other buffer as before. -/
def X24 (c : Dev nD) : Valuation τ sig (Elt F) :=
  Function.update (X23 m c) main_v67 ((dat6 (atTc (X23 m)) c).arrAt 2 cfg6.N)
/-- After item 24, the host stretch `hostOps7`. -/
def X25 (c : Dev nD) : Valuation τ sig (Elt F) := StableHlo.after hostOps7 (X24 m c)
/-- After item 25, region 7: `main_v83` at what the region's write-backs leave, every other buffer as before. -/
def X26 (c : Dev nD) : Valuation τ sig (Elt F) :=
  Function.update (X25 m c) main_v83 ((dat7 (atTc (X25 m)) c).arrAt 2 cfg7.N)
/-- After item 26, the host stretch `hostOps8`. -/
def X27 (c : Dev nD) : Valuation τ sig (Elt F) := StableHlo.after hostOps8 (X26 m c)
/-- After item 27, region 8: `main_v92` at what the region's write-backs leave, every other buffer as before. -/
def X28 (c : Dev nD) : Valuation τ sig (Elt F) :=
  Function.update (X27 m c) main_v92 ((dat8 (atTc (X27 m)) c).arrAt 2 cfg8.N)
/-- After item 28, the host stretch `hostOps9`. -/
def X29 (c : Dev nD) : Valuation τ sig (Elt F) := StableHlo.after hostOps9 (X28 m c)
/-- After item 29, the host stretch `hostOps9_1`. -/
def X30 (c : Dev nD) : Valuation τ sig (Elt F) := StableHlo.after hostOps9_1 (X29 m c)
/-- After item 30, the host stretch `hostOps9_2`. -/
def X31 (c : Dev nD) : Valuation τ sig (Elt F) := StableHlo.after hostOps9_2 (X30 m c)
/-- After item 31, the host stretch `hostOps9_3`. -/
def X32 (c : Dev nD) : Valuation τ sig (Elt F) := StableHlo.after hostOps9_3 (X31 m c)
/-- After item 32, the host stretch `hostOps9_4`. -/
def X33 (c : Dev nD) : Valuation τ sig (Elt F) := StableHlo.after hostOps9_4 (X32 m c)
/-- After item 33, the host stretch `hostOps9_5`. -/
def X34 (c : Dev nD) : Valuation τ sig (Elt F) := StableHlo.after hostOps9_5 (X33 m c)
/-- After item 34, the host stretch `hostOps9_6`. -/
def X35 (c : Dev nD) : Valuation τ sig (Elt F) := StableHlo.after hostOps9_6 (X34 m c)
/-- After item 35, region 9: `main_v114` at what the region's write-backs leave, every other buffer as before. -/
def X36 (c : Dev nD) : Valuation τ sig (Elt F) :=
  Function.update (X35 m c) main_v114 ((dat9 (atTc (X35 m)) c).arrAt 2 cfg9.N)
/-- After item 36, the host stretch `hostOps10`. -/
def X37 (c : Dev nD) : Valuation τ sig (Elt F) := StableHlo.after hostOps10 (X36 m c)
/-- After item 37, region 10: `main_v117` at what the region's write-backs leave, every other buffer as before. -/
def X38 (c : Dev nD) : Valuation τ sig (Elt F) :=
  Function.update (X37 m c) main_v117 ((dat10 (atTc (X37 m)) c).arrAt 2 cfg10.N)
/-- After item 38, the host stretch `hostOps11`. -/
def X39 (c : Dev nD) : Valuation τ sig (Elt F) := StableHlo.after hostOps11 (X38 m c)
/-- After item 39, the host stretch `hostOps11_1`. -/
def X40 (c : Dev nD) : Valuation τ sig (Elt F) := StableHlo.after hostOps11_1 (X39 m c)
/-- After item 40, the host stretch `hostOps11_2`. -/
def X41 (c : Dev nD) : Valuation τ sig (Elt F) := StableHlo.after hostOps11_2 (X40 m c)
/-- After item 41, the host stretch `hostOps11_3`. -/
def X42 (c : Dev nD) : Valuation τ sig (Elt F) := StableHlo.after hostOps11_3 (X41 m c)
/-- After item 42, the host stretch `hostOps11_4`. -/
def X43 (c : Dev nD) : Valuation τ sig (Elt F) := StableHlo.after hostOps11_4 (X42 m c)
/-- After item 43, the host stretch `hostOps11_5`. -/
def X44 (c : Dev nD) : Valuation τ sig (Elt F) := StableHlo.after hostOps11_5 (X43 m c)
/-- After item 44, the host stretch `hostOps11_6`. -/
def X45 (c : Dev nD) : Valuation τ sig (Elt F) := StableHlo.after hostOps11_6 (X44 m c)
/-- After item 45, region 11: `main_v139` at what the region's write-backs leave, every other buffer as before. -/
def X46 (c : Dev nD) : Valuation τ sig (Elt F) :=
  Function.update (X45 m c) main_v139 ((dat11 (atTc (X45 m)) c).arrAt 2 cfg11.N)
/-- After item 46, the host stretch `hostOps12`. -/
def X47 (c : Dev nD) : Valuation τ sig (Elt F) := StableHlo.after hostOps12 (X46 m c)
/-- After item 47, region 12: `main_v155` at what the region's write-backs leave, every other buffer as before. -/
def X48 (c : Dev nD) : Valuation τ sig (Elt F) :=
  Function.update (X47 m c) main_v155 ((dat12 (atTc (X47 m)) c).arrAt 2 cfg12.N)
/-- After item 48, the host stretch `hostOps13`. -/
def X49 (c : Dev nD) : Valuation τ sig (Elt F) := StableHlo.after hostOps13 (X48 m c)
/-- After item 49, region 13: `main_v171` at what the region's write-backs leave, every other buffer as before. -/
def X50 (c : Dev nD) : Valuation τ sig (Elt F) :=
  Function.update (X49 m c) main_v171 ((dat13 (atTc (X49 m)) c).arrAt 2 cfg13.N)
/-- After item 50, the host stretch `hostOps14`. -/
def X51 (c : Dev nD) : Valuation τ sig (Elt F) := StableHlo.after hostOps14 (X50 m c)

/-- What each region leaves in the buffer it may change: the chain's contents right after it. -/
def outs : GenP.Outs (F := F) := fun J r c => match J with
  | 1 => X1 m c r
  | 2 => X2 m c r
  | 4 => X4 m c r
  | 12 => X12 m c r
  | 14 => X14 m c r
  | 22 => X22 m c r
  | 24 => X24 m c r
  | 26 => X26 m c r
  | 28 => X28 m c r
  | 36 => X36 m c r
  | 38 => X38 m c r
  | 46 => X46 m c r
  | 48 => X48 m c r
  | 50 => X50 m c r
  | _ => X0 m c r

/-! The boundary contents stated over `outs` are the chain. -/
theorem V0_eq (c : Dev nD) : GenP.V0 m c = X0 m c := rfl
theorem V1_eq (c : Dev nD) : GenP.V1 m (outs m) c = X1 m c := by
  show Function.update (GenP.V0 m c) main_v0 (X1 m c main_v0) = X1 m c
  rw [V0_eq]; unfold X1; rw [Function.update_self]
theorem V2_eq (c : Dev nD) : GenP.V2 m (outs m) c = X2 m c := by
  show Function.update (GenP.V1 m (outs m) c) main_v1 (X2 m c main_v1) = X2 m c
  rw [V1_eq]; unfold X2; rw [Function.update_self]
theorem V3_eq (c : Dev nD) : GenP.V3 m (outs m) c = X3 m c := by
  show StableHlo.after hostOps2 (GenP.V2 m (outs m) c) = StableHlo.after hostOps2 (X2 m c)
  rw [V2_eq]
theorem V4_eq (c : Dev nD) : GenP.V4 m (outs m) c = X4 m c := by
  show Function.update (GenP.V3 m (outs m) c) main_v4 (X4 m c main_v4) = X4 m c
  rw [V3_eq]; unfold X4; rw [Function.update_self]
theorem V5_eq (c : Dev nD) : GenP.V5 m (outs m) c = X5 m c := by
  show StableHlo.after hostOps3 (GenP.V4 m (outs m) c) = StableHlo.after hostOps3 (X4 m c)
  rw [V4_eq]
theorem V6_eq (c : Dev nD) : GenP.V6 m (outs m) c = X6 m c := by
  show StableHlo.after hostOps3_1 (GenP.V5 m (outs m) c) = StableHlo.after hostOps3_1 (X5 m c)
  rw [V5_eq]
theorem V7_eq (c : Dev nD) : GenP.V7 m (outs m) c = X7 m c := by
  show StableHlo.after hostOps3_2 (GenP.V6 m (outs m) c) = StableHlo.after hostOps3_2 (X6 m c)
  rw [V6_eq]
theorem V8_eq (c : Dev nD) : GenP.V8 m (outs m) c = X8 m c := by
  show StableHlo.after hostOps3_3 (GenP.V7 m (outs m) c) = StableHlo.after hostOps3_3 (X7 m c)
  rw [V7_eq]
theorem V9_eq (c : Dev nD) : GenP.V9 m (outs m) c = X9 m c := by
  show StableHlo.after hostOps3_4 (GenP.V8 m (outs m) c) = StableHlo.after hostOps3_4 (X8 m c)
  rw [V8_eq]
theorem V10_eq (c : Dev nD) : GenP.V10 m (outs m) c = X10 m c := by
  show StableHlo.after hostOps3_5 (GenP.V9 m (outs m) c) = StableHlo.after hostOps3_5 (X9 m c)
  rw [V9_eq]
theorem V11_eq (c : Dev nD) : GenP.V11 m (outs m) c = X11 m c := by
  show StableHlo.after hostOps3_6 (GenP.V10 m (outs m) c) = StableHlo.after hostOps3_6 (X10 m c)
  rw [V10_eq]
theorem V12_eq (c : Dev nD) : GenP.V12 m (outs m) c = X12 m c := by
  show Function.update (GenP.V11 m (outs m) c) main_v26 (X12 m c main_v26) = X12 m c
  rw [V11_eq]; unfold X12; rw [Function.update_self]
theorem V13_eq (c : Dev nD) : GenP.V13 m (outs m) c = X13 m c := by
  show StableHlo.after hostOps4 (GenP.V12 m (outs m) c) = StableHlo.after hostOps4 (X12 m c)
  rw [V12_eq]
theorem V14_eq (c : Dev nD) : GenP.V14 m (outs m) c = X14 m c := by
  show Function.update (GenP.V13 m (outs m) c) main_v29 (X14 m c main_v29) = X14 m c
  rw [V13_eq]; unfold X14; rw [Function.update_self]
theorem V15_eq (c : Dev nD) : GenP.V15 m (outs m) c = X15 m c := by
  show StableHlo.after hostOps5 (GenP.V14 m (outs m) c) = StableHlo.after hostOps5 (X14 m c)
  rw [V14_eq]
theorem V16_eq (c : Dev nD) : GenP.V16 m (outs m) c = X16 m c := by
  show StableHlo.after hostOps5_1 (GenP.V15 m (outs m) c) = StableHlo.after hostOps5_1 (X15 m c)
  rw [V15_eq]
theorem V17_eq (c : Dev nD) : GenP.V17 m (outs m) c = X17 m c := by
  show StableHlo.after hostOps5_2 (GenP.V16 m (outs m) c) = StableHlo.after hostOps5_2 (X16 m c)
  rw [V16_eq]
theorem V18_eq (c : Dev nD) : GenP.V18 m (outs m) c = X18 m c := by
  show StableHlo.after hostOps5_3 (GenP.V17 m (outs m) c) = StableHlo.after hostOps5_3 (X17 m c)
  rw [V17_eq]
theorem V19_eq (c : Dev nD) : GenP.V19 m (outs m) c = X19 m c := by
  show StableHlo.after hostOps5_4 (GenP.V18 m (outs m) c) = StableHlo.after hostOps5_4 (X18 m c)
  rw [V18_eq]
theorem V20_eq (c : Dev nD) : GenP.V20 m (outs m) c = X20 m c := by
  show StableHlo.after hostOps5_5 (GenP.V19 m (outs m) c) = StableHlo.after hostOps5_5 (X19 m c)
  rw [V19_eq]
theorem V21_eq (c : Dev nD) : GenP.V21 m (outs m) c = X21 m c := by
  show StableHlo.after hostOps5_6 (GenP.V20 m (outs m) c) = StableHlo.after hostOps5_6 (X20 m c)
  rw [V20_eq]
theorem V22_eq (c : Dev nD) : GenP.V22 m (outs m) c = X22 m c := by
  show Function.update (GenP.V21 m (outs m) c) main_v51 (X22 m c main_v51) = X22 m c
  rw [V21_eq]; unfold X22; rw [Function.update_self]
theorem V23_eq (c : Dev nD) : GenP.V23 m (outs m) c = X23 m c := by
  show StableHlo.after hostOps6 (GenP.V22 m (outs m) c) = StableHlo.after hostOps6 (X22 m c)
  rw [V22_eq]
theorem V24_eq (c : Dev nD) : GenP.V24 m (outs m) c = X24 m c := by
  show Function.update (GenP.V23 m (outs m) c) main_v67 (X24 m c main_v67) = X24 m c
  rw [V23_eq]; unfold X24; rw [Function.update_self]
theorem V25_eq (c : Dev nD) : GenP.V25 m (outs m) c = X25 m c := by
  show StableHlo.after hostOps7 (GenP.V24 m (outs m) c) = StableHlo.after hostOps7 (X24 m c)
  rw [V24_eq]
theorem V26_eq (c : Dev nD) : GenP.V26 m (outs m) c = X26 m c := by
  show Function.update (GenP.V25 m (outs m) c) main_v83 (X26 m c main_v83) = X26 m c
  rw [V25_eq]; unfold X26; rw [Function.update_self]
theorem V27_eq (c : Dev nD) : GenP.V27 m (outs m) c = X27 m c := by
  show StableHlo.after hostOps8 (GenP.V26 m (outs m) c) = StableHlo.after hostOps8 (X26 m c)
  rw [V26_eq]
theorem V28_eq (c : Dev nD) : GenP.V28 m (outs m) c = X28 m c := by
  show Function.update (GenP.V27 m (outs m) c) main_v92 (X28 m c main_v92) = X28 m c
  rw [V27_eq]; unfold X28; rw [Function.update_self]
theorem V29_eq (c : Dev nD) : GenP.V29 m (outs m) c = X29 m c := by
  show StableHlo.after hostOps9 (GenP.V28 m (outs m) c) = StableHlo.after hostOps9 (X28 m c)
  rw [V28_eq]
theorem V30_eq (c : Dev nD) : GenP.V30 m (outs m) c = X30 m c := by
  show StableHlo.after hostOps9_1 (GenP.V29 m (outs m) c) = StableHlo.after hostOps9_1 (X29 m c)
  rw [V29_eq]
theorem V31_eq (c : Dev nD) : GenP.V31 m (outs m) c = X31 m c := by
  show StableHlo.after hostOps9_2 (GenP.V30 m (outs m) c) = StableHlo.after hostOps9_2 (X30 m c)
  rw [V30_eq]
theorem V32_eq (c : Dev nD) : GenP.V32 m (outs m) c = X32 m c := by
  show StableHlo.after hostOps9_3 (GenP.V31 m (outs m) c) = StableHlo.after hostOps9_3 (X31 m c)
  rw [V31_eq]
theorem V33_eq (c : Dev nD) : GenP.V33 m (outs m) c = X33 m c := by
  show StableHlo.after hostOps9_4 (GenP.V32 m (outs m) c) = StableHlo.after hostOps9_4 (X32 m c)
  rw [V32_eq]
theorem V34_eq (c : Dev nD) : GenP.V34 m (outs m) c = X34 m c := by
  show StableHlo.after hostOps9_5 (GenP.V33 m (outs m) c) = StableHlo.after hostOps9_5 (X33 m c)
  rw [V33_eq]
theorem V35_eq (c : Dev nD) : GenP.V35 m (outs m) c = X35 m c := by
  show StableHlo.after hostOps9_6 (GenP.V34 m (outs m) c) = StableHlo.after hostOps9_6 (X34 m c)
  rw [V34_eq]
theorem V36_eq (c : Dev nD) : GenP.V36 m (outs m) c = X36 m c := by
  show Function.update (GenP.V35 m (outs m) c) main_v114 (X36 m c main_v114) = X36 m c
  rw [V35_eq]; unfold X36; rw [Function.update_self]
theorem V37_eq (c : Dev nD) : GenP.V37 m (outs m) c = X37 m c := by
  show StableHlo.after hostOps10 (GenP.V36 m (outs m) c) = StableHlo.after hostOps10 (X36 m c)
  rw [V36_eq]
theorem V38_eq (c : Dev nD) : GenP.V38 m (outs m) c = X38 m c := by
  show Function.update (GenP.V37 m (outs m) c) main_v117 (X38 m c main_v117) = X38 m c
  rw [V37_eq]; unfold X38; rw [Function.update_self]
theorem V39_eq (c : Dev nD) : GenP.V39 m (outs m) c = X39 m c := by
  show StableHlo.after hostOps11 (GenP.V38 m (outs m) c) = StableHlo.after hostOps11 (X38 m c)
  rw [V38_eq]
theorem V40_eq (c : Dev nD) : GenP.V40 m (outs m) c = X40 m c := by
  show StableHlo.after hostOps11_1 (GenP.V39 m (outs m) c) = StableHlo.after hostOps11_1 (X39 m c)
  rw [V39_eq]
theorem V41_eq (c : Dev nD) : GenP.V41 m (outs m) c = X41 m c := by
  show StableHlo.after hostOps11_2 (GenP.V40 m (outs m) c) = StableHlo.after hostOps11_2 (X40 m c)
  rw [V40_eq]
theorem V42_eq (c : Dev nD) : GenP.V42 m (outs m) c = X42 m c := by
  show StableHlo.after hostOps11_3 (GenP.V41 m (outs m) c) = StableHlo.after hostOps11_3 (X41 m c)
  rw [V41_eq]
theorem V43_eq (c : Dev nD) : GenP.V43 m (outs m) c = X43 m c := by
  show StableHlo.after hostOps11_4 (GenP.V42 m (outs m) c) = StableHlo.after hostOps11_4 (X42 m c)
  rw [V42_eq]
theorem V44_eq (c : Dev nD) : GenP.V44 m (outs m) c = X44 m c := by
  show StableHlo.after hostOps11_5 (GenP.V43 m (outs m) c) = StableHlo.after hostOps11_5 (X43 m c)
  rw [V43_eq]
theorem V45_eq (c : Dev nD) : GenP.V45 m (outs m) c = X45 m c := by
  show StableHlo.after hostOps11_6 (GenP.V44 m (outs m) c) = StableHlo.after hostOps11_6 (X44 m c)
  rw [V44_eq]
theorem V46_eq (c : Dev nD) : GenP.V46 m (outs m) c = X46 m c := by
  show Function.update (GenP.V45 m (outs m) c) main_v139 (X46 m c main_v139) = X46 m c
  rw [V45_eq]; unfold X46; rw [Function.update_self]
theorem V47_eq (c : Dev nD) : GenP.V47 m (outs m) c = X47 m c := by
  show StableHlo.after hostOps12 (GenP.V46 m (outs m) c) = StableHlo.after hostOps12 (X46 m c)
  rw [V46_eq]
theorem V48_eq (c : Dev nD) : GenP.V48 m (outs m) c = X48 m c := by
  show Function.update (GenP.V47 m (outs m) c) main_v155 (X48 m c main_v155) = X48 m c
  rw [V47_eq]; unfold X48; rw [Function.update_self]
theorem V49_eq (c : Dev nD) : GenP.V49 m (outs m) c = X49 m c := by
  show StableHlo.after hostOps13 (GenP.V48 m (outs m) c) = StableHlo.after hostOps13 (X48 m c)
  rw [V48_eq]
theorem V50_eq (c : Dev nD) : GenP.V50 m (outs m) c = X50 m c := by
  show Function.update (GenP.V49 m (outs m) c) main_v171 (X50 m c main_v171) = X50 m c
  rw [V49_eq]; unfold X50; rw [Function.update_self]
theorem V51_eq (c : Dev nD) : GenP.V51 m (outs m) c = X51 m c := by
  show StableHlo.after hostOps14 (GenP.V50 m (outs m) c) = StableHlo.after hostOps14 (X50 m c)
  rw [V50_eq]

/-- Every pipeline's proof data, each at its region's entry contents: a literal match on the pipeline's number. -/
def pdats : (p : Fin 14) → (c : Dev nD) → Dat τ (Elt F) Unit ℕ (UR sig nD τ) ℕ (cfgs p) c
  | ⟨0, _⟩ => fun c => dat0 (atTc (X0 m)) c
  | ⟨1, _⟩ => fun c => dat1 (atTc (X1 m)) c
  | ⟨2, _⟩ => fun c => dat2 (atTc (X3 m)) c
  | ⟨3, _⟩ => fun c => dat3 (atTc (X11 m)) c
  | ⟨4, _⟩ => fun c => dat4 (atTc (X13 m)) c
  | ⟨5, _⟩ => fun c => dat5 (atTc (X21 m)) c
  | ⟨6, _⟩ => fun c => dat6 (atTc (X23 m)) c
  | ⟨7, _⟩ => fun c => dat7 (atTc (X25 m)) c
  | ⟨8, _⟩ => fun c => dat8 (atTc (X27 m)) c
  | ⟨9, _⟩ => fun c => dat9 (atTc (X35 m)) c
  | ⟨10, _⟩ => fun c => dat10 (atTc (X37 m)) c
  | ⟨11, _⟩ => fun c => dat11 (atTc (X45 m)) c
  | ⟨12, _⟩ => fun c => dat12 (atTc (X47 m)) c
  | ⟨13, _⟩ => fun c => dat13 (atTc (X49 m)) c

/-- What rides beside the buffers through every item: the core's generator register at some state, and its dues, none. -/
abbrev Rr (c : Dev nD) : sProp (MT nD τ sig Unit (Elt F) ℕ (UR sig nD τ) ℕ) :=
  iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.KernelIdeal.Hand

end
-- ==== Proof.Reg0.lean ====
/-
  Region 0 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF0 (c : Dev nD) (w : Fin cfg0.W) :
    (dat0 (atTc (X0 m)) c).arrAt w cfg0.N = X1 m c (Pipeline.arrRef spec0 w) :=
  match w with
  | ⟨0, _⟩ => ((dat0 (atTc (X0 m)) c).arrAt_in 0 rfl _).trans ((A_eq0 (atTc (X0 m)) c 0).trans (by
      show X0 m c _ = X1 m c _
      unfold X1; refine (Function.update_of_ne ?_ _ _).symm
      exact StableHlo.devRef_ne_of_ne (by decide)))
  | ⟨1, _⟩ => ((dat0 (atTc (X0 m)) c).arrAt_in 1 rfl _).trans ((A_eq0 (atTc (X0 m)) c 1).trans (by
      show X0 m c _ = X1 m c _
      unfold X1; refine (Function.update_of_ne ?_ _ _).symm
      exact StableHlo.devRef_ne_of_ne (by decide)))
  | ⟨2, _⟩ => by
      show _ = X1 m c (main_v0 : Ref sig .tc)
      unfold X1; rw [Function.update_self]; rfl

/-- Every other buffer holds what it held at entry. -/
theorem hrest0 (c : Dev nD) : ∀ b : Ref sig .tc, b ∉ Finset.univ.image (Pipeline.arrRef spec0) → X1 m c b = X0 m c b :=
  fun b hb => by
    unfold X1
    refine Function.update_of_ne ?_ _ _
    exact StableHlo.devRef_ne_of_ne (fun e => hb (Finset.mem_image.mpr ⟨2, Finset.mem_univ _, e.symm⟩))

set_option backward.isDefEq.respectTransparency.types false in
def reg0 : Pipeline.RegionSeg (pcfgs (F := F)) GenP.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (X0 m)) c).loose
  hwaits := Pipeline.hwaits_of_owed_zero _ _ _ _ Lz lvz 0 fun _ _ => rfl
  pre c := iprop(StableHlo.held (c : Thread nD τ) (Pipeline.ucRefs τ sig) (X0 m c) ∗ Rr c)
  post c := iprop(StableHlo.held (c : Thread nD τ) (Pipeline.ucRefs τ sig) (X1 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (X0 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (atTc (X0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (atTc (X0 m) c) (atTc (X1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  Region 1 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF1 (c : Dev nD) (w : Fin cfg1.W) :
    (dat1 (atTc (X1 m)) c).arrAt w cfg1.N = X2 m c (Pipeline.arrRef spec1 w) :=
  match w with
  | ⟨0, _⟩ => ((dat1 (atTc (X1 m)) c).arrAt_in 0 rfl _).trans ((A_eq1 (atTc (X1 m)) c 0).trans (by
      show X1 m c _ = X2 m c _
      unfold X2; refine (Function.update_of_ne ?_ _ _).symm
      exact StableHlo.devRef_ne_of_ne (by decide)))
  | ⟨1, _⟩ => ((dat1 (atTc (X1 m)) c).arrAt_in 1 rfl _).trans ((A_eq1 (atTc (X1 m)) c 1).trans (by
      show X1 m c _ = X2 m c _
      unfold X2; refine (Function.update_of_ne ?_ _ _).symm
      exact StableHlo.devRef_ne_of_ne (by decide)))
  | ⟨2, _⟩ => by
      show _ = X2 m c (main_v1 : Ref sig .tc)
      unfold X2; rw [Function.update_self]; rfl

/-- Every other buffer holds what it held at entry. -/
theorem hrest1 (c : Dev nD) : ∀ b : Ref sig .tc, b ∉ Finset.univ.image (Pipeline.arrRef spec1) → X2 m c b = X1 m c b :=
  fun b hb => by
    unfold X2
    refine Function.update_of_ne ?_ _ _
    exact StableHlo.devRef_ne_of_ne (fun e => hb (Finset.mem_image.mpr ⟨2, Finset.mem_univ _, e.symm⟩))

set_option backward.isDefEq.respectTransparency.types false in
def reg1 : Pipeline.RegionSeg (pcfgs (F := F)) GenP.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (X1 m)) c).loose
  hwaits := Pipeline.hwaits_of_owed_zero _ _ _ _ Lz lvz 1 fun _ _ => rfl
  pre c := iprop(StableHlo.held (c : Thread nD τ) (Pipeline.ucRefs τ sig) (X1 m c) ∗ Rr c)
  post c := iprop(StableHlo.held (c : Thread nD τ) (Pipeline.ucRefs τ sig) (X2 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X1 m) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (atTc (X1 m) c) (atTc (X2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  Region 2 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF2 (c : Dev nD) (w : Fin cfg2.W) :
    (dat2 (atTc (X3 m)) c).arrAt w cfg2.N = X4 m c (Pipeline.arrRef spec2 w) :=
  match w with
  | ⟨0, _⟩ => ((dat2 (atTc (X3 m)) c).arrAt_in 0 rfl _).trans ((A_eq2 (atTc (X3 m)) c 0).trans (by
      show X3 m c _ = X4 m c _
      unfold X4; refine (Function.update_of_ne ?_ _ _).symm
      exact StableHlo.devRef_ne_of_ne (by decide)))
  | ⟨1, _⟩ => ((dat2 (atTc (X3 m)) c).arrAt_in 1 rfl _).trans ((A_eq2 (atTc (X3 m)) c 1).trans (by
      show X3 m c _ = X4 m c _
      unfold X4; refine (Function.update_of_ne ?_ _ _).symm
      exact StableHlo.devRef_ne_of_ne (by decide)))
  | ⟨2, _⟩ => by
      show _ = X4 m c (main_v4 : Ref sig .tc)
      unfold X4; rw [Function.update_self]; rfl

/-- Every other buffer holds what it held at entry. -/
theorem hrest2 (c : Dev nD) : ∀ b : Ref sig .tc, b ∉ Finset.univ.image (Pipeline.arrRef spec2) → X4 m c b = X3 m c b :=
  fun b hb => by
    unfold X4
    refine Function.update_of_ne ?_ _ _
    exact StableHlo.devRef_ne_of_ne (fun e => hb (Finset.mem_image.mpr ⟨2, Finset.mem_univ _, e.symm⟩))

set_option backward.isDefEq.respectTransparency.types false in
def reg2 : Pipeline.RegionSeg (pcfgs (F := F)) GenP.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (X3 m)) c).loose
  hwaits := Pipeline.hwaits_of_owed_zero _ _ _ _ Lz lvz 2 fun _ _ => rfl
  pre c := iprop(StableHlo.held (c : Thread nD τ) (Pipeline.ucRefs τ sig) (X3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X3 m) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (atTc (X3 m)) c
  hout c := hout2 (atTc (X3 m)) c
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (atTc (X3 m) c) (atTc (X4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
/-
  Region 3 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF3 (c : Dev nD) (w : Fin cfg3.W) :
    (dat3 (atTc (X11 m)) c).arrAt w cfg3.N = X12 m c (Pipeline.arrRef spec3 w) :=
  match w with
  | ⟨0, _⟩ => ((dat3 (atTc (X11 m)) c).arrAt_in 0 rfl _).trans ((A_eq3 (atTc (X11 m)) c 0).trans (by
      show X11 m c _ = X12 m c _
      unfold X12; refine (Function.update_of_ne ?_ _ _).symm
      exact StableHlo.devRef_ne_of_ne (by decide)))
  | ⟨1, _⟩ => ((dat3 (atTc (X11 m)) c).arrAt_in 1 rfl _).trans ((A_eq3 (atTc (X11 m)) c 1).trans (by
      show X11 m c _ = X12 m c _
      unfold X12; refine (Function.update_of_ne ?_ _ _).symm
      exact StableHlo.devRef_ne_of_ne (by decide)))
  | ⟨2, _⟩ => by
      show _ = X12 m c (main_v26 : Ref sig .tc)
      unfold X12; rw [Function.update_self]; rfl

/-- Every other buffer holds what it held at entry. -/
theorem hrest3 (c : Dev nD) : ∀ b : Ref sig .tc, b ∉ Finset.univ.image (Pipeline.arrRef spec3) → X12 m c b = X11 m c b :=
  fun b hb => by
    unfold X12
    refine Function.update_of_ne ?_ _ _
    exact StableHlo.devRef_ne_of_ne (fun e => hb (Finset.mem_image.mpr ⟨2, Finset.mem_univ _, e.symm⟩))

set_option backward.isDefEq.respectTransparency.types false in
def reg3 : Pipeline.RegionSeg (pcfgs (F := F)) GenP.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (X11 m)) c).loose
  hwaits := Pipeline.hwaits_of_owed_zero _ _ _ _ Lz lvz 3 fun _ _ => rfl
  pre c := iprop(StableHlo.held (c : Thread nD τ) (Pipeline.ucRefs τ sig) (X11 m c) ∗ Rr c)
  post c := iprop(StableHlo.held (c : Thread nD τ) (Pipeline.ucRefs τ sig) (X12 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg4.lean ====
/-
  Region 4 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF4 (c : Dev nD) (w : Fin cfg4.W) :
    (dat4 (atTc (X13 m)) c).arrAt w cfg4.N = X14 m c (Pipeline.arrRef spec4 w) :=
  match w with
  | ⟨0, _⟩ => ((dat4 (atTc (X13 m)) c).arrAt_in 0 rfl _).trans ((A_eq4 (atTc (X13 m)) c 0).trans (by
      show X13 m c _ = X14 m c _
      unfold X14; refine (Function.update_of_ne ?_ _ _).symm
      exact StableHlo.devRef_ne_of_ne (by decide)))
  | ⟨1, _⟩ => ((dat4 (atTc (X13 m)) c).arrAt_in 1 rfl _).trans ((A_eq4 (atTc (X13 m)) c 1).trans (by
      show X13 m c _ = X14 m c _
      unfold X14; refine (Function.update_of_ne ?_ _ _).symm
      exact StableHlo.devRef_ne_of_ne (by decide)))
  | ⟨2, _⟩ => by
      show _ = X14 m c (main_v29 : Ref sig .tc)
      unfold X14; rw [Function.update_self]; rfl

/-- Every other buffer holds what it held at entry. -/
theorem hrest4 (c : Dev nD) : ∀ b : Ref sig .tc, b ∉ Finset.univ.image (Pipeline.arrRef spec4) → X14 m c b = X13 m c b :=
  fun b hb => by
    unfold X14
    refine Function.update_of_ne ?_ _ _
    exact StableHlo.devRef_ne_of_ne (fun e => hb (Finset.mem_image.mpr ⟨2, Finset.mem_univ _, e.symm⟩))

set_option backward.isDefEq.respectTransparency.types false in
def reg4 : Pipeline.RegionSeg (pcfgs (F := F)) GenP.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (atTc (X13 m)) c).loose
  hwaits := Pipeline.hwaits_of_owed_zero _ _ _ _ Lz lvz 4 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (X13 m) c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (atTc (X13 m)) c
  hout c := hout4 (atTc (X13 m)) c
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (atTc (X13 m) c) (atTc (X14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg5.lean ====
/-
  Region 5 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF5 (c : Dev nD) (w : Fin cfg5.W) :
    (dat5 (atTc (X21 m)) c).arrAt w cfg5.N = X22 m c (Pipeline.arrRef spec5 w) :=
  match w with
  | ⟨0, _⟩ => ((dat5 (atTc (X21 m)) c).arrAt_in 0 rfl _).trans ((A_eq5 (atTc (X21 m)) c 0).trans (by
      show X21 m c _ = X22 m c _
      unfold X22; refine (Function.update_of_ne ?_ _ _).symm
      exact StableHlo.devRef_ne_of_ne (by decide)))
  | ⟨1, _⟩ => ((dat5 (atTc (X21 m)) c).arrAt_in 1 rfl _).trans ((A_eq5 (atTc (X21 m)) c 1).trans (by
      show X21 m c _ = X22 m c _
      unfold X22; refine (Function.update_of_ne ?_ _ _).symm
      exact StableHlo.devRef_ne_of_ne (by decide)))
  | ⟨2, _⟩ => by
      show _ = X22 m c (main_v51 : Ref sig .tc)
      unfold X22; rw [Function.update_self]; rfl

/-- Every other buffer holds what it held at entry. -/
theorem hrest5 (c : Dev nD) : ∀ b : Ref sig .tc, b ∉ Finset.univ.image (Pipeline.arrRef spec5) → X22 m c b = X21 m c b :=
  fun b hb => by
    unfold X22
    refine Function.update_of_ne ?_ _ _
    exact StableHlo.devRef_ne_of_ne (fun e => hb (Finset.mem_image.mpr ⟨2, Finset.mem_univ _, e.symm⟩))

set_option backward.isDefEq.respectTransparency.types false in
def reg5 : Pipeline.RegionSeg (pcfgs (F := F)) GenP.adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (atTc (X21 m)) c).loose
  hwaits := Pipeline.hwaits_of_owed_zero _ _ _ _ Lz lvz 5 fun _ _ => rfl
  pre c := iprop(StableHlo.held (c : Thread nD τ) (Pipeline.ucRefs τ sig) (X21 m c) ∗ Rr c)
  post c := iprop(StableHlo.held (c : Thread nD τ) (Pipeline.ucRefs τ sig) (X22 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (X21 m) c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (atTc (X21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (atTc (X21 m) c) (atTc (X22 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg6.lean ====
/-
  Region 6 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF6 (c : Dev nD) (w : Fin cfg6.W) :
    (dat6 (atTc (X23 m)) c).arrAt w cfg6.N = X24 m c (Pipeline.arrRef spec6 w) :=
  match w with
  | ⟨0, _⟩ => ((dat6 (atTc (X23 m)) c).arrAt_in 0 rfl _).trans ((A_eq6 (atTc (X23 m)) c 0).trans (by
      show X23 m c _ = X24 m c _
      unfold X24; refine (Function.update_of_ne ?_ _ _).symm
      exact StableHlo.devRef_ne_of_ne (by decide)))
  | ⟨1, _⟩ => ((dat6 (atTc (X23 m)) c).arrAt_in 1 rfl _).trans ((A_eq6 (atTc (X23 m)) c 1).trans (by
      show X23 m c _ = X24 m c _
      unfold X24; refine (Function.update_of_ne ?_ _ _).symm
      exact StableHlo.devRef_ne_of_ne (by decide)))
  | ⟨2, _⟩ => by
      show _ = X24 m c (main_v67 : Ref sig .tc)
      unfold X24; rw [Function.update_self]; rfl

/-- Every other buffer holds what it held at entry. -/
theorem hrest6 (c : Dev nD) : ∀ b : Ref sig .tc, b ∉ Finset.univ.image (Pipeline.arrRef spec6) → X24 m c b = X23 m c b :=
  fun b hb => by
    unfold X24
    refine Function.update_of_ne ?_ _ _
    exact StableHlo.devRef_ne_of_ne (fun e => hb (Finset.mem_image.mpr ⟨2, Finset.mem_univ _, e.symm⟩))

set_option backward.isDefEq.respectTransparency.types false in
def reg6 : Pipeline.RegionSeg (pcfgs (F := F)) GenP.adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (atTc (X23 m)) c).loose
  hwaits := Pipeline.hwaits_of_owed_zero _ _ _ _ Lz lvz 6 fun _ _ => rfl
  pre c := iprop(StableHlo.held (c : Thread nD τ) (Pipeline.ucRefs τ sig) (X23 m c) ∗ Rr c)
  post c := iprop(StableHlo.held (c : Thread nD τ) (Pipeline.ucRefs τ sig) (X24 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (X23 m) c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (atTc (X23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (atTc (X23 m) c) (atTc (X24 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg7.lean ====
/-
  Region 7 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF7 (c : Dev nD) (w : Fin cfg7.W) :
    (dat7 (atTc (X25 m)) c).arrAt w cfg7.N = X26 m c (Pipeline.arrRef spec7 w) :=
  match w with
  | ⟨0, _⟩ => ((dat7 (atTc (X25 m)) c).arrAt_in 0 rfl _).trans ((A_eq7 (atTc (X25 m)) c 0).trans (by
      show X25 m c _ = X26 m c _
      unfold X26; refine (Function.update_of_ne ?_ _ _).symm
      exact StableHlo.devRef_ne_of_ne (by decide)))
  | ⟨1, _⟩ => ((dat7 (atTc (X25 m)) c).arrAt_in 1 rfl _).trans ((A_eq7 (atTc (X25 m)) c 1).trans (by
      show X25 m c _ = X26 m c _
      unfold X26; refine (Function.update_of_ne ?_ _ _).symm
      exact StableHlo.devRef_ne_of_ne (by decide)))
  | ⟨2, _⟩ => by
      show _ = X26 m c (main_v83 : Ref sig .tc)
      unfold X26; rw [Function.update_self]; rfl

/-- Every other buffer holds what it held at entry. -/
theorem hrest7 (c : Dev nD) : ∀ b : Ref sig .tc, b ∉ Finset.univ.image (Pipeline.arrRef spec7) → X26 m c b = X25 m c b :=
  fun b hb => by
    unfold X26
    refine Function.update_of_ne ?_ _ _
    exact StableHlo.devRef_ne_of_ne (fun e => hb (Finset.mem_image.mpr ⟨2, Finset.mem_univ _, e.symm⟩))

set_option backward.isDefEq.respectTransparency.types false in
def reg7 : Pipeline.RegionSeg (pcfgs (F := F)) GenP.adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (atTc (X25 m)) c).loose
  hwaits := Pipeline.hwaits_of_owed_zero _ _ _ _ Lz lvz 7 fun _ _ => rfl
  pre c := iprop(StableHlo.held (c : Thread nD τ) (Pipeline.ucRefs τ sig) (X25 m c) ∗ Rr c)
  post c := iprop(StableHlo.held (c : Thread nD τ) (Pipeline.ucRefs τ sig) (X26 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (X25 m) c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (atTc (X25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (atTc (X25 m) c) (atTc (X26 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg8.lean ====
/-
  Region 8 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF8 (c : Dev nD) (w : Fin cfg8.W) :
    (dat8 (atTc (X27 m)) c).arrAt w cfg8.N = X28 m c (Pipeline.arrRef spec8 w) :=
  match w with
  | ⟨0, _⟩ => ((dat8 (atTc (X27 m)) c).arrAt_in 0 rfl _).trans ((A_eq8 (atTc (X27 m)) c 0).trans (by
      show X27 m c _ = X28 m c _
      unfold X28; refine (Function.update_of_ne ?_ _ _).symm
      exact StableHlo.devRef_ne_of_ne (by decide)))
  | ⟨1, _⟩ => ((dat8 (atTc (X27 m)) c).arrAt_in 1 rfl _).trans ((A_eq8 (atTc (X27 m)) c 1).trans (by
      show X27 m c _ = X28 m c _
      unfold X28; refine (Function.update_of_ne ?_ _ _).symm
      exact StableHlo.devRef_ne_of_ne (by decide)))
  | ⟨2, _⟩ => by
      show _ = X28 m c (main_v92 : Ref sig .tc)
      unfold X28; rw [Function.update_self]; rfl

/-- Every other buffer holds what it held at entry. -/
theorem hrest8 (c : Dev nD) : ∀ b : Ref sig .tc, b ∉ Finset.univ.image (Pipeline.arrRef spec8) → X28 m c b = X27 m c b :=
  fun b hb => by
    unfold X28
    refine Function.update_of_ne ?_ _ _
    exact StableHlo.devRef_ne_of_ne (fun e => hb (Finset.mem_image.mpr ⟨2, Finset.mem_univ _, e.symm⟩))

set_option backward.isDefEq.respectTransparency.types false in
def reg8 : Pipeline.RegionSeg (pcfgs (F := F)) GenP.adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (atTc (X27 m)) c).loose
  hwaits := Pipeline.hwaits_of_owed_zero _ _ _ _ Lz lvz 8 fun _ _ => rfl
  pre c := iprop(StableHlo.held (c : Thread nD τ) (Pipeline.ucRefs τ sig) (X27 m c) ∗ Rr c)
  post c := iprop(StableHlo.held (c : Thread nD τ) (Pipeline.ucRefs τ sig) (X28 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (X27 m) c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (atTc (X27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (atTc (X27 m)) c
  hout c := hout8 (atTc (X27 m)) c
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (atTc (X27 m) c) (atTc (X28 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg9.lean ====
/-
  Region 9 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF9 (c : Dev nD) (w : Fin cfg9.W) :
    (dat9 (atTc (X35 m)) c).arrAt w cfg9.N = X36 m c (Pipeline.arrRef spec9 w) :=
  match w with
  | ⟨0, _⟩ => ((dat9 (atTc (X35 m)) c).arrAt_in 0 rfl _).trans ((A_eq9 (atTc (X35 m)) c 0).trans (by
      show X35 m c _ = X36 m c _
      unfold X36; refine (Function.update_of_ne ?_ _ _).symm
      exact StableHlo.devRef_ne_of_ne (by decide)))
  | ⟨1, _⟩ => ((dat9 (atTc (X35 m)) c).arrAt_in 1 rfl _).trans ((A_eq9 (atTc (X35 m)) c 1).trans (by
      show X35 m c _ = X36 m c _
      unfold X36; refine (Function.update_of_ne ?_ _ _).symm
      exact StableHlo.devRef_ne_of_ne (by decide)))
  | ⟨2, _⟩ => by
      show _ = X36 m c (main_v114 : Ref sig .tc)
      unfold X36; rw [Function.update_self]; rfl

/-- Every other buffer holds what it held at entry. -/
theorem hrest9 (c : Dev nD) : ∀ b : Ref sig .tc, b ∉ Finset.univ.image (Pipeline.arrRef spec9) → X36 m c b = X35 m c b :=
  fun b hb => by
    unfold X36
    refine Function.update_of_ne ?_ _ _
    exact StableHlo.devRef_ne_of_ne (fun e => hb (Finset.mem_image.mpr ⟨2, Finset.mem_univ _, e.symm⟩))

set_option backward.isDefEq.respectTransparency.types false in
def reg9 : Pipeline.RegionSeg (pcfgs (F := F)) GenP.adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (atTc (X35 m)) c).loose
  hwaits := Pipeline.hwaits_of_owed_zero _ _ _ _ Lz lvz 9 fun _ _ => rfl
  pre c := iprop(StableHlo.held (c : Thread nD τ) (Pipeline.ucRefs τ sig) (X35 m c) ∗ Rr c)
  post c := iprop(StableHlo.held (c : Thread nD τ) (Pipeline.ucRefs τ sig) (X36 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (X35 m) c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (atTc (X35 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (atTc (X35 m) c) (atTc (X36 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg10.lean ====
/-
  Region 10 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF10 (c : Dev nD) (w : Fin cfg10.W) :
    (dat10 (atTc (X37 m)) c).arrAt w cfg10.N = X38 m c (Pipeline.arrRef spec10 w) :=
  match w with
  | ⟨0, _⟩ => ((dat10 (atTc (X37 m)) c).arrAt_in 0 rfl _).trans ((A_eq10 (atTc (X37 m)) c 0).trans (by
      show X37 m c _ = X38 m c _
      unfold X38; refine (Function.update_of_ne ?_ _ _).symm
      exact StableHlo.devRef_ne_of_ne (by decide)))
  | ⟨1, _⟩ => ((dat10 (atTc (X37 m)) c).arrAt_in 1 rfl _).trans ((A_eq10 (atTc (X37 m)) c 1).trans (by
      show X37 m c _ = X38 m c _
      unfold X38; refine (Function.update_of_ne ?_ _ _).symm
      exact StableHlo.devRef_ne_of_ne (by decide)))
  | ⟨2, _⟩ => by
      show _ = X38 m c (main_v117 : Ref sig .tc)
      unfold X38; rw [Function.update_self]; rfl

/-- Every other buffer holds what it held at entry. -/
theorem hrest10 (c : Dev nD) : ∀ b : Ref sig .tc, b ∉ Finset.univ.image (Pipeline.arrRef spec10) → X38 m c b = X37 m c b :=
  fun b hb => by
    unfold X38
    refine Function.update_of_ne ?_ _ _
    exact StableHlo.devRef_ne_of_ne (fun e => hb (Finset.mem_image.mpr ⟨2, Finset.mem_univ _, e.symm⟩))

set_option backward.isDefEq.respectTransparency.types false in
def reg10 : Pipeline.RegionSeg (pcfgs (F := F)) GenP.adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (atTc (X37 m)) c).loose
  hwaits := Pipeline.hwaits_of_owed_zero _ _ _ _ Lz lvz 10 fun _ _ => rfl
  pre c := iprop(StableHlo.held (c : Thread nD τ) (Pipeline.ucRefs τ sig) (X37 m c) ∗ Rr c)
  post c := iprop(StableHlo.held (c : Thread nD τ) (Pipeline.ucRefs τ sig) (X38 m c) ∗ Rr c)
  X c := iprop(∃ r, prngReg c r)
  Y c := iprop(∃ r, prngReg c r)
  Z c := Pipeline.unscopedRest (Ix := Unit) (Name := ℕ) (U := UR sig nD τ) (Lvl := ℕ) spec10 c (atTc (X37 m) c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (atTc (X37 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (atTc (X37 m)) c
  hout c := hout10 (atTc (X37 m)) c
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (atTc (X37 m) c) (atTc (X38 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg11.lean ====
/-
  Region 11 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF11 (c : Dev nD) (w : Fin cfg11.W) :
    (dat11 (atTc (X45 m)) c).arrAt w cfg11.N = X46 m c (Pipeline.arrRef spec11 w) :=
  match w with
  | ⟨0, _⟩ => ((dat11 (atTc (X45 m)) c).arrAt_in 0 rfl _).trans ((A_eq11 (atTc (X45 m)) c 0).trans (by
      show X45 m c _ = X46 m c _
      unfold X46; refine (Function.update_of_ne ?_ _ _).symm
      exact StableHlo.devRef_ne_of_ne (by decide)))
  | ⟨1, _⟩ => ((dat11 (atTc (X45 m)) c).arrAt_in 1 rfl _).trans ((A_eq11 (atTc (X45 m)) c 1).trans (by
      show X45 m c _ = X46 m c _
      unfold X46; refine (Function.update_of_ne ?_ _ _).symm
      exact StableHlo.devRef_ne_of_ne (by decide)))
  | ⟨2, _⟩ => by
      show _ = X46 m c (main_v139 : Ref sig .tc)
      unfold X46; rw [Function.update_self]; rfl

/-- Every other buffer holds what it held at entry. -/
theorem hrest11 (c : Dev nD) : ∀ b : Ref sig .tc, b ∉ Finset.univ.image (Pipeline.arrRef spec11) → X46 m c b = X45 m c b :=
  fun b hb => by
    unfold X46
    refine Function.update_of_ne ?_ _ _
    exact StableHlo.devRef_ne_of_ne (fun e => hb (Finset.mem_image.mpr ⟨2, Finset.mem_univ _, e.symm⟩))

set_option backward.isDefEq.respectTransparency.types false in
def reg11 : Pipeline.RegionSeg (pcfgs (F := F)) GenP.adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (atTc (X45 m)) c).loose
  hwaits := Pipeline.hwaits_of_owed_zero _ _ _ _ Lz lvz 11 fun _ _ => rfl
  pre c := iprop(StableHlo.held (c : Thread nD τ) (Pipeline.ucRefs τ sig) (X45 m c) ∗ Rr c)
  post c := iprop(StableHlo.held (c : Thread nD τ) (Pipeline.ucRefs τ sig) (X46 m c) ∗ Rr c)
  X c := iprop(∃ r, prngReg c r)
  Y c := iprop(∃ r, prngReg c r)
  Z c := Pipeline.unscopedRest (Ix := Unit) (Name := ℕ) (U := UR sig nD τ) (Lvl := ℕ) spec11 c (atTc (X45 m) c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (atTc (X45 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (atTc (X45 m) c) (atTc (X46 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg12.lean ====
/-
  Region 12 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF12 (c : Dev nD) (w : Fin cfg12.W) :
    (dat12 (atTc (X47 m)) c).arrAt w cfg12.N = X48 m c (Pipeline.arrRef spec12 w) :=
  match w with
  | ⟨0, _⟩ => ((dat12 (atTc (X47 m)) c).arrAt_in 0 rfl _).trans ((A_eq12 (atTc (X47 m)) c 0).trans (by
      show X47 m c _ = X48 m c _
      unfold X48; refine (Function.update_of_ne ?_ _ _).symm
      exact StableHlo.devRef_ne_of_ne (by decide)))
  | ⟨1, _⟩ => ((dat12 (atTc (X47 m)) c).arrAt_in 1 rfl _).trans ((A_eq12 (atTc (X47 m)) c 1).trans (by
      show X47 m c _ = X48 m c _
      unfold X48; refine (Function.update_of_ne ?_ _ _).symm
      exact StableHlo.devRef_ne_of_ne (by decide)))
  | ⟨2, _⟩ => by
      show _ = X48 m c (main_v155 : Ref sig .tc)
      unfold X48; rw [Function.update_self]; rfl

/-- Every other buffer holds what it held at entry. -/
theorem hrest12 (c : Dev nD) : ∀ b : Ref sig .tc, b ∉ Finset.univ.image (Pipeline.arrRef spec12) → X48 m c b = X47 m c b :=
  fun b hb => by
    unfold X48
    refine Function.update_of_ne ?_ _ _
    exact StableHlo.devRef_ne_of_ne (fun e => hb (Finset.mem_image.mpr ⟨2, Finset.mem_univ _, e.symm⟩))

set_option backward.isDefEq.respectTransparency.types false in
def reg12 : Pipeline.RegionSeg (pcfgs (F := F)) GenP.adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (atTc (X47 m)) c).loose
  hwaits := Pipeline.hwaits_of_owed_zero _ _ _ _ Lz lvz 12 fun _ _ => rfl
  pre c := iprop(StableHlo.held (c : Thread nD τ) (Pipeline.ucRefs τ sig) (X47 m c) ∗ Rr c)
  post c := iprop(StableHlo.held (c : Thread nD τ) (Pipeline.ucRefs τ sig) (X48 m c) ∗ Rr c)
  X c := iprop(∃ r, prngReg c r)
  Y c := iprop(∃ r, prngReg c r)
  Z c := Pipeline.unscopedRest (Ix := Unit) (Name := ℕ) (U := UR sig nD τ) (Lvl := ℕ) spec12 c (atTc (X47 m) c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (atTc (X47 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (atTc (X47 m) c) (atTc (X48 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg13.lean ====
/-
  Region 13 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.Chain

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF13 (c : Dev nD) (w : Fin cfg13.W) :
    (dat13 (atTc (X49 m)) c).arrAt w cfg13.N = X50 m c (Pipeline.arrRef spec13 w) :=
  match w with
  | ⟨0, _⟩ => ((dat13 (atTc (X49 m)) c).arrAt_in 0 rfl _).trans ((A_eq13 (atTc (X49 m)) c 0).trans (by
      show X49 m c _ = X50 m c _
      unfold X50; refine (Function.update_of_ne ?_ _ _).symm
      exact StableHlo.devRef_ne_of_ne (by decide)))
  | ⟨1, _⟩ => ((dat13 (atTc (X49 m)) c).arrAt_in 1 rfl _).trans ((A_eq13 (atTc (X49 m)) c 1).trans (by
      show X49 m c _ = X50 m c _
      unfold X50; refine (Function.update_of_ne ?_ _ _).symm
      exact StableHlo.devRef_ne_of_ne (by decide)))
  | ⟨2, _⟩ => by
      show _ = X50 m c (main_v171 : Ref sig .tc)
      unfold X50; rw [Function.update_self]; rfl

/-- Every other buffer holds what it held at entry. -/
theorem hrest13 (c : Dev nD) : ∀ b : Ref sig .tc, b ∉ Finset.univ.image (Pipeline.arrRef spec13) → X50 m c b = X49 m c b :=
  fun b hb => by
    unfold X50
    refine Function.update_of_ne ?_ _ _
    exact StableHlo.devRef_ne_of_ne (fun e => hb (Finset.mem_image.mpr ⟨2, Finset.mem_univ _, e.symm⟩))

set_option backward.isDefEq.respectTransparency.types false in
def reg13 : Pipeline.RegionSeg (pcfgs (F := F)) GenP.adm (pdats m) () defs₀ Variants.none Lz lvz 13 where
  win := launch13.win.to₀
  block_pos := launch13.block_pos
  stage_whole := launch13.stage_whole
  K := PEmpty
  osem k := k.elim
  ho := Pipeline.OwnSemFacts.none _
  hbody c := (body_obligation13 (atTc (X49 m)) c).loose
  hwaits := Pipeline.hwaits_of_owed_zero _ _ _ _ Lz lvz 13 fun _ _ => rfl
  pre c := iprop(StableHlo.held (c : Thread nD τ) (Pipeline.ucRefs τ sig) (X49 m c) ∗ Rr c)
  post c := iprop(StableHlo.held (c : Thread nD τ) (Pipeline.ucRefs τ sig) (X50 m c) ∗ Rr c)
  X c := iprop(∃ r, prngReg c r)
  Y c := iprop(∃ r, prngReg c r)
  Z c := Pipeline.unscopedRest (Ix := Unit) (Name := ℕ) (U := UR sig nD τ) (Lvl := ℕ) spec13 c (atTc (X49 m) c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (atTc (X49 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (atTc (X49 m) c) (atTc (X50 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunAll.lean ====
/-
  The run of @main: its items in order as segments — a host stretch from the boundary contents before it, a region
  by its record —, the launch memory as the first thread state, and at the end every unscoped buffer read off the last
  boundary's contents. Every weakly fair execution terminates without a fault in a state whose unscoped buffers hold
  the chain's last contents; the frame (each argument array as launched) follows, no item writing an argument.
-/
import proofs.«140582_j49512382988743_1_alg».proof.Proof.Reg0
import proofs.«140582_j49512382988743_1_alg».proof.Proof.Reg1
import proofs.«140582_j49512382988743_1_alg».proof.Proof.Reg2
import proofs.«140582_j49512382988743_1_alg».proof.Proof.Reg3
import proofs.«140582_j49512382988743_1_alg».proof.Proof.Reg4
import proofs.«140582_j49512382988743_1_alg».proof.Proof.Reg5
import proofs.«140582_j49512382988743_1_alg».proof.Proof.Reg6
import proofs.«140582_j49512382988743_1_alg».proof.Proof.Reg7
import proofs.«140582_j49512382988743_1_alg».proof.Proof.Reg8
import proofs.«140582_j49512382988743_1_alg».proof.Proof.Reg9
import proofs.«140582_j49512382988743_1_alg».proof.Proof.Reg10
import proofs.«140582_j49512382988743_1_alg».proof.Proof.Reg11
import proofs.«140582_j49512382988743_1_alg».proof.Proof.Reg12
import proofs.«140582_j49512382988743_1_alg».proof.Proof.Reg13

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What rides beside the buffers between any two items. -/
abbrev Es : Fin 15 → Dev nD → sProp 𝕄 := fun _ c => Rr c

/-- @main's items in order. -/
abbrev allSegs : List (Pipeline.Seg (pcfgs (F := F)) GenP.adm (pdats m) () defs₀ Variants.none Lz lvz) :=
  [ .region (reg0 m),
    .region (reg1 m),
    .host (GenP.seg2 m (outs m) Variants.none Lz lvz Es),
    .region (reg2 m),
    .host (GenP.seg4 m (outs m) Variants.none Lz lvz Es),
    .host (GenP.seg5 m (outs m) Variants.none Lz lvz Es),
    .host (GenP.seg6 m (outs m) Variants.none Lz lvz Es),
    .host (GenP.seg7 m (outs m) Variants.none Lz lvz Es),
    .host (GenP.seg8 m (outs m) Variants.none Lz lvz Es),
    .host (GenP.seg9 m (outs m) Variants.none Lz lvz Es),
    .host (GenP.seg10 m (outs m) Variants.none Lz lvz Es),
    .region (reg3 m),
    .host (GenP.seg12 m (outs m) Variants.none Lz lvz Es),
    .region (reg4 m),
    .host (GenP.seg14 m (outs m) Variants.none Lz lvz Es),
    .host (GenP.seg15 m (outs m) Variants.none Lz lvz Es),
    .host (GenP.seg16 m (outs m) Variants.none Lz lvz Es),
    .host (GenP.seg17 m (outs m) Variants.none Lz lvz Es),
    .host (GenP.seg18 m (outs m) Variants.none Lz lvz Es),
    .host (GenP.seg19 m (outs m) Variants.none Lz lvz Es),
    .host (GenP.seg20 m (outs m) Variants.none Lz lvz Es),
    .region (reg5 m),
    .host (GenP.seg22 m (outs m) Variants.none Lz lvz Es),
    .region (reg6 m),
    .host (GenP.seg24 m (outs m) Variants.none Lz lvz Es),
    .region (reg7 m),
    .host (GenP.seg26 m (outs m) Variants.none Lz lvz Es),
    .region (reg8 m),
    .host (GenP.seg28 m (outs m) Variants.none Lz lvz Es),
    .host (GenP.seg29 m (outs m) Variants.none Lz lvz Es),
    .host (GenP.seg30 m (outs m) Variants.none Lz lvz Es),
    .host (GenP.seg31 m (outs m) Variants.none Lz lvz Es),
    .host (GenP.seg32 m (outs m) Variants.none Lz lvz Es),
    .host (GenP.seg33 m (outs m) Variants.none Lz lvz Es),
    .host (GenP.seg34 m (outs m) Variants.none Lz lvz Es),
    .region (reg9 m),
    .host (GenP.seg36 m (outs m) Variants.none Lz lvz Es),
    .region (reg10 m),
    .host (GenP.seg38 m (outs m) Variants.none Lz lvz Es),
    .host (GenP.seg39 m (outs m) Variants.none Lz lvz Es),
    .host (GenP.seg40 m (outs m) Variants.none Lz lvz Es),
    .host (GenP.seg41 m (outs m) Variants.none Lz lvz Es),
    .host (GenP.seg42 m (outs m) Variants.none Lz lvz Es),
    .host (GenP.seg43 m (outs m) Variants.none Lz lvz Es),
    .host (GenP.seg44 m (outs m) Variants.none Lz lvz Es),
    .region (reg11 m),
    .host (GenP.seg46 m (outs m) Variants.none Lz lvz Es),
    .region (reg12 m),
    .host (GenP.seg48 m (outs m) Variants.none Lz lvz Es),
    .region (reg13 m),
    .host (GenP.seg50 m (outs m) Variants.none Lz lvz Es) ]

/-- @main is the run of its items. -/
theorem main_run (c : Dev nD) : main (F := F) c = Pipeline.Seg.run (allSegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! Where an item hands over to the next, the two thread states are the same buffers at the same contents. -/
theorem toHost2 (c : Dev nD) : (iprop(StableHlo.held (c : Thread nD τ) (Pipeline.ucRefs τ sig) (X2 m c) ∗ Rr c) : sProp 𝕄) ⊢ iprop(StableHlo.held (c : Thread nD τ) (Pipeline.ucRefs τ sig) (GenP.V2 m (outs m) c) ∗ Rr c) := by
  rw [V2_eq]
theorem fromHost3 (c : Dev nD) : (iprop(StableHlo.held (c : Thread nD τ) (Pipeline.ucRefs τ sig) (StableHlo.after hostOps2 (GenP.V2 m (outs m) c)) ∗ Rr c) : sProp 𝕄) ⊢ iprop(StableHlo.held (c : Thread nD τ) (Pipeline.ucRefs τ sig) (X3 m c) ∗ Rr c) := by
  rw [V2_eq]; exact .rfl
theorem toHost4 (c : Dev nD) : (iprop(StableHlo.held (c : Thread nD τ) (Pipeline.ucRefs τ sig) (X4 m c) ∗ Rr c) : sProp 𝕄) ⊢ iprop(StableHlo.held (c : Thread nD τ) (Pipeline.ucRefs τ sig) (GenP.V4 m (outs m) c) ∗ Rr c) := by
  rw [V4_eq]
theorem fromHost11 (c : Dev nD) : (iprop(StableHlo.held (c : Thread nD τ) (Pipeline.ucRefs τ sig) (StableHlo.after hostOps3_6 (GenP.V10 m (outs m) c)) ∗ Rr c) : sProp 𝕄) ⊢ iprop(StableHlo.held (c : Thread nD τ) (Pipeline.ucRefs τ sig) (X11 m c) ∗ Rr c) := by
  rw [V10_eq]; exact .rfl
theorem toHost12 (c : Dev nD) : (iprop(StableHlo.held (c : Thread nD τ) (Pipeline.ucRefs τ sig) (X12 m c) ∗ Rr c) : sProp 𝕄) ⊢ iprop(StableHlo.held (c : Thread nD τ) (Pipeline.ucRefs τ sig) (GenP.V12 m (outs m) c) ∗ Rr c) := by
  rw [V12_eq]
theorem fromHost13 (c : Dev nD) : (iprop(StableHlo.held (c : Thread nD τ) (Pipeline.ucRefs τ sig) (StableHlo.after hostOps4 (GenP.V12 m (outs m) c)) ∗ Rr c) : sProp 𝕄) ⊢ iprop(StableHlo.held (c : Thread nD τ) (Pipeline.ucRefs τ sig) (X13 m c) ∗ Rr c) := by
  rw [V12_eq]; exact .rfl
theorem toHost14 (c : Dev nD) : (iprop(StableHlo.held (c : Thread nD τ) (Pipeline.ucRefs τ sig) (X14 m c) ∗ Rr c) : sProp 𝕄) ⊢ iprop(StableHlo.held (c : Thread nD τ) (Pipeline.ucRefs τ sig) (GenP.V14 m (outs m) c) ∗ Rr c) := by
  rw [V14_eq]
theorem fromHost21 (c : Dev nD) : (iprop(StableHlo.held (c : Thread nD τ) (Pipeline.ucRefs τ sig) (StableHlo.after hostOps5_6 (GenP.V20 m (outs m) c)) ∗ Rr c) : sProp 𝕄) ⊢ iprop(StableHlo.held (c : Thread nD τ) (Pipeline.ucRefs τ sig) (X21 m c) ∗ Rr c) := by
  rw [V20_eq]; exact .rfl
theorem toHost22 (c : Dev nD) : (iprop(StableHlo.held (c : Thread nD τ) (Pipeline.ucRefs τ sig) (X22 m c) ∗ Rr c) : sProp 𝕄) ⊢ iprop(StableHlo.held (c : Thread nD τ) (Pipeline.ucRefs τ sig) (GenP.V22 m (outs m) c) ∗ Rr c) := by
  rw [V22_eq]
theorem fromHost23 (c : Dev nD) : (iprop(StableHlo.held (c : Thread nD τ) (Pipeline.ucRefs τ sig) (StableHlo.after hostOps6 (GenP.V22 m (outs m) c)) ∗ Rr c) : sProp 𝕄) ⊢ iprop(StableHlo.held (c : Thread nD τ) (Pipeline.ucRefs τ sig) (X23 m c) ∗ Rr c) := by
  rw [V22_eq]; exact .rfl
theorem toHost24 (c : Dev nD) : (iprop(StableHlo.held (c : Thread nD τ) (Pipeline.ucRefs τ sig) (X24 m c) ∗ Rr c) : sProp 𝕄) ⊢ iprop(StableHlo.held (c : Thread nD τ) (Pipeline.ucRefs τ sig) (GenP.V24 m (outs m) c) ∗ Rr c) := by
  rw [V24_eq]
theorem fromHost25 (c : Dev nD) : (iprop(StableHlo.held (c : Thread nD τ) (Pipeline.ucRefs τ sig) (StableHlo.after hostOps7 (GenP.V24 m (outs m) c)) ∗ Rr c) : sProp 𝕄) ⊢ iprop(StableHlo.held (c : Thread nD τ) (Pipeline.ucRefs τ sig) (X25 m c) ∗ Rr c) := by
  rw [V24_eq]; exact .rfl
theorem toHost26 (c : Dev nD) : (iprop(StableHlo.held (c : Thread nD τ) (Pipeline.ucRefs τ sig) (X26 m c) ∗ Rr c) : sProp 𝕄) ⊢ iprop(StableHlo.held (c : Thread nD τ) (Pipeline.ucRefs τ sig) (GenP.V26 m (outs m) c) ∗ Rr c) := by
  rw [V26_eq]
theorem fromHost27 (c : Dev nD) : (iprop(StableHlo.held (c : Thread nD τ) (Pipeline.ucRefs τ sig) (StableHlo.after hostOps8 (GenP.V26 m (outs m) c)) ∗ Rr c) : sProp 𝕄) ⊢ iprop(StableHlo.held (c : Thread nD τ) (Pipeline.ucRefs τ sig) (X27 m c) ∗ Rr c) := by
  rw [V26_eq]; exact .rfl
theorem toHost28 (c : Dev nD) : (iprop(StableHlo.held (c : Thread nD τ) (Pipeline.ucRefs τ sig) (X28 m c) ∗ Rr c) : sProp 𝕄) ⊢ iprop(StableHlo.held (c : Thread nD τ) (Pipeline.ucRefs τ sig) (GenP.V28 m (outs m) c) ∗ Rr c) := by
  rw [V28_eq]
theorem fromHost35 (c : Dev nD) : (iprop(StableHlo.held (c : Thread nD τ) (Pipeline.ucRefs τ sig) (StableHlo.after hostOps9_6 (GenP.V34 m (outs m) c)) ∗ Rr c) : sProp 𝕄) ⊢ iprop(StableHlo.held (c : Thread nD τ) (Pipeline.ucRefs τ sig) (X35 m c) ∗ Rr c) := by
  rw [V34_eq]; exact .rfl
theorem toHost36 (c : Dev nD) : (iprop(StableHlo.held (c : Thread nD τ) (Pipeline.ucRefs τ sig) (X36 m c) ∗ Rr c) : sProp 𝕄) ⊢ iprop(StableHlo.held (c : Thread nD τ) (Pipeline.ucRefs τ sig) (GenP.V36 m (outs m) c) ∗ Rr c) := by
  rw [V36_eq]
theorem fromHost37 (c : Dev nD) : (iprop(StableHlo.held (c : Thread nD τ) (Pipeline.ucRefs τ sig) (StableHlo.after hostOps10 (GenP.V36 m (outs m) c)) ∗ Rr c) : sProp 𝕄) ⊢ iprop(StableHlo.held (c : Thread nD τ) (Pipeline.ucRefs τ sig) (X37 m c) ∗ Rr c) := by
  rw [V36_eq]; exact .rfl
theorem toHost38 (c : Dev nD) : (iprop(StableHlo.held (c : Thread nD τ) (Pipeline.ucRefs τ sig) (X38 m c) ∗ Rr c) : sProp 𝕄) ⊢ iprop(StableHlo.held (c : Thread nD τ) (Pipeline.ucRefs τ sig) (GenP.V38 m (outs m) c) ∗ Rr c) := by
  rw [V38_eq]
theorem fromHost45 (c : Dev nD) : (iprop(StableHlo.held (c : Thread nD τ) (Pipeline.ucRefs τ sig) (StableHlo.after hostOps11_6 (GenP.V44 m (outs m) c)) ∗ Rr c) : sProp 𝕄) ⊢ iprop(StableHlo.held (c : Thread nD τ) (Pipeline.ucRefs τ sig) (X45 m c) ∗ Rr c) := by
  rw [V44_eq]; exact .rfl
theorem toHost46 (c : Dev nD) : (iprop(StableHlo.held (c : Thread nD τ) (Pipeline.ucRefs τ sig) (X46 m c) ∗ Rr c) : sProp 𝕄) ⊢ iprop(StableHlo.held (c : Thread nD τ) (Pipeline.ucRefs τ sig) (GenP.V46 m (outs m) c) ∗ Rr c) := by
  rw [V46_eq]
theorem fromHost47 (c : Dev nD) : (iprop(StableHlo.held (c : Thread nD τ) (Pipeline.ucRefs τ sig) (StableHlo.after hostOps12 (GenP.V46 m (outs m) c)) ∗ Rr c) : sProp 𝕄) ⊢ iprop(StableHlo.held (c : Thread nD τ) (Pipeline.ucRefs τ sig) (X47 m c) ∗ Rr c) := by
  rw [V46_eq]; exact .rfl
theorem toHost48 (c : Dev nD) : (iprop(StableHlo.held (c : Thread nD τ) (Pipeline.ucRefs τ sig) (X48 m c) ∗ Rr c) : sProp 𝕄) ⊢ iprop(StableHlo.held (c : Thread nD τ) (Pipeline.ucRefs τ sig) (GenP.V48 m (outs m) c) ∗ Rr c) := by
  rw [V48_eq]
theorem fromHost49 (c : Dev nD) : (iprop(StableHlo.held (c : Thread nD τ) (Pipeline.ucRefs τ sig) (StableHlo.after hostOps13 (GenP.V48 m (outs m) c)) ∗ Rr c) : sProp 𝕄) ⊢ iprop(StableHlo.held (c : Thread nD τ) (Pipeline.ucRefs τ sig) (X49 m c) ∗ Rr c) := by
  rw [V48_eq]; exact .rfl
theorem toHost50 (c : Dev nD) : (iprop(StableHlo.held (c : Thread nD τ) (Pipeline.ucRefs τ sig) (X50 m c) ∗ Rr c) : sProp 𝕄) ⊢ iprop(StableHlo.held (c : Thread nD τ) (Pipeline.ucRefs τ sig) (GenP.V50 m (outs m) c) ∗ Rr c) := by
  rw [V50_eq]
theorem atEnd (c : Dev nD) : (iprop(StableHlo.held (c : Thread nD τ) (Pipeline.ucRefs τ sig) (StableHlo.after hostOps14 (GenP.V50 m (outs m) c)) ∗ Rr c) : sProp 𝕄)
    ⊢ iprop(iprop(StableHlo.held (c : Thread nD τ) (Pipeline.ucRefs τ sig) (X51 m c) ∗ ∃ r, prngReg c r) ∗ ∃ W, owes (c : Thread nD τ) (0 : CellTallies nD τ sig Unit) W) := by
  rw [V50_eq]
  iintro ⟨Hh, Hp, Ho⟩
  isplitr [Ho]
  · isplitl [Hh]; · iexact Hh
    iexact Hp
  iexact Ho

set_option maxHeartbeats 0 in
set_option backward.isDefEq.respectTransparency.types false in
/-- THE RUN: from any memory with zero counters every weakly fair execution of @main terminates, nothing faulting,
    and every final state holds each unscoped buffer at the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X51 m c b) :=
  Pipeline.θ_run_regions_kit (pcfgs (F := F)) GenP.adm (pdats m) () cellOf_inj emb₁ defs₀ Variants.none Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Rr c))
    (Tₙ := fun c => iprop(StableHlo.held (c : Thread nD τ) (Pipeline.ucRefs τ sig) (X51 m c) ∗ ∃ r, prngReg c r))
    (hch := ⟨fun _ => .rfl,
      fun _ => .rfl,
      fun c => toHost2 m c,
      fun c => fromHost3 m c,
      fun c => toHost4 m c,
      fun _ => .rfl,
      fun _ => .rfl,
      fun _ => .rfl,
      fun _ => .rfl,
      fun _ => .rfl,
      fun _ => .rfl,
      fun c => fromHost11 m c,
      fun c => toHost12 m c,
      fun c => fromHost13 m c,
      fun c => toHost14 m c,
      fun _ => .rfl,
      fun _ => .rfl,
      fun _ => .rfl,
      fun _ => .rfl,
      fun _ => .rfl,
      fun _ => .rfl,
      fun c => fromHost21 m c,
      fun c => toHost22 m c,
      fun c => fromHost23 m c,
      fun c => toHost24 m c,
      fun c => fromHost25 m c,
      fun c => toHost26 m c,
      fun c => fromHost27 m c,
      fun c => toHost28 m c,
      fun _ => .rfl,
      fun _ => .rfl,
      fun _ => .rfl,
      fun _ => .rfl,
      fun _ => .rfl,
      fun _ => .rfl,
      fun c => fromHost35 m c,
      fun c => toHost36 m c,
      fun c => fromHost37 m c,
      fun c => toHost38 m c,
      fun _ => .rfl,
      fun _ => .rfl,
      fun _ => .rfl,
      fun _ => .rfl,
      fun _ => .rfl,
      fun _ => .rfl,
      fun c => fromHost45 m c,
      fun c => toHost46 m c,
      fun c => fromHost47 m c,
      fun c => toHost48 m c,
      fun c => fromHost49 m c,
      fun c => toHost50 m c,
      fun c => atEnd m c⟩)
    (hinit := by
      refine Pipeline.initEach Lz lvz fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X51 m c b)
    (hfin := fun c s' => by
      iintro ⟨⟨Hh, -⟩, HSI⟩
      unfold StableHlo.held
      imodintro
      iapply (pointsTo_read_all (Pipeline.ucRefs τ sig) (fun b => (((c : Thread nD τ)).1, b)) (X51 m c) s')
      isplitl [Hh] <;> iassumption)
    (hQ := fun s h => h)

/-- THE FRAME: every argument array ends as launched — the last boundary's contents at an argument are the launch's,
    no host stretch writing it and no region changing it. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans ((congrFun (V51_eq m c).symm _).trans (GenP.V51_main_arg0 m (outs m) c)),
    (h c _ (mem_uc main_arg1 (by decide))).trans ((congrFun (V51_eq m c).symm _).trans (GenP.V51_main_arg1 m (outs m) c)),
    (h c _ (mem_uc main_arg2 (by decide))).trans ((congrFun (V51_eq m c).symm _).trans (GenP.V51_main_arg2 m (outs m) c)),
    (h c _ (mem_uc main_arg3 (by decide))).trans ((congrFun (V51_eq m c).symm _).trans (GenP.V51_main_arg3 m (outs m) c)),
    (h c _ (mem_uc main_arg4 (by decide))).trans ((congrFun (V51_eq m c).symm _).trans (GenP.V51_main_arg4 m (outs m) c)),
    (h c _ (mem_uc main_arg5 (by decide))).trans ((congrFun (V51_eq m c).symm _).trans (GenP.V51_main_arg5 m (outs m) c)),
    (h c _ (mem_uc main_arg6 (by decide))).trans ((congrFun (V51_eq m c).symm _).trans (GenP.V51_main_arg6 m (outs m) c)),
    (h c _ (mem_uc main_arg7 (by decide))).trans ((congrFun (V51_eq m c).symm _).trans (GenP.V51_main_arg7 m (outs m) c)),
    (h c _ (mem_uc main_arg8 (by decide))).trans ((congrFun (V51_eq m c).symm _).trans (GenP.V51_main_arg8 m (outs m) c)),
    (h c _ (mem_uc main_arg9 (by decide))).trans ((congrFun (V51_eq m c).symm _).trans (GenP.V51_main_arg9 m (outs m) c)),
    (h c _ (mem_uc main_arg10 (by decide))).trans ((congrFun (V51_eq m c).symm _).trans (GenP.V51_main_arg10 m (outs m) c))⟩) (run_all m ρ)

end Cert.KernelIdeal.Hand

end
-- ==== Proof.WDenseBody0.lean ====
/-
  Region 0 of @main (a dense layer x · w over row blocks of 5000): the body's half of its frame, at a
  parameter `V` for the TensorCore's buffer contents when the region is entered.
  The body loads the block of x (window 0) and the whole of w (window 1), loads and discards what the output's
  buffer held (window 2), and stores the payload `k0_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (when it is not
    fetched its block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of x (and of the output), and the whole of w, as the body's rectangles. -/
abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output's buffer after the body: its one store, of the payload of the two loads, over the whole block. -/
def out0_2 (x0 : Vec F S5000x128 .f32) (x1 : Vec F S128x128 .f32) : Vec F S5000x128 .f32 :=
  View.canon [⟨rX0, k0_pay1 (View.ld x0 rX0) (View.ld x1 rW0)⟩]

/-- That store covers the block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

set_option maxHeartbeats 1000000 in
/-- The body on whole memrefs, the inputs' at contents `x0`, `x1` and the output's at anything, runs to the
    continuation with the inputs' as they were and the output's at `out0_2 x0 x1`. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_fwd_kernel i arg1 harg1 arg2 harg2 arg3 harg3) K := by
  simp only [cc0__dense_fwd_kernel_eq_skeleton]; unfold cc0__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body at point `t`
    each input's buffer at its block and the output's at the payload of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WDenseBody1.lean ====
/-
  Region 1 of @main (a dense layer x · w over row blocks of 5000): the body's half of its frame, at a
  parameter `V` for the TensorCore's buffer contents when the region is entered.
  The body loads the block of x (window 0) and the whole of w (window 1), loads and discards what the output's
  buffer held (window 2), and stores the payload `k1_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (when it is not
    fetched its block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of x (and of the output), and the whole of w, as the body's rectangles. -/
abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

/-- The output's buffer after the body: its one store, of the payload of the two loads, over the whole block. -/
def out1_2 (x0 : Vec F S5000x128 .f32) (x1 : Vec F S128x128 .f32) : Vec F S5000x128 .f32 :=
  View.canon [⟨rX1, k1_pay1 (View.ld x0 rX1) (View.ld x1 rW1)⟩]

/-- That store covers the block. -/
theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 1000000 in
/-- The body on whole memrefs, the inputs' at contents `x0`, `x1` and the output's at anything, runs to the
    continuation with the inputs' as they were and the output's at `out1_2 x0 x1`. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_fwd_kernel i arg1 harg1 arg2 harg2 arg3 harg3) K := by
  simp only [cc1__dense_fwd_kernel_eq_skeleton]; unfold cc1__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core `c`: the arrays as the region finds them; after the body at point `t`
    each input's buffer at its block and the output's at the payload of the two input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WDenseBody3.lean ====
/-
  Region 3 of @main (a dense layer x · w over row blocks of 5000): the body's half of its frame, at a
  parameter `V` for the TensorCore's buffer contents when the region is entered.
  The body loads the block of x (window 0) and the whole of w (window 1), loads and discards what the output's
  buffer held (window 2), and stores the payload `k3_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (when it is not
    fetched its block index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of x (and of the output), and the whole of w, as the body's rectangles. -/
abbrev rX3 : Rect S5000x128 := Rect.unit (s := S5000x128) ![0, 0] S5000x128.size inb_S5000x128_S5000x128_0_0
abbrev rW3 : Rect S128x128 := Rect.unit (s := S128x128) ![0, 0] S128x128.size inb_S128x128_S128x128_0_0

/-- The output's buffer after the body: its one store, of the payload of the two loads, over the whole block. -/
def out3_2 (x0 : Vec F S5000x128 .f32) (x1 : Vec F S128x128 .f32) : Vec F S5000x128 .f32 :=
  View.canon [⟨rX3, k3_pay1 (View.ld x0 rX3) (View.ld x1 rW3)⟩]

/-- That store covers the block. -/
theorem cover3_2 (p0 : Vec F S5000x128 .f32) (y : S5000x128.Idx) :
    ∃ pc ∈ ([⟨rX3, p0⟩] : List (View.Piece (Elt F) S5000x128 .f32)), y ∈ pc.1.set :=
  View.cover_of_tiled [⟨rX3, p0⟩] S5000x128.size (by rfl) y

set_option maxHeartbeats 1000000 in
/-- The body on whole memrefs, the inputs' at contents `x0`, `x1` and the output's at anything, runs to the
    continuation with the inputs' as they were and the output's at `out3_2 x0 x1`. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__dense_fwd_kernel i arg1 harg1 arg2 harg2 arg3 harg3) K := by
  simp only [cc3__dense_fwd_kernel_eq_skeleton]; unfold cc3__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core `c`: the arrays as the region finds them; after the body at point `t`
    each input's buffer at its block and the output's at the payload of the two input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.WDenseBody5.lean ====
/-
  Region 5 of @main (a dense layer x · w over row blocks of 5000): the body's half of its frame, at a
  parameter `V` for the TensorCore's buffer contents when the region is entered.
  The body loads the block of x (window 0) and the whole of w (window 1), loads and discards what the output's
  buffer held (window 2), and stores the payload `k5_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (when it is not
    fetched its block index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole block of x (and of the output), and the whole of w, as the body's rectangles. -/
abbrev rX5 : Rect S5000x128 := Rect.unit (s := S5000x128) ![0, 0] S5000x128.size inb_S5000x128_S5000x128_0_0
abbrev rW5 : Rect S128x128 := Rect.unit (s := S128x128) ![0, 0] S128x128.size inb_S128x128_S128x128_0_0

/-- The output's buffer after the body: its one store, of the payload of the two loads, over the whole block. -/
def out5_2 (x0 : Vec F S5000x128 .f32) (x1 : Vec F S128x128 .f32) : Vec F S5000x128 .f32 :=
  View.canon [⟨rX5, k5_pay1 (View.ld x0 rX5) (View.ld x1 rW5)⟩]

/-- That store covers the block. -/
theorem cover5_2 (p0 : Vec F S5000x128 .f32) (y : S5000x128.Idx) :
    ∃ pc ∈ ([⟨rX5, p0⟩] : List (View.Piece (Elt F) S5000x128 .f32)), y ∈ pc.1.set :=
  View.cover_of_tiled [⟨rX5, p0⟩] S5000x128.size (by rfl) y

set_option maxHeartbeats 1000000 in
/-- The body on whole memrefs, the inputs' at contents `x0`, `x1` and the output's at anything, runs to the
    continuation with the inputs' as they were and the output's at `out5_2 x0 x1`. -/
theorem sound_kernel5 (c : Dev nD) (E : Set ℕ) (i : grid5.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__dense_fwd_kernel i arg1 harg1 arg2 harg2 arg3 harg3) K := by
  simp only [cc5__dense_fwd_kernel_eq_skeleton]; unfold cc5__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of this pipeline on core `c`: the arrays as the region finds them; after the body at point `t`
    each input's buffer at its block and the output's at the payload of the two input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.WDenseBody6.lean ====
/-
  Region 6 of @main (a dense layer x · w over row blocks of 5000): the body's half of its frame, at a
  parameter `V` for the TensorCore's buffer contents when the region is entered.
  The body loads the block of x (window 0) and the whole of w (window 1), loads and discards what the output's
  buffer held (window 2), and stores the payload `k6_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, fetched there or not (when it is not
    fetched its block index has not moved), for any proof data over `V`'s arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole block of x (and of the output), and the whole of w, as the body's rectangles. -/
abbrev rX6 : Rect S5000x128 := Rect.unit (s := S5000x128) ![0, 0] S5000x128.size inb_S5000x128_S5000x128_0_0
abbrev rW6 : Rect S128x128 := Rect.unit (s := S128x128) ![0, 0] S128x128.size inb_S128x128_S128x128_0_0

/-- The output's buffer after the body: its one store, of the payload of the two loads, over the whole block. -/
def out6_2 (x0 : Vec F S5000x128 .f32) (x1 : Vec F S128x128 .f32) : Vec F S5000x128 .f32 :=
  View.canon [⟨rX6, k6_pay1 (View.ld x0 rX6) (View.ld x1 rW6)⟩]

/-- That store covers the block. -/
theorem cover6_2 (p0 : Vec F S5000x128 .f32) (y : S5000x128.Idx) :
    ∃ pc ∈ ([⟨rX6, p0⟩] : List (View.Piece (Elt F) S5000x128 .f32)), y ∈ pc.1.set :=
  View.cover_of_tiled [⟨rX6, p0⟩] S5000x128.size (by rfl) y

set_option maxHeartbeats 1000000 in
/-- The body on whole memrefs, the inputs' at contents `x0`, `x1` and the output's at anything, runs to the
    continuation with the inputs' as they were and the output's at `out6_2 x0 x1`. -/
theorem sound_kernel6 (c : Dev nD) (E : Set ℕ) (i : grid6.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__dense_fwd_kernel i arg1 harg1 arg2 harg2 arg3 harg3) K := by
  simp only [cc6__dense_fwd_kernel_eq_skeleton]; unfold cc6__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of this pipeline on core `c`: the arrays as the region finds them; after the body at point `t`
    each input's buffer at its block and the output's at the payload of the two input blocks; the invariant the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.WDenseBody7.lean ====
/-
  Region 7 of @main (a dense layer x · w over row blocks of 5000): the body's half of its frame, at a
  parameter `V` for the TensorCore's buffer contents when the region is entered.
  The body loads the block of x (window 0) and the whole of w (window 1), loads and discards what the output's
  buffer held (window 2), and stores the payload `k7_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current buffer holds its block at every point, fetched there or not (when it is not
    fetched its block index has not moved), for any proof data over `V`'s arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole block of x (and of the output), and the whole of w, as the body's rectangles. -/
abbrev rX7 : Rect S5000x128 := Rect.unit (s := S5000x128) ![0, 0] S5000x128.size inb_S5000x128_S5000x128_0_0
abbrev rW7 : Rect S128x128 := Rect.unit (s := S128x128) ![0, 0] S128x128.size inb_S128x128_S128x128_0_0

/-- The output's buffer after the body: its one store, of the payload of the two loads, over the whole block. -/
def out7_2 (x0 : Vec F S5000x128 .f32) (x1 : Vec F S128x128 .f32) : Vec F S5000x128 .f32 :=
  View.canon [⟨rX7, k7_pay1 (View.ld x0 rX7) (View.ld x1 rW7)⟩]

/-- That store covers the block. -/
theorem cover7_2 (p0 : Vec F S5000x128 .f32) (y : S5000x128.Idx) :
    ∃ pc ∈ ([⟨rX7, p0⟩] : List (View.Piece (Elt F) S5000x128 .f32)), y ∈ pc.1.set :=
  View.cover_of_tiled [⟨rX7, p0⟩] S5000x128.size (by rfl) y

set_option maxHeartbeats 1000000 in
/-- The body on whole memrefs, the inputs' at contents `x0`, `x1` and the output's at anything, runs to the
    continuation with the inputs' as they were and the output's at `out7_2 x0 x1`. -/
theorem sound_kernel7 (c : Dev nD) (E : Set ℕ) (i : grid7.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__dense_fwd_kernel i arg1 harg1 arg2 harg2 arg3 harg3) K := by
  simp only [cc7__dense_fwd_kernel_eq_skeleton]; unfold cc7__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of this pipeline on core `c`: the arrays as the region finds them; after the body at point `t`
    each input's buffer at its block and the output's at the payload of the two input blocks; the invariant the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant and
    the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.WDenseBody9.lean ====
/-
  Region 9 of @main (a dense layer x · w over row blocks of 5000): the body's half of its frame, at a
  parameter `V` for the TensorCore's buffer contents when the region is entered.
  The body loads the block of x (window 0) and the whole of w (window 1), loads and discards what the output's
  buffer held (window 2), and stores the payload `k9_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current buffer holds its block at every point, fetched there or not (when it is not
    fetched its block index has not moved), for any proof data over `V`'s arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole block of x (and of the output), and the whole of w, as the body's rectangles. -/
abbrev rX9 : Rect S5000x128 := Rect.unit (s := S5000x128) ![0, 0] S5000x128.size inb_S5000x128_S5000x128_0_0
abbrev rW9 : Rect S128x128 := Rect.unit (s := S128x128) ![0, 0] S128x128.size inb_S128x128_S128x128_0_0

/-- The output's buffer after the body: its one store, of the payload of the two loads, over the whole block. -/
def out9_2 (x0 : Vec F S5000x128 .f32) (x1 : Vec F S128x128 .f32) : Vec F S5000x128 .f32 :=
  View.canon [⟨rX9, k9_pay1 (View.ld x0 rX9) (View.ld x1 rW9)⟩]

/-- That store covers the block. -/
theorem cover9_2 (p0 : Vec F S5000x128 .f32) (y : S5000x128.Idx) :
    ∃ pc ∈ ([⟨rX9, p0⟩] : List (View.Piece (Elt F) S5000x128 .f32)), y ∈ pc.1.set :=
  View.cover_of_tiled [⟨rX9, p0⟩] S5000x128.size (by rfl) y

set_option maxHeartbeats 1000000 in
/-- The body on whole memrefs, the inputs' at contents `x0`, `x1` and the output's at anything, runs to the
    continuation with the inputs' as they were and the output's at `out9_2 x0 x1`. -/
theorem sound_kernel9 (c : Dev nD) (E : Set ℕ) (i : grid9.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__dense_fwd_kernel i arg1 harg1 arg2 harg2 arg3 harg3) K := by
  simp only [cc9__dense_fwd_kernel_eq_skeleton]; unfold cc9__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of this pipeline on core `c`: the arrays as the region finds them; after the body at point `t`
    each input's buffer at its block and the output's at the payload of the two input blocks; the invariant the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the body's triple applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.WDenseBody11.lean ====
/-
  Region 11 of @main (a dense layer x · w over row blocks of 5000): the body's half of its frame, at a
  parameter `V` for the TensorCore's buffer contents when the region is entered.
  The body loads the block of x (window 0) and the whole of w (window 1), loads and discards what the output's
  buffer held (window 2), and stores the payload `k11_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current buffer holds its block at every point, fetched there or not (when it is not
    fetched its block index has not moved), for any proof data over `V`'s arrays whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The whole block of x (and of the output), and the whole of w, as the body's rectangles. -/
abbrev rX11 : Rect S5000x128 := Rect.unit (s := S5000x128) ![0, 0] S5000x128.size inb_S5000x128_S5000x128_0_0
abbrev rW11 : Rect S128x128 := Rect.unit (s := S128x128) ![0, 0] S128x128.size inb_S128x128_S128x128_0_0

/-- The output's buffer after the body: its one store, of the payload of the two loads, over the whole block. -/
def out11_2 (x0 : Vec F S5000x128 .f32) (x1 : Vec F S128x128 .f32) : Vec F S5000x128 .f32 :=
  View.canon [⟨rX11, k11_pay1 (View.ld x0 rX11) (View.ld x1 rW11)⟩]

/-- That store covers the block. -/
theorem cover11_2 (p0 : Vec F S5000x128 .f32) (y : S5000x128.Idx) :
    ∃ pc ∈ ([⟨rX11, p0⟩] : List (View.Piece (Elt F) S5000x128 .f32)), y ∈ pc.1.set :=
  View.cover_of_tiled [⟨rX11, p0⟩] S5000x128.size (by rfl) y

set_option maxHeartbeats 1000000 in
/-- The body on whole memrefs, the inputs' at contents `x0`, `x1` and the output's at anything, runs to the
    continuation with the inputs' as they were and the output's at `out11_2 x0 x1`. -/
theorem sound_kernel11 (c : Dev nD) (E : Set ℕ) (i : grid11.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__dense_fwd_kernel i arg1 harg1 arg2 harg2 arg3 harg3) K := by
  simp only [cc11__dense_fwd_kernel_eq_skeleton]; unfold cc11__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The proof data of this pipeline on core `c`: the arrays as the region finds them; after the body at point `t`
    each input's buffer at its block and the output's at the payload of the two input blocks; the invariant the
    scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant and
    the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.WDenseBody12.lean ====
/-
  Region 12 of @main (a dense layer x · w over row blocks of 5000): the body's half of its frame, at a
  parameter `V` for the TensorCore's buffer contents when the region is entered.
  The body loads the block of x (window 0) and the whole of w (window 1), loads and discards what the output's
  buffer held (window 2), and stores the payload `k12_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current buffer holds its block at every point, fetched there or not (when it is not
    fetched its block index has not moved), for any proof data over `V`'s arrays whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole block of x (and of the output), and the whole of w, as the body's rectangles. -/
abbrev rX12 : Rect S5000x128 := Rect.unit (s := S5000x128) ![0, 0] S5000x128.size inb_S5000x128_S5000x128_0_0
abbrev rW12 : Rect S128x128 := Rect.unit (s := S128x128) ![0, 0] S128x128.size inb_S128x128_S128x128_0_0

/-- The output's buffer after the body: its one store, of the payload of the two loads, over the whole block. -/
def out12_2 (x0 : Vec F S5000x128 .f32) (x1 : Vec F S128x128 .f32) : Vec F S5000x128 .f32 :=
  View.canon [⟨rX12, k12_pay1 (View.ld x0 rX12) (View.ld x1 rW12)⟩]

/-- That store covers the block. -/
theorem cover12_2 (p0 : Vec F S5000x128 .f32) (y : S5000x128.Idx) :
    ∃ pc ∈ ([⟨rX12, p0⟩] : List (View.Piece (Elt F) S5000x128 .f32)), y ∈ pc.1.set :=
  View.cover_of_tiled [⟨rX12, p0⟩] S5000x128.size (by rfl) y

set_option maxHeartbeats 1000000 in
/-- The body on whole memrefs, the inputs' at contents `x0`, `x1` and the output's at anything, runs to the
    continuation with the inputs' as they were and the output's at `out12_2 x0 x1`. -/
theorem sound_kernel12 (c : Dev nD) (E : Set ℕ) (i : grid12.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__dense_fwd_kernel i arg1 harg1 arg2 harg2 arg3 harg3) K := by
  simp only [cc12__dense_fwd_kernel_eq_skeleton]; unfold cc12__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of this pipeline on core `c`: the arrays as the region finds them; after the body at point `t`
    each input's buffer at its block and the output's at the payload of the two input blocks; the invariant the
    scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the body's triple applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.WDenseBody13.lean ====
/-
  Region 13 of @main (a dense layer x · w over row blocks of 5000): the body's half of its frame, at a
  parameter `V` for the TensorCore's buffer contents when the region is entered.
  The body loads the block of x (window 0) and the whole of w (window 1), loads and discards what the output's
  buffer held (window 2), and stores the payload `k13_pay1` of the two loads over the whole output block. So after
  the body the inputs' buffers hold what they held and the output's holds that payload of the two input blocks;
  nothing is kept between grid points, nothing is owed, and the invariant is the scoped rest and the generator
  register passing through untouched.
-/
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current buffer holds its block at every point, fetched there or not (when it is not
    fetched its block index has not moved), for any proof data over `V`'s arrays whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The whole block of x (and of the output), and the whole of w, as the body's rectangles. -/
abbrev rX13 : Rect S5000x128 := Rect.unit (s := S5000x128) ![0, 0] S5000x128.size inb_S5000x128_S5000x128_0_0
abbrev rW13 : Rect S128x128 := Rect.unit (s := S128x128) ![0, 0] S128x128.size inb_S128x128_S128x128_0_0

/-- The output's buffer after the body: its one store, of the payload of the two loads, over the whole block. -/
def out13_2 (x0 : Vec F S5000x128 .f32) (x1 : Vec F S128x128 .f32) : Vec F S5000x128 .f32 :=
  View.canon [⟨rX13, k13_pay1 (View.ld x0 rX13) (View.ld x1 rW13)⟩]

/-- That store covers the block. -/
theorem cover13_2 (p0 : Vec F S5000x128 .f32) (y : S5000x128.Idx) :
    ∃ pc ∈ ([⟨rX13, p0⟩] : List (View.Piece (Elt F) S5000x128 .f32)), y ∈ pc.1.set :=
  View.cover_of_tiled [⟨rX13, p0⟩] S5000x128.size (by rfl) y

set_option maxHeartbeats 1000000 in
/-- The body on whole memrefs, the inputs' at contents `x0`, `x1` and the output's at anything, runs to the
    continuation with the inputs' as they were and the output's at `out13_2 x0 x1`. -/
theorem sound_kernel13 (c : Dev nD) (E : Set ℕ) (i : grid13.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__dense_fwd_kernel i arg1 harg1 arg2 harg2 arg3 harg3) K := by
  simp only [cc13__dense_fwd_kernel_eq_skeleton]; unfold cc13__dense_fwd_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The proof data of this pipeline on core `c`: the arrays as the region finds them; after the body at point `t`
    each input's buffer at its block and the output's at the payload of the two input blocks; the invariant the
    scoped rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant and
    the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.WRedBody2.lean ====
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond2_0 (i : grid2.Coords) : Prop := (Scalar.cmpi .ne (Scalar.extui (Scalar.cmpi .eq (BitVec.ofNat 32 (i 0).val) 0#32)) 0#32) = 1#1
/-- The second conditional holds: the point is the last (the output is produced). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

/-- The offsets of the body's rectangles are zero on both axes. -/
theorem off00_2 : (![0, 0] : Fin 2 → Nat) = fun _ => 0 := by funext a; fin_cases a <;> rfl

/-- A load through the whole-block rectangle reads the buffer's contents. -/
theorem readAt_big2 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_2 _ _
theorem readAt_sq2 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_2 _ _

/-- What a list of stores whose last is of the whole block leaves: that store's payload. -/
theorem read_writes_whole2 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_2 inb_S128x128_S128x128_0_0 y⟩),
    View.canon_cons_unit_zero off00_2]

set_option maxHeartbeats 1000000 in
/-- The body at the first point: the accumulator, at anything, is reset to zero and then receives the first block product;
    the inputs and the output's buffer are handed back as they were. -/
theorem run2_A (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond2_0 i) (hc1 : ¬cond2_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 (k2_pay1 (F := F)))) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole2, readAt_big2, readAt_big2, View.readCov_unit_zero _ off00_2]

set_option maxHeartbeats 1000000 in
/-- The body at a point that is neither first nor last: the accumulator, at what the point before left, receives the
    block product; the inputs and the output's buffer are handed back as they were. -/
theorem run2_B (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond2_0 i) (hc1 : ¬cond2_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x0 x1 xs)) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole2, readAt_big2, readAt_big2, readAt_sq2]

set_option maxHeartbeats 1000000 in
/-- The body at the last point: the accumulator receives the last block product, and the output's buffer, at anything,
    receives the activation of the accumulator; the inputs are handed back as they were. -/
theorem run2_C (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond2_0 i) (hc1 : cond2_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay3 (k2_pay2 x0 x1 xs))
            ∗ owns (c : Thread nD τ) arg4 fullShare (k2_pay2 x0 x1 xs)) -∗ K ⟨⟩))
      ⊢ wp frame (wpE (defs₀ (F := F)) Variants.none c none) E (cc2__reduce_matmul_tn_kernel i arg1 harg1 arg2 harg2 arg3 harg3 arg4 harg4) K := by
  simp only [cc2__reduce_matmul_tn_kernel_eq_skeleton]; unfold cc2__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole2, View.readCov_unit_zero _ off00_2, readAt_big2, readAt_big2, readAt_sq2]
  iexists _; isplitr
  swap; · iexact HS0
  ipureintro
  sl_unfold_run_names
  rw [read_writes_whole2, readAt_big2, readAt_big2, readAt_sq2]

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point (it is fetched at every point), for any proof data
    over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
/-- Off the last point the output window is idle (the body stores nothing into it) and is not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- at the last point it is live. -/
theorem liveAt2_2 : ∀ t : Fin cfg2.N, cond2_1 (grid2.coords t) → cfg2.idle 2 (grid2.coords t) = false := by decide +kernel

/-! ## The accumulator -/

/-- The scratch accumulator the body carries between points, as a memref. -/
abbrev scM2 : Memref sig .tc .vmem S128x128 .f32 := Memref.whole cc2_scratch0

/-- The region's invariant before the first point, with the accumulator split off the other scoped buffers. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The two input blocks at point `n` (past the grid, where nothing consults them, the first point's). -/
def inA2 (c : Dev nD) (n : ℕ) : Vec F S5000x128 .f32 :=
  if h : n < cfg2.N then iblk2 V c 0 ⟨n, h⟩ else iblk2 V c 0 ⟨0, by decide⟩
def inB2 (c : Dev nD) (n : ℕ) : Vec F S5000x128 .f32 :=
  if h : n < cfg2.N then iblk2 V c 1 ⟨n, h⟩ else iblk2 V c 1 ⟨0, by decide⟩

theorem inA2_eq (c : Dev nD) (t : Fin cfg2.N) : inA2 V c t.val = iblk2 V c 0 t := by unfold inA2; rw [dif_pos t.isLt]
theorem inB2_eq (c : Dev nD) (t : Fin cfg2.N) : inB2 V c t.val = iblk2 V c 1 t := by unfold inB2; rw [dif_pos t.isLt]

/-- THE ACCUMULATION: what the accumulator holds after the body at point `n` — zero plus the first block product at the
    first point, then what the point before left plus the point's block product. -/
def acc2 (c : Dev nD) : ℕ → Vec F S128x128 .f32
  | 0 => k2_pay2 (inA2 V c 0) (inB2 V c 0) (k2_pay1 (F := F))
  | n + 1 => k2_pay2 (inA2 V c (n + 1)) (inB2 V c (n + 1)) (acc2 c n)

theorem acc2_zero (c : Dev nD) : acc2 V c 0 = k2_pay2 (inA2 V c 0) (inB2 V c 0) (k2_pay1 (F := F)) := rfl
theorem acc2_succ (c : Dev nD) (n : ℕ) : acc2 V c (n + 1) = k2_pay2 (inA2 V c (n + 1)) (inB2 V c (n + 1)) (acc2 V c n) := rfl

theorem acc2_first (c : Dev nD) (t : Fin cfg2.N) (h : t.val = 0) :
    acc2 V c t.val = k2_pay2 (iblk2 V c 0 t) (iblk2 V c 1 t) (k2_pay1 (F := F)) := by
  rw [← inA2_eq V c t, ← inB2_eq V c t, h]; rfl

theorem acc2_later (c : Dev nD) (t : Fin cfg2.N) (h : t.val ≠ 0) :
    acc2 V c t.val = k2_pay2 (iblk2 V c 0 t) (iblk2 V c 1 t) (acc2 V c (t.val - 1)) := by
  rw [← inA2_eq V c t, ← inB2_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS2 (c : Dev nD) : ℕ → sProp 𝕄
  | 0 => Pipeline.ΦA spec2 c
  | n + 1 => iprop(iprop(owns (c : Thread nD τ) scM2 fullShare (acc2 V c n)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (hz : n = 0) : PhiS2 V c n = Pipeline.ΦA spec2 c := by subst hz; rfl
theorem PhiS2_succ (c : Dev nD) (n : ℕ) :
    PhiS2 V c (n + 1) = iprop(iprop(owns (c : Thread nD τ) scM2 fullShare (acc2 V c n)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (hz : n ≠ 0) :
    PhiS2 V c n = iprop(iprop(owns (c : Thread nD τ) scM2 fullShare (acc2 V c (n - 1))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) from rfl, PhiS2_succ]
  rw [show (dat2 V c).Φ t.castSucc = PhiS2 V c t.val from rfl]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 20 := lt_of_lt_of_eq t.isLt (show cfg2.N = 20 from N_2)
  by_cases h0 : t.val = 0
  · have h1 : ¬t.val = 19 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [PhiS2_zero V c _ h0, PhiA2_eq, acc2_first V c t h0]
    iintro ⟨⟨⟨HS, Hrest⟩, Hg⟩, Ho, ⟨%d0, H0⟩, ⟨%d1, H1⟩, ⟨%d2, H2⟩⟩
    iapply (run2_A c Set.univ (grid2.coords t) _ _ _ _ _ _ _ _ hc0 hc1 (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val = 19
    · have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [PhiS2_pos V c _ h0, acc2_later V c t h0]
      iintro ⟨⟨⟨HS, Hrest⟩, Hg⟩, Ho, ⟨%d0, H0⟩, ⟨%d1, H1⟩, ⟨%d2, H2⟩⟩
      iapply (run2_C c Set.univ (grid2.coords t) _ _ _ _ _ _ _ _ hc0 hc1 (iblk2 V c 0 t) (iblk2 V c 1 t) (acc2 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      rw [PhiS2_pos V c _ h0, acc2_later V c t h0]
      iintro ⟨⟨⟨HS, Hrest⟩, Hg⟩, Ho, ⟨%d0, H0⟩, ⟨%d1, H1⟩, ⟨%d2, H2⟩⟩
      iapply (run2_B c Set.univ (grid2.coords t) _ _ _ _ _ _ _ _ hc0 hc1 (iblk2 V c 0 t) (iblk2 V c 1 t) _ (acc2 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the region -/

/-- What the region is entered with is the invariant before the first point. -/
theorem hin2 (c : Dev nD) : (iprop((∃ r, prngReg c r) ∗ Pipeline.prefHeld (pcfgs (F := F) 2).pre c (fun _ => fullShare) ((cfgs 2).toPCfg_adm).1 ∗ Pipeline.scopedRest spec2 c) : sProp 𝕄) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After any point the invariant gives the scoped buffers back at anything: the accumulator's contents are forgotten. -/
theorem Phi_out2 (c : Dev nD) (n : ℕ) (hn : n ≠ 0) : PhiS2 V c n ⊢ Pipeline.ΦA spec2 c := by
  rw [PhiS2_pos V c _ hn, PhiA2_eq]
  iintro ⟨⟨HS, Hrest⟩, Hg⟩
  isplitl [HS Hrest]
  · isplitl [HS]; · iexists _; iexact HS
    iexact Hrest
  iexact Hg

/-- So after the last point. -/
theorem hout2 (c : Dev nD) : (dat2 V c).Φ (Fin.last cfg2.N) ⊢ (iprop((∃ r, prngReg c r) ∗ Pipeline.ownSems0 (fun k : PEmpty => k.elim) c ∗ Pipeline.scopedRest spec2 c) : sProp 𝕄) := by
  rw [Pipeline.ownSems0_none]
  refine (Phi_out2 V c (Fin.last cfg2.N).val (by rw [Fin.val_last]; have : cfg2.N = 20 := N_2; omega)).trans ?_
  unfold Pipeline.ΦA
  iintro ⟨Hr, Hp⟩
  isplitl [Hp]; · iexact Hp
  isplitr; · iempintro
  iexact Hr

/-- The inputs' arrays are never written. -/
theorem arrAt_in2 (c : Dev nD) (w : Fin cfg2.W) (hw : w = 0 ∨ w = 1) : (dat2 V c).arrAt w cfg2.N = V c (Pipeline.arrRef spec2 w) := by
  rcases hw with rfl | rfl
  · exact ((dat2 V c).arrAt_in 0 rfl _).trans (A_eq2 V c 0)
  · exact ((dat2 V c).arrAt_in 1 rfl _).trans (A_eq2 V c 1)

/-! ## The output array after the region -/

/-- The last grid point, the one that writes the output's block back. -/
def tLast2 : Fin cfg2.N := ⟨19, by decide⟩

/-- What that point writes back: the activation of the whole accumulation (the block is not cut). -/
theorem flushed_last2 (c : Dev nD) : (dat2 V c).flushed 2 tLast2 = k2_pay3 (acc2 V c 19) :=
  (show (dat2 V c).flushed 2 tLast2 = (dat2 V c).after 2 tLast2 from rfl).trans (after2_2 V c tLast2)

/-- The output's one block is its whole array: read through the block, the array's contents are themselves. -/
theorem read_blk_last2 (c : Dev nD) (G : Buf (Elt F) ((cfg2.win 2).arr.view.loc (c.tc : Thread nD τ))) :
    View.read (Elt F) ((cfg2.win 2).blk tLast2).view G = G :=
  View.ld_unit_zero (S := S128x128) (off := fun a => (cfg2.win 2).index tLast2 a * (cfg2.win 2).size a) (by funext a; fin_cases a <;> rfl) _ G

/-- THE OUTPUT ARRAY after the region: its one write-back, at the last point, of the whole block. -/
theorem arrAt_out2 (c : Dev nD) : (dat2 V c).arrAt 2 cfg2.N = k2_pay3 (acc2 V c 19) := by
  have hf : (cfg2.win 2).flush tLast2 = true := (flush2_2 tLast2).mpr rfl
  have h := (dat2 V c).read_blk_arrAt_eq_flushed 2 (fun t t' ht ht' hne => absurd (Fin.ext (by
      have h1 := (flush2_2 t).mp ht; have h2 := (flush2_2 t').mp ht'
      have := t.isLt; have := t'.isLt; have hN : cfg2.N = 20 := N_2; omega)) hne) cfg2.N tLast2 tLast2.isLt hf
  exact (read_blk_last2 c _).symm.trans (h.trans (flushed_last2 V c))

end Cert.Kernel.Hand

end
-- ==== Proof.WRedBody4.lean ====
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond4_0 (i : grid4.Coords) : Prop := (Scalar.cmpi .ne (Scalar.extui (Scalar.cmpi .eq (BitVec.ofNat 32 (i 0).val) 0#32)) 0#32) = 1#1
/-- The second conditional holds: the point is the last (the output is produced). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 9 :=
  (by decide +kernel : ∀ t : Fin grid4.N, cond4_1 (grid4.coords t) ↔ t.val = 9)

/-- The offsets of the body's rectangles are zero on both axes. -/
theorem off00_4 : (![0, 0] : Fin 2 → Nat) = fun _ => 0 := by funext a; fin_cases a <;> rfl

/-- A load through the whole-block rectangle reads the buffer's contents. -/
theorem readAt_big4 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_4 _ _
theorem readAt_sq4 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_4 _ _

/-- What a list of stores whose last is of the whole block leaves: that store's payload. -/
theorem read_writes_whole4 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_4 inb_S128x128_S128x128_0_0 y⟩),
    View.canon_cons_unit_zero off00_4]

set_option maxHeartbeats 1000000 in
/-- The body at the first point: the accumulator, at anything, is reset to zero and then receives the first block product;
    the inputs and the output's buffer are handed back as they were. -/
theorem run4_A (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond4_0 i) (hc1 : ¬cond4_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k4_pay2 x0 x1 (k4_pay1 (F := F)))) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole4, readAt_big4, readAt_big4, View.readCov_unit_zero _ off00_4]

set_option maxHeartbeats 1000000 in
/-- The body at a point that is neither first nor last: the accumulator, at what the point before left, receives the
    block product; the inputs and the output's buffer are handed back as they were. -/
theorem run4_B (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond4_0 i) (hc1 : ¬cond4_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k4_pay2 x0 x1 xs)) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole4, readAt_big4, readAt_big4, readAt_sq4]

set_option maxHeartbeats 1000000 in
/-- The body at the last point: the accumulator receives the last block product, and the output's buffer, at anything,
    receives the activation of the accumulator; the inputs are handed back as they were. -/
theorem run4_C (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond4_0 i) (hc1 : cond4_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k4_pay3 (k4_pay2 x0 x1 xs))
            ∗ owns (c : Thread nD τ) arg4 fullShare (k4_pay2 x0 x1 xs)) -∗ K ⟨⟩))
      ⊢ wp frame (wpE (defs₀ (F := F)) Variants.none c none) E (cc4__reduce_matmul_tn_kernel i arg1 harg1 arg2 harg2 arg3 harg3 arg4 harg4) K := by
  simp only [cc4__reduce_matmul_tn_kernel_eq_skeleton]; unfold cc4__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole4, View.readCov_unit_zero _ off00_4, readAt_big4, readAt_big4, readAt_sq4]
  iexists _; isplitr
  swap; · iexact HS0
  ipureintro
  sl_unfold_run_names
  rw [read_writes_whole4, readAt_big4, readAt_big4, readAt_sq4]

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point (it is fetched at every point), for any proof data
    over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Off the last point the output window is idle (the body stores nothing into it) and is not written back; -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- at the last point it is live. -/
theorem liveAt4_2 : ∀ t : Fin cfg4.N, cond4_1 (grid4.coords t) → cfg4.idle 2 (grid4.coords t) = false := by decide +kernel

/-! ## The accumulator -/

/-- The scratch accumulator the body carries between points, as a memref. -/
abbrev scM4 : Memref sig .tc .vmem S128x128 .f32 := Memref.whole cc4_scratch0

/-- The region's invariant before the first point, with the accumulator split off the other scoped buffers. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The two input blocks at point `n` (past the grid, where nothing consults them, the first point's). -/
def inA4 (c : Dev nD) (n : ℕ) : Vec F S5000x128 .f32 :=
  if h : n < cfg4.N then iblk4 V c 0 ⟨n, h⟩ else iblk4 V c 0 ⟨0, by decide⟩
def inB4 (c : Dev nD) (n : ℕ) : Vec F S5000x128 .f32 :=
  if h : n < cfg4.N then iblk4 V c 1 ⟨n, h⟩ else iblk4 V c 1 ⟨0, by decide⟩

theorem inA4_eq (c : Dev nD) (t : Fin cfg4.N) : inA4 V c t.val = iblk4 V c 0 t := by unfold inA4; rw [dif_pos t.isLt]
theorem inB4_eq (c : Dev nD) (t : Fin cfg4.N) : inB4 V c t.val = iblk4 V c 1 t := by unfold inB4; rw [dif_pos t.isLt]

/-- THE ACCUMULATION: what the accumulator holds after the body at point `n` — zero plus the first block product at the
    first point, then what the point before left plus the point's block product. -/
def acc4 (c : Dev nD) : ℕ → Vec F S128x128 .f32
  | 0 => k4_pay2 (inA4 V c 0) (inB4 V c 0) (k4_pay1 (F := F))
  | n + 1 => k4_pay2 (inA4 V c (n + 1)) (inB4 V c (n + 1)) (acc4 c n)

theorem acc4_zero (c : Dev nD) : acc4 V c 0 = k4_pay2 (inA4 V c 0) (inB4 V c 0) (k4_pay1 (F := F)) := rfl
theorem acc4_succ (c : Dev nD) (n : ℕ) : acc4 V c (n + 1) = k4_pay2 (inA4 V c (n + 1)) (inB4 V c (n + 1)) (acc4 V c n) := rfl

theorem acc4_first (c : Dev nD) (t : Fin cfg4.N) (h : t.val = 0) :
    acc4 V c t.val = k4_pay2 (iblk4 V c 0 t) (iblk4 V c 1 t) (k4_pay1 (F := F)) := by
  rw [← inA4_eq V c t, ← inB4_eq V c t, h]; rfl

theorem acc4_later (c : Dev nD) (t : Fin cfg4.N) (h : t.val ≠ 0) :
    acc4 V c t.val = k4_pay2 (iblk4 V c 0 t) (iblk4 V c 1 t) (acc4 V c (t.val - 1)) := by
  rw [← inA4_eq V c t, ← inB4_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS4 (c : Dev nD) : ℕ → sProp 𝕄
  | 0 => Pipeline.ΦA spec4 c
  | n + 1 => iprop(iprop(owns (c : Thread nD τ) scM4 fullShare (acc4 V c n)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (hz : n = 0) : PhiS4 V c n = Pipeline.ΦA spec4 c := by subst hz; rfl
theorem PhiS4_succ (c : Dev nD) (n : ℕ) :
    PhiS4 V c (n + 1) = iprop(iprop(owns (c : Thread nD τ) scM4 fullShare (acc4 V c n)
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (hz : n ≠ 0) :
    PhiS4 V c n = iprop(iprop(owns (c : Thread nD τ) scM4 fullShare (acc4 V c (n - 1))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val)
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay3 (acc4 V c t.val) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) from rfl, PhiS4_succ]
  rw [show (dat4 V c).Φ t.castSucc = PhiS4 V c t.val from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have h1 : ¬t.val = 9 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [PhiS4_zero V c _ h0, PhiA4_eq, acc4_first V c t h0]
    iintro ⟨⟨⟨HS, Hrest⟩, Hg⟩, Ho, ⟨%d0, H0⟩, ⟨%d1, H1⟩, ⟨%d2, H2⟩⟩
    iapply (run4_A c Set.univ (grid4.coords t) _ _ _ _ _ _ _ _ hc0 hc1 (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond4_0 (grid4.coords t) := fun h => h0 ((hcond4_0 t).mp h)
    by_cases h1 : t.val = 9
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      rw [PhiS4_pos V c _ h0, acc4_later V c t h0]
      iintro ⟨⟨⟨HS, Hrest⟩, Hg⟩, Ho, ⟨%d0, H0⟩, ⟨%d1, H1⟩, ⟨%d2, H2⟩⟩
      iapply (run4_C c Set.univ (grid4.coords t) _ _ _ _ _ _ _ _ hc0 hc1 (iblk4 V c 0 t) (iblk4 V c 1 t) (acc4 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [PhiS4_pos V c _ h0, acc4_later V c t h0]
      iintro ⟨⟨⟨HS, Hrest⟩, Hg⟩, Ho, ⟨%d0, H0⟩, ⟨%d1, H1⟩, ⟨%d2, H2⟩⟩
      iapply (run4_B c Set.univ (grid4.coords t) _ _ _ _ _ _ _ _ hc0 hc1 (iblk4 V c 0 t) (iblk4 V c 1 t) _ (acc4 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the region -/

/-- What the region is entered with is the invariant before the first point. -/
theorem hin4 (c : Dev nD) : (iprop((∃ r, prngReg c r) ∗ Pipeline.prefHeld (pcfgs (F := F) 4).pre c (fun _ => fullShare) ((cfgs 4).toPCfg_adm).1 ∗ Pipeline.scopedRest spec4 c) : sProp 𝕄) ⊢ (dat4 V c).Φ 0 := by
  rw [show (dat4 V c).Φ 0 = Pipeline.ΦA spec4 c from rfl]; unfold Pipeline.ΦA
  iintro ⟨Hp, -, Hr⟩
  isplitl [Hr]; · iexact Hr
  iexact Hp

/-- After any point the invariant gives the scoped buffers back at anything: the accumulator's contents are forgotten. -/
theorem Phi_out4 (c : Dev nD) (n : ℕ) (hn : n ≠ 0) : PhiS4 V c n ⊢ Pipeline.ΦA spec4 c := by
  rw [PhiS4_pos V c _ hn, PhiA4_eq]
  iintro ⟨⟨HS, Hrest⟩, Hg⟩
  isplitl [HS Hrest]
  · isplitl [HS]; · iexists _; iexact HS
    iexact Hrest
  iexact Hg

/-- So after the last point. -/
theorem hout4 (c : Dev nD) : (dat4 V c).Φ (Fin.last cfg4.N) ⊢ (iprop((∃ r, prngReg c r) ∗ Pipeline.ownSems0 (fun k : PEmpty => k.elim) c ∗ Pipeline.scopedRest spec4 c) : sProp 𝕄) := by
  rw [Pipeline.ownSems0_none]
  refine (Phi_out4 V c (Fin.last cfg4.N).val (by rw [Fin.val_last]; have : cfg4.N = 10 := N_4; omega)).trans ?_
  unfold Pipeline.ΦA
  iintro ⟨Hr, Hp⟩
  isplitl [Hp]; · iexact Hp
  isplitr; · iempintro
  iexact Hr

/-- The inputs' arrays are never written. -/
theorem arrAt_in4 (c : Dev nD) (w : Fin cfg4.W) (hw : w = 0 ∨ w = 1) : (dat4 V c).arrAt w cfg4.N = V c (Pipeline.arrRef spec4 w) := by
  rcases hw with rfl | rfl
  · exact ((dat4 V c).arrAt_in 0 rfl _).trans (A_eq4 V c 0)
  · exact ((dat4 V c).arrAt_in 1 rfl _).trans (A_eq4 V c 1)

/-! ## The output array after the region -/

/-- The last grid point, the one that writes the output's block back. -/
def tLast4 : Fin cfg4.N := ⟨9, by decide⟩

/-- What that point writes back: the activation of the whole accumulation (the block is not cut). -/
theorem flushed_last4 (c : Dev nD) : (dat4 V c).flushed 2 tLast4 = k4_pay3 (acc4 V c 9) :=
  (show (dat4 V c).flushed 2 tLast4 = (dat4 V c).after 2 tLast4 from rfl).trans (after4_2 V c tLast4)

/-- The output's one block is its whole array: read through the block, the array's contents are themselves. -/
theorem read_blk_last4 (c : Dev nD) (G : Buf (Elt F) ((cfg4.win 2).arr.view.loc (c.tc : Thread nD τ))) :
    View.read (Elt F) ((cfg4.win 2).blk tLast4).view G = G :=
  View.ld_unit_zero (S := S128x128) (off := fun a => (cfg4.win 2).index tLast4 a * (cfg4.win 2).size a) (by funext a; fin_cases a <;> rfl) _ G

/-- THE OUTPUT ARRAY after the region: its one write-back, at the last point, of the whole block. -/
theorem arrAt_out4 (c : Dev nD) : (dat4 V c).arrAt 2 cfg4.N = k4_pay3 (acc4 V c 9) := by
  have hf : (cfg4.win 2).flush tLast4 = true := (flush4_2 tLast4).mpr rfl
  have h := (dat4 V c).read_blk_arrAt_eq_flushed 2 (fun t t' ht ht' hne => absurd (Fin.ext (by
      have h1 := (flush4_2 t).mp ht; have h2 := (flush4_2 t').mp ht'
      have := t.isLt; have := t'.isLt; have hN : cfg4.N = 10 := N_4; omega)) hne) cfg4.N tLast4 tLast4.isLt hf
  exact (read_blk_last4 c _).symm.trans (h.trans (flushed_last4 V c))

end Cert.Kernel.Hand

end
-- ==== Proof.WRedBody8.lean ====
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond8_0 (i : grid8.Coords) : Prop := (Scalar.cmpi .ne (Scalar.extui (Scalar.cmpi .eq (BitVec.ofNat 32 (i 0).val) 0#32)) 0#32) = 1#1
/-- The second conditional holds: the point is the last (the output is produced). -/
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 19 :=
  (by decide +kernel : ∀ t : Fin grid8.N, cond8_1 (grid8.coords t) ↔ t.val = 19)

/-- The offsets of the body's rectangles are zero on both axes. -/
theorem off00_8 : (![0, 0] : Fin 2 → Nat) = fun _ => 0 := by funext a; fin_cases a <;> rfl

/-- A load through the whole-block rectangle reads the buffer's contents. -/
theorem readAt_big8 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_8 _ _
theorem readAt_sq8 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_8 _ _

/-- What a list of stores whose last is of the whole block leaves: that store's payload. -/
theorem read_writes_whole8 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_8 inb_S128x128_S128x128_0_0 y⟩),
    View.canon_cons_unit_zero off00_8]

set_option maxHeartbeats 1000000 in
/-- The body at the first point: the accumulator, at anything, is reset to zero and then receives the first block product;
    the inputs and the output's buffer are handed back as they were. -/
theorem run8_A (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond8_0 i) (hc1 : ¬cond8_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 (k8_pay1 (F := F)))) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole8, readAt_big8, readAt_big8, View.readCov_unit_zero _ off00_8]

set_option maxHeartbeats 1000000 in
/-- The body at a point that is neither first nor last: the accumulator, at what the point before left, receives the
    block product; the inputs and the output's buffer are handed back as they were. -/
theorem run8_B (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : ¬cond8_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 xs)) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole8, readAt_big8, readAt_big8, readAt_sq8]

set_option maxHeartbeats 1000000 in
/-- The body at the last point: the accumulator receives the last block product, and the output's buffer, at anything,
    receives the activation of the accumulator; the inputs are handed back as they were. -/
theorem run8_C (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : cond8_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay3 (k8_pay2 x0 x1 xs))
            ∗ owns (c : Thread nD τ) arg4 fullShare (k8_pay2 x0 x1 xs)) -∗ K ⟨⟩))
      ⊢ wp frame (wpE (defs₀ (F := F)) Variants.none c none) E (cc8__reduce_matmul_tn_kernel i arg1 harg1 arg2 harg2 arg3 harg3 arg4 harg4) K := by
  simp only [cc8__reduce_matmul_tn_kernel_eq_skeleton]; unfold cc8__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole8, View.readCov_unit_zero _ off00_8, readAt_big8, readAt_big8, readAt_sq8]
  iexists _; isplitr
  swap; · iexact HS0
  ipureintro
  sl_unfold_run_names
  rw [read_writes_whole8, readAt_big8, readAt_big8, readAt_sq8]

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current buffer holds its block at every point (it is fetched at every point), for any proof data
    over `V`'s arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## Where the windows are idle -/

theorem liveAt8_0 : ∀ t : Fin cfg8.N, cfg8.idle 0 (grid8.coords t) = false := fun _ => rfl
theorem liveAt8_1 : ∀ t : Fin cfg8.N, cfg8.idle 1 (grid8.coords t) = false := fun _ => rfl
/-- Off the last point the output window is idle (the body stores nothing into it) and is not written back; -/
theorem idleAt8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
/-- at the last point it is live. -/
theorem liveAt8_2 : ∀ t : Fin cfg8.N, cond8_1 (grid8.coords t) → cfg8.idle 2 (grid8.coords t) = false := by decide +kernel

/-! ## The accumulator -/

/-- The scratch accumulator the body carries between points, as a memref. -/
abbrev scM8 : Memref sig .tc .vmem S128x128 .f32 := Memref.whole cc8_scratch0

/-- The region's invariant before the first point, with the accumulator split off the other scoped buffers. -/
theorem PhiA8_eq (c : Dev nD) :
    (Pipeline.ΦA spec8 c : sProp 𝕄)
      = iprop(iprop((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

/-- The two input blocks at point `n` (past the grid, where nothing consults them, the first point's). -/
def inA8 (c : Dev nD) (n : ℕ) : Vec F S5000x128 .f32 :=
  if h : n < cfg8.N then iblk8 V c 0 ⟨n, h⟩ else iblk8 V c 0 ⟨0, by decide⟩
def inB8 (c : Dev nD) (n : ℕ) : Vec F S5000x128 .f32 :=
  if h : n < cfg8.N then iblk8 V c 1 ⟨n, h⟩ else iblk8 V c 1 ⟨0, by decide⟩

theorem inA8_eq (c : Dev nD) (t : Fin cfg8.N) : inA8 V c t.val = iblk8 V c 0 t := by unfold inA8; rw [dif_pos t.isLt]
theorem inB8_eq (c : Dev nD) (t : Fin cfg8.N) : inB8 V c t.val = iblk8 V c 1 t := by unfold inB8; rw [dif_pos t.isLt]

/-- THE ACCUMULATION: what the accumulator holds after the body at point `n` — zero plus the first block product at the
    first point, then what the point before left plus the point's block product. -/
def acc8 (c : Dev nD) : ℕ → Vec F S128x128 .f32
  | 0 => k8_pay2 (inA8 V c 0) (inB8 V c 0) (k8_pay1 (F := F))
  | n + 1 => k8_pay2 (inA8 V c (n + 1)) (inB8 V c (n + 1)) (acc8 c n)

theorem acc8_zero (c : Dev nD) : acc8 V c 0 = k8_pay2 (inA8 V c 0) (inB8 V c 0) (k8_pay1 (F := F)) := rfl
theorem acc8_succ (c : Dev nD) (n : ℕ) : acc8 V c (n + 1) = k8_pay2 (inA8 V c (n + 1)) (inB8 V c (n + 1)) (acc8 V c n) := rfl

theorem acc8_first (c : Dev nD) (t : Fin cfg8.N) (h : t.val = 0) :
    acc8 V c t.val = k8_pay2 (iblk8 V c 0 t) (iblk8 V c 1 t) (k8_pay1 (F := F)) := by
  rw [← inA8_eq V c t, ← inB8_eq V c t, h]; rfl

theorem acc8_later (c : Dev nD) (t : Fin cfg8.N) (h : t.val ≠ 0) :
    acc8 V c t.val = k8_pay2 (iblk8 V c 0 t) (iblk8 V c 1 t) (acc8 V c (t.val - 1)) := by
  rw [← inA8_eq V c t, ← inB8_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS8 (c : Dev nD) : ℕ → sProp 𝕄
  | 0 => Pipeline.ΦA spec8 c
  | n + 1 => iprop(iprop(owns (c : Thread nD τ) scM8 fullShare (acc8 V c n)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (hz : n = 0) : PhiS8 V c n = Pipeline.ΦA spec8 c := by subst hz; rfl
theorem PhiS8_succ (c : Dev nD) (n : ℕ) :
    PhiS8 V c (n + 1) = iprop(iprop(owns (c : Thread nD τ) scM8 fullShare (acc8 V c n)
      ∗ Pipeline.scopedRestBut (Ix := Unit) (Name := ℕ) (U := UR sig nD τ) (Lvl := ℕ) (Val := Elt F) spec8 c [cc8_scratch0]) ∗ (∃ r, prngReg c r)) := rfl
theorem PhiS8_pos (c : Dev nD) (n : ℕ) (hz : n ≠ 0) :
    PhiS8 V c n = iprop(iprop(owns (c : Thread nD τ) scM8 fullShare (acc8 V c (n - 1))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay3 (acc8 V c t.val)
  Φ t := PhiS8 V c t.val
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = k8_pay3 (acc8 V c t.val) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) from rfl, PhiS8_succ]
  rw [show (dat8 V c).Φ t.castSucc = PhiS8 V c t.val from rfl]
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  have hN : t.val < 20 := lt_of_lt_of_eq t.isLt (show cfg8.N = 20 from N_8)
  by_cases h0 : t.val = 0
  · have h1 : ¬t.val = 19 := by omega
    have hc0 : cond8_0 (grid8.coords t) := (hcond8_0 t).mpr h0
    have hc1 : ¬cond8_1 (grid8.coords t) := fun h => h1 ((hcond8_1 t).mp h)
    rw [Dat.leavesExact_idle (dat8 V c) 2 t (idleAt8_2 t hc1) (noFlush8_2 t hc1)]
    rw [PhiS8_zero V c _ h0, PhiA8_eq, acc8_first V c t h0]
    iintro ⟨⟨⟨HS, Hrest⟩, Hg⟩, Ho, ⟨%d0, H0⟩, ⟨%d1, H1⟩, ⟨%d2, H2⟩⟩
    iapply (run8_A c Set.univ (grid8.coords t) _ _ _ _ _ _ _ _ hc0 hc1 (iblk8 V c 0 t) (iblk8 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond8_0 (grid8.coords t) := fun h => h0 ((hcond8_0 t).mp h)
    by_cases h1 : t.val = 19
    · have hc1 : cond8_1 (grid8.coords t) := (hcond8_1 t).mpr h1
      rw [show (dat8 V c).leavesExact 2 t = owns (c : Thread nD τ) (st8_2 t) fullShare ((dat8 V c).after 2 t) from by
        unfold Dat.leavesExact; rw [liveAt8_2 t hc1], after8_2]
      rw [PhiS8_pos V c _ h0, acc8_later V c t h0]
      iintro ⟨⟨⟨HS, Hrest⟩, Hg⟩, Ho, ⟨%d0, H0⟩, ⟨%d1, H1⟩, ⟨%d2, H2⟩⟩
      iapply (run8_C c Set.univ (grid8.coords t) _ _ _ _ _ _ _ _ hc0 hc1 (iblk8 V c 0 t) (iblk8 V c 1 t) (acc8 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond8_1 (grid8.coords t) := fun h => h1 ((hcond8_1 t).mp h)
      rw [Dat.leavesExact_idle (dat8 V c) 2 t (idleAt8_2 t hc1) (noFlush8_2 t hc1)]
      rw [PhiS8_pos V c _ h0, acc8_later V c t h0]
      iintro ⟨⟨⟨HS, Hrest⟩, Hg⟩, Ho, ⟨%d0, H0⟩, ⟨%d1, H1⟩, ⟨%d2, H2⟩⟩
      iapply (run8_B c Set.univ (grid8.coords t) _ _ _ _ _ _ _ _ hc0 hc1 (iblk8 V c 0 t) (iblk8 V c 1 t) _ (acc8 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Into and out of the region -/

/-- What the region is entered with is the invariant before the first point. -/
theorem hin8 (c : Dev nD) : (iprop((∃ r, prngReg c r) ∗ Pipeline.prefHeld (pcfgs (F := F) 8).pre c (fun _ => fullShare) ((cfgs 8).toPCfg_adm).1 ∗ Pipeline.scopedRest spec8 c) : sProp 𝕄) ⊢ (dat8 V c).Φ 0 := by
  rw [show (dat8 V c).Φ 0 = Pipeline.ΦA spec8 c from rfl]; unfold Pipeline.ΦA
  iintro ⟨Hp, -, Hr⟩
  isplitl [Hr]; · iexact Hr
  iexact Hp

/-- After any point the invariant gives the scoped buffers back at anything: the accumulator's contents are forgotten. -/
theorem Phi_out8 (c : Dev nD) (n : ℕ) (hn : n ≠ 0) : PhiS8 V c n ⊢ Pipeline.ΦA spec8 c := by
  rw [PhiS8_pos V c _ hn, PhiA8_eq]
  iintro ⟨⟨HS, Hrest⟩, Hg⟩
  isplitl [HS Hrest]
  · isplitl [HS]; · iexists _; iexact HS
    iexact Hrest
  iexact Hg

/-- So after the last point. -/
theorem hout8 (c : Dev nD) : (dat8 V c).Φ (Fin.last cfg8.N) ⊢ (iprop((∃ r, prngReg c r) ∗ Pipeline.ownSems0 (fun k : PEmpty => k.elim) c ∗ Pipeline.scopedRest spec8 c) : sProp 𝕄) := by
  rw [Pipeline.ownSems0_none]
  refine (Phi_out8 V c (Fin.last cfg8.N).val (by rw [Fin.val_last]; have : cfg8.N = 20 := N_8; omega)).trans ?_
  unfold Pipeline.ΦA
  iintro ⟨Hr, Hp⟩
  isplitl [Hp]; · iexact Hp
  isplitr; · iempintro
  iexact Hr

/-- The inputs' arrays are never written. -/
theorem arrAt_in8 (c : Dev nD) (w : Fin cfg8.W) (hw : w = 0 ∨ w = 1) : (dat8 V c).arrAt w cfg8.N = V c (Pipeline.arrRef spec8 w) := by
  rcases hw with rfl | rfl
  · exact ((dat8 V c).arrAt_in 0 rfl _).trans (A_eq8 V c 0)
  · exact ((dat8 V c).arrAt_in 1 rfl _).trans (A_eq8 V c 1)

/-! ## The output array after the region -/

/-- The last grid point, the one that writes the output's block back. -/
def tLast8 : Fin cfg8.N := ⟨19, by decide⟩

/-- What that point writes back: the activation of the whole accumulation (the block is not cut). -/
theorem flushed_last8 (c : Dev nD) : (dat8 V c).flushed 2 tLast8 = k8_pay3 (acc8 V c 19) :=
  (show (dat8 V c).flushed 2 tLast8 = (dat8 V c).after 2 tLast8 from rfl).trans (after8_2 V c tLast8)

/-- The output's one block is its whole array: read through the block, the array's contents are themselves. -/
theorem read_blk_last8 (c : Dev nD) (G : Buf (Elt F) ((cfg8.win 2).arr.view.loc (c.tc : Thread nD τ))) :
    View.read (Elt F) ((cfg8.win 2).blk tLast8).view G = G :=
  View.ld_unit_zero (S := S128x128) (off := fun a => (cfg8.win 2).index tLast8 a * (cfg8.win 2).size a) (by funext a; fin_cases a <;> rfl) _ G

/-- THE OUTPUT ARRAY after the region: its one write-back, at the last point, of the whole block. -/
theorem arrAt_out8 (c : Dev nD) : (dat8 V c).arrAt 2 cfg8.N = k8_pay3 (acc8 V c 19) := by
  have hf : (cfg8.win 2).flush tLast8 = true := (flush8_2 tLast8).mpr rfl
  have h := (dat8 V c).read_blk_arrAt_eq_flushed 2 (fun t t' ht ht' hne => absurd (Fin.ext (by
      have h1 := (flush8_2 t).mp ht; have h2 := (flush8_2 t').mp ht'
      have := t.isLt; have := t'.isLt; have hN : cfg8.N = 20 := N_8; omega)) hne) cfg8.N tLast8 tLast8.isLt hf
  exact (read_blk_last8 c _).symm.trans (h.trans (flushed_last8 V c))

end Cert.Kernel.Hand

end
-- ==== Proof.WRedBody10.lean ====
import proofs.«140582_j49512382988743_1_alg».proof.Proof.Gen.Kernel.Launch
import proofs.«140582_j49512382988743_1_alg».proof.Proof.Gen.Kernel.Skeleton
import proofs.«140582_j49512382988743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body holds at a grid point: the point is the first (the accumulator is reset). -/
abbrev cond10_0 (i : grid10.Coords) : Prop := (Scalar.cmpi .ne (Scalar.extui (Scalar.cmpi .eq (BitVec.ofNat 32 (i 0).val) 0#32)) 0#32) = 1#1
/-- The second conditional holds: the point is the last (the output is produced). -/
abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)
theorem hcond10_1 : ∀ t : Fin cfg10.N, cond10_1 (grid10.coords t) ↔ t.val = 9 :=
  (by decide +kernel : ∀ t : Fin grid10.N, cond10_1 (grid10.coords t) ↔ t.val = 9)

/-- The offsets of the body's rectangles are zero on both axes. -/
theorem off00_10 : (![0, 0] : Fin 2 → Nat) = fun _ => 0 := by funext a; fin_cases a <;> rfl

/-- A load through the whole-block rectangle reads the buffer's contents. -/
theorem readAt_big10 (v : View sig .tc .vmem S5000x128 .f32) (f : v.ty.Contents (Elt F)) :
    View.readAt (Elt F) v (Rect.unit (s := S5000x128) ![0, 0] S5000x128.size inb_S5000x128_S5000x128_0_0).toLoadRect f = View.read (Elt F) v f :=
  View.ld_unit_zero off00_10 _ _
theorem readAt_sq10 (v : View sig .tc .vmem S128x128 .f32) (f : v.ty.Contents (Elt F)) :
    View.readAt (Elt F) v (Rect.unit (s := S128x128) ![0, 0] S128x128.size inb_S128x128_S128x128_0_0).toLoadRect f = View.read (Elt F) v f :=
  View.ld_unit_zero off00_10 _ _

/-- What a list of stores whose last is of the whole block leaves: that store's payload. -/
theorem read_writes_whole10 (v : View sig .tc .vmem S128x128 .f32) (f : v.ty.Contents (Elt F)) (p : Vec F S128x128 .f32)
    (L : List (View.Piece (Elt F) S128x128 .f32)) :
    View.read (Elt F) v (v.writes (Elt F) f (⟨Rect.unit (s := S128x128) ![0, 0] S128x128.size inb_S128x128_S128x128_0_0, p⟩ :: L)) = p := by
  rw [View.read_writes_eq_canon _ _ _ (fun y => ⟨_, List.mem_cons_self, View.mem_set_unit_zero off00_10 inb_S128x128_S128x128_0_0 y⟩),
    View.canon_cons_unit_zero off00_10]

set_option maxHeartbeats 1000000 in
/-- The body at the first point: the accumulator, at anything, is reset to zero and then receives the first block product;
    the inputs and the output's buffer are handed back as they were. -/
theorem run10_A (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond10_0 i) (hc1 : ¬cond10_1 i)
    (x0 x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k10_pay2 x0 x1 (k10_pay1 (F := F)))) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole10, readAt_big10, readAt_big10, View.readCov_unit_zero _ off00_10]

set_option maxHeartbeats 1000000 in
/-- The body at a point that is neither first nor last: the accumulator, at what the point before left, receives the
    block product; the inputs and the output's buffer are handed back as they were. -/
theorem run10_B (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond10_0 i) (hc1 : ¬cond10_1 i)
    (x0 x1 : Vec F S5000x128 .f32) (xi xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k10_pay2 x0 x1 xs)) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [read_writes_whole10, readAt_big10, readAt_big10, readAt_sq10]

set_option maxHeartbeats 1000000 in
/-- The body at the last point: the accumulator receives the last block product, and the output's buffer, at anything,
    receives the activation of the accumulator; the inputs are handed back as they were. -/
theorem run10_C (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond10_0 i) (hc1 : cond10_1 i)
    (x0 x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k10_pay3 (k10_pay2 x0 x1 xs))
            ∗ owns (c : Thread nD τ) arg4 fullShare (k10_pay2 x0 x1 xs)) -∗ K ⟨⟩))
      ⊢ wp frame (wpE (defs₀ (F := F)) Variants.none c none) E (cc10__reduce_matmul_tn_kernel i arg1 harg1 arg2 harg2 arg3 harg3 arg4 harg4) K := by
  simp only [cc10__reduce_matmul_tn_kernel_eq_skeleton]; unfold cc10__reduce_matmul_tn_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_whole10, View.readCov_unit_zero _ off00_10, readAt_big10, readAt_big10, readAt_sq10]
  iexists _; isplitr
  swap; · iexact HS0
  ipureintro
  sl_unfold_run_names
  rw [read_writes_whole10, readAt_big10, readAt_big10, readAt_sq10]

variable (V : (c : Dev nD) → (b : Ref sig .tc) → Buf (Elt F) ((c : Thread nD τ).loc b))

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current buffer holds its block at every point (it is fetched at every point), for any proof data
    over `V`'s arrays whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## Where the windows are idle -/

theorem liveAt10_0 : ∀ t : Fin cfg10.N, cfg10.idle 0 (grid10.coords t) = false := fun _ => rfl
theorem liveAt10_1 : ∀ t : Fin cfg10.N, cfg10.idle 1 (grid10.coords t) = false := fun _ => rfl
/-- Off the last point the output window is idle (the body stores nothing into it) and is not written back; -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- at the last point it is live. -/
theorem liveAt10_2 : ∀ t : Fin cfg10.N, cond10_1 (grid10.coords t) → cfg10.idle 2 (grid10.coords t) = false := by decide +kernel

/-! ## The accumulator -/

/-- The scratch accumulator the body carries between points, as a memref. -/
abbrev scM10 : Memref sig .tc .vmem S128x128 .f32 := Memref.whole cc10_scratch0

/-- The region's invariant before the first point, with the accumulator split off the other scoped buffers. -/
theorem PhiA10_eq (c : Dev nD) :
    (Pipeline.ΦA spec10 c : sProp 𝕄)
      = iprop(iprop((∃ d, owns (c : Thread nD τ) scM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; try rfl

/-- The two input blocks at point `n` (past the grid, where nothing consults them, the first point's). -/
def inA10 (c : Dev nD) (n : ℕ) : Vec F S5000x128 .f32 :=
  if h : n < cfg10.N then iblk10 V c 0 ⟨n, h⟩ else iblk10 V c 0 ⟨0, by decide⟩
def inB10 (c : Dev nD) (n : ℕ) : Vec F S5000x128 .f32 :=
  if h : n < cfg10.N then iblk10 V c 1 ⟨n, h⟩ else iblk10 V c 1 ⟨0, by decide⟩

theorem inA10_eq (c : Dev nD) (t : Fin cfg10.N) : inA10 V c t.val = iblk10 V c 0 t := by unfold inA10; rw [dif_pos t.isLt]
theorem inB10_eq (c : Dev nD) (t : Fin cfg10.N) : inB10 V c t.val = iblk10 V c 1 t := by unfold inB10; rw [dif_pos t.isLt]

/-- THE ACCUMULATION: what the accumulator holds after the body at point `n` — zero plus the first block product at the
    first point, then what the point before left plus the point's block product. -/
def acc10 (c : Dev nD) : ℕ → Vec F S128x128 .f32
  | 0 => k10_pay2 (inA10 V c 0) (inB10 V c 0) (k10_pay1 (F := F))
  | n + 1 => k10_pay2 (inA10 V c (n + 1)) (inB10 V c (n + 1)) (acc10 c n)

theorem acc10_zero (c : Dev nD) : acc10 V c 0 = k10_pay2 (inA10 V c 0) (inB10 V c 0) (k10_pay1 (F := F)) := rfl
theorem acc10_succ (c : Dev nD) (n : ℕ) : acc10 V c (n + 1) = k10_pay2 (inA10 V c (n + 1)) (inB10 V c (n + 1)) (acc10 V c n) := rfl

theorem acc10_first (c : Dev nD) (t : Fin cfg10.N) (h : t.val = 0) :
    acc10 V c t.val = k10_pay2 (iblk10 V c 0 t) (iblk10 V c 1 t) (k10_pay1 (F := F)) := by
  rw [← inA10_eq V c t, ← inB10_eq V c t, h]; rfl

theorem acc10_later (c : Dev nD) (t : Fin cfg10.N) (h : t.val ≠ 0) :
    acc10 V c t.val = k10_pay2 (iblk10 V c 0 t) (iblk10 V c 1 t) (acc10 V c (t.val - 1)) := by
  rw [← inA10_eq V c t, ← inB10_eq V c t]
  obtain ⟨n, hn⟩ := Nat.exists_eq_succ_of_ne_zero h
  rw [hn]; rfl

/-- The region's invariant before point `n`: before the first point the scoped buffers at anything; afterwards the
    accumulator at what the point before left, the other scoped buffers at anything; the generator register at some state. -/
def PhiS10 (c : Dev nD) : ℕ → sProp 𝕄
  | 0 => Pipeline.ΦA spec10 c
  | n + 1 => iprop(iprop(owns (c : Thread nD τ) scM10 fullShare (acc10 V c n)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (hz : n = 0) : PhiS10 V c n = Pipeline.ΦA spec10 c := by subst hz; rfl
theorem PhiS10_succ (c : Dev nD) (n : ℕ) :
    PhiS10 V c (n + 1) = iprop(iprop(owns (c : Thread nD τ) scM10 fullShare (acc10 V c n)
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (hz : n ≠ 0) :
    PhiS10 V c n = iprop(iprop(owns (c : Thread nD τ) scM10 fullShare (acc10 V c (n - 1))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The proof data -/

/-- The proof data of this pipeline on core `c`: the arrays as the region finds them; after the body at point `t` each
    input's buffer at its block and the output's at the activation of the accumulator (consulted at the last point only,
    the one that writes it back); the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (acc10 V c t.val)
  Φ t := PhiS10 V c t.val
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = k10_pay3 (acc10 V c t.val) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 2000000 in
/-- The body at any point: the inputs' memrefs hold their blocks; the point is the first, the last or neither, and that
    case's run applies; the invariant hands the body the accumulator at what the point before left (at anything at the
    first point) and takes it back at this point's contents; off the last point the output's buffer passes through
    untouched; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) from rfl, PhiS10_succ]
  rw [show (dat10 V c).Φ t.castSucc = PhiS10 V c t.val from rfl]
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  have hN : t.val < 10 := lt_of_lt_of_eq t.isLt (show cfg10.N = 10 from N_10)
  by_cases h0 : t.val = 0
  · have h1 : ¬t.val = 9 := by omega
    have hc0 : cond10_0 (grid10.coords t) := (hcond10_0 t).mpr h0
    have hc1 : ¬cond10_1 (grid10.coords t) := fun h => h1 ((hcond10_1 t).mp h)
    rw [Dat.leavesExact_idle (dat10 V c) 2 t (idleAt10_2 t hc1) (noFlush10_2 t hc1)]
    rw [PhiS10_zero V c _ h0, PhiA10_eq, acc10_first V c t h0]
    iintro ⟨⟨⟨HS, Hrest⟩, Hg⟩, Ho, ⟨%d0, H0⟩, ⟨%d1, H1⟩, ⟨%d2, H2⟩⟩
    iapply (run10_A c Set.univ (grid10.coords t) _ _ _ _ _ _ _ _ hc0 hc1 (iblk10 V c 0 t) (iblk10 V c 1 t) _ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexists _; iexact H2
  · have hc0 : ¬cond10_0 (grid10.coords t) := fun h => h0 ((hcond10_0 t).mp h)
    by_cases h1 : t.val = 9
    · have hc1 : cond10_1 (grid10.coords t) := (hcond10_1 t).mpr h1
      rw [show (dat10 V c).leavesExact 2 t = owns (c : Thread nD τ) (st10_2 t) fullShare ((dat10 V c).after 2 t) from by
        unfold Dat.leavesExact; rw [liveAt10_2 t hc1], after10_2]
      rw [PhiS10_pos V c _ h0, acc10_later V c t h0]
      iintro ⟨⟨⟨HS, Hrest⟩, Hg⟩, Ho, ⟨%d0, H0⟩, ⟨%d1, H1⟩, ⟨%d2, H2⟩⟩
      iapply (run10_C c Set.univ (grid10.coords t) _ _ _ _ _ _ _ _ hc0 hc1 (iblk10 V c 0 t) (iblk10 V c 1 t) (acc10 V c (t.val - 1)) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond10_1 (grid10.coords t) := fun h => h1 ((hcond10_1 t).mp h)
      rw [Dat.leavesExact_idle (dat10 V c) 2 t (idleAt10_2 t hc1) (noFlush10_2 t hc1)]
      rw [PhiS10_pos V c _ h0, acc10_later V c t h0]
      iintro ⟨⟨⟨HS, Hrest⟩, Hg⟩, Ho, ⟨%d0, H0⟩, ⟨%d1, H1⟩, ⟨%d2, H2⟩⟩
      iapply (run10_B c Set.univ (grid10.coords t) _ _ _ _ _ _ _ _ hc0 hc1 (iblk10 V c 0 t) (iblk10 V c 1 t) _ (acc10 V c (t.val - 1)) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into and out of the region -/

/-- What the region is entered with is the invariant before the first point. -/
theorem hin10 (c : Dev nD) : (iprop((∃ r, prngReg c r) ∗ Pipeline.prefHeld (pcfgs (F := F) 10).pre c (fun _ => fullShare) ((cfgs 10).toPCfg_adm).1 ∗ Pipeline.scopedRest spec10 c) : sProp 𝕄) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After any point the invariant gives the scoped buffers back at anything: the accumulator's contents are forgotten. -/
theorem Phi_out10 (c : Dev nD) (n : ℕ) (hn : n ≠ 0) : PhiS10 V c n ⊢ Pipeline.ΦA spec10 c := by
  rw [PhiS10_pos V c _ hn, PhiA10_eq]
  iintro ⟨⟨HS, Hrest⟩, Hg⟩
  isplitl [HS Hrest]
  · isplitl [HS]; · iexists _; iexact HS
    iexact Hrest
  iexact Hg

/-- So after the last point. -/
theorem hout10 (c : Dev nD) : (dat10 V c).Φ (Fin.last cfg10.N) ⊢ (iprop((∃ r, prngReg c r) ∗ Pipeline.ownSems0 (fun k : PEmpty => k.elim) c ∗ Pipeline.scopedRest spec10 c) : sProp 𝕄) := by
  rw [Pipeline.ownSems0_none]
  refine (Phi_out10 V c (Fin.last cfg10.N).val (by rw [Fin.val_last]; have : cfg10.N = 10 := N_10; omega)).trans ?_
  unfold Pipeline.ΦA
  iintro ⟨Hr, Hp⟩
  isplitl [Hp]; · iexact Hp
  isplitr; · iempintro
  iexact Hr

/-- The inputs' arrays are never written. -/
theorem arrAt_in10 (c : Dev nD) (w : Fin cfg10.W) (hw : w = 0 ∨ w = 1) : (dat10 V c).arrAt w cfg10.N = V c (Pipeline.arrRef spec10 w) := by
  rcases hw with rfl | rfl
  · exact ((dat10 V c).arrAt_in 0 rfl _).trans (A_eq10 V c 0)
  · exact ((dat10 V c).arrAt_in 1 rfl _).trans (A_eq10 V c 1)

/-! ## The output array after the region -/

/-- The last grid point, the one that writes the output's block back. -/
def tLast10 : Fin cfg10.N := ⟨9, by decide⟩

/-- What that point writes back: the activation of the whole accumulation (the block is not cut). -/
theorem flushed_last10 (c : Dev nD) : (dat10 V c).flushed 2 tLast10 = k10_pay3 (acc10 V c 9) :=
  (show (dat10 V c).flushed 2 tLast10 = (dat10 V c).after 2 tLast10 from rfl).trans (after10_2 V c tLast10)

/-- The output's one block is its whole array: read through the block, the array's contents are themselves. -/
theorem read_blk_last10 (c : Dev nD) (G : Buf (Elt F) ((cfg10.win 2).arr.view.loc (c.tc : Thread nD τ))) :
    View.read (Elt F) ((cfg10.win 2).blk tLast10).view G = G :=
  View.ld_unit_zero (S := S128x128) (off := fun a => (cfg10.win 2).index tLast10 a * (cfg10.win 2).size a) (by funext a; fin_cases a <;> rfl) _ G

/-- THE OUTPUT ARRAY after the region: its one write-back, at the last point, of the whole block. -/
theorem arrAt_out10 (c : Dev nD) : (dat10 V c).arrAt 2 cfg10.N = k10_pay3 (acc10 V c 9) := by
  have hf : (cfg10.win 2).flush tLast10 = true := (flush10_2 tLast10).mpr rfl
  have h := (dat10 V c).read_blk_arrAt_eq_flushed 2 (fun t t' ht ht' hne => absurd (Fin.ext (by
      have h1 := (flush10_2 t).mp ht; have h2 := (flush10_2 t').mp ht'
      have := t.isLt; have := t'.isLt; have hN : cfg10.N = 10 := N_10; omega)) hne) cfg10.N tLast10 tLast10.isLt hf
  exact (read_blk_last10 c _).symm.trans (h.trans (flushed_last10 V c))

end Cert.Kernel.Hand

end
-- ==== Proof.WChain.lean ====
/-
  The buffer contents of @main at every boundary between two of its items (a kernel region, or a stretch of host
  operations), as a chain of explicit valuations from the launch memory: a host stretch applies its operations; a
  region replaces its output array by what its write-backs leave and changes nothing else. From the chain: the
  contents each region leaves (`outs`), every pipeline's proof data at its region's entry contents (`pdats`), and
  that the boundary contents stated over `outs` are this chain.
-/
import proofs.«140582_j49512382988743_1_alg».proof.Proof.RegionsK
import proofs.«140582_j49512382988743_1_alg».proof.Proof.WDenseBody0
import proofs.«140582_j49512382988743_1_alg».proof.Proof.WDenseBody1
import proofs.«140582_j49512382988743_1_alg».proof.Proof.WDenseBody3
import proofs.«140582_j49512382988743_1_alg».proof.Proof.WDenseBody5
import proofs.«140582_j49512382988743_1_alg».proof.Proof.WDenseBody6
import proofs.«140582_j49512382988743_1_alg».proof.Proof.WDenseBody7
import proofs.«140582_j49512382988743_1_alg».proof.Proof.WDenseBody9
import proofs.«140582_j49512382988743_1_alg».proof.Proof.WDenseBody11
import proofs.«140582_j49512382988743_1_alg».proof.Proof.WDenseBody12
import proofs.«140582_j49512382988743_1_alg».proof.Proof.WDenseBody13
import proofs.«140582_j49512382988743_1_alg».proof.Proof.WRedBody2
import proofs.«140582_j49512382988743_1_alg».proof.Proof.WRedBody4
import proofs.«140582_j49512382988743_1_alg».proof.Proof.WRedBody8
import proofs.«140582_j49512382988743_1_alg».proof.Proof.WRedBody10

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- A valuation read at the TensorCore's references: what a region's proof data take as the entry contents. -/
abbrev atTc (W : Dev nD → Valuation τ sig (Elt F)) : (c : Dev nD) → (b : Ref sig .tc) → Buf (Elt F) ((c : Thread nD τ).loc b) :=
  fun c b => W c b

/-- Core `c`'s unscoped buffers at launch. -/
def X0 (c : Dev nD) : Valuation τ sig (Elt F) := fun b => m (c, b)
/-- After item 0, region 0: `main_v0` at what the region's write-backs leave, every other buffer as before. -/
def X1 (c : Dev nD) : Valuation τ sig (Elt F) :=
  Function.update (X0 m c) main_v0 ((dat0 (atTc (X0 m)) c).arrAt 2 cfg0.N)
/-- After item 1, region 1: `main_v1` at what the region's write-backs leave, every other buffer as before. -/
def X2 (c : Dev nD) : Valuation τ sig (Elt F) :=
  Function.update (X1 m c) main_v1 ((dat1 (atTc (X1 m)) c).arrAt 2 cfg1.N)
/-- After item 2, the host stretch `hostOps2`. -/
def X3 (c : Dev nD) : Valuation τ sig (Elt F) := StableHlo.after hostOps2 (X2 m c)
/-- After item 3, region 2: `main_v4` at what the region's write-backs leave, every other buffer as before. -/
def X4 (c : Dev nD) : Valuation τ sig (Elt F) :=
  Function.update (X3 m c) main_v4 ((dat2 (atTc (X3 m)) c).arrAt 2 cfg2.N)
/-- After item 4, the host stretch `hostOps3`. -/
def X5 (c : Dev nD) : Valuation τ sig (Elt F) := StableHlo.after hostOps3 (X4 m c)
/-- After item 5, the host stretch `hostOps3_1`. -/
def X6 (c : Dev nD) : Valuation τ sig (Elt F) := StableHlo.after hostOps3_1 (X5 m c)
/-- After item 6, the host stretch `hostOps3_2`. -/
def X7 (c : Dev nD) : Valuation τ sig (Elt F) := StableHlo.after hostOps3_2 (X6 m c)
/-- After item 7, the host stretch `hostOps3_3`. -/
def X8 (c : Dev nD) : Valuation τ sig (Elt F) := StableHlo.after hostOps3_3 (X7 m c)
/-- After item 8, the host stretch `hostOps3_4`. -/
def X9 (c : Dev nD) : Valuation τ sig (Elt F) := StableHlo.after hostOps3_4 (X8 m c)
/-- After item 9, the host stretch `hostOps3_5`. -/
def X10 (c : Dev nD) : Valuation τ sig (Elt F) := StableHlo.after hostOps3_5 (X9 m c)
/-- After item 10, the host stretch `hostOps3_6`. -/
def X11 (c : Dev nD) : Valuation τ sig (Elt F) := StableHlo.after hostOps3_6 (X10 m c)
/-- After item 11, region 3: `main_v26` at what the region's write-backs leave, every other buffer as before. -/
def X12 (c : Dev nD) : Valuation τ sig (Elt F) :=
  Function.update (X11 m c) main_v26 ((dat3 (atTc (X11 m)) c).arrAt 2 cfg3.N)
/-- After item 12, the host stretch `hostOps4`. -/
def X13 (c : Dev nD) : Valuation τ sig (Elt F) := StableHlo.after hostOps4 (X12 m c)
/-- After item 13, region 4: `main_v29` at what the region's write-backs leave, every other buffer as before. -/
def X14 (c : Dev nD) : Valuation τ sig (Elt F) :=
  Function.update (X13 m c) main_v29 ((dat4 (atTc (X13 m)) c).arrAt 2 cfg4.N)
/-- After item 14, the host stretch `hostOps5`. -/
def X15 (c : Dev nD) : Valuation τ sig (Elt F) := StableHlo.after hostOps5 (X14 m c)
/-- After item 15, the host stretch `hostOps5_1`. -/
def X16 (c : Dev nD) : Valuation τ sig (Elt F) := StableHlo.after hostOps5_1 (X15 m c)
/-- After item 16, the host stretch `hostOps5_2`. -/
def X17 (c : Dev nD) : Valuation τ sig (Elt F) := StableHlo.after hostOps5_2 (X16 m c)
/-- After item 17, the host stretch `hostOps5_3`. -/
def X18 (c : Dev nD) : Valuation τ sig (Elt F) := StableHlo.after hostOps5_3 (X17 m c)
/-- After item 18, the host stretch `hostOps5_4`. -/
def X19 (c : Dev nD) : Valuation τ sig (Elt F) := StableHlo.after hostOps5_4 (X18 m c)
/-- After item 19, the host stretch `hostOps5_5`. -/
def X20 (c : Dev nD) : Valuation τ sig (Elt F) := StableHlo.after hostOps5_5 (X19 m c)
/-- After item 20, the host stretch `hostOps5_6`. -/
def X21 (c : Dev nD) : Valuation τ sig (Elt F) := StableHlo.after hostOps5_6 (X20 m c)
/-- After item 21, region 5: `main_v51` at what the region's write-backs leave, every other buffer as before. -/
def X22 (c : Dev nD) : Valuation τ sig (Elt F) :=
  Function.update (X21 m c) main_v51 ((dat5 (atTc (X21 m)) c).arrAt 2 cfg5.N)
/-- After item 22, the host stretch `hostOps6`. -/
def X23 (c : Dev nD) : Valuation τ sig (Elt F) := StableHlo.after hostOps6 (X22 m c)
/-- After item 23, region 6: `main_v67` at what the region's write-backs leave, every other buffer as before. -/
def X24 (c : Dev nD) : Valuation τ sig (Elt F) :=
  Function.update (X23 m c) main_v67 ((dat6 (atTc (X23 m)) c).arrAt 2 cfg6.N)
/-- After item 24, the host stretch `hostOps7`. -/
def X25 (c : Dev nD) : Valuation τ sig (Elt F) := StableHlo.after hostOps7 (X24 m c)
/-- After item 25, region 7: `main_v83` at what the region's write-backs leave, every other buffer as before. -/
def X26 (c : Dev nD) : Valuation τ sig (Elt F) :=
  Function.update (X25 m c) main_v83 ((dat7 (atTc (X25 m)) c).arrAt 2 cfg7.N)
/-- After item 26, the host stretch `hostOps8`. -/
def X27 (c : Dev nD) : Valuation τ sig (Elt F) := StableHlo.after hostOps8 (X26 m c)
/-- After item 27, region 8: `main_v92` at what the region's write-backs leave, every other buffer as before. -/
def X28 (c : Dev nD) : Valuation τ sig (Elt F) :=
  Function.update (X27 m c) main_v92 ((dat8 (atTc (X27 m)) c).arrAt 2 cfg8.N)
/-- After item 28, the host stretch `hostOps9`. -/
def X29 (c : Dev nD) : Valuation τ sig (Elt F) := StableHlo.after hostOps9 (X28 m c)
/-- After item 29, the host stretch `hostOps9_1`. -/
def X30 (c : Dev nD) : Valuation τ sig (Elt F) := StableHlo.after hostOps9_1 (X29 m c)
/-- After item 30, the host stretch `hostOps9_2`. -/
def X31 (c : Dev nD) : Valuation τ sig (Elt F) := StableHlo.after hostOps9_2 (X30 m c)
/-- After item 31, the host stretch `hostOps9_3`. -/
def X32 (c : Dev nD) : Valuation τ sig (Elt F) := StableHlo.after hostOps9_3 (X31 m c)
/-- After item 32, the host stretch `hostOps9_4`. -/
def X33 (c : Dev nD) : Valuation τ sig (Elt F) := StableHlo.after hostOps9_4 (X32 m c)
/-- After item 33, the host stretch `hostOps9_5`. -/
def X34 (c : Dev nD) : Valuation τ sig (Elt F) := StableHlo.after hostOps9_5 (X33 m c)
/-- After item 34, the host stretch `hostOps9_6`. -/
def X35 (c : Dev nD) : Valuation τ sig (Elt F) := StableHlo.after hostOps9_6 (X34 m c)
/-- After item 35, region 9: `main_v114` at what the region's write-backs leave, every other buffer as before. -/
def X36 (c : Dev nD) : Valuation τ sig (Elt F) :=
  Function.update (X35 m c) main_v114 ((dat9 (atTc (X35 m)) c).arrAt 2 cfg9.N)
/-- After item 36, the host stretch `hostOps10`. -/
def X37 (c : Dev nD) : Valuation τ sig (Elt F) := StableHlo.after hostOps10 (X36 m c)
/-- After item 37, region 10: `main_v117` at what the region's write-backs leave, every other buffer as before. -/
def X38 (c : Dev nD) : Valuation τ sig (Elt F) :=
  Function.update (X37 m c) main_v117 ((dat10 (atTc (X37 m)) c).arrAt 2 cfg10.N)
/-- After item 38, the host stretch `hostOps11`. -/
def X39 (c : Dev nD) : Valuation τ sig (Elt F) := StableHlo.after hostOps11 (X38 m c)
/-- After item 39, the host stretch `hostOps11_1`. -/
def X40 (c : Dev nD) : Valuation τ sig (Elt F) := StableHlo.after hostOps11_1 (X39 m c)
/-- After item 40, the host stretch `hostOps11_2`. -/
def X41 (c : Dev nD) : Valuation τ sig (Elt F) := StableHlo.after hostOps11_2 (X40 m c)
/-- After item 41, the host stretch `hostOps11_3`. -/
def X42 (c : Dev nD) : Valuation τ sig (Elt F) := StableHlo.after hostOps11_3 (X41 m c)
/-- After item 42, the host stretch `hostOps11_4`. -/
def X43 (c : Dev nD) : Valuation τ sig (Elt F) := StableHlo.after hostOps11_4 (X42 m c)
/-- After item 43, the host stretch `hostOps11_5`. -/
def X44 (c : Dev nD) : Valuation τ sig (Elt F) := StableHlo.after hostOps11_5 (X43 m c)
/-- After item 44, the host stretch `hostOps11_6`. -/
def X45 (c : Dev nD) : Valuation τ sig (Elt F) := StableHlo.after hostOps11_6 (X44 m c)
/-- After item 45, region 11: `main_v139` at what the region's write-backs leave, every other buffer as before. -/
def X46 (c : Dev nD) : Valuation τ sig (Elt F) :=
  Function.update (X45 m c) main_v139 ((dat11 (atTc (X45 m)) c).arrAt 2 cfg11.N)
/-- After item 46, the host stretch `hostOps12`. -/
def X47 (c : Dev nD) : Valuation τ sig (Elt F) := StableHlo.after hostOps12 (X46 m c)
/-- After item 47, region 12: `main_v155` at what the region's write-backs leave, every other buffer as before. -/
def X48 (c : Dev nD) : Valuation τ sig (Elt F) :=
  Function.update (X47 m c) main_v155 ((dat12 (atTc (X47 m)) c).arrAt 2 cfg12.N)
/-- After item 48, the host stretch `hostOps13`. -/
def X49 (c : Dev nD) : Valuation τ sig (Elt F) := StableHlo.after hostOps13 (X48 m c)
/-- After item 49, region 13: `main_v171` at what the region's write-backs leave, every other buffer as before. -/
def X50 (c : Dev nD) : Valuation τ sig (Elt F) :=
  Function.update (X49 m c) main_v171 ((dat13 (atTc (X49 m)) c).arrAt 2 cfg13.N)
/-- After item 50, the host stretch `hostOps14`. -/
def X51 (c : Dev nD) : Valuation τ sig (Elt F) := StableHlo.after hostOps14 (X50 m c)

/-- What each region leaves in the buffer it may change: the chain's contents right after it. -/
def outs : GenP.Outs (F := F) := fun J r c => match J with
  | 1 => X1 m c r
  | 2 => X2 m c r
  | 4 => X4 m c r
  | 12 => X12 m c r
  | 14 => X14 m c r
  | 22 => X22 m c r
  | 24 => X24 m c r
  | 26 => X26 m c r
  | 28 => X28 m c r
  | 36 => X36 m c r
  | 38 => X38 m c r
  | 46 => X46 m c r
  | 48 => X48 m c r
  | 50 => X50 m c r
  | _ => X0 m c r

/-! The boundary contents stated over `outs` are the chain. -/
theorem V0_eq (c : Dev nD) : GenP.V0 m c = X0 m c := rfl
theorem V1_eq (c : Dev nD) : GenP.V1 m (outs m) c = X1 m c := by
  show Function.update (GenP.V0 m c) main_v0 (X1 m c main_v0) = X1 m c
  rw [V0_eq]; unfold X1; rw [Function.update_self]
theorem V2_eq (c : Dev nD) : GenP.V2 m (outs m) c = X2 m c := by
  show Function.update (GenP.V1 m (outs m) c) main_v1 (X2 m c main_v1) = X2 m c
  rw [V1_eq]; unfold X2; rw [Function.update_self]
theorem V3_eq (c : Dev nD) : GenP.V3 m (outs m) c = X3 m c := by
  show StableHlo.after hostOps2 (GenP.V2 m (outs m) c) = StableHlo.after hostOps2 (X2 m c)
  rw [V2_eq]
theorem V4_eq (c : Dev nD) : GenP.V4 m (outs m) c = X4 m c := by
  show Function.update (GenP.V3 m (outs m) c) main_v4 (X4 m c main_v4) = X4 m c
  rw [V3_eq]; unfold X4; rw [Function.update_self]
theorem V5_eq (c : Dev nD) : GenP.V5 m (outs m) c = X5 m c := by
  show StableHlo.after hostOps3 (GenP.V4 m (outs m) c) = StableHlo.after hostOps3 (X4 m c)
  rw [V4_eq]
theorem V6_eq (c : Dev nD) : GenP.V6 m (outs m) c = X6 m c := by
  show StableHlo.after hostOps3_1 (GenP.V5 m (outs m) c) = StableHlo.after hostOps3_1 (X5 m c)
  rw [V5_eq]
theorem V7_eq (c : Dev nD) : GenP.V7 m (outs m) c = X7 m c := by
  show StableHlo.after hostOps3_2 (GenP.V6 m (outs m) c) = StableHlo.after hostOps3_2 (X6 m c)
  rw [V6_eq]
theorem V8_eq (c : Dev nD) : GenP.V8 m (outs m) c = X8 m c := by
  show StableHlo.after hostOps3_3 (GenP.V7 m (outs m) c) = StableHlo.after hostOps3_3 (X7 m c)
  rw [V7_eq]
theorem V9_eq (c : Dev nD) : GenP.V9 m (outs m) c = X9 m c := by
  show StableHlo.after hostOps3_4 (GenP.V8 m (outs m) c) = StableHlo.after hostOps3_4 (X8 m c)
  rw [V8_eq]
theorem V10_eq (c : Dev nD) : GenP.V10 m (outs m) c = X10 m c := by
  show StableHlo.after hostOps3_5 (GenP.V9 m (outs m) c) = StableHlo.after hostOps3_5 (X9 m c)
  rw [V9_eq]
theorem V11_eq (c : Dev nD) : GenP.V11 m (outs m) c = X11 m c := by
  show StableHlo.after hostOps3_6 (GenP.V10 m (outs m) c) = StableHlo.after hostOps3_6 (X10 m c)
  rw [V10_eq]
theorem V12_eq (c : Dev nD) : GenP.V12 m (outs m) c = X12 m c := by
  show Function.update (GenP.V11 m (outs m) c) main_v26 (X12 m c main_v26) = X12 m c
  rw [V11_eq]; unfold X12; rw [Function.update_self]
theorem V13_eq (c : Dev nD) : GenP.V13 m (outs m) c = X13 m c := by
  show StableHlo.after hostOps4 (GenP.V12 m (outs m) c) = StableHlo.after hostOps4 (X12 m c)
  rw [V12_eq]
theorem V14_eq (c : Dev nD) : GenP.V14 m (outs m) c = X14 m c := by
  show Function.update (GenP.V13 m (outs m) c) main_v29 (X14 m c main_v29) = X14 m c
  rw [V13_eq]; unfold X14; rw [Function.update_self]
theorem V15_eq (c : Dev nD) : GenP.V15 m (outs m) c = X15 m c := by
  show StableHlo.after hostOps5 (GenP.V14 m (outs m) c) = StableHlo.after hostOps5 (X14 m c)
  rw [V14_eq]
theorem V16_eq (c : Dev nD) : GenP.V16 m (outs m) c = X16 m c := by
  show StableHlo.after hostOps5_1 (GenP.V15 m (outs m) c) = StableHlo.after hostOps5_1 (X15 m c)
  rw [V15_eq]
theorem V17_eq (c : Dev nD) : GenP.V17 m (outs m) c = X17 m c := by
  show StableHlo.after hostOps5_2 (GenP.V16 m (outs m) c) = StableHlo.after hostOps5_2 (X16 m c)
  rw [V16_eq]
theorem V18_eq (c : Dev nD) : GenP.V18 m (outs m) c = X18 m c := by
  show StableHlo.after hostOps5_3 (GenP.V17 m (outs m) c) = StableHlo.after hostOps5_3 (X17 m c)
  rw [V17_eq]
theorem V19_eq (c : Dev nD) : GenP.V19 m (outs m) c = X19 m c := by
  show StableHlo.after hostOps5_4 (GenP.V18 m (outs m) c) = StableHlo.after hostOps5_4 (X18 m c)
  rw [V18_eq]
theorem V20_eq (c : Dev nD) : GenP.V20 m (outs m) c = X20 m c := by
  show StableHlo.after hostOps5_5 (GenP.V19 m (outs m) c) = StableHlo.after hostOps5_5 (X19 m c)
  rw [V19_eq]
theorem V21_eq (c : Dev nD) : GenP.V21 m (outs m) c = X21 m c := by
  show StableHlo.after hostOps5_6 (GenP.V20 m (outs m) c) = StableHlo.after hostOps5_6 (X20 m c)
  rw [V20_eq]
theorem V22_eq (c : Dev nD) : GenP.V22 m (outs m) c = X22 m c := by
  show Function.update (GenP.V21 m (outs m) c) main_v51 (X22 m c main_v51) = X22 m c
  rw [V21_eq]; unfold X22; rw [Function.update_self]
theorem V23_eq (c : Dev nD) : GenP.V23 m (outs m) c = X23 m c := by
  show StableHlo.after hostOps6 (GenP.V22 m (outs m) c) = StableHlo.after hostOps6 (X22 m c)
  rw [V22_eq]
theorem V24_eq (c : Dev nD) : GenP.V24 m (outs m) c = X24 m c := by
  show Function.update (GenP.V23 m (outs m) c) main_v67 (X24 m c main_v67) = X24 m c
  rw [V23_eq]; unfold X24; rw [Function.update_self]
theorem V25_eq (c : Dev nD) : GenP.V25 m (outs m) c = X25 m c := by
  show StableHlo.after hostOps7 (GenP.V24 m (outs m) c) = StableHlo.after hostOps7 (X24 m c)
  rw [V24_eq]
theorem V26_eq (c : Dev nD) : GenP.V26 m (outs m) c = X26 m c := by
  show Function.update (GenP.V25 m (outs m) c) main_v83 (X26 m c main_v83) = X26 m c
  rw [V25_eq]; unfold X26; rw [Function.update_self]
theorem V27_eq (c : Dev nD) : GenP.V27 m (outs m) c = X27 m c := by
  show StableHlo.after hostOps8 (GenP.V26 m (outs m) c) = StableHlo.after hostOps8 (X26 m c)
  rw [V26_eq]
theorem V28_eq (c : Dev nD) : GenP.V28 m (outs m) c = X28 m c := by
  show Function.update (GenP.V27 m (outs m) c) main_v92 (X28 m c main_v92) = X28 m c
  rw [V27_eq]; unfold X28; rw [Function.update_self]
theorem V29_eq (c : Dev nD) : GenP.V29 m (outs m) c = X29 m c := by
  show StableHlo.after hostOps9 (GenP.V28 m (outs m) c) = StableHlo.after hostOps9 (X28 m c)
  rw [V28_eq]
theorem V30_eq (c : Dev nD) : GenP.V30 m (outs m) c = X30 m c := by
  show StableHlo.after hostOps9_1 (GenP.V29 m (outs m) c) = StableHlo.after hostOps9_1 (X29 m c)
  rw [V29_eq]
theorem V31_eq (c : Dev nD) : GenP.V31 m (outs m) c = X31 m c := by
  show StableHlo.after hostOps9_2 (GenP.V30 m (outs m) c) = StableHlo.after hostOps9_2 (X30 m c)
  rw [V30_eq]
theorem V32_eq (c : Dev nD) : GenP.V32 m (outs m) c = X32 m c := by
  show StableHlo.after hostOps9_3 (GenP.V31 m (outs m) c) = StableHlo.after hostOps9_3 (X31 m c)
  rw [V31_eq]
theorem V33_eq (c : Dev nD) : GenP.V33 m (outs m) c = X33 m c := by
  show StableHlo.after hostOps9_4 (GenP.V32 m (outs m) c) = StableHlo.after hostOps9_4 (X32 m c)
  rw [V32_eq]
theorem V34_eq (c : Dev nD) : GenP.V34 m (outs m) c = X34 m c := by
  show StableHlo.after hostOps9_5 (GenP.V33 m (outs m) c) = StableHlo.after hostOps9_5 (X33 m c)
  rw [V33_eq]
theorem V35_eq (c : Dev nD) : GenP.V35 m (outs m) c = X35 m c := by
  show StableHlo.after hostOps9_6 (GenP.V34 m (outs m) c) = StableHlo.after hostOps9_6 (X34 m c)
  rw [V34_eq]
theorem V36_eq (c : Dev nD) : GenP.V36 m (outs m) c = X36 m c := by
  show Function.update (GenP.V35 m (outs m) c) main_v114 (X36 m c main_v114) = X36 m c
  rw [V35_eq]; unfold X36; rw [Function.update_self]
theorem V37_eq (c : Dev nD) : GenP.V37 m (outs m) c = X37 m c := by
  show StableHlo.after hostOps10 (GenP.V36 m (outs m) c) = StableHlo.after hostOps10 (X36 m c)
  rw [V36_eq]
theorem V38_eq (c : Dev nD) : GenP.V38 m (outs m) c = X38 m c := by
  show Function.update (GenP.V37 m (outs m) c) main_v117 (X38 m c main_v117) = X38 m c
  rw [V37_eq]; unfold X38; rw [Function.update_self]
theorem V39_eq (c : Dev nD) : GenP.V39 m (outs m) c = X39 m c := by
  show StableHlo.after hostOps11 (GenP.V38 m (outs m) c) = StableHlo.after hostOps11 (X38 m c)
  rw [V38_eq]
theorem V40_eq (c : Dev nD) : GenP.V40 m (outs m) c = X40 m c := by
  show StableHlo.after hostOps11_1 (GenP.V39 m (outs m) c) = StableHlo.after hostOps11_1 (X39 m c)
  rw [V39_eq]
theorem V41_eq (c : Dev nD) : GenP.V41 m (outs m) c = X41 m c := by
  show StableHlo.after hostOps11_2 (GenP.V40 m (outs m) c) = StableHlo.after hostOps11_2 (X40 m c)
  rw [V40_eq]
theorem V42_eq (c : Dev nD) : GenP.V42 m (outs m) c = X42 m c := by
  show StableHlo.after hostOps11_3 (GenP.V41 m (outs m) c) = StableHlo.after hostOps11_3 (X41 m c)
  rw [V41_eq]
theorem V43_eq (c : Dev nD) : GenP.V43 m (outs m) c = X43 m c := by
  show StableHlo.after hostOps11_4 (GenP.V42 m (outs m) c) = StableHlo.after hostOps11_4 (X42 m c)
  rw [V42_eq]
theorem V44_eq (c : Dev nD) : GenP.V44 m (outs m) c = X44 m c := by
  show StableHlo.after hostOps11_5 (GenP.V43 m (outs m) c) = StableHlo.after hostOps11_5 (X43 m c)
  rw [V43_eq]
theorem V45_eq (c : Dev nD) : GenP.V45 m (outs m) c = X45 m c := by
  show StableHlo.after hostOps11_6 (GenP.V44 m (outs m) c) = StableHlo.after hostOps11_6 (X44 m c)
  rw [V44_eq]
theorem V46_eq (c : Dev nD) : GenP.V46 m (outs m) c = X46 m c := by
  show Function.update (GenP.V45 m (outs m) c) main_v139 (X46 m c main_v139) = X46 m c
  rw [V45_eq]; unfold X46; rw [Function.update_self]
theorem V47_eq (c : Dev nD) : GenP.V47 m (outs m) c = X47 m c := by
  show StableHlo.after hostOps12 (GenP.V46 m (outs m) c) = StableHlo.after hostOps12 (X46 m c)
  rw [V46_eq]
theorem V48_eq (c : Dev nD) : GenP.V48 m (outs m) c = X48 m c := by
  show Function.update (GenP.V47 m (outs m) c) main_v155 (X48 m c main_v155) = X48 m c
  rw [V47_eq]; unfold X48; rw [Function.update_self]
theorem V49_eq (c : Dev nD) : GenP.V49 m (outs m) c = X49 m c := by
  show StableHlo.after hostOps13 (GenP.V48 m (outs m) c) = StableHlo.after hostOps13 (X48 m c)
  rw [V48_eq]
theorem V50_eq (c : Dev nD) : GenP.V50 m (outs m) c = X50 m c := by
  show Function.update (GenP.V49 m (outs m) c) main_v171 (X50 m c main_v171) = X50 m c
  rw [V49_eq]; unfold X50; rw [Function.update_self]
theorem V51_eq (c : Dev nD) : GenP.V51 m (outs m) c = X51 m c := by
  show StableHlo.after hostOps14 (GenP.V50 m (outs m) c) = StableHlo.after hostOps14 (X50 m c)
  rw [V50_eq]

/-- Every pipeline's proof data, each at its region's entry contents: a literal match on the pipeline's number. -/
def pdats : (p : Fin 14) → (c : Dev nD) → Dat τ (Elt F) Unit ℕ (UR sig nD τ) ℕ (cfgs p) c
  | ⟨0, _⟩ => fun c => dat0 (atTc (X0 m)) c
  | ⟨1, _⟩ => fun c => dat1 (atTc (X1 m)) c
  | ⟨2, _⟩ => fun c => dat2 (atTc (X3 m)) c
  | ⟨3, _⟩ => fun c => dat3 (atTc (X11 m)) c
  | ⟨4, _⟩ => fun c => dat4 (atTc (X13 m)) c
  | ⟨5, _⟩ => fun c => dat5 (atTc (X21 m)) c
  | ⟨6, _⟩ => fun c => dat6 (atTc (X23 m)) c
  | ⟨7, _⟩ => fun c => dat7 (atTc (X25 m)) c
  | ⟨8, _⟩ => fun c => dat8 (atTc (X27 m)) c
  | ⟨9, _⟩ => fun c => dat9 (atTc (X35 m)) c
  | ⟨10, _⟩ => fun c => dat10 (atTc (X37 m)) c
  | ⟨11, _⟩ => fun c => dat11 (atTc (X45 m)) c
  | ⟨12, _⟩ => fun c => dat12 (atTc (X47 m)) c
  | ⟨13, _⟩ => fun c => dat13 (atTc (X49 m)) c

/-- What rides beside the buffers through every item: the core's generator register at some state, and its dues, none. -/
abbrev Rr (c : Dev nD) : sProp (MT nD τ sig Unit (Elt F) ℕ (UR sig nD τ) ℕ) :=
  iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.Kernel.Hand

end
-- ==== Proof.WReg0.lean ====
/-
  Region 0 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF0 (c : Dev nD) (w : Fin cfg0.W) :
    (dat0 (atTc (X0 m)) c).arrAt w cfg0.N = X1 m c (Pipeline.arrRef spec0 w) :=
  match w with
  | ⟨0, _⟩ => ((dat0 (atTc (X0 m)) c).arrAt_in 0 rfl _).trans ((A_eq0 (atTc (X0 m)) c 0).trans (by
      show X0 m c _ = X1 m c _
      unfold X1; refine (Function.update_of_ne ?_ _ _).symm
      exact StableHlo.devRef_ne_of_ne (by decide)))
  | ⟨1, _⟩ => ((dat0 (atTc (X0 m)) c).arrAt_in 1 rfl _).trans ((A_eq0 (atTc (X0 m)) c 1).trans (by
      show X0 m c _ = X1 m c _
      unfold X1; refine (Function.update_of_ne ?_ _ _).symm
      exact StableHlo.devRef_ne_of_ne (by decide)))
  | ⟨2, _⟩ => by
      show _ = X1 m c (main_v0 : Ref sig .tc)
      unfold X1; rw [Function.update_self]; rfl

/-- Every other buffer holds what it held at entry. -/
theorem hrest0 (c : Dev nD) : ∀ b : Ref sig .tc, b ∉ Finset.univ.image (Pipeline.arrRef spec0) → X1 m c b = X0 m c b :=
  fun b hb => by
    unfold X1
    refine Function.update_of_ne ?_ _ _
    exact StableHlo.devRef_ne_of_ne (fun e => hb (Finset.mem_image.mpr ⟨2, Finset.mem_univ _, e.symm⟩))

set_option backward.isDefEq.respectTransparency.types false in
def reg0 : Pipeline.RegionSeg (pcfgs (F := F)) GenP.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atTc (X0 m)) c).loose
  hwaits := Pipeline.hwaits_of_owed_zero _ _ _ _ Lz lvz 0 fun _ _ => rfl
  pre c := iprop(StableHlo.held (c : Thread nD τ) (Pipeline.ucRefs τ sig) (X0 m c) ∗ Rr c)
  post c := iprop(StableHlo.held (c : Thread nD τ) (Pipeline.ucRefs τ sig) (X1 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (X0 m) c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (atTc (X0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (atTc (X0 m) c) (atTc (X1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg1.lean ====
/-
  Region 1 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF1 (c : Dev nD) (w : Fin cfg1.W) :
    (dat1 (atTc (X1 m)) c).arrAt w cfg1.N = X2 m c (Pipeline.arrRef spec1 w) :=
  match w with
  | ⟨0, _⟩ => ((dat1 (atTc (X1 m)) c).arrAt_in 0 rfl _).trans ((A_eq1 (atTc (X1 m)) c 0).trans (by
      show X1 m c _ = X2 m c _
      unfold X2; refine (Function.update_of_ne ?_ _ _).symm
      exact StableHlo.devRef_ne_of_ne (by decide)))
  | ⟨1, _⟩ => ((dat1 (atTc (X1 m)) c).arrAt_in 1 rfl _).trans ((A_eq1 (atTc (X1 m)) c 1).trans (by
      show X1 m c _ = X2 m c _
      unfold X2; refine (Function.update_of_ne ?_ _ _).symm
      exact StableHlo.devRef_ne_of_ne (by decide)))
  | ⟨2, _⟩ => by
      show _ = X2 m c (main_v1 : Ref sig .tc)
      unfold X2; rw [Function.update_self]; rfl

/-- Every other buffer holds what it held at entry. -/
theorem hrest1 (c : Dev nD) : ∀ b : Ref sig .tc, b ∉ Finset.univ.image (Pipeline.arrRef spec1) → X2 m c b = X1 m c b :=
  fun b hb => by
    unfold X2
    refine Function.update_of_ne ?_ _ _
    exact StableHlo.devRef_ne_of_ne (fun e => hb (Finset.mem_image.mpr ⟨2, Finset.mem_univ _, e.symm⟩))

set_option backward.isDefEq.respectTransparency.types false in
def reg1 : Pipeline.RegionSeg (pcfgs (F := F)) GenP.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atTc (X1 m)) c).loose
  hwaits := Pipeline.hwaits_of_owed_zero _ _ _ _ Lz lvz 1 fun _ _ => rfl
  pre c := iprop(StableHlo.held (c : Thread nD τ) (Pipeline.ucRefs τ sig) (X1 m c) ∗ Rr c)
  post c := iprop(StableHlo.held (c : Thread nD τ) (Pipeline.ucRefs τ sig) (X2 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (X1 m) c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (atTc (X1 m) c) (atTc (X2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg2.lean ====
/-
  Region 2 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF2 (c : Dev nD) (w : Fin cfg2.W) :
    (dat2 (atTc (X3 m)) c).arrAt w cfg2.N = X4 m c (Pipeline.arrRef spec2 w) :=
  match w with
  | ⟨0, _⟩ => ((dat2 (atTc (X3 m)) c).arrAt_in 0 rfl _).trans ((A_eq2 (atTc (X3 m)) c 0).trans (by
      show X3 m c _ = X4 m c _
      unfold X4; refine (Function.update_of_ne ?_ _ _).symm
      exact StableHlo.devRef_ne_of_ne (by decide)))
  | ⟨1, _⟩ => ((dat2 (atTc (X3 m)) c).arrAt_in 1 rfl _).trans ((A_eq2 (atTc (X3 m)) c 1).trans (by
      show X3 m c _ = X4 m c _
      unfold X4; refine (Function.update_of_ne ?_ _ _).symm
      exact StableHlo.devRef_ne_of_ne (by decide)))
  | ⟨2, _⟩ => by
      show _ = X4 m c (main_v4 : Ref sig .tc)
      unfold X4; rw [Function.update_self]; rfl

/-- Every other buffer holds what it held at entry. -/
theorem hrest2 (c : Dev nD) : ∀ b : Ref sig .tc, b ∉ Finset.univ.image (Pipeline.arrRef spec2) → X4 m c b = X3 m c b :=
  fun b hb => by
    unfold X4
    refine Function.update_of_ne ?_ _ _
    exact StableHlo.devRef_ne_of_ne (fun e => hb (Finset.mem_image.mpr ⟨2, Finset.mem_univ _, e.symm⟩))

set_option backward.isDefEq.respectTransparency.types false in
def reg2 : Pipeline.RegionSeg (pcfgs (F := F)) GenP.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (atTc (X3 m)) c).loose
  hwaits := Pipeline.hwaits_of_owed_zero _ _ _ _ Lz lvz 2 fun _ _ => rfl
  pre c := iprop(StableHlo.held (c : Thread nD τ) (Pipeline.ucRefs τ sig) (X3 m c) ∗ Rr c)
  post c := iprop(StableHlo.held (c : Thread nD τ) (Pipeline.ucRefs τ sig) (X4 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (X3 m) c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (atTc (X3 m)) c
  hout c := hout2 (atTc (X3 m)) c
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (atTc (X3 m) c) (atTc (X4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg3.lean ====
/-
  Region 3 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF3 (c : Dev nD) (w : Fin cfg3.W) :
    (dat3 (atTc (X11 m)) c).arrAt w cfg3.N = X12 m c (Pipeline.arrRef spec3 w) :=
  match w with
  | ⟨0, _⟩ => ((dat3 (atTc (X11 m)) c).arrAt_in 0 rfl _).trans ((A_eq3 (atTc (X11 m)) c 0).trans (by
      show X11 m c _ = X12 m c _
      unfold X12; refine (Function.update_of_ne ?_ _ _).symm
      exact StableHlo.devRef_ne_of_ne (by decide)))
  | ⟨1, _⟩ => ((dat3 (atTc (X11 m)) c).arrAt_in 1 rfl _).trans ((A_eq3 (atTc (X11 m)) c 1).trans (by
      show X11 m c _ = X12 m c _
      unfold X12; refine (Function.update_of_ne ?_ _ _).symm
      exact StableHlo.devRef_ne_of_ne (by decide)))
  | ⟨2, _⟩ => by
      show _ = X12 m c (main_v26 : Ref sig .tc)
      unfold X12; rw [Function.update_self]; rfl

/-- Every other buffer holds what it held at entry. -/
theorem hrest3 (c : Dev nD) : ∀ b : Ref sig .tc, b ∉ Finset.univ.image (Pipeline.arrRef spec3) → X12 m c b = X11 m c b :=
  fun b hb => by
    unfold X12
    refine Function.update_of_ne ?_ _ _
    exact StableHlo.devRef_ne_of_ne (fun e => hb (Finset.mem_image.mpr ⟨2, Finset.mem_univ _, e.symm⟩))

set_option backward.isDefEq.respectTransparency.types false in
def reg3 : Pipeline.RegionSeg (pcfgs (F := F)) GenP.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (atTc (X11 m)) c).loose
  hwaits := Pipeline.hwaits_of_owed_zero _ _ _ _ Lz lvz 3 fun _ _ => rfl
  pre c := iprop(StableHlo.held (c : Thread nD τ) (Pipeline.ucRefs τ sig) (X11 m c) ∗ Rr c)
  post c := iprop(StableHlo.held (c : Thread nD τ) (Pipeline.ucRefs τ sig) (X12 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg4.lean ====
/-
  Region 4 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF4 (c : Dev nD) (w : Fin cfg4.W) :
    (dat4 (atTc (X13 m)) c).arrAt w cfg4.N = X14 m c (Pipeline.arrRef spec4 w) :=
  match w with
  | ⟨0, _⟩ => ((dat4 (atTc (X13 m)) c).arrAt_in 0 rfl _).trans ((A_eq4 (atTc (X13 m)) c 0).trans (by
      show X13 m c _ = X14 m c _
      unfold X14; refine (Function.update_of_ne ?_ _ _).symm
      exact StableHlo.devRef_ne_of_ne (by decide)))
  | ⟨1, _⟩ => ((dat4 (atTc (X13 m)) c).arrAt_in 1 rfl _).trans ((A_eq4 (atTc (X13 m)) c 1).trans (by
      show X13 m c _ = X14 m c _
      unfold X14; refine (Function.update_of_ne ?_ _ _).symm
      exact StableHlo.devRef_ne_of_ne (by decide)))
  | ⟨2, _⟩ => by
      show _ = X14 m c (main_v29 : Ref sig .tc)
      unfold X14; rw [Function.update_self]; rfl

/-- Every other buffer holds what it held at entry. -/
theorem hrest4 (c : Dev nD) : ∀ b : Ref sig .tc, b ∉ Finset.univ.image (Pipeline.arrRef spec4) → X14 m c b = X13 m c b :=
  fun b hb => by
    unfold X14
    refine Function.update_of_ne ?_ _ _
    exact StableHlo.devRef_ne_of_ne (fun e => hb (Finset.mem_image.mpr ⟨2, Finset.mem_univ _, e.symm⟩))

set_option backward.isDefEq.respectTransparency.types false in
def reg4 : Pipeline.RegionSeg (pcfgs (F := F)) GenP.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (atTc (X13 m)) c).loose
  hwaits := Pipeline.hwaits_of_owed_zero _ _ _ _ Lz lvz 4 fun _ _ => rfl
  pre c := iprop(StableHlo.held (c : Thread nD τ) (Pipeline.ucRefs τ sig) (X13 m c) ∗ Rr c)
  post c := iprop(StableHlo.held (c : Thread nD τ) (Pipeline.ucRefs τ sig) (X14 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (X13 m) c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (atTc (X13 m)) c
  hout c := hout4 (atTc (X13 m)) c
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (atTc (X13 m) c) (atTc (X14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg5.lean ====
/-
  Region 5 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF5 (c : Dev nD) (w : Fin cfg5.W) :
    (dat5 (atTc (X21 m)) c).arrAt w cfg5.N = X22 m c (Pipeline.arrRef spec5 w) :=
  match w with
  | ⟨0, _⟩ => ((dat5 (atTc (X21 m)) c).arrAt_in 0 rfl _).trans ((A_eq5 (atTc (X21 m)) c 0).trans (by
      show X21 m c _ = X22 m c _
      unfold X22; refine (Function.update_of_ne ?_ _ _).symm
      exact StableHlo.devRef_ne_of_ne (by decide)))
  | ⟨1, _⟩ => ((dat5 (atTc (X21 m)) c).arrAt_in 1 rfl _).trans ((A_eq5 (atTc (X21 m)) c 1).trans (by
      show X21 m c _ = X22 m c _
      unfold X22; refine (Function.update_of_ne ?_ _ _).symm
      exact StableHlo.devRef_ne_of_ne (by decide)))
  | ⟨2, _⟩ => by
      show _ = X22 m c (main_v51 : Ref sig .tc)
      unfold X22; rw [Function.update_self]; rfl

/-- Every other buffer holds what it held at entry. -/
theorem hrest5 (c : Dev nD) : ∀ b : Ref sig .tc, b ∉ Finset.univ.image (Pipeline.arrRef spec5) → X22 m c b = X21 m c b :=
  fun b hb => by
    unfold X22
    refine Function.update_of_ne ?_ _ _
    exact StableHlo.devRef_ne_of_ne (fun e => hb (Finset.mem_image.mpr ⟨2, Finset.mem_univ _, e.symm⟩))

set_option backward.isDefEq.respectTransparency.types false in
def reg5 : Pipeline.RegionSeg (pcfgs (F := F)) GenP.adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (atTc (X21 m)) c).loose
  hwaits := Pipeline.hwaits_of_owed_zero _ _ _ _ Lz lvz 5 fun _ _ => rfl
  pre c := iprop(StableHlo.held (c : Thread nD τ) (Pipeline.ucRefs τ sig) (X21 m c) ∗ Rr c)
  post c := iprop(StableHlo.held (c : Thread nD τ) (Pipeline.ucRefs τ sig) (X22 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (X21 m) c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (atTc (X21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (atTc (X21 m) c) (atTc (X22 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg6.lean ====
/-
  Region 6 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF6 (c : Dev nD) (w : Fin cfg6.W) :
    (dat6 (atTc (X23 m)) c).arrAt w cfg6.N = X24 m c (Pipeline.arrRef spec6 w) :=
  match w with
  | ⟨0, _⟩ => ((dat6 (atTc (X23 m)) c).arrAt_in 0 rfl _).trans ((A_eq6 (atTc (X23 m)) c 0).trans (by
      show X23 m c _ = X24 m c _
      unfold X24; refine (Function.update_of_ne ?_ _ _).symm
      exact StableHlo.devRef_ne_of_ne (by decide)))
  | ⟨1, _⟩ => ((dat6 (atTc (X23 m)) c).arrAt_in 1 rfl _).trans ((A_eq6 (atTc (X23 m)) c 1).trans (by
      show X23 m c _ = X24 m c _
      unfold X24; refine (Function.update_of_ne ?_ _ _).symm
      exact StableHlo.devRef_ne_of_ne (by decide)))
  | ⟨2, _⟩ => by
      show _ = X24 m c (main_v67 : Ref sig .tc)
      unfold X24; rw [Function.update_self]; rfl

/-- Every other buffer holds what it held at entry. -/
theorem hrest6 (c : Dev nD) : ∀ b : Ref sig .tc, b ∉ Finset.univ.image (Pipeline.arrRef spec6) → X24 m c b = X23 m c b :=
  fun b hb => by
    unfold X24
    refine Function.update_of_ne ?_ _ _
    exact StableHlo.devRef_ne_of_ne (fun e => hb (Finset.mem_image.mpr ⟨2, Finset.mem_univ _, e.symm⟩))

set_option backward.isDefEq.respectTransparency.types false in
def reg6 : Pipeline.RegionSeg (pcfgs (F := F)) GenP.adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (atTc (X23 m)) c).loose
  hwaits := Pipeline.hwaits_of_owed_zero _ _ _ _ Lz lvz 6 fun _ _ => rfl
  pre c := iprop(StableHlo.held (c : Thread nD τ) (Pipeline.ucRefs τ sig) (X23 m c) ∗ Rr c)
  post c := iprop(StableHlo.held (c : Thread nD τ) (Pipeline.ucRefs τ sig) (X24 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (X23 m) c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (atTc (X23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (atTc (X23 m) c) (atTc (X24 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg7.lean ====
/-
  Region 7 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF7 (c : Dev nD) (w : Fin cfg7.W) :
    (dat7 (atTc (X25 m)) c).arrAt w cfg7.N = X26 m c (Pipeline.arrRef spec7 w) :=
  match w with
  | ⟨0, _⟩ => ((dat7 (atTc (X25 m)) c).arrAt_in 0 rfl _).trans ((A_eq7 (atTc (X25 m)) c 0).trans (by
      show X25 m c _ = X26 m c _
      unfold X26; refine (Function.update_of_ne ?_ _ _).symm
      exact StableHlo.devRef_ne_of_ne (by decide)))
  | ⟨1, _⟩ => ((dat7 (atTc (X25 m)) c).arrAt_in 1 rfl _).trans ((A_eq7 (atTc (X25 m)) c 1).trans (by
      show X25 m c _ = X26 m c _
      unfold X26; refine (Function.update_of_ne ?_ _ _).symm
      exact StableHlo.devRef_ne_of_ne (by decide)))
  | ⟨2, _⟩ => by
      show _ = X26 m c (main_v83 : Ref sig .tc)
      unfold X26; rw [Function.update_self]; rfl

/-- Every other buffer holds what it held at entry. -/
theorem hrest7 (c : Dev nD) : ∀ b : Ref sig .tc, b ∉ Finset.univ.image (Pipeline.arrRef spec7) → X26 m c b = X25 m c b :=
  fun b hb => by
    unfold X26
    refine Function.update_of_ne ?_ _ _
    exact StableHlo.devRef_ne_of_ne (fun e => hb (Finset.mem_image.mpr ⟨2, Finset.mem_univ _, e.symm⟩))

set_option backward.isDefEq.respectTransparency.types false in
def reg7 : Pipeline.RegionSeg (pcfgs (F := F)) GenP.adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (atTc (X25 m)) c).loose
  hwaits := Pipeline.hwaits_of_owed_zero _ _ _ _ Lz lvz 7 fun _ _ => rfl
  pre c := iprop(StableHlo.held (c : Thread nD τ) (Pipeline.ucRefs τ sig) (X25 m c) ∗ Rr c)
  post c := iprop(StableHlo.held (c : Thread nD τ) (Pipeline.ucRefs τ sig) (X26 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (X25 m) c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (atTc (X25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (atTc (X25 m) c) (atTc (X26 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg8.lean ====
/-
  Region 8 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF8 (c : Dev nD) (w : Fin cfg8.W) :
    (dat8 (atTc (X27 m)) c).arrAt w cfg8.N = X28 m c (Pipeline.arrRef spec8 w) :=
  match w with
  | ⟨0, _⟩ => ((dat8 (atTc (X27 m)) c).arrAt_in 0 rfl _).trans ((A_eq8 (atTc (X27 m)) c 0).trans (by
      show X27 m c _ = X28 m c _
      unfold X28; refine (Function.update_of_ne ?_ _ _).symm
      exact StableHlo.devRef_ne_of_ne (by decide)))
  | ⟨1, _⟩ => ((dat8 (atTc (X27 m)) c).arrAt_in 1 rfl _).trans ((A_eq8 (atTc (X27 m)) c 1).trans (by
      show X27 m c _ = X28 m c _
      unfold X28; refine (Function.update_of_ne ?_ _ _).symm
      exact StableHlo.devRef_ne_of_ne (by decide)))
  | ⟨2, _⟩ => by
      show _ = X28 m c (main_v92 : Ref sig .tc)
      unfold X28; rw [Function.update_self]; rfl

/-- Every other buffer holds what it held at entry. -/
theorem hrest8 (c : Dev nD) : ∀ b : Ref sig .tc, b ∉ Finset.univ.image (Pipeline.arrRef spec8) → X28 m c b = X27 m c b :=
  fun b hb => by
    unfold X28
    refine Function.update_of_ne ?_ _ _
    exact StableHlo.devRef_ne_of_ne (fun e => hb (Finset.mem_image.mpr ⟨2, Finset.mem_univ _, e.symm⟩))

set_option backward.isDefEq.respectTransparency.types false in
def reg8 : Pipeline.RegionSeg (pcfgs (F := F)) GenP.adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (atTc (X27 m)) c).loose
  hwaits := Pipeline.hwaits_of_owed_zero _ _ _ _ Lz lvz 8 fun _ _ => rfl
  pre c := iprop(StableHlo.held (c : Thread nD τ) (Pipeline.ucRefs τ sig) (X27 m c) ∗ Rr c)
  post c := iprop(StableHlo.held (c : Thread nD τ) (Pipeline.ucRefs τ sig) (X28 m c) ∗ Rr c)
  X c := iprop(∃ r, prngReg c r)
  Y c := iprop(∃ r, prngReg c r)
  Z c := Pipeline.unscopedRest (Ix := Unit) (Name := ℕ) (U := UR sig nD τ) (Lvl := ℕ) spec8 c (atTc (X27 m) c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (atTc (X27 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (atTc (X27 m)) c
  hout c := hout8 (atTc (X27 m)) c
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (atTc (X27 m) c) (atTc (X28 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg9.lean ====
/-
  Region 9 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF9 (c : Dev nD) (w : Fin cfg9.W) :
    (dat9 (atTc (X35 m)) c).arrAt w cfg9.N = X36 m c (Pipeline.arrRef spec9 w) :=
  match w with
  | ⟨0, _⟩ => ((dat9 (atTc (X35 m)) c).arrAt_in 0 rfl _).trans ((A_eq9 (atTc (X35 m)) c 0).trans (by
      show X35 m c _ = X36 m c _
      unfold X36; refine (Function.update_of_ne ?_ _ _).symm
      exact StableHlo.devRef_ne_of_ne (by decide)))
  | ⟨1, _⟩ => ((dat9 (atTc (X35 m)) c).arrAt_in 1 rfl _).trans ((A_eq9 (atTc (X35 m)) c 1).trans (by
      show X35 m c _ = X36 m c _
      unfold X36; refine (Function.update_of_ne ?_ _ _).symm
      exact StableHlo.devRef_ne_of_ne (by decide)))
  | ⟨2, _⟩ => by
      show _ = X36 m c (main_v114 : Ref sig .tc)
      unfold X36; rw [Function.update_self]; rfl

/-- Every other buffer holds what it held at entry. -/
theorem hrest9 (c : Dev nD) : ∀ b : Ref sig .tc, b ∉ Finset.univ.image (Pipeline.arrRef spec9) → X36 m c b = X35 m c b :=
  fun b hb => by
    unfold X36
    refine Function.update_of_ne ?_ _ _
    exact StableHlo.devRef_ne_of_ne (fun e => hb (Finset.mem_image.mpr ⟨2, Finset.mem_univ _, e.symm⟩))

set_option backward.isDefEq.respectTransparency.types false in
def reg9 : Pipeline.RegionSeg (pcfgs (F := F)) GenP.adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (atTc (X35 m)) c).loose
  hwaits := Pipeline.hwaits_of_owed_zero _ _ _ _ Lz lvz 9 fun _ _ => rfl
  pre c := iprop(StableHlo.held (c : Thread nD τ) (Pipeline.ucRefs τ sig) (X35 m c) ∗ Rr c)
  post c := iprop(StableHlo.held (c : Thread nD τ) (Pipeline.ucRefs τ sig) (X36 m c) ∗ Rr c)
  X c := iprop(∃ r, prngReg c r)
  Y c := iprop(∃ r, prngReg c r)
  Z c := Pipeline.unscopedRest (Ix := Unit) (Name := ℕ) (U := UR sig nD τ) (Lvl := ℕ) spec9 c (atTc (X35 m) c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (atTc (X35 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (atTc (X35 m) c) (atTc (X36 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg10.lean ====
/-
  Region 10 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF10 (c : Dev nD) (w : Fin cfg10.W) :
    (dat10 (atTc (X37 m)) c).arrAt w cfg10.N = X38 m c (Pipeline.arrRef spec10 w) :=
  match w with
  | ⟨0, _⟩ => ((dat10 (atTc (X37 m)) c).arrAt_in 0 rfl _).trans ((A_eq10 (atTc (X37 m)) c 0).trans (by
      show X37 m c _ = X38 m c _
      unfold X38; refine (Function.update_of_ne ?_ _ _).symm
      exact StableHlo.devRef_ne_of_ne (by decide)))
  | ⟨1, _⟩ => ((dat10 (atTc (X37 m)) c).arrAt_in 1 rfl _).trans ((A_eq10 (atTc (X37 m)) c 1).trans (by
      show X37 m c _ = X38 m c _
      unfold X38; refine (Function.update_of_ne ?_ _ _).symm
      exact StableHlo.devRef_ne_of_ne (by decide)))
  | ⟨2, _⟩ => by
      show _ = X38 m c (main_v117 : Ref sig .tc)
      unfold X38; rw [Function.update_self]; rfl

/-- Every other buffer holds what it held at entry. -/
theorem hrest10 (c : Dev nD) : ∀ b : Ref sig .tc, b ∉ Finset.univ.image (Pipeline.arrRef spec10) → X38 m c b = X37 m c b :=
  fun b hb => by
    unfold X38
    refine Function.update_of_ne ?_ _ _
    exact StableHlo.devRef_ne_of_ne (fun e => hb (Finset.mem_image.mpr ⟨2, Finset.mem_univ _, e.symm⟩))

set_option backward.isDefEq.respectTransparency.types false in
def reg10 : Pipeline.RegionSeg (pcfgs (F := F)) GenP.adm (pdats m) () defs₀ Variants.none Lz lvz 10 where
  win := launch10.win.to₀
  block_pos := launch10.block_pos
  stage_whole := launch10.stage_whole
  K := PEmpty
  osem k := k.elim
  ho := Pipeline.OwnSemFacts.none _
  hbody c := (body_obligation10 (atTc (X37 m)) c).loose
  hwaits := Pipeline.hwaits_of_owed_zero _ _ _ _ Lz lvz 10 fun _ _ => rfl
  pre c := iprop(StableHlo.held (c : Thread nD τ) (Pipeline.ucRefs τ sig) (X37 m c) ∗ Rr c)
  post c := iprop(StableHlo.held (c : Thread nD τ) (Pipeline.ucRefs τ sig) (X38 m c) ∗ Rr c)
  X c := iprop(∃ r, prngReg c r)
  Y c := iprop(∃ r, prngReg c r)
  Z c := Pipeline.unscopedRest (Ix := Unit) (Name := ℕ) (U := UR sig nD τ) (Lvl := ℕ) spec10 c (atTc (X37 m) c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (atTc (X37 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (atTc (X37 m)) c
  hout c := hout10 (atTc (X37 m)) c
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (atTc (X37 m) c) (atTc (X38 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg11.lean ====
/-
  Region 11 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF11 (c : Dev nD) (w : Fin cfg11.W) :
    (dat11 (atTc (X45 m)) c).arrAt w cfg11.N = X46 m c (Pipeline.arrRef spec11 w) :=
  match w with
  | ⟨0, _⟩ => ((dat11 (atTc (X45 m)) c).arrAt_in 0 rfl _).trans ((A_eq11 (atTc (X45 m)) c 0).trans (by
      show X45 m c _ = X46 m c _
      unfold X46; refine (Function.update_of_ne ?_ _ _).symm
      exact StableHlo.devRef_ne_of_ne (by decide)))
  | ⟨1, _⟩ => ((dat11 (atTc (X45 m)) c).arrAt_in 1 rfl _).trans ((A_eq11 (atTc (X45 m)) c 1).trans (by
      show X45 m c _ = X46 m c _
      unfold X46; refine (Function.update_of_ne ?_ _ _).symm
      exact StableHlo.devRef_ne_of_ne (by decide)))
  | ⟨2, _⟩ => by
      show _ = X46 m c (main_v139 : Ref sig .tc)
      unfold X46; rw [Function.update_self]; rfl

/-- Every other buffer holds what it held at entry. -/
theorem hrest11 (c : Dev nD) : ∀ b : Ref sig .tc, b ∉ Finset.univ.image (Pipeline.arrRef spec11) → X46 m c b = X45 m c b :=
  fun b hb => by
    unfold X46
    refine Function.update_of_ne ?_ _ _
    exact StableHlo.devRef_ne_of_ne (fun e => hb (Finset.mem_image.mpr ⟨2, Finset.mem_univ _, e.symm⟩))

set_option backward.isDefEq.respectTransparency.types false in
def reg11 : Pipeline.RegionSeg (pcfgs (F := F)) GenP.adm (pdats m) () defs₀ Variants.none Lz lvz 11 where
  win := launch11.win.to₀
  block_pos := launch11.block_pos
  stage_whole := launch11.stage_whole
  K := PEmpty
  osem k := k.elim
  ho := Pipeline.OwnSemFacts.none _
  hbody c := (body_obligation11 (atTc (X45 m)) c).loose
  hwaits := Pipeline.hwaits_of_owed_zero _ _ _ _ Lz lvz 11 fun _ _ => rfl
  pre c := iprop(StableHlo.held (c : Thread nD τ) (Pipeline.ucRefs τ sig) (X45 m c) ∗ Rr c)
  post c := iprop(StableHlo.held (c : Thread nD τ) (Pipeline.ucRefs τ sig) (X46 m c) ∗ Rr c)
  X c := iprop(∃ r, prngReg c r)
  Y c := iprop(∃ r, prngReg c r)
  Z c := Pipeline.unscopedRest (Ix := Unit) (Name := ℕ) (U := UR sig nD τ) (Lvl := ℕ) spec11 c (atTc (X45 m) c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (atTc (X45 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (atTc (X45 m) c) (atTc (X46 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg12.lean ====
/-
  Region 12 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF12 (c : Dev nD) (w : Fin cfg12.W) :
    (dat12 (atTc (X47 m)) c).arrAt w cfg12.N = X48 m c (Pipeline.arrRef spec12 w) :=
  match w with
  | ⟨0, _⟩ => ((dat12 (atTc (X47 m)) c).arrAt_in 0 rfl _).trans ((A_eq12 (atTc (X47 m)) c 0).trans (by
      show X47 m c _ = X48 m c _
      unfold X48; refine (Function.update_of_ne ?_ _ _).symm
      exact StableHlo.devRef_ne_of_ne (by decide)))
  | ⟨1, _⟩ => ((dat12 (atTc (X47 m)) c).arrAt_in 1 rfl _).trans ((A_eq12 (atTc (X47 m)) c 1).trans (by
      show X47 m c _ = X48 m c _
      unfold X48; refine (Function.update_of_ne ?_ _ _).symm
      exact StableHlo.devRef_ne_of_ne (by decide)))
  | ⟨2, _⟩ => by
      show _ = X48 m c (main_v155 : Ref sig .tc)
      unfold X48; rw [Function.update_self]; rfl

/-- Every other buffer holds what it held at entry. -/
theorem hrest12 (c : Dev nD) : ∀ b : Ref sig .tc, b ∉ Finset.univ.image (Pipeline.arrRef spec12) → X48 m c b = X47 m c b :=
  fun b hb => by
    unfold X48
    refine Function.update_of_ne ?_ _ _
    exact StableHlo.devRef_ne_of_ne (fun e => hb (Finset.mem_image.mpr ⟨2, Finset.mem_univ _, e.symm⟩))

set_option backward.isDefEq.respectTransparency.types false in
def reg12 : Pipeline.RegionSeg (pcfgs (F := F)) GenP.adm (pdats m) () defs₀ Variants.none Lz lvz 12 where
  win := launch12.win.to₀
  block_pos := launch12.block_pos
  stage_whole := launch12.stage_whole
  K := PEmpty
  osem k := k.elim
  ho := Pipeline.OwnSemFacts.none _
  hbody c := (body_obligation12 (atTc (X47 m)) c).loose
  hwaits := Pipeline.hwaits_of_owed_zero _ _ _ _ Lz lvz 12 fun _ _ => rfl
  pre c := iprop(StableHlo.held (c : Thread nD τ) (Pipeline.ucRefs τ sig) (X47 m c) ∗ Rr c)
  post c := iprop(StableHlo.held (c : Thread nD τ) (Pipeline.ucRefs τ sig) (X48 m c) ∗ Rr c)
  X c := iprop(∃ r, prngReg c r)
  Y c := iprop(∃ r, prngReg c r)
  Z c := Pipeline.unscopedRest (Ix := Unit) (Name := ℕ) (U := UR sig nD τ) (Lvl := ℕ) spec12 c (atTc (X47 m) c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (atTc (X47 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (atTc (X47 m) c) (atTc (X48 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg13.lean ====
/-
  Region 13 of @main as a segment of the run: entered with every unscoped buffer at the chain's contents before it
  and left with them at the contents after it. The region's arrays are split out of the unscoped buffers at entry and
  put back at exit, the output's at what the write-backs leave; the generator register goes into the kernel's
  invariant and comes back; nothing is owed; the kernel has no semaphore of its own.
-/
import proofs.«140582_j49512382988743_1_alg».proof.Proof.WChain

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

/-- After the region each of its arrays holds what the pipeline leaves: an input what it held, the output its write-backs. -/
theorem hF13 (c : Dev nD) (w : Fin cfg13.W) :
    (dat13 (atTc (X49 m)) c).arrAt w cfg13.N = X50 m c (Pipeline.arrRef spec13 w) :=
  match w with
  | ⟨0, _⟩ => ((dat13 (atTc (X49 m)) c).arrAt_in 0 rfl _).trans ((A_eq13 (atTc (X49 m)) c 0).trans (by
      show X49 m c _ = X50 m c _
      unfold X50; refine (Function.update_of_ne ?_ _ _).symm
      exact StableHlo.devRef_ne_of_ne (by decide)))
  | ⟨1, _⟩ => ((dat13 (atTc (X49 m)) c).arrAt_in 1 rfl _).trans ((A_eq13 (atTc (X49 m)) c 1).trans (by
      show X49 m c _ = X50 m c _
      unfold X50; refine (Function.update_of_ne ?_ _ _).symm
      exact StableHlo.devRef_ne_of_ne (by decide)))
  | ⟨2, _⟩ => by
      show _ = X50 m c (main_v171 : Ref sig .tc)
      unfold X50; rw [Function.update_self]; rfl

/-- Every other buffer holds what it held at entry. -/
theorem hrest13 (c : Dev nD) : ∀ b : Ref sig .tc, b ∉ Finset.univ.image (Pipeline.arrRef spec13) → X50 m c b = X49 m c b :=
  fun b hb => by
    unfold X50
    refine Function.update_of_ne ?_ _ _
    exact StableHlo.devRef_ne_of_ne (fun e => hb (Finset.mem_image.mpr ⟨2, Finset.mem_univ _, e.symm⟩))

set_option backward.isDefEq.respectTransparency.types false in
def reg13 : Pipeline.RegionSeg (pcfgs (F := F)) GenP.adm (pdats m) () defs₀ Variants.none Lz lvz 13 where
  win := launch13.win.to₀
  block_pos := launch13.block_pos
  stage_whole := launch13.stage_whole
  K := PEmpty
  osem k := k.elim
  ho := Pipeline.OwnSemFacts.none _
  hbody c := (body_obligation13 (atTc (X49 m)) c).loose
  hwaits := Pipeline.hwaits_of_owed_zero _ _ _ _ Lz lvz 13 fun _ _ => rfl
  pre c := iprop(StableHlo.held (c : Thread nD τ) (Pipeline.ucRefs τ sig) (X49 m c) ∗ Rr c)
  post c := iprop(StableHlo.held (c : Thread nD τ) (Pipeline.ucRefs τ sig) (X50 m c) ∗ Rr c)
  X c := iprop(∃ r, prngReg c r)
  Y c := iprop(∃ r, prngReg c r)
  Z c := Pipeline.unscopedRest (Ix := Unit) (Name := ℕ) (U := UR sig nD τ) (Lvl := ℕ) spec13 c (atTc (X49 m) c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (atTc (X49 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (atTc (X49 m) c) (atTc (X50 m) c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WRunAll.lean ====
/-
  The run of @main: its items in order as segments — a host stretch from the boundary contents before it, a region
  by its record —, the launch memory as the first thread state, and at the end every unscoped buffer read off the last
  boundary's contents. Every weakly fair execution terminates without a fault in a state whose unscoped buffers hold
  the chain's last contents; the frame (each argument array as launched) follows, no item writing an argument.
-/
import proofs.«140582_j49512382988743_1_alg».proof.Proof.WReg0
import proofs.«140582_j49512382988743_1_alg».proof.Proof.WReg1
import proofs.«140582_j49512382988743_1_alg».proof.Proof.WReg2
import proofs.«140582_j49512382988743_1_alg».proof.Proof.WReg3
import proofs.«140582_j49512382988743_1_alg».proof.Proof.WReg4
import proofs.«140582_j49512382988743_1_alg».proof.Proof.WReg5
import proofs.«140582_j49512382988743_1_alg».proof.Proof.WReg6
import proofs.«140582_j49512382988743_1_alg».proof.Proof.WReg7
import proofs.«140582_j49512382988743_1_alg».proof.Proof.WReg8
import proofs.«140582_j49512382988743_1_alg».proof.Proof.WReg9
import proofs.«140582_j49512382988743_1_alg».proof.Proof.WReg10
import proofs.«140582_j49512382988743_1_alg».proof.Proof.WReg11
import proofs.«140582_j49512382988743_1_alg».proof.Proof.WReg12
import proofs.«140582_j49512382988743_1_alg».proof.Proof.WReg13

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What rides beside the buffers between any two items. -/
abbrev Es : Fin 15 → Dev nD → sProp 𝕄 := fun _ c => Rr c

/-- @main's items in order. -/
abbrev allSegs : List (Pipeline.Seg (pcfgs (F := F)) GenP.adm (pdats m) () defs₀ Variants.none Lz lvz) :=
  [ .region (reg0 m),
    .region (reg1 m),
    .host (GenP.seg2 m (outs m) Variants.none Lz lvz Es),
    .region (reg2 m),
    .host (GenP.seg4 m (outs m) Variants.none Lz lvz Es),
    .host (GenP.seg5 m (outs m) Variants.none Lz lvz Es),
    .host (GenP.seg6 m (outs m) Variants.none Lz lvz Es),
    .host (GenP.seg7 m (outs m) Variants.none Lz lvz Es),
    .host (GenP.seg8 m (outs m) Variants.none Lz lvz Es),
    .host (GenP.seg9 m (outs m) Variants.none Lz lvz Es),
    .host (GenP.seg10 m (outs m) Variants.none Lz lvz Es),
    .region (reg3 m),
    .host (GenP.seg12 m (outs m) Variants.none Lz lvz Es),
    .region (reg4 m),
    .host (GenP.seg14 m (outs m) Variants.none Lz lvz Es),
    .host (GenP.seg15 m (outs m) Variants.none Lz lvz Es),
    .host (GenP.seg16 m (outs m) Variants.none Lz lvz Es),
    .host (GenP.seg17 m (outs m) Variants.none Lz lvz Es),
    .host (GenP.seg18 m (outs m) Variants.none Lz lvz Es),
    .host (GenP.seg19 m (outs m) Variants.none Lz lvz Es),
    .host (GenP.seg20 m (outs m) Variants.none Lz lvz Es),
    .region (reg5 m),
    .host (GenP.seg22 m (outs m) Variants.none Lz lvz Es),
    .region (reg6 m),
    .host (GenP.seg24 m (outs m) Variants.none Lz lvz Es),
    .region (reg7 m),
    .host (GenP.seg26 m (outs m) Variants.none Lz lvz Es),
    .region (reg8 m),
    .host (GenP.seg28 m (outs m) Variants.none Lz lvz Es),
    .host (GenP.seg29 m (outs m) Variants.none Lz lvz Es),
    .host (GenP.seg30 m (outs m) Variants.none Lz lvz Es),
    .host (GenP.seg31 m (outs m) Variants.none Lz lvz Es),
    .host (GenP.seg32 m (outs m) Variants.none Lz lvz Es),
    .host (GenP.seg33 m (outs m) Variants.none Lz lvz Es),
    .host (GenP.seg34 m (outs m) Variants.none Lz lvz Es),
    .region (reg9 m),
    .host (GenP.seg36 m (outs m) Variants.none Lz lvz Es),
    .region (reg10 m),
    .host (GenP.seg38 m (outs m) Variants.none Lz lvz Es),
    .host (GenP.seg39 m (outs m) Variants.none Lz lvz Es),
    .host (GenP.seg40 m (outs m) Variants.none Lz lvz Es),
    .host (GenP.seg41 m (outs m) Variants.none Lz lvz Es),
    .host (GenP.seg42 m (outs m) Variants.none Lz lvz Es),
    .host (GenP.seg43 m (outs m) Variants.none Lz lvz Es),
    .host (GenP.seg44 m (outs m) Variants.none Lz lvz Es),
    .region (reg11 m),
    .host (GenP.seg46 m (outs m) Variants.none Lz lvz Es),
    .region (reg12 m),
    .host (GenP.seg48 m (outs m) Variants.none Lz lvz Es),
    .region (reg13 m),
    .host (GenP.seg50 m (outs m) Variants.none Lz lvz Es) ]

/-- @main is the run of its items. -/
theorem main_run (c : Dev nD) : main (F := F) c = Pipeline.Seg.run (allSegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! Where an item hands over to the next, the two thread states are the same buffers at the same contents. -/
theorem toHost2 (c : Dev nD) : (iprop(StableHlo.held (c : Thread nD τ) (Pipeline.ucRefs τ sig) (X2 m c) ∗ Rr c) : sProp 𝕄) ⊢ iprop(StableHlo.held (c : Thread nD τ) (Pipeline.ucRefs τ sig) (GenP.V2 m (outs m) c) ∗ Rr c) := by
  rw [V2_eq]
theorem fromHost3 (c : Dev nD) : (iprop(StableHlo.held (c : Thread nD τ) (Pipeline.ucRefs τ sig) (StableHlo.after hostOps2 (GenP.V2 m (outs m) c)) ∗ Rr c) : sProp 𝕄) ⊢ iprop(StableHlo.held (c : Thread nD τ) (Pipeline.ucRefs τ sig) (X3 m c) ∗ Rr c) := by
  rw [V2_eq]; exact .rfl
theorem toHost4 (c : Dev nD) : (iprop(StableHlo.held (c : Thread nD τ) (Pipeline.ucRefs τ sig) (X4 m c) ∗ Rr c) : sProp 𝕄) ⊢ iprop(StableHlo.held (c : Thread nD τ) (Pipeline.ucRefs τ sig) (GenP.V4 m (outs m) c) ∗ Rr c) := by
  rw [V4_eq]
theorem fromHost11 (c : Dev nD) : (iprop(StableHlo.held (c : Thread nD τ) (Pipeline.ucRefs τ sig) (StableHlo.after hostOps3_6 (GenP.V10 m (outs m) c)) ∗ Rr c) : sProp 𝕄) ⊢ iprop(StableHlo.held (c : Thread nD τ) (Pipeline.ucRefs τ sig) (X11 m c) ∗ Rr c) := by
  rw [V10_eq]; exact .rfl
theorem toHost12 (c : Dev nD) : (iprop(StableHlo.held (c : Thread nD τ) (Pipeline.ucRefs τ sig) (X12 m c) ∗ Rr c) : sProp 𝕄) ⊢ iprop(StableHlo.held (c : Thread nD τ) (Pipeline.ucRefs τ sig) (GenP.V12 m (outs m) c) ∗ Rr c) := by
  rw [V12_eq]
theorem fromHost13 (c : Dev nD) : (iprop(StableHlo.held (c : Thread nD τ) (Pipeline.ucRefs τ sig) (StableHlo.after hostOps4 (GenP.V12 m (outs m) c)) ∗ Rr c) : sProp 𝕄) ⊢ iprop(StableHlo.held (c : Thread nD τ) (Pipeline.ucRefs τ sig) (X13 m c) ∗ Rr c) := by
  rw [V12_eq]; exact .rfl
theorem toHost14 (c : Dev nD) : (iprop(StableHlo.held (c : Thread nD τ) (Pipeline.ucRefs τ sig) (X14 m c) ∗ Rr c) : sProp 𝕄) ⊢ iprop(StableHlo.held (c : Thread nD τ) (Pipeline.ucRefs τ sig) (GenP.V14 m (outs m) c) ∗ Rr c) := by
  rw [V14_eq]
theorem fromHost21 (c : Dev nD) : (iprop(StableHlo.held (c : Thread nD τ) (Pipeline.ucRefs τ sig) (StableHlo.after hostOps5_6 (GenP.V20 m (outs m) c)) ∗ Rr c) : sProp 𝕄) ⊢ iprop(StableHlo.held (c : Thread nD τ) (Pipeline.ucRefs τ sig) (X21 m c) ∗ Rr c) := by
  rw [V20_eq]; exact .rfl
theorem toHost22 (c : Dev nD) : (iprop(StableHlo.held (c : Thread nD τ) (Pipeline.ucRefs τ sig) (X22 m c) ∗ Rr c) : sProp 𝕄) ⊢ iprop(StableHlo.held (c : Thread nD τ) (Pipeline.ucRefs τ sig) (GenP.V22 m (outs m) c) ∗ Rr c) := by
  rw [V22_eq]
theorem fromHost23 (c : Dev nD) : (iprop(StableHlo.held (c : Thread nD τ) (Pipeline.ucRefs τ sig) (StableHlo.after hostOps6 (GenP.V22 m (outs m) c)) ∗ Rr c) : sProp 𝕄) ⊢ iprop(StableHlo.held (c : Thread nD τ) (Pipeline.ucRefs τ sig) (X23 m c) ∗ Rr c) := by
  rw [V22_eq]; exact .rfl
theorem toHost24 (c : Dev nD) : (iprop(StableHlo.held (c : Thread nD τ) (Pipeline.ucRefs τ sig) (X24 m c) ∗ Rr c) : sProp 𝕄) ⊢ iprop(StableHlo.held (c : Thread nD τ) (Pipeline.ucRefs τ sig) (GenP.V24 m (outs m) c) ∗ Rr c) := by
  rw [V24_eq]
theorem fromHost25 (c : Dev nD) : (iprop(StableHlo.held (c : Thread nD τ) (Pipeline.ucRefs τ sig) (StableHlo.after hostOps7 (GenP.V24 m (outs m) c)) ∗ Rr c) : sProp 𝕄) ⊢ iprop(StableHlo.held (c : Thread nD τ) (Pipeline.ucRefs τ sig) (X25 m c) ∗ Rr c) := by
  rw [V24_eq]; exact .rfl
theorem toHost26 (c : Dev nD) : (iprop(StableHlo.held (c : Thread nD τ) (Pipeline.ucRefs τ sig) (X26 m c) ∗ Rr c) : sProp 𝕄) ⊢ iprop(StableHlo.held (c : Thread nD τ) (Pipeline.ucRefs τ sig) (GenP.V26 m (outs m) c) ∗ Rr c) := by
  rw [V26_eq]
theorem fromHost27 (c : Dev nD) : (iprop(StableHlo.held (c : Thread nD τ) (Pipeline.ucRefs τ sig) (StableHlo.after hostOps8 (GenP.V26 m (outs m) c)) ∗ Rr c) : sProp 𝕄) ⊢ iprop(StableHlo.held (c : Thread nD τ) (Pipeline.ucRefs τ sig) (X27 m c) ∗ Rr c) := by
  rw [V26_eq]; exact .rfl
theorem toHost28 (c : Dev nD) : (iprop(StableHlo.held (c : Thread nD τ) (Pipeline.ucRefs τ sig) (X28 m c) ∗ Rr c) : sProp 𝕄) ⊢ iprop(StableHlo.held (c : Thread nD τ) (Pipeline.ucRefs τ sig) (GenP.V28 m (outs m) c) ∗ Rr c) := by
  rw [V28_eq]
theorem fromHost35 (c : Dev nD) : (iprop(StableHlo.held (c : Thread nD τ) (Pipeline.ucRefs τ sig) (StableHlo.after hostOps9_6 (GenP.V34 m (outs m) c)) ∗ Rr c) : sProp 𝕄) ⊢ iprop(StableHlo.held (c : Thread nD τ) (Pipeline.ucRefs τ sig) (X35 m c) ∗ Rr c) := by
  rw [V34_eq]; exact .rfl
theorem toHost36 (c : Dev nD) : (iprop(StableHlo.held (c : Thread nD τ) (Pipeline.ucRefs τ sig) (X36 m c) ∗ Rr c) : sProp 𝕄) ⊢ iprop(StableHlo.held (c : Thread nD τ) (Pipeline.ucRefs τ sig) (GenP.V36 m (outs m) c) ∗ Rr c) := by
  rw [V36_eq]
theorem fromHost37 (c : Dev nD) : (iprop(StableHlo.held (c : Thread nD τ) (Pipeline.ucRefs τ sig) (StableHlo.after hostOps10 (GenP.V36 m (outs m) c)) ∗ Rr c) : sProp 𝕄) ⊢ iprop(StableHlo.held (c : Thread nD τ) (Pipeline.ucRefs τ sig) (X37 m c) ∗ Rr c) := by
  rw [V36_eq]; exact .rfl
theorem toHost38 (c : Dev nD) : (iprop(StableHlo.held (c : Thread nD τ) (Pipeline.ucRefs τ sig) (X38 m c) ∗ Rr c) : sProp 𝕄) ⊢ iprop(StableHlo.held (c : Thread nD τ) (Pipeline.ucRefs τ sig) (GenP.V38 m (outs m) c) ∗ Rr c) := by
  rw [V38_eq]
theorem fromHost45 (c : Dev nD) : (iprop(StableHlo.held (c : Thread nD τ) (Pipeline.ucRefs τ sig) (StableHlo.after hostOps11_6 (GenP.V44 m (outs m) c)) ∗ Rr c) : sProp 𝕄) ⊢ iprop(StableHlo.held (c : Thread nD τ) (Pipeline.ucRefs τ sig) (X45 m c) ∗ Rr c) := by
  rw [V44_eq]; exact .rfl
theorem toHost46 (c : Dev nD) : (iprop(StableHlo.held (c : Thread nD τ) (Pipeline.ucRefs τ sig) (X46 m c) ∗ Rr c) : sProp 𝕄) ⊢ iprop(StableHlo.held (c : Thread nD τ) (Pipeline.ucRefs τ sig) (GenP.V46 m (outs m) c) ∗ Rr c) := by
  rw [V46_eq]
theorem fromHost47 (c : Dev nD) : (iprop(StableHlo.held (c : Thread nD τ) (Pipeline.ucRefs τ sig) (StableHlo.after hostOps12 (GenP.V46 m (outs m) c)) ∗ Rr c) : sProp 𝕄) ⊢ iprop(StableHlo.held (c : Thread nD τ) (Pipeline.ucRefs τ sig) (X47 m c) ∗ Rr c) := by
  rw [V46_eq]; exact .rfl
theorem toHost48 (c : Dev nD) : (iprop(StableHlo.held (c : Thread nD τ) (Pipeline.ucRefs τ sig) (X48 m c) ∗ Rr c) : sProp 𝕄) ⊢ iprop(StableHlo.held (c : Thread nD τ) (Pipeline.ucRefs τ sig) (GenP.V48 m (outs m) c) ∗ Rr c) := by
  rw [V48_eq]
theorem fromHost49 (c : Dev nD) : (iprop(StableHlo.held (c : Thread nD τ) (Pipeline.ucRefs τ sig) (StableHlo.after hostOps13 (GenP.V48 m (outs m) c)) ∗ Rr c) : sProp 𝕄) ⊢ iprop(StableHlo.held (c : Thread nD τ) (Pipeline.ucRefs τ sig) (X49 m c) ∗ Rr c) := by
  rw [V48_eq]; exact .rfl
theorem toHost50 (c : Dev nD) : (iprop(StableHlo.held (c : Thread nD τ) (Pipeline.ucRefs τ sig) (X50 m c) ∗ Rr c) : sProp 𝕄) ⊢ iprop(StableHlo.held (c : Thread nD τ) (Pipeline.ucRefs τ sig) (GenP.V50 m (outs m) c) ∗ Rr c) := by
  rw [V50_eq]
theorem atEnd (c : Dev nD) : (iprop(StableHlo.held (c : Thread nD τ) (Pipeline.ucRefs τ sig) (StableHlo.after hostOps14 (GenP.V50 m (outs m) c)) ∗ Rr c) : sProp 𝕄)
    ⊢ iprop(iprop(StableHlo.held (c : Thread nD τ) (Pipeline.ucRefs τ sig) (X51 m c) ∗ ∃ r, prngReg c r) ∗ ∃ W, owes (c : Thread nD τ) (0 : CellTallies nD τ sig Unit) W) := by
  rw [V50_eq]
  iintro ⟨Hh, Hp, Ho⟩
  isplitr [Ho]
  · isplitl [Hh]; · iexact Hh
    iexact Hp
  iexact Ho

set_option maxHeartbeats 0 in
set_option backward.isDefEq.respectTransparency.types false in
/-- THE RUN: from any memory with zero counters every weakly fair execution of @main terminates, nothing faulting,
    and every final state holds each unscoped buffer at the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X51 m c b) :=
  Pipeline.θ_run_regions_kit (pcfgs (F := F)) GenP.adm (pdats m) () cellOf_inj emb₁ defs₀ Variants.none Lz lvz m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ Rr c))
    (Tₙ := fun c => iprop(StableHlo.held (c : Thread nD τ) (Pipeline.ucRefs τ sig) (X51 m c) ∗ ∃ r, prngReg c r))
    (hch := ⟨fun _ => .rfl,
      fun _ => .rfl,
      fun c => toHost2 m c,
      fun c => fromHost3 m c,
      fun c => toHost4 m c,
      fun _ => .rfl,
      fun _ => .rfl,
      fun _ => .rfl,
      fun _ => .rfl,
      fun _ => .rfl,
      fun _ => .rfl,
      fun c => fromHost11 m c,
      fun c => toHost12 m c,
      fun c => fromHost13 m c,
      fun c => toHost14 m c,
      fun _ => .rfl,
      fun _ => .rfl,
      fun _ => .rfl,
      fun _ => .rfl,
      fun _ => .rfl,
      fun _ => .rfl,
      fun c => fromHost21 m c,
      fun c => toHost22 m c,
      fun c => fromHost23 m c,
      fun c => toHost24 m c,
      fun c => fromHost25 m c,
      fun c => toHost26 m c,
      fun c => fromHost27 m c,
      fun c => toHost28 m c,
      fun _ => .rfl,
      fun _ => .rfl,
      fun _ => .rfl,
      fun _ => .rfl,
      fun _ => .rfl,
      fun _ => .rfl,
      fun c => fromHost35 m c,
      fun c => toHost36 m c,
      fun c => fromHost37 m c,
      fun c => toHost38 m c,
      fun _ => .rfl,
      fun _ => .rfl,
      fun _ => .rfl,
      fun _ => .rfl,
      fun _ => .rfl,
      fun _ => .rfl,
      fun c => fromHost45 m c,
      fun c => toHost46 m c,
      fun c => fromHost47 m c,
      fun c => toHost48 m c,
      fun c => fromHost49 m c,
      fun c => toHost50 m c,
      fun c => atEnd m c⟩)
    (hinit := by
      refine Pipeline.initEach Lz lvz fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X51 m c b)
    (hfin := fun c s' => by
      iintro ⟨⟨Hh, -⟩, HSI⟩
      unfold StableHlo.held
      imodintro
      iapply (pointsTo_read_all (Pipeline.ucRefs τ sig) (fun b => (((c : Thread nD τ)).1, b)) (X51 m c) s')
      isplitl [Hh] <;> iassumption)
    (hQ := fun s h => h)

/-- THE FRAME: every argument array ends as launched — the last boundary's contents at an argument are the launch's,
    no host stretch writing it and no region changing it. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans ((congrFun (V51_eq m c).symm _).trans (GenP.V51_main_arg0 m (outs m) c)),
    (h c _ (mem_uc main_arg1 (by decide))).trans ((congrFun (V51_eq m c).symm _).trans (GenP.V51_main_arg1 m (outs m) c)),
    (h c _ (mem_uc main_arg2 (by decide))).trans ((congrFun (V51_eq m c).symm _).trans (GenP.V51_main_arg2 m (outs m) c)),
    (h c _ (mem_uc main_arg3 (by decide))).trans ((congrFun (V51_eq m c).symm _).trans (GenP.V51_main_arg3 m (outs m) c)),
    (h c _ (mem_uc main_arg4 (by decide))).trans ((congrFun (V51_eq m c).symm _).trans (GenP.V51_main_arg4 m (outs m) c)),
    (h c _ (mem_uc main_arg5 (by decide))).trans ((congrFun (V51_eq m c).symm _).trans (GenP.V51_main_arg5 m (outs m) c)),
    (h c _ (mem_uc main_arg6 (by decide))).trans ((congrFun (V51_eq m c).symm _).trans (GenP.V51_main_arg6 m (outs m) c)),
    (h c _ (mem_uc main_arg7 (by decide))).trans ((congrFun (V51_eq m c).symm _).trans (GenP.V51_main_arg7 m (outs m) c)),
    (h c _ (mem_uc main_arg8 (by decide))).trans ((congrFun (V51_eq m c).symm _).trans (GenP.V51_main_arg8 m (outs m) c)),
    (h c _ (mem_uc main_arg9 (by decide))).trans ((congrFun (V51_eq m c).symm _).trans (GenP.V51_main_arg9 m (outs m) c)),
    (h c _ (mem_uc main_arg10 (by decide))).trans ((congrFun (V51_eq m c).symm _).trans (GenP.V51_main_arg10 m (outs m) c))⟩) (run_all m ρ)

end Cert.Kernel.Hand

end
-- ==== Proof.Keep.lean ====
/-
  A buffer an item does not write holds after the item what it held before it: the chain's form of the boundary
  contents' companion lemmas, one per item.
-/
import proofs.«140582_j49512382988743_1_alg».proof.Proof.Chain

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

theorem X1_of (c : Dev nD) (r : Ref sig .tc) (h : r ∉ ([main_v0] : List (Ref sig .tc))) : X1 m c r = X0 m c r :=
  ((congrFun (V1_eq m c) _).symm.trans (GenP.V1_of m (outs m) c r h)).trans (congrFun (V0_eq m c) _)
theorem X2_of (c : Dev nD) (r : Ref sig .tc) (h : r ∉ ([main_v1] : List (Ref sig .tc))) : X2 m c r = X1 m c r :=
  ((congrFun (V2_eq m c) _).symm.trans (GenP.V2_of m (outs m) c r h)).trans (congrFun (V1_eq m c) _)
theorem X3_of (c : Dev nD) (r : Ref sig .tc) (h : r ∉ GenP.hostOps2_W) : X3 m c r = X2 m c r :=
  ((congrFun (V3_eq m c) _).symm.trans (GenP.V3_of m (outs m) c r h)).trans (congrFun (V2_eq m c) _)
theorem X4_of (c : Dev nD) (r : Ref sig .tc) (h : r ∉ ([main_v4] : List (Ref sig .tc))) : X4 m c r = X3 m c r :=
  ((congrFun (V4_eq m c) _).symm.trans (GenP.V4_of m (outs m) c r h)).trans (congrFun (V3_eq m c) _)
theorem X5_of (c : Dev nD) (r : Ref sig .tc) (h : r ∉ GenP.hostOps3_W) : X5 m c r = X4 m c r :=
  ((congrFun (V5_eq m c) _).symm.trans (GenP.V5_of m (outs m) c r h)).trans (congrFun (V4_eq m c) _)
theorem X6_of (c : Dev nD) (r : Ref sig .tc) (h : r ∉ GenP.hostOps3_1_W) : X6 m c r = X5 m c r :=
  ((congrFun (V6_eq m c) _).symm.trans (GenP.V6_of m (outs m) c r h)).trans (congrFun (V5_eq m c) _)
theorem X7_of (c : Dev nD) (r : Ref sig .tc) (h : r ∉ GenP.hostOps3_2_W) : X7 m c r = X6 m c r :=
  ((congrFun (V7_eq m c) _).symm.trans (GenP.V7_of m (outs m) c r h)).trans (congrFun (V6_eq m c) _)
theorem X8_of (c : Dev nD) (r : Ref sig .tc) (h : r ∉ GenP.hostOps3_3_W) : X8 m c r = X7 m c r :=
  ((congrFun (V8_eq m c) _).symm.trans (GenP.V8_of m (outs m) c r h)).trans (congrFun (V7_eq m c) _)
theorem X9_of (c : Dev nD) (r : Ref sig .tc) (h : r ∉ GenP.hostOps3_4_W) : X9 m c r = X8 m c r :=
  ((congrFun (V9_eq m c) _).symm.trans (GenP.V9_of m (outs m) c r h)).trans (congrFun (V8_eq m c) _)
theorem X10_of (c : Dev nD) (r : Ref sig .tc) (h : r ∉ GenP.hostOps3_5_W) : X10 m c r = X9 m c r :=
  ((congrFun (V10_eq m c) _).symm.trans (GenP.V10_of m (outs m) c r h)).trans (congrFun (V9_eq m c) _)
theorem X11_of (c : Dev nD) (r : Ref sig .tc) (h : r ∉ GenP.hostOps3_6_W) : X11 m c r = X10 m c r :=
  ((congrFun (V11_eq m c) _).symm.trans (GenP.V11_of m (outs m) c r h)).trans (congrFun (V10_eq m c) _)
theorem X12_of (c : Dev nD) (r : Ref sig .tc) (h : r ∉ ([main_v26] : List (Ref sig .tc))) : X12 m c r = X11 m c r :=
  ((congrFun (V12_eq m c) _).symm.trans (GenP.V12_of m (outs m) c r h)).trans (congrFun (V11_eq m c) _)
theorem X13_of (c : Dev nD) (r : Ref sig .tc) (h : r ∉ GenP.hostOps4_W) : X13 m c r = X12 m c r :=
  ((congrFun (V13_eq m c) _).symm.trans (GenP.V13_of m (outs m) c r h)).trans (congrFun (V12_eq m c) _)
theorem X14_of (c : Dev nD) (r : Ref sig .tc) (h : r ∉ ([main_v29] : List (Ref sig .tc))) : X14 m c r = X13 m c r :=
  ((congrFun (V14_eq m c) _).symm.trans (GenP.V14_of m (outs m) c r h)).trans (congrFun (V13_eq m c) _)
theorem X15_of (c : Dev nD) (r : Ref sig .tc) (h : r ∉ GenP.hostOps5_W) : X15 m c r = X14 m c r :=
  ((congrFun (V15_eq m c) _).symm.trans (GenP.V15_of m (outs m) c r h)).trans (congrFun (V14_eq m c) _)
theorem X16_of (c : Dev nD) (r : Ref sig .tc) (h : r ∉ GenP.hostOps5_1_W) : X16 m c r = X15 m c r :=
  ((congrFun (V16_eq m c) _).symm.trans (GenP.V16_of m (outs m) c r h)).trans (congrFun (V15_eq m c) _)
theorem X17_of (c : Dev nD) (r : Ref sig .tc) (h : r ∉ GenP.hostOps5_2_W) : X17 m c r = X16 m c r :=
  ((congrFun (V17_eq m c) _).symm.trans (GenP.V17_of m (outs m) c r h)).trans (congrFun (V16_eq m c) _)
theorem X18_of (c : Dev nD) (r : Ref sig .tc) (h : r ∉ GenP.hostOps5_3_W) : X18 m c r = X17 m c r :=
  ((congrFun (V18_eq m c) _).symm.trans (GenP.V18_of m (outs m) c r h)).trans (congrFun (V17_eq m c) _)
theorem X19_of (c : Dev nD) (r : Ref sig .tc) (h : r ∉ GenP.hostOps5_4_W) : X19 m c r = X18 m c r :=
  ((congrFun (V19_eq m c) _).symm.trans (GenP.V19_of m (outs m) c r h)).trans (congrFun (V18_eq m c) _)
theorem X20_of (c : Dev nD) (r : Ref sig .tc) (h : r ∉ GenP.hostOps5_5_W) : X20 m c r = X19 m c r :=
  ((congrFun (V20_eq m c) _).symm.trans (GenP.V20_of m (outs m) c r h)).trans (congrFun (V19_eq m c) _)
theorem X21_of (c : Dev nD) (r : Ref sig .tc) (h : r ∉ GenP.hostOps5_6_W) : X21 m c r = X20 m c r :=
  ((congrFun (V21_eq m c) _).symm.trans (GenP.V21_of m (outs m) c r h)).trans (congrFun (V20_eq m c) _)
theorem X22_of (c : Dev nD) (r : Ref sig .tc) (h : r ∉ ([main_v51] : List (Ref sig .tc))) : X22 m c r = X21 m c r :=
  ((congrFun (V22_eq m c) _).symm.trans (GenP.V22_of m (outs m) c r h)).trans (congrFun (V21_eq m c) _)
theorem X23_of (c : Dev nD) (r : Ref sig .tc) (h : r ∉ GenP.hostOps6_W) : X23 m c r = X22 m c r :=
  ((congrFun (V23_eq m c) _).symm.trans (GenP.V23_of m (outs m) c r h)).trans (congrFun (V22_eq m c) _)
theorem X24_of (c : Dev nD) (r : Ref sig .tc) (h : r ∉ ([main_v67] : List (Ref sig .tc))) : X24 m c r = X23 m c r :=
  ((congrFun (V24_eq m c) _).symm.trans (GenP.V24_of m (outs m) c r h)).trans (congrFun (V23_eq m c) _)
theorem X25_of (c : Dev nD) (r : Ref sig .tc) (h : r ∉ GenP.hostOps7_W) : X25 m c r = X24 m c r :=
  ((congrFun (V25_eq m c) _).symm.trans (GenP.V25_of m (outs m) c r h)).trans (congrFun (V24_eq m c) _)
theorem X26_of (c : Dev nD) (r : Ref sig .tc) (h : r ∉ ([main_v83] : List (Ref sig .tc))) : X26 m c r = X25 m c r :=
  ((congrFun (V26_eq m c) _).symm.trans (GenP.V26_of m (outs m) c r h)).trans (congrFun (V25_eq m c) _)
theorem X27_of (c : Dev nD) (r : Ref sig .tc) (h : r ∉ GenP.hostOps8_W) : X27 m c r = X26 m c r :=
  ((congrFun (V27_eq m c) _).symm.trans (GenP.V27_of m (outs m) c r h)).trans (congrFun (V26_eq m c) _)
theorem X28_of (c : Dev nD) (r : Ref sig .tc) (h : r ∉ ([main_v92] : List (Ref sig .tc))) : X28 m c r = X27 m c r :=
  ((congrFun (V28_eq m c) _).symm.trans (GenP.V28_of m (outs m) c r h)).trans (congrFun (V27_eq m c) _)
theorem X29_of (c : Dev nD) (r : Ref sig .tc) (h : r ∉ GenP.hostOps9_W) : X29 m c r = X28 m c r :=
  ((congrFun (V29_eq m c) _).symm.trans (GenP.V29_of m (outs m) c r h)).trans (congrFun (V28_eq m c) _)
theorem X30_of (c : Dev nD) (r : Ref sig .tc) (h : r ∉ GenP.hostOps9_1_W) : X30 m c r = X29 m c r :=
  ((congrFun (V30_eq m c) _).symm.trans (GenP.V30_of m (outs m) c r h)).trans (congrFun (V29_eq m c) _)
theorem X31_of (c : Dev nD) (r : Ref sig .tc) (h : r ∉ GenP.hostOps9_2_W) : X31 m c r = X30 m c r :=
  ((congrFun (V31_eq m c) _).symm.trans (GenP.V31_of m (outs m) c r h)).trans (congrFun (V30_eq m c) _)
theorem X32_of (c : Dev nD) (r : Ref sig .tc) (h : r ∉ GenP.hostOps9_3_W) : X32 m c r = X31 m c r :=
  ((congrFun (V32_eq m c) _).symm.trans (GenP.V32_of m (outs m) c r h)).trans (congrFun (V31_eq m c) _)
theorem X33_of (c : Dev nD) (r : Ref sig .tc) (h : r ∉ GenP.hostOps9_4_W) : X33 m c r = X32 m c r :=
  ((congrFun (V33_eq m c) _).symm.trans (GenP.V33_of m (outs m) c r h)).trans (congrFun (V32_eq m c) _)
theorem X34_of (c : Dev nD) (r : Ref sig .tc) (h : r ∉ GenP.hostOps9_5_W) : X34 m c r = X33 m c r :=
  ((congrFun (V34_eq m c) _).symm.trans (GenP.V34_of m (outs m) c r h)).trans (congrFun (V33_eq m c) _)
theorem X35_of (c : Dev nD) (r : Ref sig .tc) (h : r ∉ GenP.hostOps9_6_W) : X35 m c r = X34 m c r :=
  ((congrFun (V35_eq m c) _).symm.trans (GenP.V35_of m (outs m) c r h)).trans (congrFun (V34_eq m c) _)
theorem X36_of (c : Dev nD) (r : Ref sig .tc) (h : r ∉ ([main_v114] : List (Ref sig .tc))) : X36 m c r = X35 m c r :=
  ((congrFun (V36_eq m c) _).symm.trans (GenP.V36_of m (outs m) c r h)).trans (congrFun (V35_eq m c) _)
theorem X37_of (c : Dev nD) (r : Ref sig .tc) (h : r ∉ GenP.hostOps10_W) : X37 m c r = X36 m c r :=
  ((congrFun (V37_eq m c) _).symm.trans (GenP.V37_of m (outs m) c r h)).trans (congrFun (V36_eq m c) _)
theorem X38_of (c : Dev nD) (r : Ref sig .tc) (h : r ∉ ([main_v117] : List (Ref sig .tc))) : X38 m c r = X37 m c r :=
  ((congrFun (V38_eq m c) _).symm.trans (GenP.V38_of m (outs m) c r h)).trans (congrFun (V37_eq m c) _)
theorem X39_of (c : Dev nD) (r : Ref sig .tc) (h : r ∉ GenP.hostOps11_W) : X39 m c r = X38 m c r :=
  ((congrFun (V39_eq m c) _).symm.trans (GenP.V39_of m (outs m) c r h)).trans (congrFun (V38_eq m c) _)
theorem X40_of (c : Dev nD) (r : Ref sig .tc) (h : r ∉ GenP.hostOps11_1_W) : X40 m c r = X39 m c r :=
  ((congrFun (V40_eq m c) _).symm.trans (GenP.V40_of m (outs m) c r h)).trans (congrFun (V39_eq m c) _)
theorem X41_of (c : Dev nD) (r : Ref sig .tc) (h : r ∉ GenP.hostOps11_2_W) : X41 m c r = X40 m c r :=
  ((congrFun (V41_eq m c) _).symm.trans (GenP.V41_of m (outs m) c r h)).trans (congrFun (V40_eq m c) _)
theorem X42_of (c : Dev nD) (r : Ref sig .tc) (h : r ∉ GenP.hostOps11_3_W) : X42 m c r = X41 m c r :=
  ((congrFun (V42_eq m c) _).symm.trans (GenP.V42_of m (outs m) c r h)).trans (congrFun (V41_eq m c) _)
theorem X43_of (c : Dev nD) (r : Ref sig .tc) (h : r ∉ GenP.hostOps11_4_W) : X43 m c r = X42 m c r :=
  ((congrFun (V43_eq m c) _).symm.trans (GenP.V43_of m (outs m) c r h)).trans (congrFun (V42_eq m c) _)
theorem X44_of (c : Dev nD) (r : Ref sig .tc) (h : r ∉ GenP.hostOps11_5_W) : X44 m c r = X43 m c r :=
  ((congrFun (V44_eq m c) _).symm.trans (GenP.V44_of m (outs m) c r h)).trans (congrFun (V43_eq m c) _)
theorem X45_of (c : Dev nD) (r : Ref sig .tc) (h : r ∉ GenP.hostOps11_6_W) : X45 m c r = X44 m c r :=
  ((congrFun (V45_eq m c) _).symm.trans (GenP.V45_of m (outs m) c r h)).trans (congrFun (V44_eq m c) _)
theorem X46_of (c : Dev nD) (r : Ref sig .tc) (h : r ∉ ([main_v139] : List (Ref sig .tc))) : X46 m c r = X45 m c r :=
  ((congrFun (V46_eq m c) _).symm.trans (GenP.V46_of m (outs m) c r h)).trans (congrFun (V45_eq m c) _)
theorem X47_of (c : Dev nD) (r : Ref sig .tc) (h : r ∉ GenP.hostOps12_W) : X47 m c r = X46 m c r :=
  ((congrFun (V47_eq m c) _).symm.trans (GenP.V47_of m (outs m) c r h)).trans (congrFun (V46_eq m c) _)
theorem X48_of (c : Dev nD) (r : Ref sig .tc) (h : r ∉ ([main_v155] : List (Ref sig .tc))) : X48 m c r = X47 m c r :=
  ((congrFun (V48_eq m c) _).symm.trans (GenP.V48_of m (outs m) c r h)).trans (congrFun (V47_eq m c) _)
theorem X49_of (c : Dev nD) (r : Ref sig .tc) (h : r ∉ GenP.hostOps13_W) : X49 m c r = X48 m c r :=
  ((congrFun (V49_eq m c) _).symm.trans (GenP.V49_of m (outs m) c r h)).trans (congrFun (V48_eq m c) _)
theorem X50_of (c : Dev nD) (r : Ref sig .tc) (h : r ∉ ([main_v171] : List (Ref sig .tc))) : X50 m c r = X49 m c r :=
  ((congrFun (V50_eq m c) _).symm.trans (GenP.V50_of m (outs m) c r h)).trans (congrFun (V49_eq m c) _)
theorem X51_of (c : Dev nD) (r : Ref sig .tc) (h : r ∉ GenP.hostOps14_W) : X51 m c r = X50 m c r :=
  ((congrFun (V51_eq m c) _).symm.trans (GenP.V51_of m (outs m) c r h)).trans (congrFun (V50_eq m c) _)

end Cert.KernelIdeal.Hand

end
-- ==== Proof.Spec.lean ====
import proofs.«140582_j49512382988743_1_alg».proof.ReferenceIdeal
import Idealize.ShloMosaic.PureOps.Ideal

noncomputable section

namespace Cert.Spec

open Cert.ReferenceIdeal Idealize.ShloMosaic Cert.ReferenceIdeal.Facts₀

variable [Cert.ReferenceIdeal.Facts₀]

local notation "𝕌" => FVec Ideal S100000x128 FTy.f32
local notation "𝕀" => FVec Ideal S50000x128 FTy.f32
local notation "ℍ" => FVec Ideal S128x128 FTy.f32
local notation "𝔼" => FVec Ideal S1600000 FTy.f32
local notation "ℕ𝔼" => IVec S1600000 32

/-! ## The pointwise activations

`lrelu y = if y ≥ 0 then y else 0.1 · y` and `relu y = max y 0`, each at the three array shapes, the
scalars `0` and `0.1` (the f32 word `0x3DCCCCCD`) broadcast to the array's shape. -/

/-- Leaky rectifier with slope 0.1 on a 128×128 array. -/
def lreluS128 (y : ℍ) : ℍ :=
  select (cmpf (F := Ideal) .oge y (broadcastInDim S128x128 ![] bcast_S_S128x128 (constant (F := Ideal) S_ .f32 0x00000000#32)))
    y (mulf (F := Ideal) (broadcastInDim S128x128 ![] bcast_S_S128x128 (constant (F := Ideal) S_ .f32 0x3DCCCCCD#32)) y)

/-- Leaky rectifier with slope 0.1 on a 100000×128 array. -/
def lreluU (y : 𝕌) : 𝕌 :=
  select (cmpf (F := Ideal) .oge y (broadcastInDim S100000x128 ![] bcast_S_S100000x128 (constant (F := Ideal) S_ .f32 0x00000000#32)))
    y (mulf (F := Ideal) (broadcastInDim S100000x128 ![] bcast_S_S100000x128 (constant (F := Ideal) S_ .f32 0x3DCCCCCD#32)) y)

/-- Leaky rectifier with slope 0.1 on a 50000×128 array. -/
def lreluI (y : 𝕀) : 𝕀 :=
  select (cmpf (F := Ideal) .oge y (broadcastInDim S50000x128 ![] bcast_S_S50000x128 (constant (F := Ideal) S_ .f32 0x00000000#32)))
    y (mulf (F := Ideal) (broadcastInDim S50000x128 ![] bcast_S_S50000x128 (constant (F := Ideal) S_ .f32 0x3DCCCCCD#32)) y)

/-- Rectifier on a 128×128 array. -/
def reluS128 (y : ℍ) : ℍ :=
  maximumf (F := Ideal) y (broadcastInDim S128x128 ![] bcast_S_S128x128 (constant (F := Ideal) S_ .f32 0x00000000#32))

/-- Rectifier on a 100000×128 array. -/
def reluU (y : 𝕌) : 𝕌 :=
  maximumf (F := Ideal) y (broadcastInDim S100000x128 ![] bcast_S_S100000x128 (constant (F := Ideal) S_ .f32 0x00000000#32))

/-- Rectifier on a 50000×128 array. -/
def reluI (y : 𝕀) : 𝕀 :=
  maximumf (F := Ideal) y (broadcastInDim S50000x128 ![] bcast_S_S50000x128 (constant (F := Ideal) S_ .f32 0x00000000#32))

/-! ## The dense stages -/

/-- The hyper-adjacency of the first family: embeddings times the hyper matrix, `[100000,128] · [128,128]`. -/
def hyperU (u0 : 𝕌) (uh : ℍ) : 𝕌 :=
  Host.dotGeneral (F := Ideal) dot_S100000x128_S128x128_S100000x128_1_0_0_1_n_n none u0 uh

/-- The hyper-adjacency of the second family, `[50000,128] · [128,128]`. -/
def hyperI (i0 : 𝕀) (ih : ℍ) : 𝕀 :=
  Host.dotGeneral (F := Ideal) dot_S50000x128_S128x128_S50000x128_1_0_0_1_n_n none i0 ih

/-- The reduction `lrelu (adjᵀ · lats)`: `[128,100000] · [100000,128]`. -/
def redU (adj lats : 𝕌) : ℍ :=
  lreluS128 (Host.dotGeneral (F := Ideal) dot_S128x100000_S100000x128_S128x128_1_0_0_1_n_n none
    (transpose S128x100000 [1, 0] adj transposes_S100000x128_S128x100000_1_0) lats)

/-- The reduction `lrelu (adjᵀ · lats)`: `[128,50000] · [50000,128]`. -/
def redI (adj lats : 𝕀) : ℍ :=
  lreluS128 (Host.dotGeneral (F := Ideal) dot_S128x50000_S50000x128_S128x128_1_0_0_1_n_n none
    (transpose S128x50000 [1, 0] adj transposes_S50000x128_S128x50000_1_0) lats)

/-- Layer 0's three 128×128 matrices out of a `[2,3,128,128]` weight. -/
def wstack0 (W : FVec Ideal S2x3x128x128 FTy.f32) : FVec Ideal S3x128x128 FTy.f32 :=
  shapeCast S3x128x128 (extractStridedSlice S1x3x128x128 ![0, 0, 0, 0] W slices_S2x3x128x128_S1x3x128x128_0_0_0_0)
    shapeCasts_S1x3x128x128_S3x128x128

/-- Layer 1's three 128×128 matrices out of a `[2,3,128,128]` weight. -/
def wstack1 (W : FVec Ideal S2x3x128x128 FTy.f32) : FVec Ideal S3x128x128 FTy.f32 :=
  shapeCast S3x128x128 (extractStridedSlice S1x3x128x128 ![1, 0, 0, 0] W slices_S2x3x128x128_S1x3x128x128_1_0_0_0)
    shapeCasts_S1x3x128x128_S3x128x128

/-- Matrix 0 of a stack of three. -/
def wrow0 (W3 : FVec Ideal S3x128x128 FTy.f32) : ℍ :=
  shapeCast S128x128 (extractStridedSlice S1x128x128 ![0, 0, 0] W3 slices_S3x128x128_S1x128x128_0_0_0) shapeCasts_S1x128x128_S128x128

/-- Matrix 1 of a stack of three. -/
def wrow1 (W3 : FVec Ideal S3x128x128 FTy.f32) : ℍ :=
  shapeCast S128x128 (extractStridedSlice S1x128x128 ![1, 0, 0] W3 slices_S3x128x128_S1x128x128_1_0_0) shapeCasts_S1x128x128_S128x128

/-- Matrix 2 of a stack of three. -/
def wrow2 (W3 : FVec Ideal S3x128x128 FTy.f32) : ℍ :=
  shapeCast S128x128 (extractStridedSlice S1x128x128 ![2, 0, 0] W3 slices_S3x128x128_S1x128x128_2_0_0) shapeCasts_S1x128x128_S128x128

/-- Layer 0's matrix out of a `[2,128,128]` weight. -/
def gslice0 (G : FVec Ideal S2x128x128 FTy.f32) : ℍ :=
  shapeCast S128x128 (extractStridedSlice S1x128x128 ![0, 0, 0] G slices_S2x128x128_S1x128x128_0_0_0) shapeCasts_S1x128x128_S128x128

/-- Layer 1's matrix out of a `[2,128,128]` weight. -/
def gslice1 (G : FVec Ideal S2x128x128 FTy.f32) : ℍ :=
  shapeCast S128x128 (extractStridedSlice S1x128x128 ![1, 0, 0] G slices_S2x128x128_S1x128x128_1_0_0) shapeCasts_S1x128x128_S128x128

/-- One residual block on the transposed latent: `(relu (latᵀ · w))ᵀ + lat`. -/
def fcStep (lat w : ℍ) : ℍ :=
  addf (F := Ideal)
    (transpose S128x128 [1, 0]
      (reluS128 (Host.dotGeneral (F := Ideal) dot_S128x128_S128x128_S128x128_1_0_0_1_n_n none
        (transpose S128x128 [1, 0] lat transposes_S128x128_S128x128_1_0) w))
      transposes_S128x128_S128x128_1_0)
    lat

/-- Three residual blocks in a row. -/
def fc3 (lat w0 w1 w2 : ℍ) : ℍ :=
  fcStep (fcStep (fcStep lat w0) w1) w2

/-- `lrelu (adj · lat)`: `[100000,128] · [128,128]`. -/
def fwdU (adj : 𝕌) (lat : ℍ) : 𝕌 :=
  lreluU (Host.dotGeneral (F := Ideal) dot_S100000x128_S128x128_S100000x128_1_0_0_1_n_n none adj lat)

/-- `lrelu (adj · lat)`: `[50000,128] · [128,128]`. -/
def fwdI (adj : 𝕀) (lat : ℍ) : 𝕀 :=
  lreluI (Host.dotGeneral (F := Ideal) dot_S50000x128_S128x128_S50000x128_1_0_0_1_n_n none adj lat)

/-- The hypergraph stage of the first family: reduce, three residual blocks, expand. -/
def hgnnU (adj lats : 𝕌) (W3 : FVec Ideal S3x128x128 FTy.f32) : 𝕌 :=
  fwdU adj (fc3 (redU adj lats) (wrow0 W3) (wrow1 W3) (wrow2 W3))

/-- The hypergraph stage of the second family. -/
def hgnnI (adj lats : 𝕀) (W3 : FVec Ideal S3x128x128 FTy.f32) : 𝕀 :=
  fwdI adj (fc3 (redI adj lats) (wrow0 W3) (wrow1 W3) (wrow2 W3))

/-! ## The sparse products

`spmmU vals rows cols x = Σ_e vals e · x[cols e]` accumulated at row `rows e` of a zero `[100000,128]` array
(a negative column index first wrapped by `+50000`), and `spmmI` the transposed product. -/

/-- The sparse adjacency times a `[50000,128]` array: gather by `cols`, weight by `vals`, add up by `rows`. -/
def spmmU (vals : 𝔼) (rows cols : ℕ𝔼) (x : 𝕀) : 𝕌 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal)
      (broadcastInDim S1600000x128 ![0, 1] bcast_S1600000x1_S1600000x128_0_1
        (broadcastInDim S1600000x1 ![0] bcast_S1600000_S1600000x1_0 vals))
      (Host.gather gather_S50000x128_S1600000x1_S1600000x128_1_0_n_n_0_1_1128 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 50000#32))) cols))))

/-- The transposed sparse adjacency times a `[100000,128]` array: gather by `rows`, weight by `vals`, add up by `cols`. -/
def spmmI (vals : 𝔼) (rows cols : ℕ𝔼) (x : 𝕌) : 𝕀 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 cols)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 x
        (broadcastInDim S1600000x1 ![0] bcast_S1600000_S1600000x1_0
          (select (cmpi .slt rows (broadcastInDim S1600000 ![] bcast_S_S1600000 (constantI S_ 32 0#32)))
            (addi rows (broadcastInDim S1600000 ![] bcast_S_S1600000 (constantI S_ 32 100000#32))) rows))))

/-- The graph-convolution stage of the first family: `lrelu (relu (s · w))`. -/
def gcnU (s : 𝕌) (w : ℍ) : 𝕌 :=
  lreluU (reluU (Host.dotGeneral (F := Ideal) dot_S100000x128_S128x128_S100000x128_1_0_0_1_n_n none s w))

/-- The graph-convolution stage of the second family. -/
def gcnI (s : 𝕀) (w : ℍ) : 𝕀 :=
  lreluI (reluI (Host.dotGeneral (F := Ideal) dot_S50000x128_S128x128_S50000x128_1_0_0_1_n_n none s w))

/-! ## The two layers over the eleven arguments

`a0, a1` the embeddings, `a2, a3` the hyper matrices, `a4` the edge weights, `a5, a6` the residual blocks' weights,
`a7, a8` the convolutions' weights, `a9` the edges' rows, `a10` their columns. Layer `l` takes `ulat l, ilat l`
(`ulat 0 = a0`, `ilat 0 = a1`) to `ulat (l+1) = (gU l + hU l) + ulat l` and likewise `ilat (l+1)`; the results are
`a0 + ulat 1 + ulat 2` and `a1 + ilat 1 + ilat 2`. Every stage below is a function of all eleven arguments, in this order. -/

section Layers

/-- `a0 · a2`. -/
def uuHyper (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := hyperU a0 a2
/-- `a1 · a3`. -/
def iiHyper (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := hyperI a1 a3

/-- Layer 0, hypergraph stage, first family. -/
def hU0 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := hgnnU (uuHyper a0 a1 a2 a3 a4 a5 a6 a7 a8 a9 a10) a0 (wstack0 a5)
/-- Layer 0, hypergraph stage, second family. -/
def hI0 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := hgnnI (iiHyper a0 a1 a2 a3 a4 a5 a6 a7 a8 a9 a10) a1 (wstack0 a6)
/-- Layer 0, graph convolution, first family. -/
def gU0 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := gcnU (spmmU a4 a9 a10 a1) (gslice0 a7)
/-- Layer 0, graph convolution, second family. -/
def gI0 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := gcnI (spmmI a4 a9 a10 a0) (gslice0 a8)
/-- `ulat 1 = (gU 0 + hU 0) + a0`. -/
def ulat1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := addf (F := Ideal) (addf (F := Ideal) (gU0 a0 a1 a2 a3 a4 a5 a6 a7 a8 a9 a10) (hU0 a0 a1 a2 a3 a4 a5 a6 a7 a8 a9 a10)) a0
/-- `ilat 1 = (gI 0 + hI 0) + a1`. -/
def ilat1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := addf (F := Ideal) (addf (F := Ideal) (gI0 a0 a1 a2 a3 a4 a5 a6 a7 a8 a9 a10) (hI0 a0 a1 a2 a3 a4 a5 a6 a7 a8 a9 a10)) a1
/-- `a0 + ulat 1`. -/
def uSum1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := addf (F := Ideal) a0 (ulat1 a0 a1 a2 a3 a4 a5 a6 a7 a8 a9 a10)
/-- `a1 + ilat 1`. -/
def iSum1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := addf (F := Ideal) a1 (ilat1 a0 a1 a2 a3 a4 a5 a6 a7 a8 a9 a10)

/-- Layer 1, hypergraph stage, first family. -/
def hU1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := hgnnU (uuHyper a0 a1 a2 a3 a4 a5 a6 a7 a8 a9 a10) (ulat1 a0 a1 a2 a3 a4 a5 a6 a7 a8 a9 a10) (wstack1 a5)
/-- Layer 1, hypergraph stage, second family. -/
def hI1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := hgnnI (iiHyper a0 a1 a2 a3 a4 a5 a6 a7 a8 a9 a10) (ilat1 a0 a1 a2 a3 a4 a5 a6 a7 a8 a9 a10) (wstack1 a6)
/-- Layer 1, graph convolution, first family. -/
def gU1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := gcnU (spmmU a4 a9 a10 (ilat1 a0 a1 a2 a3 a4 a5 a6 a7 a8 a9 a10)) (gslice1 a7)
/-- Layer 1, graph convolution, second family. -/
def gI1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := gcnI (spmmI a4 a9 a10 (ulat1 a0 a1 a2 a3 a4 a5 a6 a7 a8 a9 a10)) (gslice1 a8)
/-- `ulat 2 = (gU 1 + hU 1) + ulat 1`. -/
def ulat2 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := addf (F := Ideal) (addf (F := Ideal) (gU1 a0 a1 a2 a3 a4 a5 a6 a7 a8 a9 a10) (hU1 a0 a1 a2 a3 a4 a5 a6 a7 a8 a9 a10)) (ulat1 a0 a1 a2 a3 a4 a5 a6 a7 a8 a9 a10)
/-- `ilat 2 = (gI 1 + hI 1) + ilat 1`. -/
def ilat2 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := addf (F := Ideal) (addf (F := Ideal) (gI1 a0 a1 a2 a3 a4 a5 a6 a7 a8 a9 a10) (hI1 a0 a1 a2 a3 a4 a5 a6 a7 a8 a9 a10)) (ilat1 a0 a1 a2 a3 a4 a5 a6 a7 a8 a9 a10)

/-- The first result: `(a0 + ulat 1) + ulat 2`. -/
def out0 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕌 := addf (F := Ideal) (uSum1 a0 a1 a2 a3 a4 a5 a6 a7 a8 a9 a10) (ulat2 a0 a1 a2 a3 a4 a5 a6 a7 a8 a9 a10)
/-- The second result: `(a1 + ilat 1) + ilat 2`. -/
def out1 (a0 : 𝕌) (a1 : 𝕀) (a2 a3 : ℍ) (a4 : 𝔼) (a5 a6 : FVec Ideal S2x3x128x128 FTy.f32)
    (a7 a8 : FVec Ideal S2x128x128 FTy.f32) (a9 a10 : ℕ𝔼) : 𝕀 := addf (F := Ideal) (iSum1 a0 a1 a2 a3 a4 a5 a6 a7 a8 a9 a10) (ilat2 a0 a1 a2 a3 a4 a5 a6 a7 a8 a9 a10)

end Layers

end Cert.Spec

end
-- ==== Proof.HostVal.lean ====
/-
  The kernel program's host stretches read back: what each stretch between two regions leaves in the buffers a later
  item reads, as the specification's stage of the buffers it found. The host lines are the reference's own lines, so
  each equation is the operations' results composed, read against the stage's definition.
-/
import proofs.«140582_j49512382988743_1_alg».proof.Proof.Keep
import proofs.«140582_j49512382988743_1_alg».proof.Proof.Spec
import proofs.«140582_j49512382988743_1_alg».proof.Proof.Gen.ReferenceIdeal
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

set_option maxHeartbeats 4000000 in
theorem hg3_v3 (c : Dev nD) : X3 m c main_v3 = Cert.Spec.wstack0 (X2 m c main_arg5) := by
  unfold X3
  dsimp only [hostOps2]
  after_results_simp <;> rfl
set_option maxHeartbeats 4000000 in
theorem hg11_v25 (c : Dev nD) : X11 m c main_v25 = Cert.Spec.fc3 (X4 m c main_v4) (Cert.Spec.wrow0 (X4 m c main_v3)) (Cert.Spec.wrow1 (X4 m c main_v3)) (Cert.Spec.wrow2 (X4 m c main_v3)) := by
  unfold X11 X10 X9 X8 X7 X6 X5
  dsimp only [hostOps3_6, hostOps3_5, hostOps3_4, hostOps3_3, hostOps3_2, hostOps3_1, hostOps3]
  after_results_simp <;> rfl
set_option maxHeartbeats 4000000 in
theorem hg13_v28 (c : Dev nD) : X13 m c main_v28 = Cert.Spec.wstack0 (X12 m c main_arg6) := by
  unfold X13
  dsimp only [hostOps4]
  after_results_simp <;> rfl
set_option maxHeartbeats 4000000 in
theorem hg21_v50 (c : Dev nD) : X21 m c main_v50 = Cert.Spec.fc3 (X14 m c main_v29) (Cert.Spec.wrow0 (X14 m c main_v28)) (Cert.Spec.wrow1 (X14 m c main_v28)) (Cert.Spec.wrow2 (X14 m c main_v28)) := by
  unfold X21 X20 X19 X18 X17 X16 X15
  dsimp only [hostOps5_6, hostOps5_5, hostOps5_4, hostOps5_3, hostOps5_2, hostOps5_1, hostOps5]
  after_results_simp <;> rfl
set_option maxHeartbeats 4000000 in
theorem hg23_v64 (c : Dev nD) : X23 m c main_v64 = Cert.Spec.spmmU (X22 m c main_arg4) (X22 m c main_arg9) (X22 m c main_arg10) (X22 m c main_arg1) := by
  unfold X23
  dsimp only [hostOps6]
  after_results_simp <;> rfl
set_option maxHeartbeats 4000000 in
theorem hg23_v66 (c : Dev nD) : X23 m c main_v66 = Cert.Spec.gslice0 (X22 m c main_arg7) := by
  unfold X23
  dsimp only [hostOps6]
  after_results_simp <;> rfl
set_option maxHeartbeats 4000000 in
theorem hg25_v80 (c : Dev nD) : X25 m c main_v80 = Cert.Spec.spmmI (X24 m c main_arg4) (X24 m c main_arg9) (X24 m c main_arg10) (X24 m c main_arg0) := by
  unfold X25
  dsimp only [hostOps7]
  after_results_simp <;> rfl
set_option maxHeartbeats 4000000 in
theorem hg25_v82 (c : Dev nD) : X25 m c main_v82 = Cert.Spec.gslice0 (X24 m c main_arg8) := by
  unfold X25
  dsimp only [hostOps7]
  after_results_simp <;> rfl
set_option maxHeartbeats 4000000 in
theorem hg27_v85 (c : Dev nD) : X27 m c main_v85 = addf (F := Ideal) ((addf (F := Ideal) ((X26 m c main_v67) : FVec Ideal S100000x128 .f32) (X26 m c main_v26)) : FVec Ideal S100000x128 .f32) (X26 m c main_arg0) := by
  unfold X27
  dsimp only [hostOps8]
  after_results_simp <;> rfl
set_option maxHeartbeats 4000000 in
theorem hg27_v87 (c : Dev nD) : X27 m c main_v87 = addf (F := Ideal) ((addf (F := Ideal) ((X26 m c main_v83) : FVec Ideal S50000x128 .f32) (X26 m c main_v51)) : FVec Ideal S50000x128 .f32) (X26 m c main_arg1) := by
  unfold X27
  dsimp only [hostOps8]
  after_results_simp <;> rfl
set_option maxHeartbeats 4000000 in
theorem hg27_v88 (c : Dev nD) : X27 m c main_v88 = addf (F := Ideal) ((X26 m c main_arg0) : FVec Ideal S100000x128 .f32) (addf (F := Ideal) ((addf (F := Ideal) ((X26 m c main_v67) : FVec Ideal S100000x128 .f32) (X26 m c main_v26)) : FVec Ideal S100000x128 .f32) (X26 m c main_arg0)) := by
  unfold X27
  dsimp only [hostOps8]
  after_results_simp <;> rfl
set_option maxHeartbeats 4000000 in
theorem hg27_v89 (c : Dev nD) : X27 m c main_v89 = addf (F := Ideal) ((X26 m c main_arg1) : FVec Ideal S50000x128 .f32) (addf (F := Ideal) ((addf (F := Ideal) ((X26 m c main_v83) : FVec Ideal S50000x128 .f32) (X26 m c main_v51)) : FVec Ideal S50000x128 .f32) (X26 m c main_arg1)) := by
  unfold X27
  dsimp only [hostOps8]
  after_results_simp <;> rfl
set_option maxHeartbeats 4000000 in
theorem hg27_v91 (c : Dev nD) : X27 m c main_v91 = Cert.Spec.wstack1 (X26 m c main_arg5) := by
  unfold X27
  dsimp only [hostOps8]
  after_results_simp <;> rfl
set_option maxHeartbeats 4000000 in
theorem hg35_v113 (c : Dev nD) : X35 m c main_v113 = Cert.Spec.fc3 (X28 m c main_v92) (Cert.Spec.wrow0 (X28 m c main_v91)) (Cert.Spec.wrow1 (X28 m c main_v91)) (Cert.Spec.wrow2 (X28 m c main_v91)) := by
  unfold X35 X34 X33 X32 X31 X30 X29
  dsimp only [hostOps9_6, hostOps9_5, hostOps9_4, hostOps9_3, hostOps9_2, hostOps9_1, hostOps9]
  after_results_simp <;> rfl
set_option maxHeartbeats 4000000 in
theorem hg37_v116 (c : Dev nD) : X37 m c main_v116 = Cert.Spec.wstack1 (X36 m c main_arg6) := by
  unfold X37
  dsimp only [hostOps10]
  after_results_simp <;> rfl
set_option maxHeartbeats 4000000 in
theorem hg45_v138 (c : Dev nD) : X45 m c main_v138 = Cert.Spec.fc3 (X38 m c main_v117) (Cert.Spec.wrow0 (X38 m c main_v116)) (Cert.Spec.wrow1 (X38 m c main_v116)) (Cert.Spec.wrow2 (X38 m c main_v116)) := by
  unfold X45 X44 X43 X42 X41 X40 X39
  dsimp only [hostOps11_6, hostOps11_5, hostOps11_4, hostOps11_3, hostOps11_2, hostOps11_1, hostOps11]
  after_results_simp <;> rfl
set_option maxHeartbeats 4000000 in
theorem hg47_v152 (c : Dev nD) : X47 m c main_v152 = Cert.Spec.spmmU (X46 m c main_arg4) (X46 m c main_arg9) (X46 m c main_arg10) (X46 m c main_v87) := by
  unfold X47
  dsimp only [hostOps12]
  after_results_simp <;> rfl
set_option maxHeartbeats 4000000 in
theorem hg47_v154 (c : Dev nD) : X47 m c main_v154 = Cert.Spec.gslice1 (X46 m c main_arg7) := by
  unfold X47
  dsimp only [hostOps12]
  after_results_simp <;> rfl
set_option maxHeartbeats 4000000 in
theorem hg49_v168 (c : Dev nD) : X49 m c main_v168 = Cert.Spec.spmmI (X48 m c main_arg4) (X48 m c main_arg9) (X48 m c main_arg10) (X48 m c main_v85) := by
  unfold X49
  dsimp only [hostOps13]
  after_results_simp <;> rfl
set_option maxHeartbeats 4000000 in
theorem hg49_v170 (c : Dev nD) : X49 m c main_v170 = Cert.Spec.gslice1 (X48 m c main_arg8) := by
  unfold X49
  dsimp only [hostOps13]
  after_results_simp <;> rfl
set_option maxHeartbeats 4000000 in
theorem hg51_v176 (c : Dev nD) : X51 m c main_v176 = addf (F := Ideal) ((X50 m c main_v88) : FVec Ideal S100000x128 .f32) (addf (F := Ideal) ((addf (F := Ideal) ((X50 m c main_v155) : FVec Ideal S100000x128 .f32) (X50 m c main_v114)) : FVec Ideal S100000x128 .f32) (X50 m c main_v85)) := by
  unfold X51
  dsimp only [hostOps14]
  after_results_simp <;> rfl
set_option maxHeartbeats 4000000 in
theorem hg51_v177 (c : Dev nD) : X51 m c main_v177 = addf (F := Ideal) ((X50 m c main_v89) : FVec Ideal S50000x128 .f32) (addf (F := Ideal) ((addf (F := Ideal) ((X50 m c main_v171) : FVec Ideal S50000x128 .f32) (X50 m c main_v139)) : FVec Ideal S50000x128 .f32) (X50 m c main_v87)) := by
  unfold X51
  dsimp only [hostOps14]
  after_results_simp <;> rfl

end Cert.KernelIdeal.Hand

end
-- ==== Proof.LibPlainDot.lean ====
/-
  The plain matrix product `M×K` by `K×N` (dimension numbers `[1] × [0]`, no batch axis) read at an entry, at the exact instance,
  for any extents: entry `(p, q)` is `Σ_k x p k · w k q` over the `K` contracted positions — for the vector unit's product onto a
  zero accumulator, onto any accumulator (the accumulator's entry added), and for the host's `dot_general`. A printed dimension
  record of this form differs from `DotDims.plain M K N` only in the proof of its well-formedness, so it equals it by `rfl`, and
  these lemmas then apply to the printed record after one rewrite.
-/
import Idealize.ShloMosaic.Lib.ValueIdx
import Idealize.ShloMosaic.PureOps.Ideal.Laws

noncomputable section

open Idealize.ShloMosaic ValueIdx

namespace LibPlainDot

variable (M K N : ℕ)

/-- The contracted positions of the plain product are `Fin K`. -/
abbrev contrK : (DotDims.plain M K N).contr.Idx ≃ Fin K := contrEquiv1 (DotDims.plain M K N) K rfl rfl

/-- The left operand's entry a product term reads: the output entry's row, the contraction's position. -/
theorem lhs_at (p : Fin M) (q : Fin N) (k : Fin K) :
    (DotDims.plain M K N).lhsIdx (ix2 p q) ((contrK M K N).symm k) = ix2 p k := by
  funext a
  match a with
  | ⟨0, _⟩ => exact Fin.ext rfl
  | ⟨1, _⟩ => exact Fin.ext ((DotDims.lhsIdx_val_of_single (DotDims.plain M K N) (cl := ⟨1, Nat.one_lt_two⟩) rfl _ _).trans
      (contrEquiv1_symm_val (DotDims.plain M K N) K rfl rfl k))

/-- The right operand's entry: the contraction's position, the output entry's column. -/
theorem rhs_at (p : Fin M) (q : Fin N) (k : Fin K) :
    (DotDims.plain M K N).rhsIdx (ix2 p q) ((contrK M K N).symm k) = ix2 k q := by
  funext a
  match a with
  | ⟨0, _⟩ => exact Fin.ext ((DotDims.rhsIdx_val_of_single (DotDims.plain M K N) (cr := ⟨0, Nat.two_pos⟩) rfl _ _).trans
      (contrEquiv1_symm_val (DotDims.plain M K N) K rfl rfl k))
  | ⟨1, _⟩ => exact Fin.ext rfl

/-- The contraction of the plain product, re-indexed by `Fin K`. -/
theorem sum_at {φ₁ φ₂ : FTy} (x : FVec Ideal ⟨2, ![M, K]⟩ φ₁) (w : FVec Ideal ⟨2, ![K, N]⟩ φ₂) (p : Fin M) (q : Fin N) :
    (∑ k : (DotDims.plain M K N).contr.Idx, x ((DotDims.plain M K N).lhsIdx (ix2 p q) k) * w ((DotDims.plain M K N).rhsIdx (ix2 p q) k))
      = ∑ k : Fin K, x (ix2 p k) * w (ix2 k q) := by
  rw [← Equiv.sum_comp (contrK M K N).symm]
  exact Finset.sum_congr rfl fun k _ => by rw [lhs_at, rhs_at]

/-- The vector unit's product onto a zero accumulator, at an entry. -/
theorem matmul_zero_at {φ₁ φ₂ : FTy} (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant (F := Ideal) ⟨2, ![M, N]⟩ .f32 0x00000000#32) (ix2 p q)
      = ∑ k : Fin K, x (ix2 p k) * w (ix2 k q) :=
  (Ideal.matmul_constant_zero_apply (DotDims.plain M K N) prec x w (ix2 p q)).trans (sum_at M K N x w p q)

/-- The vector unit's product onto any accumulator, at an entry: the accumulator's entry plus the contraction. -/
theorem matmul_at {φ₁ φ₂ : FTy} (prec : Option ContractPrecision) (x : FVec Ideal ⟨2, ![M, K]⟩ φ₁) (w : FVec Ideal ⟨2, ![K, N]⟩ φ₂)
    (acc : FVec Ideal ⟨2, ![M, N]⟩ .f32) (p : Fin M) (q : Fin N) :
    FloatOps.matmul (DotDims.plain M K N) prec x w acc (ix2 p q) = acc (ix2 p q) + ∑ k : Fin K, x (ix2 p k) * w (ix2 k q) :=
  (Ideal.matmul_apply (DotDims.plain M K N) prec x w acc (ix2 p q)).trans (congrArg (acc (ix2 p q) + ·) (sum_at M K N x w p q))

/-- The host's `dot_general`, at an entry: the same contraction. -/
theorem dotGeneral_at {φ₁ φ₂ : FTy} (prec : Option ContractPrecision) (x : FVec Ideal ⟨2, ![M, K]⟩ φ₁) (w : FVec Ideal ⟨2, ![K, N]⟩ φ₂)
    (p : Fin M) (q : Fin N) :
    Host.dotGeneral (DotDims.plain M K N) prec x w (ix2 p q) = ∑ k : Fin K, x (ix2 p k) * w (ix2 k q) :=
  (Ideal.dotGeneral_apply (DotDims.plain M K N) prec .single x w (ix2 p q)).trans (sum_at M K N x w p q)

end LibPlainDot

end
-- ==== Proof.LibTnDot.lean ====
/-
  The matrix product with the LEFT operand transposed: `K×M` by `K×N` (dimension numbers `[0] × [0]`, no batch axis), read at
  an entry, at the exact instance, for any extents: entry `(i, j)` is `Σ_r a r i · b r j` over the `K` contracted positions —
  the rows of both operands. It is stated for the vector unit's product onto a zero accumulator and onto any accumulator
  (the accumulator's entry added). A printed dimension record of this form differs from `tn K M N` only in the proof of its
  well-formedness, so it equals it by `rfl`, and these lemmas then apply to the printed record after one rewrite.
  Beside it, the host's way of writing the same product: the transpose of the left operand (`M×K`) followed by the plain
  product with the right one; at an entry it is the same sum.
-/
import Idealize.ShloMosaic.Lib.ValueIdx
import Idealize.ShloMosaic.Lib.Pipeline.Value
import Idealize.ShloMosaic.PureOps.Ideal.Laws

noncomputable section

open Idealize.ShloMosaic ValueIdx

namespace LibTnDot

variable (K M N : ℕ)

/-- `<[0], [0], [1], [1], [0, 1, 1, 1], [], []>`: `K×M` by `K×N`, both operands contracted on their first axis. -/
def tn : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contracted positions are `Fin K`. -/
abbrev contrK : (tn K M N).contr.Idx ≃ Fin K := contrEquiv1 (tn K M N) K rfl rfl

/-- The left operand's entry a product term reads: the contraction's position, the output entry's row. -/
theorem lhs_at (i : Fin M) (j : Fin N) (r : Fin K) :
    (tn K M N).lhsIdx (ix2 i j) ((contrK K M N).symm r) = ix2 r i := by
  funext a
  match a with
  | ⟨0, _⟩ => exact Fin.ext ((DotDims.lhsIdx_val_of_single (tn K M N) (cl := ⟨0, Nat.two_pos⟩) rfl _ _).trans
      (contrEquiv1_symm_val (tn K M N) K rfl rfl r))
  | ⟨1, _⟩ => exact Fin.ext rfl

/-- The right operand's entry: the contraction's position, the output entry's column. -/
theorem rhs_at (i : Fin M) (j : Fin N) (r : Fin K) :
    (tn K M N).rhsIdx (ix2 i j) ((contrK K M N).symm r) = ix2 r j := by
  funext a
  match a with
  | ⟨0, _⟩ => exact Fin.ext ((DotDims.rhsIdx_val_of_single (tn K M N) (cr := ⟨0, Nat.two_pos⟩) rfl _ _).trans
      (contrEquiv1_symm_val (tn K M N) K rfl rfl r))
  | ⟨1, _⟩ => exact Fin.ext rfl

/-- The contraction, re-indexed by `Fin K`. -/
theorem sum_at {φ₁ φ₂ : FTy} (a : FVec Ideal ⟨2, ![K, M]⟩ φ₁) (b : FVec Ideal ⟨2, ![K, N]⟩ φ₂) (i : Fin M) (j : Fin N) :
    (∑ k : (tn K M N).contr.Idx, a ((tn K M N).lhsIdx (ix2 i j) k) * b ((tn K M N).rhsIdx (ix2 i j) k))
      = ∑ r : Fin K, a (ix2 r i) * b (ix2 r j) := by
  rw [← Equiv.sum_comp (contrK K M N).symm]
  exact Finset.sum_congr rfl fun r _ => by rw [lhs_at, rhs_at]

/-- The vector unit's product onto a zero accumulator, at an entry. -/
theorem matmul_zero_at {φ₁ φ₂ : FTy} (prec : Option ContractPrecision) (a : FVec Ideal ⟨2, ![K, M]⟩ φ₁) (b : FVec Ideal ⟨2, ![K, N]⟩ φ₂)
    (i : Fin M) (j : Fin N) :
    FloatOps.matmul (tn K M N) prec a b (constant (F := Ideal) ⟨2, ![M, N]⟩ .f32 0x00000000#32) (ix2 i j)
      = ∑ r : Fin K, a (ix2 r i) * b (ix2 r j) :=
  (Ideal.matmul_constant_zero_apply (tn K M N) prec a b (ix2 i j)).trans (sum_at K M N a b i j)

/-- The vector unit's product onto any accumulator, at an entry: the accumulator's entry plus the contraction. -/
theorem matmul_at {φ₁ φ₂ : FTy} (prec : Option ContractPrecision) (a : FVec Ideal ⟨2, ![K, M]⟩ φ₁) (b : FVec Ideal ⟨2, ![K, N]⟩ φ₂)
    (acc : FVec Ideal ⟨2, ![M, N]⟩ .f32) (i : Fin M) (j : Fin N) :
    FloatOps.matmul (tn K M N) prec a b acc (ix2 i j) = acc (ix2 i j) + ∑ r : Fin K, a (ix2 r i) * b (ix2 r j) :=
  (Ideal.matmul_apply (tn K M N) prec a b acc (ix2 i j)).trans (congrArg (acc (ix2 i j) + ·) (sum_at K M N a b i j))

/-- The transpose of a `K×M` array read at an entry `(i, r)` of the `M×K` result: the array's entry `(r, i)`. -/
theorem transpose_at {α : Type} (x : (⟨2, ![K, M]⟩ : Shape).Idx → α)
    (h : (⟨2, ![K, M]⟩ : Shape).Transposes [1, 0] ⟨2, ![M, K]⟩) (i : Fin M) (r : Fin K) :
    transpose ⟨2, ![M, K]⟩ [1, 0] x h (ix2 i r) = x (ix2 r i) :=
  transpose_apply [1, 0] x h (ix2 i r) (ix2 r i) fun b => by
    match b with
    | ⟨0, _⟩ => rfl
    | ⟨1, _⟩ => rfl

end LibTnDot

end
-- ==== Proof.LibLeaky.lean ====
/-
  The leaky rectifier and the rectifier on the extended reals, and the vector operations that compute them read at an entry.

  The leaky rectifier keeps a value that is not negative and multiplies a negative one by a slope; here the slope is the
  extended real that the single-precision word `0x3DCCCCCD` denotes (the nearest single-precision value to one tenth), kept as
  that word and never evaluated: both programs carry the same word, so the two sides meet in one closed form `lrelu`.
  A program computes it as a select on the comparison "the value is at least zero" between the value and the slope times the
  value; the zero it compares against is the word `0x00000000`, which denotes the extended real `0`. The rectifier is the
  maximum with that same zero, `relu y = max y 0`. Since `max y 0` is never negative, the leaky rectifier after the
  rectifier is the rectifier.

  Two spellings of each are read here at an entry, over any shape: the vector unit's (the compared zero and the slope are
  scalars broadcast to the shape) and the host's (they are rank-0 arrays broadcast in dimension, the slope arriving through
  a format conversion, which is the identity on extended reals).
-/
import Idealize.ShloMosaic.Lib.ValueIdx
import Idealize.ShloMosaic.Lib.IdealHost
import Idealize.ShloMosaic.PureOps.Ideal.Laws

noncomputable section

open Idealize.ShloMosaic ValueIdx

namespace LibLeaky

/-- The leaky rectifier with the slope word `0x3DCCCCCD`: a value that is at least zero is kept, a negative one is multiplied
    by the slope (the slope on the left, as both programs multiply). -/
def lrelu (y : EReal) : EReal := if 0 ≤ y then y else Ideal.ofBits .f32 0x3DCCCCCD#32 * y

/-- The rectifier: the maximum with zero. -/
def relu (y : EReal) : EReal := max y 0

/-- The rectifier's value is never negative, so the leaky rectifier leaves it as it is. -/
theorem lrelu_relu (y : EReal) : lrelu (relu y) = relu y := if_pos (le_max_right y 0)

/-- The select between a value and a slope times the value, on the comparison "the value is at least zero": with any slope
    `c`, the value where it is at least zero and `c` times it elsewhere. The compared zero is the single-precision zero word. -/
theorem select_oge_zero (c y : EReal) :
    Scalar.select (FloatOps.cmpf (F := Ideal) (φ := .f32) .oge y (Ideal.ofBits .f32 0x00000000#32)) y (c * y)
      = if 0 ≤ y then y else c * y := by
  rw [Ideal.cmpf_def, Ideal.ofBits_zero_f32]
  unfold Ideal.cmp
  by_cases h : (0 : EReal) ≤ y
  · rw [if_pos h]; simp only [h, decide_true, BitVec.ofBool_true]; exact select_one _ _
  · rw [if_neg h]; simp only [h, decide_false, BitVec.ofBool_false]; exact select_zero _ _

/-- The maximum with the single-precision zero word is the rectifier. -/
theorem max_zero_word (y : EReal) : max y (Ideal.ofBits .f32 0x00000000#32) = relu y := by
  rw [Ideal.ofBits_zero_f32]; rfl

section Vector
variable {s : Shape}

/-- The vector unit's leaky rectifier at an entry: compare with a broadcast zero, multiply by a broadcast slope, select. -/
theorem vec_lrelu_apply (x : FVec Ideal s .f32) (i : s.Idx) :
    select (cmpf .oge x (broadcast s (Scalar.ofBits (F := Ideal) .f32 0x00000000#32))) x
        (mulf (broadcast s (Scalar.ofBits (F := Ideal) .f32 0x3DCCCCCD#32)) x) i
      = lrelu (x i) :=
  select_oge_zero (Ideal.ofBits .f32 0x3DCCCCCD#32) (x i)

/-- The vector unit's rectifier at an entry: the maximum with a broadcast zero. -/
theorem vec_relu_apply (x : FVec Ideal s .f32) (i : s.Idx) :
    maximumf x (broadcast s (Scalar.ofBits (F := Ideal) .f32 0x00000000#32)) i = relu (x i) :=
  max_zero_word (x i)

/-- The host's leaky rectifier at an entry, with any rank-0 slope array `α` (it passes through a conversion, the identity):
    the value where it is at least zero, the slope's one entry times it elsewhere. -/
theorem host_leaky_apply (h : (⟨0, ![]⟩ : Shape).BroadcastsInDim s ![]) (x : FVec Ideal s .f32)
    (α : FVec Ideal ⟨0, ![]⟩ .f32) (i : s.Idx) :
    select (cmpf .oge x (broadcastInDim s ![] h (constant (F := Ideal) ⟨0, ![]⟩ .f32 0x00000000#32))) x
        (mulf (broadcastInDim s ![] h (id α)) x) i
      = if 0 ≤ x i then x i else α ix0 * x i := by
  rw [select_apply, cmpf_apply, mulf_apply, broadcastInDim_scalar_apply, broadcastInDim_scalar_apply]
  exact select_oge_zero (α ix0) (x i)

/-- The host's leaky rectifier at an entry when the slope array is the constant of the word `0x3DCCCCCD`: the same `lrelu`. -/
theorem host_lrelu_apply (h : (⟨0, ![]⟩ : Shape).BroadcastsInDim s ![]) (x : FVec Ideal s .f32) (i : s.Idx) :
    select (cmpf .oge x (broadcastInDim s ![] h (constant (F := Ideal) ⟨0, ![]⟩ .f32 0x00000000#32))) x
        (mulf (broadcastInDim s ![] h (id (constant (F := Ideal) ⟨0, ![]⟩ .f32 0x3DCCCCCD#32))) x) i
      = lrelu (x i) :=
  host_leaky_apply h x _ i

/-- The host's rectifier at an entry: the maximum with a rank-0 zero broadcast in dimension. -/
theorem host_relu_apply (h : (⟨0, ![]⟩ : Shape).BroadcastsInDim s ![]) (x : FVec Ideal s .f32) (i : s.Idx) :
    maximumf x (broadcastInDim s ![] h (constant (F := Ideal) ⟨0, ![]⟩ .f32 0x00000000#32)) i = relu (x i) := by
  rw [maximumf_apply, broadcastInDim_scalar_apply]
  exact max_zero_word (x i)

end Vector

end LibLeaky

end
-- ==== Proof.ValRef.lean ====
/-
  The reference's host operations, read at one entry, at the exact instance: the same closed forms the kernel's bodies have.

  A product of a tall array with a 128×128 weight is, at `(p, q)`, `∑ k, X p k · W k q`. The product "transposed array times
  array" — the reference transposes the left operand first and then multiplies plainly — is, at `(i, j)`, the contraction
  `∑ R, A R i · B R j` over all the rows of the two arrays. The leaky rectifier (compare with a broadcast zero, multiply by a
  broadcast slope that arrives through a conversion, select) and the rectifier (maximum with a broadcast zero) are, at each
  entry, the same functions `lrelu` and `relu` of that entry as on the kernel's side: both programs carry the slope as the
  word `0x3DCCCCCD` and the zero as the word `0x00000000`, and both compare "the value is at least zero".
  Every shape fact (a transpose's, a broadcast's) is taken as an arbitrary proof, so a statement here applies whichever
  proof a program carries.
-/
import proofs.«140582_j49512382988743_1_alg».proof.Proof.Gen.ReferenceIdeal
import proofs.«140582_j49512382988743_1_alg».proof.Proof.LibPlainDot
import proofs.«140582_j49512382988743_1_alg».proof.Proof.LibTnDot
import proofs.«140582_j49512382988743_1_alg».proof.Proof.LibLeaky

noncomputable section

open Idealize.ShloMosaic ValueIdx
open Cert.ReferenceIdeal
open LibLeaky (lrelu relu)

namespace Cert.ReferenceIdeal.Val

/-! ## The products -/

/-- The printed dimension records are plain products (row axis kept, one contracted axis, column axis kept). -/
theorem dims_u : dot_S100000x128_S128x128_S100000x128_1_0_0_1_n_n = DotDims.plain 100000 128 128 := rfl
theorem dims_i : dot_S50000x128_S128x128_S50000x128_1_0_0_1_n_n = DotDims.plain 50000 128 128 := rfl
theorem dims_h : dot_S128x128_S128x128_S128x128_1_0_0_1_n_n = DotDims.plain 128 128 128 := rfl
theorem dims_ut : dot_S128x100000_S100000x128_S128x128_1_0_0_1_n_n = DotDims.plain 128 100000 128 := rfl
theorem dims_it : dot_S128x50000_S50000x128_S128x128_1_0_0_1_n_n = DotDims.plain 128 50000 128 := rfl

/-- A 100000-row array times a 128×128 weight, at `(p, q)`. -/
theorem dot_u_at (X : Vec Ideal S100000x128 .f32) (W : Vec Ideal S128x128 .f32) (p : Fin 100000) (q : Fin 128) :
    Host.dotGeneral (F := Ideal) (φ₁ := .f32) (φ₂ := .f32) dot_S100000x128_S128x128_S100000x128_1_0_0_1_n_n none X W (ix2 p q) = ∑ k : Fin 128, X (ix2 p k) * W (ix2 k q) :=
  LibPlainDot.dotGeneral_at 100000 128 128 none X W p q

/-- A 50000-row array times a 128×128 weight, at `(p, q)`. -/
theorem dot_i_at (X : Vec Ideal S50000x128 .f32) (W : Vec Ideal S128x128 .f32) (p : Fin 50000) (q : Fin 128) :
    Host.dotGeneral (F := Ideal) (φ₁ := .f32) (φ₂ := .f32) dot_S50000x128_S128x128_S50000x128_1_0_0_1_n_n none X W (ix2 p q) = ∑ k : Fin 128, X (ix2 p k) * W (ix2 k q) :=
  LibPlainDot.dotGeneral_at 50000 128 128 none X W p q

/-- A 128×128 array times a 128×128 weight, at `(p, q)`. -/
theorem dot_h_at (X W : Vec Ideal S128x128 .f32) (p q : Fin 128) :
    Host.dotGeneral (F := Ideal) (φ₁ := .f32) (φ₂ := .f32) dot_S128x128_S128x128_S128x128_1_0_0_1_n_n none X W (ix2 p q) = ∑ k : Fin 128, X (ix2 p k) * W (ix2 k q) :=
  LibPlainDot.dotGeneral_at 128 128 128 none X W p q

/-- The transposes read at an entry: the operand's entry with the two coordinates exchanged. -/
theorem transpose_u_at {α : Type} (A : S100000x128.Idx → α) (h : S100000x128.Transposes [1, 0] S128x100000) (i : Fin 128) (R : Fin 100000) :
    transpose S128x100000 [1, 0] A h (ix2 i R) = A (ix2 R i) := LibTnDot.transpose_at 100000 128 A h i R
theorem transpose_i_at {α : Type} (A : S50000x128.Idx → α) (h : S50000x128.Transposes [1, 0] S128x50000) (i : Fin 128) (R : Fin 50000) :
    transpose S128x50000 [1, 0] A h (ix2 i R) = A (ix2 R i) := LibTnDot.transpose_at 50000 128 A h i R
theorem transpose_h_at {α : Type} (A : S128x128.Idx → α) (h : S128x128.Transposes [1, 0] S128x128) (i j : Fin 128) :
    transpose S128x128 [1, 0] A h (ix2 i j) = A (ix2 j i) := LibTnDot.transpose_at 128 128 A h i j

/-- The transposed 100000-row array times a 100000-row array, at `(i, j)`: the contraction over all the rows. -/
theorem dot_ut_at (A B : Vec Ideal S100000x128 .f32) (h : S100000x128.Transposes [1, 0] S128x100000) (i j : Fin 128) :
    Host.dotGeneral (F := Ideal) (φ₁ := .f32) (φ₂ := .f32) dot_S128x100000_S100000x128_S128x128_1_0_0_1_n_n none (transpose S128x100000 [1, 0] A h) B (ix2 i j)
      = ∑ R : Fin 100000, A (ix2 R i) * B (ix2 R j) :=
  (LibPlainDot.dotGeneral_at 128 100000 128 none (transpose S128x100000 [1, 0] A h) B i j).trans
    (Finset.sum_congr rfl fun R _ => congrArg (· * B (ix2 R j)) (transpose_u_at A h i R))

/-- The transposed 50000-row array times a 50000-row array, at `(i, j)`: the contraction over all the rows. -/
theorem dot_it_at (A B : Vec Ideal S50000x128 .f32) (h : S50000x128.Transposes [1, 0] S128x50000) (i j : Fin 128) :
    Host.dotGeneral (F := Ideal) (φ₁ := .f32) (φ₂ := .f32) dot_S128x50000_S50000x128_S128x128_1_0_0_1_n_n none (transpose S128x50000 [1, 0] A h) B (ix2 i j)
      = ∑ R : Fin 50000, A (ix2 R i) * B (ix2 R j) :=
  (LibPlainDot.dotGeneral_at 128 50000 128 none (transpose S128x50000 [1, 0] A h) B i j).trans
    (Finset.sum_congr rfl fun R _ => congrArg (· * B (ix2 R j)) (transpose_i_at A h i R))

/-! ## The leaky rectifier and the rectifier -/

/-- The leaky rectifier's operations on a 128×128 array, at an entry: `lrelu` of the entry. -/
theorem leaky_h_at (h : S_.BroadcastsInDim S128x128 ![]) (x : Vec Ideal S128x128 .f32) (p : Fin 128) (q : Fin 128) :
    select (cmpf .oge x (broadcastInDim S128x128 ![] h (constant (F := Ideal) S_ .f32 0x00000000#32))) x
        (mulf (broadcastInDim S128x128 ![] h (id (constant (F := Ideal) S_ .f32 0x3DCCCCCD#32))) x) (ix2 p q)
      = lrelu (x (ix2 p q)) :=
  LibLeaky.host_lrelu_apply h x (ix2 p q)

/-- The rectifier's operations on a 128×128 array, at an entry: `relu` of the entry. -/
theorem relu_h_at (h : S_.BroadcastsInDim S128x128 ![]) (x : Vec Ideal S128x128 .f32) (p : Fin 128) (q : Fin 128) :
    maximumf x (broadcastInDim S128x128 ![] h (constant (F := Ideal) S_ .f32 0x00000000#32)) (ix2 p q) = relu (x (ix2 p q)) :=
  LibLeaky.host_relu_apply h x (ix2 p q)

/-- The leaky rectifier after the rectifier on a 128×128 array, at an entry. -/
theorem leaky_relu_h_at (h h' : S_.BroadcastsInDim S128x128 ![]) (x : Vec Ideal S128x128 .f32) (p : Fin 128) (q : Fin 128) :
    select (cmpf .oge (maximumf x (broadcastInDim S128x128 ![] h' (constant (F := Ideal) S_ .f32 0x00000000#32)))
          (broadcastInDim S128x128 ![] h (constant (F := Ideal) S_ .f32 0x00000000#32)))
        (maximumf x (broadcastInDim S128x128 ![] h' (constant (F := Ideal) S_ .f32 0x00000000#32)))
        (mulf (broadcastInDim S128x128 ![] h (id (constant (F := Ideal) S_ .f32 0x3DCCCCCD#32)))
          (maximumf x (broadcastInDim S128x128 ![] h' (constant (F := Ideal) S_ .f32 0x00000000#32)))) (ix2 p q)
      = lrelu (relu (x (ix2 p q))) :=
  (LibLeaky.host_lrelu_apply h _ (ix2 p q)).trans (congrArg lrelu (LibLeaky.host_relu_apply h' x (ix2 p q)))

/-- The leaky rectifier's operations on a 100000×128 array, at an entry: `lrelu` of the entry. -/
theorem leaky_u_at (h : S_.BroadcastsInDim S100000x128 ![]) (x : Vec Ideal S100000x128 .f32) (p : Fin 100000) (q : Fin 128) :
    select (cmpf .oge x (broadcastInDim S100000x128 ![] h (constant (F := Ideal) S_ .f32 0x00000000#32))) x
        (mulf (broadcastInDim S100000x128 ![] h (id (constant (F := Ideal) S_ .f32 0x3DCCCCCD#32))) x) (ix2 p q)
      = lrelu (x (ix2 p q)) :=
  LibLeaky.host_lrelu_apply h x (ix2 p q)

/-- The rectifier's operations on a 100000×128 array, at an entry: `relu` of the entry. -/
theorem relu_u_at (h : S_.BroadcastsInDim S100000x128 ![]) (x : Vec Ideal S100000x128 .f32) (p : Fin 100000) (q : Fin 128) :
    maximumf x (broadcastInDim S100000x128 ![] h (constant (F := Ideal) S_ .f32 0x00000000#32)) (ix2 p q) = relu (x (ix2 p q)) :=
  LibLeaky.host_relu_apply h x (ix2 p q)

/-- The leaky rectifier after the rectifier on a 100000×128 array, at an entry. -/
theorem leaky_relu_u_at (h h' : S_.BroadcastsInDim S100000x128 ![]) (x : Vec Ideal S100000x128 .f32) (p : Fin 100000) (q : Fin 128) :
    select (cmpf .oge (maximumf x (broadcastInDim S100000x128 ![] h' (constant (F := Ideal) S_ .f32 0x00000000#32)))
          (broadcastInDim S100000x128 ![] h (constant (F := Ideal) S_ .f32 0x00000000#32)))
        (maximumf x (broadcastInDim S100000x128 ![] h' (constant (F := Ideal) S_ .f32 0x00000000#32)))
        (mulf (broadcastInDim S100000x128 ![] h (id (constant (F := Ideal) S_ .f32 0x3DCCCCCD#32)))
          (maximumf x (broadcastInDim S100000x128 ![] h' (constant (F := Ideal) S_ .f32 0x00000000#32)))) (ix2 p q)
      = lrelu (relu (x (ix2 p q))) :=
  (LibLeaky.host_lrelu_apply h _ (ix2 p q)).trans (congrArg lrelu (LibLeaky.host_relu_apply h' x (ix2 p q)))

/-- The leaky rectifier's operations on a 50000×128 array, at an entry: `lrelu` of the entry. -/
theorem leaky_i_at (h : S_.BroadcastsInDim S50000x128 ![]) (x : Vec Ideal S50000x128 .f32) (p : Fin 50000) (q : Fin 128) :
    select (cmpf .oge x (broadcastInDim S50000x128 ![] h (constant (F := Ideal) S_ .f32 0x00000000#32))) x
        (mulf (broadcastInDim S50000x128 ![] h (id (constant (F := Ideal) S_ .f32 0x3DCCCCCD#32))) x) (ix2 p q)
      = lrelu (x (ix2 p q)) :=
  LibLeaky.host_lrelu_apply h x (ix2 p q)

/-- The rectifier's operations on a 50000×128 array, at an entry: `relu` of the entry. -/
theorem relu_i_at (h : S_.BroadcastsInDim S50000x128 ![]) (x : Vec Ideal S50000x128 .f32) (p : Fin 50000) (q : Fin 128) :
    maximumf x (broadcastInDim S50000x128 ![] h (constant (F := Ideal) S_ .f32 0x00000000#32)) (ix2 p q) = relu (x (ix2 p q)) :=
  LibLeaky.host_relu_apply h x (ix2 p q)

/-- The leaky rectifier after the rectifier on a 50000×128 array, at an entry. -/
theorem leaky_relu_i_at (h h' : S_.BroadcastsInDim S50000x128 ![]) (x : Vec Ideal S50000x128 .f32) (p : Fin 50000) (q : Fin 128) :
    select (cmpf .oge (maximumf x (broadcastInDim S50000x128 ![] h' (constant (F := Ideal) S_ .f32 0x00000000#32)))
          (broadcastInDim S50000x128 ![] h (constant (F := Ideal) S_ .f32 0x00000000#32)))
        (maximumf x (broadcastInDim S50000x128 ![] h' (constant (F := Ideal) S_ .f32 0x00000000#32)))
        (mulf (broadcastInDim S50000x128 ![] h (id (constant (F := Ideal) S_ .f32 0x3DCCCCCD#32)))
          (maximumf x (broadcastInDim S50000x128 ![] h' (constant (F := Ideal) S_ .f32 0x00000000#32)))) (ix2 p q)
      = lrelu (relu (x (ix2 p q))) :=
  (LibLeaky.host_lrelu_apply h _ (ix2 p q)).trans (congrArg lrelu (LibLeaky.host_relu_apply h' x (ix2 p q)))

/-! ## Whole arrays -/

/-- The leaky rectifier's operations as one function of the array, over any shape: entry by entry `lrelu`. -/
theorem leaky_eq {s : Shape} (h : S_.BroadcastsInDim s ![]) (x : Vec Ideal s .f32) :
    select (cmpf .oge x (broadcastInDim s ![] h (constant (F := Ideal) S_ .f32 0x00000000#32))) x
        (mulf (broadcastInDim s ![] h (id (constant (F := Ideal) S_ .f32 0x3DCCCCCD#32))) x)
      = fun i => lrelu (x i) :=
  funext fun i => LibLeaky.host_lrelu_apply h x i

/-- The rectifier's operations as one function of the array, over any shape: entry by entry `relu`. -/
theorem relu_eq {s : Shape} (h : S_.BroadcastsInDim s ![]) (x : Vec Ideal s .f32) :
    maximumf x (broadcastInDim s ![] h (constant (F := Ideal) S_ .f32 0x00000000#32)) = fun i => relu (x i) :=
  funext fun i => LibLeaky.host_relu_apply h x i

end Cert.ReferenceIdeal.Val

end
-- ==== Proof.LibBlockedSum.lean ====
/-
  Sums taken block by block. A contraction over an axis of `n * b` entries, computed as `n` partial sums of `b` consecutive
  entries each and accumulated one block after the other from a cleared accumulator, is the sum over the whole axis. Everything
  here holds in any commutative additive monoid — in particular on the extended reals, where regrouping a sum needs no
  finiteness (only cancellation and distributivity do).
-/
import Mathlib.Algebra.BigOperators.Fin
import Mathlib.Algebra.BigOperators.Intervals
import Mathlib.Logic.Equiv.Fin.Basic

open Finset

namespace LibBlockedSum

variable {M : Type*} [AddCommMonoid M]

/-- Entry `k` of block `j`, of `n` blocks of `b` consecutive entries, as a position on the whole axis: `j * b + k`. -/
def blockIdx (n b : ℕ) (j : Fin n) (k : Fin b) : Fin (n * b) :=
  ⟨j.val * b + k.val, by
    have hj : j.val + 1 ≤ n := j.isLt
    calc j.val * b + k.val < j.val * b + b := Nat.add_lt_add_left k.isLt _
      _ = (j.val + 1) * b := (Nat.succ_mul _ _).symm
      _ ≤ n * b := Nat.mul_le_mul_right _ hj⟩

@[simp] theorem blockIdx_val (n b : ℕ) (j : Fin n) (k : Fin b) : (blockIdx n b j k).val = j.val * b + k.val := rfl

/-- The positions `j * b + k` are the product order's enumeration of the axis. -/
theorem blockIdx_eq (n b : ℕ) (j : Fin n) (k : Fin b) : blockIdx n b j k = finProdFinEquiv (j, k) :=
  Fin.ext (by simp [blockIdx, finProdFinEquiv, Nat.mul_comm, Nat.add_comm])

/-- A sum over an axis of `n * b` entries is the sum over the `n` blocks of each block's `b` entries. -/
theorem sum_blocks (n b : ℕ) (f : Fin (n * b) → M) :
    ∑ i, f i = ∑ j : Fin n, ∑ k : Fin b, f (blockIdx n b j k) := by
  simp only [blockIdx_eq]
  rw [← finProdFinEquiv.sum_comp, Fintype.sum_prod_type]

/-- A sum over an axis whose length is written `n * b` is the sum over the same axis written `m`. -/
theorem sum_cast {m n b : ℕ} (h : n * b = m) (f : Fin m → M) : ∑ i : Fin (n * b), f (i.cast h) = ∑ i : Fin m, f i :=
  Equiv.sum_comp (finCongr h) f

/-- The accumulator after block `j`: cleared before the first block (`0 + s 0`: the clearing store, then the first
    partial sum added), every later block's partial sum added to what the block before left. -/
def accAfter (s : ℕ → M) : ℕ → M
  | 0 => 0 + s 0
  | j + 1 => accAfter s j + s (j + 1)

/-- After block `j` the accumulator holds the first `j + 1` partial sums. -/
theorem accAfter_eq_sum_range (s : ℕ → M) (j : ℕ) : accAfter s j = ∑ i ∈ range (j + 1), s i := by
  induction j with
  | zero => simp [accAfter]
  | succ j ih => rw [accAfter, ih, sum_range_succ _ (j + 1)]

/-- After the last of `n + 1` blocks the accumulator holds all the partial sums. -/
theorem accAfter_last (n : ℕ) (s : ℕ → M) : accAfter s n = ∑ j : Fin (n + 1), s j.val := by
  rw [accAfter_eq_sum_range, Finset.sum_range]

/-- THE BLOCKED CONTRACTION. With the axis cut into `n + 1` blocks of `b` entries, the accumulator after the last block — each
    block's partial sum `∑ k, f (j * b + k)` added in turn to a cleared accumulator — is the sum over the whole axis. -/
theorem accAfter_blocks (n b : ℕ) (f : Fin ((n + 1) * b) → M) (s : ℕ → M)
    (hs : ∀ j : Fin (n + 1), s j.val = ∑ k : Fin b, f (blockIdx (n + 1) b j k)) :
    accAfter s n = ∑ i, f i := by
  rw [accAfter_last, sum_blocks]
  exact Finset.sum_congr rfl fun j _ => hs j

/-- THE BLOCKED CONTRACTION OF PRODUCTS, in the form a tiled matrix product gives it: block `j`'s partial sum is
    `∑ k, x j k * w j k` over the block's own `b` positions, and the two factors along the whole axis are `fx`, `fw` with block `j`
    holding positions `j * b + k`. Only a multiplication is assumed, no distributivity: the products are regrouped, never expanded. -/
theorem accAfter_products [Mul M] (n b : ℕ) (x w : Fin (n + 1) → Fin b → M) (fx fw : Fin ((n + 1) * b) → M)
    (hx : ∀ (j : Fin (n + 1)) (k : Fin b), x j k = fx (blockIdx (n + 1) b j k))
    (hw : ∀ (j : Fin (n + 1)) (k : Fin b), w j k = fw (blockIdx (n + 1) b j k)) :
    accAfter (fun j => if h : j < n + 1 then ∑ k : Fin b, x ⟨j, h⟩ k * w ⟨j, h⟩ k else 0) n = ∑ i, fx i * fw i := by
  refine accAfter_blocks n b (fun i => fx i * fw i) _ fun j => ?_
  show (if h : j.val < n + 1 then _ else _) = _
  rw [dif_pos j.isLt]
  exact Finset.sum_congr rfl fun k _ => by rw [hx j k, hw j k]

end LibBlockedSum
-- ==== Proof.ValPay.lean ====
/-
  The values the kernel's vector arithmetic computes, read at one entry, at the exact instance (every float operation the
  extended reals' own, a change of float format the identity).

  Two kinds of body. A DENSE body multiplies a block of 5000 rows of 128 by a 128×128 weight: entry `(p, q)` of the product is
  `∑ k, x p k · w k q`; eight of the ten dense bodies then apply the leaky rectifier, four of those after the rectifier.
  A REDUCING body contracts two blocks of 5000 rows over their ROWS: it adds `∑ r, a r i · b r j` to entry `(i, j)` of a 128×128
  accumulator, which is cleared before the first block and passed through the leaky rectifier after the last.

  The last section follows the accumulator through all the blocks. When block `t` of each operand holds rows
  `t·5000 + r` of a tall array, the accumulator after the last block is, at `(i, j)`, the contraction `∑ R, A R i · B R j` over
  ALL the rows of the two arrays. Regrouping the sum block by block uses only that addition on the extended reals is
  commutative and associative; no entry needs to be finite.
-/
import proofs.«140582_j49512382988743_1_alg».proof.Proof.Gen.KernelIdeal.Skeleton
import proofs.«140582_j49512382988743_1_alg».proof.Proof.LibPlainDot
import proofs.«140582_j49512382988743_1_alg».proof.Proof.LibTnDot
import proofs.«140582_j49512382988743_1_alg».proof.Proof.LibLeaky
import proofs.«140582_j49512382988743_1_alg».proof.Proof.LibBlockedSum
import Idealize.ShloMosaic.Lib.Pipeline.Value

noncomputable section

open Idealize.ShloMosaic ValueIdx
open Cert.KernelIdeal Cert.KernelIdeal.Gen
open LibLeaky (lrelu relu)

namespace Cert.KernelIdeal.Val

/-! ## The two products -/

/-- The dense bodies' dimension numbers are the plain product's, 5000×128 by 128×128. -/
theorem dims_dense : dot_S5000x128_S128x128_S5000x128_1_0_0_1_n_n = DotDims.plain 5000 128 128 := rfl

/-- The reducing bodies' dimension numbers contract the first axis of both operands: 5000×128 by 5000×128 into 128×128. -/
theorem dims_rows : dot_S5000x128_S5000x128_S128x128_0_0_1_1_n_n = LibTnDot.tn 5000 128 128 := rfl

/-- The dense product onto a zero accumulator at `(p, q)`: the row of the block against the column of the weight. The
    operands' change of format is the identity. -/
theorem dense_core (x : FVec Ideal S5000x128 .f32) (w : FVec Ideal S128x128 .f32) (p : Fin 5000) (q : Fin 128) :
    matmul dot_S5000x128_S128x128_S5000x128_1_0_0_1_n_n none (truncf .bf16 x bitsLt_bf16_f32) (truncf .bf16 w bitsLt_bf16_f32)
        (constant (F := Ideal) S5000x128 .f32 0x00000000#32) (ix2 p q)
      = ∑ k : Fin 128, x (ix2 p k) * w (ix2 k q) :=
  LibPlainDot.matmul_zero_at 5000 128 128 none (truncf .bf16 x bitsLt_bf16_f32) (truncf .bf16 w bitsLt_bf16_f32) p q

/-- The product over the rows onto a zero accumulator at `(i, j)`: column `i` of the first block against column `j` of the
    second. -/
theorem rows_core (a b : FVec Ideal S5000x128 .f32) (i j : Fin 128) :
    matmul dot_S5000x128_S5000x128_S128x128_0_0_1_1_n_n none (truncf .bf16 a bitsLt_bf16_f32) (truncf .bf16 b bitsLt_bf16_f32)
        (constant (F := Ideal) S128x128 .f32 0x00000000#32) (ix2 i j)
      = ∑ r : Fin 5000, a (ix2 r i) * b (ix2 r j) :=
  LibTnDot.matmul_zero_at 5000 128 128 none (truncf .bf16 a bitsLt_bf16_f32) (truncf .bf16 b bitsLt_bf16_f32) i j

/-! ## The dense bodies -/

/-- Region 0: the product alone. -/
theorem k0_pay1_at (x0 : Vec Ideal S5000x128 .f32) (w : Vec Ideal S128x128 .f32) (p : Fin 5000) (q : Fin 128) :
    k0_pay1 (F := Ideal) x0 w (ix2 p q) = ∑ k : Fin 128, x0 (ix2 p k) * w (ix2 k q) :=
  dense_core x0 w p q

/-- Region 1: the product alone. -/
theorem k1_pay1_at (x0 : Vec Ideal S5000x128 .f32) (w : Vec Ideal S128x128 .f32) (p : Fin 5000) (q : Fin 128) :
    k1_pay1 (F := Ideal) x0 w (ix2 p q) = ∑ k : Fin 128, x0 (ix2 p k) * w (ix2 k q) :=
  dense_core x0 w p q

/-- Region 3: the leaky rectifier of the product. -/
theorem k3_pay1_at (x0 : Vec Ideal S5000x128 .f32) (w : Vec Ideal S128x128 .f32) (p : Fin 5000) (q : Fin 128) :
    k3_pay1 (F := Ideal) x0 w (ix2 p q) = lrelu (∑ k : Fin 128, x0 (ix2 p k) * w (ix2 k q)) := by
  unfold k3_pay1
  simp only [shapeCast_self]
  exact (LibLeaky.vec_lrelu_apply (s := S5000x128) _ (ix2 p q)).trans (congrArg lrelu (dense_core x0 w p q))

/-- Region 5: the leaky rectifier of the product. -/
theorem k5_pay1_at (x0 : Vec Ideal S5000x128 .f32) (w : Vec Ideal S128x128 .f32) (p : Fin 5000) (q : Fin 128) :
    k5_pay1 (F := Ideal) x0 w (ix2 p q) = lrelu (∑ k : Fin 128, x0 (ix2 p k) * w (ix2 k q)) := by
  unfold k5_pay1
  simp only [shapeCast_self]
  exact (LibLeaky.vec_lrelu_apply (s := S5000x128) _ (ix2 p q)).trans (congrArg lrelu (dense_core x0 w p q))

/-- Region 9: the leaky rectifier of the product. -/
theorem k9_pay1_at (x0 : Vec Ideal S5000x128 .f32) (w : Vec Ideal S128x128 .f32) (p : Fin 5000) (q : Fin 128) :
    k9_pay1 (F := Ideal) x0 w (ix2 p q) = lrelu (∑ k : Fin 128, x0 (ix2 p k) * w (ix2 k q)) := by
  unfold k9_pay1
  simp only [shapeCast_self]
  exact (LibLeaky.vec_lrelu_apply (s := S5000x128) _ (ix2 p q)).trans (congrArg lrelu (dense_core x0 w p q))

/-- Region 11: the leaky rectifier of the product. -/
theorem k11_pay1_at (x0 : Vec Ideal S5000x128 .f32) (w : Vec Ideal S128x128 .f32) (p : Fin 5000) (q : Fin 128) :
    k11_pay1 (F := Ideal) x0 w (ix2 p q) = lrelu (∑ k : Fin 128, x0 (ix2 p k) * w (ix2 k q)) := by
  unfold k11_pay1
  simp only [shapeCast_self]
  exact (LibLeaky.vec_lrelu_apply (s := S5000x128) _ (ix2 p q)).trans (congrArg lrelu (dense_core x0 w p q))

/-- Region 6: the leaky rectifier of the rectifier of the product. -/
theorem k6_pay1_at (x0 : Vec Ideal S5000x128 .f32) (w : Vec Ideal S128x128 .f32) (p : Fin 5000) (q : Fin 128) :
    k6_pay1 (F := Ideal) x0 w (ix2 p q) = lrelu (relu (∑ k : Fin 128, x0 (ix2 p k) * w (ix2 k q))) := by
  unfold k6_pay1
  simp only [shapeCast_self]
  exact (LibLeaky.vec_lrelu_apply (s := S5000x128) _ (ix2 p q)).trans (congrArg lrelu
    ((LibLeaky.vec_relu_apply (s := S5000x128) _ (ix2 p q)).trans (congrArg relu (dense_core x0 w p q))))

/-- Region 6, simplified: the rectifier's value is never negative, so the leaky rectifier keeps it. -/
theorem k6_pay1_at' (x0 : Vec Ideal S5000x128 .f32) (w : Vec Ideal S128x128 .f32) (p : Fin 5000) (q : Fin 128) :
    k6_pay1 (F := Ideal) x0 w (ix2 p q) = relu (∑ k : Fin 128, x0 (ix2 p k) * w (ix2 k q)) :=
  (k6_pay1_at x0 w p q).trans (LibLeaky.lrelu_relu _)

/-- Region 7: the leaky rectifier of the rectifier of the product. -/
theorem k7_pay1_at (x0 : Vec Ideal S5000x128 .f32) (w : Vec Ideal S128x128 .f32) (p : Fin 5000) (q : Fin 128) :
    k7_pay1 (F := Ideal) x0 w (ix2 p q) = lrelu (relu (∑ k : Fin 128, x0 (ix2 p k) * w (ix2 k q))) := by
  unfold k7_pay1
  simp only [shapeCast_self]
  exact (LibLeaky.vec_lrelu_apply (s := S5000x128) _ (ix2 p q)).trans (congrArg lrelu
    ((LibLeaky.vec_relu_apply (s := S5000x128) _ (ix2 p q)).trans (congrArg relu (dense_core x0 w p q))))

/-- Region 7, simplified: the rectifier's value is never negative, so the leaky rectifier keeps it. -/
theorem k7_pay1_at' (x0 : Vec Ideal S5000x128 .f32) (w : Vec Ideal S128x128 .f32) (p : Fin 5000) (q : Fin 128) :
    k7_pay1 (F := Ideal) x0 w (ix2 p q) = relu (∑ k : Fin 128, x0 (ix2 p k) * w (ix2 k q)) :=
  (k7_pay1_at x0 w p q).trans (LibLeaky.lrelu_relu _)

/-- Region 12: the leaky rectifier of the rectifier of the product. -/
theorem k12_pay1_at (x0 : Vec Ideal S5000x128 .f32) (w : Vec Ideal S128x128 .f32) (p : Fin 5000) (q : Fin 128) :
    k12_pay1 (F := Ideal) x0 w (ix2 p q) = lrelu (relu (∑ k : Fin 128, x0 (ix2 p k) * w (ix2 k q))) := by
  unfold k12_pay1
  simp only [shapeCast_self]
  exact (LibLeaky.vec_lrelu_apply (s := S5000x128) _ (ix2 p q)).trans (congrArg lrelu
    ((LibLeaky.vec_relu_apply (s := S5000x128) _ (ix2 p q)).trans (congrArg relu (dense_core x0 w p q))))

/-- Region 12, simplified: the rectifier's value is never negative, so the leaky rectifier keeps it. -/
theorem k12_pay1_at' (x0 : Vec Ideal S5000x128 .f32) (w : Vec Ideal S128x128 .f32) (p : Fin 5000) (q : Fin 128) :
    k12_pay1 (F := Ideal) x0 w (ix2 p q) = relu (∑ k : Fin 128, x0 (ix2 p k) * w (ix2 k q)) :=
  (k12_pay1_at x0 w p q).trans (LibLeaky.lrelu_relu _)

/-- Region 13: the leaky rectifier of the rectifier of the product. -/
theorem k13_pay1_at (x0 : Vec Ideal S5000x128 .f32) (w : Vec Ideal S128x128 .f32) (p : Fin 5000) (q : Fin 128) :
    k13_pay1 (F := Ideal) x0 w (ix2 p q) = lrelu (relu (∑ k : Fin 128, x0 (ix2 p k) * w (ix2 k q))) := by
  unfold k13_pay1
  simp only [shapeCast_self]
  exact (LibLeaky.vec_lrelu_apply (s := S5000x128) _ (ix2 p q)).trans (congrArg lrelu
    ((LibLeaky.vec_relu_apply (s := S5000x128) _ (ix2 p q)).trans (congrArg relu (dense_core x0 w p q))))

/-- Region 13, simplified: the rectifier's value is never negative, so the leaky rectifier keeps it. -/
theorem k13_pay1_at' (x0 : Vec Ideal S5000x128 .f32) (w : Vec Ideal S128x128 .f32) (p : Fin 5000) (q : Fin 128) :
    k13_pay1 (F := Ideal) x0 w (ix2 p q) = relu (∑ k : Fin 128, x0 (ix2 p k) * w (ix2 k q)) :=
  (k13_pay1_at x0 w p q).trans (LibLeaky.lrelu_relu _)

/-! ## The reducing bodies -/

/-- Region 2: the cleared accumulator is zero at every entry. -/
theorem k2_pay1_at (i j : Fin 128) : k2_pay1 (F := Ideal) (ix2 i j) = 0 := by
  unfold k2_pay1
  simp only [shapeCast_self]
  exact Ideal.ofBits_zero_f32

/-- Region 2: one block's step adds the two blocks' contraction over their rows to the accumulator. -/
theorem k2_pay2_at (a b : Vec Ideal S5000x128 .f32) (acc : Vec Ideal S128x128 .f32) (i j : Fin 128) :
    k2_pay2 (F := Ideal) a b acc (ix2 i j) = acc (ix2 i j) + ∑ r : Fin 5000, a (ix2 r i) * b (ix2 r j) := by
  unfold k2_pay2
  simp only [shapeCast_self]
  exact congrArg (acc (ix2 i j) + ·) (rows_core a b i j)

/-- Region 2: after the last block, the leaky rectifier of the accumulator. -/
theorem k2_pay3_at (acc : Vec Ideal S128x128 .f32) (i j : Fin 128) :
    k2_pay3 (F := Ideal) acc (ix2 i j) = lrelu (acc (ix2 i j)) := by
  unfold k2_pay3
  exact LibLeaky.vec_lrelu_apply (s := S128x128) acc (ix2 i j)

/-- Region 4: the cleared accumulator is zero at every entry. -/
theorem k4_pay1_at (i j : Fin 128) : k4_pay1 (F := Ideal) (ix2 i j) = 0 := by
  unfold k4_pay1
  simp only [shapeCast_self]
  exact Ideal.ofBits_zero_f32

/-- Region 4: one block's step adds the two blocks' contraction over their rows to the accumulator. -/
theorem k4_pay2_at (a b : Vec Ideal S5000x128 .f32) (acc : Vec Ideal S128x128 .f32) (i j : Fin 128) :
    k4_pay2 (F := Ideal) a b acc (ix2 i j) = acc (ix2 i j) + ∑ r : Fin 5000, a (ix2 r i) * b (ix2 r j) := by
  unfold k4_pay2
  simp only [shapeCast_self]
  exact congrArg (acc (ix2 i j) + ·) (rows_core a b i j)

/-- Region 4: after the last block, the leaky rectifier of the accumulator. -/
theorem k4_pay3_at (acc : Vec Ideal S128x128 .f32) (i j : Fin 128) :
    k4_pay3 (F := Ideal) acc (ix2 i j) = lrelu (acc (ix2 i j)) := by
  unfold k4_pay3
  exact LibLeaky.vec_lrelu_apply (s := S128x128) acc (ix2 i j)

/-- Region 8: the cleared accumulator is zero at every entry. -/
theorem k8_pay1_at (i j : Fin 128) : k8_pay1 (F := Ideal) (ix2 i j) = 0 := by
  unfold k8_pay1
  simp only [shapeCast_self]
  exact Ideal.ofBits_zero_f32

/-- Region 8: one block's step adds the two blocks' contraction over their rows to the accumulator. -/
theorem k8_pay2_at (a b : Vec Ideal S5000x128 .f32) (acc : Vec Ideal S128x128 .f32) (i j : Fin 128) :
    k8_pay2 (F := Ideal) a b acc (ix2 i j) = acc (ix2 i j) + ∑ r : Fin 5000, a (ix2 r i) * b (ix2 r j) := by
  unfold k8_pay2
  simp only [shapeCast_self]
  exact congrArg (acc (ix2 i j) + ·) (rows_core a b i j)

/-- Region 8: after the last block, the leaky rectifier of the accumulator. -/
theorem k8_pay3_at (acc : Vec Ideal S128x128 .f32) (i j : Fin 128) :
    k8_pay3 (F := Ideal) acc (ix2 i j) = lrelu (acc (ix2 i j)) := by
  unfold k8_pay3
  exact LibLeaky.vec_lrelu_apply (s := S128x128) acc (ix2 i j)

/-- Region 10: the cleared accumulator is zero at every entry. -/
theorem k10_pay1_at (i j : Fin 128) : k10_pay1 (F := Ideal) (ix2 i j) = 0 := by
  unfold k10_pay1
  simp only [shapeCast_self]
  exact Ideal.ofBits_zero_f32

/-- Region 10: one block's step adds the two blocks' contraction over their rows to the accumulator. -/
theorem k10_pay2_at (a b : Vec Ideal S5000x128 .f32) (acc : Vec Ideal S128x128 .f32) (i j : Fin 128) :
    k10_pay2 (F := Ideal) a b acc (ix2 i j) = acc (ix2 i j) + ∑ r : Fin 5000, a (ix2 r i) * b (ix2 r j) := by
  unfold k10_pay2
  simp only [shapeCast_self]
  exact congrArg (acc (ix2 i j) + ·) (rows_core a b i j)

/-- Region 10: after the last block, the leaky rectifier of the accumulator. -/
theorem k10_pay3_at (acc : Vec Ideal S128x128 .f32) (i j : Fin 128) :
    k10_pay3 (F := Ideal) acc (ix2 i j) = lrelu (acc (ix2 i j)) := by
  unfold k10_pay3
  exact LibLeaky.vec_lrelu_apply (s := S128x128) acc (ix2 i j)

/-! ## The accumulator through all the blocks -/

/-- With any clearing value that is zero at every entry and any step that adds the two blocks' contraction over their rows,
    the accumulator after block `t`, at `(i, j)`, is the history "cleared, then each block's partial sum added in turn" of the
    partial sums `∑ r, a_t r i · b_t r j`. -/
theorem acc_history
    (step : Vec Ideal S5000x128 .f32 → Vec Ideal S5000x128 .f32 → Vec Ideal S128x128 .f32 → Vec Ideal S128x128 .f32)
    (init : Vec Ideal S128x128 .f32)
    (hinit : ∀ i j : Fin 128, init (ix2 i j) = 0)
    (hstep : ∀ (a b : Vec Ideal S5000x128 .f32) (acc : Vec Ideal S128x128 .f32) (i j : Fin 128),
      step a b acc (ix2 i j) = acc (ix2 i j) + ∑ r : Fin 5000, a (ix2 r i) * b (ix2 r j))
    (a b : ℕ → Vec Ideal S5000x128 .f32) (acc : ℕ → Vec Ideal S128x128 .f32)
    (h0 : acc 0 = step (a 0) (b 0) init) (hs : ∀ t, acc (t + 1) = step (a (t + 1)) (b (t + 1)) (acc t))
    (i j : Fin 128) (t : ℕ) :
    acc t (ix2 i j) = LibBlockedSum.accAfter (M := EReal) (fun t => ∑ r : Fin 5000, a t (ix2 r i) * b t (ix2 r j)) t := by
  induction t with
  | zero => rw [h0, hstep, hinit]; rfl
  | succ t ih => rw [hs, hstep, ih]; rfl

/-- THE WHOLE CONTRACTION. The operands' blocks are consecutive runs of 5000 rows of two arrays `A`, `B` of `(n+1)·5000` rows
    (`ha`, `hb`: entry `(r, c)` of block `t` is entry `(t·5000 + r, c)` of the array). Then the accumulator after the last block
    is, at `(i, j)`, the contraction of the two arrays over all their rows. -/
theorem acc_whole (n rows : ℕ) (hrows : (n + 1) * 5000 = rows)
    (step : Vec Ideal S5000x128 .f32 → Vec Ideal S5000x128 .f32 → Vec Ideal S128x128 .f32 → Vec Ideal S128x128 .f32)
    (init : Vec Ideal S128x128 .f32)
    (hinit : ∀ i j : Fin 128, init (ix2 i j) = 0)
    (hstep : ∀ (a b : Vec Ideal S5000x128 .f32) (acc : Vec Ideal S128x128 .f32) (i j : Fin 128),
      step a b acc (ix2 i j) = acc (ix2 i j) + ∑ r : Fin 5000, a (ix2 r i) * b (ix2 r j))
    (a b : ℕ → Vec Ideal S5000x128 .f32) (acc : ℕ → Vec Ideal S128x128 .f32)
    (h0 : acc 0 = step (a 0) (b 0) init) (hs : ∀ t, acc (t + 1) = step (a (t + 1)) (b (t + 1)) (acc t))
    (A B : Vec Ideal ⟨2, ![rows, 128]⟩ .f32)
    (ha : ∀ (t : ℕ) (r : Fin 5000) (c : Fin 128) (R : Fin rows), R.val = t * 5000 + r.val → a t (ix2 r c) = A (ix2 R c))
    (hb : ∀ (t : ℕ) (r : Fin 5000) (c : Fin 128) (R : Fin rows), R.val = t * 5000 + r.val → b t (ix2 r c) = B (ix2 R c))
    (i j : Fin 128) :
    acc n (ix2 i j) = ∑ R : Fin rows, A (ix2 R i) * B (ix2 R j) := by
  rw [acc_history step init hinit hstep a b acc h0 hs i j n,
    ← LibBlockedSum.sum_cast (M := EReal) hrows (fun R => A (ix2 R i) * B (ix2 R j))]
  refine LibBlockedSum.accAfter_blocks n 5000 _ _ fun t => ?_
  refine Finset.sum_congr rfl fun r _ => ?_
  rw [ha t.val r i ((LibBlockedSum.blockIdx (n + 1) 5000 t r).cast hrows) rfl,
    hb t.val r j ((LibBlockedSum.blockIdx (n + 1) 5000 t r).cast hrows) rfl]

/-- Region 2 (20 blocks, 100000 rows): the accumulator after the last block is the contraction over all the rows … -/
theorem k2_acc_whole (a b : ℕ → Vec Ideal S5000x128 .f32) (acc : ℕ → Vec Ideal S128x128 .f32)
    (h0 : acc 0 = k2_pay2 (a 0) (b 0) (k2_pay1 (F := Ideal))) (hs : ∀ t, acc (t + 1) = k2_pay2 (a (t + 1)) (b (t + 1)) (acc t))
    (A B : Vec Ideal S100000x128 .f32)
    (ha : ∀ (t : ℕ) (r : Fin 5000) (c : Fin 128) (R : Fin 100000), R.val = t * 5000 + r.val → a t (ix2 r c) = A (ix2 R c))
    (hb : ∀ (t : ℕ) (r : Fin 5000) (c : Fin 128) (R : Fin 100000), R.val = t * 5000 + r.val → b t (ix2 r c) = B (ix2 R c))
    (i j : Fin 128) :
    acc 19 (ix2 i j) = ∑ R : Fin 100000, A (ix2 R i) * B (ix2 R j) :=
  acc_whole 19 100000 rfl (k2_pay2 (F := Ideal)) (k2_pay1 (F := Ideal)) k2_pay1_at k2_pay2_at a b acc h0 hs A B ha hb i j

/-- … and what the region writes out is its leaky rectifier. -/
theorem k2_out_whole (a b : ℕ → Vec Ideal S5000x128 .f32) (acc : ℕ → Vec Ideal S128x128 .f32)
    (h0 : acc 0 = k2_pay2 (a 0) (b 0) (k2_pay1 (F := Ideal))) (hs : ∀ t, acc (t + 1) = k2_pay2 (a (t + 1)) (b (t + 1)) (acc t))
    (A B : Vec Ideal S100000x128 .f32)
    (ha : ∀ (t : ℕ) (r : Fin 5000) (c : Fin 128) (R : Fin 100000), R.val = t * 5000 + r.val → a t (ix2 r c) = A (ix2 R c))
    (hb : ∀ (t : ℕ) (r : Fin 5000) (c : Fin 128) (R : Fin 100000), R.val = t * 5000 + r.val → b t (ix2 r c) = B (ix2 R c))
    (i j : Fin 128) :
    k2_pay3 (F := Ideal) (acc 19) (ix2 i j) = lrelu (∑ R : Fin 100000, A (ix2 R i) * B (ix2 R j)) :=
  (k2_pay3_at (acc 19) i j).trans (congrArg lrelu (k2_acc_whole a b acc h0 hs A B ha hb i j))

/-- Region 4 (10 blocks, 50000 rows): the accumulator after the last block is the contraction over all the rows … -/
theorem k4_acc_whole (a b : ℕ → Vec Ideal S5000x128 .f32) (acc : ℕ → Vec Ideal S128x128 .f32)
    (h0 : acc 0 = k4_pay2 (a 0) (b 0) (k4_pay1 (F := Ideal))) (hs : ∀ t, acc (t + 1) = k4_pay2 (a (t + 1)) (b (t + 1)) (acc t))
    (A B : Vec Ideal S50000x128 .f32)
    (ha : ∀ (t : ℕ) (r : Fin 5000) (c : Fin 128) (R : Fin 50000), R.val = t * 5000 + r.val → a t (ix2 r c) = A (ix2 R c))
    (hb : ∀ (t : ℕ) (r : Fin 5000) (c : Fin 128) (R : Fin 50000), R.val = t * 5000 + r.val → b t (ix2 r c) = B (ix2 R c))
    (i j : Fin 128) :
    acc 9 (ix2 i j) = ∑ R : Fin 50000, A (ix2 R i) * B (ix2 R j) :=
  acc_whole 9 50000 rfl (k4_pay2 (F := Ideal)) (k4_pay1 (F := Ideal)) k4_pay1_at k4_pay2_at a b acc h0 hs A B ha hb i j

/-- … and what the region writes out is its leaky rectifier. -/
theorem k4_out_whole (a b : ℕ → Vec Ideal S5000x128 .f32) (acc : ℕ → Vec Ideal S128x128 .f32)
    (h0 : acc 0 = k4_pay2 (a 0) (b 0) (k4_pay1 (F := Ideal))) (hs : ∀ t, acc (t + 1) = k4_pay2 (a (t + 1)) (b (t + 1)) (acc t))
    (A B : Vec Ideal S50000x128 .f32)
    (ha : ∀ (t : ℕ) (r : Fin 5000) (c : Fin 128) (R : Fin 50000), R.val = t * 5000 + r.val → a t (ix2 r c) = A (ix2 R c))
    (hb : ∀ (t : ℕ) (r : Fin 5000) (c : Fin 128) (R : Fin 50000), R.val = t * 5000 + r.val → b t (ix2 r c) = B (ix2 R c))
    (i j : Fin 128) :
    k4_pay3 (F := Ideal) (acc 9) (ix2 i j) = lrelu (∑ R : Fin 50000, A (ix2 R i) * B (ix2 R j)) :=
  (k4_pay3_at (acc 9) i j).trans (congrArg lrelu (k4_acc_whole a b acc h0 hs A B ha hb i j))

/-- Region 8 (20 blocks, 100000 rows): the accumulator after the last block is the contraction over all the rows … -/
theorem k8_acc_whole (a b : ℕ → Vec Ideal S5000x128 .f32) (acc : ℕ → Vec Ideal S128x128 .f32)
    (h0 : acc 0 = k8_pay2 (a 0) (b 0) (k8_pay1 (F := Ideal))) (hs : ∀ t, acc (t + 1) = k8_pay2 (a (t + 1)) (b (t + 1)) (acc t))
    (A B : Vec Ideal S100000x128 .f32)
    (ha : ∀ (t : ℕ) (r : Fin 5000) (c : Fin 128) (R : Fin 100000), R.val = t * 5000 + r.val → a t (ix2 r c) = A (ix2 R c))
    (hb : ∀ (t : ℕ) (r : Fin 5000) (c : Fin 128) (R : Fin 100000), R.val = t * 5000 + r.val → b t (ix2 r c) = B (ix2 R c))
    (i j : Fin 128) :
    acc 19 (ix2 i j) = ∑ R : Fin 100000, A (ix2 R i) * B (ix2 R j) :=
  acc_whole 19 100000 rfl (k8_pay2 (F := Ideal)) (k8_pay1 (F := Ideal)) k8_pay1_at k8_pay2_at a b acc h0 hs A B ha hb i j

/-- … and what the region writes out is its leaky rectifier. -/
theorem k8_out_whole (a b : ℕ → Vec Ideal S5000x128 .f32) (acc : ℕ → Vec Ideal S128x128 .f32)
    (h0 : acc 0 = k8_pay2 (a 0) (b 0) (k8_pay1 (F := Ideal))) (hs : ∀ t, acc (t + 1) = k8_pay2 (a (t + 1)) (b (t + 1)) (acc t))
    (A B : Vec Ideal S100000x128 .f32)
    (ha : ∀ (t : ℕ) (r : Fin 5000) (c : Fin 128) (R : Fin 100000), R.val = t * 5000 + r.val → a t (ix2 r c) = A (ix2 R c))
    (hb : ∀ (t : ℕ) (r : Fin 5000) (c : Fin 128) (R : Fin 100000), R.val = t * 5000 + r.val → b t (ix2 r c) = B (ix2 R c))
    (i j : Fin 128) :
    k8_pay3 (F := Ideal) (acc 19) (ix2 i j) = lrelu (∑ R : Fin 100000, A (ix2 R i) * B (ix2 R j)) :=
  (k8_pay3_at (acc 19) i j).trans (congrArg lrelu (k8_acc_whole a b acc h0 hs A B ha hb i j))

/-- Region 10 (10 blocks, 50000 rows): the accumulator after the last block is the contraction over all the rows … -/
theorem k10_acc_whole (a b : ℕ → Vec Ideal S5000x128 .f32) (acc : ℕ → Vec Ideal S128x128 .f32)
    (h0 : acc 0 = k10_pay2 (a 0) (b 0) (k10_pay1 (F := Ideal))) (hs : ∀ t, acc (t + 1) = k10_pay2 (a (t + 1)) (b (t + 1)) (acc t))
    (A B : Vec Ideal S50000x128 .f32)
    (ha : ∀ (t : ℕ) (r : Fin 5000) (c : Fin 128) (R : Fin 50000), R.val = t * 5000 + r.val → a t (ix2 r c) = A (ix2 R c))
    (hb : ∀ (t : ℕ) (r : Fin 5000) (c : Fin 128) (R : Fin 50000), R.val = t * 5000 + r.val → b t (ix2 r c) = B (ix2 R c))
    (i j : Fin 128) :
    acc 9 (ix2 i j) = ∑ R : Fin 50000, A (ix2 R i) * B (ix2 R j) :=
  acc_whole 9 50000 rfl (k10_pay2 (F := Ideal)) (k10_pay1 (F := Ideal)) k10_pay1_at k10_pay2_at a b acc h0 hs A B ha hb i j

/-- … and what the region writes out is its leaky rectifier. -/
theorem k10_out_whole (a b : ℕ → Vec Ideal S5000x128 .f32) (acc : ℕ → Vec Ideal S128x128 .f32)
    (h0 : acc 0 = k10_pay2 (a 0) (b 0) (k10_pay1 (F := Ideal))) (hs : ∀ t, acc (t + 1) = k10_pay2 (a (t + 1)) (b (t + 1)) (acc t))
    (A B : Vec Ideal S50000x128 .f32)
    (ha : ∀ (t : ℕ) (r : Fin 5000) (c : Fin 128) (R : Fin 50000), R.val = t * 5000 + r.val → a t (ix2 r c) = A (ix2 R c))
    (hb : ∀ (t : ℕ) (r : Fin 5000) (c : Fin 128) (R : Fin 50000), R.val = t * 5000 + r.val → b t (ix2 r c) = B (ix2 R c))
    (i j : Fin 128) :
    k10_pay3 (F := Ideal) (acc 9) (ix2 i j) = lrelu (∑ R : Fin 50000, A (ix2 R i) * B (ix2 R j)) :=
  (k10_pay3_at (acc 9) i j).trans (congrArg lrelu (k10_acc_whole a b acc h0 hs A B ha hb i j))

end Cert.KernelIdeal.Val

end
-- ==== Proof.DenseVal0.lean ====
/-
  Region 0 of @main, a dense layer over row blocks of 5000: the array it writes, as one function of the two arrays it reads,
  at the exact instance.

  Grid point `t` (of 20) reads block `t` of the 100000×128 input — rows `t·5000 … t·5000 + 4999` — and the whole 128×128
  weight, and writes block `t` of the output: entry `(p, q)` of that block is the product, row `p` of the input
  block against column `q` of the weight. Row `p` of block `t` is row `t·5000 + p` of the array, so what point `t` writes back is
  block `t` of ONE function of the two arrays: at `(R, q)`, the product `∑ k, X R k · W k q`. The 20 blocks are
  disjoint and fill the output (row `R` lies in block `R / 5000`), so after the last point the output array is that function
  everywhere.
-/
import proofs.«140582_j49512382988743_1_alg».proof.Proof.DenseBody0
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin0 : (![0, 0] : Fin 2 → Nat) = fun _ => 0 := funext fun a => by fin_cases a <;> rfl

/-- The region's result as one function of its input array `X` and weight `W`: at `(R, q)`, the product. -/
def denseG0 (X : S100000x128.Idx → EReal) (W : S128x128.Idx → EReal) : S100000x128.Idx → EReal :=
  fun i => ∑ k : Fin 128, X (ix2 (⟨(i 0).val, idx2_lt0 i⟩ : Fin 100000) k) * W (ix2 k (⟨(i 1).val, idx2_lt1 i⟩ : Fin 128))

/-- That function at an entry given by its coordinates. -/
theorem denseG0_apply (X : S100000x128.Idx → EReal) (W : S128x128.Idx → EReal) (R : Fin 100000) (q : Fin 128) :
    denseG0 X W (ix2 R q) = ∑ k : Fin 128, X (ix2 R k) * W (ix2 k q) := rfl

/-- The index maps, decided over the grid: the input's and the output's block index is `(t, 0)`, the weight's `(0, 0)`. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE ENTRY. If `x0` holds rows `b·5000 + p` of `X` and `x1` holds `W`, the body's value at entry `j` of the block is the
    region's function at the entry `i` of the array that sits `b` blocks down: row `b·5000 + j₀`, column `j₁`. -/
theorem entry0 (X : S100000x128.Idx → EReal) (W : S128x128.Idx → EReal)
    (x0 : Vec Ideal S5000x128 .f32) (x1 : Vec Ideal S128x128 .f32) (b : ℕ)
    (hx0 : ∀ (p : Fin 5000) (k : Fin 128) (R : Fin 100000), R.val = b * 5000 + p.val → x0 (ix2 p k) = X (ix2 R k))
    (hx1 : ∀ k q : Fin 128, x1 (ix2 k q) = W (ix2 k q))
    (j : S5000x128.Idx) (i : S100000x128.Idx) (hi0 : (i 0).val = b * 5000 + (j 0).val) (hi1 : (i 1).val = (j 1).val) :
    k0_pay1 (F := Ideal) x0 x1 j = denseG0 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k0_pay1_at]
  unfold denseG0
  rw [hq]
  refine Finset.sum_congr rfl fun k _ => ?_
  rw [hx0 p k ⟨(i 0).val, idx2_lt0 i⟩ hi0, hx1]

/-- WHAT POINT `t` WRITES BACK is block `t` of the region's function of the two arrays as the region finds them. -/
theorem flushed_eq0 (c : Dev nD) (t : Fin cfg0.N) :
    (dat0 (F := Ideal) V c).flushed 2 t
      = ((cfg0.win 2).blk t).view.read (Elt Ideal) (denseG0 (V c (Pipeline.arrRef spec0 0)) (V c (Pipeline.arrRef spec0 1))) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x128) origin0]
  obtain ⟨e00, e01, e10, e11, e20, e21⟩ := blockIdx0 t
  funext y
  show k0_pay1 (iblk0 V c 0 t) (iblk0 V c 1 t) ((win0 2).xinj (grid0.coords t) y)
    = denseG0 (V c (Pipeline.arrRef spec0 0)) (V c (Pipeline.arrRef spec0 1)) (((cfg0.win 2).blk t).view.emb y)
  refine entry0 _ _ (iblk0 V c 0 t) (iblk0 V c 1 t) t.val ?_ ?_ _ _ ?_ ?_
  · intro p k R hR
    show V c (Pipeline.arrRef spec0 0) (((cfg0.win 0).blk t).view.emb (ix2 p k)) = V c (Pipeline.arrRef spec0 0) (ix2 R k)
    refine congrArg _ (funext fun a => Fin.ext ?_)
    match a with
    | ⟨0, _⟩ => show win0_0.index t (0 : Fin 2) * 5000 + 1 * p.val = R.val; omega
    | ⟨1, _⟩ => show win0_0.index t (1 : Fin 2) * 128 + 1 * k.val = k.val; omega
  · intro k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (y 0).val = t.val * 5000 + (y 0).val; omega
  · show win0_2.index t (1 : Fin 2) * 128 + 1 * (y 1).val = (y 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- THE BLOCKS FILL THE ARRAY: row `R` is in the block of point `R / 5000`, and every point writes its block back. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 20 := N_0
  have ht : (i 0).val / 5000 < grid0.N := by omega
  obtain ⟨-, -, -, -, e20, e21⟩ := blockIdx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e21]; omega

/-- THE OUTPUT ARRAY after the region's last point: the region's function of the two arrays it reads. -/
theorem dense_final0_eq (c : Dev nD) :
    (dat0 (F := Ideal) V c).arrAt 2 cfg0.N = denseG0 (V c (Pipeline.arrRef spec0 0)) (V c (Pipeline.arrRef spec0 1)) :=
  (dat0 (F := Ideal) V c).arrAt_eq_of_cover 2 _ (fun t _ => flushed_eq0 V c t) cover0

/-- … and entry by entry, with the two arrays the region reads named `X` and `W`: at `(R, q)`, the product of row
    `R` of `X` with column `q` of `W`. -/
theorem dense_final0 (c : Dev nD) (X : S100000x128.Idx → EReal) (W : S128x128.Idx → EReal)
    (hX : V c (Pipeline.arrRef spec0 0) = X) (hW : V c (Pipeline.arrRef spec0 1) = W) (R : Fin 100000) (q : Fin 128) :
    ((dat0 (F := Ideal) V c).arrAt 2 cfg0.N (ix2 R q) : EReal) = ∑ k : Fin 128, X (ix2 R k) * W (ix2 k q) := by
  subst hX; subst hW
  exact (congrFun (dense_final0_eq V c) (ix2 R q)).trans (denseG0_apply _ _ R q)

end Cert.KernelIdeal.Hand

end
-- ==== Proof.DenseVal1.lean ====
/-
  Region 1 of @main, a dense layer over row blocks of 5000: the array it writes, as one function of the two arrays it reads,
  at the exact instance.

  Grid point `t` (of 10) reads block `t` of the 50000×128 input — rows `t·5000 … t·5000 + 4999` — and the whole 128×128
  weight, and writes block `t` of the output: entry `(p, q)` of that block is the product, row `p` of the input
  block against column `q` of the weight. Row `p` of block `t` is row `t·5000 + p` of the array, so what point `t` writes back is
  block `t` of ONE function of the two arrays: at `(R, q)`, the product `∑ k, X R k · W k q`. The 10 blocks are
  disjoint and fill the output (row `R` lies in block `R / 5000`), so after the last point the output array is that function
  everywhere.
-/
import proofs.«140582_j49512382988743_1_alg».proof.Proof.DenseBody1
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin1 : (![0, 0] : Fin 2 → Nat) = fun _ => 0 := funext fun a => by fin_cases a <;> rfl

/-- The region's result as one function of its input array `X` and weight `W`: at `(R, q)`, the product. -/
def denseG1 (X : S50000x128.Idx → EReal) (W : S128x128.Idx → EReal) : S50000x128.Idx → EReal :=
  fun i => ∑ k : Fin 128, X (ix2 (⟨(i 0).val, idx2_lt0 i⟩ : Fin 50000) k) * W (ix2 k (⟨(i 1).val, idx2_lt1 i⟩ : Fin 128))

/-- That function at an entry given by its coordinates. -/
theorem denseG1_apply (X : S50000x128.Idx → EReal) (W : S128x128.Idx → EReal) (R : Fin 50000) (q : Fin 128) :
    denseG1 X W (ix2 R q) = ∑ k : Fin 128, X (ix2 R k) * W (ix2 k q) := rfl

/-- The index maps, decided over the grid: the input's and the output's block index is `(t, 0)`, the weight's `(0, 0)`. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- ONE ENTRY. If `x0` holds rows `b·5000 + p` of `X` and `x1` holds `W`, the body's value at entry `j` of the block is the
    region's function at the entry `i` of the array that sits `b` blocks down: row `b·5000 + j₀`, column `j₁`. -/
theorem entry1 (X : S50000x128.Idx → EReal) (W : S128x128.Idx → EReal)
    (x0 : Vec Ideal S5000x128 .f32) (x1 : Vec Ideal S128x128 .f32) (b : ℕ)
    (hx0 : ∀ (p : Fin 5000) (k : Fin 128) (R : Fin 50000), R.val = b * 5000 + p.val → x0 (ix2 p k) = X (ix2 R k))
    (hx1 : ∀ k q : Fin 128, x1 (ix2 k q) = W (ix2 k q))
    (j : S5000x128.Idx) (i : S50000x128.Idx) (hi0 : (i 0).val = b * 5000 + (j 0).val) (hi1 : (i 1).val = (j 1).val) :
    k1_pay1 (F := Ideal) x0 x1 j = denseG1 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k1_pay1_at]
  unfold denseG1
  rw [hq]
  refine Finset.sum_congr rfl fun k _ => ?_
  rw [hx0 p k ⟨(i 0).val, idx2_lt0 i⟩ hi0, hx1]

/-- WHAT POINT `t` WRITES BACK is block `t` of the region's function of the two arrays as the region finds them. -/
theorem flushed_eq1 (c : Dev nD) (t : Fin cfg1.N) :
    (dat1 (F := Ideal) V c).flushed 2 t
      = ((cfg1.win 2).blk t).view.read (Elt Ideal) (denseG1 (V c (Pipeline.arrRef spec1 0)) (V c (Pipeline.arrRef spec1 1))) := by
  show (cfg1.win 2).cut (grid1.coords t) ((dat1 V c).after 2 t) = _
  rw [after1_2]
  unfold out1_2
  rw [View.canon_unit_zero origin1]
  simp only [View.ld_unit_zero (S := S5000x128) origin1, View.ld_unit_zero (S := S128x128) origin1]
  obtain ⟨e00, e01, e10, e11, e20, e21⟩ := blockIdx1 t
  funext y
  show k1_pay1 (iblk1 V c 0 t) (iblk1 V c 1 t) ((win1 2).xinj (grid1.coords t) y)
    = denseG1 (V c (Pipeline.arrRef spec1 0)) (V c (Pipeline.arrRef spec1 1)) (((cfg1.win 2).blk t).view.emb y)
  refine entry1 _ _ (iblk1 V c 0 t) (iblk1 V c 1 t) t.val ?_ ?_ _ _ ?_ ?_
  · intro p k R hR
    show V c (Pipeline.arrRef spec1 0) (((cfg1.win 0).blk t).view.emb (ix2 p k)) = V c (Pipeline.arrRef spec1 0) (ix2 R k)
    refine congrArg _ (funext fun a => Fin.ext ?_)
    match a with
    | ⟨0, _⟩ => show win1_0.index t (0 : Fin 2) * 5000 + 1 * p.val = R.val; omega
    | ⟨1, _⟩ => show win1_0.index t (1 : Fin 2) * 128 + 1 * k.val = k.val; omega
  · intro k q
    show V c (Pipeline.arrRef spec1 1) (((cfg1.win 1).blk t).view.emb (ix2 k q)) = V c (Pipeline.arrRef spec1 1) (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 5000 + 1 * (y 0).val = t.val * 5000 + (y 0).val; omega
  · show win1_2.index t (1 : Fin 2) * 128 + 1 * (y 1).val = (y 1).val; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v1).slice (win1_2.rect t)).set ↔ _
  rw [View.set_slice_whole, Rect.mem_set_unit]
  exact Iff.rfl

/-- THE BLOCKS FILL THE ARRAY: row `R` is in the block of point `R / 5000`, and every point writes its block back. -/
theorem cover1 (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : grid1.N = 10 := N_1
  have ht : (i 0).val / 5000 < grid1.N := by omega
  obtain ⟨-, -, -, -, e20, e21⟩ := blockIdx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e21]; omega

/-- THE OUTPUT ARRAY after the region's last point: the region's function of the two arrays it reads. -/
theorem dense_final1_eq (c : Dev nD) :
    (dat1 (F := Ideal) V c).arrAt 2 cfg1.N = denseG1 (V c (Pipeline.arrRef spec1 0)) (V c (Pipeline.arrRef spec1 1)) :=
  (dat1 (F := Ideal) V c).arrAt_eq_of_cover 2 _ (fun t _ => flushed_eq1 V c t) cover1

/-- … and entry by entry, with the two arrays the region reads named `X` and `W`: at `(R, q)`, the product of row
    `R` of `X` with column `q` of `W`. -/
theorem dense_final1 (c : Dev nD) (X : S50000x128.Idx → EReal) (W : S128x128.Idx → EReal)
    (hX : V c (Pipeline.arrRef spec1 0) = X) (hW : V c (Pipeline.arrRef spec1 1) = W) (R : Fin 50000) (q : Fin 128) :
    ((dat1 (F := Ideal) V c).arrAt 2 cfg1.N (ix2 R q) : EReal) = ∑ k : Fin 128, X (ix2 R k) * W (ix2 k q) := by
  subst hX; subst hW
  exact (congrFun (dense_final1_eq V c) (ix2 R q)).trans (denseG1_apply _ _ R q)

end Cert.KernelIdeal.Hand

end
-- ==== Proof.DenseVal3.lean ====
/-
  Region 3 of @main, a dense layer over row blocks of 5000: the array it writes, as one function of the two arrays it reads,
  at the exact instance.

  Grid point `t` (of 20) reads block `t` of the 100000×128 input — rows `t·5000 … t·5000 + 4999` — and the whole 128×128
  weight, and writes block `t` of the output: entry `(p, q)` of that block is the leaky rectifier of the product, row `p` of the input
  block against column `q` of the weight. Row `p` of block `t` is row `t·5000 + p` of the array, so what point `t` writes back is
  block `t` of ONE function of the two arrays: at `(R, q)`, the leaky rectifier of the product `∑ k, X R k · W k q`. The 20 blocks are
  disjoint and fill the output (row `R` lies in block `R / 5000`), so after the last point the output array is that function
  everywhere.
-/
import proofs.«140582_j49512382988743_1_alg».proof.Proof.DenseBody3
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin3 : (![0, 0] : Fin 2 → Nat) = fun _ => 0 := funext fun a => by fin_cases a <;> rfl

/-- The region's result as one function of its input array `X` and weight `W`: at `(R, q)`, the leaky rectifier of the product. -/
def denseG3 (X : S100000x128.Idx → EReal) (W : S128x128.Idx → EReal) : S100000x128.Idx → EReal :=
  fun i => lrelu (∑ k : Fin 128, X (ix2 (⟨(i 0).val, idx2_lt0 i⟩ : Fin 100000) k) * W (ix2 k (⟨(i 1).val, idx2_lt1 i⟩ : Fin 128)))

/-- That function at an entry given by its coordinates. -/
theorem denseG3_apply (X : S100000x128.Idx → EReal) (W : S128x128.Idx → EReal) (R : Fin 100000) (q : Fin 128) :
    denseG3 X W (ix2 R q) = lrelu (∑ k : Fin 128, X (ix2 R k) * W (ix2 k q)) := rfl

/-- The index maps, decided over the grid: the input's and the output's block index is `(t, 0)`, the weight's `(0, 0)`. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- ONE ENTRY. If `x0` holds rows `b·5000 + p` of `X` and `x1` holds `W`, the body's value at entry `j` of the block is the
    region's function at the entry `i` of the array that sits `b` blocks down: row `b·5000 + j₀`, column `j₁`. -/
theorem entry3 (X : S100000x128.Idx → EReal) (W : S128x128.Idx → EReal)
    (x0 : Vec Ideal S5000x128 .f32) (x1 : Vec Ideal S128x128 .f32) (b : ℕ)
    (hx0 : ∀ (p : Fin 5000) (k : Fin 128) (R : Fin 100000), R.val = b * 5000 + p.val → x0 (ix2 p k) = X (ix2 R k))
    (hx1 : ∀ k q : Fin 128, x1 (ix2 k q) = W (ix2 k q))
    (j : S5000x128.Idx) (i : S100000x128.Idx) (hi0 : (i 0).val = b * 5000 + (j 0).val) (hi1 : (i 1).val = (j 1).val) :
    k3_pay1 (F := Ideal) x0 x1 j = denseG3 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k3_pay1_at]
  unfold denseG3
  rw [hq]
  refine congrArg lrelu (Finset.sum_congr rfl fun k _ => ?_)
  rw [hx0 p k ⟨(i 0).val, idx2_lt0 i⟩ hi0, hx1]

/-- WHAT POINT `t` WRITES BACK is block `t` of the region's function of the two arrays as the region finds them. -/
theorem flushed_eq3 (c : Dev nD) (t : Fin cfg3.N) :
    (dat3 (F := Ideal) V c).flushed 2 t
      = ((cfg3.win 2).blk t).view.read (Elt Ideal) (denseG3 (V c (Pipeline.arrRef spec3 0)) (V c (Pipeline.arrRef spec3 1))) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S128x128) origin3]
  obtain ⟨e00, e01, e10, e11, e20, e21⟩ := blockIdx3 t
  funext y
  show k3_pay1 (iblk3 V c 0 t) (iblk3 V c 1 t) ((win3 2).xinj (grid3.coords t) y)
    = denseG3 (V c (Pipeline.arrRef spec3 0)) (V c (Pipeline.arrRef spec3 1)) (((cfg3.win 2).blk t).view.emb y)
  refine entry3 _ _ (iblk3 V c 0 t) (iblk3 V c 1 t) t.val ?_ ?_ _ _ ?_ ?_
  · intro p k R hR
    show V c (Pipeline.arrRef spec3 0) (((cfg3.win 0).blk t).view.emb (ix2 p k)) = V c (Pipeline.arrRef spec3 0) (ix2 R k)
    refine congrArg _ (funext fun a => Fin.ext ?_)
    match a with
    | ⟨0, _⟩ => show win3_0.index t (0 : Fin 2) * 5000 + 1 * p.val = R.val; omega
    | ⟨1, _⟩ => show win3_0.index t (1 : Fin 2) * 128 + 1 * k.val = k.val; omega
  · intro k q
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show win3_2.index t (0 : Fin 2) * 5000 + 1 * (y 0).val = t.val * 5000 + (y 0).val; omega
  · show win3_2.index t (1 : Fin 2) * 128 + 1 * (y 1).val = (y 1).val; omega

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v26).slice (win3_2.rect t)).set ↔ _
  rw [View.set_slice_whole, Rect.mem_set_unit]
  exact Iff.rfl

/-- THE BLOCKS FILL THE ARRAY: row `R` is in the block of point `R / 5000`, and every point writes its block back. -/
theorem cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : grid3.N = 20 := N_3
  have ht : (i 0).val / 5000 < grid3.N := by omega
  obtain ⟨-, -, -, -, e20, e21⟩ := blockIdx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e21]; omega

/-- THE OUTPUT ARRAY after the region's last point: the region's function of the two arrays it reads. -/
theorem dense_final3_eq (c : Dev nD) :
    (dat3 (F := Ideal) V c).arrAt 2 cfg3.N = denseG3 (V c (Pipeline.arrRef spec3 0)) (V c (Pipeline.arrRef spec3 1)) :=
  (dat3 (F := Ideal) V c).arrAt_eq_of_cover 2 _ (fun t _ => flushed_eq3 V c t) cover3

/-- … and entry by entry, with the two arrays the region reads named `X` and `W`: at `(R, q)`, the leaky rectifier of the product of row
    `R` of `X` with column `q` of `W`. -/
theorem dense_final3 (c : Dev nD) (X : S100000x128.Idx → EReal) (W : S128x128.Idx → EReal)
    (hX : V c (Pipeline.arrRef spec3 0) = X) (hW : V c (Pipeline.arrRef spec3 1) = W) (R : Fin 100000) (q : Fin 128) :
    ((dat3 (F := Ideal) V c).arrAt 2 cfg3.N (ix2 R q) : EReal) = lrelu (∑ k : Fin 128, X (ix2 R k) * W (ix2 k q)) := by
  subst hX; subst hW
  exact (congrFun (dense_final3_eq V c) (ix2 R q)).trans (denseG3_apply _ _ R q)

end Cert.KernelIdeal.Hand

end
-- ==== Proof.DenseVal5.lean ====
/-
  Region 5 of @main, a dense layer over row blocks of 5000: the array it writes, as one function of the two arrays it reads,
  at the exact instance.

  Grid point `t` (of 10) reads block `t` of the 50000×128 input — rows `t·5000 … t·5000 + 4999` — and the whole 128×128
  weight, and writes block `t` of the output: entry `(p, q)` of that block is the leaky rectifier of the product, row `p` of the input
  block against column `q` of the weight. Row `p` of block `t` is row `t·5000 + p` of the array, so what point `t` writes back is
  block `t` of ONE function of the two arrays: at `(R, q)`, the leaky rectifier of the product `∑ k, X R k · W k q`. The 10 blocks are
  disjoint and fill the output (row `R` lies in block `R / 5000`), so after the last point the output array is that function
  everywhere.
-/
import proofs.«140582_j49512382988743_1_alg».proof.Proof.DenseBody5
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin5 : (![0, 0] : Fin 2 → Nat) = fun _ => 0 := funext fun a => by fin_cases a <;> rfl

/-- The region's result as one function of its input array `X` and weight `W`: at `(R, q)`, the leaky rectifier of the product. -/
def denseG5 (X : S50000x128.Idx → EReal) (W : S128x128.Idx → EReal) : S50000x128.Idx → EReal :=
  fun i => lrelu (∑ k : Fin 128, X (ix2 (⟨(i 0).val, idx2_lt0 i⟩ : Fin 50000) k) * W (ix2 k (⟨(i 1).val, idx2_lt1 i⟩ : Fin 128)))

/-- That function at an entry given by its coordinates. -/
theorem denseG5_apply (X : S50000x128.Idx → EReal) (W : S128x128.Idx → EReal) (R : Fin 50000) (q : Fin 128) :
    denseG5 X W (ix2 R q) = lrelu (∑ k : Fin 128, X (ix2 R k) * W (ix2 k q)) := rfl

/-- The index maps, decided over the grid: the input's and the output's block index is `(t, 0)`, the weight's `(0, 0)`. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- ONE ENTRY. If `x0` holds rows `b·5000 + p` of `X` and `x1` holds `W`, the body's value at entry `j` of the block is the
    region's function at the entry `i` of the array that sits `b` blocks down: row `b·5000 + j₀`, column `j₁`. -/
theorem entry5 (X : S50000x128.Idx → EReal) (W : S128x128.Idx → EReal)
    (x0 : Vec Ideal S5000x128 .f32) (x1 : Vec Ideal S128x128 .f32) (b : ℕ)
    (hx0 : ∀ (p : Fin 5000) (k : Fin 128) (R : Fin 50000), R.val = b * 5000 + p.val → x0 (ix2 p k) = X (ix2 R k))
    (hx1 : ∀ k q : Fin 128, x1 (ix2 k q) = W (ix2 k q))
    (j : S5000x128.Idx) (i : S50000x128.Idx) (hi0 : (i 0).val = b * 5000 + (j 0).val) (hi1 : (i 1).val = (j 1).val) :
    k5_pay1 (F := Ideal) x0 x1 j = denseG5 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k5_pay1_at]
  unfold denseG5
  rw [hq]
  refine congrArg lrelu (Finset.sum_congr rfl fun k _ => ?_)
  rw [hx0 p k ⟨(i 0).val, idx2_lt0 i⟩ hi0, hx1]

/-- WHAT POINT `t` WRITES BACK is block `t` of the region's function of the two arrays as the region finds them. -/
theorem flushed_eq5 (c : Dev nD) (t : Fin cfg5.N) :
    (dat5 (F := Ideal) V c).flushed 2 t
      = ((cfg5.win 2).blk t).view.read (Elt Ideal) (denseG5 (V c (Pipeline.arrRef spec5 0)) (V c (Pipeline.arrRef spec5 1))) := by
  show (cfg5.win 2).cut (grid5.coords t) ((dat5 V c).after 2 t) = _
  rw [after5_2]
  unfold out5_2
  rw [View.canon_unit_zero origin5]
  simp only [View.ld_unit_zero (S := S5000x128) origin5, View.ld_unit_zero (S := S128x128) origin5]
  obtain ⟨e00, e01, e10, e11, e20, e21⟩ := blockIdx5 t
  funext y
  show k5_pay1 (iblk5 V c 0 t) (iblk5 V c 1 t) ((win5 2).xinj (grid5.coords t) y)
    = denseG5 (V c (Pipeline.arrRef spec5 0)) (V c (Pipeline.arrRef spec5 1)) (((cfg5.win 2).blk t).view.emb y)
  refine entry5 _ _ (iblk5 V c 0 t) (iblk5 V c 1 t) t.val ?_ ?_ _ _ ?_ ?_
  · intro p k R hR
    show V c (Pipeline.arrRef spec5 0) (((cfg5.win 0).blk t).view.emb (ix2 p k)) = V c (Pipeline.arrRef spec5 0) (ix2 R k)
    refine congrArg _ (funext fun a => Fin.ext ?_)
    match a with
    | ⟨0, _⟩ => show win5_0.index t (0 : Fin 2) * 5000 + 1 * p.val = R.val; omega
    | ⟨1, _⟩ => show win5_0.index t (1 : Fin 2) * 128 + 1 * k.val = k.val; omega
  · intro k q
    show V c (Pipeline.arrRef spec5 1) (((cfg5.win 1).blk t).view.emb (ix2 k q)) = V c (Pipeline.arrRef spec5 1) (ix2 k q)
    refine congrArg _ (funext fun a => Fin.ext ?_)
    match a with
    | ⟨0, _⟩ => show win5_1.index t (0 : Fin 2) * 128 + 1 * k.val = k.val; omega
    | ⟨1, _⟩ => show win5_1.index t (1 : Fin 2) * 128 + 1 * q.val = q.val; omega
  · show win5_2.index t (0 : Fin 2) * 5000 + 1 * (y 0).val = t.val * 5000 + (y 0).val; omega
  · show win5_2.index t (1 : Fin 2) * 128 + 1 * (y 1).val = (y 1).val; omega

/-- An index of the output array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v51).slice (win5_2.rect t)).set ↔ _
  rw [View.set_slice_whole, Rect.mem_set_unit]
  exact Iff.rfl

/-- THE BLOCKS FILL THE ARRAY: row `R` is in the block of point `R / 5000`, and every point writes its block back. -/
theorem cover5 (i : S50000x128.Idx) :
    ∃ t : Fin cfg5.N, (cfg5.win 2).flush t = true ∧ i ∈ ((cfg5.win 2).blk t).view.set := by
  have hi0 : (i 0).val < 50000 := idx2_lt0 i
  have hi1 : (i 1).val < 128 := idx2_lt1 i
  have hN : grid5.N = 10 := N_5
  have ht : (i 0).val / 5000 < grid5.N := by omega
  obtain ⟨-, -, -, -, e20, e21⟩ := blockIdx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e21]; omega

/-- THE OUTPUT ARRAY after the region's last point: the region's function of the two arrays it reads. -/
theorem dense_final5_eq (c : Dev nD) :
    (dat5 (F := Ideal) V c).arrAt 2 cfg5.N = denseG5 (V c (Pipeline.arrRef spec5 0)) (V c (Pipeline.arrRef spec5 1)) :=
  (dat5 (F := Ideal) V c).arrAt_eq_of_cover 2 _ (fun t _ => flushed_eq5 V c t) cover5

/-- … and entry by entry, with the two arrays the region reads named `X` and `W`: at `(R, q)`, the leaky rectifier of the product of row
    `R` of `X` with column `q` of `W`. -/
theorem dense_final5 (c : Dev nD) (X : S50000x128.Idx → EReal) (W : S128x128.Idx → EReal)
    (hX : V c (Pipeline.arrRef spec5 0) = X) (hW : V c (Pipeline.arrRef spec5 1) = W) (R : Fin 50000) (q : Fin 128) :
    ((dat5 (F := Ideal) V c).arrAt 2 cfg5.N (ix2 R q) : EReal) = lrelu (∑ k : Fin 128, X (ix2 R k) * W (ix2 k q)) := by
  subst hX; subst hW
  exact (congrFun (dense_final5_eq V c) (ix2 R q)).trans (denseG5_apply _ _ R q)

end Cert.KernelIdeal.Hand

end
-- ==== Proof.DenseVal6.lean ====
/-
  Region 6 of @main, a dense layer over row blocks of 5000: the array it writes, as one function of the two arrays it reads,
  at the exact instance.

  Grid point `t` (of 20) reads block `t` of the 100000×128 input — rows `t·5000 … t·5000 + 4999` — and the whole 128×128
  weight, and writes block `t` of the output: entry `(p, q)` of that block is the leaky rectifier of the rectifier of the product, row `p` of the input
  block against column `q` of the weight. Row `p` of block `t` is row `t·5000 + p` of the array, so what point `t` writes back is
  block `t` of ONE function of the two arrays: at `(R, q)`, the leaky rectifier of the rectifier of the product `∑ k, X R k · W k q`. The 20 blocks are
  disjoint and fill the output (row `R` lies in block `R / 5000`), so after the last point the output array is that function
  everywhere.
-/
import proofs.«140582_j49512382988743_1_alg».proof.Proof.DenseBody6
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin6 : (![0, 0] : Fin 2 → Nat) = fun _ => 0 := funext fun a => by fin_cases a <;> rfl

/-- The region's result as one function of its input array `X` and weight `W`: at `(R, q)`, the leaky rectifier of the rectifier of the product. -/
def denseG6 (X : S100000x128.Idx → EReal) (W : S128x128.Idx → EReal) : S100000x128.Idx → EReal :=
  fun i => lrelu (relu (∑ k : Fin 128, X (ix2 (⟨(i 0).val, idx2_lt0 i⟩ : Fin 100000) k) * W (ix2 k (⟨(i 1).val, idx2_lt1 i⟩ : Fin 128))))

/-- That function at an entry given by its coordinates. -/
theorem denseG6_apply (X : S100000x128.Idx → EReal) (W : S128x128.Idx → EReal) (R : Fin 100000) (q : Fin 128) :
    denseG6 X W (ix2 R q) = lrelu (relu (∑ k : Fin 128, X (ix2 R k) * W (ix2 k q))) := rfl

/-- The index maps, decided over the grid: the input's and the output's block index is `(t, 0)`, the weight's `(0, 0)`. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- ONE ENTRY. If `x0` holds rows `b·5000 + p` of `X` and `x1` holds `W`, the body's value at entry `j` of the block is the
    region's function at the entry `i` of the array that sits `b` blocks down: row `b·5000 + j₀`, column `j₁`. -/
theorem entry6 (X : S100000x128.Idx → EReal) (W : S128x128.Idx → EReal)
    (x0 : Vec Ideal S5000x128 .f32) (x1 : Vec Ideal S128x128 .f32) (b : ℕ)
    (hx0 : ∀ (p : Fin 5000) (k : Fin 128) (R : Fin 100000), R.val = b * 5000 + p.val → x0 (ix2 p k) = X (ix2 R k))
    (hx1 : ∀ k q : Fin 128, x1 (ix2 k q) = W (ix2 k q))
    (j : S5000x128.Idx) (i : S100000x128.Idx) (hi0 : (i 0).val = b * 5000 + (j 0).val) (hi1 : (i 1).val = (j 1).val) :
    k6_pay1 (F := Ideal) x0 x1 j = denseG6 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k6_pay1_at]
  unfold denseG6
  rw [hq]
  refine congrArg lrelu (congrArg relu (Finset.sum_congr rfl fun k _ => ?_))
  rw [hx0 p k ⟨(i 0).val, idx2_lt0 i⟩ hi0, hx1]

/-- WHAT POINT `t` WRITES BACK is block `t` of the region's function of the two arrays as the region finds them. -/
theorem flushed_eq6 (c : Dev nD) (t : Fin cfg6.N) :
    (dat6 (F := Ideal) V c).flushed 2 t
      = ((cfg6.win 2).blk t).view.read (Elt Ideal) (denseG6 (V c (Pipeline.arrRef spec6 0)) (V c (Pipeline.arrRef spec6 1))) := by
  show (cfg6.win 2).cut (grid6.coords t) ((dat6 V c).after 2 t) = _
  rw [after6_2]
  unfold out6_2
  rw [View.canon_unit_zero origin6]
  simp only [View.ld_unit_zero (S := S5000x128) origin6, View.ld_unit_zero (S := S128x128) origin6]
  obtain ⟨e00, e01, e10, e11, e20, e21⟩ := blockIdx6 t
  funext y
  show k6_pay1 (iblk6 V c 0 t) (iblk6 V c 1 t) ((win6 2).xinj (grid6.coords t) y)
    = denseG6 (V c (Pipeline.arrRef spec6 0)) (V c (Pipeline.arrRef spec6 1)) (((cfg6.win 2).blk t).view.emb y)
  refine entry6 _ _ (iblk6 V c 0 t) (iblk6 V c 1 t) t.val ?_ ?_ _ _ ?_ ?_
  · intro p k R hR
    show V c (Pipeline.arrRef spec6 0) (((cfg6.win 0).blk t).view.emb (ix2 p k)) = V c (Pipeline.arrRef spec6 0) (ix2 R k)
    refine congrArg _ (funext fun a => Fin.ext ?_)
    match a with
    | ⟨0, _⟩ => show win6_0.index t (0 : Fin 2) * 5000 + 1 * p.val = R.val; omega
    | ⟨1, _⟩ => show win6_0.index t (1 : Fin 2) * 128 + 1 * k.val = k.val; omega
  · intro k q
    show V c (Pipeline.arrRef spec6 1) (((cfg6.win 1).blk t).view.emb (ix2 k q)) = V c (Pipeline.arrRef spec6 1) (ix2 k q)
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  · show win6_2.index t (0 : Fin 2) * 5000 + 1 * (y 0).val = t.val * 5000 + (y 0).val; omega
  · show win6_2.index t (1 : Fin 2) * 128 + 1 * (y 1).val = (y 1).val; omega

/-- An index of the output array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v67).slice (win6_2.rect t)).set ↔ _
  rw [View.set_slice_whole, Rect.mem_set_unit]
  exact Iff.rfl

/-- THE BLOCKS FILL THE ARRAY: row `R` is in the block of point `R / 5000`, and every point writes its block back. -/
theorem cover6 (i : S100000x128.Idx) :
    ∃ t : Fin cfg6.N, (cfg6.win 2).flush t = true ∧ i ∈ ((cfg6.win 2).blk t).view.set := by
  have hi0 : (i 0).val < 100000 := idx2_lt0 i
  have hi1 : (i 1).val < 128 := idx2_lt1 i
  have hN : grid6.N = 20 := N_6
  have ht : (i 0).val / 5000 < grid6.N := by omega
  obtain ⟨-, -, -, -, e20, e21⟩ := blockIdx6 ⟨(i 0).val / 5000, ht⟩
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val ∧ (i 1).val < win6_2.index ⟨(i 0).val / 5000, ht⟩ (1 : Fin 2) * 128 + 128
    rw [e21]; omega

/-- THE OUTPUT ARRAY after the region's last point: the region's function of the two arrays it reads. -/
theorem dense_final6_eq (c : Dev nD) :
    (dat6 (F := Ideal) V c).arrAt 2 cfg6.N = denseG6 (V c (Pipeline.arrRef spec6 0)) (V c (Pipeline.arrRef spec6 1)) :=
  (dat6 (F := Ideal) V c).arrAt_eq_of_cover 2 _ (fun t _ => flushed_eq6 V c t) cover6

/-- … and entry by entry, with the two arrays the region reads named `X` and `W`: at `(R, q)`, the leaky rectifier of the rectifier of the product of row
    `R` of `X` with column `q` of `W`. -/
theorem dense_final6 (c : Dev nD) (X : S100000x128.Idx → EReal) (W : S128x128.Idx → EReal)
    (hX : V c (Pipeline.arrRef spec6 0) = X) (hW : V c (Pipeline.arrRef spec6 1) = W) (R : Fin 100000) (q : Fin 128) :
    ((dat6 (F := Ideal) V c).arrAt 2 cfg6.N (ix2 R q) : EReal) = lrelu (relu (∑ k : Fin 128, X (ix2 R k) * W (ix2 k q))) := by
  subst hX; subst hW
  exact (congrFun (dense_final6_eq V c) (ix2 R q)).trans (denseG6_apply _ _ R q)

end Cert.KernelIdeal.Hand

end
-- ==== Proof.DenseVal7.lean ====
/-
  Region 7 of @main, a dense layer over row blocks of 5000: the array it writes, as one function of the two arrays it reads,
  at the exact instance.

  Grid point `t` (of 10) reads block `t` of the 50000×128 input — rows `t·5000 … t·5000 + 4999` — and the whole 128×128
  weight, and writes block `t` of the output: entry `(p, q)` of that block is the leaky rectifier of the rectifier of the product, row `p` of the input
  block against column `q` of the weight. Row `p` of block `t` is row `t·5000 + p` of the array, so what point `t` writes back is
  block `t` of ONE function of the two arrays: at `(R, q)`, the leaky rectifier of the rectifier of the product `∑ k, X R k · W k q`. The 10 blocks are
  disjoint and fill the output (row `R` lies in block `R / 5000`), so after the last point the output array is that function
  everywhere.
-/
import proofs.«140582_j49512382988743_1_alg».proof.Proof.DenseBody7
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin7 : (![0, 0] : Fin 2 → Nat) = fun _ => 0 := funext fun a => by fin_cases a <;> rfl

/-- The region's result as one function of its input array `X` and weight `W`: at `(R, q)`, the leaky rectifier of the rectifier of the product. -/
def denseG7 (X : S50000x128.Idx → EReal) (W : S128x128.Idx → EReal) : S50000x128.Idx → EReal :=
  fun i => lrelu (relu (∑ k : Fin 128, X (ix2 (⟨(i 0).val, idx2_lt0 i⟩ : Fin 50000) k) * W (ix2 k (⟨(i 1).val, idx2_lt1 i⟩ : Fin 128))))

/-- That function at an entry given by its coordinates. -/
theorem denseG7_apply (X : S50000x128.Idx → EReal) (W : S128x128.Idx → EReal) (R : Fin 50000) (q : Fin 128) :
    denseG7 X W (ix2 R q) = lrelu (relu (∑ k : Fin 128, X (ix2 R k) * W (ix2 k q))) := rfl

/-- The index maps, decided over the grid: the input's and the output's block index is `(t, 0)`, the weight's `(0, 0)`. -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- ONE ENTRY. If `x0` holds rows `b·5000 + p` of `X` and `x1` holds `W`, the body's value at entry `j` of the block is the
    region's function at the entry `i` of the array that sits `b` blocks down: row `b·5000 + j₀`, column `j₁`. -/
theorem entry7 (X : S50000x128.Idx → EReal) (W : S128x128.Idx → EReal)
    (x0 : Vec Ideal S5000x128 .f32) (x1 : Vec Ideal S128x128 .f32) (b : ℕ)
    (hx0 : ∀ (p : Fin 5000) (k : Fin 128) (R : Fin 50000), R.val = b * 5000 + p.val → x0 (ix2 p k) = X (ix2 R k))
    (hx1 : ∀ k q : Fin 128, x1 (ix2 k q) = W (ix2 k q))
    (j : S5000x128.Idx) (i : S50000x128.Idx) (hi0 : (i 0).val = b * 5000 + (j 0).val) (hi1 : (i 1).val = (j 1).val) :
    k7_pay1 (F := Ideal) x0 x1 j = denseG7 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k7_pay1_at]
  unfold denseG7
  rw [hq]
  refine congrArg lrelu (congrArg relu (Finset.sum_congr rfl fun k _ => ?_))
  rw [hx0 p k ⟨(i 0).val, idx2_lt0 i⟩ hi0, hx1]

/-- WHAT POINT `t` WRITES BACK is block `t` of the region's function of the two arrays as the region finds them. -/
theorem flushed_eq7 (c : Dev nD) (t : Fin cfg7.N) :
    (dat7 (F := Ideal) V c).flushed 2 t
      = ((cfg7.win 2).blk t).view.read (Elt Ideal) (denseG7 (V c (Pipeline.arrRef spec7 0)) (V c (Pipeline.arrRef spec7 1))) := by
  show (cfg7.win 2).cut (grid7.coords t) ((dat7 V c).after 2 t) = _
  rw [after7_2]
  unfold out7_2
  rw [View.canon_unit_zero origin7]
  simp only [View.ld_unit_zero (S := S5000x128) origin7, View.ld_unit_zero (S := S128x128) origin7]
  obtain ⟨e00, e01, e10, e11, e20, e21⟩ := blockIdx7 t
  funext y
  show k7_pay1 (iblk7 V c 0 t) (iblk7 V c 1 t) ((win7 2).xinj (grid7.coords t) y)
    = denseG7 (V c (Pipeline.arrRef spec7 0)) (V c (Pipeline.arrRef spec7 1)) (((cfg7.win 2).blk t).view.emb y)
  refine entry7 _ _ (iblk7 V c 0 t) (iblk7 V c 1 t) t.val ?_ ?_ _ _ ?_ ?_
  · intro p k R hR
    show V c (Pipeline.arrRef spec7 0) (((cfg7.win 0).blk t).view.emb (ix2 p k)) = V c (Pipeline.arrRef spec7 0) (ix2 R k)
    refine congrArg _ (funext fun a => Fin.ext ?_)
    match a with
    | ⟨0, _⟩ => show win7_0.index t (0 : Fin 2) * 5000 + 1 * p.val = R.val; omega
    | ⟨1, _⟩ => show win7_0.index t (1 : Fin 2) * 128 + 1 * k.val = k.val; omega
  · intro k q
    show V c (Pipeline.arrRef spec7 1) (((cfg7.win 1).blk t).view.emb (ix2 k q)) = V c (Pipeline.arrRef spec7 1) (ix2 k q)
    refine congrArg _ (funext fun a => Fin.ext ?_)
    match a with
    | ⟨0, _⟩ => show win7_1.index t (0 : Fin 2) * 128 + 1 * k.val = k.val; omega
    | ⟨1, _⟩ => show win7_1.index t (1 : Fin 2) * 128 + 1 * q.val = q.val; omega
  · show win7_2.index t (0 : Fin 2) * 5000 + 1 * (y 0).val = t.val * 5000 + (y 0).val; omega
  · show win7_2.index t (1 : Fin 2) * 128 + 1 * (y 1).val = (y 1).val; omega

/-- An index of the output array is in point `t`'s block iff each coordinate is in the block's range on its axis. -/
theorem mem_blk7 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v83).slice (win7_2.rect t)).set ↔ _
  rw [View.set_slice_whole, Rect.mem_set_unit]
  exact Iff.rfl

/-- THE BLOCKS FILL THE ARRAY: row `R` is in the block of point `R / 5000`, and every point writes its block back. -/
theorem cover7 (i : S50000x128.Idx) :
    ∃ t : Fin cfg7.N, (cfg7.win 2).flush t = true ∧ i ∈ ((cfg7.win 2).blk t).view.set := by
  have hi0 : (i 0).val < 50000 := idx2_lt0 i
  have hi1 : (i 1).val < 128 := idx2_lt1 i
  have hN : grid7.N = 10 := N_7
  have ht : (i 0).val / 5000 < grid7.N := by omega
  obtain ⟨-, -, -, -, e20, e21⟩ := blockIdx7 ⟨(i 0).val / 5000, ht⟩
  refine ⟨⟨(i 0).val / 5000, ht⟩, flush7_2 _, ?_⟩
  rw [mem_blk7]
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win7_2.index ⟨(i 0).val / 5000, ht⟩ (1 : Fin 2) * 128 ≤ (i 1).val ∧ (i 1).val < win7_2.index ⟨(i 0).val / 5000, ht⟩ (1 : Fin 2) * 128 + 128
    rw [e21]; omega

/-- THE OUTPUT ARRAY after the region's last point: the region's function of the two arrays it reads. -/
theorem dense_final7_eq (c : Dev nD) :
    (dat7 (F := Ideal) V c).arrAt 2 cfg7.N = denseG7 (V c (Pipeline.arrRef spec7 0)) (V c (Pipeline.arrRef spec7 1)) :=
  (dat7 (F := Ideal) V c).arrAt_eq_of_cover 2 _ (fun t _ => flushed_eq7 V c t) cover7

/-- … and entry by entry, with the two arrays the region reads named `X` and `W`: at `(R, q)`, the leaky rectifier of the rectifier of the product of row
    `R` of `X` with column `q` of `W`. -/
theorem dense_final7 (c : Dev nD) (X : S50000x128.Idx → EReal) (W : S128x128.Idx → EReal)
    (hX : V c (Pipeline.arrRef spec7 0) = X) (hW : V c (Pipeline.arrRef spec7 1) = W) (R : Fin 50000) (q : Fin 128) :
    ((dat7 (F := Ideal) V c).arrAt 2 cfg7.N (ix2 R q) : EReal) = lrelu (relu (∑ k : Fin 128, X (ix2 R k) * W (ix2 k q))) := by
  subst hX; subst hW
  exact (congrFun (dense_final7_eq V c) (ix2 R q)).trans (denseG7_apply _ _ R q)

end Cert.KernelIdeal.Hand

end
-- ==== Proof.DenseVal9.lean ====
/-
  Region 9 of @main, a dense layer over row blocks of 5000: the array it writes, as one function of the two arrays it reads,
  at the exact instance.

  Grid point `t` (of 20) reads block `t` of the 100000×128 input — rows `t·5000 … t·5000 + 4999` — and the whole 128×128
  weight, and writes block `t` of the output: entry `(p, q)` of that block is the leaky rectifier of the product, row `p` of the input
  block against column `q` of the weight. Row `p` of block `t` is row `t·5000 + p` of the array, so what point `t` writes back is
  block `t` of ONE function of the two arrays: at `(R, q)`, the leaky rectifier of the product `∑ k, X R k · W k q`. The 20 blocks are
  disjoint and fill the output (row `R` lies in block `R / 5000`), so after the last point the output array is that function
  everywhere.
-/
import proofs.«140582_j49512382988743_1_alg».proof.Proof.DenseBody9
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin9 : (![0, 0] : Fin 2 → Nat) = fun _ => 0 := funext fun a => by fin_cases a <;> rfl

/-- The region's result as one function of its input array `X` and weight `W`: at `(R, q)`, the leaky rectifier of the product. -/
def denseG9 (X : S100000x128.Idx → EReal) (W : S128x128.Idx → EReal) : S100000x128.Idx → EReal :=
  fun i => lrelu (∑ k : Fin 128, X (ix2 (⟨(i 0).val, idx2_lt0 i⟩ : Fin 100000) k) * W (ix2 k (⟨(i 1).val, idx2_lt1 i⟩ : Fin 128)))

/-- That function at an entry given by its coordinates. -/
theorem denseG9_apply (X : S100000x128.Idx → EReal) (W : S128x128.Idx → EReal) (R : Fin 100000) (q : Fin 128) :
    denseG9 X W (ix2 R q) = lrelu (∑ k : Fin 128, X (ix2 R k) * W (ix2 k q)) := rfl

/-- The index maps, decided over the grid: the input's and the output's block index is `(t, 0)`, the weight's `(0, 0)`. -/
theorem blockIdx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- ONE ENTRY. If `x0` holds rows `b·5000 + p` of `X` and `x1` holds `W`, the body's value at entry `j` of the block is the
    region's function at the entry `i` of the array that sits `b` blocks down: row `b·5000 + j₀`, column `j₁`. -/
theorem entry9 (X : S100000x128.Idx → EReal) (W : S128x128.Idx → EReal)
    (x0 : Vec Ideal S5000x128 .f32) (x1 : Vec Ideal S128x128 .f32) (b : ℕ)
    (hx0 : ∀ (p : Fin 5000) (k : Fin 128) (R : Fin 100000), R.val = b * 5000 + p.val → x0 (ix2 p k) = X (ix2 R k))
    (hx1 : ∀ k q : Fin 128, x1 (ix2 k q) = W (ix2 k q))
    (j : S5000x128.Idx) (i : S100000x128.Idx) (hi0 : (i 0).val = b * 5000 + (j 0).val) (hi1 : (i 1).val = (j 1).val) :
    k9_pay1 (F := Ideal) x0 x1 j = denseG9 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k9_pay1_at]
  unfold denseG9
  rw [hq]
  refine congrArg lrelu (Finset.sum_congr rfl fun k _ => ?_)
  rw [hx0 p k ⟨(i 0).val, idx2_lt0 i⟩ hi0, hx1]

/-- WHAT POINT `t` WRITES BACK is block `t` of the region's function of the two arrays as the region finds them. -/
theorem flushed_eq9 (c : Dev nD) (t : Fin cfg9.N) :
    (dat9 (F := Ideal) V c).flushed 2 t
      = ((cfg9.win 2).blk t).view.read (Elt Ideal) (denseG9 (V c (Pipeline.arrRef spec9 0)) (V c (Pipeline.arrRef spec9 1))) := by
  show (cfg9.win 2).cut (grid9.coords t) ((dat9 V c).after 2 t) = _
  rw [after9_2]
  unfold out9_2
  rw [View.canon_unit_zero origin9]
  simp only [View.ld_unit_zero (S := S5000x128) origin9, View.ld_unit_zero (S := S128x128) origin9]
  obtain ⟨e00, e01, e10, e11, e20, e21⟩ := blockIdx9 t
  funext y
  show k9_pay1 (iblk9 V c 0 t) (iblk9 V c 1 t) ((win9 2).xinj (grid9.coords t) y)
    = denseG9 (V c (Pipeline.arrRef spec9 0)) (V c (Pipeline.arrRef spec9 1)) (((cfg9.win 2).blk t).view.emb y)
  refine entry9 _ _ (iblk9 V c 0 t) (iblk9 V c 1 t) t.val ?_ ?_ _ _ ?_ ?_
  · intro p k R hR
    show V c (Pipeline.arrRef spec9 0) (((cfg9.win 0).blk t).view.emb (ix2 p k)) = V c (Pipeline.arrRef spec9 0) (ix2 R k)
    refine congrArg _ (funext fun a => Fin.ext ?_)
    match a with
    | ⟨0, _⟩ => show win9_0.index t (0 : Fin 2) * 5000 + 1 * p.val = R.val; omega
    | ⟨1, _⟩ => show win9_0.index t (1 : Fin 2) * 128 + 1 * k.val = k.val; omega
  · intro k q
    show V c (Pipeline.arrRef spec9 1) (((cfg9.win 1).blk t).view.emb (ix2 k q)) = V c (Pipeline.arrRef spec9 1) (ix2 k q)
    refine congrArg _ (funext fun a => Fin.ext ?_)
    match a with
    | ⟨0, _⟩ => show win9_1.index t (0 : Fin 2) * 128 + 1 * k.val = k.val; omega
    | ⟨1, _⟩ => show win9_1.index t (1 : Fin 2) * 128 + 1 * q.val = q.val; omega
  · show win9_2.index t (0 : Fin 2) * 5000 + 1 * (y 0).val = t.val * 5000 + (y 0).val; omega
  · show win9_2.index t (1 : Fin 2) * 128 + 1 * (y 1).val = (y 1).val; omega

/-- An index of the output array is in point `t`'s block iff each coordinate is in the block's range on its axis. -/
theorem mem_blk9 (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v114).slice (win9_2.rect t)).set ↔ _
  rw [View.set_slice_whole, Rect.mem_set_unit]
  exact Iff.rfl

/-- THE BLOCKS FILL THE ARRAY: row `R` is in the block of point `R / 5000`, and every point writes its block back. -/
theorem cover9 (i : S100000x128.Idx) :
    ∃ t : Fin cfg9.N, (cfg9.win 2).flush t = true ∧ i ∈ ((cfg9.win 2).blk t).view.set := by
  have hi0 : (i 0).val < 100000 := idx2_lt0 i
  have hi1 : (i 1).val < 128 := idx2_lt1 i
  have hN : grid9.N = 20 := N_9
  have ht : (i 0).val / 5000 < grid9.N := by omega
  obtain ⟨-, -, -, -, e20, e21⟩ := blockIdx9 ⟨(i 0).val / 5000, ht⟩
  refine ⟨⟨(i 0).val / 5000, ht⟩, flush9_2 _, ?_⟩
  rw [mem_blk9]
  intro a
  match a with
  | ⟨0, _⟩ =>
    show win9_2.index ⟨(i 0).val / 5000, ht⟩ (0 : Fin 2) * 5000 ≤ (i 0).val ∧ (i 0).val < win9_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win9_2.index ⟨(i 0).val / 5000, ht⟩ (1 : Fin 2) * 128 ≤ (i 1).val ∧ (i 1).val < win9_2.index ⟨(i 0).val / 5000, ht⟩ (1 : Fin 2) * 128 + 128
    rw [e21]; omega

/-- THE OUTPUT ARRAY after the region's last point: the region's function of the two arrays it reads. -/
theorem dense_final9_eq (c : Dev nD) :
    (dat9 (F := Ideal) V c).arrAt 2 cfg9.N = denseG9 (V c (Pipeline.arrRef spec9 0)) (V c (Pipeline.arrRef spec9 1)) :=
  (dat9 (F := Ideal) V c).arrAt_eq_of_cover 2 _ (fun t _ => flushed_eq9 V c t) cover9

/-- … and entry by entry, with the two arrays the region reads named `X` and `W`: at `(R, q)`, the leaky rectifier of the product of row
    `R` of `X` with column `q` of `W`. -/
theorem dense_final9 (c : Dev nD) (X : S100000x128.Idx → EReal) (W : S128x128.Idx → EReal)
    (hX : V c (Pipeline.arrRef spec9 0) = X) (hW : V c (Pipeline.arrRef spec9 1) = W) (R : Fin 100000) (q : Fin 128) :
    ((dat9 (F := Ideal) V c).arrAt 2 cfg9.N (ix2 R q) : EReal) = lrelu (∑ k : Fin 128, X (ix2 R k) * W (ix2 k q)) := by
  subst hX; subst hW
  exact (congrFun (dense_final9_eq V c) (ix2 R q)).trans (denseG9_apply _ _ R q)

end Cert.KernelIdeal.Hand

end
-- ==== Proof.DenseVal11.lean ====
/-
  Region 11 of @main, a dense layer over row blocks of 5000: the array it writes, as one function of the two arrays it reads,
  at the exact instance.

  Grid point `t` (of 10) reads block `t` of the 50000×128 input — rows `t·5000 … t·5000 + 4999` — and the whole 128×128
  weight, and writes block `t` of the output: entry `(p, q)` of that block is the leaky rectifier of the product, row `p` of the input
  block against column `q` of the weight. Row `p` of block `t` is row `t·5000 + p` of the array, so what point `t` writes back is
  block `t` of ONE function of the two arrays: at `(R, q)`, the leaky rectifier of the product `∑ k, X R k · W k q`. The 10 blocks are
  disjoint and fill the output (row `R` lies in block `R / 5000`), so after the last point the output array is that function
  everywhere.
-/
import proofs.«140582_j49512382988743_1_alg».proof.Proof.DenseBody11
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin11 : (![0, 0] : Fin 2 → Nat) = fun _ => 0 := funext fun a => by fin_cases a <;> rfl

/-- The region's result as one function of its input array `X` and weight `W`: at `(R, q)`, the leaky rectifier of the product. -/
def denseG11 (X : S50000x128.Idx → EReal) (W : S128x128.Idx → EReal) : S50000x128.Idx → EReal :=
  fun i => lrelu (∑ k : Fin 128, X (ix2 (⟨(i 0).val, idx2_lt0 i⟩ : Fin 50000) k) * W (ix2 k (⟨(i 1).val, idx2_lt1 i⟩ : Fin 128)))

/-- That function at an entry given by its coordinates. -/
theorem denseG11_apply (X : S50000x128.Idx → EReal) (W : S128x128.Idx → EReal) (R : Fin 50000) (q : Fin 128) :
    denseG11 X W (ix2 R q) = lrelu (∑ k : Fin 128, X (ix2 R k) * W (ix2 k q)) := rfl

/-- The index maps, decided over the grid: the input's and the output's block index is `(t, 0)`, the weight's `(0, 0)`. -/
theorem blockIdx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- ONE ENTRY. If `x0` holds rows `b·5000 + p` of `X` and `x1` holds `W`, the body's value at entry `j` of the block is the
    region's function at the entry `i` of the array that sits `b` blocks down: row `b·5000 + j₀`, column `j₁`. -/
theorem entry11 (X : S50000x128.Idx → EReal) (W : S128x128.Idx → EReal)
    (x0 : Vec Ideal S5000x128 .f32) (x1 : Vec Ideal S128x128 .f32) (b : ℕ)
    (hx0 : ∀ (p : Fin 5000) (k : Fin 128) (R : Fin 50000), R.val = b * 5000 + p.val → x0 (ix2 p k) = X (ix2 R k))
    (hx1 : ∀ k q : Fin 128, x1 (ix2 k q) = W (ix2 k q))
    (j : S5000x128.Idx) (i : S50000x128.Idx) (hi0 : (i 0).val = b * 5000 + (j 0).val) (hi1 : (i 1).val = (j 1).val) :
    k11_pay1 (F := Ideal) x0 x1 j = denseG11 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k11_pay1_at]
  unfold denseG11
  rw [hq]
  refine congrArg lrelu (Finset.sum_congr rfl fun k _ => ?_)
  rw [hx0 p k ⟨(i 0).val, idx2_lt0 i⟩ hi0, hx1]

/-- WHAT POINT `t` WRITES BACK is block `t` of the region's function of the two arrays as the region finds them. -/
theorem flushed_eq11 (c : Dev nD) (t : Fin cfg11.N) :
    (dat11 (F := Ideal) V c).flushed 2 t
      = ((cfg11.win 2).blk t).view.read (Elt Ideal) (denseG11 (V c (Pipeline.arrRef spec11 0)) (V c (Pipeline.arrRef spec11 1))) := by
  show (cfg11.win 2).cut (grid11.coords t) ((dat11 V c).after 2 t) = _
  rw [after11_2]
  unfold out11_2
  rw [View.canon_unit_zero origin11]
  simp only [View.ld_unit_zero (S := S5000x128) origin11, View.ld_unit_zero (S := S128x128) origin11]
  obtain ⟨e00, e01, e10, e11, e20, e21⟩ := blockIdx11 t
  funext y
  show k11_pay1 (iblk11 V c 0 t) (iblk11 V c 1 t) ((win11 2).xinj (grid11.coords t) y)
    = denseG11 (V c (Pipeline.arrRef spec11 0)) (V c (Pipeline.arrRef spec11 1)) (((cfg11.win 2).blk t).view.emb y)
  refine entry11 _ _ (iblk11 V c 0 t) (iblk11 V c 1 t) t.val ?_ ?_ _ _ ?_ ?_
  · intro p k R hR
    show V c (Pipeline.arrRef spec11 0) (((cfg11.win 0).blk t).view.emb (ix2 p k)) = V c (Pipeline.arrRef spec11 0) (ix2 R k)
    refine congrArg _ (funext fun a => Fin.ext ?_)
    match a with
    | ⟨0, _⟩ => show win11_0.index t (0 : Fin 2) * 5000 + 1 * p.val = R.val; omega
    | ⟨1, _⟩ => show win11_0.index t (1 : Fin 2) * 128 + 1 * k.val = k.val; omega
  · intro k q
    show V c (Pipeline.arrRef spec11 1) (((cfg11.win 1).blk t).view.emb (ix2 k q)) = V c (Pipeline.arrRef spec11 1) (ix2 k q)
    refine congrArg _ (funext fun a => Fin.ext ?_)
    match a with
    | ⟨0, _⟩ => show win11_1.index t (0 : Fin 2) * 128 + 1 * k.val = k.val; omega
    | ⟨1, _⟩ => show win11_1.index t (1 : Fin 2) * 128 + 1 * q.val = q.val; omega
  · show win11_2.index t (0 : Fin 2) * 5000 + 1 * (y 0).val = t.val * 5000 + (y 0).val; omega
  · show win11_2.index t (1 : Fin 2) * 128 + 1 * (y 1).val = (y 1).val; omega

/-- An index of the output array is in point `t`'s block iff each coordinate is in the block's range on its axis. -/
theorem mem_blk11 (t : Fin cfg11.N) (i : S50000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v139).slice (win11_2.rect t)).set ↔ _
  rw [View.set_slice_whole, Rect.mem_set_unit]
  exact Iff.rfl

/-- THE BLOCKS FILL THE ARRAY: row `R` is in the block of point `R / 5000`, and every point writes its block back. -/
theorem cover11 (i : S50000x128.Idx) :
    ∃ t : Fin cfg11.N, (cfg11.win 2).flush t = true ∧ i ∈ ((cfg11.win 2).blk t).view.set := by
  have hi0 : (i 0).val < 50000 := idx2_lt0 i
  have hi1 : (i 1).val < 128 := idx2_lt1 i
  have hN : grid11.N = 10 := N_11
  have ht : (i 0).val / 5000 < grid11.N := by omega
  obtain ⟨-, -, -, -, e20, e21⟩ := blockIdx11 ⟨(i 0).val / 5000, ht⟩
  refine ⟨⟨(i 0).val / 5000, ht⟩, flush11_2 _, ?_⟩
  rw [mem_blk11]
  intro a
  match a with
  | ⟨0, _⟩ =>
    show win11_2.index ⟨(i 0).val / 5000, ht⟩ (0 : Fin 2) * 5000 ≤ (i 0).val ∧ (i 0).val < win11_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win11_2.index ⟨(i 0).val / 5000, ht⟩ (1 : Fin 2) * 128 ≤ (i 1).val ∧ (i 1).val < win11_2.index ⟨(i 0).val / 5000, ht⟩ (1 : Fin 2) * 128 + 128
    rw [e21]; omega

/-- THE OUTPUT ARRAY after the region's last point: the region's function of the two arrays it reads. -/
theorem dense_final11_eq (c : Dev nD) :
    (dat11 (F := Ideal) V c).arrAt 2 cfg11.N = denseG11 (V c (Pipeline.arrRef spec11 0)) (V c (Pipeline.arrRef spec11 1)) :=
  (dat11 (F := Ideal) V c).arrAt_eq_of_cover 2 _ (fun t _ => flushed_eq11 V c t) cover11

/-- … and entry by entry, with the two arrays the region reads named `X` and `W`: at `(R, q)`, the leaky rectifier of the product of row
    `R` of `X` with column `q` of `W`. -/
theorem dense_final11 (c : Dev nD) (X : S50000x128.Idx → EReal) (W : S128x128.Idx → EReal)
    (hX : V c (Pipeline.arrRef spec11 0) = X) (hW : V c (Pipeline.arrRef spec11 1) = W) (R : Fin 50000) (q : Fin 128) :
    ((dat11 (F := Ideal) V c).arrAt 2 cfg11.N (ix2 R q) : EReal) = lrelu (∑ k : Fin 128, X (ix2 R k) * W (ix2 k q)) := by
  subst hX; subst hW
  exact (congrFun (dense_final11_eq V c) (ix2 R q)).trans (denseG11_apply _ _ R q)

end Cert.KernelIdeal.Hand

end
-- ==== Proof.DenseVal12.lean ====
/-
  Region 12 of @main, a dense layer over row blocks of 5000: the array it writes, as one function of the two arrays it reads,
  at the exact instance.

  Grid point `t` (of 20) reads block `t` of the 100000×128 input — rows `t·5000 … t·5000 + 4999` — and the whole 128×128
  weight, and writes block `t` of the output: entry `(p, q)` of that block is the leaky rectifier of the rectifier of the product, row `p` of the input
  block against column `q` of the weight. Row `p` of block `t` is row `t·5000 + p` of the array, so what point `t` writes back is
  block `t` of ONE function of the two arrays: at `(R, q)`, the leaky rectifier of the rectifier of the product `∑ k, X R k · W k q`. The 20 blocks are
  disjoint and fill the output (row `R` lies in block `R / 5000`), so after the last point the output array is that function
  everywhere.
-/
import proofs.«140582_j49512382988743_1_alg».proof.Proof.DenseBody12
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin12 : (![0, 0] : Fin 2 → Nat) = fun _ => 0 := funext fun a => by fin_cases a <;> rfl

/-- The region's result as one function of its input array `X` and weight `W`: at `(R, q)`, the leaky rectifier of the rectifier of the product. -/
def denseG12 (X : S100000x128.Idx → EReal) (W : S128x128.Idx → EReal) : S100000x128.Idx → EReal :=
  fun i => lrelu (relu (∑ k : Fin 128, X (ix2 (⟨(i 0).val, idx2_lt0 i⟩ : Fin 100000) k) * W (ix2 k (⟨(i 1).val, idx2_lt1 i⟩ : Fin 128))))

/-- That function at an entry given by its coordinates. -/
theorem denseG12_apply (X : S100000x128.Idx → EReal) (W : S128x128.Idx → EReal) (R : Fin 100000) (q : Fin 128) :
    denseG12 X W (ix2 R q) = lrelu (relu (∑ k : Fin 128, X (ix2 R k) * W (ix2 k q))) := rfl

/-- The index maps, decided over the grid: the input's and the output's block index is `(t, 0)`, the weight's `(0, 0)`. -/
theorem blockIdx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- ONE ENTRY. If `x0` holds rows `b·5000 + p` of `X` and `x1` holds `W`, the body's value at entry `j` of the block is the
    region's function at the entry `i` of the array that sits `b` blocks down: row `b·5000 + j₀`, column `j₁`. -/
theorem entry12 (X : S100000x128.Idx → EReal) (W : S128x128.Idx → EReal)
    (x0 : Vec Ideal S5000x128 .f32) (x1 : Vec Ideal S128x128 .f32) (b : ℕ)
    (hx0 : ∀ (p : Fin 5000) (k : Fin 128) (R : Fin 100000), R.val = b * 5000 + p.val → x0 (ix2 p k) = X (ix2 R k))
    (hx1 : ∀ k q : Fin 128, x1 (ix2 k q) = W (ix2 k q))
    (j : S5000x128.Idx) (i : S100000x128.Idx) (hi0 : (i 0).val = b * 5000 + (j 0).val) (hi1 : (i 1).val = (j 1).val) :
    k12_pay1 (F := Ideal) x0 x1 j = denseG12 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k12_pay1_at]
  unfold denseG12
  rw [hq]
  refine congrArg lrelu (congrArg relu (Finset.sum_congr rfl fun k _ => ?_))
  rw [hx0 p k ⟨(i 0).val, idx2_lt0 i⟩ hi0, hx1]

/-- WHAT POINT `t` WRITES BACK is block `t` of the region's function of the two arrays as the region finds them. -/
theorem flushed_eq12 (c : Dev nD) (t : Fin cfg12.N) :
    (dat12 (F := Ideal) V c).flushed 2 t
      = ((cfg12.win 2).blk t).view.read (Elt Ideal) (denseG12 (V c (Pipeline.arrRef spec12 0)) (V c (Pipeline.arrRef spec12 1))) := by
  show (cfg12.win 2).cut (grid12.coords t) ((dat12 V c).after 2 t) = _
  rw [after12_2]
  unfold out12_2
  rw [View.canon_unit_zero origin12]
  simp only [View.ld_unit_zero (S := S5000x128) origin12, View.ld_unit_zero (S := S128x128) origin12]
  obtain ⟨e00, e01, e10, e11, e20, e21⟩ := blockIdx12 t
  funext y
  show k12_pay1 (iblk12 V c 0 t) (iblk12 V c 1 t) ((win12 2).xinj (grid12.coords t) y)
    = denseG12 (V c (Pipeline.arrRef spec12 0)) (V c (Pipeline.arrRef spec12 1)) (((cfg12.win 2).blk t).view.emb y)
  refine entry12 _ _ (iblk12 V c 0 t) (iblk12 V c 1 t) t.val ?_ ?_ _ _ ?_ ?_
  · intro p k R hR
    show V c (Pipeline.arrRef spec12 0) (((cfg12.win 0).blk t).view.emb (ix2 p k)) = V c (Pipeline.arrRef spec12 0) (ix2 R k)
    refine congrArg _ (funext fun a => Fin.ext ?_)
    match a with
    | ⟨0, _⟩ => show win12_0.index t (0 : Fin 2) * 5000 + 1 * p.val = R.val; omega
    | ⟨1, _⟩ => show win12_0.index t (1 : Fin 2) * 128 + 1 * k.val = k.val; omega
  · intro k q
    show V c (Pipeline.arrRef spec12 1) (((cfg12.win 1).blk t).view.emb (ix2 k q)) = V c (Pipeline.arrRef spec12 1) (ix2 k q)
    refine congrArg _ (funext fun a => Fin.ext ?_)
    match a with
    | ⟨0, _⟩ => show win12_1.index t (0 : Fin 2) * 128 + 1 * k.val = k.val; omega
    | ⟨1, _⟩ => show win12_1.index t (1 : Fin 2) * 128 + 1 * q.val = q.val; omega
  · show win12_2.index t (0 : Fin 2) * 5000 + 1 * (y 0).val = t.val * 5000 + (y 0).val; omega
  · show win12_2.index t (1 : Fin 2) * 128 + 1 * (y 1).val = (y 1).val; omega

/-- An index of the output array is in point `t`'s block iff each coordinate is in the block's range on its axis. -/
theorem mem_blk12 (t : Fin cfg12.N) (i : S100000x128.Idx) :
    i ∈ ((cfg12.win 2).blk t).view.set ↔ ∀ a : Fin 2, win12_2.index t a * S5000x128.size a ≤ (i a).val ∧ (i a).val < win12_2.index t a * S5000x128.size a + S5000x128.size a := by
  show i ∈ ((View.whole main_v155).slice (win12_2.rect t)).set ↔ _
  rw [View.set_slice_whole, Rect.mem_set_unit]
  exact Iff.rfl

/-- THE BLOCKS FILL THE ARRAY: row `R` is in the block of point `R / 5000`, and every point writes its block back. -/
theorem cover12 (i : S100000x128.Idx) :
    ∃ t : Fin cfg12.N, (cfg12.win 2).flush t = true ∧ i ∈ ((cfg12.win 2).blk t).view.set := by
  have hi0 : (i 0).val < 100000 := idx2_lt0 i
  have hi1 : (i 1).val < 128 := idx2_lt1 i
  have hN : grid12.N = 20 := N_12
  have ht : (i 0).val / 5000 < grid12.N := by omega
  obtain ⟨-, -, -, -, e20, e21⟩ := blockIdx12 ⟨(i 0).val / 5000, ht⟩
  refine ⟨⟨(i 0).val / 5000, ht⟩, flush12_2 _, ?_⟩
  rw [mem_blk12]
  intro a
  match a with
  | ⟨0, _⟩ =>
    show win12_2.index ⟨(i 0).val / 5000, ht⟩ (0 : Fin 2) * 5000 ≤ (i 0).val ∧ (i 0).val < win12_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win12_2.index ⟨(i 0).val / 5000, ht⟩ (1 : Fin 2) * 128 ≤ (i 1).val ∧ (i 1).val < win12_2.index ⟨(i 0).val / 5000, ht⟩ (1 : Fin 2) * 128 + 128
    rw [e21]; omega

/-- THE OUTPUT ARRAY after the region's last point: the region's function of the two arrays it reads. -/
theorem dense_final12_eq (c : Dev nD) :
    (dat12 (F := Ideal) V c).arrAt 2 cfg12.N = denseG12 (V c (Pipeline.arrRef spec12 0)) (V c (Pipeline.arrRef spec12 1)) :=
  (dat12 (F := Ideal) V c).arrAt_eq_of_cover 2 _ (fun t _ => flushed_eq12 V c t) cover12

/-- … and entry by entry, with the two arrays the region reads named `X` and `W`: at `(R, q)`, the leaky rectifier of the rectifier of the product of row
    `R` of `X` with column `q` of `W`. -/
theorem dense_final12 (c : Dev nD) (X : S100000x128.Idx → EReal) (W : S128x128.Idx → EReal)
    (hX : V c (Pipeline.arrRef spec12 0) = X) (hW : V c (Pipeline.arrRef spec12 1) = W) (R : Fin 100000) (q : Fin 128) :
    ((dat12 (F := Ideal) V c).arrAt 2 cfg12.N (ix2 R q) : EReal) = lrelu (relu (∑ k : Fin 128, X (ix2 R k) * W (ix2 k q))) := by
  subst hX; subst hW
  exact (congrFun (dense_final12_eq V c) (ix2 R q)).trans (denseG12_apply _ _ R q)

end Cert.KernelIdeal.Hand

end
-- ==== Proof.DenseVal13.lean ====
/-
  Region 13 of @main, a dense layer over row blocks of 5000: the array it writes, as one function of the two arrays it reads,
  at the exact instance.

  Grid point `t` (of 10) reads block `t` of the 50000×128 input — rows `t·5000 … t·5000 + 4999` — and the whole 128×128
  weight, and writes block `t` of the output: entry `(p, q)` of that block is the leaky rectifier of the rectifier of the product, row `p` of the input
  block against column `q` of the weight. Row `p` of block `t` is row `t·5000 + p` of the array, so what point `t` writes back is
  block `t` of ONE function of the two arrays: at `(R, q)`, the leaky rectifier of the rectifier of the product `∑ k, X R k · W k q`. The 10 blocks are
  disjoint and fill the output (row `R` lies in block `R / 5000`), so after the last point the output array is that function
  everywhere.
-/
import proofs.«140582_j49512382988743_1_alg».proof.Proof.DenseBody13
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The body's rectangles start at the origin. -/
theorem origin13 : (![0, 0] : Fin 2 → Nat) = fun _ => 0 := funext fun a => by fin_cases a <;> rfl

/-- The region's result as one function of its input array `X` and weight `W`: at `(R, q)`, the leaky rectifier of the rectifier of the product. -/
def denseG13 (X : S50000x128.Idx → EReal) (W : S128x128.Idx → EReal) : S50000x128.Idx → EReal :=
  fun i => lrelu (relu (∑ k : Fin 128, X (ix2 (⟨(i 0).val, idx2_lt0 i⟩ : Fin 50000) k) * W (ix2 k (⟨(i 1).val, idx2_lt1 i⟩ : Fin 128))))

/-- That function at an entry given by its coordinates. -/
theorem denseG13_apply (X : S50000x128.Idx → EReal) (W : S128x128.Idx → EReal) (R : Fin 50000) (q : Fin 128) :
    denseG13 X W (ix2 R q) = lrelu (relu (∑ k : Fin 128, X (ix2 R k) * W (ix2 k q))) := rfl

/-- The index maps, decided over the grid: the input's and the output's block index is `(t, 0)`, the weight's `(0, 0)`. -/
theorem blockIdx13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- ONE ENTRY. If `x0` holds rows `b·5000 + p` of `X` and `x1` holds `W`, the body's value at entry `j` of the block is the
    region's function at the entry `i` of the array that sits `b` blocks down: row `b·5000 + j₀`, column `j₁`. -/
theorem entry13 (X : S50000x128.Idx → EReal) (W : S128x128.Idx → EReal)
    (x0 : Vec Ideal S5000x128 .f32) (x1 : Vec Ideal S128x128 .f32) (b : ℕ)
    (hx0 : ∀ (p : Fin 5000) (k : Fin 128) (R : Fin 50000), R.val = b * 5000 + p.val → x0 (ix2 p k) = X (ix2 R k))
    (hx1 : ∀ k q : Fin 128, x1 (ix2 k q) = W (ix2 k q))
    (j : S5000x128.Idx) (i : S50000x128.Idx) (hi0 : (i 0).val = b * 5000 + (j 0).val) (hi1 : (i 1).val = (j 1).val) :
    k13_pay1 (F := Ideal) x0 x1 j = denseG13 X W i := by
  obtain ⟨p, q, rfl⟩ : ∃ (p : Fin 5000) (q : Fin 128), j = ix2 p q := ⟨j 0, j 1, eq_ix2 j⟩
  have hq : (⟨(i 1).val, idx2_lt1 i⟩ : Fin 128) = q := Fin.ext hi1
  rw [Val.k13_pay1_at]
  unfold denseG13
  rw [hq]
  refine congrArg lrelu (congrArg relu (Finset.sum_congr rfl fun k _ => ?_))
  rw [hx0 p k ⟨(i 0).val, idx2_lt0 i⟩ hi0, hx1]

/-- WHAT POINT `t` WRITES BACK is block `t` of the region's function of the two arrays as the region finds them. -/
theorem flushed_eq13 (c : Dev nD) (t : Fin cfg13.N) :
    (dat13 (F := Ideal) V c).flushed 2 t
      = ((cfg13.win 2).blk t).view.read (Elt Ideal) (denseG13 (V c (Pipeline.arrRef spec13 0)) (V c (Pipeline.arrRef spec13 1))) := by
  show (cfg13.win 2).cut (grid13.coords t) ((dat13 V c).after 2 t) = _
  rw [after13_2]
  unfold out13_2
  rw [View.canon_unit_zero origin13]
  simp only [View.ld_unit_zero (S := S5000x128) origin13, View.ld_unit_zero (S := S128x128) origin13]
  obtain ⟨e00, e01, e10, e11, e20, e21⟩ := blockIdx13 t
  funext y
  show k13_pay1 (iblk13 V c 0 t) (iblk13 V c 1 t) ((win13 2).xinj (grid13.coords t) y)
    = denseG13 (V c (Pipeline.arrRef spec13 0)) (V c (Pipeline.arrRef spec13 1)) (((cfg13.win 2).blk t).view.emb y)
  refine entry13 _ _ (iblk13 V c 0 t) (iblk13 V c 1 t) t.val ?_ ?_ _ _ ?_ ?_
  · intro p k R hR
    show V c (Pipeline.arrRef spec13 0) (((cfg13.win 0).blk t).view.emb (ix2 p k)) = V c (Pipeline.arrRef spec13 0) (ix2 R k)
    refine congrArg _ (funext fun a => Fin.ext ?_)
    match a with
    | ⟨0, _⟩ => show win13_0.index t (0 : Fin 2) * 5000 + 1 * p.val = R.val; omega
    | ⟨1, _⟩ => show win13_0.index t (1 : Fin 2) * 128 + 1 * k.val = k.val; omega
  · intro k q
    show V c (Pipeline.arrRef spec13 1) (((cfg13.win 1).blk t).view.emb (ix2 k q)) = V c (Pipeline.arrRef spec13 1) (ix2 k q)
    refine congrArg _ (funext fun a => Fin.ext ?_)
    match a with
    | ⟨0, _⟩ => show win13_1.index t (0 : Fin 2) * 128 + 1 * k.val = k.val; omega
    | ⟨1, _⟩ => show win13_1.index t (1 : Fin 2) * 128 + 1 * q.val = q.val; omega
  · show win13_2.index t (0 : Fin 2) * 5000 + 1 * (y 0).val = t.val * 5000 + (y 0).val; omega
  · show win13_2.index t (1 : Fin 2) * 128 + 1 * (y 1).val = (y 1).val; omega

/-- An index of the output array is in point `t`'s block iff each coordinate is in the block's range on its axis. -/
theorem mem_blk13 (t : Fin cfg13.N) (i : S50000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole main_v171).slice (win13_2.rect t)).set ↔ _
  rw [View.set_slice_whole, Rect.mem_set_unit]
  exact Iff.rfl

/-- THE BLOCKS FILL THE ARRAY: row `R` is in the block of point `R / 5000`, and every point writes its block back. -/
theorem cover13 (i : S50000x128.Idx) :
    ∃ t : Fin cfg13.N, (cfg13.win 2).flush t = true ∧ i ∈ ((cfg13.win 2).blk t).view.set := by
  have hi0 : (i 0).val < 50000 := idx2_lt0 i
  have hi1 : (i 1).val < 128 := idx2_lt1 i
  have hN : grid13.N = 10 := N_13
  have ht : (i 0).val / 5000 < grid13.N := by omega
  obtain ⟨-, -, -, -, e20, e21⟩ := blockIdx13 ⟨(i 0).val / 5000, ht⟩
  refine ⟨⟨(i 0).val / 5000, ht⟩, flush13_2 _, ?_⟩
  rw [mem_blk13]
  intro a
  match a with
  | ⟨0, _⟩ =>
    show win13_2.index ⟨(i 0).val / 5000, ht⟩ (0 : Fin 2) * 5000 ≤ (i 0).val ∧ (i 0).val < win13_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win13_2.index ⟨(i 0).val / 5000, ht⟩ (1 : Fin 2) * 128 ≤ (i 1).val ∧ (i 1).val < win13_2.index ⟨(i 0).val / 5000, ht⟩ (1 : Fin 2) * 128 + 128
    rw [e21]; omega

/-- THE OUTPUT ARRAY after the region's last point: the region's function of the two arrays it reads. -/
theorem dense_final13_eq (c : Dev nD) :
    (dat13 (F := Ideal) V c).arrAt 2 cfg13.N = denseG13 (V c (Pipeline.arrRef spec13 0)) (V c (Pipeline.arrRef spec13 1)) :=
  (dat13 (F := Ideal) V c).arrAt_eq_of_cover 2 _ (fun t _ => flushed_eq13 V c t) cover13

/-- … and entry by entry, with the two arrays the region reads named `X` and `W`: at `(R, q)`, the leaky rectifier of the rectifier of the product of row
    `R` of `X` with column `q` of `W`. -/
theorem dense_final13 (c : Dev nD) (X : S50000x128.Idx → EReal) (W : S128x128.Idx → EReal)
    (hX : V c (Pipeline.arrRef spec13 0) = X) (hW : V c (Pipeline.arrRef spec13 1) = W) (R : Fin 50000) (q : Fin 128) :
    ((dat13 (F := Ideal) V c).arrAt 2 cfg13.N (ix2 R q) : EReal) = lrelu (relu (∑ k : Fin 128, X (ix2 R k) * W (ix2 k q))) := by
  subst hX; subst hW
  exact (congrFun (dense_final13_eq V c) (ix2 R q)).trans (denseG13_apply _ _ R q)

end Cert.KernelIdeal.Hand

end
-- ==== Proof.Bridge.lean ====
/-
  The dense regions' functions are the reference's stages: each region's whole-array function (the product of a tall array
  with a 128×128 weight, then nothing, the leaky rectifier, or the rectifier followed by the leaky rectifier) equals, entry by
  entry, the reference's stage written with the host's operations — the host's product at an entry is the same sum over the
  128 contracted positions, and the host's rectifiers are the same functions of an entry.
-/
import proofs.«140582_j49512382988743_1_alg».proof.Proof.Spec
import proofs.«140582_j49512382988743_1_alg».proof.Proof.ValRef
import proofs.«140582_j49512382988743_1_alg».proof.Proof.LibLeaky
import proofs.«140582_j49512382988743_1_alg».proof.Proof.DenseVal0
import proofs.«140582_j49512382988743_1_alg».proof.Proof.DenseVal1
import proofs.«140582_j49512382988743_1_alg».proof.Proof.DenseVal3
import proofs.«140582_j49512382988743_1_alg».proof.Proof.DenseVal5
import proofs.«140582_j49512382988743_1_alg».proof.Proof.DenseVal6
import proofs.«140582_j49512382988743_1_alg».proof.Proof.DenseVal7
import proofs.«140582_j49512382988743_1_alg».proof.Proof.DenseVal9
import proofs.«140582_j49512382988743_1_alg».proof.Proof.DenseVal11
import proofs.«140582_j49512382988743_1_alg».proof.Proof.DenseVal12
import proofs.«140582_j49512382988743_1_alg».proof.Proof.DenseVal13

noncomputable section

open Idealize.ShloMosaic ValueIdx
open LibLeaky (lrelu relu)

namespace Cert.Bridge

variable [Cert.ReferenceIdeal.Facts₀]

local notation "𝕌" => FVec Ideal Cert.ReferenceIdeal.S100000x128 FTy.f32
local notation "𝕀" => FVec Ideal Cert.ReferenceIdeal.S50000x128 FTy.f32
local notation "ℍ" => FVec Ideal Cert.ReferenceIdeal.S128x128 FTy.f32

/-- Region 0's function is the reference's `hyperU`. -/
theorem denseG0_eq (X : 𝕌) (W : ℍ) : Cert.KernelIdeal.Hand.denseG0 X W = Cert.Spec.hyperU X W := by
  funext i
  obtain ⟨R, q, rfl⟩ : ∃ (R : Fin 100000) (q : Fin 128), i = ix2 R q := ⟨i 0, i 1, eq_ix2 i⟩
  exact (Cert.KernelIdeal.Hand.denseG0_apply X W R q).trans
    (Cert.ReferenceIdeal.Val.dot_u_at X W R q).symm

/-- Region 1's function is the reference's `hyperI`. -/
theorem denseG1_eq (X : 𝕀) (W : ℍ) : Cert.KernelIdeal.Hand.denseG1 X W = Cert.Spec.hyperI X W := by
  funext i
  obtain ⟨R, q, rfl⟩ : ∃ (R : Fin 50000) (q : Fin 128), i = ix2 R q := ⟨i 0, i 1, eq_ix2 i⟩
  exact (Cert.KernelIdeal.Hand.denseG1_apply X W R q).trans
    (Cert.ReferenceIdeal.Val.dot_i_at X W R q).symm

/-- Region 3's function is the reference's `fwdU`. -/
theorem denseG3_eq (X : 𝕌) (W : ℍ) : Cert.KernelIdeal.Hand.denseG3 X W = Cert.Spec.fwdU X W := by
  funext i
  obtain ⟨R, q, rfl⟩ : ∃ (R : Fin 100000) (q : Fin 128), i = ix2 R q := ⟨i 0, i 1, eq_ix2 i⟩
  exact (Cert.KernelIdeal.Hand.denseG3_apply X W R q).trans
    ((Cert.ReferenceIdeal.Val.leaky_u_at Cert.ReferenceIdeal.Facts₀.bcast_S_S100000x128 (Host.dotGeneral (F := Ideal) (φ₁ := .f32) (φ₂ := .f32) Cert.ReferenceIdeal.dot_S100000x128_S128x128_S100000x128_1_0_0_1_n_n none X W) R q).trans
      (congrArg lrelu (Cert.ReferenceIdeal.Val.dot_u_at X W R q))).symm

/-- Region 5's function is the reference's `fwdI`. -/
theorem denseG5_eq (X : 𝕀) (W : ℍ) : Cert.KernelIdeal.Hand.denseG5 X W = Cert.Spec.fwdI X W := by
  funext i
  obtain ⟨R, q, rfl⟩ : ∃ (R : Fin 50000) (q : Fin 128), i = ix2 R q := ⟨i 0, i 1, eq_ix2 i⟩
  exact (Cert.KernelIdeal.Hand.denseG5_apply X W R q).trans
    ((Cert.ReferenceIdeal.Val.leaky_i_at Cert.ReferenceIdeal.Facts₀.bcast_S_S50000x128 (Host.dotGeneral (F := Ideal) (φ₁ := .f32) (φ₂ := .f32) Cert.ReferenceIdeal.dot_S50000x128_S128x128_S50000x128_1_0_0_1_n_n none X W) R q).trans
      (congrArg lrelu (Cert.ReferenceIdeal.Val.dot_i_at X W R q))).symm

/-- Region 6's function is the reference's `gcnU`. -/
theorem denseG6_eq (X : 𝕌) (W : ℍ) : Cert.KernelIdeal.Hand.denseG6 X W = Cert.Spec.gcnU X W := by
  funext i
  obtain ⟨R, q, rfl⟩ : ∃ (R : Fin 100000) (q : Fin 128), i = ix2 R q := ⟨i 0, i 1, eq_ix2 i⟩
  exact (Cert.KernelIdeal.Hand.denseG6_apply X W R q).trans
    ((Cert.ReferenceIdeal.Val.leaky_relu_u_at Cert.ReferenceIdeal.Facts₀.bcast_S_S100000x128 Cert.ReferenceIdeal.Facts₀.bcast_S_S100000x128 (Host.dotGeneral (F := Ideal) (φ₁ := .f32) (φ₂ := .f32) Cert.ReferenceIdeal.dot_S100000x128_S128x128_S100000x128_1_0_0_1_n_n none X W) R q).trans
      (congrArg lrelu (congrArg relu (Cert.ReferenceIdeal.Val.dot_u_at X W R q)))).symm

/-- Region 7's function is the reference's `gcnI`. -/
theorem denseG7_eq (X : 𝕀) (W : ℍ) : Cert.KernelIdeal.Hand.denseG7 X W = Cert.Spec.gcnI X W := by
  funext i
  obtain ⟨R, q, rfl⟩ : ∃ (R : Fin 50000) (q : Fin 128), i = ix2 R q := ⟨i 0, i 1, eq_ix2 i⟩
  exact (Cert.KernelIdeal.Hand.denseG7_apply X W R q).trans
    ((Cert.ReferenceIdeal.Val.leaky_relu_i_at Cert.ReferenceIdeal.Facts₀.bcast_S_S50000x128 Cert.ReferenceIdeal.Facts₀.bcast_S_S50000x128 (Host.dotGeneral (F := Ideal) (φ₁ := .f32) (φ₂ := .f32) Cert.ReferenceIdeal.dot_S50000x128_S128x128_S50000x128_1_0_0_1_n_n none X W) R q).trans
      (congrArg lrelu (congrArg relu (Cert.ReferenceIdeal.Val.dot_i_at X W R q)))).symm

/-- Region 9's function is the reference's `fwdU`. -/
theorem denseG9_eq (X : 𝕌) (W : ℍ) : Cert.KernelIdeal.Hand.denseG9 X W = Cert.Spec.fwdU X W := by
  funext i
  obtain ⟨R, q, rfl⟩ : ∃ (R : Fin 100000) (q : Fin 128), i = ix2 R q := ⟨i 0, i 1, eq_ix2 i⟩
  exact (Cert.KernelIdeal.Hand.denseG9_apply X W R q).trans
    ((Cert.ReferenceIdeal.Val.leaky_u_at Cert.ReferenceIdeal.Facts₀.bcast_S_S100000x128 (Host.dotGeneral (F := Ideal) (φ₁ := .f32) (φ₂ := .f32) Cert.ReferenceIdeal.dot_S100000x128_S128x128_S100000x128_1_0_0_1_n_n none X W) R q).trans
      (congrArg lrelu (Cert.ReferenceIdeal.Val.dot_u_at X W R q))).symm

/-- Region 11's function is the reference's `fwdI`. -/
theorem denseG11_eq (X : 𝕀) (W : ℍ) : Cert.KernelIdeal.Hand.denseG11 X W = Cert.Spec.fwdI X W := by
  funext i
  obtain ⟨R, q, rfl⟩ : ∃ (R : Fin 50000) (q : Fin 128), i = ix2 R q := ⟨i 0, i 1, eq_ix2 i⟩
  exact (Cert.KernelIdeal.Hand.denseG11_apply X W R q).trans
    ((Cert.ReferenceIdeal.Val.leaky_i_at Cert.ReferenceIdeal.Facts₀.bcast_S_S50000x128 (Host.dotGeneral (F := Ideal) (φ₁ := .f32) (φ₂ := .f32) Cert.ReferenceIdeal.dot_S50000x128_S128x128_S50000x128_1_0_0_1_n_n none X W) R q).trans
      (congrArg lrelu (Cert.ReferenceIdeal.Val.dot_i_at X W R q))).symm

/-- Region 12's function is the reference's `gcnU`. -/
theorem denseG12_eq (X : 𝕌) (W : ℍ) : Cert.KernelIdeal.Hand.denseG12 X W = Cert.Spec.gcnU X W := by
  funext i
  obtain ⟨R, q, rfl⟩ : ∃ (R : Fin 100000) (q : Fin 128), i = ix2 R q := ⟨i 0, i 1, eq_ix2 i⟩
  exact (Cert.KernelIdeal.Hand.denseG12_apply X W R q).trans
    ((Cert.ReferenceIdeal.Val.leaky_relu_u_at Cert.ReferenceIdeal.Facts₀.bcast_S_S100000x128 Cert.ReferenceIdeal.Facts₀.bcast_S_S100000x128 (Host.dotGeneral (F := Ideal) (φ₁ := .f32) (φ₂ := .f32) Cert.ReferenceIdeal.dot_S100000x128_S128x128_S100000x128_1_0_0_1_n_n none X W) R q).trans
      (congrArg lrelu (congrArg relu (Cert.ReferenceIdeal.Val.dot_u_at X W R q)))).symm

/-- Region 13's function is the reference's `gcnI`. -/
theorem denseG13_eq (X : 𝕀) (W : ℍ) : Cert.KernelIdeal.Hand.denseG13 X W = Cert.Spec.gcnI X W := by
  funext i
  obtain ⟨R, q, rfl⟩ : ∃ (R : Fin 50000) (q : Fin 128), i = ix2 R q := ⟨i 0, i 1, eq_ix2 i⟩
  exact (Cert.KernelIdeal.Hand.denseG13_apply X W R q).trans
    ((Cert.ReferenceIdeal.Val.leaky_relu_i_at Cert.ReferenceIdeal.Facts₀.bcast_S_S50000x128 Cert.ReferenceIdeal.Facts₀.bcast_S_S50000x128 (Host.dotGeneral (F := Ideal) (φ₁ := .f32) (φ₂ := .f32) Cert.ReferenceIdeal.dot_S50000x128_S128x128_S50000x128_1_0_0_1_n_n none X W) R q).trans
      (congrArg lrelu (congrArg relu (Cert.ReferenceIdeal.Val.dot_i_at X W R q)))).symm

end Cert.Bridge

end
-- ==== Proof.RedVal2.lean ====
/-
  Region 2 of @main, a contraction of two 100000×128 arrays over their rows, accumulated over row blocks of 5000: the
  128×128 array it writes, as one function of the two arrays it reads, at the exact instance.

  Grid point `t` (of 20) reads block `t` of each array — rows `t·5000 … t·5000 + 4999` — and adds the two blocks' contraction
  over their rows to an accumulator that the first point clears; the last point writes the leaky rectifier of the accumulator
  out, and that one write is the whole output. Summing block by block is summing over all the rows (addition of extended
  reals is commutative and associative, which is all the regrouping uses), so the output at `(i, j)` is the leaky rectifier of
  `∑ R, A R i · B R j` over all 100000 rows.
-/
import proofs.«140582_j49512382988743_1_alg».proof.Proof.RedBody2
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The region's result as one function of the two arrays `A`, `B` it contracts: at `(i, j)`, the leaky rectifier of the
    contraction of column `i` of `A` with column `j` of `B` over all the rows. -/
def redG2 (A B : S100000x128.Idx → EReal) : S128x128.Idx → EReal :=
  fun y => lrelu (∑ R : Fin 100000, A (ix2 R (⟨(y 0).val, idx2_lt0 y⟩ : Fin 128)) * B (ix2 R (⟨(y 1).val, idx2_lt1 y⟩ : Fin 128)))

/-- That function at an entry given by its coordinates. -/
theorem redG2_apply (A B : S100000x128.Idx → EReal) (i j : Fin 128) :
    redG2 A B (ix2 i j) = lrelu (∑ R : Fin 100000, A (ix2 R i) * B (ix2 R j)) := rfl

/-- The index maps, decided over the grid: each operand's block index is `(t, 0)`. -/
theorem redBlockIdx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Block `t` of the first operand holds rows `t·5000 + r` of its array. -/
theorem inA2_at (c : Dev nD) (t : ℕ) (r : Fin 5000) (q : Fin 128) (R : Fin 100000) (hR : R.val = t * 5000 + r.val) :
    inA2 V c t (ix2 r q) = V c (Pipeline.arrRef spec2 0) (ix2 R q) := by
  have hN : grid2.N = 20 := N_2
  have hRlt : R.val < 100000 := R.isLt
  have ht : t < cfg2.N := by show t < grid2.N; omega
  rw [show inA2 V c t = iblk2 V c 0 ⟨t, ht⟩ from inA2_eq V c ⟨t, ht⟩]
  obtain ⟨e00, e01, -, -⟩ := redBlockIdx2 ⟨t, ht⟩
  show V c (Pipeline.arrRef spec2 0) (((cfg2.win 0).blk ⟨t, ht⟩).view.emb (ix2 r q)) = V c (Pipeline.arrRef spec2 0) (ix2 R q)
  refine congrArg _ (funext fun a => Fin.ext ?_)
  match a with
  | ⟨0, _⟩ => show win2_0.index ⟨t, ht⟩ (0 : Fin 2) * 5000 + 1 * r.val = R.val; rw [e00]; show t * 5000 + 1 * r.val = R.val; omega
  | ⟨1, _⟩ => show win2_0.index ⟨t, ht⟩ (1 : Fin 2) * 128 + 1 * q.val = q.val; omega

/-- Block `t` of the second operand holds rows `t·5000 + r` of its array. -/
theorem inB2_at (c : Dev nD) (t : ℕ) (r : Fin 5000) (q : Fin 128) (R : Fin 100000) (hR : R.val = t * 5000 + r.val) :
    inB2 V c t (ix2 r q) = V c (Pipeline.arrRef spec2 1) (ix2 R q) := by
  have hN : grid2.N = 20 := N_2
  have hRlt : R.val < 100000 := R.isLt
  have ht : t < cfg2.N := by show t < grid2.N; omega
  rw [show inB2 V c t = iblk2 V c 1 ⟨t, ht⟩ from inB2_eq V c ⟨t, ht⟩]
  obtain ⟨-, -, e10, e11⟩ := redBlockIdx2 ⟨t, ht⟩
  show V c (Pipeline.arrRef spec2 1) (((cfg2.win 1).blk ⟨t, ht⟩).view.emb (ix2 r q)) = V c (Pipeline.arrRef spec2 1) (ix2 R q)
  refine congrArg _ (funext fun a => Fin.ext ?_)
  match a with
  | ⟨0, _⟩ => show win2_1.index ⟨t, ht⟩ (0 : Fin 2) * 5000 + 1 * r.val = R.val; rw [e10]; show t * 5000 + 1 * r.val = R.val; omega
  | ⟨1, _⟩ => show win2_1.index ⟨t, ht⟩ (1 : Fin 2) * 128 + 1 * q.val = q.val; omega

/-- THE OUTPUT ARRAY after the region's last point, entry by entry, with the two arrays the region reads named `A` and `B`. -/
theorem red_final2 (c : Dev nD) (A B : S100000x128.Idx → EReal)
    (hA : V c (Pipeline.arrRef spec2 0) = A) (hB : V c (Pipeline.arrRef spec2 1) = B) (i j : Fin 128) :
    ((dat2 (F := Ideal) V c).arrAt 2 cfg2.N (ix2 i j) : EReal) = lrelu (∑ R : Fin 100000, A (ix2 R i) * B (ix2 R j)) := by
  subst hA; subst hB
  rw [arrAt_out2]
  exact Val.k2_out_whole (inA2 V c) (inB2 V c) (acc2 V c) (acc2_zero V c) (acc2_succ V c)
    (V c (Pipeline.arrRef spec2 0)) (V c (Pipeline.arrRef spec2 1)) (inA2_at V c) (inB2_at V c) i j

/-- … and as a whole array: the region's function of the two arrays as the region finds them. -/
theorem red_final2_eq (c : Dev nD) :
    (dat2 (F := Ideal) V c).arrAt 2 cfg2.N = redG2 (V c (Pipeline.arrRef spec2 0)) (V c (Pipeline.arrRef spec2 1)) := by
  funext y
  obtain ⟨i, j, rfl⟩ : ∃ (i j : Fin 128), y = ix2 i j := ⟨y 0, y 1, eq_ix2 y⟩
  exact red_final2 V c _ _ rfl rfl i j

end Cert.KernelIdeal.Hand

end
-- ==== Proof.RedVal4.lean ====
/-
  Region 4 of @main, a contraction of two 50000×128 arrays over their rows, accumulated over row blocks of 5000: the
  128×128 array it writes, as one function of the two arrays it reads, at the exact instance.

  Grid point `t` (of 10) reads block `t` of each array — rows `t·5000 … t·5000 + 4999` — and adds the two blocks' contraction
  over their rows to an accumulator that the first point clears; the last point writes the leaky rectifier of the accumulator
  out, and that one write is the whole output. Summing block by block is summing over all the rows (addition of extended
  reals is commutative and associative, which is all the regrouping uses), so the output at `(i, j)` is the leaky rectifier of
  `∑ R, A R i · B R j` over all 50000 rows.
-/
import proofs.«140582_j49512382988743_1_alg».proof.Proof.RedBody4
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The region's result as one function of the two arrays `A`, `B` it contracts: at `(i, j)`, the leaky rectifier of the
    contraction of column `i` of `A` with column `j` of `B` over all the rows. -/
def redG4 (A B : S50000x128.Idx → EReal) : S128x128.Idx → EReal :=
  fun y => lrelu (∑ R : Fin 50000, A (ix2 R (⟨(y 0).val, idx2_lt0 y⟩ : Fin 128)) * B (ix2 R (⟨(y 1).val, idx2_lt1 y⟩ : Fin 128)))

/-- That function at an entry given by its coordinates. -/
theorem redG4_apply (A B : S50000x128.Idx → EReal) (i j : Fin 128) :
    redG4 A B (ix2 i j) = lrelu (∑ R : Fin 50000, A (ix2 R i) * B (ix2 R j)) := rfl

/-- The index maps, decided over the grid: each operand's block index is `(t, 0)`. -/
theorem redBlockIdx4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Block `t` of the first operand holds rows `t·5000 + r` of its array. -/
theorem inA4_at (c : Dev nD) (t : ℕ) (r : Fin 5000) (q : Fin 128) (R : Fin 50000) (hR : R.val = t * 5000 + r.val) :
    inA4 V c t (ix2 r q) = V c (Pipeline.arrRef spec4 0) (ix2 R q) := by
  have hN : grid4.N = 10 := N_4
  have hRlt : R.val < 50000 := R.isLt
  have ht : t < cfg4.N := by show t < grid4.N; omega
  rw [show inA4 V c t = iblk4 V c 0 ⟨t, ht⟩ from inA4_eq V c ⟨t, ht⟩]
  obtain ⟨e00, e01, -, -⟩ := redBlockIdx4 ⟨t, ht⟩
  show V c (Pipeline.arrRef spec4 0) (((cfg4.win 0).blk ⟨t, ht⟩).view.emb (ix2 r q)) = V c (Pipeline.arrRef spec4 0) (ix2 R q)
  refine congrArg _ (funext fun a => Fin.ext ?_)
  match a with
  | ⟨0, _⟩ => show win4_0.index ⟨t, ht⟩ (0 : Fin 2) * 5000 + 1 * r.val = R.val; rw [e00]; show t * 5000 + 1 * r.val = R.val; omega
  | ⟨1, _⟩ => show win4_0.index ⟨t, ht⟩ (1 : Fin 2) * 128 + 1 * q.val = q.val; omega

/-- Block `t` of the second operand holds rows `t·5000 + r` of its array. -/
theorem inB4_at (c : Dev nD) (t : ℕ) (r : Fin 5000) (q : Fin 128) (R : Fin 50000) (hR : R.val = t * 5000 + r.val) :
    inB4 V c t (ix2 r q) = V c (Pipeline.arrRef spec4 1) (ix2 R q) := by
  have hN : grid4.N = 10 := N_4
  have hRlt : R.val < 50000 := R.isLt
  have ht : t < cfg4.N := by show t < grid4.N; omega
  rw [show inB4 V c t = iblk4 V c 1 ⟨t, ht⟩ from inB4_eq V c ⟨t, ht⟩]
  obtain ⟨-, -, e10, e11⟩ := redBlockIdx4 ⟨t, ht⟩
  show V c (Pipeline.arrRef spec4 1) (((cfg4.win 1).blk ⟨t, ht⟩).view.emb (ix2 r q)) = V c (Pipeline.arrRef spec4 1) (ix2 R q)
  refine congrArg _ (funext fun a => Fin.ext ?_)
  match a with
  | ⟨0, _⟩ => show win4_1.index ⟨t, ht⟩ (0 : Fin 2) * 5000 + 1 * r.val = R.val; rw [e10]; show t * 5000 + 1 * r.val = R.val; omega
  | ⟨1, _⟩ => show win4_1.index ⟨t, ht⟩ (1 : Fin 2) * 128 + 1 * q.val = q.val; omega

/-- THE OUTPUT ARRAY after the region's last point, entry by entry, with the two arrays the region reads named `A` and `B`. -/
theorem red_final4 (c : Dev nD) (A B : S50000x128.Idx → EReal)
    (hA : V c (Pipeline.arrRef spec4 0) = A) (hB : V c (Pipeline.arrRef spec4 1) = B) (i j : Fin 128) :
    ((dat4 (F := Ideal) V c).arrAt 2 cfg4.N (ix2 i j) : EReal) = lrelu (∑ R : Fin 50000, A (ix2 R i) * B (ix2 R j)) := by
  subst hA; subst hB
  rw [arrAt_out4]
  exact Val.k4_out_whole (inA4 V c) (inB4 V c) (acc4 V c) (acc4_zero V c) (acc4_succ V c)
    (V c (Pipeline.arrRef spec4 0)) (V c (Pipeline.arrRef spec4 1)) (inA4_at V c) (inB4_at V c) i j

/-- … and as a whole array: the region's function of the two arrays as the region finds them. -/
theorem red_final4_eq (c : Dev nD) :
    (dat4 (F := Ideal) V c).arrAt 2 cfg4.N = redG4 (V c (Pipeline.arrRef spec4 0)) (V c (Pipeline.arrRef spec4 1)) := by
  funext y
  obtain ⟨i, j, rfl⟩ : ∃ (i j : Fin 128), y = ix2 i j := ⟨y 0, y 1, eq_ix2 y⟩
  exact red_final4 V c _ _ rfl rfl i j

end Cert.KernelIdeal.Hand

end
-- ==== Proof.RedVal8.lean ====
/-
  Region 8 of @main, a contraction of two 100000×128 arrays over their rows, accumulated over row blocks of 5000: the
  128×128 array it writes, as one function of the two arrays it reads, at the exact instance.

  Grid point `t` (of 20) reads block `t` of each array — rows `t·5000 … t·5000 + 4999` — and adds the two blocks' contraction
  over their rows to an accumulator that the first point clears; the last point writes the leaky rectifier of the accumulator
  out, and that one write is the whole output. Summing block by block is summing over all the rows (addition of extended
  reals is commutative and associative, which is all the regrouping uses), so the output at `(i, j)` is the leaky rectifier of
  `∑ R, A R i · B R j` over all 100000 rows.
-/
import proofs.«140582_j49512382988743_1_alg».proof.Proof.RedBody8
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The region's result as one function of the two arrays `A`, `B` it contracts: at `(i, j)`, the leaky rectifier of the
    contraction of column `i` of `A` with column `j` of `B` over all the rows. -/
def redG8 (A B : S100000x128.Idx → EReal) : S128x128.Idx → EReal :=
  fun y => lrelu (∑ R : Fin 100000, A (ix2 R (⟨(y 0).val, idx2_lt0 y⟩ : Fin 128)) * B (ix2 R (⟨(y 1).val, idx2_lt1 y⟩ : Fin 128)))

/-- That function at an entry given by its coordinates. -/
theorem redG8_apply (A B : S100000x128.Idx → EReal) (i j : Fin 128) :
    redG8 A B (ix2 i j) = lrelu (∑ R : Fin 100000, A (ix2 R i) * B (ix2 R j)) := rfl

/-- The index maps, decided over the grid: each operand's block index is `(t, 0)`. -/
theorem redBlockIdx8 : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

/-- Block `t` of the first operand holds rows `t·5000 + r` of its array. -/
theorem inA8_at (c : Dev nD) (t : ℕ) (r : Fin 5000) (q : Fin 128) (R : Fin 100000) (hR : R.val = t * 5000 + r.val) :
    inA8 V c t (ix2 r q) = V c (Pipeline.arrRef spec8 0) (ix2 R q) := by
  have hN : grid8.N = 20 := N_8
  have hRlt : R.val < 100000 := R.isLt
  have ht : t < cfg8.N := by show t < grid8.N; omega
  rw [show inA8 V c t = iblk8 V c 0 ⟨t, ht⟩ from inA8_eq V c ⟨t, ht⟩]
  obtain ⟨e00, e01, -, -⟩ := redBlockIdx8 ⟨t, ht⟩
  show V c (Pipeline.arrRef spec8 0) (((cfg8.win 0).blk ⟨t, ht⟩).view.emb (ix2 r q)) = V c (Pipeline.arrRef spec8 0) (ix2 R q)
  refine congrArg _ (funext fun a => Fin.ext ?_)
  match a with
  | ⟨0, _⟩ => show win8_0.index ⟨t, ht⟩ (0 : Fin 2) * 5000 + 1 * r.val = R.val; rw [e00]; show t * 5000 + 1 * r.val = R.val; omega
  | ⟨1, _⟩ => show win8_0.index ⟨t, ht⟩ (1 : Fin 2) * 128 + 1 * q.val = q.val; omega

/-- Block `t` of the second operand holds rows `t·5000 + r` of its array. -/
theorem inB8_at (c : Dev nD) (t : ℕ) (r : Fin 5000) (q : Fin 128) (R : Fin 100000) (hR : R.val = t * 5000 + r.val) :
    inB8 V c t (ix2 r q) = V c (Pipeline.arrRef spec8 1) (ix2 R q) := by
  have hN : grid8.N = 20 := N_8
  have hRlt : R.val < 100000 := R.isLt
  have ht : t < cfg8.N := by show t < grid8.N; omega
  rw [show inB8 V c t = iblk8 V c 1 ⟨t, ht⟩ from inB8_eq V c ⟨t, ht⟩]
  obtain ⟨-, -, e10, e11⟩ := redBlockIdx8 ⟨t, ht⟩
  show V c (Pipeline.arrRef spec8 1) (((cfg8.win 1).blk ⟨t, ht⟩).view.emb (ix2 r q)) = V c (Pipeline.arrRef spec8 1) (ix2 R q)
  refine congrArg _ (funext fun a => Fin.ext ?_)
  match a with
  | ⟨0, _⟩ => show win8_1.index ⟨t, ht⟩ (0 : Fin 2) * 5000 + 1 * r.val = R.val; rw [e10]; show t * 5000 + 1 * r.val = R.val; omega
  | ⟨1, _⟩ => show win8_1.index ⟨t, ht⟩ (1 : Fin 2) * 128 + 1 * q.val = q.val; omega

/-- THE OUTPUT ARRAY after the region's last point, entry by entry, with the two arrays the region reads named `A` and `B`. -/
theorem red_final8 (c : Dev nD) (A B : S100000x128.Idx → EReal)
    (hA : V c (Pipeline.arrRef spec8 0) = A) (hB : V c (Pipeline.arrRef spec8 1) = B) (i j : Fin 128) :
    ((dat8 (F := Ideal) V c).arrAt 2 cfg8.N (ix2 i j) : EReal) = lrelu (∑ R : Fin 100000, A (ix2 R i) * B (ix2 R j)) := by
  subst hA; subst hB
  rw [arrAt_out8]
  exact Val.k8_out_whole (inA8 V c) (inB8 V c) (acc8 V c) (acc8_zero V c) (acc8_succ V c)
    (V c (Pipeline.arrRef spec8 0)) (V c (Pipeline.arrRef spec8 1)) (inA8_at V c) (inB8_at V c) i j

/-- … and as a whole array: the region's function of the two arrays as the region finds them. -/
theorem red_final8_eq (c : Dev nD) :
    (dat8 (F := Ideal) V c).arrAt 2 cfg8.N = redG8 (V c (Pipeline.arrRef spec8 0)) (V c (Pipeline.arrRef spec8 1)) := by
  funext y
  obtain ⟨i, j, rfl⟩ : ∃ (i j : Fin 128), y = ix2 i j := ⟨y 0, y 1, eq_ix2 y⟩
  exact red_final8 V c _ _ rfl rfl i j

end Cert.KernelIdeal.Hand

end
-- ==== Proof.RedVal10.lean ====
/-
  Region 10 of @main, a contraction of two 50000×128 arrays over their rows, accumulated over row blocks of 5000: the
  128×128 array it writes, as one function of the two arrays it reads, at the exact instance.

  Grid point `t` (of 10) reads block `t` of each array — rows `t·5000 … t·5000 + 4999` — and adds the two blocks' contraction
  over their rows to an accumulator that the first point clears; the last point writes the leaky rectifier of the accumulator
  out, and that one write is the whole output. Summing block by block is summing over all the rows (addition of extended
  reals is commutative and associative, which is all the regrouping uses), so the output at `(i, j)` is the leaky rectifier of
  `∑ R, A R i · B R j` over all 50000 rows.
-/
import proofs.«140582_j49512382988743_1_alg».proof.Proof.RedBody10
import proofs.«140582_j49512382988743_1_alg».proof.Proof.ValPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open LibLeaky (lrelu relu)

variable (V : (c : Dev nD) → (b : Ref sig .tc) → Buf (Elt Ideal) ((c : Thread nD τ).loc b))

/-- The region's result as one function of the two arrays `A`, `B` it contracts: at `(i, j)`, the leaky rectifier of the
    contraction of column `i` of `A` with column `j` of `B` over all the rows. -/
def redG10 (A B : S50000x128.Idx → EReal) : S128x128.Idx → EReal :=
  fun y => lrelu (∑ R : Fin 50000, A (ix2 R (⟨(y 0).val, idx2_lt0 y⟩ : Fin 128)) * B (ix2 R (⟨(y 1).val, idx2_lt1 y⟩ : Fin 128)))

/-- That function at an entry given by its coordinates. -/
theorem redG10_apply (A B : S50000x128.Idx → EReal) (i j : Fin 128) :
    redG10 A B (ix2 i j) = lrelu (∑ R : Fin 50000, A (ix2 R i) * B (ix2 R j)) := rfl

/-- The index maps, decided over the grid: each operand's block index is `(t, 0)`. -/
theorem redBlockIdx10 : ∀ t : Fin cfg10.N, win10_0.index t (0 : Fin 2) = t.val ∧ win10_0.index t (1 : Fin 2) = 0
    ∧ win10_1.index t (0 : Fin 2) = t.val ∧ win10_1.index t (1 : Fin 2) = 0 :=
  (by decide +kernel : ∀ t : Fin grid10.N, _)

/-- Block `t` of the first operand holds rows `t·5000 + r` of its array. -/
theorem inA10_at (c : Dev nD) (t : ℕ) (r : Fin 5000) (q : Fin 128) (R : Fin 50000) (hR : R.val = t * 5000 + r.val) :
    inA10 V c t (ix2 r q) = V c (Pipeline.arrRef spec10 0) (ix2 R q) := by
  have hN : grid10.N = 10 := N_10
  have hRlt : R.val < 50000 := R.isLt
  have ht : t < cfg10.N := by show t < grid10.N; omega
  rw [show inA10 V c t = iblk10 V c 0 ⟨t, ht⟩ from inA10_eq V c ⟨t, ht⟩]
  obtain ⟨e00, e01, -, -⟩ := redBlockIdx10 ⟨t, ht⟩
  show V c (Pipeline.arrRef spec10 0) (((cfg10.win 0).blk ⟨t, ht⟩).view.emb (ix2 r q)) = V c (Pipeline.arrRef spec10 0) (ix2 R q)
  refine congrArg _ (funext fun a => Fin.ext ?_)
  match a with
  | ⟨0, _⟩ => show win10_0.index ⟨t, ht⟩ (0 : Fin 2) * 5000 + 1 * r.val = R.val; rw [e00]; show t * 5000 + 1 * r.val = R.val; omega
  | ⟨1, _⟩ => show win10_0.index ⟨t, ht⟩ (1 : Fin 2) * 128 + 1 * q.val = q.val; omega

/-- Block `t` of the second operand holds rows `t·5000 + r` of its array. -/
theorem inB10_at (c : Dev nD) (t : ℕ) (r : Fin 5000) (q : Fin 128) (R : Fin 50000) (hR : R.val = t * 5000 + r.val) :
    inB10 V c t (ix2 r q) = V c (Pipeline.arrRef spec10 1) (ix2 R q) := by
  have hN : grid10.N = 10 := N_10
  have hRlt : R.val < 50000 := R.isLt
  have ht : t < cfg10.N := by show t < grid10.N; omega
  rw [show inB10 V c t = iblk10 V c 1 ⟨t, ht⟩ from inB10_eq V c ⟨t, ht⟩]
  obtain ⟨-, -, e10, e11⟩ := redBlockIdx10 ⟨t, ht⟩
  show V c (Pipeline.arrRef spec10 1) (((cfg10.win 1).blk ⟨t, ht⟩).view.emb (ix2 r q)) = V c (Pipeline.arrRef spec10 1) (ix2 R q)
  refine congrArg _ (funext fun a => Fin.ext ?_)
  match a with
  | ⟨0, _⟩ => show win10_1.index ⟨t, ht⟩ (0 : Fin 2) * 5000 + 1 * r.val = R.val; rw [e10]; show t * 5000 + 1 * r.val = R.val; omega
  | ⟨1, _⟩ => show win10_1.index ⟨t, ht⟩ (1 : Fin 2) * 128 + 1 * q.val = q.val; omega

/-- THE OUTPUT ARRAY after the region's last point, entry by entry, with the two arrays the region reads named `A` and `B`. -/
theorem red_final10 (c : Dev nD) (A B : S50000x128.Idx → EReal)
    (hA : V c (Pipeline.arrRef spec10 0) = A) (hB : V c (Pipeline.arrRef spec10 1) = B) (i j : Fin 128) :
    ((dat10 (F := Ideal) V c).arrAt 2 cfg10.N (ix2 i j) : EReal) = lrelu (∑ R : Fin 50000, A (ix2 R i) * B (ix2 R j)) := by
  subst hA; subst hB
  rw [arrAt_out10]
  exact Val.k10_out_whole (inA10 V c) (inB10 V c) (acc10 V c) (acc10_zero V c) (acc10_succ V c)
    (V c (Pipeline.arrRef spec10 0)) (V c (Pipeline.arrRef spec10 1)) (inA10_at V c) (inB10_at V c) i j

/-- … and as a whole array: the region's function of the two arrays as the region finds them. -/
theorem red_final10_eq (c : Dev nD) :
    (dat10 (F := Ideal) V c).arrAt 2 cfg10.N = redG10 (V c (Pipeline.arrRef spec10 0)) (V c (Pipeline.arrRef spec10 1)) := by
  funext y
  obtain ⟨i, j, rfl⟩ : ∃ (i j : Fin 128), y = ix2 i j := ⟨y 0, y 1, eq_ix2 y⟩
  exact red_final10 V c _ _ rfl rfl i j

end Cert.KernelIdeal.Hand

end
-- ==== Proof.BridgeRed.lean ====
/-
  The reducing regions' functions are the reference's stages: each region's whole-array function — the leaky rectifier of the
  contraction of two tall arrays over all their rows — equals, entry by entry, the reference's stage, which transposes the
  first array and multiplies plainly: the transposed array's entry `(i, R)` is the array's entry `(R, i)`, so the host's product
  at `(i, j)` is the same sum over the rows, and the host's leaky rectifier is the same function of an entry.
-/
import proofs.«140582_j49512382988743_1_alg».proof.Proof.Spec
import proofs.«140582_j49512382988743_1_alg».proof.Proof.ValRef
import proofs.«140582_j49512382988743_1_alg».proof.Proof.LibLeaky
import proofs.«140582_j49512382988743_1_alg».proof.Proof.RedVal2
import proofs.«140582_j49512382988743_1_alg».proof.Proof.RedVal4
import proofs.«140582_j49512382988743_1_alg».proof.Proof.RedVal8
import proofs.«140582_j49512382988743_1_alg».proof.Proof.RedVal10

noncomputable section

open Idealize.ShloMosaic ValueIdx
open LibLeaky (lrelu relu)

namespace Cert.Bridge

variable [Cert.ReferenceIdeal.Facts₀]

local notation "𝕌" => FVec Ideal Cert.ReferenceIdeal.S100000x128 FTy.f32
local notation "𝕀" => FVec Ideal Cert.ReferenceIdeal.S50000x128 FTy.f32

/-- Region 2's function is the reference's `redU`. -/
theorem redG2_eq (A B : 𝕌) : Cert.KernelIdeal.Hand.redG2 A B = Cert.Spec.redU A B := by
  funext y
  obtain ⟨i, j, rfl⟩ : ∃ (i j : Fin 128), y = ix2 i j := ⟨y 0, y 1, eq_ix2 y⟩
  exact (Cert.KernelIdeal.Hand.redG2_apply A B i j).trans
    ((Cert.ReferenceIdeal.Val.leaky_h_at Cert.ReferenceIdeal.Facts₀.bcast_S_S128x128
      (Host.dotGeneral (F := Ideal) (φ₁ := .f32) (φ₂ := .f32) Cert.ReferenceIdeal.dot_S128x100000_S100000x128_S128x128_1_0_0_1_n_n none
        (transpose Cert.ReferenceIdeal.S128x100000 [1, 0] A Cert.ReferenceIdeal.Facts₀.transposes_S100000x128_S128x100000_1_0) B) i j).trans
      (congrArg lrelu (Cert.ReferenceIdeal.Val.dot_ut_at A B Cert.ReferenceIdeal.Facts₀.transposes_S100000x128_S128x100000_1_0 i j))).symm

/-- Region 4's function is the reference's `redI`. -/
theorem redG4_eq (A B : 𝕀) : Cert.KernelIdeal.Hand.redG4 A B = Cert.Spec.redI A B := by
  funext y
  obtain ⟨i, j, rfl⟩ : ∃ (i j : Fin 128), y = ix2 i j := ⟨y 0, y 1, eq_ix2 y⟩
  exact (Cert.KernelIdeal.Hand.redG4_apply A B i j).trans
    ((Cert.ReferenceIdeal.Val.leaky_h_at Cert.ReferenceIdeal.Facts₀.bcast_S_S128x128
      (Host.dotGeneral (F := Ideal) (φ₁ := .f32) (φ₂ := .f32) Cert.ReferenceIdeal.dot_S128x50000_S50000x128_S128x128_1_0_0_1_n_n none
        (transpose Cert.ReferenceIdeal.S128x50000 [1, 0] A Cert.ReferenceIdeal.Facts₀.transposes_S50000x128_S128x50000_1_0) B) i j).trans
      (congrArg lrelu (Cert.ReferenceIdeal.Val.dot_it_at A B Cert.ReferenceIdeal.Facts₀.transposes_S50000x128_S128x50000_1_0 i j))).symm

/-- Region 8's function is the reference's `redU`. -/
theorem redG8_eq (A B : 𝕌) : Cert.KernelIdeal.Hand.redG8 A B = Cert.Spec.redU A B := by
  funext y
  obtain ⟨i, j, rfl⟩ : ∃ (i j : Fin 128), y = ix2 i j := ⟨y 0, y 1, eq_ix2 y⟩
  exact (Cert.KernelIdeal.Hand.redG8_apply A B i j).trans
    ((Cert.ReferenceIdeal.Val.leaky_h_at Cert.ReferenceIdeal.Facts₀.bcast_S_S128x128
      (Host.dotGeneral (F := Ideal) (φ₁ := .f32) (φ₂ := .f32) Cert.ReferenceIdeal.dot_S128x100000_S100000x128_S128x128_1_0_0_1_n_n none
        (transpose Cert.ReferenceIdeal.S128x100000 [1, 0] A Cert.ReferenceIdeal.Facts₀.transposes_S100000x128_S128x100000_1_0) B) i j).trans
      (congrArg lrelu (Cert.ReferenceIdeal.Val.dot_ut_at A B Cert.ReferenceIdeal.Facts₀.transposes_S100000x128_S128x100000_1_0 i j))).symm

/-- Region 10's function is the reference's `redI`. -/
theorem redG10_eq (A B : 𝕀) : Cert.KernelIdeal.Hand.redG10 A B = Cert.Spec.redI A B := by
  funext y
  obtain ⟨i, j, rfl⟩ : ∃ (i j : Fin 128), y = ix2 i j := ⟨y 0, y 1, eq_ix2 y⟩
  exact (Cert.KernelIdeal.Hand.redG10_apply A B i j).trans
    ((Cert.ReferenceIdeal.Val.leaky_h_at Cert.ReferenceIdeal.Facts₀.bcast_S_S128x128
      (Host.dotGeneral (F := Ideal) (φ₁ := .f32) (φ₂ := .f32) Cert.ReferenceIdeal.dot_S128x50000_S50000x128_S128x128_1_0_0_1_n_n none
        (transpose Cert.ReferenceIdeal.S128x50000 [1, 0] A Cert.ReferenceIdeal.Facts₀.transposes_S50000x128_S128x50000_1_0) B) i j).trans
      (congrArg lrelu (Cert.ReferenceIdeal.Val.dot_it_at A B Cert.ReferenceIdeal.Facts₀.transposes_S50000x128_S128x50000_1_0 i j))).symm

end Cert.Bridge

end
-- ==== Proof.RegVal.lean ====
/-
  What each kernel region leaves in its output array, as the specification's stage of the two arrays it was
  entered with: the write-backs' whole-array form, then that form as the reference's stage.
-/
import proofs.«140582_j49512382988743_1_alg».proof.Proof.Keep
import proofs.«140582_j49512382988743_1_alg».proof.Proof.Bridge
import proofs.«140582_j49512382988743_1_alg».proof.Proof.BridgeRed
import proofs.«140582_j49512382988743_1_alg».proof.Proof.DenseVal0
import proofs.«140582_j49512382988743_1_alg».proof.Proof.DenseVal1
import proofs.«140582_j49512382988743_1_alg».proof.Proof.RedVal2
import proofs.«140582_j49512382988743_1_alg».proof.Proof.DenseVal3
import proofs.«140582_j49512382988743_1_alg».proof.Proof.RedVal4
import proofs.«140582_j49512382988743_1_alg».proof.Proof.DenseVal5
import proofs.«140582_j49512382988743_1_alg».proof.Proof.DenseVal6
import proofs.«140582_j49512382988743_1_alg».proof.Proof.DenseVal7
import proofs.«140582_j49512382988743_1_alg».proof.Proof.RedVal8
import proofs.«140582_j49512382988743_1_alg».proof.Proof.DenseVal9
import proofs.«140582_j49512382988743_1_alg».proof.Proof.RedVal10
import proofs.«140582_j49512382988743_1_alg».proof.Proof.DenseVal11
import proofs.«140582_j49512382988743_1_alg».proof.Proof.DenseVal12
import proofs.«140582_j49512382988743_1_alg».proof.Proof.DenseVal13
import proofs.«140582_j49512382988743_1_alg».proof.Proof.Gen.ReferenceIdeal

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

theorem regspec0 (c : Dev nD) : X1 m c main_v0 = Cert.Spec.hyperU (X0 m c main_arg0) (X0 m c main_arg2) := by
  unfold X1; rw [Function.update_self]
  exact (dense_final0_eq (atTc (X0 m)) c).trans (Cert.Bridge.denseG0_eq _ _)
theorem regspec1 (c : Dev nD) : X2 m c main_v1 = Cert.Spec.hyperI (X1 m c main_arg1) (X1 m c main_arg3) := by
  unfold X2; rw [Function.update_self]
  exact (dense_final1_eq (atTc (X1 m)) c).trans (Cert.Bridge.denseG1_eq _ _)
theorem regspec2 (c : Dev nD) : X4 m c main_v4 = Cert.Spec.redU (X3 m c main_v0) (X3 m c main_arg0) := by
  unfold X4; rw [Function.update_self]
  exact (red_final2_eq (atTc (X3 m)) c).trans (Cert.Bridge.redG2_eq _ _)
theorem regspec3 (c : Dev nD) : X12 m c main_v26 = Cert.Spec.fwdU (X11 m c main_v0) (X11 m c main_v25) := by
  unfold X12; rw [Function.update_self]
  exact (dense_final3_eq (atTc (X11 m)) c).trans (Cert.Bridge.denseG3_eq _ _)
theorem regspec4 (c : Dev nD) : X14 m c main_v29 = Cert.Spec.redI (X13 m c main_v1) (X13 m c main_arg1) := by
  unfold X14; rw [Function.update_self]
  exact (red_final4_eq (atTc (X13 m)) c).trans (Cert.Bridge.redG4_eq _ _)
theorem regspec5 (c : Dev nD) : X22 m c main_v51 = Cert.Spec.fwdI (X21 m c main_v1) (X21 m c main_v50) := by
  unfold X22; rw [Function.update_self]
  exact (dense_final5_eq (atTc (X21 m)) c).trans (Cert.Bridge.denseG5_eq _ _)
theorem regspec6 (c : Dev nD) : X24 m c main_v67 = Cert.Spec.gcnU (X23 m c main_v64) (X23 m c main_v66) := by
  unfold X24; rw [Function.update_self]
  exact (dense_final6_eq (atTc (X23 m)) c).trans (Cert.Bridge.denseG6_eq _ _)
theorem regspec7 (c : Dev nD) : X26 m c main_v83 = Cert.Spec.gcnI (X25 m c main_v80) (X25 m c main_v82) := by
  unfold X26; rw [Function.update_self]
  exact (dense_final7_eq (atTc (X25 m)) c).trans (Cert.Bridge.denseG7_eq _ _)
theorem regspec8 (c : Dev nD) : X28 m c main_v92 = Cert.Spec.redU (X27 m c main_v0) (X27 m c main_v85) := by
  unfold X28; rw [Function.update_self]
  exact (red_final8_eq (atTc (X27 m)) c).trans (Cert.Bridge.redG8_eq _ _)
theorem regspec9 (c : Dev nD) : X36 m c main_v114 = Cert.Spec.fwdU (X35 m c main_v0) (X35 m c main_v113) := by
  unfold X36; rw [Function.update_self]
  exact (dense_final9_eq (atTc (X35 m)) c).trans (Cert.Bridge.denseG9_eq _ _)
theorem regspec10 (c : Dev nD) : X38 m c main_v117 = Cert.Spec.redI (X37 m c main_v1) (X37 m c main_v87) := by
  unfold X38; rw [Function.update_self]
  exact (red_final10_eq (atTc (X37 m)) c).trans (Cert.Bridge.redG10_eq _ _)
theorem regspec11 (c : Dev nD) : X46 m c main_v139 = Cert.Spec.fwdI (X45 m c main_v1) (X45 m c main_v138) := by
  unfold X46; rw [Function.update_self]
  exact (dense_final11_eq (atTc (X45 m)) c).trans (Cert.Bridge.denseG11_eq _ _)
theorem regspec12 (c : Dev nD) : X48 m c main_v155 = Cert.Spec.gcnU (X47 m c main_v152) (X47 m c main_v154) := by
  unfold X48; rw [Function.update_self]
  exact (dense_final12_eq (atTc (X47 m)) c).trans (Cert.Bridge.denseG12_eq _ _)
theorem regspec13 (c : Dev nD) : X50 m c main_v171 = Cert.Spec.gcnI (X49 m c main_v168) (X49 m c main_v170) := by
  unfold X50; rw [Function.update_self]
  exact (dense_final13_eq (atTc (X49 m)) c).trans (Cert.Bridge.denseG13_eq _ _)

end Cert.KernelIdeal.Hand

end
-- ==== Proof.KVal.lean ====
/-
  Every buffer of the kernel program that a later item reads, as the specification's stage of the launch arguments:
  a region's output by its whole-array form, a host stretch's by its operations composed, the inputs of each carried
  from where they were made (no item in between writes them) — down to the two results.
-/
import proofs.«140582_j49512382988743_1_alg».proof.Proof.HostVal
import proofs.«140582_j49512382988743_1_alg».proof.Proof.RegVal
import proofs.«140582_j49512382988743_1_alg».proof.Proof.RunAll

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-! The eleven argument arrays on core `c`, as launched. -/
abbrev ar0 (c : Dev nD) := m ((c.tc : Thread nD τ).loc main_arg0)
abbrev ar1 (c : Dev nD) := m ((c.tc : Thread nD τ).loc main_arg1)
abbrev ar2 (c : Dev nD) := m ((c.tc : Thread nD τ).loc main_arg2)
abbrev ar3 (c : Dev nD) := m ((c.tc : Thread nD τ).loc main_arg3)
abbrev ar4 (c : Dev nD) := m ((c.tc : Thread nD τ).loc main_arg4)
abbrev ar5 (c : Dev nD) := m ((c.tc : Thread nD τ).loc main_arg5)
abbrev ar6 (c : Dev nD) := m ((c.tc : Thread nD τ).loc main_arg6)
abbrev ar7 (c : Dev nD) := m ((c.tc : Thread nD τ).loc main_arg7)
abbrev ar8 (c : Dev nD) := m ((c.tc : Thread nD τ).loc main_arg8)
abbrev ar9 (c : Dev nD) := m ((c.tc : Thread nD τ).loc main_arg9)
abbrev ar10 (c : Dev nD) := m ((c.tc : Thread nD τ).loc main_arg10)

theorem at0_arg0 (c : Dev nD) : X0 m c main_arg0 = ar0 m c := rfl
theorem at0_arg2 (c : Dev nD) : X0 m c main_arg2 = ar2 m c := rfl
theorem kv_v0 (c : Dev nD) : X1 m c main_v0 = Cert.Spec.uuHyper (ar0 m c) (ar1 m c) (ar2 m c) (ar3 m c) (ar4 m c) (ar5 m c) (ar6 m c) (ar7 m c) (ar8 m c) (ar9 m c) (ar10 m c) := by
  rw [regspec0 m c, at0_arg0 m c, at0_arg2 m c] <;> rfl
theorem at1_arg1 (c : Dev nD) : X1 m c main_arg1 = ar1 m c := (X1_of m c main_arg1 (by decide))
theorem at1_arg3 (c : Dev nD) : X1 m c main_arg3 = ar3 m c := (X1_of m c main_arg3 (by decide))
theorem kv_v1 (c : Dev nD) : X2 m c main_v1 = Cert.Spec.iiHyper (ar0 m c) (ar1 m c) (ar2 m c) (ar3 m c) (ar4 m c) (ar5 m c) (ar6 m c) (ar7 m c) (ar8 m c) (ar9 m c) (ar10 m c) := by
  rw [regspec1 m c, at1_arg1 m c, at1_arg3 m c] <;> rfl
theorem at2_arg5 (c : Dev nD) : X2 m c main_arg5 = ar5 m c := ((X2_of m c main_arg5 (by decide)).trans (X1_of m c main_arg5 (by decide)))
theorem kv_v3 (c : Dev nD) : X3 m c main_v3 = Cert.Spec.wstack0 (ar5 m c) := by
  rw [hg3_v3 m c, at2_arg5 m c] <;> rfl
theorem at3_v0 (c : Dev nD) : X3 m c main_v0 = Cert.Spec.uuHyper (ar0 m c) (ar1 m c) (ar2 m c) (ar3 m c) (ar4 m c) (ar5 m c) (ar6 m c) (ar7 m c) (ar8 m c) (ar9 m c) (ar10 m c) := ((X3_of m c main_v0 (by decide)).trans (X2_of m c main_v0 (by decide))).trans (kv_v0 m c)
theorem at3_arg0 (c : Dev nD) : X3 m c main_arg0 = ar0 m c := ((X3_of m c main_arg0 (by decide)).trans ((X2_of m c main_arg0 (by decide)).trans (X1_of m c main_arg0 (by decide))))
theorem kv_v4 (c : Dev nD) : X4 m c main_v4 = Cert.Spec.redU (Cert.Spec.uuHyper (ar0 m c) (ar1 m c) (ar2 m c) (ar3 m c) (ar4 m c) (ar5 m c) (ar6 m c) (ar7 m c) (ar8 m c) (ar9 m c) (ar10 m c)) (ar0 m c) := by
  rw [regspec2 m c, at3_v0 m c, at3_arg0 m c] <;> rfl
theorem at4_v4 (c : Dev nD) : X4 m c main_v4 = Cert.Spec.redU (Cert.Spec.uuHyper (ar0 m c) (ar1 m c) (ar2 m c) (ar3 m c) (ar4 m c) (ar5 m c) (ar6 m c) (ar7 m c) (ar8 m c) (ar9 m c) (ar10 m c)) (ar0 m c) := kv_v4 m c
theorem at4_v3 (c : Dev nD) : X4 m c main_v3 = Cert.Spec.wstack0 (ar5 m c) := (X4_of m c main_v3 (by decide)).trans (kv_v3 m c)
theorem kv_v25 (c : Dev nD) : X11 m c main_v25 = Cert.Spec.fc3 (Cert.Spec.redU (Cert.Spec.uuHyper (ar0 m c) (ar1 m c) (ar2 m c) (ar3 m c) (ar4 m c) (ar5 m c) (ar6 m c) (ar7 m c) (ar8 m c) (ar9 m c) (ar10 m c)) (ar0 m c)) (Cert.Spec.wrow0 (Cert.Spec.wstack0 (ar5 m c))) (Cert.Spec.wrow1 (Cert.Spec.wstack0 (ar5 m c))) (Cert.Spec.wrow2 (Cert.Spec.wstack0 (ar5 m c))) := by
  rw [hg11_v25 m c, at4_v4 m c, at4_v3 m c] <;> rfl
theorem at11_v0 (c : Dev nD) : X11 m c main_v0 = Cert.Spec.uuHyper (ar0 m c) (ar1 m c) (ar2 m c) (ar3 m c) (ar4 m c) (ar5 m c) (ar6 m c) (ar7 m c) (ar8 m c) (ar9 m c) (ar10 m c) := ((X11_of m c main_v0 (by decide)).trans ((X10_of m c main_v0 (by decide)).trans ((X9_of m c main_v0 (by decide)).trans ((X8_of m c main_v0 (by decide)).trans ((X7_of m c main_v0 (by decide)).trans ((X6_of m c main_v0 (by decide)).trans ((X5_of m c main_v0 (by decide)).trans ((X4_of m c main_v0 (by decide)).trans ((X3_of m c main_v0 (by decide)).trans (X2_of m c main_v0 (by decide))))))))))).trans (kv_v0 m c)
theorem at11_v25 (c : Dev nD) : X11 m c main_v25 = Cert.Spec.fc3 (Cert.Spec.redU (Cert.Spec.uuHyper (ar0 m c) (ar1 m c) (ar2 m c) (ar3 m c) (ar4 m c) (ar5 m c) (ar6 m c) (ar7 m c) (ar8 m c) (ar9 m c) (ar10 m c)) (ar0 m c)) (Cert.Spec.wrow0 (Cert.Spec.wstack0 (ar5 m c))) (Cert.Spec.wrow1 (Cert.Spec.wstack0 (ar5 m c))) (Cert.Spec.wrow2 (Cert.Spec.wstack0 (ar5 m c))) := kv_v25 m c
theorem kv_v26 (c : Dev nD) : X12 m c main_v26 = Cert.Spec.hU0 (ar0 m c) (ar1 m c) (ar2 m c) (ar3 m c) (ar4 m c) (ar5 m c) (ar6 m c) (ar7 m c) (ar8 m c) (ar9 m c) (ar10 m c) := by
  rw [regspec3 m c, at11_v0 m c, at11_v25 m c] <;> rfl
theorem at12_arg6 (c : Dev nD) : X12 m c main_arg6 = ar6 m c := ((X12_of m c main_arg6 (by decide)).trans ((X11_of m c main_arg6 (by decide)).trans ((X10_of m c main_arg6 (by decide)).trans ((X9_of m c main_arg6 (by decide)).trans ((X8_of m c main_arg6 (by decide)).trans ((X7_of m c main_arg6 (by decide)).trans ((X6_of m c main_arg6 (by decide)).trans ((X5_of m c main_arg6 (by decide)).trans ((X4_of m c main_arg6 (by decide)).trans ((X3_of m c main_arg6 (by decide)).trans ((X2_of m c main_arg6 (by decide)).trans (X1_of m c main_arg6 (by decide)))))))))))))
theorem kv_v28 (c : Dev nD) : X13 m c main_v28 = Cert.Spec.wstack0 (ar6 m c) := by
  rw [hg13_v28 m c, at12_arg6 m c] <;> rfl
theorem at13_v1 (c : Dev nD) : X13 m c main_v1 = Cert.Spec.iiHyper (ar0 m c) (ar1 m c) (ar2 m c) (ar3 m c) (ar4 m c) (ar5 m c) (ar6 m c) (ar7 m c) (ar8 m c) (ar9 m c) (ar10 m c) := ((X13_of m c main_v1 (by decide)).trans ((X12_of m c main_v1 (by decide)).trans ((X11_of m c main_v1 (by decide)).trans ((X10_of m c main_v1 (by decide)).trans ((X9_of m c main_v1 (by decide)).trans ((X8_of m c main_v1 (by decide)).trans ((X7_of m c main_v1 (by decide)).trans ((X6_of m c main_v1 (by decide)).trans ((X5_of m c main_v1 (by decide)).trans ((X4_of m c main_v1 (by decide)).trans (X3_of m c main_v1 (by decide)))))))))))).trans (kv_v1 m c)
theorem at13_arg1 (c : Dev nD) : X13 m c main_arg1 = ar1 m c := ((X13_of m c main_arg1 (by decide)).trans ((X12_of m c main_arg1 (by decide)).trans ((X11_of m c main_arg1 (by decide)).trans ((X10_of m c main_arg1 (by decide)).trans ((X9_of m c main_arg1 (by decide)).trans ((X8_of m c main_arg1 (by decide)).trans ((X7_of m c main_arg1 (by decide)).trans ((X6_of m c main_arg1 (by decide)).trans ((X5_of m c main_arg1 (by decide)).trans ((X4_of m c main_arg1 (by decide)).trans ((X3_of m c main_arg1 (by decide)).trans ((X2_of m c main_arg1 (by decide)).trans (X1_of m c main_arg1 (by decide))))))))))))))
theorem kv_v29 (c : Dev nD) : X14 m c main_v29 = Cert.Spec.redI (Cert.Spec.iiHyper (ar0 m c) (ar1 m c) (ar2 m c) (ar3 m c) (ar4 m c) (ar5 m c) (ar6 m c) (ar7 m c) (ar8 m c) (ar9 m c) (ar10 m c)) (ar1 m c) := by
  rw [regspec4 m c, at13_v1 m c, at13_arg1 m c] <;> rfl
theorem at14_v29 (c : Dev nD) : X14 m c main_v29 = Cert.Spec.redI (Cert.Spec.iiHyper (ar0 m c) (ar1 m c) (ar2 m c) (ar3 m c) (ar4 m c) (ar5 m c) (ar6 m c) (ar7 m c) (ar8 m c) (ar9 m c) (ar10 m c)) (ar1 m c) := kv_v29 m c
theorem at14_v28 (c : Dev nD) : X14 m c main_v28 = Cert.Spec.wstack0 (ar6 m c) := (X14_of m c main_v28 (by decide)).trans (kv_v28 m c)
theorem kv_v50 (c : Dev nD) : X21 m c main_v50 = Cert.Spec.fc3 (Cert.Spec.redI (Cert.Spec.iiHyper (ar0 m c) (ar1 m c) (ar2 m c) (ar3 m c) (ar4 m c) (ar5 m c) (ar6 m c) (ar7 m c) (ar8 m c) (ar9 m c) (ar10 m c)) (ar1 m c)) (Cert.Spec.wrow0 (Cert.Spec.wstack0 (ar6 m c))) (Cert.Spec.wrow1 (Cert.Spec.wstack0 (ar6 m c))) (Cert.Spec.wrow2 (Cert.Spec.wstack0 (ar6 m c))) := by
  rw [hg21_v50 m c, at14_v29 m c, at14_v28 m c] <;> rfl
theorem at21_v1 (c : Dev nD) : X21 m c main_v1 = Cert.Spec.iiHyper (ar0 m c) (ar1 m c) (ar2 m c) (ar3 m c) (ar4 m c) (ar5 m c) (ar6 m c) (ar7 m c) (ar8 m c) (ar9 m c) (ar10 m c) := ((X21_of m c main_v1 (by decide)).trans ((X20_of m c main_v1 (by decide)).trans ((X19_of m c main_v1 (by decide)).trans ((X18_of m c main_v1 (by decide)).trans ((X17_of m c main_v1 (by decide)).trans ((X16_of m c main_v1 (by decide)).trans ((X15_of m c main_v1 (by decide)).trans ((X14_of m c main_v1 (by decide)).trans ((X13_of m c main_v1 (by decide)).trans ((X12_of m c main_v1 (by decide)).trans ((X11_of m c main_v1 (by decide)).trans ((X10_of m c main_v1 (by decide)).trans ((X9_of m c main_v1 (by decide)).trans ((X8_of m c main_v1 (by decide)).trans ((X7_of m c main_v1 (by decide)).trans ((X6_of m c main_v1 (by decide)).trans ((X5_of m c main_v1 (by decide)).trans ((X4_of m c main_v1 (by decide)).trans (X3_of m c main_v1 (by decide)))))))))))))))))))).trans (kv_v1 m c)
theorem at21_v50 (c : Dev nD) : X21 m c main_v50 = Cert.Spec.fc3 (Cert.Spec.redI (Cert.Spec.iiHyper (ar0 m c) (ar1 m c) (ar2 m c) (ar3 m c) (ar4 m c) (ar5 m c) (ar6 m c) (ar7 m c) (ar8 m c) (ar9 m c) (ar10 m c)) (ar1 m c)) (Cert.Spec.wrow0 (Cert.Spec.wstack0 (ar6 m c))) (Cert.Spec.wrow1 (Cert.Spec.wstack0 (ar6 m c))) (Cert.Spec.wrow2 (Cert.Spec.wstack0 (ar6 m c))) := kv_v50 m c
theorem kv_v51 (c : Dev nD) : X22 m c main_v51 = Cert.Spec.hI0 (ar0 m c) (ar1 m c) (ar2 m c) (ar3 m c) (ar4 m c) (ar5 m c) (ar6 m c) (ar7 m c) (ar8 m c) (ar9 m c) (ar10 m c) := by
  rw [regspec5 m c, at21_v1 m c, at21_v50 m c] <;> rfl
theorem at22_arg4 (c : Dev nD) : X22 m c main_arg4 = ar4 m c := ((X22_of m c main_arg4 (by decide)).trans ((X21_of m c main_arg4 (by decide)).trans ((X20_of m c main_arg4 (by decide)).trans ((X19_of m c main_arg4 (by decide)).trans ((X18_of m c main_arg4 (by decide)).trans ((X17_of m c main_arg4 (by decide)).trans ((X16_of m c main_arg4 (by decide)).trans ((X15_of m c main_arg4 (by decide)).trans ((X14_of m c main_arg4 (by decide)).trans ((X13_of m c main_arg4 (by decide)).trans ((X12_of m c main_arg4 (by decide)).trans ((X11_of m c main_arg4 (by decide)).trans ((X10_of m c main_arg4 (by decide)).trans ((X9_of m c main_arg4 (by decide)).trans ((X8_of m c main_arg4 (by decide)).trans ((X7_of m c main_arg4 (by decide)).trans ((X6_of m c main_arg4 (by decide)).trans ((X5_of m c main_arg4 (by decide)).trans ((X4_of m c main_arg4 (by decide)).trans ((X3_of m c main_arg4 (by decide)).trans ((X2_of m c main_arg4 (by decide)).trans (X1_of m c main_arg4 (by decide)))))))))))))))))))))))
theorem at22_arg9 (c : Dev nD) : X22 m c main_arg9 = ar9 m c := ((X22_of m c main_arg9 (by decide)).trans ((X21_of m c main_arg9 (by decide)).trans ((X20_of m c main_arg9 (by decide)).trans ((X19_of m c main_arg9 (by decide)).trans ((X18_of m c main_arg9 (by decide)).trans ((X17_of m c main_arg9 (by decide)).trans ((X16_of m c main_arg9 (by decide)).trans ((X15_of m c main_arg9 (by decide)).trans ((X14_of m c main_arg9 (by decide)).trans ((X13_of m c main_arg9 (by decide)).trans ((X12_of m c main_arg9 (by decide)).trans ((X11_of m c main_arg9 (by decide)).trans ((X10_of m c main_arg9 (by decide)).trans ((X9_of m c main_arg9 (by decide)).trans ((X8_of m c main_arg9 (by decide)).trans ((X7_of m c main_arg9 (by decide)).trans ((X6_of m c main_arg9 (by decide)).trans ((X5_of m c main_arg9 (by decide)).trans ((X4_of m c main_arg9 (by decide)).trans ((X3_of m c main_arg9 (by decide)).trans ((X2_of m c main_arg9 (by decide)).trans (X1_of m c main_arg9 (by decide)))))))))))))))))))))))
theorem at22_arg10 (c : Dev nD) : X22 m c main_arg10 = ar10 m c := ((X22_of m c main_arg10 (by decide)).trans ((X21_of m c main_arg10 (by decide)).trans ((X20_of m c main_arg10 (by decide)).trans ((X19_of m c main_arg10 (by decide)).trans ((X18_of m c main_arg10 (by decide)).trans ((X17_of m c main_arg10 (by decide)).trans ((X16_of m c main_arg10 (by decide)).trans ((X15_of m c main_arg10 (by decide)).trans ((X14_of m c main_arg10 (by decide)).trans ((X13_of m c main_arg10 (by decide)).trans ((X12_of m c main_arg10 (by decide)).trans ((X11_of m c main_arg10 (by decide)).trans ((X10_of m c main_arg10 (by decide)).trans ((X9_of m c main_arg10 (by decide)).trans ((X8_of m c main_arg10 (by decide)).trans ((X7_of m c main_arg10 (by decide)).trans ((X6_of m c main_arg10 (by decide)).trans ((X5_of m c main_arg10 (by decide)).trans ((X4_of m c main_arg10 (by decide)).trans ((X3_of m c main_arg10 (by decide)).trans ((X2_of m c main_arg10 (by decide)).trans (X1_of m c main_arg10 (by decide)))))))))))))))))))))))
theorem at22_arg1 (c : Dev nD) : X22 m c main_arg1 = ar1 m c := ((X22_of m c main_arg1 (by decide)).trans ((X21_of m c main_arg1 (by decide)).trans ((X20_of m c main_arg1 (by decide)).trans ((X19_of m c main_arg1 (by decide)).trans ((X18_of m c main_arg1 (by decide)).trans ((X17_of m c main_arg1 (by decide)).trans ((X16_of m c main_arg1 (by decide)).trans ((X15_of m c main_arg1 (by decide)).trans ((X14_of m c main_arg1 (by decide)).trans ((X13_of m c main_arg1 (by decide)).trans ((X12_of m c main_arg1 (by decide)).trans ((X11_of m c main_arg1 (by decide)).trans ((X10_of m c main_arg1 (by decide)).trans ((X9_of m c main_arg1 (by decide)).trans ((X8_of m c main_arg1 (by decide)).trans ((X7_of m c main_arg1 (by decide)).trans ((X6_of m c main_arg1 (by decide)).trans ((X5_of m c main_arg1 (by decide)).trans ((X4_of m c main_arg1 (by decide)).trans ((X3_of m c main_arg1 (by decide)).trans ((X2_of m c main_arg1 (by decide)).trans (X1_of m c main_arg1 (by decide)))))))))))))))))))))))
theorem kv_v64 (c : Dev nD) : X23 m c main_v64 = Cert.Spec.spmmU (ar4 m c) (ar9 m c) (ar10 m c) (ar1 m c) := by
  rw [hg23_v64 m c, at22_arg4 m c, at22_arg9 m c, at22_arg10 m c, at22_arg1 m c] <;> rfl
theorem at22_arg7 (c : Dev nD) : X22 m c main_arg7 = ar7 m c := ((X22_of m c main_arg7 (by decide)).trans ((X21_of m c main_arg7 (by decide)).trans ((X20_of m c main_arg7 (by decide)).trans ((X19_of m c main_arg7 (by decide)).trans ((X18_of m c main_arg7 (by decide)).trans ((X17_of m c main_arg7 (by decide)).trans ((X16_of m c main_arg7 (by decide)).trans ((X15_of m c main_arg7 (by decide)).trans ((X14_of m c main_arg7 (by decide)).trans ((X13_of m c main_arg7 (by decide)).trans ((X12_of m c main_arg7 (by decide)).trans ((X11_of m c main_arg7 (by decide)).trans ((X10_of m c main_arg7 (by decide)).trans ((X9_of m c main_arg7 (by decide)).trans ((X8_of m c main_arg7 (by decide)).trans ((X7_of m c main_arg7 (by decide)).trans ((X6_of m c main_arg7 (by decide)).trans ((X5_of m c main_arg7 (by decide)).trans ((X4_of m c main_arg7 (by decide)).trans ((X3_of m c main_arg7 (by decide)).trans ((X2_of m c main_arg7 (by decide)).trans (X1_of m c main_arg7 (by decide)))))))))))))))))))))))
theorem kv_v66 (c : Dev nD) : X23 m c main_v66 = Cert.Spec.gslice0 (ar7 m c) := by
  rw [hg23_v66 m c, at22_arg7 m c] <;> rfl
theorem at23_v64 (c : Dev nD) : X23 m c main_v64 = Cert.Spec.spmmU (ar4 m c) (ar9 m c) (ar10 m c) (ar1 m c) := kv_v64 m c
theorem at23_v66 (c : Dev nD) : X23 m c main_v66 = Cert.Spec.gslice0 (ar7 m c) := kv_v66 m c
theorem kv_v67 (c : Dev nD) : X24 m c main_v67 = Cert.Spec.gU0 (ar0 m c) (ar1 m c) (ar2 m c) (ar3 m c) (ar4 m c) (ar5 m c) (ar6 m c) (ar7 m c) (ar8 m c) (ar9 m c) (ar10 m c) := by
  rw [regspec6 m c, at23_v64 m c, at23_v66 m c] <;> rfl
theorem at24_arg4 (c : Dev nD) : X24 m c main_arg4 = ar4 m c := ((X24_of m c main_arg4 (by decide)).trans ((X23_of m c main_arg4 (by decide)).trans ((X22_of m c main_arg4 (by decide)).trans ((X21_of m c main_arg4 (by decide)).trans ((X20_of m c main_arg4 (by decide)).trans ((X19_of m c main_arg4 (by decide)).trans ((X18_of m c main_arg4 (by decide)).trans ((X17_of m c main_arg4 (by decide)).trans ((X16_of m c main_arg4 (by decide)).trans ((X15_of m c main_arg4 (by decide)).trans ((X14_of m c main_arg4 (by decide)).trans ((X13_of m c main_arg4 (by decide)).trans ((X12_of m c main_arg4 (by decide)).trans ((X11_of m c main_arg4 (by decide)).trans ((X10_of m c main_arg4 (by decide)).trans ((X9_of m c main_arg4 (by decide)).trans ((X8_of m c main_arg4 (by decide)).trans ((X7_of m c main_arg4 (by decide)).trans ((X6_of m c main_arg4 (by decide)).trans ((X5_of m c main_arg4 (by decide)).trans ((X4_of m c main_arg4 (by decide)).trans ((X3_of m c main_arg4 (by decide)).trans ((X2_of m c main_arg4 (by decide)).trans (X1_of m c main_arg4 (by decide)))))))))))))))))))))))))
theorem at24_arg9 (c : Dev nD) : X24 m c main_arg9 = ar9 m c := ((X24_of m c main_arg9 (by decide)).trans ((X23_of m c main_arg9 (by decide)).trans ((X22_of m c main_arg9 (by decide)).trans ((X21_of m c main_arg9 (by decide)).trans ((X20_of m c main_arg9 (by decide)).trans ((X19_of m c main_arg9 (by decide)).trans ((X18_of m c main_arg9 (by decide)).trans ((X17_of m c main_arg9 (by decide)).trans ((X16_of m c main_arg9 (by decide)).trans ((X15_of m c main_arg9 (by decide)).trans ((X14_of m c main_arg9 (by decide)).trans ((X13_of m c main_arg9 (by decide)).trans ((X12_of m c main_arg9 (by decide)).trans ((X11_of m c main_arg9 (by decide)).trans ((X10_of m c main_arg9 (by decide)).trans ((X9_of m c main_arg9 (by decide)).trans ((X8_of m c main_arg9 (by decide)).trans ((X7_of m c main_arg9 (by decide)).trans ((X6_of m c main_arg9 (by decide)).trans ((X5_of m c main_arg9 (by decide)).trans ((X4_of m c main_arg9 (by decide)).trans ((X3_of m c main_arg9 (by decide)).trans ((X2_of m c main_arg9 (by decide)).trans (X1_of m c main_arg9 (by decide)))))))))))))))))))))))))
theorem at24_arg10 (c : Dev nD) : X24 m c main_arg10 = ar10 m c := ((X24_of m c main_arg10 (by decide)).trans ((X23_of m c main_arg10 (by decide)).trans ((X22_of m c main_arg10 (by decide)).trans ((X21_of m c main_arg10 (by decide)).trans ((X20_of m c main_arg10 (by decide)).trans ((X19_of m c main_arg10 (by decide)).trans ((X18_of m c main_arg10 (by decide)).trans ((X17_of m c main_arg10 (by decide)).trans ((X16_of m c main_arg10 (by decide)).trans ((X15_of m c main_arg10 (by decide)).trans ((X14_of m c main_arg10 (by decide)).trans ((X13_of m c main_arg10 (by decide)).trans ((X12_of m c main_arg10 (by decide)).trans ((X11_of m c main_arg10 (by decide)).trans ((X10_of m c main_arg10 (by decide)).trans ((X9_of m c main_arg10 (by decide)).trans ((X8_of m c main_arg10 (by decide)).trans ((X7_of m c main_arg10 (by decide)).trans ((X6_of m c main_arg10 (by decide)).trans ((X5_of m c main_arg10 (by decide)).trans ((X4_of m c main_arg10 (by decide)).trans ((X3_of m c main_arg10 (by decide)).trans ((X2_of m c main_arg10 (by decide)).trans (X1_of m c main_arg10 (by decide)))))))))))))))))))))))))
theorem at24_arg0 (c : Dev nD) : X24 m c main_arg0 = ar0 m c := ((X24_of m c main_arg0 (by decide)).trans ((X23_of m c main_arg0 (by decide)).trans ((X22_of m c main_arg0 (by decide)).trans ((X21_of m c main_arg0 (by decide)).trans ((X20_of m c main_arg0 (by decide)).trans ((X19_of m c main_arg0 (by decide)).trans ((X18_of m c main_arg0 (by decide)).trans ((X17_of m c main_arg0 (by decide)).trans ((X16_of m c main_arg0 (by decide)).trans ((X15_of m c main_arg0 (by decide)).trans ((X14_of m c main_arg0 (by decide)).trans ((X13_of m c main_arg0 (by decide)).trans ((X12_of m c main_arg0 (by decide)).trans ((X11_of m c main_arg0 (by decide)).trans ((X10_of m c main_arg0 (by decide)).trans ((X9_of m c main_arg0 (by decide)).trans ((X8_of m c main_arg0 (by decide)).trans ((X7_of m c main_arg0 (by decide)).trans ((X6_of m c main_arg0 (by decide)).trans ((X5_of m c main_arg0 (by decide)).trans ((X4_of m c main_arg0 (by decide)).trans ((X3_of m c main_arg0 (by decide)).trans ((X2_of m c main_arg0 (by decide)).trans (X1_of m c main_arg0 (by decide)))))))))))))))))))))))))
theorem kv_v80 (c : Dev nD) : X25 m c main_v80 = Cert.Spec.spmmI (ar4 m c) (ar9 m c) (ar10 m c) (ar0 m c) := by
  rw [hg25_v80 m c, at24_arg4 m c, at24_arg9 m c, at24_arg10 m c, at24_arg0 m c] <;> rfl
theorem at24_arg8 (c : Dev nD) : X24 m c main_arg8 = ar8 m c := ((X24_of m c main_arg8 (by decide)).trans ((X23_of m c main_arg8 (by decide)).trans ((X22_of m c main_arg8 (by decide)).trans ((X21_of m c main_arg8 (by decide)).trans ((X20_of m c main_arg8 (by decide)).trans ((X19_of m c main_arg8 (by decide)).trans ((X18_of m c main_arg8 (by decide)).trans ((X17_of m c main_arg8 (by decide)).trans ((X16_of m c main_arg8 (by decide)).trans ((X15_of m c main_arg8 (by decide)).trans ((X14_of m c main_arg8 (by decide)).trans ((X13_of m c main_arg8 (by decide)).trans ((X12_of m c main_arg8 (by decide)).trans ((X11_of m c main_arg8 (by decide)).trans ((X10_of m c main_arg8 (by decide)).trans ((X9_of m c main_arg8 (by decide)).trans ((X8_of m c main_arg8 (by decide)).trans ((X7_of m c main_arg8 (by decide)).trans ((X6_of m c main_arg8 (by decide)).trans ((X5_of m c main_arg8 (by decide)).trans ((X4_of m c main_arg8 (by decide)).trans ((X3_of m c main_arg8 (by decide)).trans ((X2_of m c main_arg8 (by decide)).trans (X1_of m c main_arg8 (by decide)))))))))))))))))))))))))
theorem kv_v82 (c : Dev nD) : X25 m c main_v82 = Cert.Spec.gslice0 (ar8 m c) := by
  rw [hg25_v82 m c, at24_arg8 m c] <;> rfl
theorem at25_v80 (c : Dev nD) : X25 m c main_v80 = Cert.Spec.spmmI (ar4 m c) (ar9 m c) (ar10 m c) (ar0 m c) := kv_v80 m c
theorem at25_v82 (c : Dev nD) : X25 m c main_v82 = Cert.Spec.gslice0 (ar8 m c) := kv_v82 m c
theorem kv_v83 (c : Dev nD) : X26 m c main_v83 = Cert.Spec.gI0 (ar0 m c) (ar1 m c) (ar2 m c) (ar3 m c) (ar4 m c) (ar5 m c) (ar6 m c) (ar7 m c) (ar8 m c) (ar9 m c) (ar10 m c) := by
  rw [regspec7 m c, at25_v80 m c, at25_v82 m c] <;> rfl
theorem at26_v67 (c : Dev nD) : X26 m c main_v67 = Cert.Spec.gU0 (ar0 m c) (ar1 m c) (ar2 m c) (ar3 m c) (ar4 m c) (ar5 m c) (ar6 m c) (ar7 m c) (ar8 m c) (ar9 m c) (ar10 m c) := ((X26_of m c main_v67 (by decide)).trans (X25_of m c main_v67 (by decide))).trans (kv_v67 m c)
theorem at26_v26 (c : Dev nD) : X26 m c main_v26 = Cert.Spec.hU0 (ar0 m c) (ar1 m c) (ar2 m c) (ar3 m c) (ar4 m c) (ar5 m c) (ar6 m c) (ar7 m c) (ar8 m c) (ar9 m c) (ar10 m c) := ((X26_of m c main_v26 (by decide)).trans ((X25_of m c main_v26 (by decide)).trans ((X24_of m c main_v26 (by decide)).trans ((X23_of m c main_v26 (by decide)).trans ((X22_of m c main_v26 (by decide)).trans ((X21_of m c main_v26 (by decide)).trans ((X20_of m c main_v26 (by decide)).trans ((X19_of m c main_v26 (by decide)).trans ((X18_of m c main_v26 (by decide)).trans ((X17_of m c main_v26 (by decide)).trans ((X16_of m c main_v26 (by decide)).trans ((X15_of m c main_v26 (by decide)).trans ((X14_of m c main_v26 (by decide)).trans (X13_of m c main_v26 (by decide))))))))))))))).trans (kv_v26 m c)
theorem at26_arg0 (c : Dev nD) : X26 m c main_arg0 = ar0 m c := ((X26_of m c main_arg0 (by decide)).trans ((X25_of m c main_arg0 (by decide)).trans ((X24_of m c main_arg0 (by decide)).trans ((X23_of m c main_arg0 (by decide)).trans ((X22_of m c main_arg0 (by decide)).trans ((X21_of m c main_arg0 (by decide)).trans ((X20_of m c main_arg0 (by decide)).trans ((X19_of m c main_arg0 (by decide)).trans ((X18_of m c main_arg0 (by decide)).trans ((X17_of m c main_arg0 (by decide)).trans ((X16_of m c main_arg0 (by decide)).trans ((X15_of m c main_arg0 (by decide)).trans ((X14_of m c main_arg0 (by decide)).trans ((X13_of m c main_arg0 (by decide)).trans ((X12_of m c main_arg0 (by decide)).trans ((X11_of m c main_arg0 (by decide)).trans ((X10_of m c main_arg0 (by decide)).trans ((X9_of m c main_arg0 (by decide)).trans ((X8_of m c main_arg0 (by decide)).trans ((X7_of m c main_arg0 (by decide)).trans ((X6_of m c main_arg0 (by decide)).trans ((X5_of m c main_arg0 (by decide)).trans ((X4_of m c main_arg0 (by decide)).trans ((X3_of m c main_arg0 (by decide)).trans ((X2_of m c main_arg0 (by decide)).trans (X1_of m c main_arg0 (by decide)))))))))))))))))))))))))))
theorem kv_v85 (c : Dev nD) : X27 m c main_v85 = Cert.Spec.ulat1 (ar0 m c) (ar1 m c) (ar2 m c) (ar3 m c) (ar4 m c) (ar5 m c) (ar6 m c) (ar7 m c) (ar8 m c) (ar9 m c) (ar10 m c) := by
  rw [hg27_v85 m c, at26_v67 m c, at26_v26 m c, at26_arg0 m c] <;> rfl
theorem at26_v83 (c : Dev nD) : X26 m c main_v83 = Cert.Spec.gI0 (ar0 m c) (ar1 m c) (ar2 m c) (ar3 m c) (ar4 m c) (ar5 m c) (ar6 m c) (ar7 m c) (ar8 m c) (ar9 m c) (ar10 m c) := kv_v83 m c
theorem at26_v51 (c : Dev nD) : X26 m c main_v51 = Cert.Spec.hI0 (ar0 m c) (ar1 m c) (ar2 m c) (ar3 m c) (ar4 m c) (ar5 m c) (ar6 m c) (ar7 m c) (ar8 m c) (ar9 m c) (ar10 m c) := ((X26_of m c main_v51 (by decide)).trans ((X25_of m c main_v51 (by decide)).trans ((X24_of m c main_v51 (by decide)).trans (X23_of m c main_v51 (by decide))))).trans (kv_v51 m c)
theorem at26_arg1 (c : Dev nD) : X26 m c main_arg1 = ar1 m c := ((X26_of m c main_arg1 (by decide)).trans ((X25_of m c main_arg1 (by decide)).trans ((X24_of m c main_arg1 (by decide)).trans ((X23_of m c main_arg1 (by decide)).trans ((X22_of m c main_arg1 (by decide)).trans ((X21_of m c main_arg1 (by decide)).trans ((X20_of m c main_arg1 (by decide)).trans ((X19_of m c main_arg1 (by decide)).trans ((X18_of m c main_arg1 (by decide)).trans ((X17_of m c main_arg1 (by decide)).trans ((X16_of m c main_arg1 (by decide)).trans ((X15_of m c main_arg1 (by decide)).trans ((X14_of m c main_arg1 (by decide)).trans ((X13_of m c main_arg1 (by decide)).trans ((X12_of m c main_arg1 (by decide)).trans ((X11_of m c main_arg1 (by decide)).trans ((X10_of m c main_arg1 (by decide)).trans ((X9_of m c main_arg1 (by decide)).trans ((X8_of m c main_arg1 (by decide)).trans ((X7_of m c main_arg1 (by decide)).trans ((X6_of m c main_arg1 (by decide)).trans ((X5_of m c main_arg1 (by decide)).trans ((X4_of m c main_arg1 (by decide)).trans ((X3_of m c main_arg1 (by decide)).trans ((X2_of m c main_arg1 (by decide)).trans (X1_of m c main_arg1 (by decide)))))))))))))))))))))))))))
theorem kv_v87 (c : Dev nD) : X27 m c main_v87 = Cert.Spec.ilat1 (ar0 m c) (ar1 m c) (ar2 m c) (ar3 m c) (ar4 m c) (ar5 m c) (ar6 m c) (ar7 m c) (ar8 m c) (ar9 m c) (ar10 m c) := by
  rw [hg27_v87 m c, at26_v83 m c, at26_v51 m c, at26_arg1 m c] <;> rfl
theorem kv_v88 (c : Dev nD) : X27 m c main_v88 = Cert.Spec.uSum1 (ar0 m c) (ar1 m c) (ar2 m c) (ar3 m c) (ar4 m c) (ar5 m c) (ar6 m c) (ar7 m c) (ar8 m c) (ar9 m c) (ar10 m c) := by
  rw [hg27_v88 m c, at26_arg0 m c, at26_v67 m c, at26_v26 m c] <;> rfl
theorem kv_v89 (c : Dev nD) : X27 m c main_v89 = Cert.Spec.iSum1 (ar0 m c) (ar1 m c) (ar2 m c) (ar3 m c) (ar4 m c) (ar5 m c) (ar6 m c) (ar7 m c) (ar8 m c) (ar9 m c) (ar10 m c) := by
  rw [hg27_v89 m c, at26_arg1 m c, at26_v83 m c, at26_v51 m c] <;> rfl
theorem at26_arg5 (c : Dev nD) : X26 m c main_arg5 = ar5 m c := ((X26_of m c main_arg5 (by decide)).trans ((X25_of m c main_arg5 (by decide)).trans ((X24_of m c main_arg5 (by decide)).trans ((X23_of m c main_arg5 (by decide)).trans ((X22_of m c main_arg5 (by decide)).trans ((X21_of m c main_arg5 (by decide)).trans ((X20_of m c main_arg5 (by decide)).trans ((X19_of m c main_arg5 (by decide)).trans ((X18_of m c main_arg5 (by decide)).trans ((X17_of m c main_arg5 (by decide)).trans ((X16_of m c main_arg5 (by decide)).trans ((X15_of m c main_arg5 (by decide)).trans ((X14_of m c main_arg5 (by decide)).trans ((X13_of m c main_arg5 (by decide)).trans ((X12_of m c main_arg5 (by decide)).trans ((X11_of m c main_arg5 (by decide)).trans ((X10_of m c main_arg5 (by decide)).trans ((X9_of m c main_arg5 (by decide)).trans ((X8_of m c main_arg5 (by decide)).trans ((X7_of m c main_arg5 (by decide)).trans ((X6_of m c main_arg5 (by decide)).trans ((X5_of m c main_arg5 (by decide)).trans ((X4_of m c main_arg5 (by decide)).trans ((X3_of m c main_arg5 (by decide)).trans ((X2_of m c main_arg5 (by decide)).trans (X1_of m c main_arg5 (by decide)))))))))))))))))))))))))))
theorem kv_v91 (c : Dev nD) : X27 m c main_v91 = Cert.Spec.wstack1 (ar5 m c) := by
  rw [hg27_v91 m c, at26_arg5 m c] <;> rfl
theorem at27_v0 (c : Dev nD) : X27 m c main_v0 = Cert.Spec.uuHyper (ar0 m c) (ar1 m c) (ar2 m c) (ar3 m c) (ar4 m c) (ar5 m c) (ar6 m c) (ar7 m c) (ar8 m c) (ar9 m c) (ar10 m c) := ((X27_of m c main_v0 (by decide)).trans ((X26_of m c main_v0 (by decide)).trans ((X25_of m c main_v0 (by decide)).trans ((X24_of m c main_v0 (by decide)).trans ((X23_of m c main_v0 (by decide)).trans ((X22_of m c main_v0 (by decide)).trans ((X21_of m c main_v0 (by decide)).trans ((X20_of m c main_v0 (by decide)).trans ((X19_of m c main_v0 (by decide)).trans ((X18_of m c main_v0 (by decide)).trans ((X17_of m c main_v0 (by decide)).trans ((X16_of m c main_v0 (by decide)).trans ((X15_of m c main_v0 (by decide)).trans ((X14_of m c main_v0 (by decide)).trans ((X13_of m c main_v0 (by decide)).trans ((X12_of m c main_v0 (by decide)).trans ((X11_of m c main_v0 (by decide)).trans ((X10_of m c main_v0 (by decide)).trans ((X9_of m c main_v0 (by decide)).trans ((X8_of m c main_v0 (by decide)).trans ((X7_of m c main_v0 (by decide)).trans ((X6_of m c main_v0 (by decide)).trans ((X5_of m c main_v0 (by decide)).trans ((X4_of m c main_v0 (by decide)).trans ((X3_of m c main_v0 (by decide)).trans (X2_of m c main_v0 (by decide))))))))))))))))))))))))))).trans (kv_v0 m c)
theorem at27_v85 (c : Dev nD) : X27 m c main_v85 = Cert.Spec.ulat1 (ar0 m c) (ar1 m c) (ar2 m c) (ar3 m c) (ar4 m c) (ar5 m c) (ar6 m c) (ar7 m c) (ar8 m c) (ar9 m c) (ar10 m c) := kv_v85 m c
theorem kv_v92 (c : Dev nD) : X28 m c main_v92 = Cert.Spec.redU (Cert.Spec.uuHyper (ar0 m c) (ar1 m c) (ar2 m c) (ar3 m c) (ar4 m c) (ar5 m c) (ar6 m c) (ar7 m c) (ar8 m c) (ar9 m c) (ar10 m c)) (Cert.Spec.ulat1 (ar0 m c) (ar1 m c) (ar2 m c) (ar3 m c) (ar4 m c) (ar5 m c) (ar6 m c) (ar7 m c) (ar8 m c) (ar9 m c) (ar10 m c)) := by
  rw [regspec8 m c, at27_v0 m c, at27_v85 m c] <;> rfl
theorem at28_v92 (c : Dev nD) : X28 m c main_v92 = Cert.Spec.redU (Cert.Spec.uuHyper (ar0 m c) (ar1 m c) (ar2 m c) (ar3 m c) (ar4 m c) (ar5 m c) (ar6 m c) (ar7 m c) (ar8 m c) (ar9 m c) (ar10 m c)) (Cert.Spec.ulat1 (ar0 m c) (ar1 m c) (ar2 m c) (ar3 m c) (ar4 m c) (ar5 m c) (ar6 m c) (ar7 m c) (ar8 m c) (ar9 m c) (ar10 m c)) := kv_v92 m c
theorem at28_v91 (c : Dev nD) : X28 m c main_v91 = Cert.Spec.wstack1 (ar5 m c) := (X28_of m c main_v91 (by decide)).trans (kv_v91 m c)
theorem kv_v113 (c : Dev nD) : X35 m c main_v113 = Cert.Spec.fc3 (Cert.Spec.redU (Cert.Spec.uuHyper (ar0 m c) (ar1 m c) (ar2 m c) (ar3 m c) (ar4 m c) (ar5 m c) (ar6 m c) (ar7 m c) (ar8 m c) (ar9 m c) (ar10 m c)) (Cert.Spec.ulat1 (ar0 m c) (ar1 m c) (ar2 m c) (ar3 m c) (ar4 m c) (ar5 m c) (ar6 m c) (ar7 m c) (ar8 m c) (ar9 m c) (ar10 m c))) (Cert.Spec.wrow0 (Cert.Spec.wstack1 (ar5 m c))) (Cert.Spec.wrow1 (Cert.Spec.wstack1 (ar5 m c))) (Cert.Spec.wrow2 (Cert.Spec.wstack1 (ar5 m c))) := by
  rw [hg35_v113 m c, at28_v92 m c, at28_v91 m c] <;> rfl
theorem at35_v0 (c : Dev nD) : X35 m c main_v0 = Cert.Spec.uuHyper (ar0 m c) (ar1 m c) (ar2 m c) (ar3 m c) (ar4 m c) (ar5 m c) (ar6 m c) (ar7 m c) (ar8 m c) (ar9 m c) (ar10 m c) := ((X35_of m c main_v0 (by decide)).trans ((X34_of m c main_v0 (by decide)).trans ((X33_of m c main_v0 (by decide)).trans ((X32_of m c main_v0 (by decide)).trans ((X31_of m c main_v0 (by decide)).trans ((X30_of m c main_v0 (by decide)).trans ((X29_of m c main_v0 (by decide)).trans ((X28_of m c main_v0 (by decide)).trans ((X27_of m c main_v0 (by decide)).trans ((X26_of m c main_v0 (by decide)).trans ((X25_of m c main_v0 (by decide)).trans ((X24_of m c main_v0 (by decide)).trans ((X23_of m c main_v0 (by decide)).trans ((X22_of m c main_v0 (by decide)).trans ((X21_of m c main_v0 (by decide)).trans ((X20_of m c main_v0 (by decide)).trans ((X19_of m c main_v0 (by decide)).trans ((X18_of m c main_v0 (by decide)).trans ((X17_of m c main_v0 (by decide)).trans ((X16_of m c main_v0 (by decide)).trans ((X15_of m c main_v0 (by decide)).trans ((X14_of m c main_v0 (by decide)).trans ((X13_of m c main_v0 (by decide)).trans ((X12_of m c main_v0 (by decide)).trans ((X11_of m c main_v0 (by decide)).trans ((X10_of m c main_v0 (by decide)).trans ((X9_of m c main_v0 (by decide)).trans ((X8_of m c main_v0 (by decide)).trans ((X7_of m c main_v0 (by decide)).trans ((X6_of m c main_v0 (by decide)).trans ((X5_of m c main_v0 (by decide)).trans ((X4_of m c main_v0 (by decide)).trans ((X3_of m c main_v0 (by decide)).trans (X2_of m c main_v0 (by decide))))))))))))))))))))))))))))))))))).trans (kv_v0 m c)
theorem at35_v113 (c : Dev nD) : X35 m c main_v113 = Cert.Spec.fc3 (Cert.Spec.redU (Cert.Spec.uuHyper (ar0 m c) (ar1 m c) (ar2 m c) (ar3 m c) (ar4 m c) (ar5 m c) (ar6 m c) (ar7 m c) (ar8 m c) (ar9 m c) (ar10 m c)) (Cert.Spec.ulat1 (ar0 m c) (ar1 m c) (ar2 m c) (ar3 m c) (ar4 m c) (ar5 m c) (ar6 m c) (ar7 m c) (ar8 m c) (ar9 m c) (ar10 m c))) (Cert.Spec.wrow0 (Cert.Spec.wstack1 (ar5 m c))) (Cert.Spec.wrow1 (Cert.Spec.wstack1 (ar5 m c))) (Cert.Spec.wrow2 (Cert.Spec.wstack1 (ar5 m c))) := kv_v113 m c
theorem kv_v114 (c : Dev nD) : X36 m c main_v114 = Cert.Spec.hU1 (ar0 m c) (ar1 m c) (ar2 m c) (ar3 m c) (ar4 m c) (ar5 m c) (ar6 m c) (ar7 m c) (ar8 m c) (ar9 m c) (ar10 m c) := by
  rw [regspec9 m c, at35_v0 m c, at35_v113 m c] <;> rfl
theorem at36_arg6 (c : Dev nD) : X36 m c main_arg6 = ar6 m c := ((X36_of m c main_arg6 (by decide)).trans ((X35_of m c main_arg6 (by decide)).trans ((X34_of m c main_arg6 (by decide)).trans ((X33_of m c main_arg6 (by decide)).trans ((X32_of m c main_arg6 (by decide)).trans ((X31_of m c main_arg6 (by decide)).trans ((X30_of m c main_arg6 (by decide)).trans ((X29_of m c main_arg6 (by decide)).trans ((X28_of m c main_arg6 (by decide)).trans ((X27_of m c main_arg6 (by decide)).trans ((X26_of m c main_arg6 (by decide)).trans ((X25_of m c main_arg6 (by decide)).trans ((X24_of m c main_arg6 (by decide)).trans ((X23_of m c main_arg6 (by decide)).trans ((X22_of m c main_arg6 (by decide)).trans ((X21_of m c main_arg6 (by decide)).trans ((X20_of m c main_arg6 (by decide)).trans ((X19_of m c main_arg6 (by decide)).trans ((X18_of m c main_arg6 (by decide)).trans ((X17_of m c main_arg6 (by decide)).trans ((X16_of m c main_arg6 (by decide)).trans ((X15_of m c main_arg6 (by decide)).trans ((X14_of m c main_arg6 (by decide)).trans ((X13_of m c main_arg6 (by decide)).trans ((X12_of m c main_arg6 (by decide)).trans ((X11_of m c main_arg6 (by decide)).trans ((X10_of m c main_arg6 (by decide)).trans ((X9_of m c main_arg6 (by decide)).trans ((X8_of m c main_arg6 (by decide)).trans ((X7_of m c main_arg6 (by decide)).trans ((X6_of m c main_arg6 (by decide)).trans ((X5_of m c main_arg6 (by decide)).trans ((X4_of m c main_arg6 (by decide)).trans ((X3_of m c main_arg6 (by decide)).trans ((X2_of m c main_arg6 (by decide)).trans (X1_of m c main_arg6 (by decide)))))))))))))))))))))))))))))))))))))
theorem kv_v116 (c : Dev nD) : X37 m c main_v116 = Cert.Spec.wstack1 (ar6 m c) := by
  rw [hg37_v116 m c, at36_arg6 m c] <;> rfl
theorem at37_v1 (c : Dev nD) : X37 m c main_v1 = Cert.Spec.iiHyper (ar0 m c) (ar1 m c) (ar2 m c) (ar3 m c) (ar4 m c) (ar5 m c) (ar6 m c) (ar7 m c) (ar8 m c) (ar9 m c) (ar10 m c) := ((X37_of m c main_v1 (by decide)).trans ((X36_of m c main_v1 (by decide)).trans ((X35_of m c main_v1 (by decide)).trans ((X34_of m c main_v1 (by decide)).trans ((X33_of m c main_v1 (by decide)).trans ((X32_of m c main_v1 (by decide)).trans ((X31_of m c main_v1 (by decide)).trans ((X30_of m c main_v1 (by decide)).trans ((X29_of m c main_v1 (by decide)).trans ((X28_of m c main_v1 (by decide)).trans ((X27_of m c main_v1 (by decide)).trans ((X26_of m c main_v1 (by decide)).trans ((X25_of m c main_v1 (by decide)).trans ((X24_of m c main_v1 (by decide)).trans ((X23_of m c main_v1 (by decide)).trans ((X22_of m c main_v1 (by decide)).trans ((X21_of m c main_v1 (by decide)).trans ((X20_of m c main_v1 (by decide)).trans ((X19_of m c main_v1 (by decide)).trans ((X18_of m c main_v1 (by decide)).trans ((X17_of m c main_v1 (by decide)).trans ((X16_of m c main_v1 (by decide)).trans ((X15_of m c main_v1 (by decide)).trans ((X14_of m c main_v1 (by decide)).trans ((X13_of m c main_v1 (by decide)).trans ((X12_of m c main_v1 (by decide)).trans ((X11_of m c main_v1 (by decide)).trans ((X10_of m c main_v1 (by decide)).trans ((X9_of m c main_v1 (by decide)).trans ((X8_of m c main_v1 (by decide)).trans ((X7_of m c main_v1 (by decide)).trans ((X6_of m c main_v1 (by decide)).trans ((X5_of m c main_v1 (by decide)).trans ((X4_of m c main_v1 (by decide)).trans (X3_of m c main_v1 (by decide)))))))))))))))))))))))))))))))))))).trans (kv_v1 m c)
theorem at37_v87 (c : Dev nD) : X37 m c main_v87 = Cert.Spec.ilat1 (ar0 m c) (ar1 m c) (ar2 m c) (ar3 m c) (ar4 m c) (ar5 m c) (ar6 m c) (ar7 m c) (ar8 m c) (ar9 m c) (ar10 m c) := ((X37_of m c main_v87 (by decide)).trans ((X36_of m c main_v87 (by decide)).trans ((X35_of m c main_v87 (by decide)).trans ((X34_of m c main_v87 (by decide)).trans ((X33_of m c main_v87 (by decide)).trans ((X32_of m c main_v87 (by decide)).trans ((X31_of m c main_v87 (by decide)).trans ((X30_of m c main_v87 (by decide)).trans ((X29_of m c main_v87 (by decide)).trans (X28_of m c main_v87 (by decide))))))))))).trans (kv_v87 m c)
theorem kv_v117 (c : Dev nD) : X38 m c main_v117 = Cert.Spec.redI (Cert.Spec.iiHyper (ar0 m c) (ar1 m c) (ar2 m c) (ar3 m c) (ar4 m c) (ar5 m c) (ar6 m c) (ar7 m c) (ar8 m c) (ar9 m c) (ar10 m c)) (Cert.Spec.ilat1 (ar0 m c) (ar1 m c) (ar2 m c) (ar3 m c) (ar4 m c) (ar5 m c) (ar6 m c) (ar7 m c) (ar8 m c) (ar9 m c) (ar10 m c)) := by
  rw [regspec10 m c, at37_v1 m c, at37_v87 m c] <;> rfl
theorem at38_v117 (c : Dev nD) : X38 m c main_v117 = Cert.Spec.redI (Cert.Spec.iiHyper (ar0 m c) (ar1 m c) (ar2 m c) (ar3 m c) (ar4 m c) (ar5 m c) (ar6 m c) (ar7 m c) (ar8 m c) (ar9 m c) (ar10 m c)) (Cert.Spec.ilat1 (ar0 m c) (ar1 m c) (ar2 m c) (ar3 m c) (ar4 m c) (ar5 m c) (ar6 m c) (ar7 m c) (ar8 m c) (ar9 m c) (ar10 m c)) := kv_v117 m c
theorem at38_v116 (c : Dev nD) : X38 m c main_v116 = Cert.Spec.wstack1 (ar6 m c) := (X38_of m c main_v116 (by decide)).trans (kv_v116 m c)
theorem kv_v138 (c : Dev nD) : X45 m c main_v138 = Cert.Spec.fc3 (Cert.Spec.redI (Cert.Spec.iiHyper (ar0 m c) (ar1 m c) (ar2 m c) (ar3 m c) (ar4 m c) (ar5 m c) (ar6 m c) (ar7 m c) (ar8 m c) (ar9 m c) (ar10 m c)) (Cert.Spec.ilat1 (ar0 m c) (ar1 m c) (ar2 m c) (ar3 m c) (ar4 m c) (ar5 m c) (ar6 m c) (ar7 m c) (ar8 m c) (ar9 m c) (ar10 m c))) (Cert.Spec.wrow0 (Cert.Spec.wstack1 (ar6 m c))) (Cert.Spec.wrow1 (Cert.Spec.wstack1 (ar6 m c))) (Cert.Spec.wrow2 (Cert.Spec.wstack1 (ar6 m c))) := by
  rw [hg45_v138 m c, at38_v117 m c, at38_v116 m c] <;> rfl
theorem at45_v1 (c : Dev nD) : X45 m c main_v1 = Cert.Spec.iiHyper (ar0 m c) (ar1 m c) (ar2 m c) (ar3 m c) (ar4 m c) (ar5 m c) (ar6 m c) (ar7 m c) (ar8 m c) (ar9 m c) (ar10 m c) := ((X45_of m c main_v1 (by decide)).trans ((X44_of m c main_v1 (by decide)).trans ((X43_of m c main_v1 (by decide)).trans ((X42_of m c main_v1 (by decide)).trans ((X41_of m c main_v1 (by decide)).trans ((X40_of m c main_v1 (by decide)).trans ((X39_of m c main_v1 (by decide)).trans ((X38_of m c main_v1 (by decide)).trans ((X37_of m c main_v1 (by decide)).trans ((X36_of m c main_v1 (by decide)).trans ((X35_of m c main_v1 (by decide)).trans ((X34_of m c main_v1 (by decide)).trans ((X33_of m c main_v1 (by decide)).trans ((X32_of m c main_v1 (by decide)).trans ((X31_of m c main_v1 (by decide)).trans ((X30_of m c main_v1 (by decide)).trans ((X29_of m c main_v1 (by decide)).trans ((X28_of m c main_v1 (by decide)).trans ((X27_of m c main_v1 (by decide)).trans ((X26_of m c main_v1 (by decide)).trans ((X25_of m c main_v1 (by decide)).trans ((X24_of m c main_v1 (by decide)).trans ((X23_of m c main_v1 (by decide)).trans ((X22_of m c main_v1 (by decide)).trans ((X21_of m c main_v1 (by decide)).trans ((X20_of m c main_v1 (by decide)).trans ((X19_of m c main_v1 (by decide)).trans ((X18_of m c main_v1 (by decide)).trans ((X17_of m c main_v1 (by decide)).trans ((X16_of m c main_v1 (by decide)).trans ((X15_of m c main_v1 (by decide)).trans ((X14_of m c main_v1 (by decide)).trans ((X13_of m c main_v1 (by decide)).trans ((X12_of m c main_v1 (by decide)).trans ((X11_of m c main_v1 (by decide)).trans ((X10_of m c main_v1 (by decide)).trans ((X9_of m c main_v1 (by decide)).trans ((X8_of m c main_v1 (by decide)).trans ((X7_of m c main_v1 (by decide)).trans ((X6_of m c main_v1 (by decide)).trans ((X5_of m c main_v1 (by decide)).trans ((X4_of m c main_v1 (by decide)).trans (X3_of m c main_v1 (by decide)))))))))))))))))))))))))))))))))))))))))))).trans (kv_v1 m c)
theorem at45_v138 (c : Dev nD) : X45 m c main_v138 = Cert.Spec.fc3 (Cert.Spec.redI (Cert.Spec.iiHyper (ar0 m c) (ar1 m c) (ar2 m c) (ar3 m c) (ar4 m c) (ar5 m c) (ar6 m c) (ar7 m c) (ar8 m c) (ar9 m c) (ar10 m c)) (Cert.Spec.ilat1 (ar0 m c) (ar1 m c) (ar2 m c) (ar3 m c) (ar4 m c) (ar5 m c) (ar6 m c) (ar7 m c) (ar8 m c) (ar9 m c) (ar10 m c))) (Cert.Spec.wrow0 (Cert.Spec.wstack1 (ar6 m c))) (Cert.Spec.wrow1 (Cert.Spec.wstack1 (ar6 m c))) (Cert.Spec.wrow2 (Cert.Spec.wstack1 (ar6 m c))) := kv_v138 m c
theorem kv_v139 (c : Dev nD) : X46 m c main_v139 = Cert.Spec.hI1 (ar0 m c) (ar1 m c) (ar2 m c) (ar3 m c) (ar4 m c) (ar5 m c) (ar6 m c) (ar7 m c) (ar8 m c) (ar9 m c) (ar10 m c) := by
  rw [regspec11 m c, at45_v1 m c, at45_v138 m c] <;> rfl
theorem at46_arg4 (c : Dev nD) : X46 m c main_arg4 = ar4 m c := ((X46_of m c main_arg4 (by decide)).trans ((X45_of m c main_arg4 (by decide)).trans ((X44_of m c main_arg4 (by decide)).trans ((X43_of m c main_arg4 (by decide)).trans ((X42_of m c main_arg4 (by decide)).trans ((X41_of m c main_arg4 (by decide)).trans ((X40_of m c main_arg4 (by decide)).trans ((X39_of m c main_arg4 (by decide)).trans ((X38_of m c main_arg4 (by decide)).trans ((X37_of m c main_arg4 (by decide)).trans ((X36_of m c main_arg4 (by decide)).trans ((X35_of m c main_arg4 (by decide)).trans ((X34_of m c main_arg4 (by decide)).trans ((X33_of m c main_arg4 (by decide)).trans ((X32_of m c main_arg4 (by decide)).trans ((X31_of m c main_arg4 (by decide)).trans ((X30_of m c main_arg4 (by decide)).trans ((X29_of m c main_arg4 (by decide)).trans ((X28_of m c main_arg4 (by decide)).trans ((X27_of m c main_arg4 (by decide)).trans ((X26_of m c main_arg4 (by decide)).trans ((X25_of m c main_arg4 (by decide)).trans ((X24_of m c main_arg4 (by decide)).trans ((X23_of m c main_arg4 (by decide)).trans ((X22_of m c main_arg4 (by decide)).trans ((X21_of m c main_arg4 (by decide)).trans ((X20_of m c main_arg4 (by decide)).trans ((X19_of m c main_arg4 (by decide)).trans ((X18_of m c main_arg4 (by decide)).trans ((X17_of m c main_arg4 (by decide)).trans ((X16_of m c main_arg4 (by decide)).trans ((X15_of m c main_arg4 (by decide)).trans ((X14_of m c main_arg4 (by decide)).trans ((X13_of m c main_arg4 (by decide)).trans ((X12_of m c main_arg4 (by decide)).trans ((X11_of m c main_arg4 (by decide)).trans ((X10_of m c main_arg4 (by decide)).trans ((X9_of m c main_arg4 (by decide)).trans ((X8_of m c main_arg4 (by decide)).trans ((X7_of m c main_arg4 (by decide)).trans ((X6_of m c main_arg4 (by decide)).trans ((X5_of m c main_arg4 (by decide)).trans ((X4_of m c main_arg4 (by decide)).trans ((X3_of m c main_arg4 (by decide)).trans ((X2_of m c main_arg4 (by decide)).trans (X1_of m c main_arg4 (by decide)))))))))))))))))))))))))))))))))))))))))))))))
theorem at46_arg9 (c : Dev nD) : X46 m c main_arg9 = ar9 m c := ((X46_of m c main_arg9 (by decide)).trans ((X45_of m c main_arg9 (by decide)).trans ((X44_of m c main_arg9 (by decide)).trans ((X43_of m c main_arg9 (by decide)).trans ((X42_of m c main_arg9 (by decide)).trans ((X41_of m c main_arg9 (by decide)).trans ((X40_of m c main_arg9 (by decide)).trans ((X39_of m c main_arg9 (by decide)).trans ((X38_of m c main_arg9 (by decide)).trans ((X37_of m c main_arg9 (by decide)).trans ((X36_of m c main_arg9 (by decide)).trans ((X35_of m c main_arg9 (by decide)).trans ((X34_of m c main_arg9 (by decide)).trans ((X33_of m c main_arg9 (by decide)).trans ((X32_of m c main_arg9 (by decide)).trans ((X31_of m c main_arg9 (by decide)).trans ((X30_of m c main_arg9 (by decide)).trans ((X29_of m c main_arg9 (by decide)).trans ((X28_of m c main_arg9 (by decide)).trans ((X27_of m c main_arg9 (by decide)).trans ((X26_of m c main_arg9 (by decide)).trans ((X25_of m c main_arg9 (by decide)).trans ((X24_of m c main_arg9 (by decide)).trans ((X23_of m c main_arg9 (by decide)).trans ((X22_of m c main_arg9 (by decide)).trans ((X21_of m c main_arg9 (by decide)).trans ((X20_of m c main_arg9 (by decide)).trans ((X19_of m c main_arg9 (by decide)).trans ((X18_of m c main_arg9 (by decide)).trans ((X17_of m c main_arg9 (by decide)).trans ((X16_of m c main_arg9 (by decide)).trans ((X15_of m c main_arg9 (by decide)).trans ((X14_of m c main_arg9 (by decide)).trans ((X13_of m c main_arg9 (by decide)).trans ((X12_of m c main_arg9 (by decide)).trans ((X11_of m c main_arg9 (by decide)).trans ((X10_of m c main_arg9 (by decide)).trans ((X9_of m c main_arg9 (by decide)).trans ((X8_of m c main_arg9 (by decide)).trans ((X7_of m c main_arg9 (by decide)).trans ((X6_of m c main_arg9 (by decide)).trans ((X5_of m c main_arg9 (by decide)).trans ((X4_of m c main_arg9 (by decide)).trans ((X3_of m c main_arg9 (by decide)).trans ((X2_of m c main_arg9 (by decide)).trans (X1_of m c main_arg9 (by decide)))))))))))))))))))))))))))))))))))))))))))))))
theorem at46_arg10 (c : Dev nD) : X46 m c main_arg10 = ar10 m c := ((X46_of m c main_arg10 (by decide)).trans ((X45_of m c main_arg10 (by decide)).trans ((X44_of m c main_arg10 (by decide)).trans ((X43_of m c main_arg10 (by decide)).trans ((X42_of m c main_arg10 (by decide)).trans ((X41_of m c main_arg10 (by decide)).trans ((X40_of m c main_arg10 (by decide)).trans ((X39_of m c main_arg10 (by decide)).trans ((X38_of m c main_arg10 (by decide)).trans ((X37_of m c main_arg10 (by decide)).trans ((X36_of m c main_arg10 (by decide)).trans ((X35_of m c main_arg10 (by decide)).trans ((X34_of m c main_arg10 (by decide)).trans ((X33_of m c main_arg10 (by decide)).trans ((X32_of m c main_arg10 (by decide)).trans ((X31_of m c main_arg10 (by decide)).trans ((X30_of m c main_arg10 (by decide)).trans ((X29_of m c main_arg10 (by decide)).trans ((X28_of m c main_arg10 (by decide)).trans ((X27_of m c main_arg10 (by decide)).trans ((X26_of m c main_arg10 (by decide)).trans ((X25_of m c main_arg10 (by decide)).trans ((X24_of m c main_arg10 (by decide)).trans ((X23_of m c main_arg10 (by decide)).trans ((X22_of m c main_arg10 (by decide)).trans ((X21_of m c main_arg10 (by decide)).trans ((X20_of m c main_arg10 (by decide)).trans ((X19_of m c main_arg10 (by decide)).trans ((X18_of m c main_arg10 (by decide)).trans ((X17_of m c main_arg10 (by decide)).trans ((X16_of m c main_arg10 (by decide)).trans ((X15_of m c main_arg10 (by decide)).trans ((X14_of m c main_arg10 (by decide)).trans ((X13_of m c main_arg10 (by decide)).trans ((X12_of m c main_arg10 (by decide)).trans ((X11_of m c main_arg10 (by decide)).trans ((X10_of m c main_arg10 (by decide)).trans ((X9_of m c main_arg10 (by decide)).trans ((X8_of m c main_arg10 (by decide)).trans ((X7_of m c main_arg10 (by decide)).trans ((X6_of m c main_arg10 (by decide)).trans ((X5_of m c main_arg10 (by decide)).trans ((X4_of m c main_arg10 (by decide)).trans ((X3_of m c main_arg10 (by decide)).trans ((X2_of m c main_arg10 (by decide)).trans (X1_of m c main_arg10 (by decide)))))))))))))))))))))))))))))))))))))))))))))))
theorem at46_v87 (c : Dev nD) : X46 m c main_v87 = Cert.Spec.ilat1 (ar0 m c) (ar1 m c) (ar2 m c) (ar3 m c) (ar4 m c) (ar5 m c) (ar6 m c) (ar7 m c) (ar8 m c) (ar9 m c) (ar10 m c) := ((X46_of m c main_v87 (by decide)).trans ((X45_of m c main_v87 (by decide)).trans ((X44_of m c main_v87 (by decide)).trans ((X43_of m c main_v87 (by decide)).trans ((X42_of m c main_v87 (by decide)).trans ((X41_of m c main_v87 (by decide)).trans ((X40_of m c main_v87 (by decide)).trans ((X39_of m c main_v87 (by decide)).trans ((X38_of m c main_v87 (by decide)).trans ((X37_of m c main_v87 (by decide)).trans ((X36_of m c main_v87 (by decide)).trans ((X35_of m c main_v87 (by decide)).trans ((X34_of m c main_v87 (by decide)).trans ((X33_of m c main_v87 (by decide)).trans ((X32_of m c main_v87 (by decide)).trans ((X31_of m c main_v87 (by decide)).trans ((X30_of m c main_v87 (by decide)).trans ((X29_of m c main_v87 (by decide)).trans (X28_of m c main_v87 (by decide)))))))))))))))))))).trans (kv_v87 m c)
theorem kv_v152 (c : Dev nD) : X47 m c main_v152 = Cert.Spec.spmmU (ar4 m c) (ar9 m c) (ar10 m c) (Cert.Spec.ilat1 (ar0 m c) (ar1 m c) (ar2 m c) (ar3 m c) (ar4 m c) (ar5 m c) (ar6 m c) (ar7 m c) (ar8 m c) (ar9 m c) (ar10 m c)) := by
  rw [hg47_v152 m c, at46_arg4 m c, at46_arg9 m c, at46_arg10 m c, at46_v87 m c] <;> rfl
theorem at46_arg7 (c : Dev nD) : X46 m c main_arg7 = ar7 m c := ((X46_of m c main_arg7 (by decide)).trans ((X45_of m c main_arg7 (by decide)).trans ((X44_of m c main_arg7 (by decide)).trans ((X43_of m c main_arg7 (by decide)).trans ((X42_of m c main_arg7 (by decide)).trans ((X41_of m c main_arg7 (by decide)).trans ((X40_of m c main_arg7 (by decide)).trans ((X39_of m c main_arg7 (by decide)).trans ((X38_of m c main_arg7 (by decide)).trans ((X37_of m c main_arg7 (by decide)).trans ((X36_of m c main_arg7 (by decide)).trans ((X35_of m c main_arg7 (by decide)).trans ((X34_of m c main_arg7 (by decide)).trans ((X33_of m c main_arg7 (by decide)).trans ((X32_of m c main_arg7 (by decide)).trans ((X31_of m c main_arg7 (by decide)).trans ((X30_of m c main_arg7 (by decide)).trans ((X29_of m c main_arg7 (by decide)).trans ((X28_of m c main_arg7 (by decide)).trans ((X27_of m c main_arg7 (by decide)).trans ((X26_of m c main_arg7 (by decide)).trans ((X25_of m c main_arg7 (by decide)).trans ((X24_of m c main_arg7 (by decide)).trans ((X23_of m c main_arg7 (by decide)).trans ((X22_of m c main_arg7 (by decide)).trans ((X21_of m c main_arg7 (by decide)).trans ((X20_of m c main_arg7 (by decide)).trans ((X19_of m c main_arg7 (by decide)).trans ((X18_of m c main_arg7 (by decide)).trans ((X17_of m c main_arg7 (by decide)).trans ((X16_of m c main_arg7 (by decide)).trans ((X15_of m c main_arg7 (by decide)).trans ((X14_of m c main_arg7 (by decide)).trans ((X13_of m c main_arg7 (by decide)).trans ((X12_of m c main_arg7 (by decide)).trans ((X11_of m c main_arg7 (by decide)).trans ((X10_of m c main_arg7 (by decide)).trans ((X9_of m c main_arg7 (by decide)).trans ((X8_of m c main_arg7 (by decide)).trans ((X7_of m c main_arg7 (by decide)).trans ((X6_of m c main_arg7 (by decide)).trans ((X5_of m c main_arg7 (by decide)).trans ((X4_of m c main_arg7 (by decide)).trans ((X3_of m c main_arg7 (by decide)).trans ((X2_of m c main_arg7 (by decide)).trans (X1_of m c main_arg7 (by decide)))))))))))))))))))))))))))))))))))))))))))))))
theorem kv_v154 (c : Dev nD) : X47 m c main_v154 = Cert.Spec.gslice1 (ar7 m c) := by
  rw [hg47_v154 m c, at46_arg7 m c] <;> rfl
theorem at47_v152 (c : Dev nD) : X47 m c main_v152 = Cert.Spec.spmmU (ar4 m c) (ar9 m c) (ar10 m c) (Cert.Spec.ilat1 (ar0 m c) (ar1 m c) (ar2 m c) (ar3 m c) (ar4 m c) (ar5 m c) (ar6 m c) (ar7 m c) (ar8 m c) (ar9 m c) (ar10 m c)) := kv_v152 m c
theorem at47_v154 (c : Dev nD) : X47 m c main_v154 = Cert.Spec.gslice1 (ar7 m c) := kv_v154 m c
theorem kv_v155 (c : Dev nD) : X48 m c main_v155 = Cert.Spec.gU1 (ar0 m c) (ar1 m c) (ar2 m c) (ar3 m c) (ar4 m c) (ar5 m c) (ar6 m c) (ar7 m c) (ar8 m c) (ar9 m c) (ar10 m c) := by
  rw [regspec12 m c, at47_v152 m c, at47_v154 m c] <;> rfl
theorem at48_arg4 (c : Dev nD) : X48 m c main_arg4 = ar4 m c := ((X48_of m c main_arg4 (by decide)).trans ((X47_of m c main_arg4 (by decide)).trans ((X46_of m c main_arg4 (by decide)).trans ((X45_of m c main_arg4 (by decide)).trans ((X44_of m c main_arg4 (by decide)).trans ((X43_of m c main_arg4 (by decide)).trans ((X42_of m c main_arg4 (by decide)).trans ((X41_of m c main_arg4 (by decide)).trans ((X40_of m c main_arg4 (by decide)).trans ((X39_of m c main_arg4 (by decide)).trans ((X38_of m c main_arg4 (by decide)).trans ((X37_of m c main_arg4 (by decide)).trans ((X36_of m c main_arg4 (by decide)).trans ((X35_of m c main_arg4 (by decide)).trans ((X34_of m c main_arg4 (by decide)).trans ((X33_of m c main_arg4 (by decide)).trans ((X32_of m c main_arg4 (by decide)).trans ((X31_of m c main_arg4 (by decide)).trans ((X30_of m c main_arg4 (by decide)).trans ((X29_of m c main_arg4 (by decide)).trans ((X28_of m c main_arg4 (by decide)).trans ((X27_of m c main_arg4 (by decide)).trans ((X26_of m c main_arg4 (by decide)).trans ((X25_of m c main_arg4 (by decide)).trans ((X24_of m c main_arg4 (by decide)).trans ((X23_of m c main_arg4 (by decide)).trans ((X22_of m c main_arg4 (by decide)).trans ((X21_of m c main_arg4 (by decide)).trans ((X20_of m c main_arg4 (by decide)).trans ((X19_of m c main_arg4 (by decide)).trans ((X18_of m c main_arg4 (by decide)).trans ((X17_of m c main_arg4 (by decide)).trans ((X16_of m c main_arg4 (by decide)).trans ((X15_of m c main_arg4 (by decide)).trans ((X14_of m c main_arg4 (by decide)).trans ((X13_of m c main_arg4 (by decide)).trans ((X12_of m c main_arg4 (by decide)).trans ((X11_of m c main_arg4 (by decide)).trans ((X10_of m c main_arg4 (by decide)).trans ((X9_of m c main_arg4 (by decide)).trans ((X8_of m c main_arg4 (by decide)).trans ((X7_of m c main_arg4 (by decide)).trans ((X6_of m c main_arg4 (by decide)).trans ((X5_of m c main_arg4 (by decide)).trans ((X4_of m c main_arg4 (by decide)).trans ((X3_of m c main_arg4 (by decide)).trans ((X2_of m c main_arg4 (by decide)).trans (X1_of m c main_arg4 (by decide)))))))))))))))))))))))))))))))))))))))))))))))))
theorem at48_arg9 (c : Dev nD) : X48 m c main_arg9 = ar9 m c := ((X48_of m c main_arg9 (by decide)).trans ((X47_of m c main_arg9 (by decide)).trans ((X46_of m c main_arg9 (by decide)).trans ((X45_of m c main_arg9 (by decide)).trans ((X44_of m c main_arg9 (by decide)).trans ((X43_of m c main_arg9 (by decide)).trans ((X42_of m c main_arg9 (by decide)).trans ((X41_of m c main_arg9 (by decide)).trans ((X40_of m c main_arg9 (by decide)).trans ((X39_of m c main_arg9 (by decide)).trans ((X38_of m c main_arg9 (by decide)).trans ((X37_of m c main_arg9 (by decide)).trans ((X36_of m c main_arg9 (by decide)).trans ((X35_of m c main_arg9 (by decide)).trans ((X34_of m c main_arg9 (by decide)).trans ((X33_of m c main_arg9 (by decide)).trans ((X32_of m c main_arg9 (by decide)).trans ((X31_of m c main_arg9 (by decide)).trans ((X30_of m c main_arg9 (by decide)).trans ((X29_of m c main_arg9 (by decide)).trans ((X28_of m c main_arg9 (by decide)).trans ((X27_of m c main_arg9 (by decide)).trans ((X26_of m c main_arg9 (by decide)).trans ((X25_of m c main_arg9 (by decide)).trans ((X24_of m c main_arg9 (by decide)).trans ((X23_of m c main_arg9 (by decide)).trans ((X22_of m c main_arg9 (by decide)).trans ((X21_of m c main_arg9 (by decide)).trans ((X20_of m c main_arg9 (by decide)).trans ((X19_of m c main_arg9 (by decide)).trans ((X18_of m c main_arg9 (by decide)).trans ((X17_of m c main_arg9 (by decide)).trans ((X16_of m c main_arg9 (by decide)).trans ((X15_of m c main_arg9 (by decide)).trans ((X14_of m c main_arg9 (by decide)).trans ((X13_of m c main_arg9 (by decide)).trans ((X12_of m c main_arg9 (by decide)).trans ((X11_of m c main_arg9 (by decide)).trans ((X10_of m c main_arg9 (by decide)).trans ((X9_of m c main_arg9 (by decide)).trans ((X8_of m c main_arg9 (by decide)).trans ((X7_of m c main_arg9 (by decide)).trans ((X6_of m c main_arg9 (by decide)).trans ((X5_of m c main_arg9 (by decide)).trans ((X4_of m c main_arg9 (by decide)).trans ((X3_of m c main_arg9 (by decide)).trans ((X2_of m c main_arg9 (by decide)).trans (X1_of m c main_arg9 (by decide)))))))))))))))))))))))))))))))))))))))))))))))))
theorem at48_arg10 (c : Dev nD) : X48 m c main_arg10 = ar10 m c := ((X48_of m c main_arg10 (by decide)).trans ((X47_of m c main_arg10 (by decide)).trans ((X46_of m c main_arg10 (by decide)).trans ((X45_of m c main_arg10 (by decide)).trans ((X44_of m c main_arg10 (by decide)).trans ((X43_of m c main_arg10 (by decide)).trans ((X42_of m c main_arg10 (by decide)).trans ((X41_of m c main_arg10 (by decide)).trans ((X40_of m c main_arg10 (by decide)).trans ((X39_of m c main_arg10 (by decide)).trans ((X38_of m c main_arg10 (by decide)).trans ((X37_of m c main_arg10 (by decide)).trans ((X36_of m c main_arg10 (by decide)).trans ((X35_of m c main_arg10 (by decide)).trans ((X34_of m c main_arg10 (by decide)).trans ((X33_of m c main_arg10 (by decide)).trans ((X32_of m c main_arg10 (by decide)).trans ((X31_of m c main_arg10 (by decide)).trans ((X30_of m c main_arg10 (by decide)).trans ((X29_of m c main_arg10 (by decide)).trans ((X28_of m c main_arg10 (by decide)).trans ((X27_of m c main_arg10 (by decide)).trans ((X26_of m c main_arg10 (by decide)).trans ((X25_of m c main_arg10 (by decide)).trans ((X24_of m c main_arg10 (by decide)).trans ((X23_of m c main_arg10 (by decide)).trans ((X22_of m c main_arg10 (by decide)).trans ((X21_of m c main_arg10 (by decide)).trans ((X20_of m c main_arg10 (by decide)).trans ((X19_of m c main_arg10 (by decide)).trans ((X18_of m c main_arg10 (by decide)).trans ((X17_of m c main_arg10 (by decide)).trans ((X16_of m c main_arg10 (by decide)).trans ((X15_of m c main_arg10 (by decide)).trans ((X14_of m c main_arg10 (by decide)).trans ((X13_of m c main_arg10 (by decide)).trans ((X12_of m c main_arg10 (by decide)).trans ((X11_of m c main_arg10 (by decide)).trans ((X10_of m c main_arg10 (by decide)).trans ((X9_of m c main_arg10 (by decide)).trans ((X8_of m c main_arg10 (by decide)).trans ((X7_of m c main_arg10 (by decide)).trans ((X6_of m c main_arg10 (by decide)).trans ((X5_of m c main_arg10 (by decide)).trans ((X4_of m c main_arg10 (by decide)).trans ((X3_of m c main_arg10 (by decide)).trans ((X2_of m c main_arg10 (by decide)).trans (X1_of m c main_arg10 (by decide)))))))))))))))))))))))))))))))))))))))))))))))))
theorem at48_v85 (c : Dev nD) : X48 m c main_v85 = Cert.Spec.ulat1 (ar0 m c) (ar1 m c) (ar2 m c) (ar3 m c) (ar4 m c) (ar5 m c) (ar6 m c) (ar7 m c) (ar8 m c) (ar9 m c) (ar10 m c) := ((X48_of m c main_v85 (by decide)).trans ((X47_of m c main_v85 (by decide)).trans ((X46_of m c main_v85 (by decide)).trans ((X45_of m c main_v85 (by decide)).trans ((X44_of m c main_v85 (by decide)).trans ((X43_of m c main_v85 (by decide)).trans ((X42_of m c main_v85 (by decide)).trans ((X41_of m c main_v85 (by decide)).trans ((X40_of m c main_v85 (by decide)).trans ((X39_of m c main_v85 (by decide)).trans ((X38_of m c main_v85 (by decide)).trans ((X37_of m c main_v85 (by decide)).trans ((X36_of m c main_v85 (by decide)).trans ((X35_of m c main_v85 (by decide)).trans ((X34_of m c main_v85 (by decide)).trans ((X33_of m c main_v85 (by decide)).trans ((X32_of m c main_v85 (by decide)).trans ((X31_of m c main_v85 (by decide)).trans ((X30_of m c main_v85 (by decide)).trans ((X29_of m c main_v85 (by decide)).trans (X28_of m c main_v85 (by decide)))))))))))))))))))))).trans (kv_v85 m c)
theorem kv_v168 (c : Dev nD) : X49 m c main_v168 = Cert.Spec.spmmI (ar4 m c) (ar9 m c) (ar10 m c) (Cert.Spec.ulat1 (ar0 m c) (ar1 m c) (ar2 m c) (ar3 m c) (ar4 m c) (ar5 m c) (ar6 m c) (ar7 m c) (ar8 m c) (ar9 m c) (ar10 m c)) := by
  rw [hg49_v168 m c, at48_arg4 m c, at48_arg9 m c, at48_arg10 m c, at48_v85 m c] <;> rfl
theorem at48_arg8 (c : Dev nD) : X48 m c main_arg8 = ar8 m c := ((X48_of m c main_arg8 (by decide)).trans ((X47_of m c main_arg8 (by decide)).trans ((X46_of m c main_arg8 (by decide)).trans ((X45_of m c main_arg8 (by decide)).trans ((X44_of m c main_arg8 (by decide)).trans ((X43_of m c main_arg8 (by decide)).trans ((X42_of m c main_arg8 (by decide)).trans ((X41_of m c main_arg8 (by decide)).trans ((X40_of m c main_arg8 (by decide)).trans ((X39_of m c main_arg8 (by decide)).trans ((X38_of m c main_arg8 (by decide)).trans ((X37_of m c main_arg8 (by decide)).trans ((X36_of m c main_arg8 (by decide)).trans ((X35_of m c main_arg8 (by decide)).trans ((X34_of m c main_arg8 (by decide)).trans ((X33_of m c main_arg8 (by decide)).trans ((X32_of m c main_arg8 (by decide)).trans ((X31_of m c main_arg8 (by decide)).trans ((X30_of m c main_arg8 (by decide)).trans ((X29_of m c main_arg8 (by decide)).trans ((X28_of m c main_arg8 (by decide)).trans ((X27_of m c main_arg8 (by decide)).trans ((X26_of m c main_arg8 (by decide)).trans ((X25_of m c main_arg8 (by decide)).trans ((X24_of m c main_arg8 (by decide)).trans ((X23_of m c main_arg8 (by decide)).trans ((X22_of m c main_arg8 (by decide)).trans ((X21_of m c main_arg8 (by decide)).trans ((X20_of m c main_arg8 (by decide)).trans ((X19_of m c main_arg8 (by decide)).trans ((X18_of m c main_arg8 (by decide)).trans ((X17_of m c main_arg8 (by decide)).trans ((X16_of m c main_arg8 (by decide)).trans ((X15_of m c main_arg8 (by decide)).trans ((X14_of m c main_arg8 (by decide)).trans ((X13_of m c main_arg8 (by decide)).trans ((X12_of m c main_arg8 (by decide)).trans ((X11_of m c main_arg8 (by decide)).trans ((X10_of m c main_arg8 (by decide)).trans ((X9_of m c main_arg8 (by decide)).trans ((X8_of m c main_arg8 (by decide)).trans ((X7_of m c main_arg8 (by decide)).trans ((X6_of m c main_arg8 (by decide)).trans ((X5_of m c main_arg8 (by decide)).trans ((X4_of m c main_arg8 (by decide)).trans ((X3_of m c main_arg8 (by decide)).trans ((X2_of m c main_arg8 (by decide)).trans (X1_of m c main_arg8 (by decide)))))))))))))))))))))))))))))))))))))))))))))))))
theorem kv_v170 (c : Dev nD) : X49 m c main_v170 = Cert.Spec.gslice1 (ar8 m c) := by
  rw [hg49_v170 m c, at48_arg8 m c] <;> rfl
theorem at49_v168 (c : Dev nD) : X49 m c main_v168 = Cert.Spec.spmmI (ar4 m c) (ar9 m c) (ar10 m c) (Cert.Spec.ulat1 (ar0 m c) (ar1 m c) (ar2 m c) (ar3 m c) (ar4 m c) (ar5 m c) (ar6 m c) (ar7 m c) (ar8 m c) (ar9 m c) (ar10 m c)) := kv_v168 m c
theorem at49_v170 (c : Dev nD) : X49 m c main_v170 = Cert.Spec.gslice1 (ar8 m c) := kv_v170 m c
theorem kv_v171 (c : Dev nD) : X50 m c main_v171 = Cert.Spec.gI1 (ar0 m c) (ar1 m c) (ar2 m c) (ar3 m c) (ar4 m c) (ar5 m c) (ar6 m c) (ar7 m c) (ar8 m c) (ar9 m c) (ar10 m c) := by
  rw [regspec13 m c, at49_v168 m c, at49_v170 m c] <;> rfl
theorem at50_v88 (c : Dev nD) : X50 m c main_v88 = Cert.Spec.uSum1 (ar0 m c) (ar1 m c) (ar2 m c) (ar3 m c) (ar4 m c) (ar5 m c) (ar6 m c) (ar7 m c) (ar8 m c) (ar9 m c) (ar10 m c) := ((X50_of m c main_v88 (by decide)).trans ((X49_of m c main_v88 (by decide)).trans ((X48_of m c main_v88 (by decide)).trans ((X47_of m c main_v88 (by decide)).trans ((X46_of m c main_v88 (by decide)).trans ((X45_of m c main_v88 (by decide)).trans ((X44_of m c main_v88 (by decide)).trans ((X43_of m c main_v88 (by decide)).trans ((X42_of m c main_v88 (by decide)).trans ((X41_of m c main_v88 (by decide)).trans ((X40_of m c main_v88 (by decide)).trans ((X39_of m c main_v88 (by decide)).trans ((X38_of m c main_v88 (by decide)).trans ((X37_of m c main_v88 (by decide)).trans ((X36_of m c main_v88 (by decide)).trans ((X35_of m c main_v88 (by decide)).trans ((X34_of m c main_v88 (by decide)).trans ((X33_of m c main_v88 (by decide)).trans ((X32_of m c main_v88 (by decide)).trans ((X31_of m c main_v88 (by decide)).trans ((X30_of m c main_v88 (by decide)).trans ((X29_of m c main_v88 (by decide)).trans (X28_of m c main_v88 (by decide)))))))))))))))))))))))).trans (kv_v88 m c)
theorem at50_v155 (c : Dev nD) : X50 m c main_v155 = Cert.Spec.gU1 (ar0 m c) (ar1 m c) (ar2 m c) (ar3 m c) (ar4 m c) (ar5 m c) (ar6 m c) (ar7 m c) (ar8 m c) (ar9 m c) (ar10 m c) := ((X50_of m c main_v155 (by decide)).trans (X49_of m c main_v155 (by decide))).trans (kv_v155 m c)
theorem at50_v114 (c : Dev nD) : X50 m c main_v114 = Cert.Spec.hU1 (ar0 m c) (ar1 m c) (ar2 m c) (ar3 m c) (ar4 m c) (ar5 m c) (ar6 m c) (ar7 m c) (ar8 m c) (ar9 m c) (ar10 m c) := ((X50_of m c main_v114 (by decide)).trans ((X49_of m c main_v114 (by decide)).trans ((X48_of m c main_v114 (by decide)).trans ((X47_of m c main_v114 (by decide)).trans ((X46_of m c main_v114 (by decide)).trans ((X45_of m c main_v114 (by decide)).trans ((X44_of m c main_v114 (by decide)).trans ((X43_of m c main_v114 (by decide)).trans ((X42_of m c main_v114 (by decide)).trans ((X41_of m c main_v114 (by decide)).trans ((X40_of m c main_v114 (by decide)).trans ((X39_of m c main_v114 (by decide)).trans ((X38_of m c main_v114 (by decide)).trans (X37_of m c main_v114 (by decide))))))))))))))).trans (kv_v114 m c)
theorem at50_v85 (c : Dev nD) : X50 m c main_v85 = Cert.Spec.ulat1 (ar0 m c) (ar1 m c) (ar2 m c) (ar3 m c) (ar4 m c) (ar5 m c) (ar6 m c) (ar7 m c) (ar8 m c) (ar9 m c) (ar10 m c) := ((X50_of m c main_v85 (by decide)).trans ((X49_of m c main_v85 (by decide)).trans ((X48_of m c main_v85 (by decide)).trans ((X47_of m c main_v85 (by decide)).trans ((X46_of m c main_v85 (by decide)).trans ((X45_of m c main_v85 (by decide)).trans ((X44_of m c main_v85 (by decide)).trans ((X43_of m c main_v85 (by decide)).trans ((X42_of m c main_v85 (by decide)).trans ((X41_of m c main_v85 (by decide)).trans ((X40_of m c main_v85 (by decide)).trans ((X39_of m c main_v85 (by decide)).trans ((X38_of m c main_v85 (by decide)).trans ((X37_of m c main_v85 (by decide)).trans ((X36_of m c main_v85 (by decide)).trans ((X35_of m c main_v85 (by decide)).trans ((X34_of m c main_v85 (by decide)).trans ((X33_of m c main_v85 (by decide)).trans ((X32_of m c main_v85 (by decide)).trans ((X31_of m c main_v85 (by decide)).trans ((X30_of m c main_v85 (by decide)).trans ((X29_of m c main_v85 (by decide)).trans (X28_of m c main_v85 (by decide)))))))))))))))))))))))).trans (kv_v85 m c)
theorem kv_v176 (c : Dev nD) : X51 m c main_v176 = Cert.Spec.out0 (ar0 m c) (ar1 m c) (ar2 m c) (ar3 m c) (ar4 m c) (ar5 m c) (ar6 m c) (ar7 m c) (ar8 m c) (ar9 m c) (ar10 m c) := by
  rw [hg51_v176 m c, at50_v88 m c, at50_v155 m c, at50_v114 m c, at50_v85 m c] <;> rfl
theorem at50_v89 (c : Dev nD) : X50 m c main_v89 = Cert.Spec.iSum1 (ar0 m c) (ar1 m c) (ar2 m c) (ar3 m c) (ar4 m c) (ar5 m c) (ar6 m c) (ar7 m c) (ar8 m c) (ar9 m c) (ar10 m c) := ((X50_of m c main_v89 (by decide)).trans ((X49_of m c main_v89 (by decide)).trans ((X48_of m c main_v89 (by decide)).trans ((X47_of m c main_v89 (by decide)).trans ((X46_of m c main_v89 (by decide)).trans ((X45_of m c main_v89 (by decide)).trans ((X44_of m c main_v89 (by decide)).trans ((X43_of m c main_v89 (by decide)).trans ((X42_of m c main_v89 (by decide)).trans ((X41_of m c main_v89 (by decide)).trans ((X40_of m c main_v89 (by decide)).trans ((X39_of m c main_v89 (by decide)).trans ((X38_of m c main_v89 (by decide)).trans ((X37_of m c main_v89 (by decide)).trans ((X36_of m c main_v89 (by decide)).trans ((X35_of m c main_v89 (by decide)).trans ((X34_of m c main_v89 (by decide)).trans ((X33_of m c main_v89 (by decide)).trans ((X32_of m c main_v89 (by decide)).trans ((X31_of m c main_v89 (by decide)).trans ((X30_of m c main_v89 (by decide)).trans ((X29_of m c main_v89 (by decide)).trans (X28_of m c main_v89 (by decide)))))))))))))))))))))))).trans (kv_v89 m c)
theorem at50_v171 (c : Dev nD) : X50 m c main_v171 = Cert.Spec.gI1 (ar0 m c) (ar1 m c) (ar2 m c) (ar3 m c) (ar4 m c) (ar5 m c) (ar6 m c) (ar7 m c) (ar8 m c) (ar9 m c) (ar10 m c) := kv_v171 m c
theorem at50_v139 (c : Dev nD) : X50 m c main_v139 = Cert.Spec.hI1 (ar0 m c) (ar1 m c) (ar2 m c) (ar3 m c) (ar4 m c) (ar5 m c) (ar6 m c) (ar7 m c) (ar8 m c) (ar9 m c) (ar10 m c) := ((X50_of m c main_v139 (by decide)).trans ((X49_of m c main_v139 (by decide)).trans ((X48_of m c main_v139 (by decide)).trans (X47_of m c main_v139 (by decide))))).trans (kv_v139 m c)
theorem at50_v87 (c : Dev nD) : X50 m c main_v87 = Cert.Spec.ilat1 (ar0 m c) (ar1 m c) (ar2 m c) (ar3 m c) (ar4 m c) (ar5 m c) (ar6 m c) (ar7 m c) (ar8 m c) (ar9 m c) (ar10 m c) := ((X50_of m c main_v87 (by decide)).trans ((X49_of m c main_v87 (by decide)).trans ((X48_of m c main_v87 (by decide)).trans ((X47_of m c main_v87 (by decide)).trans ((X46_of m c main_v87 (by decide)).trans ((X45_of m c main_v87 (by decide)).trans ((X44_of m c main_v87 (by decide)).trans ((X43_of m c main_v87 (by decide)).trans ((X42_of m c main_v87 (by decide)).trans ((X41_of m c main_v87 (by decide)).trans ((X40_of m c main_v87 (by decide)).trans ((X39_of m c main_v87 (by decide)).trans ((X38_of m c main_v87 (by decide)).trans ((X37_of m c main_v87 (by decide)).trans ((X36_of m c main_v87 (by decide)).trans ((X35_of m c main_v87 (by decide)).trans ((X34_of m c main_v87 (by decide)).trans ((X33_of m c main_v87 (by decide)).trans ((X32_of m c main_v87 (by decide)).trans ((X31_of m c main_v87 (by decide)).trans ((X30_of m c main_v87 (by decide)).trans ((X29_of m c main_v87 (by decide)).trans (X28_of m c main_v87 (by decide)))))))))))))))))))))))).trans (kv_v87 m c)
theorem kv_v177 (c : Dev nD) : X51 m c main_v177 = Cert.Spec.out1 (ar0 m c) (ar1 m c) (ar2 m c) (ar3 m c) (ar4 m c) (ar5 m c) (ar6 m c) (ar7 m c) (ar8 m c) (ar9 m c) (ar10 m c) := by
  rw [hg51_v177 m c, at50_v89 m c, at50_v171 m c, at50_v139 m c, at50_v87 m c] <;> rfl

/-- The kernel program's two results after the run, as the specification's functions of the launch arguments. -/
theorem kernel_out0 (c : Dev nD) : X51 m c main_v176 = Cert.Spec.out0 (ar0 m c) (ar1 m c) (ar2 m c) (ar3 m c) (ar4 m c) (ar5 m c) (ar6 m c) (ar7 m c) (ar8 m c) (ar9 m c) (ar10 m c) := kv_v176 m c
theorem kernel_out1 (c : Dev nD) : X51 m c main_v177 = Cert.Spec.out1 (ar0 m c) (ar1 m c) (ar2 m c) (ar3 m c) (ar4 m c) (ar5 m c) (ar6 m c) (ar7 m c) (ar8 m c) (ar9 m c) (ar10 m c) := kv_v177 m c

/-- THE KERNEL PROGRAM'S RUN WITH ITS RESULTS NAMED: every weakly fair execution terminates without a fault, the two
    result arrays holding the specification's functions of the launch arguments and every argument array as launched. -/
theorem run_kernel (ρ : Dev nD → PrngReg) : θ_run defs (onTc (τ := τ) (main (F := Ideal))) ⟨m, fun _ => 0, ρ⟩ (fun r => ∀ c : Dev nD,
      r.2.mem ((c.tc : Thread nD τ).loc main_v176) = Cert.Spec.out0 (ar0 m c) (ar1 m c) (ar2 m c) (ar3 m c) (ar4 m c) (ar5 m c) (ar6 m c) (ar7 m c) (ar8 m c) (ar9 m c) (ar10 m c)
      ∧ r.2.mem ((c.tc : Thread nD τ).loc main_v177) = Cert.Spec.out1 (ar0 m c) (ar1 m c) (ar2 m c) (ar3 m c) (ar4 m c) (ar5 m c) (ar6 m c) (ar7 m c) (ar8 m c) (ar9 m c) (ar10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v176 (by decide))).trans (kernel_out0 m c),
    (h c _ (mem_uc main_v177 (by decide))).trans (kernel_out1 m c),
    (h c _ (mem_uc main_arg0 (by decide))).trans ((congrFun (V51_eq m c).symm _).trans (GenP.V51_main_arg0 m (outs m) c)),
    (h c _ (mem_uc main_arg1 (by decide))).trans ((congrFun (V51_eq m c).symm _).trans (GenP.V51_main_arg1 m (outs m) c)),
    (h c _ (mem_uc main_arg2 (by decide))).trans ((congrFun (V51_eq m c).symm _).trans (GenP.V51_main_arg2 m (outs m) c)),
    (h c _ (mem_uc main_arg3 (by decide))).trans ((congrFun (V51_eq m c).symm _).trans (GenP.V51_main_arg3 m (outs m) c)),
    (h c _ (mem_uc main_arg4 (by decide))).trans ((congrFun (V51_eq m c).symm _).trans (GenP.V51_main_arg4 m (outs m) c)),
    (h c _ (mem_uc main_arg5 (by decide))).trans ((congrFun (V51_eq m c).symm _).trans (GenP.V51_main_arg5 m (outs m) c)),
    (h c _ (mem_uc main_arg6 (by decide))).trans ((congrFun (V51_eq m c).symm _).trans (GenP.V51_main_arg6 m (outs m) c)),
    (h c _ (mem_uc main_arg7 (by decide))).trans ((congrFun (V51_eq m c).symm _).trans (GenP.V51_main_arg7 m (outs m) c)),
    (h c _ (mem_uc main_arg8 (by decide))).trans ((congrFun (V51_eq m c).symm _).trans (GenP.V51_main_arg8 m (outs m) c)),
    (h c _ (mem_uc main_arg9 (by decide))).trans ((congrFun (V51_eq m c).symm _).trans (GenP.V51_main_arg9 m (outs m) c)),
    (h c _ (mem_uc main_arg10 (by decide))).trans ((congrFun (V51_eq m c).symm _).trans (GenP.V51_main_arg10 m (outs m) c))⟩) (run_all m ρ)

end Cert.KernelIdeal.Hand

end
-- ==== Proof.RefRunBase.lean ====
import proofs.«140582_j49512382988743_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The one buffer an operation writes, when its reference is among a list of references, lies in the
    list's image among the device's buffers. -/
theorem writes_sub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert.ReferenceIdeal.RefRun

end
-- ==== Proof.RefRun0.lean ====
import proofs.«140582_j49512382988743_1_alg».proof.Proof.Gen.ReferenceIdeal
import Idealize.ShloMosaic.Lib.StableHlo.Run
import proofs.«140582_j49512382988743_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main as a list of operations (operations 1 … 90 of 326): each call of an
    outlined function is replaced by the function's own operations, in order, over the buffers of that call's
    record; the select of the innermost function stands where the function that calls it calls it. -/
abbrev ops0 : List (HloOp τ sig (Elt F)) :=
  [ StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_arg1 main_arg3 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v2 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    StableHlo.reshape main_v2 main_v3 rfl shapeCasts_S1x3x128x128_S3x128x128,
    StableHlo.unary main_v0 main_v4 ((transpose S128x100000 [1, 0] · transposes_S100000x128_S128x100000_1_0) : (⟨S100000x128, .f32⟩ : BufTy).Contents (Elt F) → (⟨S128x100000, .f32⟩ : BufTy).Contents (Elt F)),
    StableHlo.binary main_v4 main_arg0 main_v5 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    StableHlo.nullary main_cst (constant S_ .f32 0x3DCCCCCD#32),
    StableHlo.TRef.nullary main_call0.cst (constant S_ .f32 0x00000000#32),
    StableHlo.TRef.unary main_call0.cst main_call0.v0 (broadcastInDim S128x128 ![] bcast_S_S128x128),
    StableHlo.TRef.binary (.of main_v5 : StableHlo.TRef sig ⟨S128x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S128x128 ![] bcast_S_S128x128),
    StableHlo.TRef.binary main_call0.v3 (.of main_v5 : StableHlo.TRef sig ⟨S128x128, .f32⟩) main_call0.v4 mulf,
    StableHlo.TRef.ternary main_call0.v1 (.of main_v5 : StableHlo.TRef sig ⟨S128x128, .f32⟩) main_call0.v4 main_call0.call0.v0 select,
    StableHlo.unary main_v3 main_v7 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v7 main_v8 rfl shapeCasts_S1x128x128_S128x128,
    StableHlo.unary main_v3 main_v9 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v9 main_v10 rfl shapeCasts_S1x128x128_S128x128,
    StableHlo.unary main_v3 main_v11 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v11 main_v12 rfl shapeCasts_S1x128x128_S128x128,
    StableHlo.unary main_v6 main_v13 ((transpose S128x128 [1, 0] · transposes_S128x128_S128x128_1_0) : (⟨S128x128, .f32⟩ : BufTy).Contents (Elt F) → (⟨S128x128, .f32⟩ : BufTy).Contents (Elt F)),
    StableHlo.binary main_v13 main_v8 main_v14 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call1.cst (constant S_ .f32 0x00000000#32),
    StableHlo.TRef.unary main_call1.cst main_call1.v0 (broadcastInDim S128x128 ![] bcast_S_S128x128),
    StableHlo.TRef.binary (.of main_v14 : StableHlo.TRef sig ⟨S128x128, .f32⟩) main_call1.v0 main_call1.v1 maximumf,
    StableHlo.unary main_v15 main_v16 ((transpose S128x128 [1, 0] · transposes_S128x128_S128x128_1_0) : (⟨S128x128, .f32⟩ : BufTy).Contents (Elt F) → (⟨S128x128, .f32⟩ : BufTy).Contents (Elt F)),
    StableHlo.binary main_v16 main_v6 main_v17 (addf : (⟨S128x128, .f32⟩ : BufTy).Contents (Elt F) → (⟨S128x128, .f32⟩ : BufTy).Contents (Elt F) → (⟨S128x128, .f32⟩ : BufTy).Contents (Elt F)),
    StableHlo.unary main_v17 main_v18 ((transpose S128x128 [1, 0] · transposes_S128x128_S128x128_1_0) : (⟨S128x128, .f32⟩ : BufTy).Contents (Elt F) → (⟨S128x128, .f32⟩ : BufTy).Contents (Elt F)),
    StableHlo.binary main_v18 main_v10 main_v19 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call2.cst (constant S_ .f32 0x00000000#32),
    StableHlo.TRef.unary main_call2.cst main_call2.v0 (broadcastInDim S128x128 ![] bcast_S_S128x128),
    StableHlo.TRef.binary (.of main_v19 : StableHlo.TRef sig ⟨S128x128, .f32⟩) main_call2.v0 main_call2.v1 maximumf,
    StableHlo.unary main_v20 main_v21 ((transpose S128x128 [1, 0] · transposes_S128x128_S128x128_1_0) : (⟨S128x128, .f32⟩ : BufTy).Contents (Elt F) → (⟨S128x128, .f32⟩ : BufTy).Contents (Elt F)),
    StableHlo.binary main_v21 main_v17 main_v22 (addf : (⟨S128x128, .f32⟩ : BufTy).Contents (Elt F) → (⟨S128x128, .f32⟩ : BufTy).Contents (Elt F) → (⟨S128x128, .f32⟩ : BufTy).Contents (Elt F)),
    StableHlo.unary main_v22 main_v23 ((transpose S128x128 [1, 0] · transposes_S128x128_S128x128_1_0) : (⟨S128x128, .f32⟩ : BufTy).Contents (Elt F) → (⟨S128x128, .f32⟩ : BufTy).Contents (Elt F)),
    StableHlo.binary main_v23 main_v12 main_v24 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call3.cst (constant S_ .f32 0x00000000#32),
    StableHlo.TRef.unary main_call3.cst main_call3.v0 (broadcastInDim S128x128 ![] bcast_S_S128x128),
    StableHlo.TRef.binary (.of main_v24 : StableHlo.TRef sig ⟨S128x128, .f32⟩) main_call3.v0 main_call3.v1 maximumf,
    StableHlo.unary main_v25 main_v26 ((transpose S128x128 [1, 0] · transposes_S128x128_S128x128_1_0) : (⟨S128x128, .f32⟩ : BufTy).Contents (Elt F) → (⟨S128x128, .f32⟩ : BufTy).Contents (Elt F)),
    StableHlo.binary main_v26 main_v22 main_v27 (addf : (⟨S128x128, .f32⟩ : BufTy).Contents (Elt F) → (⟨S128x128, .f32⟩ : BufTy).Contents (Elt F) → (⟨S128x128, .f32⟩ : BufTy).Contents (Elt F)),
    StableHlo.binary main_v0 main_v27 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_0 (constant S_ .f32 0x3DCCCCCD#32),
    StableHlo.TRef.nullary main_call4.cst (constant S_ .f32 0x00000000#32),
    StableHlo.TRef.unary main_call4.cst main_call4.v0 (broadcastInDim S100000x128 ![] bcast_S_S100000x128),
    StableHlo.TRef.binary (.of main_v28 : StableHlo.TRef sig ⟨S100000x128, .f32⟩) main_call4.v0 main_call4.v1 (cmpf .oge),
    StableHlo.TRef.unary (.of main_cst_0 : StableHlo.TRef sig ⟨S_, .f32⟩) main_call4.v2 id,
    StableHlo.TRef.unary main_call4.v2 main_call4.v3 (broadcastInDim S100000x128 ![] bcast_S_S100000x128),
    StableHlo.TRef.binary main_call4.v3 (.of main_v28 : StableHlo.TRef sig ⟨S100000x128, .f32⟩) main_call4.v4 mulf,
    StableHlo.TRef.ternary main_call4.v1 (.of main_v28 : StableHlo.TRef sig ⟨S100000x128, .f32⟩) main_call4.v4 main_call4.call0.v0 select,
    StableHlo.unary main_arg6 main_v30 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    StableHlo.reshape main_v30 main_v31 rfl shapeCasts_S1x3x128x128_S3x128x128,
    StableHlo.unary main_v1 main_v32 ((transpose S128x50000 [1, 0] · transposes_S50000x128_S128x50000_1_0) : (⟨S50000x128, .f32⟩ : BufTy).Contents (Elt F) → (⟨S128x50000, .f32⟩ : BufTy).Contents (Elt F)),
    StableHlo.binary main_v32 main_arg1 main_v33 ((fun l r => Host.dotGeneral dot_S128x50000_S50000x128_S128x128_1_0_0_1_n_n none l r) : (⟨S128x50000, .f32⟩ : BufTy).Contents (Elt F) → (⟨S50000x128, .f32⟩ : BufTy).Contents (Elt F) → (⟨S128x128, .f32⟩ : BufTy).Contents (Elt F)),
    StableHlo.nullary main_cst_1 (constant S_ .f32 0x3DCCCCCD#32),
    StableHlo.TRef.nullary main_call5.cst (constant S_ .f32 0x00000000#32),
    StableHlo.TRef.unary main_call5.cst main_call5.v0 (broadcastInDim S128x128 ![] bcast_S_S128x128),
    StableHlo.TRef.binary (.of main_v33 : StableHlo.TRef sig ⟨S128x128, .f32⟩) main_call5.v0 main_call5.v1 (cmpf .oge),
    StableHlo.TRef.unary (.of main_cst_1 : StableHlo.TRef sig ⟨S_, .f32⟩) main_call5.v2 id,
    StableHlo.TRef.unary main_call5.v2 main_call5.v3 (broadcastInDim S128x128 ![] bcast_S_S128x128),
    StableHlo.TRef.binary main_call5.v3 (.of main_v33 : StableHlo.TRef sig ⟨S128x128, .f32⟩) main_call5.v4 mulf,
    StableHlo.TRef.ternary main_call5.v1 (.of main_v33 : StableHlo.TRef sig ⟨S128x128, .f32⟩) main_call5.v4 main_call5.call0.v0 select,
    StableHlo.unary main_v31 main_v35 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v35 main_v36 rfl shapeCasts_S1x128x128_S128x128,
    StableHlo.unary main_v31 main_v37 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v37 main_v38 rfl shapeCasts_S1x128x128_S128x128,
    StableHlo.unary main_v31 main_v39 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v39 main_v40 rfl shapeCasts_S1x128x128_S128x128,
    StableHlo.unary main_v34 main_v41 ((transpose S128x128 [1, 0] · transposes_S128x128_S128x128_1_0) : (⟨S128x128, .f32⟩ : BufTy).Contents (Elt F) → (⟨S128x128, .f32⟩ : BufTy).Contents (Elt F)),
    StableHlo.binary main_v41 main_v36 main_v42 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call6.cst (constant S_ .f32 0x00000000#32),
    StableHlo.TRef.unary main_call6.cst main_call6.v0 (broadcastInDim S128x128 ![] bcast_S_S128x128),
    StableHlo.TRef.binary (.of main_v42 : StableHlo.TRef sig ⟨S128x128, .f32⟩) main_call6.v0 main_call6.v1 maximumf,
    StableHlo.unary main_v43 main_v44 ((transpose S128x128 [1, 0] · transposes_S128x128_S128x128_1_0) : (⟨S128x128, .f32⟩ : BufTy).Contents (Elt F) → (⟨S128x128, .f32⟩ : BufTy).Contents (Elt F)),
    StableHlo.binary main_v44 main_v34 main_v45 (addf : (⟨S128x128, .f32⟩ : BufTy).Contents (Elt F) → (⟨S128x128, .f32⟩ : BufTy).Contents (Elt F) → (⟨S128x128, .f32⟩ : BufTy).Contents (Elt F)),
    StableHlo.unary main_v45 main_v46 ((transpose S128x128 [1, 0] · transposes_S128x128_S128x128_1_0) : (⟨S128x128, .f32⟩ : BufTy).Contents (Elt F) → (⟨S128x128, .f32⟩ : BufTy).Contents (Elt F)),
    StableHlo.binary main_v46 main_v38 main_v47 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call7.cst (constant S_ .f32 0x00000000#32),
    StableHlo.TRef.unary main_call7.cst main_call7.v0 (broadcastInDim S128x128 ![] bcast_S_S128x128),
    StableHlo.TRef.binary (.of main_v47 : StableHlo.TRef sig ⟨S128x128, .f32⟩) main_call7.v0 main_call7.v1 maximumf,
    StableHlo.unary main_v48 main_v49 ((transpose S128x128 [1, 0] · transposes_S128x128_S128x128_1_0) : (⟨S128x128, .f32⟩ : BufTy).Contents (Elt F) → (⟨S128x128, .f32⟩ : BufTy).Contents (Elt F)),
    StableHlo.binary main_v49 main_v45 main_v50 (addf : (⟨S128x128, .f32⟩ : BufTy).Contents (Elt F) → (⟨S128x128, .f32⟩ : BufTy).Contents (Elt F) → (⟨S128x128, .f32⟩ : BufTy).Contents (Elt F)),
    StableHlo.unary main_v50 main_v51 ((transpose S128x128 [1, 0] · transposes_S128x128_S128x128_1_0) : (⟨S128x128, .f32⟩ : BufTy).Contents (Elt F) → (⟨S128x128, .f32⟩ : BufTy).Contents (Elt F)),
    StableHlo.binary main_v51 main_v40 main_v52 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call8.cst (constant S_ .f32 0x00000000#32),
    StableHlo.TRef.unary main_call8.cst main_call8.v0 (broadcastInDim S128x128 ![] bcast_S_S128x128),
    StableHlo.TRef.binary (.of main_v52 : StableHlo.TRef sig ⟨S128x128, .f32⟩) main_call8.v0 main_call8.v1 maximumf,
    StableHlo.unary main_v53 main_v54 ((transpose S128x128 [1, 0] · transposes_S128x128_S128x128_1_0) : (⟨S128x128, .f32⟩ : BufTy).Contents (Elt F) → (⟨S128x128, .f32⟩ : BufTy).Contents (Elt F)),
    StableHlo.binary main_v54 main_v50 main_v55 (addf : (⟨S128x128, .f32⟩ : BufTy).Contents (Elt F) → (⟨S128x128, .f32⟩ : BufTy).Contents (Elt F) → (⟨S128x128, .f32⟩ : BufTy).Contents (Elt F)),
    StableHlo.binary main_v1 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxRecDepth 8192 in
set_option maxHeartbeats 4000000 in
/-- The window is that straight line: unfolding a called function at its call is the substitution of its
    operations, and sequencing in the free monad re-associates by computation. -/
theorem main_part0_eq (c : Dev nD) : main_part0 (F := F) c = seq ops0 := rfl

set_option maxRecDepth 8192 in
/-- Every operation of the list touches TensorCore references only. -/
theorem ops0_sub : (ops0 : List (HloOp τ sig (Elt F))).Forall fun op => op.bufs ⊆ tcRefs τ sig :=
  ⟨binary_bufs_sub .., binary_bufs_sub .., unary_bufs_sub .., reshape_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., reshape_bufs_sub .., unary_bufs_sub .., reshape_bufs_sub ..,
    unary_bufs_sub .., reshape_bufs_sub .., unary_bufs_sub .., binary_bufs_sub .., nullary_bufs_sub .., unary_bufs_sub ..,
    binary_bufs_sub .., unary_bufs_sub .., binary_bufs_sub .., unary_bufs_sub .., binary_bufs_sub .., nullary_bufs_sub ..,
    unary_bufs_sub .., binary_bufs_sub .., unary_bufs_sub .., binary_bufs_sub .., unary_bufs_sub .., binary_bufs_sub ..,
    nullary_bufs_sub .., unary_bufs_sub .., binary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., reshape_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., reshape_bufs_sub .., unary_bufs_sub .., reshape_bufs_sub ..,
    unary_bufs_sub .., reshape_bufs_sub .., unary_bufs_sub .., binary_bufs_sub .., nullary_bufs_sub .., unary_bufs_sub ..,
    binary_bufs_sub .., unary_bufs_sub .., binary_bufs_sub .., unary_bufs_sub .., binary_bufs_sub .., nullary_bufs_sub ..,
    unary_bufs_sub .., binary_bufs_sub .., unary_bufs_sub .., binary_bufs_sub .., unary_bufs_sub .., binary_bufs_sub ..,
    nullary_bufs_sub .., unary_bufs_sub .., binary_bufs_sub .., unary_bufs_sub .., binary_bufs_sub .., binary_bufs_sub ..⟩

/-- The buffers the list's operations write, in order: one each. -/
abbrev ops0_W : List (Ref sig .tc) :=
  [main_v0, main_v1, main_v2, main_v3, main_v4, main_v5, main_cst, main_call0.cst.ref,
    main_call0.v0.ref, main_call0.v1.ref, main_call0.v2.ref, main_call0.v3.ref, main_call0.v4.ref, main_call0.call0.v0.ref, main_v7, main_v8,
    main_v9, main_v10, main_v11, main_v12, main_v13, main_v14, main_call1.cst.ref, main_call1.v0.ref,
    main_call1.v1.ref, main_v16, main_v17, main_v18, main_v19, main_call2.cst.ref, main_call2.v0.ref, main_call2.v1.ref,
    main_v21, main_v22, main_v23, main_v24, main_call3.cst.ref, main_call3.v0.ref, main_call3.v1.ref, main_v26,
    main_v27, main_v28, main_cst_0, main_call4.cst.ref, main_call4.v0.ref, main_call4.v1.ref, main_call4.v2.ref, main_call4.v3.ref,
    main_call4.v4.ref, main_call4.call0.v0.ref, main_v30, main_v31, main_v32, main_v33, main_cst_1, main_call5.cst.ref,
    main_call5.v0.ref, main_call5.v1.ref, main_call5.v2.ref, main_call5.v3.ref, main_call5.v4.ref, main_call5.call0.v0.ref, main_v35, main_v36,
    main_v37, main_v38, main_v39, main_v40, main_v41, main_v42, main_call6.cst.ref, main_call6.v0.ref,
    main_call6.v1.ref, main_v44, main_v45, main_v46, main_v47, main_call7.cst.ref, main_call7.v0.ref, main_call7.v1.ref,
    main_v49, main_v50, main_v51, main_v52, main_call8.cst.ref, main_call8.v0.ref, main_call8.v1.ref, main_v54,
    main_v55, main_v56]

set_option maxRecDepth 8192 in
/-- Each operation of the list writes the one buffer listed for it. -/
theorem ops0_writes : (ops0 : List (HloOp τ sig (Elt F))).Forall fun op =>
    op.writes ⊆ (ops0_W.map (Proc.devRef (τ := τ) .tc)).toFinset :=
  ⟨writes_sub main_v0 (by decide), writes_sub main_v1 (by decide), writes_sub main_v2 (by decide), writes_sub main_v3 (by decide),
    writes_sub main_v4 (by decide), writes_sub main_v5 (by decide), writes_sub main_cst (by decide), writes_sub (main_call0.cst.ref) (by decide),
    writes_sub (main_call0.v0.ref) (by decide), writes_sub (main_call0.v1.ref) (by decide), writes_sub (main_call0.v2.ref) (by decide), writes_sub (main_call0.v3.ref) (by decide),
    writes_sub (main_call0.v4.ref) (by decide), writes_sub (main_call0.call0.v0.ref) (by decide), writes_sub main_v7 (by decide), writes_sub main_v8 (by decide),
    writes_sub main_v9 (by decide), writes_sub main_v10 (by decide), writes_sub main_v11 (by decide), writes_sub main_v12 (by decide),
    writes_sub main_v13 (by decide), writes_sub main_v14 (by decide), writes_sub (main_call1.cst.ref) (by decide), writes_sub (main_call1.v0.ref) (by decide),
    writes_sub (main_call1.v1.ref) (by decide), writes_sub main_v16 (by decide), writes_sub main_v17 (by decide), writes_sub main_v18 (by decide),
    writes_sub main_v19 (by decide), writes_sub (main_call2.cst.ref) (by decide), writes_sub (main_call2.v0.ref) (by decide), writes_sub (main_call2.v1.ref) (by decide),
    writes_sub main_v21 (by decide), writes_sub main_v22 (by decide), writes_sub main_v23 (by decide), writes_sub main_v24 (by decide),
    writes_sub (main_call3.cst.ref) (by decide), writes_sub (main_call3.v0.ref) (by decide), writes_sub (main_call3.v1.ref) (by decide), writes_sub main_v26 (by decide),
    writes_sub main_v27 (by decide), writes_sub main_v28 (by decide), writes_sub main_cst_0 (by decide), writes_sub (main_call4.cst.ref) (by decide),
    writes_sub (main_call4.v0.ref) (by decide), writes_sub (main_call4.v1.ref) (by decide), writes_sub (main_call4.v2.ref) (by decide), writes_sub (main_call4.v3.ref) (by decide),
    writes_sub (main_call4.v4.ref) (by decide), writes_sub (main_call4.call0.v0.ref) (by decide), writes_sub main_v30 (by decide), writes_sub main_v31 (by decide),
    writes_sub main_v32 (by decide), writes_sub main_v33 (by decide), writes_sub main_cst_1 (by decide), writes_sub (main_call5.cst.ref) (by decide),
    writes_sub (main_call5.v0.ref) (by decide), writes_sub (main_call5.v1.ref) (by decide), writes_sub (main_call5.v2.ref) (by decide), writes_sub (main_call5.v3.ref) (by decide),
    writes_sub (main_call5.v4.ref) (by decide), writes_sub (main_call5.call0.v0.ref) (by decide), writes_sub main_v35 (by decide), writes_sub main_v36 (by decide),
    writes_sub main_v37 (by decide), writes_sub main_v38 (by decide), writes_sub main_v39 (by decide), writes_sub main_v40 (by decide),
    writes_sub main_v41 (by decide), writes_sub main_v42 (by decide), writes_sub (main_call6.cst.ref) (by decide), writes_sub (main_call6.v0.ref) (by decide),
    writes_sub (main_call6.v1.ref) (by decide), writes_sub main_v44 (by decide), writes_sub main_v45 (by decide), writes_sub main_v46 (by decide),
    writes_sub main_v47 (by decide), writes_sub (main_call7.cst.ref) (by decide), writes_sub (main_call7.v0.ref) (by decide), writes_sub (main_call7.v1.ref) (by decide),
    writes_sub main_v49 (by decide), writes_sub main_v50 (by decide), writes_sub main_v51 (by decide), writes_sub main_v52 (by decide),
    writes_sub (main_call8.cst.ref) (by decide), writes_sub (main_call8.v0.ref) (by decide), writes_sub (main_call8.v1.ref) (by decide), writes_sub main_v54 (by decide),
    writes_sub main_v55 (by decide), writes_sub main_v56 (by decide)⟩

/-- A buffer none of the list's operations writes keeps its contents through the list. -/
theorem ops0_keep (V : Valuation τ sig (Elt F)) (r : Ref sig .tc) (h : r ∉ ops0_W) :
    after ops0 V (Proc.devRef .tc r) = V (Proc.devRef .tc r) :=
  after_of_writes_sub ops0 V ops0_writes h

set_option maxRecDepth 8192 in
/-- Every operation of the list determines its results: none allocates a buffer of unchosen contents. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

end Cert.ReferenceIdeal.RefRun

end
-- ==== Proof.RefRun1.lean ====
import proofs.«140582_j49512382988743_1_alg».proof.Proof.Gen.ReferenceIdeal
import Idealize.ShloMosaic.Lib.StableHlo.Run
import proofs.«140582_j49512382988743_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120 of @main as a list of operations (operations 91 … 178 of 326): each call of an
    outlined function is replaced by the function's own operations, in order, over the buffers of that call's
    record; the select of the innermost function stands where the function that calls it calls it. -/
abbrev ops1 : List (HloOp τ sig (Elt F)) :=
  [ StableHlo.nullary main_cst_2 (constant S_ .f32 0x3DCCCCCD#32),
    StableHlo.TRef.nullary main_call9.cst (constant S_ .f32 0x00000000#32),
    StableHlo.TRef.unary main_call9.cst main_call9.v0 (broadcastInDim S50000x128 ![] bcast_S_S50000x128),
    StableHlo.TRef.binary (.of main_v56 : StableHlo.TRef sig ⟨S50000x128, .f32⟩) main_call9.v0 main_call9.v1 (cmpf .oge),
    StableHlo.TRef.unary (.of main_cst_2 : StableHlo.TRef sig ⟨S_, .f32⟩) main_call9.v2 id,
    StableHlo.TRef.unary main_call9.v2 main_call9.v3 (broadcastInDim S50000x128 ![] bcast_S_S50000x128),
    StableHlo.TRef.binary main_call9.v3 (.of main_v56 : StableHlo.TRef sig ⟨S50000x128, .f32⟩) main_call9.v4 mulf,
    StableHlo.TRef.ternary main_call9.v1 (.of main_v56 : StableHlo.TRef sig ⟨S50000x128, .f32⟩) main_call9.v4 main_call9.call0.v0 select,
    StableHlo.unary main_arg4 main_v58 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v59 (broadcastInDim S1600000 ![] bcast_S_S1600000 : (⟨S_, .i32⟩ : BufTy).Contents (Elt F) → (⟨S1600000, .i32⟩ : BufTy).Contents (Elt F)),
    StableHlo.binary main_arg10 main_v59 main_v60 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v61 (broadcastInDim S1600000 ![] bcast_S_S1600000 : (⟨S_, .i32⟩ : BufTy).Contents (Elt F) → (⟨S1600000, .i32⟩ : BufTy).Contents (Elt F)),
    StableHlo.binary main_arg10 main_v61 main_v62 (addi : (⟨S1600000, .i32⟩ : BufTy).Contents (Elt F) → (⟨S1600000, .i32⟩ : BufTy).Contents (Elt F) → (⟨S1600000, .i32⟩ : BufTy).Contents (Elt F)),
    StableHlo.ternary main_v60 main_v62 main_arg10 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v63 main_v64 (broadcastInDim S1600000x1 ![0] bcast_S1600000_S1600000x1_0 : (⟨S1600000, .i32⟩ : BufTy).Contents (Elt F) → (⟨S1600000x1, .i32⟩ : BufTy).Contents (Elt F)),
    StableHlo.binary main_arg1 main_v64 main_v65 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v58 main_v66 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v66 main_v65 main_v67 (mulf : (⟨S1600000x128, .f32⟩ : BufTy).Contents (Elt F) → (⟨S1600000x128, .f32⟩ : BufTy).Contents (Elt F) → (⟨S1600000x128, .f32⟩ : BufTy).Contents (Elt F)),
    StableHlo.nullary main_cst_4 (constant S_ .f32 0x00000000#32),
    StableHlo.unary main_cst_4 main_v68 (broadcastInDim S100000x128 ![] bcast_S_S100000x128 : (⟨S_, .f32⟩ : BufTy).Contents (Elt F) → (⟨S100000x128, .f32⟩ : BufTy).Contents (Elt F)),
    StableHlo.unary main_arg9 main_v69 (broadcastInDim S1600000x1 ![0] bcast_S1600000_S1600000x1_0 : (⟨S1600000, .i32⟩ : BufTy).Contents (Elt F) → (⟨S1600000x1, .i32⟩ : BufTy).Contents (Elt F)),
    StableHlo.ternary main_v68 main_v69 main_v67 main_v70 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v71 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v71 main_v72 rfl shapeCasts_S1x128x128_S128x128,
    StableHlo.binary main_v70 main_v72 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.TRef.nullary main_call10.cst (constant S_ .f32 0x00000000#32),
    StableHlo.TRef.unary main_call10.cst main_call10.v0 (broadcastInDim S100000x128 ![] bcast_S_S100000x128),
    StableHlo.TRef.binary (.of main_v73 : StableHlo.TRef sig ⟨S100000x128, .f32⟩) main_call10.v0 main_call10.v1 maximumf,
    StableHlo.nullary main_cst_5 (constant S_ .f32 0x3DCCCCCD#32),
    StableHlo.TRef.nullary main_call11.cst (constant S_ .f32 0x00000000#32),
    StableHlo.TRef.unary main_call11.cst main_call11.v0 (broadcastInDim S100000x128 ![] bcast_S_S100000x128),
    StableHlo.TRef.binary (.of main_v74 : StableHlo.TRef sig ⟨S100000x128, .f32⟩) main_call11.v0 main_call11.v1 (cmpf .oge),
    StableHlo.TRef.unary (.of main_cst_5 : StableHlo.TRef sig ⟨S_, .f32⟩) main_call11.v2 id,
    StableHlo.TRef.unary main_call11.v2 main_call11.v3 (broadcastInDim S100000x128 ![] bcast_S_S100000x128),
    StableHlo.TRef.binary main_call11.v3 (.of main_v74 : StableHlo.TRef sig ⟨S100000x128, .f32⟩) main_call11.v4 mulf,
    StableHlo.TRef.ternary main_call11.v1 (.of main_v74 : StableHlo.TRef sig ⟨S100000x128, .f32⟩) main_call11.v4 main_call11.call0.v0 select,
    StableHlo.unary main_arg4 main_v76 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v77 (broadcastInDim S1600000 ![] bcast_S_S1600000 : (⟨S_, .i32⟩ : BufTy).Contents (Elt F) → (⟨S1600000, .i32⟩ : BufTy).Contents (Elt F)),
    StableHlo.binary main_arg9 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v79 (broadcastInDim S1600000 ![] bcast_S_S1600000 : (⟨S_, .i32⟩ : BufTy).Contents (Elt F) → (⟨S1600000, .i32⟩ : BufTy).Contents (Elt F)),
    StableHlo.binary main_arg9 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_arg9 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_arg0 main_v82 main_v83 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v76 main_v84 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v84 main_v83 main_v85 (mulf : (⟨S1600000x128, .f32⟩ : BufTy).Contents (Elt F) → (⟨S1600000x128, .f32⟩ : BufTy).Contents (Elt F) → (⟨S1600000x128, .f32⟩ : BufTy).Contents (Elt F)),
    StableHlo.nullary main_cst_8 (constant S_ .f32 0x00000000#32),
    StableHlo.unary main_cst_8 main_v86 (broadcastInDim S50000x128 ![] bcast_S_S50000x128 : (⟨S_, .f32⟩ : BufTy).Contents (Elt F) → (⟨S50000x128, .f32⟩ : BufTy).Contents (Elt F)),
    StableHlo.unary main_arg10 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg8 main_v89 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v89 main_v90 rfl shapeCasts_S1x128x128_S128x128,
    StableHlo.binary main_v88 main_v90 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v91 : StableHlo.TRef sig ⟨S50000x128, .f32⟩) main_call12.v0 main_call12.v1 maximumf,
    StableHlo.nullary main_cst_9 (constant S_ .f32 0x3DCCCCCD#32),
    StableHlo.TRef.nullary main_call13.cst (constant S_ .f32 0x00000000#32),
    StableHlo.TRef.unary main_call13.cst main_call13.v0 (broadcastInDim S50000x128 ![] bcast_S_S50000x128),
    StableHlo.TRef.binary (.of main_v92 : StableHlo.TRef sig ⟨S50000x128, .f32⟩) main_call13.v0 main_call13.v1 (cmpf .oge),
    StableHlo.TRef.unary (.of main_cst_9 : StableHlo.TRef sig ⟨S_, .f32⟩) main_call13.v2 id,
    StableHlo.TRef.unary main_call13.v2 main_call13.v3 (broadcastInDim S50000x128 ![] bcast_S_S50000x128),
    StableHlo.TRef.binary main_call13.v3 (.of main_v92 : StableHlo.TRef sig ⟨S50000x128, .f32⟩) main_call13.v4 mulf,
    StableHlo.TRef.ternary main_call13.v1 (.of main_v92 : StableHlo.TRef sig ⟨S50000x128, .f32⟩) main_call13.v4 main_call13.call0.v0 select,
    StableHlo.binary main_v75 main_v29 main_v94 (addf : (⟨S100000x128, .f32⟩ : BufTy).Contents (Elt F) → (⟨S100000x128, .f32⟩ : BufTy).Contents (Elt F) → (⟨S100000x128, .f32⟩ : BufTy).Contents (Elt F)),
    StableHlo.binary main_v94 main_arg0 main_v95 (addf : (⟨S100000x128, .f32⟩ : BufTy).Contents (Elt F) → (⟨S100000x128, .f32⟩ : BufTy).Contents (Elt F) → (⟨S100000x128, .f32⟩ : BufTy).Contents (Elt F)),
    StableHlo.binary main_v93 main_v57 main_v96 (addf : (⟨S50000x128, .f32⟩ : BufTy).Contents (Elt F) → (⟨S50000x128, .f32⟩ : BufTy).Contents (Elt F) → (⟨S50000x128, .f32⟩ : BufTy).Contents (Elt F)),
    StableHlo.binary main_v96 main_arg1 main_v97 (addf : (⟨S50000x128, .f32⟩ : BufTy).Contents (Elt F) → (⟨S50000x128, .f32⟩ : BufTy).Contents (Elt F) → (⟨S50000x128, .f32⟩ : BufTy).Contents (Elt F)),
    StableHlo.binary main_arg0 main_v95 main_v98 (addf : (⟨S100000x128, .f32⟩ : BufTy).Contents (Elt F) → (⟨S100000x128, .f32⟩ : BufTy).Contents (Elt F) → (⟨S100000x128, .f32⟩ : BufTy).Contents (Elt F)),
    StableHlo.binary main_arg1 main_v97 main_v99 (addf : (⟨S50000x128, .f32⟩ : BufTy).Contents (Elt F) → (⟨S50000x128, .f32⟩ : BufTy).Contents (Elt F) → (⟨S50000x128, .f32⟩ : BufTy).Contents (Elt F)),
    StableHlo.unary main_arg5 main_v100 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    StableHlo.reshape main_v100 main_v101 rfl shapeCasts_S1x3x128x128_S3x128x128,
    StableHlo.unary main_v0 main_v102 ((transpose S128x100000 [1, 0] · transposes_S100000x128_S128x100000_1_0) : (⟨S100000x128, .f32⟩ : BufTy).Contents (Elt F) → (⟨S128x100000, .f32⟩ : BufTy).Contents (Elt F)),
    StableHlo.binary main_v102 main_v95 main_v103 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    StableHlo.nullary main_cst_10 (constant S_ .f32 0x3DCCCCCD#32),
    StableHlo.TRef.nullary main_call14.cst (constant S_ .f32 0x00000000#32),
    StableHlo.TRef.unary main_call14.cst main_call14.v0 (broadcastInDim S128x128 ![] bcast_S_S128x128),
    StableHlo.TRef.binary (.of main_v103 : StableHlo.TRef sig ⟨S128x128, .f32⟩) main_call14.v0 main_call14.v1 (cmpf .oge),
    StableHlo.TRef.unary (.of main_cst_10 : StableHlo.TRef sig ⟨S_, .f32⟩) main_call14.v2 id,
    StableHlo.TRef.unary main_call14.v2 main_call14.v3 (broadcastInDim S128x128 ![] bcast_S_S128x128),
    StableHlo.TRef.binary main_call14.v3 (.of main_v103 : StableHlo.TRef sig ⟨S128x128, .f32⟩) main_call14.v4 mulf,
    StableHlo.TRef.ternary main_call14.v1 (.of main_v103 : StableHlo.TRef sig ⟨S128x128, .f32⟩) main_call14.v4 main_call14.call0.v0 select,
    StableHlo.unary main_v101 main_v105 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v105 main_v106 rfl shapeCasts_S1x128x128_S128x128 ]

set_option maxRecDepth 8192 in
set_option maxHeartbeats 4000000 in
/-- The window is that straight line: unfolding a called function at its call is the substitution of its
    operations, and sequencing in the free monad re-associates by computation. -/
theorem main_part1_eq (c : Dev nD) : main_part1 (F := F) c = seq ops1 := rfl

set_option maxRecDepth 8192 in
/-- Every operation of the list touches TensorCore references only. -/
theorem ops1_sub : (ops1 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., reshape_bufs_sub .., binary_bufs_sub .., nullary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., reshape_bufs_sub .., binary_bufs_sub .., nullary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., binary_bufs_sub .., binary_bufs_sub ..,
    binary_bufs_sub .., binary_bufs_sub .., unary_bufs_sub .., reshape_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., reshape_bufs_sub ..⟩

/-- The buffers the list's operations write, in order: one each. -/
abbrev ops1_W : List (Ref sig .tc) :=
  [main_cst_2, main_call9.cst.ref, main_call9.v0.ref, main_call9.v1.ref, main_call9.v2.ref, main_call9.v3.ref, main_call9.v4.ref, main_call9.call0.v0.ref,
    main_v58, main_c, main_v59, main_v60, main_c_3, main_v61, main_v62, main_v63,
    main_v64, main_v65, main_v66, main_v67, main_cst_4, main_v68, main_v69, main_v70,
    main_v71, main_v72, main_v73, main_call10.cst.ref, main_call10.v0.ref, main_call10.v1.ref, main_cst_5, main_call11.cst.ref,
    main_call11.v0.ref, main_call11.v1.ref, main_call11.v2.ref, main_call11.v3.ref, main_call11.v4.ref, main_call11.call0.v0.ref, main_v76, main_c_6,
    main_v77, main_v78, main_c_7, main_v79, main_v80, main_v81, main_v82, main_v83,
    main_v84, main_v85, main_cst_8, main_v86, main_v87, main_v88, main_v89, main_v90,
    main_v91, main_call12.cst.ref, main_call12.v0.ref, main_call12.v1.ref, main_cst_9, main_call13.cst.ref, main_call13.v0.ref, main_call13.v1.ref,
    main_call13.v2.ref, main_call13.v3.ref, main_call13.v4.ref, main_call13.call0.v0.ref, main_v94, main_v95, main_v96, main_v97,
    main_v98, main_v99, main_v100, main_v101, main_v102, main_v103, main_cst_10, main_call14.cst.ref,
    main_call14.v0.ref, main_call14.v1.ref, main_call14.v2.ref, main_call14.v3.ref, main_call14.v4.ref, main_call14.call0.v0.ref, main_v105, main_v106]

set_option maxRecDepth 8192 in
/-- Each operation of the list writes the one buffer listed for it. -/
theorem ops1_writes : (ops1 : List (HloOp τ sig (Elt F))).Forall fun op =>
    op.writes ⊆ (ops1_W.map (Proc.devRef (τ := τ) .tc)).toFinset :=
  ⟨writes_sub main_cst_2 (by decide), writes_sub (main_call9.cst.ref) (by decide), writes_sub (main_call9.v0.ref) (by decide), writes_sub (main_call9.v1.ref) (by decide),
    writes_sub (main_call9.v2.ref) (by decide), writes_sub (main_call9.v3.ref) (by decide), writes_sub (main_call9.v4.ref) (by decide), writes_sub (main_call9.call0.v0.ref) (by decide),
    writes_sub main_v58 (by decide), writes_sub main_c (by decide), writes_sub main_v59 (by decide), writes_sub main_v60 (by decide),
    writes_sub main_c_3 (by decide), writes_sub main_v61 (by decide), writes_sub main_v62 (by decide), writes_sub main_v63 (by decide),
    writes_sub main_v64 (by decide), writes_sub main_v65 (by decide), writes_sub main_v66 (by decide), writes_sub main_v67 (by decide),
    writes_sub main_cst_4 (by decide), writes_sub main_v68 (by decide), writes_sub main_v69 (by decide), writes_sub main_v70 (by decide),
    writes_sub main_v71 (by decide), writes_sub main_v72 (by decide), writes_sub main_v73 (by decide), writes_sub (main_call10.cst.ref) (by decide),
    writes_sub (main_call10.v0.ref) (by decide), writes_sub (main_call10.v1.ref) (by decide), writes_sub main_cst_5 (by decide), writes_sub (main_call11.cst.ref) (by decide),
    writes_sub (main_call11.v0.ref) (by decide), writes_sub (main_call11.v1.ref) (by decide), writes_sub (main_call11.v2.ref) (by decide), writes_sub (main_call11.v3.ref) (by decide),
    writes_sub (main_call11.v4.ref) (by decide), writes_sub (main_call11.call0.v0.ref) (by decide), writes_sub main_v76 (by decide), writes_sub main_c_6 (by decide),
    writes_sub main_v77 (by decide), writes_sub main_v78 (by decide), writes_sub main_c_7 (by decide), writes_sub main_v79 (by decide),
    writes_sub main_v80 (by decide), writes_sub main_v81 (by decide), writes_sub main_v82 (by decide), writes_sub main_v83 (by decide),
    writes_sub main_v84 (by decide), writes_sub main_v85 (by decide), writes_sub main_cst_8 (by decide), writes_sub main_v86 (by decide),
    writes_sub main_v87 (by decide), writes_sub main_v88 (by decide), writes_sub main_v89 (by decide), writes_sub main_v90 (by decide),
    writes_sub main_v91 (by decide), writes_sub (main_call12.cst.ref) (by decide), writes_sub (main_call12.v0.ref) (by decide), writes_sub (main_call12.v1.ref) (by decide),
    writes_sub main_cst_9 (by decide), writes_sub (main_call13.cst.ref) (by decide), writes_sub (main_call13.v0.ref) (by decide), writes_sub (main_call13.v1.ref) (by decide),
    writes_sub (main_call13.v2.ref) (by decide), writes_sub (main_call13.v3.ref) (by decide), writes_sub (main_call13.v4.ref) (by decide), writes_sub (main_call13.call0.v0.ref) (by decide),
    writes_sub main_v94 (by decide), writes_sub main_v95 (by decide), writes_sub main_v96 (by decide), writes_sub main_v97 (by decide),
    writes_sub main_v98 (by decide), writes_sub main_v99 (by decide), writes_sub main_v100 (by decide), writes_sub main_v101 (by decide),
    writes_sub main_v102 (by decide), writes_sub main_v103 (by decide), writes_sub main_cst_10 (by decide), writes_sub (main_call14.cst.ref) (by decide),
    writes_sub (main_call14.v0.ref) (by decide), writes_sub (main_call14.v1.ref) (by decide), writes_sub (main_call14.v2.ref) (by decide), writes_sub (main_call14.v3.ref) (by decide),
    writes_sub (main_call14.v4.ref) (by decide), writes_sub (main_call14.call0.v0.ref) (by decide), writes_sub main_v105 (by decide), writes_sub main_v106 (by decide)⟩

/-- A buffer none of the list's operations writes keeps its contents through the list. -/
theorem ops1_keep (V : Valuation τ sig (Elt F)) (r : Ref sig .tc) (h : r ∉ ops1_W) :
    after ops1 V (Proc.devRef .tc r) = V (Proc.devRef .tc r) :=
  after_of_writes_sub ops1 V ops1_writes h

set_option maxRecDepth 8192 in
/-- Every operation of the list determines its results: none allocates a buffer of unchosen contents. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

end Cert.ReferenceIdeal.RefRun

end
-- ==== Proof.RefRun2.lean ====
import proofs.«140582_j49512382988743_1_alg».proof.Proof.Gen.ReferenceIdeal
import Idealize.ShloMosaic.Lib.StableHlo.Run
import proofs.«140582_j49512382988743_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 121 … 180 of @main as a list of operations (operations 179 … 268 of 326): each call of an
    outlined function is replaced by the function's own operations, in order, over the buffers of that call's
    record; the select of the innermost function stands where the function that calls it calls it. -/
abbrev ops2 : List (HloOp τ sig (Elt F)) :=
  [ StableHlo.unary main_v101 main_v107 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v107 main_v108 rfl shapeCasts_S1x128x128_S128x128,
    StableHlo.unary main_v101 main_v109 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v109 main_v110 rfl shapeCasts_S1x128x128_S128x128,
    StableHlo.unary main_v104 main_v111 ((transpose S128x128 [1, 0] · transposes_S128x128_S128x128_1_0) : (⟨S128x128, .f32⟩ : BufTy).Contents (Elt F) → (⟨S128x128, .f32⟩ : BufTy).Contents (Elt F)),
    StableHlo.binary main_v111 main_v106 main_v112 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call15.cst (constant S_ .f32 0x00000000#32),
    StableHlo.TRef.unary main_call15.cst main_call15.v0 (broadcastInDim S128x128 ![] bcast_S_S128x128),
    StableHlo.TRef.binary (.of main_v112 : StableHlo.TRef sig ⟨S128x128, .f32⟩) main_call15.v0 main_call15.v1 maximumf,
    StableHlo.unary main_v113 main_v114 ((transpose S128x128 [1, 0] · transposes_S128x128_S128x128_1_0) : (⟨S128x128, .f32⟩ : BufTy).Contents (Elt F) → (⟨S128x128, .f32⟩ : BufTy).Contents (Elt F)),
    StableHlo.binary main_v114 main_v104 main_v115 (addf : (⟨S128x128, .f32⟩ : BufTy).Contents (Elt F) → (⟨S128x128, .f32⟩ : BufTy).Contents (Elt F) → (⟨S128x128, .f32⟩ : BufTy).Contents (Elt F)),
    StableHlo.unary main_v115 main_v116 ((transpose S128x128 [1, 0] · transposes_S128x128_S128x128_1_0) : (⟨S128x128, .f32⟩ : BufTy).Contents (Elt F) → (⟨S128x128, .f32⟩ : BufTy).Contents (Elt F)),
    StableHlo.binary main_v116 main_v108 main_v117 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call16.cst (constant S_ .f32 0x00000000#32),
    StableHlo.TRef.unary main_call16.cst main_call16.v0 (broadcastInDim S128x128 ![] bcast_S_S128x128),
    StableHlo.TRef.binary (.of main_v117 : StableHlo.TRef sig ⟨S128x128, .f32⟩) main_call16.v0 main_call16.v1 maximumf,
    StableHlo.unary main_v118 main_v119 ((transpose S128x128 [1, 0] · transposes_S128x128_S128x128_1_0) : (⟨S128x128, .f32⟩ : BufTy).Contents (Elt F) → (⟨S128x128, .f32⟩ : BufTy).Contents (Elt F)),
    StableHlo.binary main_v119 main_v115 main_v120 (addf : (⟨S128x128, .f32⟩ : BufTy).Contents (Elt F) → (⟨S128x128, .f32⟩ : BufTy).Contents (Elt F) → (⟨S128x128, .f32⟩ : BufTy).Contents (Elt F)),
    StableHlo.unary main_v120 main_v121 ((transpose S128x128 [1, 0] · transposes_S128x128_S128x128_1_0) : (⟨S128x128, .f32⟩ : BufTy).Contents (Elt F) → (⟨S128x128, .f32⟩ : BufTy).Contents (Elt F)),
    StableHlo.binary main_v121 main_v110 main_v122 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call17.cst (constant S_ .f32 0x00000000#32),
    StableHlo.TRef.unary main_call17.cst main_call17.v0 (broadcastInDim S128x128 ![] bcast_S_S128x128),
    StableHlo.TRef.binary (.of main_v122 : StableHlo.TRef sig ⟨S128x128, .f32⟩) main_call17.v0 main_call17.v1 maximumf,
    StableHlo.unary main_v123 main_v124 ((transpose S128x128 [1, 0] · transposes_S128x128_S128x128_1_0) : (⟨S128x128, .f32⟩ : BufTy).Contents (Elt F) → (⟨S128x128, .f32⟩ : BufTy).Contents (Elt F)),
    StableHlo.binary main_v124 main_v120 main_v125 (addf : (⟨S128x128, .f32⟩ : BufTy).Contents (Elt F) → (⟨S128x128, .f32⟩ : BufTy).Contents (Elt F) → (⟨S128x128, .f32⟩ : BufTy).Contents (Elt F)),
    StableHlo.binary main_v0 main_v125 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_11 (constant S_ .f32 0x3DCCCCCD#32),
    StableHlo.TRef.nullary main_call18.cst (constant S_ .f32 0x00000000#32),
    StableHlo.TRef.unary main_call18.cst main_call18.v0 (broadcastInDim S100000x128 ![] bcast_S_S100000x128),
    StableHlo.TRef.binary (.of main_v126 : StableHlo.TRef sig ⟨S100000x128, .f32⟩) main_call18.v0 main_call18.v1 (cmpf .oge),
    StableHlo.TRef.unary (.of main_cst_11 : StableHlo.TRef sig ⟨S_, .f32⟩) main_call18.v2 id,
    StableHlo.TRef.unary main_call18.v2 main_call18.v3 (broadcastInDim S100000x128 ![] bcast_S_S100000x128),
    StableHlo.TRef.binary main_call18.v3 (.of main_v126 : StableHlo.TRef sig ⟨S100000x128, .f32⟩) main_call18.v4 mulf,
    StableHlo.TRef.ternary main_call18.v1 (.of main_v126 : StableHlo.TRef sig ⟨S100000x128, .f32⟩) main_call18.v4 main_call18.call0.v0 select,
    StableHlo.unary main_arg6 main_v128 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    StableHlo.reshape main_v128 main_v129 rfl shapeCasts_S1x3x128x128_S3x128x128,
    StableHlo.unary main_v1 main_v130 ((transpose S128x50000 [1, 0] · transposes_S50000x128_S128x50000_1_0) : (⟨S50000x128, .f32⟩ : BufTy).Contents (Elt F) → (⟨S128x50000, .f32⟩ : BufTy).Contents (Elt F)),
    StableHlo.binary main_v130 main_v97 main_v131 ((fun l r => Host.dotGeneral dot_S128x50000_S50000x128_S128x128_1_0_0_1_n_n none l r) : (⟨S128x50000, .f32⟩ : BufTy).Contents (Elt F) → (⟨S50000x128, .f32⟩ : BufTy).Contents (Elt F) → (⟨S128x128, .f32⟩ : BufTy).Contents (Elt F)),
    StableHlo.nullary main_cst_12 (constant S_ .f32 0x3DCCCCCD#32),
    StableHlo.TRef.nullary main_call19.cst (constant S_ .f32 0x00000000#32),
    StableHlo.TRef.unary main_call19.cst main_call19.v0 (broadcastInDim S128x128 ![] bcast_S_S128x128),
    StableHlo.TRef.binary (.of main_v131 : StableHlo.TRef sig ⟨S128x128, .f32⟩) main_call19.v0 main_call19.v1 (cmpf .oge),
    StableHlo.TRef.unary (.of main_cst_12 : StableHlo.TRef sig ⟨S_, .f32⟩) main_call19.v2 id,
    StableHlo.TRef.unary main_call19.v2 main_call19.v3 (broadcastInDim S128x128 ![] bcast_S_S128x128),
    StableHlo.TRef.binary main_call19.v3 (.of main_v131 : StableHlo.TRef sig ⟨S128x128, .f32⟩) main_call19.v4 mulf,
    StableHlo.TRef.ternary main_call19.v1 (.of main_v131 : StableHlo.TRef sig ⟨S128x128, .f32⟩) main_call19.v4 main_call19.call0.v0 select,
    StableHlo.unary main_v129 main_v133 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v133 main_v134 rfl shapeCasts_S1x128x128_S128x128,
    StableHlo.unary main_v129 main_v135 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v135 main_v136 rfl shapeCasts_S1x128x128_S128x128,
    StableHlo.unary main_v129 main_v137 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v137 main_v138 rfl shapeCasts_S1x128x128_S128x128,
    StableHlo.unary main_v132 main_v139 ((transpose S128x128 [1, 0] · transposes_S128x128_S128x128_1_0) : (⟨S128x128, .f32⟩ : BufTy).Contents (Elt F) → (⟨S128x128, .f32⟩ : BufTy).Contents (Elt F)),
    StableHlo.binary main_v139 main_v134 main_v140 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call20.cst (constant S_ .f32 0x00000000#32),
    StableHlo.TRef.unary main_call20.cst main_call20.v0 (broadcastInDim S128x128 ![] bcast_S_S128x128),
    StableHlo.TRef.binary (.of main_v140 : StableHlo.TRef sig ⟨S128x128, .f32⟩) main_call20.v0 main_call20.v1 maximumf,
    StableHlo.unary main_v141 main_v142 ((transpose S128x128 [1, 0] · transposes_S128x128_S128x128_1_0) : (⟨S128x128, .f32⟩ : BufTy).Contents (Elt F) → (⟨S128x128, .f32⟩ : BufTy).Contents (Elt F)),
    StableHlo.binary main_v142 main_v132 main_v143 (addf : (⟨S128x128, .f32⟩ : BufTy).Contents (Elt F) → (⟨S128x128, .f32⟩ : BufTy).Contents (Elt F) → (⟨S128x128, .f32⟩ : BufTy).Contents (Elt F)),
    StableHlo.unary main_v143 main_v144 ((transpose S128x128 [1, 0] · transposes_S128x128_S128x128_1_0) : (⟨S128x128, .f32⟩ : BufTy).Contents (Elt F) → (⟨S128x128, .f32⟩ : BufTy).Contents (Elt F)),
    StableHlo.binary main_v144 main_v136 main_v145 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call21.cst (constant S_ .f32 0x00000000#32),
    StableHlo.TRef.unary main_call21.cst main_call21.v0 (broadcastInDim S128x128 ![] bcast_S_S128x128),
    StableHlo.TRef.binary (.of main_v145 : StableHlo.TRef sig ⟨S128x128, .f32⟩) main_call21.v0 main_call21.v1 maximumf,
    StableHlo.unary main_v146 main_v147 ((transpose S128x128 [1, 0] · transposes_S128x128_S128x128_1_0) : (⟨S128x128, .f32⟩ : BufTy).Contents (Elt F) → (⟨S128x128, .f32⟩ : BufTy).Contents (Elt F)),
    StableHlo.binary main_v147 main_v143 main_v148 (addf : (⟨S128x128, .f32⟩ : BufTy).Contents (Elt F) → (⟨S128x128, .f32⟩ : BufTy).Contents (Elt F) → (⟨S128x128, .f32⟩ : BufTy).Contents (Elt F)),
    StableHlo.unary main_v148 main_v149 ((transpose S128x128 [1, 0] · transposes_S128x128_S128x128_1_0) : (⟨S128x128, .f32⟩ : BufTy).Contents (Elt F) → (⟨S128x128, .f32⟩ : BufTy).Contents (Elt F)),
    StableHlo.binary main_v149 main_v138 main_v150 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.TRef.nullary main_call22.cst (constant S_ .f32 0x00000000#32),
    StableHlo.TRef.unary main_call22.cst main_call22.v0 (broadcastInDim S128x128 ![] bcast_S_S128x128),
    StableHlo.TRef.binary (.of main_v150 : StableHlo.TRef sig ⟨S128x128, .f32⟩) main_call22.v0 main_call22.v1 maximumf,
    StableHlo.unary main_v151 main_v152 ((transpose S128x128 [1, 0] · transposes_S128x128_S128x128_1_0) : (⟨S128x128, .f32⟩ : BufTy).Contents (Elt F) → (⟨S128x128, .f32⟩ : BufTy).Contents (Elt F)),
    StableHlo.binary main_v152 main_v148 main_v153 (addf : (⟨S128x128, .f32⟩ : BufTy).Contents (Elt F) → (⟨S128x128, .f32⟩ : BufTy).Contents (Elt F) → (⟨S128x128, .f32⟩ : BufTy).Contents (Elt F)),
    StableHlo.binary main_v1 main_v153 main_v154 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_13 (constant S_ .f32 0x3DCCCCCD#32),
    StableHlo.TRef.nullary main_call23.cst (constant S_ .f32 0x00000000#32),
    StableHlo.TRef.unary main_call23.cst main_call23.v0 (broadcastInDim S50000x128 ![] bcast_S_S50000x128),
    StableHlo.TRef.binary (.of main_v154 : StableHlo.TRef sig ⟨S50000x128, .f32⟩) main_call23.v0 main_call23.v1 (cmpf .oge),
    StableHlo.TRef.unary (.of main_cst_13 : StableHlo.TRef sig ⟨S_, .f32⟩) main_call23.v2 id,
    StableHlo.TRef.unary main_call23.v2 main_call23.v3 (broadcastInDim S50000x128 ![] bcast_S_S50000x128),
    StableHlo.TRef.binary main_call23.v3 (.of main_v154 : StableHlo.TRef sig ⟨S50000x128, .f32⟩) main_call23.v4 mulf,
    StableHlo.TRef.ternary main_call23.v1 (.of main_v154 : StableHlo.TRef sig ⟨S50000x128, .f32⟩) main_call23.v4 main_call23.call0.v0 select,
    StableHlo.unary main_arg4 main_v156 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v157 (broadcastInDim S1600000 ![] bcast_S_S1600000 : (⟨S_, .i32⟩ : BufTy).Contents (Elt F) → (⟨S1600000, .i32⟩ : BufTy).Contents (Elt F)),
    StableHlo.binary main_arg10 main_v157 main_v158 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v159 (broadcastInDim S1600000 ![] bcast_S_S1600000 : (⟨S_, .i32⟩ : BufTy).Contents (Elt F) → (⟨S1600000, .i32⟩ : BufTy).Contents (Elt F)),
    StableHlo.binary main_arg10 main_v159 main_v160 (addi : (⟨S1600000, .i32⟩ : BufTy).Contents (Elt F) → (⟨S1600000, .i32⟩ : BufTy).Contents (Elt F) → (⟨S1600000, .i32⟩ : BufTy).Contents (Elt F)),
    StableHlo.ternary main_v158 main_v160 main_arg10 main_v161 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

set_option maxRecDepth 8192 in
set_option maxHeartbeats 4000000 in
/-- The window is that straight line: unfolding a called function at its call is the substitution of its
    operations, and sequencing in the free monad re-associates by computation. -/
theorem main_part2_eq (c : Dev nD) : main_part2 (F := F) c = seq ops2 := rfl

set_option maxRecDepth 8192 in
/-- Every operation of the list touches TensorCore references only. -/
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., binary_bufs_sub ..,
    nullary_bufs_sub .., unary_bufs_sub .., binary_bufs_sub .., unary_bufs_sub .., binary_bufs_sub .., unary_bufs_sub ..,
    binary_bufs_sub .., nullary_bufs_sub .., unary_bufs_sub .., binary_bufs_sub .., unary_bufs_sub .., binary_bufs_sub ..,
    unary_bufs_sub .., binary_bufs_sub .., nullary_bufs_sub .., unary_bufs_sub .., binary_bufs_sub .., unary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., reshape_bufs_sub ..,
    unary_bufs_sub .., reshape_bufs_sub .., unary_bufs_sub .., reshape_bufs_sub .., unary_bufs_sub .., binary_bufs_sub ..,
    nullary_bufs_sub .., unary_bufs_sub .., binary_bufs_sub .., unary_bufs_sub .., binary_bufs_sub .., unary_bufs_sub ..,
    binary_bufs_sub .., nullary_bufs_sub .., unary_bufs_sub .., binary_bufs_sub .., unary_bufs_sub .., binary_bufs_sub ..,
    unary_bufs_sub .., binary_bufs_sub .., nullary_bufs_sub .., unary_bufs_sub .., binary_bufs_sub .., unary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., nullary_bufs_sub ..,
    unary_bufs_sub .., binary_bufs_sub .., nullary_bufs_sub .., unary_bufs_sub .., binary_bufs_sub .., ternary_bufs_sub ..⟩

/-- The buffers the list's operations write, in order: one each. -/
abbrev ops2_W : List (Ref sig .tc) :=
  [main_v107, main_v108, main_v109, main_v110, main_v111, main_v112, main_call15.cst.ref, main_call15.v0.ref,
    main_call15.v1.ref, main_v114, main_v115, main_v116, main_v117, main_call16.cst.ref, main_call16.v0.ref, main_call16.v1.ref,
    main_v119, main_v120, main_v121, main_v122, main_call17.cst.ref, main_call17.v0.ref, main_call17.v1.ref, main_v124,
    main_v125, main_v126, main_cst_11, main_call18.cst.ref, main_call18.v0.ref, main_call18.v1.ref, main_call18.v2.ref, main_call18.v3.ref,
    main_call18.v4.ref, main_call18.call0.v0.ref, main_v128, main_v129, main_v130, main_v131, main_cst_12, main_call19.cst.ref,
    main_call19.v0.ref, main_call19.v1.ref, main_call19.v2.ref, main_call19.v3.ref, main_call19.v4.ref, main_call19.call0.v0.ref, main_v133, main_v134,
    main_v135, main_v136, main_v137, main_v138, main_v139, main_v140, main_call20.cst.ref, main_call20.v0.ref,
    main_call20.v1.ref, main_v142, main_v143, main_v144, main_v145, main_call21.cst.ref, main_call21.v0.ref, main_call21.v1.ref,
    main_v147, main_v148, main_v149, main_v150, main_call22.cst.ref, main_call22.v0.ref, main_call22.v1.ref, main_v152,
    main_v153, main_v154, main_cst_13, main_call23.cst.ref, main_call23.v0.ref, main_call23.v1.ref, main_call23.v2.ref, main_call23.v3.ref,
    main_call23.v4.ref, main_call23.call0.v0.ref, main_v156, main_c_14, main_v157, main_v158, main_c_15, main_v159,
    main_v160, main_v161]

set_option maxRecDepth 8192 in
/-- Each operation of the list writes the one buffer listed for it. -/
theorem ops2_writes : (ops2 : List (HloOp τ sig (Elt F))).Forall fun op =>
    op.writes ⊆ (ops2_W.map (Proc.devRef (τ := τ) .tc)).toFinset :=
  ⟨writes_sub main_v107 (by decide), writes_sub main_v108 (by decide), writes_sub main_v109 (by decide), writes_sub main_v110 (by decide),
    writes_sub main_v111 (by decide), writes_sub main_v112 (by decide), writes_sub (main_call15.cst.ref) (by decide), writes_sub (main_call15.v0.ref) (by decide),
    writes_sub (main_call15.v1.ref) (by decide), writes_sub main_v114 (by decide), writes_sub main_v115 (by decide), writes_sub main_v116 (by decide),
    writes_sub main_v117 (by decide), writes_sub (main_call16.cst.ref) (by decide), writes_sub (main_call16.v0.ref) (by decide), writes_sub (main_call16.v1.ref) (by decide),
    writes_sub main_v119 (by decide), writes_sub main_v120 (by decide), writes_sub main_v121 (by decide), writes_sub main_v122 (by decide),
    writes_sub (main_call17.cst.ref) (by decide), writes_sub (main_call17.v0.ref) (by decide), writes_sub (main_call17.v1.ref) (by decide), writes_sub main_v124 (by decide),
    writes_sub main_v125 (by decide), writes_sub main_v126 (by decide), writes_sub main_cst_11 (by decide), writes_sub (main_call18.cst.ref) (by decide),
    writes_sub (main_call18.v0.ref) (by decide), writes_sub (main_call18.v1.ref) (by decide), writes_sub (main_call18.v2.ref) (by decide), writes_sub (main_call18.v3.ref) (by decide),
    writes_sub (main_call18.v4.ref) (by decide), writes_sub (main_call18.call0.v0.ref) (by decide), writes_sub main_v128 (by decide), writes_sub main_v129 (by decide),
    writes_sub main_v130 (by decide), writes_sub main_v131 (by decide), writes_sub main_cst_12 (by decide), writes_sub (main_call19.cst.ref) (by decide),
    writes_sub (main_call19.v0.ref) (by decide), writes_sub (main_call19.v1.ref) (by decide), writes_sub (main_call19.v2.ref) (by decide), writes_sub (main_call19.v3.ref) (by decide),
    writes_sub (main_call19.v4.ref) (by decide), writes_sub (main_call19.call0.v0.ref) (by decide), writes_sub main_v133 (by decide), writes_sub main_v134 (by decide),
    writes_sub main_v135 (by decide), writes_sub main_v136 (by decide), writes_sub main_v137 (by decide), writes_sub main_v138 (by decide),
    writes_sub main_v139 (by decide), writes_sub main_v140 (by decide), writes_sub (main_call20.cst.ref) (by decide), writes_sub (main_call20.v0.ref) (by decide),
    writes_sub (main_call20.v1.ref) (by decide), writes_sub main_v142 (by decide), writes_sub main_v143 (by decide), writes_sub main_v144 (by decide),
    writes_sub main_v145 (by decide), writes_sub (main_call21.cst.ref) (by decide), writes_sub (main_call21.v0.ref) (by decide), writes_sub (main_call21.v1.ref) (by decide),
    writes_sub main_v147 (by decide), writes_sub main_v148 (by decide), writes_sub main_v149 (by decide), writes_sub main_v150 (by decide),
    writes_sub (main_call22.cst.ref) (by decide), writes_sub (main_call22.v0.ref) (by decide), writes_sub (main_call22.v1.ref) (by decide), writes_sub main_v152 (by decide),
    writes_sub main_v153 (by decide), writes_sub main_v154 (by decide), writes_sub main_cst_13 (by decide), writes_sub (main_call23.cst.ref) (by decide),
    writes_sub (main_call23.v0.ref) (by decide), writes_sub (main_call23.v1.ref) (by decide), writes_sub (main_call23.v2.ref) (by decide), writes_sub (main_call23.v3.ref) (by decide),
    writes_sub (main_call23.v4.ref) (by decide), writes_sub (main_call23.call0.v0.ref) (by decide), writes_sub main_v156 (by decide), writes_sub main_c_14 (by decide),
    writes_sub main_v157 (by decide), writes_sub main_v158 (by decide), writes_sub main_c_15 (by decide), writes_sub main_v159 (by decide),
    writes_sub main_v160 (by decide), writes_sub main_v161 (by decide)⟩

/-- A buffer none of the list's operations writes keeps its contents through the list. -/
theorem ops2_keep (V : Valuation τ sig (Elt F)) (r : Ref sig .tc) (h : r ∉ ops2_W) :
    after ops2 V (Proc.devRef .tc r) = V (Proc.devRef .tc r) :=
  after_of_writes_sub ops2 V ops2_writes h

set_option maxRecDepth 8192 in
/-- Every operation of the list determines its results: none allocates a buffer of unchosen contents. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

end Cert.ReferenceIdeal.RefRun

end
-- ==== Proof.RefRun3.lean ====
import proofs.«140582_j49512382988743_1_alg».proof.Proof.Gen.ReferenceIdeal
import Idealize.ShloMosaic.Lib.StableHlo.Run
import proofs.«140582_j49512382988743_1_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 181 … 223 of @main as a list of operations (operations 269 … 326 of 326): each call of an
    outlined function is replaced by the function's own operations, in order, over the buffers of that call's
    record; the select of the innermost function stands where the function that calls it calls it. -/
abbrev ops3 : List (HloOp τ sig (Elt F)) :=
  [ StableHlo.unary main_v161 main_v162 (broadcastInDim S1600000x1 ![0] bcast_S1600000_S1600000x1_0 : (⟨S1600000, .i32⟩ : BufTy).Contents (Elt F) → (⟨S1600000x1, .i32⟩ : BufTy).Contents (Elt F)),
    StableHlo.binary main_v97 main_v162 main_v163 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v156 main_v164 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v164 main_v163 main_v165 (mulf : (⟨S1600000x128, .f32⟩ : BufTy).Contents (Elt F) → (⟨S1600000x128, .f32⟩ : BufTy).Contents (Elt F) → (⟨S1600000x128, .f32⟩ : BufTy).Contents (Elt F)),
    StableHlo.nullary main_cst_16 (constant S_ .f32 0x00000000#32),
    StableHlo.unary main_cst_16 main_v166 (broadcastInDim S100000x128 ![] bcast_S_S100000x128 : (⟨S_, .f32⟩ : BufTy).Contents (Elt F) → (⟨S100000x128, .f32⟩ : BufTy).Contents (Elt F)),
    StableHlo.unary main_arg9 main_v167 (broadcastInDim S1600000x1 ![0] bcast_S1600000_S1600000x1_0 : (⟨S1600000, .i32⟩ : BufTy).Contents (Elt F) → (⟨S1600000x1, .i32⟩ : BufTy).Contents (Elt F)),
    StableHlo.ternary main_v166 main_v167 main_v165 main_v168 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg7 main_v169 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v169 main_v170 rfl shapeCasts_S1x128x128_S128x128,
    StableHlo.binary main_v168 main_v170 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.TRef.nullary main_call24.cst (constant S_ .f32 0x00000000#32),
    StableHlo.TRef.unary main_call24.cst main_call24.v0 (broadcastInDim S100000x128 ![] bcast_S_S100000x128),
    StableHlo.TRef.binary (.of main_v171 : StableHlo.TRef sig ⟨S100000x128, .f32⟩) main_call24.v0 main_call24.v1 maximumf,
    StableHlo.nullary main_cst_17 (constant S_ .f32 0x3DCCCCCD#32),
    StableHlo.TRef.nullary main_call25.cst (constant S_ .f32 0x00000000#32),
    StableHlo.TRef.unary main_call25.cst main_call25.v0 (broadcastInDim S100000x128 ![] bcast_S_S100000x128),
    StableHlo.TRef.binary (.of main_v172 : StableHlo.TRef sig ⟨S100000x128, .f32⟩) main_call25.v0 main_call25.v1 (cmpf .oge),
    StableHlo.TRef.unary (.of main_cst_17 : StableHlo.TRef sig ⟨S_, .f32⟩) main_call25.v2 id,
    StableHlo.TRef.unary main_call25.v2 main_call25.v3 (broadcastInDim S100000x128 ![] bcast_S_S100000x128),
    StableHlo.TRef.binary main_call25.v3 (.of main_v172 : StableHlo.TRef sig ⟨S100000x128, .f32⟩) main_call25.v4 mulf,
    StableHlo.TRef.ternary main_call25.v1 (.of main_v172 : StableHlo.TRef sig ⟨S100000x128, .f32⟩) main_call25.v4 main_call25.call0.v0 select,
    StableHlo.unary main_arg4 main_v174 (broadcastInDim S1600000x1 ![0] bcast_S1600000_S1600000x1_0 : (⟨S1600000, .f32⟩ : BufTy).Contents (Elt F) → (⟨S1600000x1, .f32⟩ : BufTy).Contents (Elt F)),
    StableHlo.nullary main_c_18 (constantI S_ 32 0#32),
    StableHlo.unary main_c_18 main_v175 (broadcastInDim S1600000 ![] bcast_S_S1600000 : (⟨S_, .i32⟩ : BufTy).Contents (Elt F) → (⟨S1600000, .i32⟩ : BufTy).Contents (Elt F)),
    StableHlo.binary main_arg9 main_v175 main_v176 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v177 (broadcastInDim S1600000 ![] bcast_S_S1600000 : (⟨S_, .i32⟩ : BufTy).Contents (Elt F) → (⟨S1600000, .i32⟩ : BufTy).Contents (Elt F)),
    StableHlo.binary main_arg9 main_v177 main_v178 (addi : (⟨S1600000, .i32⟩ : BufTy).Contents (Elt F) → (⟨S1600000, .i32⟩ : BufTy).Contents (Elt F) → (⟨S1600000, .i32⟩ : BufTy).Contents (Elt F)),
    StableHlo.ternary main_v176 main_v178 main_arg9 main_v179 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v179 main_v180 (broadcastInDim S1600000x1 ![0] bcast_S1600000_S1600000x1_0 : (⟨S1600000, .i32⟩ : BufTy).Contents (Elt F) → (⟨S1600000x1, .i32⟩ : BufTy).Contents (Elt F)),
    StableHlo.binary main_v95 main_v180 main_v181 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v174 main_v182 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v182 main_v181 main_v183 (mulf : (⟨S1600000x128, .f32⟩ : BufTy).Contents (Elt F) → (⟨S1600000x128, .f32⟩ : BufTy).Contents (Elt F) → (⟨S1600000x128, .f32⟩ : BufTy).Contents (Elt F)),
    StableHlo.nullary main_cst_20 (constant S_ .f32 0x00000000#32),
    StableHlo.unary main_cst_20 main_v184 (broadcastInDim S50000x128 ![] bcast_S_S50000x128 : (⟨S_, .f32⟩ : BufTy).Contents (Elt F) → (⟨S50000x128, .f32⟩ : BufTy).Contents (Elt F)),
    StableHlo.unary main_arg10 main_v185 (broadcastInDim S1600000x1 ![0] bcast_S1600000_S1600000x1_0 : (⟨S1600000, .i32⟩ : BufTy).Contents (Elt F) → (⟨S1600000x1, .i32⟩ : BufTy).Contents (Elt F)),
    StableHlo.ternary main_v184 main_v185 main_v183 main_v186 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_arg8 main_v187 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v187 main_v188 rfl shapeCasts_S1x128x128_S128x128,
    StableHlo.binary main_v186 main_v188 main_v189 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.TRef.nullary main_call26.cst (constant S_ .f32 0x00000000#32),
    StableHlo.TRef.unary main_call26.cst main_call26.v0 (broadcastInDim S50000x128 ![] bcast_S_S50000x128),
    StableHlo.TRef.binary (.of main_v189 : StableHlo.TRef sig ⟨S50000x128, .f32⟩) main_call26.v0 main_call26.v1 maximumf,
    StableHlo.nullary main_cst_21 (constant S_ .f32 0x3DCCCCCD#32),
    StableHlo.TRef.nullary main_call27.cst (constant S_ .f32 0x00000000#32),
    StableHlo.TRef.unary main_call27.cst main_call27.v0 (broadcastInDim S50000x128 ![] bcast_S_S50000x128),
    StableHlo.TRef.binary (.of main_v190 : StableHlo.TRef sig ⟨S50000x128, .f32⟩) main_call27.v0 main_call27.v1 (cmpf .oge),
    StableHlo.TRef.unary (.of main_cst_21 : StableHlo.TRef sig ⟨S_, .f32⟩) main_call27.v2 id,
    StableHlo.TRef.unary main_call27.v2 main_call27.v3 (broadcastInDim S50000x128 ![] bcast_S_S50000x128),
    StableHlo.TRef.binary main_call27.v3 (.of main_v190 : StableHlo.TRef sig ⟨S50000x128, .f32⟩) main_call27.v4 mulf,
    StableHlo.TRef.ternary main_call27.v1 (.of main_v190 : StableHlo.TRef sig ⟨S50000x128, .f32⟩) main_call27.v4 main_call27.call0.v0 select,
    StableHlo.binary main_v173 main_v127 main_v192 (addf : (⟨S100000x128, .f32⟩ : BufTy).Contents (Elt F) → (⟨S100000x128, .f32⟩ : BufTy).Contents (Elt F) → (⟨S100000x128, .f32⟩ : BufTy).Contents (Elt F)),
    StableHlo.binary main_v192 main_v95 main_v193 (addf : (⟨S100000x128, .f32⟩ : BufTy).Contents (Elt F) → (⟨S100000x128, .f32⟩ : BufTy).Contents (Elt F) → (⟨S100000x128, .f32⟩ : BufTy).Contents (Elt F)),
    StableHlo.binary main_v191 main_v155 main_v194 (addf : (⟨S50000x128, .f32⟩ : BufTy).Contents (Elt F) → (⟨S50000x128, .f32⟩ : BufTy).Contents (Elt F) → (⟨S50000x128, .f32⟩ : BufTy).Contents (Elt F)),
    StableHlo.binary main_v194 main_v97 main_v195 (addf : (⟨S50000x128, .f32⟩ : BufTy).Contents (Elt F) → (⟨S50000x128, .f32⟩ : BufTy).Contents (Elt F) → (⟨S50000x128, .f32⟩ : BufTy).Contents (Elt F)),
    StableHlo.binary main_v98 main_v193 main_v196 (addf : (⟨S100000x128, .f32⟩ : BufTy).Contents (Elt F) → (⟨S100000x128, .f32⟩ : BufTy).Contents (Elt F) → (⟨S100000x128, .f32⟩ : BufTy).Contents (Elt F)),
    StableHlo.binary main_v99 main_v195 main_v197 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The window is that straight line: unfolding a called function at its call is the substitution of its
    operations, and sequencing in the free monad re-associates by computation. -/
theorem main_part3_eq (c : Dev nD) : main_part3 (F := F) c = seq ops3 := rfl

set_option maxRecDepth 8192 in
/-- Every operation of the list touches TensorCore references only. -/
theorem ops3_sub : (ops3 : List (HloOp τ sig (Elt F))).Forall fun op => op.bufs ⊆ tcRefs τ sig :=
  ⟨unary_bufs_sub .., binary_bufs_sub .., unary_bufs_sub .., binary_bufs_sub .., nullary_bufs_sub .., unary_bufs_sub ..,
    unary_bufs_sub .., ternary_bufs_sub .., unary_bufs_sub .., reshape_bufs_sub .., binary_bufs_sub .., nullary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., reshape_bufs_sub .., binary_bufs_sub .., nullary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..,
    binary_bufs_sub .., binary_bufs_sub .., binary_bufs_sub .., binary_bufs_sub ..⟩

/-- The buffers the list's operations write, in order: one each. -/
abbrev ops3_W : List (Ref sig .tc) :=
  [main_v162, main_v163, main_v164, main_v165, main_cst_16, main_v166, main_v167, main_v168,
    main_v169, main_v170, main_v171, main_call24.cst.ref, main_call24.v0.ref, main_call24.v1.ref, main_cst_17, main_call25.cst.ref,
    main_call25.v0.ref, main_call25.v1.ref, main_call25.v2.ref, main_call25.v3.ref, main_call25.v4.ref, main_call25.call0.v0.ref, main_v174, main_c_18,
    main_v175, main_v176, main_c_19, main_v177, main_v178, main_v179, main_v180, main_v181,
    main_v182, main_v183, main_cst_20, main_v184, main_v185, main_v186, main_v187, main_v188,
    main_v189, main_call26.cst.ref, main_call26.v0.ref, main_call26.v1.ref, main_cst_21, main_call27.cst.ref, main_call27.v0.ref, main_call27.v1.ref,
    main_call27.v2.ref, main_call27.v3.ref, main_call27.v4.ref, main_call27.call0.v0.ref, main_v192, main_v193, main_v194, main_v195,
    main_v196, main_v197]

set_option maxRecDepth 8192 in
/-- Each operation of the list writes the one buffer listed for it. -/
theorem ops3_writes : (ops3 : List (HloOp τ sig (Elt F))).Forall fun op =>
    op.writes ⊆ (ops3_W.map (Proc.devRef (τ := τ) .tc)).toFinset :=
  ⟨writes_sub main_v162 (by decide), writes_sub main_v163 (by decide), writes_sub main_v164 (by decide), writes_sub main_v165 (by decide),
    writes_sub main_cst_16 (by decide), writes_sub main_v166 (by decide), writes_sub main_v167 (by decide), writes_sub main_v168 (by decide),
    writes_sub main_v169 (by decide), writes_sub main_v170 (by decide), writes_sub main_v171 (by decide), writes_sub (main_call24.cst.ref) (by decide),
    writes_sub (main_call24.v0.ref) (by decide), writes_sub (main_call24.v1.ref) (by decide), writes_sub main_cst_17 (by decide), writes_sub (main_call25.cst.ref) (by decide),
    writes_sub (main_call25.v0.ref) (by decide), writes_sub (main_call25.v1.ref) (by decide), writes_sub (main_call25.v2.ref) (by decide), writes_sub (main_call25.v3.ref) (by decide),
    writes_sub (main_call25.v4.ref) (by decide), writes_sub (main_call25.call0.v0.ref) (by decide), writes_sub main_v174 (by decide), writes_sub main_c_18 (by decide),
    writes_sub main_v175 (by decide), writes_sub main_v176 (by decide), writes_sub main_c_19 (by decide), writes_sub main_v177 (by decide),
    writes_sub main_v178 (by decide), writes_sub main_v179 (by decide), writes_sub main_v180 (by decide), writes_sub main_v181 (by decide),
    writes_sub main_v182 (by decide), writes_sub main_v183 (by decide), writes_sub main_cst_20 (by decide), writes_sub main_v184 (by decide),
    writes_sub main_v185 (by decide), writes_sub main_v186 (by decide), writes_sub main_v187 (by decide), writes_sub main_v188 (by decide),
    writes_sub main_v189 (by decide), writes_sub (main_call26.cst.ref) (by decide), writes_sub (main_call26.v0.ref) (by decide), writes_sub (main_call26.v1.ref) (by decide),
    writes_sub main_cst_21 (by decide), writes_sub (main_call27.cst.ref) (by decide), writes_sub (main_call27.v0.ref) (by decide), writes_sub (main_call27.v1.ref) (by decide),
    writes_sub (main_call27.v2.ref) (by decide), writes_sub (main_call27.v3.ref) (by decide), writes_sub (main_call27.v4.ref) (by decide), writes_sub (main_call27.call0.v0.ref) (by decide),
    writes_sub main_v192 (by decide), writes_sub main_v193 (by decide), writes_sub main_v194 (by decide), writes_sub main_v195 (by decide),
    writes_sub main_v196 (by decide), writes_sub main_v197 (by decide)⟩

/-- A buffer none of the list's operations writes keeps its contents through the list. -/
theorem ops3_keep (V : Valuation τ sig (Elt F)) (r : Ref sig .tc) (h : r ∉ ops3_W) :
    after ops3 V (Proc.devRef .tc r) = V (Proc.devRef .tc r) :=
  after_of_writes_sub ops3 V ops3_writes h

set_option maxRecDepth 8192 in
/-- Every operation of the list determines its results: none allocates a buffer of unchosen contents. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

end Cert.ReferenceIdeal.RefRun

end
-- ==== Proof.RefRun.lean ====
import proofs.«140582_j49512382988743_1_alg».proof.Proof.RefRun0
import proofs.«140582_j49512382988743_1_alg».proof.Proof.RefRun1
import proofs.«140582_j49512382988743_1_alg».proof.Proof.RefRun2
import proofs.«140582_j49512382988743_1_alg».proof.Proof.RefRun3
import proofs.«140582_j49512382988743_1_alg».proof.Proof.Gen.Pre_finite_inputs
import proofs.«140582_j49512382988743_1_alg».proof.Defs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 326 operations, in order: the four windows' lists one after the other (a called function's
    operations stand in its call's place). -/
abbrev ops : List (HloOp τ sig (Elt F)) :=
  ops0 ++ (ops1 ++ (ops2 ++ ops3))

/-- @main runs its four windows in order, each window is its list run as a straight line, and lines run one
    after the other are their concatenation run as one. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its results: window by window. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- The contents after all the operations are the contents after the four windows in turn. -/
theorem after_ops (V : Valuation τ sig (Elt F)) :
    after ops V = after ops3 (after ops2 (after ops1 (after ops0 V))) := by
  show after (ops0 ++ (ops1 ++ (ops2 ++ ops3))) V = _
  rw [after_append, after_append, after_append]

/-- A buffer no operation of any window writes keeps its contents through @main. -/
theorem ops_keep (V : Valuation τ sig (Elt F)) (r : Ref sig .tc) (h0 : r ∉ ops0_W) (h1 : r ∉ ops1_W)
    (h2 : r ∉ ops2_W) (h3 : r ∉ ops3_W) : after ops V (Proc.devRef .tc r) = V (Proc.devRef .tc r) := by
  rw [after_ops, ops3_keep _ r h3, ops2_keep _ r h2, ops1_keep _ r h1, ops0_keep _ r h0]

/-- On every device, for any float values, from any memory with zero counters: every weakly fair execution of
    @main terminates with each result buffer at the operations' fold over the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v196) = after ops (launchContents m c) (Proc.devRef .tc main_v196)
      ∧ r.2.mem ((c.tc : Thread nD τ).loc main_v197) = after ops (launchContents m c) (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v196, h c main_v197,
      (h c main_arg0).trans (ops_keep (launchContents m c) main_arg0 (by decide) (by decide) (by decide) (by decide)),
      (h c main_arg1).trans (ops_keep (launchContents m c) main_arg1 (by decide) (by decide) (by decide) (by decide)),
      (h c main_arg2).trans (ops_keep (launchContents m c) main_arg2 (by decide) (by decide) (by decide) (by decide)),
      (h c main_arg3).trans (ops_keep (launchContents m c) main_arg3 (by decide) (by decide) (by decide) (by decide)),
      (h c main_arg4).trans (ops_keep (launchContents m c) main_arg4 (by decide) (by decide) (by decide) (by decide)),
      (h c main_arg5).trans (ops_keep (launchContents m c) main_arg5 (by decide) (by decide) (by decide) (by decide)),
      (h c main_arg6).trans (ops_keep (launchContents m c) main_arg6 (by decide) (by decide) (by decide) (by decide)),
      (h c main_arg7).trans (ops_keep (launchContents m c) main_arg7 (by decide) (by decide) (by decide) (by decide)),
      (h c main_arg8).trans (ops_keep (launchContents m c) main_arg8 (by decide) (by decide) (by decide) (by decide)),
      (h c main_arg9).trans (ops_keep (launchContents m c) main_arg9 (by decide) (by decide) (by decide) (by decide)),
      (h c main_arg10).trans (ops_keep (launchContents m c) main_arg10 (by decide) (by decide) (by decide) (by decide))⟩)
    (run_seq scopedRefs_eq scopedSems_eq defs main (fun _ => ops) main_eq (fun _ => ops_sub) m ρ (fun _ => ops_fresh))

/-- The reference, idealized, runs and leaves its argument arrays unchanged. -/
theorem frame_ri : Cert.frame_ReferenceIdeal := fun m ρ _ =>
  (θ_run defs _ _).mono (fun _ h c => (h c).2.2) (run (F := Ideal) m ρ)

end Cert.ReferenceIdeal.RefRun

end
-- ==== Proof.RefVal.lean ====
import proofs.«140582_j49512382988743_1_alg».proof.Proof.RefRun
import proofs.«140582_j49512382988743_1_alg».proof.Proof.Spec

noncomputable section

namespace Cert.ReferenceIdeal.RefVal

open Cert.ReferenceIdeal Cert.ReferenceIdeal.Gen Idealize.ShloMosaic Idealize.ShloMosaic.TcCoe Idealize.SL.Sem Idealize.ShloMosaic.StableHlo
open Cert.ReferenceIdeal.RefRun

/-! ## The specification's stages at any float values

The same stages as the specification's, word for word, over any float values `F`: the reference's buffers are read
against these (no float operation has anything to unfold at a variable `F`), and at the extended reals they are the
specification's own by unfolding. -/

namespace G

variable {F : FTy → Type} [FloatOps F]

local notation "𝕌" => FVec F S100000x128 FTy.f32
local notation "𝕀" => FVec F S50000x128 FTy.f32
local notation "ℍ" => FVec F S128x128 FTy.f32
local notation "𝔼" => FVec F S1600000 FTy.f32
local notation "ℕ𝔼" => IVec S1600000 32

/-! ## The pointwise activations

`lrelu y = if y ≥ 0 then y else 0.1 · y` and `relu y = max y 0`, each at the three array shapes, the
scalars `0` and `0.1` (the f32 word `0x3DCCCCCD`) broadcast to the array's shape. -/

/-- Leaky rectifier with slope 0.1 on a 128×128 array. -/
def lreluS128 (y : ℍ) : ℍ :=
  select (cmpf (F := F) .oge y (broadcastInDim S128x128 ![] bcast_S_S128x128 (constant (F := F) S_ .f32 0x00000000#32)))
    y (mulf (F := F) (broadcastInDim S128x128 ![] bcast_S_S128x128 (constant (F := F) S_ .f32 0x3DCCCCCD#32)) y)

/-- Leaky rectifier with slope 0.1 on a 100000×128 array. -/
def lreluU (y : 𝕌) : 𝕌 :=
  select (cmpf (F := F) .oge y (broadcastInDim S100000x128 ![] bcast_S_S100000x128 (constant (F := F) S_ .f32 0x00000000#32)))
    y (mulf (F := F) (broadcastInDim S100000x128 ![] bcast_S_S100000x128 (constant (F := F) S_ .f32 0x3DCCCCCD#32)) y)

/-- Leaky rectifier with slope 0.1 on a 50000×128 array. -/
def lreluI (y : 𝕀) : 𝕀 :=
  select (cmpf (F := F) .oge y (broadcastInDim S50000x128 ![] bcast_S_S50000x128 (constant (F := F) S_ .f32 0x00000000#32)))
    y (mulf (F := F) (broadcastInDim S50000x128 ![] bcast_S_S50000x128 (constant (F := F) S_ .f32 0x3DCCCCCD#32)) y)

/-- Rectifier on a 128×128 array. -/
def reluS128 (y : ℍ) : ℍ :=
  maximumf (F := F) y (broadcastInDim S128x128 ![] bcast_S_S128x128 (constant (F := F) S_ .f32 0x00000000#32))

/-- Rectifier on a 100000×128 array. -/
def reluU (y : 𝕌) : 𝕌 :=
  maximumf (F := F) y (broadcastInDim S100000x128 ![] bcast_S_S100000x128 (constant (F := F) S_ .f32 0x00000000#32))

/-- Rectifier on a 50000×128 array. -/
def reluI (y : 𝕀) : 𝕀 :=
  maximumf (F := F) y (broadcastInDim S50000x128 ![] bcast_S_S50000x128 (constant (F := F) S_ .f32 0x00000000#32))

/-! ## The dense stages -/

/-- The hyper-adjacency of the first family: embeddings times the hyper matrix, `[100000,128] · [128,128]`. -/
def hyperU (u0 : 𝕌) (uh : ℍ) : 𝕌 :=
  Host.dotGeneral (F := F) dot_S100000x128_S128x128_S100000x128_1_0_0_1_n_n none u0 uh

/-- The hyper-adjacency of the second family, `[50000,128] · [128,128]`. -/
def hyperI (i0 : 𝕀) (ih : ℍ) : 𝕀 :=
  Host.dotGeneral (F := F) dot_S50000x128_S128x128_S50000x128_1_0_0_1_n_n none i0 ih

/-- The reduction `lrelu (adjᵀ · lats)`: `[128,100000] · [100000,128]`. -/
def redU (adj lats : 𝕌) : ℍ :=
  lreluS128 (Host.dotGeneral (F := F) dot_S128x100000_S100000x128_S128x128_1_0_0_1_n_n none
    (transpose S128x100000 [1, 0] adj transposes_S100000x128_S128x100000_1_0) lats)

/-- The reduction `lrelu (adjᵀ · lats)`: `[128,50000] · [50000,128]`. -/
def redI (adj lats : 𝕀) : ℍ :=
  lreluS128 (Host.dotGeneral (F := F) dot_S128x50000_S50000x128_S128x128_1_0_0_1_n_n none
    (transpose S128x50000 [1, 0] adj transposes_S50000x128_S128x50000_1_0) lats)

/-- Layer 0's three 128×128 matrices out of a `[2,3,128,128]` weight. -/
def wstack0 (W : FVec F S2x3x128x128 FTy.f32) : FVec F S3x128x128 FTy.f32 :=
  shapeCast S3x128x128 (extractStridedSlice S1x3x128x128 ![0, 0, 0, 0] W slices_S2x3x128x128_S1x3x128x128_0_0_0_0)
    shapeCasts_S1x3x128x128_S3x128x128

/-- Layer 1's three 128×128 matrices out of a `[2,3,128,128]` weight. -/
def wstack1 (W : FVec F S2x3x128x128 FTy.f32) : FVec F S3x128x128 FTy.f32 :=
  shapeCast S3x128x128 (extractStridedSlice S1x3x128x128 ![1, 0, 0, 0] W slices_S2x3x128x128_S1x3x128x128_1_0_0_0)
    shapeCasts_S1x3x128x128_S3x128x128

/-- Matrix 0 of a stack of three. -/
def wrow0 (W3 : FVec F S3x128x128 FTy.f32) : ℍ :=
  shapeCast S128x128 (extractStridedSlice S1x128x128 ![0, 0, 0] W3 slices_S3x128x128_S1x128x128_0_0_0) shapeCasts_S1x128x128_S128x128

/-- Matrix 1 of a stack of three. -/
def wrow1 (W3 : FVec F S3x128x128 FTy.f32) : ℍ :=
  shapeCast S128x128 (extractStridedSlice S1x128x128 ![1, 0, 0] W3 slices_S3x128x128_S1x128x128_1_0_0) shapeCasts_S1x128x128_S128x128

/-- Matrix 2 of a stack of three. -/
def wrow2 (W3 : FVec F S3x128x128 FTy.f32) : ℍ :=
  shapeCast S128x128 (extractStridedSlice S1x128x128 ![2, 0, 0] W3 slices_S3x128x128_S1x128x128_2_0_0) shapeCasts_S1x128x128_S128x128

/-- Layer 0's matrix out of a `[2,128,128]` weight. -/
def gslice0 (G : FVec F S2x128x128 FTy.f32) : ℍ :=
  shapeCast S128x128 (extractStridedSlice S1x128x128 ![0, 0, 0] G slices_S2x128x128_S1x128x128_0_0_0) shapeCasts_S1x128x128_S128x128

/-- Layer 1's matrix out of a `[2,128,128]` weight. -/
def gslice1 (G : FVec F S2x128x128 FTy.f32) : ℍ :=
  shapeCast S128x128 (extractStridedSlice S1x128x128 ![1, 0, 0] G slices_S2x128x128_S1x128x128_1_0_0) shapeCasts_S1x128x128_S128x128

/-- One residual block on the transposed latent: `(relu (latᵀ · w))ᵀ + lat`. -/
def fcStep (lat w : ℍ) : ℍ :=
  addf (F := F)
    (transpose S128x128 [1, 0]
      (reluS128 (Host.dotGeneral (F := F) dot_S128x128_S128x128_S128x128_1_0_0_1_n_n none
        (transpose S128x128 [1, 0] lat transposes_S128x128_S128x128_1_0) w))
      transposes_S128x128_S128x128_1_0)
    lat

/-- Three residual blocks in a row. -/
def fc3 (lat w0 w1 w2 : ℍ) : ℍ :=
  fcStep (fcStep (fcStep lat w0) w1) w2

/-- `lrelu (adj · lat)`: `[100000,128] · [128,128]`. -/
def fwdU (adj : 𝕌) (lat : ℍ) : 𝕌 :=
  lreluU (Host.dotGeneral (F := F) dot_S100000x128_S128x128_S100000x128_1_0_0_1_n_n none adj lat)

/-- `lrelu (adj · lat)`: `[50000,128] · [128,128]`. -/
def fwdI (adj : 𝕀) (lat : ℍ) : 𝕀 :=
  lreluI (Host.dotGeneral (F := F) dot_S50000x128_S128x128_S50000x128_1_0_0_1_n_n none adj lat)

/-- The hypergraph stage of the first family: reduce, three residual blocks, expand. -/
def hgnnU (adj lats : 𝕌) (W3 : FVec F S3x128x128 FTy.f32) : 𝕌 :=
  fwdU adj (fc3 (redU adj lats) (wrow0 W3) (wrow1 W3) (wrow2 W3))

/-- The hypergraph stage of the second family. -/
def hgnnI (adj lats : 𝕀) (W3 : FVec F S3x128x128 FTy.f32) : 𝕀 :=
  fwdI adj (fc3 (redI adj lats) (wrow0 W3) (wrow1 W3) (wrow2 W3))

/-! ## The sparse products

`spmmU vals rows cols x = Σ_e vals e · x[cols e]` accumulated at row `rows e` of a zero `[100000,128]` array
(a negative column index first wrapped by `+50000`), and `spmmI` the transposed product. -/

/-- The sparse adjacency times a `[50000,128]` array: gather by `cols`, weight by `vals`, add up by `rows`. -/
def spmmU (vals : 𝔼) (rows cols : ℕ𝔼) (x : 𝕀) : 𝕌 :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 rows)
    (mulf (F := F)
      (broadcastInDim S1600000x128 ![0, 1] bcast_S1600000x1_S1600000x128_0_1
        (broadcastInDim S1600000x1 ![0] bcast_S1600000_S1600000x1_0 vals))
      (Host.gather gather_S50000x128_S1600000x1_S1600000x128_1_0_n_n_0_1_1128 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 50000#32))) cols))))

/-- The transposed sparse adjacency times a `[100000,128]` array: gather by `rows`, weight by `vals`, add up by `cols`. -/
def spmmI (vals : 𝔼) (rows cols : ℕ𝔼) (x : 𝕌) : 𝕀 :=
  Host.scatterAdd (F := F) scatter_S50000x128_S1600000x1_S1600000x128_1_0_0_1
    (broadcastInDim S50000x128 ![] bcast_S_S50000x128 (constant (F := F) S_ .f32 0x00000000#32))
    (broadcastInDim S1600000x1 ![0] bcast_S1600000_S1600000x1_0 cols)
    (mulf (F := F)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 x
        (broadcastInDim S1600000x1 ![0] bcast_S1600000_S1600000x1_0
          (select (cmpi .slt rows (broadcastInDim S1600000 ![] bcast_S_S1600000 (constantI S_ 32 0#32)))
            (addi rows (broadcastInDim S1600000 ![] bcast_S_S1600000 (constantI S_ 32 100000#32))) rows))))

/-- The graph-convolution stage of the first family: `lrelu (relu (s · w))`. -/
def gcnU (s : 𝕌) (w : ℍ) : 𝕌 :=
  lreluU (reluU (Host.dotGeneral (F := F) dot_S100000x128_S128x128_S100000x128_1_0_0_1_n_n none s w))

/-- The graph-convolution stage of the second family. -/
def gcnI (s : 𝕀) (w : ℍ) : 𝕀 :=
  lreluI (reluI (Host.dotGeneral (F := F) dot_S50000x128_S128x128_S50000x128_1_0_0_1_n_n none s w))

/-! ## The two layers over the eleven arguments

`a0, a1` the embeddings, `a2, a3` the hyper matrices, `a4` the edge weights, `a5, a6` the residual blocks' weights,
`a7, a8` the convolutions' weights, `a9` the edges' rows, `a10` their columns. Layer `l` takes `ulat l, ilat l`
(`ulat 0 = a0`, `ilat 0 = a1`) to `ulat (l+1) = (gU l + hU l) + ulat l` and likewise `ilat (l+1)`; the results are
`a0 + ulat 1 + ulat 2` and `a1 + ilat 1 + ilat 2`. Every stage below is a function of all eleven arguments, in this order. -/

section Layers

/-- `a0 · a2`. -/
def uuHyper (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := hyperU a0 a2
/-- `a1 · a3`. -/
def iiHyper (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := hyperI a1 a3

/-- Layer 0, hypergraph stage, first family. -/
def hU0 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := hgnnU (uuHyper a0 a1 a2 a3 a4 a5 a6 a7 a8 a9 a10) a0 (wstack0 a5)
/-- Layer 0, hypergraph stage, second family. -/
def hI0 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := hgnnI (iiHyper a0 a1 a2 a3 a4 a5 a6 a7 a8 a9 a10) a1 (wstack0 a6)
/-- Layer 0, graph convolution, first family. -/
def gU0 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := gcnU (spmmU a4 a9 a10 a1) (gslice0 a7)
/-- Layer 0, graph convolution, second family. -/
def gI0 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := gcnI (spmmI a4 a9 a10 a0) (gslice0 a8)
/-- `ulat 1 = (gU 0 + hU 0) + a0`. -/
def ulat1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := addf (F := F) (addf (F := F) (gU0 a0 a1 a2 a3 a4 a5 a6 a7 a8 a9 a10) (hU0 a0 a1 a2 a3 a4 a5 a6 a7 a8 a9 a10)) a0
/-- `ilat 1 = (gI 0 + hI 0) + a1`. -/
def ilat1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := addf (F := F) (addf (F := F) (gI0 a0 a1 a2 a3 a4 a5 a6 a7 a8 a9 a10) (hI0 a0 a1 a2 a3 a4 a5 a6 a7 a8 a9 a10)) a1
/-- `a0 + ulat 1`. -/
def uSum1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := addf (F := F) a0 (ulat1 a0 a1 a2 a3 a4 a5 a6 a7 a8 a9 a10)
/-- `a1 + ilat 1`. -/
def iSum1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := addf (F := F) a1 (ilat1 a0 a1 a2 a3 a4 a5 a6 a7 a8 a9 a10)

/-- Layer 1, hypergraph stage, first family. -/
def hU1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := hgnnU (uuHyper a0 a1 a2 a3 a4 a5 a6 a7 a8 a9 a10) (ulat1 a0 a1 a2 a3 a4 a5 a6 a7 a8 a9 a10) (wstack1 a5)
/-- Layer 1, hypergraph stage, second family. -/
def hI1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := hgnnI (iiHyper a0 a1 a2 a3 a4 a5 a6 a7 a8 a9 a10) (ilat1 a0 a1 a2 a3 a4 a5 a6 a7 a8 a9 a10) (wstack1 a6)
/-- Layer 1, graph convolution, first family. -/
def gU1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := gcnU (spmmU a4 a9 a10 (ilat1 a0 a1 a2 a3 a4 a5 a6 a7 a8 a9 a10)) (gslice1 a7)
/-- Layer 1, graph convolution, second family. -/
def gI1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := gcnI (spmmI a4 a9 a10 (ulat1 a0 a1 a2 a3 a4 a5 a6 a7 a8 a9 a10)) (gslice1 a8)
/-- `ulat 2 = (gU 1 + hU 1) + ulat 1`. -/
def ulat2 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := addf (F := F) (addf (F := F) (gU1 a0 a1 a2 a3 a4 a5 a6 a7 a8 a9 a10) (hU1 a0 a1 a2 a3 a4 a5 a6 a7 a8 a9 a10)) (ulat1 a0 a1 a2 a3 a4 a5 a6 a7 a8 a9 a10)
/-- `ilat 2 = (gI 1 + hI 1) + ilat 1`. -/
def ilat2 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := addf (F := F) (addf (F := F) (gI1 a0 a1 a2 a3 a4 a5 a6 a7 a8 a9 a10) (hI1 a0 a1 a2 a3 a4 a5 a6 a7 a8 a9 a10)) (ilat1 a0 a1 a2 a3 a4 a5 a6 a7 a8 a9 a10)

/-- The first result: `(a0 + ulat 1) + ulat 2`. -/
def out0 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕌 := addf (F := F) (uSum1 a0 a1 a2 a3 a4 a5 a6 a7 a8 a9 a10) (ulat2 a0 a1 a2 a3 a4 a5 a6 a7 a8 a9 a10)
/-- The second result: `(a1 + ilat 1) + ilat 2`. -/
def out1 (a0 : 𝕌) (a1 : 𝕀) (a2 a3 : ℍ) (a4 : 𝔼) (a5 a6 : FVec F S2x3x128x128 FTy.f32)
    (a7 a8 : FVec F S2x128x128 FTy.f32) (a9 a10 : ℕ𝔼) : 𝕀 := addf (F := F) (iSum1 a0 a1 a2 a3 a4 a5 a6 a7 a8 a9 a10) (ilat2 a0 a1 a2 a3 a4 a5 a6 a7 a8 a9 a10)

end Layers

end G

variable {F : FTy → Type} [FloatOps F]

/-! ## The buffers, window by window -/

/-- The device's buffer contents after the first window. -/
def val1 (V0 : Valuation τ sig (Elt F)) : Valuation τ sig (Elt F) := after ops0 V0
/-- The device's buffer contents after the first two windows. -/
def val2 (V0 : Valuation τ sig (Elt F)) : Valuation τ sig (Elt F) := after ops1 (val1 V0)
/-- The device's buffer contents after the first three windows. -/
def val3 (V0 : Valuation τ sig (Elt F)) : Valuation τ sig (Elt F) := after ops2 (val2 V0)
/-- The device's buffer contents after all four windows. -/
def val4 (V0 : Valuation τ sig (Elt F)) : Valuation τ sig (Elt F) := after ops3 (val3 V0)

/-! ### After the first window -/

theorem val1_arg0 (V0 : Valuation τ sig (Elt F)) :
    val1 V0 (no_index (Proc.devRef .tc main_arg0)) = V0 (Proc.devRef .tc main_arg0) :=
  ops0_keep V0 main_arg0 (by decide)
theorem val1_arg1 (V0 : Valuation τ sig (Elt F)) :
    val1 V0 (no_index (Proc.devRef .tc main_arg1)) = V0 (Proc.devRef .tc main_arg1) :=
  ops0_keep V0 main_arg1 (by decide)
theorem val1_arg2 (V0 : Valuation τ sig (Elt F)) :
    val1 V0 (no_index (Proc.devRef .tc main_arg2)) = V0 (Proc.devRef .tc main_arg2) :=
  ops0_keep V0 main_arg2 (by decide)
theorem val1_arg3 (V0 : Valuation τ sig (Elt F)) :
    val1 V0 (no_index (Proc.devRef .tc main_arg3)) = V0 (Proc.devRef .tc main_arg3) :=
  ops0_keep V0 main_arg3 (by decide)
theorem val1_arg4 (V0 : Valuation τ sig (Elt F)) :
    val1 V0 (no_index (Proc.devRef .tc main_arg4)) = V0 (Proc.devRef .tc main_arg4) :=
  ops0_keep V0 main_arg4 (by decide)
theorem val1_arg5 (V0 : Valuation τ sig (Elt F)) :
    val1 V0 (no_index (Proc.devRef .tc main_arg5)) = V0 (Proc.devRef .tc main_arg5) :=
  ops0_keep V0 main_arg5 (by decide)
theorem val1_arg6 (V0 : Valuation τ sig (Elt F)) :
    val1 V0 (no_index (Proc.devRef .tc main_arg6)) = V0 (Proc.devRef .tc main_arg6) :=
  ops0_keep V0 main_arg6 (by decide)
theorem val1_arg7 (V0 : Valuation τ sig (Elt F)) :
    val1 V0 (no_index (Proc.devRef .tc main_arg7)) = V0 (Proc.devRef .tc main_arg7) :=
  ops0_keep V0 main_arg7 (by decide)
theorem val1_arg8 (V0 : Valuation τ sig (Elt F)) :
    val1 V0 (no_index (Proc.devRef .tc main_arg8)) = V0 (Proc.devRef .tc main_arg8) :=
  ops0_keep V0 main_arg8 (by decide)
theorem val1_arg9 (V0 : Valuation τ sig (Elt F)) :
    val1 V0 (no_index (Proc.devRef .tc main_arg9)) = V0 (Proc.devRef .tc main_arg9) :=
  ops0_keep V0 main_arg9 (by decide)
theorem val1_arg10 (V0 : Valuation τ sig (Elt F)) :
    val1 V0 (no_index (Proc.devRef .tc main_arg10)) = V0 (Proc.devRef .tc main_arg10) :=
  ops0_keep V0 main_arg10 (by decide)

set_option maxRecDepth 200000 in
set_option maxHeartbeats 4000000 in
theorem val1_v0 (V0 : Valuation τ sig (Elt F)) :
    val1 V0 (no_index (Proc.devRef .tc main_v0)) = G.uuHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val1
  simp only [ops0]
  after_results_simp
  all_goals rfl

set_option maxRecDepth 200000 in
set_option maxHeartbeats 4000000 in
theorem val1_v1 (V0 : Valuation τ sig (Elt F)) :
    val1 V0 (no_index (Proc.devRef .tc main_v1)) = G.iiHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val1
  simp only [ops0]
  after_results_simp
  all_goals rfl

set_option maxRecDepth 200000 in
set_option maxHeartbeats 4000000 in
theorem val1_v29 (V0 : Valuation τ sig (Elt F)) :
    val1 V0 (no_index (Proc.devRef .tc main_v29)) = G.hU0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val1
  simp only [ops0]
  after_results_simp
  all_goals rfl

set_option maxRecDepth 200000 in
set_option maxHeartbeats 4000000 in
theorem val1_v56 (V0 : Valuation τ sig (Elt F)) :
    val1 V0 (no_index (Proc.devRef .tc main_v56)) = Host.dotGeneral (F := F) dot_S50000x128_S128x128_S50000x128_1_0_0_1_n_n none (G.iiHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)))
      (G.fc3 (G.redI (G.iiHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1))) (G.wrow0 (G.wstack0 (V0 (Proc.devRef .tc main_arg6)))) (G.wrow1 (G.wstack0 (V0 (Proc.devRef .tc main_arg6)))) (G.wrow2 (G.wstack0 (V0 (Proc.devRef .tc main_arg6))))) := by
  unfold val1
  simp only [ops0]
  after_results_simp
  all_goals rfl

/-! ## After the second window -/

theorem val2_arg0 (V0 : Valuation τ sig (Elt F)) :
    val2 V0 (no_index (Proc.devRef .tc main_arg0)) = V0 (Proc.devRef .tc main_arg0) :=
  (ops1_keep (val1 V0) main_arg0 (by decide)).trans (val1_arg0 V0)
theorem val2_arg1 (V0 : Valuation τ sig (Elt F)) :
    val2 V0 (no_index (Proc.devRef .tc main_arg1)) = V0 (Proc.devRef .tc main_arg1) :=
  (ops1_keep (val1 V0) main_arg1 (by decide)).trans (val1_arg1 V0)
theorem val2_arg2 (V0 : Valuation τ sig (Elt F)) :
    val2 V0 (no_index (Proc.devRef .tc main_arg2)) = V0 (Proc.devRef .tc main_arg2) :=
  (ops1_keep (val1 V0) main_arg2 (by decide)).trans (val1_arg2 V0)
theorem val2_arg3 (V0 : Valuation τ sig (Elt F)) :
    val2 V0 (no_index (Proc.devRef .tc main_arg3)) = V0 (Proc.devRef .tc main_arg3) :=
  (ops1_keep (val1 V0) main_arg3 (by decide)).trans (val1_arg3 V0)
theorem val2_arg4 (V0 : Valuation τ sig (Elt F)) :
    val2 V0 (no_index (Proc.devRef .tc main_arg4)) = V0 (Proc.devRef .tc main_arg4) :=
  (ops1_keep (val1 V0) main_arg4 (by decide)).trans (val1_arg4 V0)
theorem val2_arg5 (V0 : Valuation τ sig (Elt F)) :
    val2 V0 (no_index (Proc.devRef .tc main_arg5)) = V0 (Proc.devRef .tc main_arg5) :=
  (ops1_keep (val1 V0) main_arg5 (by decide)).trans (val1_arg5 V0)
theorem val2_arg6 (V0 : Valuation τ sig (Elt F)) :
    val2 V0 (no_index (Proc.devRef .tc main_arg6)) = V0 (Proc.devRef .tc main_arg6) :=
  (ops1_keep (val1 V0) main_arg6 (by decide)).trans (val1_arg6 V0)
theorem val2_arg7 (V0 : Valuation τ sig (Elt F)) :
    val2 V0 (no_index (Proc.devRef .tc main_arg7)) = V0 (Proc.devRef .tc main_arg7) :=
  (ops1_keep (val1 V0) main_arg7 (by decide)).trans (val1_arg7 V0)
theorem val2_arg8 (V0 : Valuation τ sig (Elt F)) :
    val2 V0 (no_index (Proc.devRef .tc main_arg8)) = V0 (Proc.devRef .tc main_arg8) :=
  (ops1_keep (val1 V0) main_arg8 (by decide)).trans (val1_arg8 V0)
theorem val2_arg9 (V0 : Valuation τ sig (Elt F)) :
    val2 V0 (no_index (Proc.devRef .tc main_arg9)) = V0 (Proc.devRef .tc main_arg9) :=
  (ops1_keep (val1 V0) main_arg9 (by decide)).trans (val1_arg9 V0)
theorem val2_arg10 (V0 : Valuation τ sig (Elt F)) :
    val2 V0 (no_index (Proc.devRef .tc main_arg10)) = V0 (Proc.devRef .tc main_arg10) :=
  (ops1_keep (val1 V0) main_arg10 (by decide)).trans (val1_arg10 V0)
theorem val2_v0 (V0 : Valuation τ sig (Elt F)) :
    val2 V0 (no_index (Proc.devRef .tc main_v0)) = G.uuHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops1_keep (val1 V0) main_v0 (by decide)).trans (val1_v0 V0)
theorem val2_v1 (V0 : Valuation τ sig (Elt F)) :
    val2 V0 (no_index (Proc.devRef .tc main_v1)) = G.iiHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops1_keep (val1 V0) main_v1 (by decide)).trans (val1_v1 V0)

set_option maxRecDepth 200000 in
set_option maxHeartbeats 4000000 in
theorem val2_v95 (V0 : Valuation τ sig (Elt F)) :
    val2 V0 (no_index (Proc.devRef .tc main_v95)) = G.ulat1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v97 (V0 : Valuation τ sig (Elt F)) :
    val2 V0 (no_index (Proc.devRef .tc main_v97)) = G.ilat1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v98 (V0 : Valuation τ sig (Elt F)) :
    val2 V0 (no_index (Proc.devRef .tc main_v98)) = G.uSum1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v99 (V0 : Valuation τ sig (Elt F)) :
    val2 V0 (no_index (Proc.devRef .tc main_v99)) = G.iSum1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v101 (V0 : Valuation τ sig (Elt F)) :
    val2 V0 (no_index (Proc.devRef .tc main_v101)) = G.wstack1 (V0 (Proc.devRef .tc main_arg5)) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v104 (V0 : Valuation τ sig (Elt F)) :
    val2 V0 (no_index (Proc.devRef .tc main_v104)) = G.redU (G.uuHyper (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (G.ulat1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

set_option maxRecDepth 200000 in
set_option maxHeartbeats 4000000 in
theorem val2_v106 (V0 : Valuation τ sig (Elt F)) :
    val2 V0 (no_index (Proc.devRef .tc main_v106)) = G.wrow0 (G.wstack1 (V0 (Proc.devRef .tc main_arg5))) := by
  unfold val2
  simp only [ops1]
  after_results_simp
  simp only [val1_v0, val1_v1, val1_v29, val1_v56, val1_arg0, val1_arg1, val1_arg2, val1_arg3, val1_arg4, val1_arg5, val1_arg6, val1_arg7, val1_arg8, val1_arg9, val1_arg10]
  all_goals rfl

/-! ## After the third window -/

theorem val3_arg0 (V0 : Valuation τ sig (Elt F)) :
    val3 V0 (no_index (Proc.devRef .tc main_arg0)) = V0 (Proc.devRef .tc main_arg0) :=
  (ops2_keep (val2 V0) main_arg0 (by decide)).trans (val2_arg0 V0)
theorem val3_arg1 (V0 : Valuation τ sig (Elt F)) :
    val3 V0 (no_index (Proc.devRef .tc main_arg1)) = V0 (Proc.devRef .tc main_arg1) :=
  (ops2_keep (val2 V0) main_arg1 (by decide)).trans (val2_arg1 V0)
theorem val3_arg2 (V0 : Valuation τ sig (Elt F)) :
    val3 V0 (no_index (Proc.devRef .tc main_arg2)) = V0 (Proc.devRef .tc main_arg2) :=
  (ops2_keep (val2 V0) main_arg2 (by decide)).trans (val2_arg2 V0)
theorem val3_arg3 (V0 : Valuation τ sig (Elt F)) :
    val3 V0 (no_index (Proc.devRef .tc main_arg3)) = V0 (Proc.devRef .tc main_arg3) :=
  (ops2_keep (val2 V0) main_arg3 (by decide)).trans (val2_arg3 V0)
theorem val3_arg4 (V0 : Valuation τ sig (Elt F)) :
    val3 V0 (no_index (Proc.devRef .tc main_arg4)) = V0 (Proc.devRef .tc main_arg4) :=
  (ops2_keep (val2 V0) main_arg4 (by decide)).trans (val2_arg4 V0)
theorem val3_arg5 (V0 : Valuation τ sig (Elt F)) :
    val3 V0 (no_index (Proc.devRef .tc main_arg5)) = V0 (Proc.devRef .tc main_arg5) :=
  (ops2_keep (val2 V0) main_arg5 (by decide)).trans (val2_arg5 V0)
theorem val3_arg6 (V0 : Valuation τ sig (Elt F)) :
    val3 V0 (no_index (Proc.devRef .tc main_arg6)) = V0 (Proc.devRef .tc main_arg6) :=
  (ops2_keep (val2 V0) main_arg6 (by decide)).trans (val2_arg6 V0)
theorem val3_arg7 (V0 : Valuation τ sig (Elt F)) :
    val3 V0 (no_index (Proc.devRef .tc main_arg7)) = V0 (Proc.devRef .tc main_arg7) :=
  (ops2_keep (val2 V0) main_arg7 (by decide)).trans (val2_arg7 V0)
theorem val3_arg8 (V0 : Valuation τ sig (Elt F)) :
    val3 V0 (no_index (Proc.devRef .tc main_arg8)) = V0 (Proc.devRef .tc main_arg8) :=
  (ops2_keep (val2 V0) main_arg8 (by decide)).trans (val2_arg8 V0)
theorem val3_arg9 (V0 : Valuation τ sig (Elt F)) :
    val3 V0 (no_index (Proc.devRef .tc main_arg9)) = V0 (Proc.devRef .tc main_arg9) :=
  (ops2_keep (val2 V0) main_arg9 (by decide)).trans (val2_arg9 V0)
theorem val3_arg10 (V0 : Valuation τ sig (Elt F)) :
    val3 V0 (no_index (Proc.devRef .tc main_arg10)) = V0 (Proc.devRef .tc main_arg10) :=
  (ops2_keep (val2 V0) main_arg10 (by decide)).trans (val2_arg10 V0)
theorem val3_v95 (V0 : Valuation τ sig (Elt F)) :
    val3 V0 (no_index (Proc.devRef .tc main_v95)) = G.ulat1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops2_keep (val2 V0) main_v95 (by decide)).trans (val2_v95 V0)
theorem val3_v97 (V0 : Valuation τ sig (Elt F)) :
    val3 V0 (no_index (Proc.devRef .tc main_v97)) = G.ilat1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops2_keep (val2 V0) main_v97 (by decide)).trans (val2_v97 V0)
theorem val3_v98 (V0 : Valuation τ sig (Elt F)) :
    val3 V0 (no_index (Proc.devRef .tc main_v98)) = G.uSum1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops2_keep (val2 V0) main_v98 (by decide)).trans (val2_v98 V0)
theorem val3_v99 (V0 : Valuation τ sig (Elt F)) :
    val3 V0 (no_index (Proc.devRef .tc main_v99)) = G.iSum1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (ops2_keep (val2 V0) main_v99 (by decide)).trans (val2_v99 V0)

set_option maxRecDepth 200000 in
set_option maxHeartbeats 4000000 in
theorem val3_v127 (V0 : Valuation τ sig (Elt F)) :
    val3 V0 (no_index (Proc.devRef .tc main_v127)) = G.hU1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  simp only [ops2]
  after_results_simp
  simp only [val2_v0, val2_v1, val2_v95, val2_v97, val2_v98, val2_v99, val2_v101, val2_v104, val2_v106, val2_arg0, val2_arg1, val2_arg2, val2_arg3, val2_arg4, val2_arg5, val2_arg6, val2_arg7, val2_arg8, val2_arg9, val2_arg10]
  all_goals rfl

set_option maxRecDepth 200000 in
set_option maxHeartbeats 4000000 in
theorem val3_v155 (V0 : Valuation τ sig (Elt F)) :
    val3 V0 (no_index (Proc.devRef .tc main_v155)) = G.hI1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  simp only [ops2]
  after_results_simp
  simp only [val2_v0, val2_v1, val2_v95, val2_v97, val2_v98, val2_v99, val2_v101, val2_v104, val2_v106, val2_arg0, val2_arg1, val2_arg2, val2_arg3, val2_arg4, val2_arg5, val2_arg6, val2_arg7, val2_arg8, val2_arg9, val2_arg10]
  all_goals rfl

set_option maxRecDepth 200000 in
set_option maxHeartbeats 4000000 in
theorem val3_v156 (V0 : Valuation τ sig (Elt F)) :
    val3 V0 (no_index (Proc.devRef .tc main_v156)) = broadcastInDim S1600000x1 ![0] bcast_S1600000_S1600000x1_0 (V0 (Proc.devRef .tc main_arg4)) := by
  unfold val3
  simp only [ops2]
  after_results_simp
  simp only [val2_v0, val2_v1, val2_v95, val2_v97, val2_v98, val2_v99, val2_v101, val2_v104, val2_v106, val2_arg0, val2_arg1, val2_arg2, val2_arg3, val2_arg4, val2_arg5, val2_arg6, val2_arg7, val2_arg8, val2_arg9, val2_arg10]
  all_goals rfl

set_option maxRecDepth 200000 in
set_option maxHeartbeats 4000000 in
theorem val3_v161 (V0 : Valuation τ sig (Elt F)) :
    val3 V0 (no_index (Proc.devRef .tc main_v161)) = select (cmpi .slt (V0 (Proc.devRef .tc main_arg10)) (broadcastInDim S1600000 ![] bcast_S_S1600000 (constantI S_ 32 0#32)))
      (addi (V0 (Proc.devRef .tc main_arg10)) (broadcastInDim S1600000 ![] bcast_S_S1600000 (constantI S_ 32 50000#32))) (V0 (Proc.devRef .tc main_arg10)) := by
  unfold val3
  simp only [ops2]
  after_results_simp
  simp only [val2_v0, val2_v1, val2_v95, val2_v97, val2_v98, val2_v99, val2_v101, val2_v104, val2_v106, val2_arg0, val2_arg1, val2_arg2, val2_arg3, val2_arg4, val2_arg5, val2_arg6, val2_arg7, val2_arg8, val2_arg9, val2_arg10]
  all_goals rfl

/-! ## After the fourth window: the results -/

set_option maxRecDepth 200000 in
set_option maxHeartbeats 4000000 in
theorem val4_v196 (V0 : Valuation τ sig (Elt F)) :
    val4 V0 (no_index (Proc.devRef .tc main_v196)) = G.out0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val4
  simp only [ops3]
  after_results_simp
  simp only [val3_v95, val3_v97, val3_v98, val3_v99, val3_v127, val3_v155, val3_v156, val3_v161, val3_arg0, val3_arg1, val3_arg2, val3_arg3, val3_arg4, val3_arg5, val3_arg6, val3_arg7, val3_arg8, val3_arg9, val3_arg10]
  all_goals rfl

set_option maxRecDepth 200000 in
set_option maxHeartbeats 4000000 in
theorem val4_v197 (V0 : Valuation τ sig (Elt F)) :
    val4 V0 (no_index (Proc.devRef .tc main_v197)) = G.out1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val4
  simp only [ops3]
  after_results_simp
  simp only [val3_v95, val3_v97, val3_v98, val3_v99, val3_v127, val3_v155, val3_v156, val3_v161, val3_arg0, val3_arg1, val3_arg2, val3_arg3, val3_arg4, val3_arg5, val3_arg6, val3_arg7, val3_arg8, val3_arg9, val3_arg10]
  all_goals rfl

/-- The contents after all of @main's operations are the contents after the four windows. -/
theorem after_ops_val (V0 : Valuation τ sig (Elt F)) : after ops V0 = val4 V0 := by
  rw [after_ops]; rfl

/-! ## At the extended reals: the specification -/

set_option maxRecDepth 200000 in
/-- The stages at the extended reals are the specification's, by unfolding. -/
theorem out0_spec (a0 : FVec Ideal S100000x128 FTy.f32) (a1 : FVec Ideal S50000x128 FTy.f32) (a2 a3 : FVec Ideal S128x128 FTy.f32)
    (a4 : FVec Ideal S1600000 FTy.f32) (a5 a6 : FVec Ideal S2x3x128x128 FTy.f32) (a7 a8 : FVec Ideal S2x128x128 FTy.f32) (a9 a10 : IVec S1600000 32) :
    G.out0 (F := Ideal) a0 a1 a2 a3 a4 a5 a6 a7 a8 a9 a10 = Spec.out0 a0 a1 a2 a3 a4 a5 a6 a7 a8 a9 a10 := rfl

set_option maxRecDepth 200000 in
theorem out1_spec (a0 : FVec Ideal S100000x128 FTy.f32) (a1 : FVec Ideal S50000x128 FTy.f32) (a2 a3 : FVec Ideal S128x128 FTy.f32)
    (a4 : FVec Ideal S1600000 FTy.f32) (a5 a6 : FVec Ideal S2x3x128x128 FTy.f32) (a7 a8 : FVec Ideal S2x128x128 FTy.f32) (a9 a10 : IVec S1600000 32) :
    G.out1 (F := Ideal) a0 a1 a2 a3 a4 a5 a6 a7 a8 a9 a10 = Spec.out1 a0 a1 a2 a3 a4 a5 a6 a7 a8 a9 a10 := rfl

/-- The reference's first result is the specification's first result of the launch contents' arguments. -/
theorem out0_eq (m : (ℓ : Loc nD τ sig) → Buf (Elt Ideal) ℓ) (c : Dev nD) :
    after ops (launchContents m c) (Proc.devRef .tc main_v196)
      = Spec.out0 (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  rw [after_ops_val]; exact (val4_v196 (launchContents m c)).trans (out0_spec ..)

/-- The reference's second result is the specification's second result of the launch contents' arguments. -/
theorem out1_eq (m : (ℓ : Loc nD τ sig) → Buf (Elt Ideal) ℓ) (c : Dev nD) :
    after ops (launchContents m c) (Proc.devRef .tc main_v197)
      = Spec.out1 (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  rw [after_ops_val]; exact (val4_v197 (launchContents m c)).trans (out1_spec ..)

end Cert.ReferenceIdeal.RefVal

end
-- ==== Proof.lean ====
/-
  The certificate: a two-layer hypergraph and graph-convolution network over user and item embeddings, computed by a
  program whose tall matrix products run as blocked kernels, against a plain array program.

  The kernel program is a run of fifty-one items, fourteen of them kernel regions. A dense region multiplies a row
  block of 5000 rows of x by the whole 128×128 matrix w and applies its activation (none, the leaky rectifier, or the
  rectifier then the leaky rectifier); its output array is, row by row, that function of x and w, because the row
  blocks tile the array and a block's rows are the array's rows at the block's offset. A reduction region adds, block
  after block, the products aᵀ·b of the two blocks' rows into an accumulator it clears at the first block, and applies
  the leaky rectifier at the last: sums over row blocks regroup freely on the extended reals, so the output is the
  leaky rectifier of the sum over all rows. At the ideal instance a change of float format is the identity, so the
  rounding to bf16 on the way into a product disappears, and each region's output is the reference's stage of the same
  two arrays — a matrix product, or a product with a transposed left factor, under the same activation. Between the
  regions both programs run the same host lines (the residual 128×128 blocks, the gather, scale and scatter-add of the
  sparse adjacency, the sums), so buffer by buffer the two programs hold one function of the eleven arguments, down to
  the two results. No finiteness is needed: only associativity and commutativity of addition are used.

  The frames: the kernel program's run (at any float instance) leaves every argument array as launched, no item writing
  one; the reference's is its operations' run with the results dropped. The idealization rewrote nothing.
-/
import proofs.«140582_j49512382988743_1_alg».proof.Defs
import proofs.«140582_j49512382988743_1_alg».proof.Proof.Gen.Kernel
import proofs.«140582_j49512382988743_1_alg».proof.Proof.Gen.KernelIdeal
import proofs.«140582_j49512382988743_1_alg».proof.Proof.Gen.ReferenceIdeal
import proofs.«140582_j49512382988743_1_alg».proof.Proof.Gen.Pre_finite_inputs
import proofs.«140582_j49512382988743_1_alg».proof.Proof.RunAll
import proofs.«140582_j49512382988743_1_alg».proof.Proof.WRunAll
import proofs.«140582_j49512382988743_1_alg».proof.Proof.KVal
import proofs.«140582_j49512382988743_1_alg».proof.Proof.RefRun
import proofs.«140582_j49512382988743_1_alg».proof.Proof.RefVal
import Idealize.ShloMosaic.Adequacy
import Idealize.ShloMosaic.Init

noncomputable section

namespace Cert.Proof

open Idealize.ShloMosaic Idealize.SL.Sem

/-- The word-level kernel program runs and leaves its arguments as launched. -/
theorem frame_p : Cert.frame_Kernel := fun m ρ _ => Cert.Kernel.Hand.frame_all (F := Bits) m ρ

/-- So does its idealization. -/
theorem frame_pi : Cert.frame_KernelIdeal := fun m ρ _ => Cert.KernelIdeal.Hand.frame_all (F := Ideal) m ρ

/-- The reference's frame is its run with the results dropped. -/
theorem frame_ri : Cert.frame_ReferenceIdeal := Cert.ReferenceIdeal.RefRun.frame_ri

/-- The idealization rewrote no operation. -/
theorem preserves : Cert.preserves_Kernel_KernelIdeal := trivial

/-- From memories agreeing on the arguments both idealized programs end with the specification's two functions of
    those arguments in their result arrays. -/
theorem algebraic : Cert.algebraic_KernelIdeal_ReferenceIdeal := by
  intro m ρ m' ρ' _ hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.run_kernel m ρ, ?_⟩
  refine (θ_run (Cert.ReferenceIdeal.defs (F := Ideal)) _ _).mono (fun r h c => ?_) (Cert.ReferenceIdeal.RefRun.run (F := Ideal) m' ρ')
  obtain ⟨h0, h1, hargs⟩ := h c
  obtain ⟨e0, e1, e2, e3, e4, e5, e6, e7, e8, e9, e10⟩ := hagree c
  refine ⟨h0.trans ?_, h1.trans ?_, hargs⟩
  · rw [Cert.ReferenceIdeal.RefVal.out0_eq, e0, e1, e2, e3, e4, e5, e6, e7, e8, e9, e10]
  · rw [Cert.ReferenceIdeal.RefVal.out1_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
